-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v259)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v259) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S4x32x32 : Shape := ⟨3, ![4, 32, 32]⟩
abbrev S5x32 : Shape := ⟨2, ![5, 32]⟩
abbrev S5x32x32 : Shape := ⟨3, ![5, 32, 32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S5x32 : S_.BroadcastsInDim S5x32 (![] : Fin 0 → Fin S5x32.rank)
  reducesTo_S5x32_S_d0_1 : S5x32.ReducesTo [0, 1] S_
  bcast_S_S5x32x32 : S_.BroadcastsInDim S5x32x32 (![] : Fin 0 → Fin S5x32x32.rank)
  reducesTo_S5x32x32_S_d0_1_2 : S5x32x32.ReducesTo [0, 1, 2] S_

variable [Facts]

def fn_part2 {F : FTy → Type} [FloatOps F] (main_arg8 : FVec F S5x32 .f32) (main_arg9 : FVec F S5x32 .f32) (main_v33 : IVec S_ 1) : IVec S_ 1 :=
  let main_v34 : FVec F S5x32 .f32 := Host.absf main_arg8
  let main_cst_12 : FVec F S_ .f32 := constant S_ .f32 0x7F800000#32
  let main_v35 : FVec F S5x32 .f32 := broadcastInDim S5x32 ![] bcast_S_S5x32 main_cst_12
  let main_v36 : IVec S5x32 1 := cmpf .olt main_v34 main_v35
  let main_c_13 : IVec S_ 1 := constantI S_ 1 1#1
  let main_v37 : IVec S_ 1 := (fun x v => Host.reduce IntOp.andi x v reducesTo_S5x32_S_d0_1 h_S_) main_v36 main_c_13
  let main_v38 : IVec S_ 1 := andi main_v33 main_v37
  let main_v39 : FVec F S5x32 .f32 := Host.absf main_arg9
  let main_cst_14 : FVec F S_ .f32 := constant S_ .f32 0x7F800000#32
  let main_v40 : FVec F S5x32 .f32 := broadcastInDim S5x32 ![] bcast_S_S5x32 main_cst_14
  let main_v41 : IVec S5x32 1 := cmpf .olt main_v39 main_v40
  let main_c_15 : IVec S_ 1 := constantI S_ 1 1#1
  let main_v42 : IVec S_ 1 := (fun x v => Host.reduce IntOp.andi x v reducesTo_S5x32_S_d0_1 h_S_) main_v41 main_c_15
  let main_v43 : IVec S_ 1 := andi main_v38 main_v42
  main_v43

def fn_part1 {F : FTy → Type} [FloatOps F] (main_arg5 : FVec F S5x32x32 .f32) (main_arg6 : FVec F S5x32 .f32) (main_arg7 : FVec F S5x32 .f32) (main_arg8 : FVec F S5x32 .f32) (main_arg9 : FVec F S5x32 .f32) (main_v13 : IVec S_ 1) (main_v16 : IVec S5x32 1) : IVec S_ 1 :=
  let main_c_5 : IVec S_ 1 := constantI S_ 1 1#1
  let main_v17 : IVec S_ 1 := (fun x v => Host.reduce IntOp.andi x v reducesTo_S5x32_S_d0_1 h_S_) main_v16 main_c_5
  let main_v18 : IVec S_ 1 := andi main_v13 main_v17
  let main_v19 : FVec F S5x32x32 .f32 := Host.absf main_arg5
  let main_cst_6 : FVec F S_ .f32 := constant S_ .f32 0x7F800000#32
  let main_v20 : FVec F S5x32x32 .f32 := broadcastInDim S5x32x32 ![] bcast_S_S5x32x32 main_cst_6
  let main_v21 : IVec S5x32x32 1 := cmpf .olt main_v19 main_v20
  let main_c_7 : IVec S_ 1 := constantI S_ 1 1#1
  let main_v22 : IVec S_ 1 := (fun x v => Host.reduce IntOp.andi x v reducesTo_S5x32x32_S_d0_1_2 h_S_) main_v21 main_c_7
  let main_v23 : IVec S_ 1 := andi main_v18 main_v22
  let main_v24 : FVec F S5x32 .f32 := Host.absf main_arg6
  let main_cst_8 : FVec F S_ .f32 := constant S_ .f32 0x7F800000#32
  let main_v25 : FVec F S5x32 .f32 := broadcastInDim S5x32 ![] bcast_S_S5x32 main_cst_8
  let main_v26 : IVec S5x32 1 := cmpf .olt main_v24 main_v25
  let main_c_9 : IVec S_ 1 := constantI S_ 1 1#1
  let main_v27 : IVec S_ 1 := (fun x v => Host.reduce IntOp.andi x v reducesTo_S5x32_S_d0_1 h_S_) main_v26 main_c_9
  let main_v28 : IVec S_ 1 := andi main_v23 main_v27
  let main_v29 : FVec F S5x32 .f32 := Host.absf main_arg7
  let main_cst_10 : FVec F S_ .f32 := constant S_ .f32 0x7F800000#32
  let main_v30 : FVec F S5x32 .f32 := broadcastInDim S5x32 ![] bcast_S_S5x32 main_cst_10
  let main_v31 : IVec S5x32 1 := cmpf .olt main_v29 main_v30
  let main_c_11 : IVec S_ 1 := constantI S_ 1 1#1
  let main_v32 : IVec S_ 1 := (fun x v => Host.reduce IntOp.andi x v reducesTo_S5x32_S_d0_1 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x3200000 32) (main_arg2 : FVec F S256x32 .f32) (main_arg3 : FVec F S4x32x32 .f32) (main_arg4 : FVec F S5x32 .f32) (main_arg5 : FVec F S5x32x32 .f32) (main_arg6 : FVec F S5x32 .f32) (main_arg7 : FVec F S5x32 .f32) (main_arg8 : FVec F S5x32 .f32) (main_arg9 : FVec F S5x32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S4x32x32 .f32 := Host.absf main_arg3
  let main_cst_2 : FVec F S_ .f32 := constant S_ .f32 0x7F800000#32
  let main_v10 : FVec F S4x32x32 .f32 := broadcastInDim S4x32x32 ![] bcast_S_S4x32x32 main_cst_2
  let main_v11 : IVec S4x32x32 1 := cmpf .olt main_v9 main_v10
  let main_c_3 : IVec S_ 1 := constantI S_ 1 1#1
  let main_v12 : IVec S_ 1 := (fun x v => Host.reduce IntOp.andi x v reducesTo_S4x32x32_S_d0_1_2 h_S_) main_v11 main_c_3
  let main_v13 : IVec S_ 1 := andi main_v8 main_v12
  let main_v14 : FVec F S5x32 .f32 := Host.absf main_arg4
  let main_cst_4 : FVec F S_ .f32 := constant S_ .f32 0x7F800000#32
  let main_v15 : FVec F S5x32 .f32 := broadcastInDim S5x32 ![] bcast_S_S5x32 main_cst_4
  let main_v16 : IVec S5x32 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S4x32x32 : Shape := ⟨3, ![4, 32, 32]⟩
abbrev S5x32 : Shape := ⟨2, ![5, 32]⟩
abbrev S5x32x32 : Shape := ⟨3, ![5, 32, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x32 : Shape := ⟨2, ![1, 32]⟩
abbrev S32 : Shape := ⟨1, ![32]⟩
abbrev S1x32x32 : Shape := ⟨3, ![1, 32, 32]⟩
abbrev S32x32 : Shape := ⟨2, ![32, 32]⟩
abbrev S100000x32 : Shape := ⟨2, ![100000, 32]⟩
abbrev S5000x256 : Shape := ⟨2, ![5000, 256]⟩
abbrev S5000x32 : Shape := ⟨2, ![5000, 32]⟩
abbrev S3300000x32 : Shape := ⟨2, ![3300000, 32]⟩

abbrev nBuf : Space → Nat
  | .hbm => 318
  | .vmem => 120
  | .smem => 0
  | _ => 0

abbrev hbmTy0_0 (i : Nat) : BufTy := match i % 128 with
  | 0 => ⟨S100000x256, .f32⟩
  | 1 => ⟨S2x3200000, .i32⟩
  | 2 => ⟨S256x32, .f32⟩
  | 3 => ⟨S4x32x32, .f32⟩
  | 4 => ⟨S5x32, .f32⟩
  | 5 => ⟨S5x32x32, .f32⟩
  | 6 => ⟨S5x32, .f32⟩
  | 7 => ⟨S5x32, .f32⟩
  | 8 => ⟨S5x32, .f32⟩
  | 9 => ⟨S5x32, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S3300000, .f32⟩
  | 25 => ⟨S_, .f32⟩
  | 26 => ⟨S100000, .f32⟩
  | 27 => ⟨S3300000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .i1⟩
  | 43 => ⟨S_, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000, .f32⟩
  | 59 => ⟨S3300000, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000, .f32⟩
  | 69 => ⟨S3300000, .f32⟩
  | 70 => ⟨S1x32, .f32⟩
  | 71 => ⟨S32, .f32⟩
  | 72 => ⟨S1x32x32, .f32⟩
  | 73 => ⟨S32x32, .f32⟩
  | 74 => ⟨S1x32, .f32⟩
  | 75 => ⟨S32, .f32⟩
  | 76 => ⟨S1x32, .f32⟩
  | 77 => ⟨S1x32, .f32⟩
  | 78 => ⟨S100000x32, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000x32, .f32⟩
  | 88 => ⟨S3300000x1, .f32⟩
  | 89 => ⟨S3300000x32, .f32⟩
  | 90 => ⟨S3300000x32, .f32⟩
  | 91 => ⟨S_, .f32⟩
  | 92 => ⟨S100000x32, .f32⟩
  | 93 => ⟨S3300000x1, .i32⟩
  | 94 => ⟨S100000x32, .f32⟩
  | 95 => ⟨S1x32, .f32⟩
  | 96 => ⟨S32, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S_, .f32⟩
  | 104 => ⟨S1x32, .f32⟩
  | 105 => ⟨S1x32, .f32⟩
  | 106 => ⟨S1x32, .f32⟩
  | 107 => ⟨S1x32, .f32⟩
  | 108 => ⟨S1x32, .f32⟩
  | 109 => ⟨S32, .f32⟩
  | 110 => ⟨S1x32, .f32⟩
  | 111 => ⟨S32, .f32⟩
  | 112 => ⟨S1x32, .f32⟩
  | 113 => ⟨S32, .f32⟩
  | 114 => ⟨S1x32, .f32⟩
  | 115 => ⟨S1x32, .f32⟩
  | 116 => ⟨S1x32, .f32⟩
  | 117 => ⟨S100000x32, .f32⟩
  | 118 => ⟨S1x32x32, .f32⟩
  | 119 => ⟨S32x32, .f32⟩
  | 120 => ⟨S1x32, .f32⟩
  | 121 => ⟨S32, .f32⟩
  | 122 => ⟨S1x32x32, .f32⟩
  | 123 => ⟨S32x32, .f32⟩
  | 124 => ⟨S1x32, .f32⟩
  | 125 => ⟨S32, .f32⟩
  | 126 => ⟨S1x32, .f32⟩
  | 127 => ⟨S1x32, .f32⟩
  | _ => ⟨S100000x256, .f32⟩

abbrev hbmTy0_1 (i : Nat) : BufTy := match i % 128 with
  | 0 => ⟨S100000x32, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x32, .f32⟩
  | 10 => ⟨S3300000x1, .f32⟩
  | 11 => ⟨S3300000x32, .f32⟩
  | 12 => ⟨S3300000x32, .f32⟩
  | 13 => ⟨S_, .f32⟩
  | 14 => ⟨S100000x32, .f32⟩
  | 15 => ⟨S3300000x1, .i32⟩
  | 16 => ⟨S100000x32, .f32⟩
  | 17 => ⟨S1x32, .f32⟩
  | 18 => ⟨S32, .f32⟩
  | 19 => ⟨S1x32, .f32⟩
  | 20 => ⟨S1x32, .f32⟩
  | 21 => ⟨S1x32, .f32⟩
  | 22 => ⟨S_, .f32⟩
  | 23 => ⟨S1x32, .f32⟩
  | 24 => ⟨S1x32, .f32⟩
  | 25 => ⟨S_, .f32⟩
  | 26 => ⟨S1x32, .f32⟩
  | 27 => ⟨S1x32, .f32⟩
  | 28 => ⟨S1x32, .f32⟩
  | 29 => ⟨S1x32, .f32⟩
  | 30 => ⟨S1x32, .f32⟩
  | 31 => ⟨S32, .f32⟩
  | 32 => ⟨S1x32, .f32⟩
  | 33 => ⟨S32, .f32⟩
  | 34 => ⟨S1x32, .f32⟩
  | 35 => ⟨S32, .f32⟩
  | 36 => ⟨S1x32, .f32⟩
  | 37 => ⟨S1x32, .f32⟩
  | 38 => ⟨S1x32, .f32⟩
  | 39 => ⟨S100000x32, .f32⟩
  | 40 => ⟨S1x32x32, .f32⟩
  | 41 => ⟨S32x32, .f32⟩
  | 42 => ⟨S1x32, .f32⟩
  | 43 => ⟨S32, .f32⟩
  | 44 => ⟨S1x32x32, .f32⟩
  | 45 => ⟨S32x32, .f32⟩
  | 46 => ⟨S1x32, .f32⟩
  | 47 => ⟨S32, .f32⟩
  | 48 => ⟨S1x32, .f32⟩
  | 49 => ⟨S1x32, .f32⟩
  | 50 => ⟨S100000x32, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x32, .f32⟩
  | 60 => ⟨S3300000x1, .f32⟩
  | 61 => ⟨S3300000x32, .f32⟩
  | 62 => ⟨S3300000x32, .f32⟩
  | 63 => ⟨S_, .f32⟩
  | 64 => ⟨S100000x32, .f32⟩
  | 65 => ⟨S3300000x1, .i32⟩
  | 66 => ⟨S100000x32, .f32⟩
  | 67 => ⟨S1x32, .f32⟩
  | 68 => ⟨S32, .f32⟩
  | 69 => ⟨S1x32, .f32⟩
  | 70 => ⟨S1x32, .f32⟩
  | 71 => ⟨S1x32, .f32⟩
  | 72 => ⟨S_, .f32⟩
  | 73 => ⟨S1x32, .f32⟩
  | 74 => ⟨S1x32, .f32⟩
  | 75 => ⟨S_, .f32⟩
  | 76 => ⟨S1x32, .f32⟩
  | 77 => ⟨S1x32, .f32⟩
  | 78 => ⟨S1x32, .f32⟩
  | 79 => ⟨S1x32, .f32⟩
  | 80 => ⟨S1x32, .f32⟩
  | 81 => ⟨S32, .f32⟩
  | 82 => ⟨S1x32, .f32⟩
  | 83 => ⟨S32, .f32⟩
  | 84 => ⟨S1x32, .f32⟩
  | 85 => ⟨S32, .f32⟩
  | 86 => ⟨S1x32, .f32⟩
  | 87 => ⟨S1x32, .f32⟩
  | 88 => ⟨S1x32, .f32⟩
  | 89 => ⟨S100000x32, .f32⟩
  | 90 => ⟨S1x32x32, .f32⟩
  | 91 => ⟨S32x32, .f32⟩
  | 92 => ⟨S1x32, .f32⟩
  | 93 => ⟨S32, .f32⟩
  | 94 => ⟨S1x32x32, .f32⟩
  | 95 => ⟨S32x32, .f32⟩
  | 96 => ⟨S1x32, .f32⟩
  | 97 => ⟨S32, .f32⟩
  | 98 => ⟨S1x32, .f32⟩
  | 99 => ⟨S1x32, .f32⟩
  | 100 => ⟨S100000x32, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x32, .f32⟩
  | 110 => ⟨S3300000x1, .f32⟩
  | 111 => ⟨S3300000x32, .f32⟩
  | 112 => ⟨S3300000x32, .f32⟩
  | 113 => ⟨S_, .f32⟩
  | 114 => ⟨S100000x32, .f32⟩
  | 115 => ⟨S3300000x1, .i32⟩
  | 116 => ⟨S100000x32, .f32⟩
  | 117 => ⟨S1x32, .f32⟩
  | 118 => ⟨S32, .f32⟩
  | 119 => ⟨S1x32, .f32⟩
  | 120 => ⟨S1x32, .f32⟩
  | 121 => ⟨S1x32, .f32⟩
  | 122 => ⟨S_, .f32⟩
  | 123 => ⟨S1x32, .f32⟩
  | 124 => ⟨S1x32, .f32⟩
  | 125 => ⟨S_, .f32⟩
  | 126 => ⟨S1x32, .f32⟩
  | 127 => ⟨S1x32, .f32⟩
  | _ => ⟨S100000x256, .f32⟩

abbrev hbmTy0_2 (i : Nat) : BufTy := match i % 128 with
  | 0 => ⟨S1x32, .f32⟩
  | 1 => ⟨S1x32, .f32⟩
  | 2 => ⟨S1x32, .f32⟩
  | 3 => ⟨S32, .f32⟩
  | 4 => ⟨S1x32, .f32⟩
  | 5 => ⟨S32, .f32⟩
  | 6 => ⟨S1x32, .f32⟩
  | 7 => ⟨S32, .f32⟩
  | 8 => ⟨S1x32, .f32⟩
  | 9 => ⟨S1x32, .f32⟩
  | 10 => ⟨S1x32, .f32⟩
  | 11 => ⟨S100000x32, .f32⟩
  | 12 => ⟨S1x32x32, .f32⟩
  | 13 => ⟨S32x32, .f32⟩
  | 14 => ⟨S1x32, .f32⟩
  | 15 => ⟨S32, .f32⟩
  | 16 => ⟨S1x32x32, .f32⟩
  | 17 => ⟨S32x32, .f32⟩
  | 18 => ⟨S1x32, .f32⟩
  | 19 => ⟨S32, .f32⟩
  | 20 => ⟨S1x32, .f32⟩
  | 21 => ⟨S1x32, .f32⟩
  | 22 => ⟨S100000x32, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000x32, .f32⟩
  | 32 => ⟨S3300000x1, .f32⟩
  | 33 => ⟨S3300000x32, .f32⟩
  | 34 => ⟨S3300000x32, .f32⟩
  | 35 => ⟨S_, .f32⟩
  | 36 => ⟨S100000x32, .f32⟩
  | 37 => ⟨S3300000x1, .i32⟩
  | 38 => ⟨S100000x32, .f32⟩
  | 39 => ⟨S1x32, .f32⟩
  | 40 => ⟨S32, .f32⟩
  | 41 => ⟨S1x32, .f32⟩
  | 42 => ⟨S1x32, .f32⟩
  | 43 => ⟨S1x32, .f32⟩
  | 44 => ⟨S_, .f32⟩
  | 45 => ⟨S1x32, .f32⟩
  | 46 => ⟨S1x32, .f32⟩
  | 47 => ⟨S_, .f32⟩
  | 48 => ⟨S1x32, .f32⟩
  | 49 => ⟨S1x32, .f32⟩
  | 50 => ⟨S1x32, .f32⟩
  | 51 => ⟨S1x32, .f32⟩
  | 52 => ⟨S1x32, .f32⟩
  | 53 => ⟨S32, .f32⟩
  | 54 => ⟨S1x32, .f32⟩
  | 55 => ⟨S32, .f32⟩
  | 56 => ⟨S1x32, .f32⟩
  | 57 => ⟨S32, .f32⟩
  | 58 => ⟨S1x32, .f32⟩
  | 59 => ⟨S1x32, .f32⟩
  | 60 => ⟨S1x32, .f32⟩
  | 61 => ⟨S100000x32, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S1x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S32x32, .f32⟩
  | .local _ .vmem, ⟨27, _⟩ => ⟨S1x32, .f32⟩
  | .local _ .vmem, ⟨28, _⟩ => ⟨S32x32, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S5000x32, .f32⟩
  | .local _ .vmem, ⟨40, _⟩ => ⟨S5000x32, .f32⟩
  | .local _ .vmem, ⟨41, _⟩ => ⟨S1x32, .f32⟩
  | .local _ .vmem, ⟨42, _⟩ => ⟨S1x32, .f32⟩
  | .local _ .vmem, ⟨43, _⟩ => ⟨S1x32, .f32⟩
  | .local _ .vmem, ⟨44, _⟩ => ⟨S1x32, .f32⟩
  | .local _ .vmem, ⟨45, _⟩ => ⟨S1x32, .f32⟩
  | .local _ .vmem, ⟨46, _⟩ => ⟨S5000x32, .f32⟩
  | .local _ .vmem, ⟨47, _⟩ => ⟨S5000x32, .f32⟩
  | .local _ .vmem, ⟨48, _⟩ => ⟨S5000x32, .f32⟩
  | .local _ .vmem, ⟨49, _⟩ => ⟨S5000x32, .f32⟩
  | .local _ .vmem, ⟨50, _⟩ => ⟨S32x32, .f32⟩
  | .local _ .vmem, ⟨51, _⟩ => ⟨S1x32, .f32⟩
  | .local _ .vmem, ⟨52, _⟩ => ⟨S32x32, .f32⟩
  | .local _ .vmem, ⟨53, _⟩ => ⟨S1x32, .f32⟩
  | .local _ .vmem, ⟨54, _⟩ => ⟨S5000x32, .f32⟩
  | .local _ .vmem, ⟨55, _⟩ => ⟨S5000x32, .f32⟩
  | .local _ .vmem, ⟨56, _⟩ => ⟨S5000x32, .f32⟩
  | .local _ .vmem, ⟨57, _⟩ => ⟨S5000x32, .f32⟩
  | .local _ .vmem, ⟨58, _⟩ => ⟨S1x32, .f32⟩
  | .local _ .vmem, ⟨59, _⟩ => ⟨S1x32, .f32⟩
  | .local _ .vmem, ⟨60, _⟩ => ⟨S1x32, .f32⟩
  | .local _ .vmem, ⟨61, _⟩ => ⟨S1x32, .f32⟩
  | .local _ .vmem, ⟨62, _⟩ => ⟨S1x32, .f32⟩
  | .local _ .vmem, ⟨63, _⟩ => ⟨S5000x32, .f32⟩
  | .local _ .vmem, ⟨64, _⟩ => ⟨S5000x32, .f32⟩
  | .local _ .vmem, ⟨65, _⟩ => ⟨S1x32, .f32⟩
  | .local _ .vmem, ⟨66, _⟩ => ⟨S1x32, .f32⟩
  | .local _ .vmem, ⟨67, _⟩ => ⟨S1x32, .f32⟩
  | .local _ .vmem, ⟨68, _⟩ => ⟨S1x32, .f32⟩
  | .local _ .vmem, ⟨69, _⟩ => ⟨S1x32, .f32⟩
  | .local _ .vmem, ⟨70, _⟩ => ⟨S5000x32, .f32⟩
  | .local _ .vmem, ⟨71, _⟩ => ⟨S5000x32, .f32⟩
  | .local _ .vmem, ⟨72, _⟩ => ⟨S5000x32, .f32⟩
  | .local _ .vmem, ⟨73, _⟩ => ⟨S5000x32, .f32⟩
  | .local _ .vmem, ⟨74, _⟩ => ⟨S32x32, .f32⟩
  | .local _ .vmem, ⟨75, _⟩ => ⟨S1x32, .f32⟩
  | .local _ .vmem, ⟨76, _⟩ => ⟨S32x32, .f32⟩
  | .local _ .vmem, ⟨77, _⟩ => ⟨S1x32, .f32⟩
  | .local _ .vmem, ⟨78, _⟩ => ⟨S5000x32, .f32⟩
  | .local _ .vmem, ⟨79, _⟩ => ⟨S5000x32, .f32⟩
  | .local _ .vmem, ⟨80, _⟩ => ⟨S5000x32, .f32⟩
  | .local _ .vmem, ⟨81, _⟩ => ⟨S5000x32, .f32⟩
  | .local _ .vmem, ⟨82, _⟩ => ⟨S1x32, .f32⟩
  | .local _ .vmem, ⟨83, _⟩ => ⟨S1x32, .f32⟩
  | .local _ .vmem, ⟨84, _⟩ => ⟨S1x32, .f32⟩
  | .local _ .vmem, ⟨85, _⟩ => ⟨S1x32, .f32⟩
  | .local _ .vmem, ⟨86, _⟩ => ⟨S1x32, .f32⟩
  | .local _ .vmem, ⟨87, _⟩ => ⟨S5000x32, .f32⟩
  | .local _ .vmem, ⟨88, _⟩ => ⟨S5000x32, .f32⟩
  | .local _ .vmem, ⟨89, _⟩ => ⟨S1x32, .f32⟩
  | .local _ .vmem, ⟨90, _⟩ => ⟨S1x32, .f32⟩
  | .local _ .vmem, ⟨91, _⟩ => ⟨S1x32, .f32⟩
  | .local _ .vmem, ⟨92, _⟩ => ⟨S1x32, .f32⟩
  | .local _ .vmem, ⟨93, _⟩ => ⟨S1x32, .f32⟩
  | .local _ .vmem, ⟨94, _⟩ => ⟨S5000x32, .f32⟩
  | .local _ .vmem, ⟨95, _⟩ => ⟨S5000x32, .f32⟩
  | .local _ .vmem, ⟨96, _⟩ => ⟨S5000x32, .f32⟩
  | .local _ .vmem, ⟨97, _⟩ => ⟨S5000x32, .f32⟩
  | .local _ .vmem, ⟨98, _⟩ => ⟨S32x32, .f32⟩
  | .local _ .vmem, ⟨99, _⟩ => ⟨S1x32, .f32⟩
  | .local _ .vmem, ⟨100, _⟩ => ⟨S32x32, .f32⟩
  | .local _ .vmem, ⟨101, _⟩ => ⟨S1x32, .f32⟩
  | .local _ .vmem, ⟨102, _⟩ => ⟨S5000x32, .f32⟩
  | .local _ .vmem, ⟨103, _⟩ => ⟨S5000x32, .f32⟩
  | .local _ .vmem, ⟨104, _⟩ => ⟨S5000x32, .f32⟩
  | .local _ .vmem, ⟨105, _⟩ => ⟨S5000x32, .f32⟩
  | .local _ .vmem, ⟨106, _⟩ => ⟨S1x32, .f32⟩
  | .local _ .vmem, ⟨107, _⟩ => ⟨S1x32, .f32⟩
  | .local _ .vmem, ⟨108, _⟩ => ⟨S1x32, .f32⟩
  | .local _ .vmem, ⟨109, _⟩ => ⟨S1x32, .f32⟩
  | .local _ .vmem, ⟨110, _⟩ => ⟨S1x32, .f32⟩
  | .local _ .vmem, ⟨111, _⟩ => ⟨S5000x32, .f32⟩
  | .local _ .vmem, ⟨112, _⟩ => ⟨S5000x32, .f32⟩
  | .local _ .vmem, ⟨113, _⟩ => ⟨S1x32, .f32⟩
  | .local _ .vmem, ⟨114, _⟩ => ⟨S1x32, .f32⟩
  | .local _ .vmem, ⟨115, _⟩ => ⟨S1x32, .f32⟩
  | .local _ .vmem, ⟨116, _⟩ => ⟨S1x32, .f32⟩
  | .local _ .vmem, ⟨117, _⟩ => ⟨S1x32, .f32⟩
  | .local _ .vmem, ⟨118, _⟩ => ⟨S5000x32, .f32⟩
  | .local _ .vmem, ⟨119, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_10 : Ref sig .tc := ⟨.hbm, 60, rfl⟩
abbrev main_v34 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67_0 : Ref sig .tc := ⟨.hbm, 98, rfl⟩
abbrev main_v67_1 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_19 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111_0 : Ref sig .tc := ⟨.hbm, 148, rfl⟩
abbrev main_v111_1 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_cst_21 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_c_22 : Ref sig .tc := ⟨.hbm, 179, rfl⟩
abbrev main_v139 : Ref sig .tc := ⟨.hbm, 180, rfl⟩
abbrev main_v140 : Ref sig .tc := ⟨.hbm, 181, rfl⟩
abbrev main_c_23 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_24 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155_0 : Ref sig .tc := ⟨.hbm, 198, rfl⟩
abbrev main_v155_1 : Ref sig .tc := ⟨.hbm, 199, rfl⟩
abbrev main_cst_25 : Ref sig .tc := ⟨.hbm, 200, rfl⟩
abbrev main_v156 : Ref sig .tc := ⟨.hbm, 201, rfl⟩
abbrev main_v157 : Ref sig .tc := ⟨.hbm, 202, rfl⟩
abbrev main_cst_26 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_c_27 : Ref sig .tc := ⟨.hbm, 229, rfl⟩
abbrev main_v183 : Ref sig .tc := ⟨.hbm, 230, rfl⟩
abbrev main_v184 : Ref sig .tc := ⟨.hbm, 231, rfl⟩
abbrev main_c_28 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_29 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199_0 : Ref sig .tc := ⟨.hbm, 248, rfl⟩
abbrev main_v199_1 : Ref sig .tc := ⟨.hbm, 249, rfl⟩
abbrev main_cst_30 : Ref sig .tc := ⟨.hbm, 250, rfl⟩
abbrev main_v200 : Ref sig .tc := ⟨.hbm, 251, rfl⟩
abbrev main_v201 : Ref sig .tc := ⟨.hbm, 252, rfl⟩
abbrev main_cst_31 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_c_32 : Ref sig .tc := ⟨.hbm, 279, rfl⟩
abbrev main_v227 : Ref sig .tc := ⟨.hbm, 280, rfl⟩
abbrev main_v228 : Ref sig .tc := ⟨.hbm, 281, rfl⟩
abbrev main_c_33 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_cst_34 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243_0 : Ref sig .tc := ⟨.hbm, 298, rfl⟩
abbrev main_v243_1 : Ref sig .tc := ⟨.hbm, 299, rfl⟩
abbrev main_cst_35 : Ref sig .tc := ⟨.hbm, 300, rfl⟩
abbrev main_v244 : Ref sig .tc := ⟨.hbm, 301, rfl⟩
abbrev main_v245 : Ref sig .tc := ⟨.hbm, 302, rfl⟩
abbrev main_cst_36 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_scratch0 : Ref sig .tc := ⟨.vmem, 37, rfl⟩
abbrev cc4_scratch1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_scratch0 : Ref sig .tc := ⟨.vmem, 61, rfl⟩
abbrev cc7_scratch1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg6_0 : Ref sig .tc := ⟨.vmem, 70, rfl⟩
abbrev cc8_stg6_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_scratch0 : Ref sig .tc := ⟨.vmem, 85, rfl⟩
abbrev cc10_scratch1 : Ref sig .tc := ⟨.vmem, 86, rfl⟩
abbrev cc11_stg0_0 : Ref sig .tc := ⟨.vmem, 87, rfl⟩
abbrev cc11_stg0_1 : Ref sig .tc := ⟨.vmem, 88, rfl⟩
abbrev cc11_stg1_0 : Ref sig .tc := ⟨.vmem, 89, rfl⟩
abbrev cc11_stg2_0 : Ref sig .tc := ⟨.vmem, 90, rfl⟩
abbrev cc11_stg3_0 : Ref sig .tc := ⟨.vmem, 91, rfl⟩
abbrev cc11_stg4_0 : Ref sig .tc := ⟨.vmem, 92, rfl⟩
abbrev cc11_stg5_0 : Ref sig .tc := ⟨.vmem, 93, rfl⟩
abbrev cc11_stg6_0 : Ref sig .tc := ⟨.vmem, 94, rfl⟩
abbrev cc11_stg6_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg4_0 : Ref sig .tc := ⟨.vmem, 101, rfl⟩
abbrev cc12_stg5_0 : Ref sig .tc := ⟨.vmem, 102, rfl⟩
abbrev cc12_stg5_1 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg2_0 : Ref sig .tc := ⟨.vmem, 107, rfl⟩
abbrev cc13_stg3_0 : Ref sig .tc := ⟨.vmem, 108, rfl⟩
abbrev cc13_scratch0 : Ref sig .tc := ⟨.vmem, 109, rfl⟩
abbrev cc13_scratch1 : Ref sig .tc := ⟨.vmem, 110, rfl⟩
abbrev cc14_stg0_0 : Ref sig .tc := ⟨.vmem, 111, rfl⟩
abbrev cc14_stg0_1 : Ref sig .tc := ⟨.vmem, 112, rfl⟩
abbrev cc14_stg1_0 : Ref sig .tc := ⟨.vmem, 113, rfl⟩
abbrev cc14_stg2_0 : Ref sig .tc := ⟨.vmem, 114, rfl⟩
abbrev cc14_stg3_0 : Ref sig .tc := ⟨.vmem, 115, rfl⟩
abbrev cc14_stg4_0 : Ref sig .tc := ⟨.vmem, 116, rfl⟩
abbrev cc14_stg5_0 : Ref sig .tc := ⟨.vmem, 117, rfl⟩
abbrev cc14_stg6_0 : Ref sig .tc := ⟨.vmem, 118, rfl⟩
abbrev cc14_stg6_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem5_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem6_0 : DmaSem sig := 64
abbrev cc8_sem6_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem5_1 : DmaSem sig := 73
abbrev cc10_sem0_0 : DmaSem sig := 74
abbrev cc10_sem0_1 : DmaSem sig := 75
abbrev cc10_sem1_0 : DmaSem sig := 76
abbrev cc10_sem2_0 : DmaSem sig := 77
abbrev cc10_sem3_0 : DmaSem sig := 78
abbrev cc11_sem0_0 : DmaSem sig := 79
abbrev cc11_sem0_1 : DmaSem sig := 80
abbrev cc11_sem1_0 : DmaSem sig := 81
abbrev cc11_sem2_0 : DmaSem sig := 82
abbrev cc11_sem3_0 : DmaSem sig := 83
abbrev cc11_sem4_0 : DmaSem sig := 84
abbrev cc11_sem5_0 : DmaSem sig := 85
abbrev cc11_sem6_0 : DmaSem sig := 86
abbrev cc11_sem6_1 : DmaSem sig := 87
abbrev cc12_sem0_0 : DmaSem sig := 88
abbrev cc12_sem0_1 : DmaSem sig := 89
abbrev cc12_sem1_0 : DmaSem sig := 90
abbrev cc12_sem2_0 : DmaSem sig := 91
abbrev cc12_sem3_0 : DmaSem sig := 92
abbrev cc12_sem4_0 : DmaSem sig := 93
abbrev cc12_sem5_0 : DmaSem sig := 94
abbrev cc12_sem5_1 : DmaSem sig := 95
abbrev cc13_sem0_0 : DmaSem sig := 96
abbrev cc13_sem0_1 : DmaSem sig := 97
abbrev cc13_sem1_0 : DmaSem sig := 98
abbrev cc13_sem2_0 : DmaSem sig := 99
abbrev cc13_sem3_0 : DmaSem sig := 100
abbrev cc14_sem0_0 : DmaSem sig := 101
abbrev cc14_sem0_1 : DmaSem sig := 102
abbrev cc14_sem1_0 : DmaSem sig := 103
abbrev cc14_sem2_0 : DmaSem sig := 104
abbrev cc14_sem3_0 : DmaSem sig := 105
abbrev cc14_sem4_0 : DmaSem sig := 106
abbrev cc14_sem5_0 : DmaSem sig := 107
abbrev cc14_sem6_0 : DmaSem sig := 108
abbrev cc14_sem6_1 : DmaSem sig := 109

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x32 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x32 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def k10_cond2 (i : grid10.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x32 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x32 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x32 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x32 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S32x32 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x32 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x32 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![20], ![false]⟩

def k13_cond2 (i : grid13.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x32 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x32 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x32 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x32 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x32 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x32 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x32 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S5000x32 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  slices_S5x32_S1x32_0_0 : S5x32.Slices ![0, 0] S1x32
  shapeCasts_S1x32_S32 : S1x32.ShapeCasts S32
  slices_S5x32x32_S1x32x32_0_0_0 : S5x32x32.Slices ![0, 0, 0] S1x32x32
  shapeCasts_S1x32x32_S32x32 : S1x32x32.ShapeCasts S32x32
  shapeCasts_S32_S1x32 : S32.ShapeCasts S1x32
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S5000x32_S5000x32 : S5000x32.ShapeCasts S5000x32
  reduces_S5000x32_S32 : S5000x32.Reduces [0] S32
  bcast_S_S1x32 : S_.BroadcastsInDim S1x32 (![] : Fin 0 → Fin S1x32.rank)
  slices_S4x32x32_S1x32x32_0_0_0 : S4x32x32.Slices ![0, 0, 0] S1x32x32
  slices_S5x32_S1x32_1_0 : S5x32.Slices ![1, 0] S1x32
  slices_S5x32x32_S1x32x32_1_0_0 : S5x32x32.Slices ![1, 0, 0] S1x32x32
  slices_S4x32x32_S1x32x32_1_0_0 : S4x32x32.Slices ![1, 0, 0] S1x32x32
  slices_S5x32_S1x32_2_0 : S5x32.Slices ![2, 0] S1x32
  slices_S5x32x32_S1x32x32_2_0_0 : S5x32x32.Slices ![2, 0, 0] S1x32x32
  slices_S4x32x32_S1x32x32_2_0_0 : S4x32x32.Slices ![2, 0, 0] S1x32x32
  slices_S5x32_S1x32_3_0 : S5x32.Slices ![3, 0] S1x32
  slices_S5x32x32_S1x32x32_3_0_0 : S5x32x32.Slices ![3, 0, 0] S1x32x32
  slices_S4x32x32_S1x32x32_3_0_0 : S4x32x32.Slices ![3, 0, 0] S1x32x32
  slices_S5x32_S1x32_4_0 : S5x32.Slices ![4, 0] S1x32
  slices_S5x32x32_S1x32x32_4_0_0 : S5x32x32.Slices ![4, 0, 0] S1x32x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  dot_S5000x32_S32x32_S5000x32_1_0_0_1_n_n_wf : DotDims.WF S5000x32 S32x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x32.size a ≤ S100000x32.size a
  hwx2_6 : ∀ i : grid2.Coords, EltTy.bits .f32 = 32 ∨ (Rect.block (s := S100000x32) S5000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x32.size a ≤ S100000x32.size a
  hwx5_6 : ∀ i : grid5.Coords, EltTy.bits .f32 = 32 ∨ (Rect.block (s := S100000x32) S5000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x32.size a ≤ S100000x32.size a
  hwx6_5 : ∀ i : grid6.Coords, EltTy.bits .f32 = 32 ∨ (Rect.block (s := S100000x32) S5000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x32.size a ≤ S1x32.size a
  hwx8_5 : ∀ i : grid8.Coords, EltTy.bits .f32 = 32 ∨ (Rect.block (s := S1x32) S1x32.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x32.size a ≤ S100000x32.size a
  hwx8_6 : ∀ i : grid8.Coords, EltTy.bits .f32 = 32 ∨ (Rect.block (s := S100000x32) S5000x32.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S100000x32.size a
  hwx9_0 : ∀ i : grid9.Coords, EltTy.bits .f32 = 32 ∨ (Rect.block (s := S100000x32) S5000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x32.size a ≤ S32x32.size a
  hwx9_3 : ∀ i : grid9.Coords, EltTy.bits .f32 = 32 ∨ (Rect.block (s := S32x32) S32x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x32.size a ≤ S100000x32.size a
  hwx9_5 : ∀ i : grid9.Coords, EltTy.bits .f32 = 32 ∨ (Rect.block (s := S100000x32) S5000x32.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S100000x32.size a
  hwx10_0 : ∀ i : grid10.Coords, EltTy.bits .f32 = 32 ∨ (Rect.block (s := S100000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x32.size a ≤ S1x32.size a
  hwx10_1 : ∀ i : grid10.Coords, EltTy.bits .f32 = 32 ∨ (Rect.block (s := S1x32) S1x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x32.size a ≤ S1x32.size a
  hwx10_3 : ∀ i : grid10.Coords, EltTy.bits .f32 = 32 ∨ (Rect.block (s := S1x32) S1x32.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x32.size a ≤ S100000x32.size a
  hwx11_0 : ∀ i : grid11.Coords, EltTy.bits .f32 = 32 ∨ (Rect.block (s := S100000x32) S5000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x32.size a ≤ S1x32.size a
  hwx11_1 : ∀ i : grid11.Coords, EltTy.bits .f32 = 32 ∨ (Rect.block (s := S1x32) S1x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x32.size a ≤ S1x32.size a
  hwx11_5 : ∀ i : grid11.Coords, EltTy.bits .f32 = 32 ∨ (Rect.block (s := S1x32) S1x32.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x32.size a ≤ S100000x32.size a
  hwx11_6 : ∀ i : grid11.Coords, EltTy.bits .f32 = 32 ∨ (Rect.block (s := S100000x32) S5000x32.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x32.size a ≤ S100000x32.size a
  hwx12_0 : ∀ i : grid12.Coords, EltTy.bits .f32 = 32 ∨ (Rect.block (s := S100000x32) S5000x32.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S32x32.size a ≤ S32x32.size a
  hwx12_1 : ∀ i : grid12.Coords, EltTy.bits .f32 = 32 ∨ (Rect.block (s := S32x32) S32x32.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x32.size a ≤ S1x32.size a
  hwx12_2 : ∀ i : grid12.Coords, EltTy.bits .f32 = 32 ∨ (Rect.block (s := S1x32) S1x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x32.size a ≤ S32x32.size a
  hwx12_3 : ∀ i : grid12.Coords, EltTy.bits .f32 = 32 ∨ (Rect.block (s := S32x32) S32x32.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x32.size a ≤ S1x32.size a
  hwx12_4 : ∀ i : grid12.Coords, EltTy.bits .f32 = 32 ∨ (Rect.block (s := S1x32) S1x32.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x32.size a ≤ S100000x32.size a
  hwx12_5 : ∀ i : grid12.Coords, EltTy.bits .f32 = 32 ∨ (Rect.block (s := S100000x32) S5000x32.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x32.size a ≤ S100000x32.size a
  hwx13_0 : ∀ i : grid13.Coords, EltTy.bits .f32 = 32 ∨ (Rect.block (s := S100000x32) S5000x32.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x32.size a ≤ S1x32.size a
  hwx13_1 : ∀ i : grid13.Coords, EltTy.bits .f32 = 32 ∨ (Rect.block (s := S1x32) S1x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x32.size a ≤ S1x32.size a
  hwx13_2 : ∀ i : grid13.Coords, EltTy.bits .f32 = 32 ∨ (Rect.block (s := S1x32) S1x32.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x32.size a ≤ S1x32.size a
  hwx13_3 : ∀ i : grid13.Coords, EltTy.bits .f32 = 32 ∨ (Rect.block (s := S1x32) S1x32.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x32.size a ≤ S100000x32.size a
  hwx14_0 : ∀ i : grid14.Coords, EltTy.bits .f32 = 32 ∨ (Rect.block (s := S100000x32) S5000x32.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x32.size a ≤ S1x32.size a
  hwx14_1 : ∀ i : grid14.Coords, EltTy.bits .f32 = 32 ∨ (Rect.block (s := S1x32) S1x32.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x32.size a ≤ S1x32.size a
  hwx14_2 : ∀ i : grid14.Coords, EltTy.bits .f32 = 32 ∨ (Rect.block (s := S1x32) S1x32.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x32.size a ≤ S1x32.size a
  hwx14_3 : ∀ i : grid14.Coords, EltTy.bits .f32 = 32 ∨ (Rect.block (s := S1x32) S1x32.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x32.size a ≤ S1x32.size a
  hwx14_4 : ∀ i : grid14.Coords, EltTy.bits .f32 = 32 ∨ (Rect.block (s := S1x32) S1x32.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x32.size a ≤ S1x32.size a
  hwx14_5 : ∀ i : grid14.Coords, EltTy.bits .f32 = 32 ∨ (Rect.block (s := S1x32) S1x32.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S5000x32.size a ≤ S100000x32.size a
  hwx14_6 : ∀ i : grid14.Coords, EltTy.bits .f32 = 32 ∨ (Rect.block (s := S100000x32) S5000x32.size (cc14_transform_6 i) (hinb14_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v63) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67_0) S1x32.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67_1) S1x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v63) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S5000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v83) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v107) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v111_0) S1x32.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111_1) S1x32.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v107) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v113) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v127) S5000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v127) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v136) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v133) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v137) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v138) S5000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v151) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v154) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v155_0) S1x32.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v155_1) S1x32.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v151) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v168) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v157) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v161) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v169) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v170) S1x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v171) S5000x32.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v171) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v173) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v180) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v177) S32x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v181) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v182) S5000x32.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v195) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v198) S1x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v199_0) S1x32.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v199_1) S1x32.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun i => !(k10_cond2 i == 1#1) | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v195) S5000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v212) S1x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v201) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v205) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v213) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v214) S1x32.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v215) S5000x32.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v215) S5000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v217) S32x32.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v224) S1x32.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v221) S32x32.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v225) S1x32.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v226) S5000x32.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v239) S5000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v242) S1x32.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v243_0) S1x32.size cc13_transform_2 reads13_2 true true 1 stage13_2 sem13_2
    hrank13 hreads13_2 hinb13_2 nbuf13_2 (Memref.isWhole_whole _) hwx13_2 hstage13_2

abbrev win13_3 : Pipeline.Window sig grid13 :=
  Pipeline.Window.ofSpec (Memref.whole main_v243_1) S1x32.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun i => !(k13_cond2 i == 1#1) | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v239) S5000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v256) S1x32.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v245) S1x32.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v249) S1x32.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v257) S1x32.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v258) S1x32.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v259) S5000x32.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S4x32x32 : Shape := ⟨3, ![4, 32, 32]⟩
abbrev S5x32 : Shape := ⟨2, ![5, 32]⟩
abbrev S5x32x32 : Shape := ⟨3, ![5, 32, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S1x32 : Shape := ⟨2, ![1, 32]⟩
abbrev S32 : Shape := ⟨1, ![32]⟩
abbrev S1x32x32 : Shape := ⟨3, ![1, 32, 32]⟩
abbrev S32x32 : Shape := ⟨2, ![32, 32]⟩
abbrev S3300000x32 : Shape := ⟨2, ![3300000, 32]⟩

abbrev nBuf : Space → Nat
  | .hbm => 520
  | .vmem => 0
  | .smem => 0
  | _ => 0

abbrev hbmTy0_0 (i : Nat) : BufTy := match i % 128 with
  | 0 => ⟨S100000x256, .f32⟩
  | 1 => ⟨S2x3200000, .i32⟩
  | 2 => ⟨S256x32, .f32⟩
  | 3 => ⟨S4x32x32, .f32⟩
  | 4 => ⟨S5x32, .f32⟩
  | 5 => ⟨S5x32x32, .f32⟩
  | 6 => ⟨S5x32, .f32⟩
  | 7 => ⟨S5x32, .f32⟩
  | 8 => ⟨S5x32, .f32⟩
  | 9 => ⟨S5x32, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S3300000, .f32⟩
  | 25 => ⟨S_, .f32⟩
  | 26 => ⟨S100000, .f32⟩
  | 27 => ⟨S3300000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .i1⟩
  | 43 => ⟨S_, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000, .f32⟩
  | 59 => ⟨S3300000, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000, .f32⟩
  | 69 => ⟨S3300000, .f32⟩
  | 70 => ⟨S100000x32, .f32⟩
  | 71 => ⟨S1x32, .f32⟩
  | 72 => ⟨S32, .f32⟩
  | 73 => ⟨S1x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S1x32x32, .f32⟩
  | 80 => ⟨S32x32, .f32⟩
  | 81 => ⟨S100000x32, .f32⟩
  | 82 => ⟨S1x32, .f32⟩
  | 83 => ⟨S32, .f32⟩
  | 84 => ⟨S1x32, .f32⟩
  | 85 => ⟨S100000x32, .f32⟩
  | 86 => ⟨S100000x32, .f32⟩
  | 87 => ⟨S3300000x1, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x32, .f32⟩
  | 97 => ⟨S3300000x32, .f32⟩
  | 98 => ⟨S3300000x32, .f32⟩
  | 99 => ⟨S_, .f32⟩
  | 100 => ⟨S100000x32, .f32⟩
  | 101 => ⟨S3300000x1, .i32⟩
  | 102 => ⟨S100000x32, .f32⟩
  | 103 => ⟨S1x32, .f32⟩
  | 104 => ⟨S32, .f32⟩
  | 105 => ⟨S1x32, .f32⟩
  | 106 => ⟨S100000x32, .f32⟩
  | 107 => ⟨S100000x32, .f32⟩
  | 108 => ⟨S_, .f32⟩
  | 109 => ⟨S32, .f32⟩
  | 110 => ⟨S_, .f32⟩
  | 111 => ⟨S32, .f32⟩
  | 112 => ⟨S32, .f32⟩
  | 113 => ⟨S_, .i32⟩
  | 114 => ⟨S_, .f32⟩
  | 115 => ⟨S32, .f32⟩
  | 116 => ⟨S1x32, .f32⟩
  | 117 => ⟨S_, .f32⟩
  | 118 => ⟨S1x32, .f32⟩
  | 119 => ⟨S1x32, .f32⟩
  | 120 => ⟨S100000x32, .f32⟩
  | 121 => ⟨S100000x32, .f32⟩
  | 122 => ⟨S100000x32, .f32⟩
  | 123 => ⟨S_, .f32⟩
  | 124 => ⟨S_, .f32⟩
  | 125 => ⟨S_, .f32⟩
  | 126 => ⟨S_, .f32⟩
  | 127 => ⟨S32, .f32⟩
  | _ => ⟨S100000x256, .f32⟩

abbrev hbmTy0_1 (i : Nat) : BufTy := match i % 128 with
  | 0 => ⟨S32, .f32⟩
  | 1 => ⟨S32, .f32⟩
  | 2 => ⟨S_, .f32⟩
  | 3 => ⟨S_, .i1⟩
  | 4 => ⟨S_, .f32⟩
  | 5 => ⟨S_, .f32⟩
  | 6 => ⟨S32, .f32⟩
  | 7 => ⟨S32, .f32⟩
  | 8 => ⟨S1x32, .f32⟩
  | 9 => ⟨S100000x32, .f32⟩
  | 10 => ⟨S100000x32, .f32⟩
  | 11 => ⟨S_, .f32⟩
  | 12 => ⟨S32, .f32⟩
  | 13 => ⟨S32, .f32⟩
  | 14 => ⟨S32, .f32⟩
  | 15 => ⟨S1x32, .f32⟩
  | 16 => ⟨S100000x32, .f32⟩
  | 17 => ⟨S100000x32, .f32⟩
  | 18 => ⟨S1x32, .f32⟩
  | 19 => ⟨S32, .f32⟩
  | 20 => ⟨S1x32, .f32⟩
  | 21 => ⟨S100000x32, .f32⟩
  | 22 => ⟨S100000x32, .f32⟩
  | 23 => ⟨S1x32, .f32⟩
  | 24 => ⟨S32, .f32⟩
  | 25 => ⟨S1x32, .f32⟩
  | 26 => ⟨S100000x32, .f32⟩
  | 27 => ⟨S100000x32, .f32⟩
  | 28 => ⟨S_, .f32⟩
  | 29 => ⟨S100000x32, .f32⟩
  | 30 => ⟨S100000x32, .f32⟩
  | 31 => ⟨S1x32x32, .f32⟩
  | 32 => ⟨S32x32, .f32⟩
  | 33 => ⟨S100000x32, .f32⟩
  | 34 => ⟨S1x32, .f32⟩
  | 35 => ⟨S32, .f32⟩
  | 36 => ⟨S1x32, .f32⟩
  | 37 => ⟨S100000x32, .f32⟩
  | 38 => ⟨S100000x32, .f32⟩
  | 39 => ⟨S_, .f32⟩
  | 40 => ⟨S100000x32, .f32⟩
  | 41 => ⟨S100000x32, .f32⟩
  | 42 => ⟨S1x32x32, .f32⟩
  | 43 => ⟨S32x32, .f32⟩
  | 44 => ⟨S100000x32, .f32⟩
  | 45 => ⟨S1x32, .f32⟩
  | 46 => ⟨S32, .f32⟩
  | 47 => ⟨S1x32, .f32⟩
  | 48 => ⟨S100000x32, .f32⟩
  | 49 => ⟨S100000x32, .f32⟩
  | 50 => ⟨S3300000x1, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x32, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32, .f32⟩
  | 67 => ⟨S32, .f32⟩
  | 68 => ⟨S1x32, .f32⟩
  | 69 => ⟨S100000x32, .f32⟩
  | 70 => ⟨S100000x32, .f32⟩
  | 71 => ⟨S_, .f32⟩
  | 72 => ⟨S32, .f32⟩
  | 73 => ⟨S_, .f32⟩
  | 74 => ⟨S32, .f32⟩
  | 75 => ⟨S32, .f32⟩
  | 76 => ⟨S_, .i32⟩
  | 77 => ⟨S_, .f32⟩
  | 78 => ⟨S32, .f32⟩
  | 79 => ⟨S1x32, .f32⟩
  | 80 => ⟨S_, .f32⟩
  | 81 => ⟨S1x32, .f32⟩
  | 82 => ⟨S1x32, .f32⟩
  | 83 => ⟨S100000x32, .f32⟩
  | 84 => ⟨S100000x32, .f32⟩
  | 85 => ⟨S100000x32, .f32⟩
  | 86 => ⟨S_, .f32⟩
  | 87 => ⟨S_, .f32⟩
  | 88 => ⟨S_, .f32⟩
  | 89 => ⟨S_, .f32⟩
  | 90 => ⟨S32, .f32⟩
  | 91 => ⟨S32, .f32⟩
  | 92 => ⟨S32, .f32⟩
  | 93 => ⟨S_, .f32⟩
  | 94 => ⟨S_, .i1⟩
  | 95 => ⟨S_, .f32⟩
  | 96 => ⟨S_, .f32⟩
  | 97 => ⟨S32, .f32⟩
  | 98 => ⟨S32, .f32⟩
  | 99 => ⟨S1x32, .f32⟩
  | 100 => ⟨S100000x32, .f32⟩
  | 101 => ⟨S100000x32, .f32⟩
  | 102 => ⟨S_, .f32⟩
  | 103 => ⟨S32, .f32⟩
  | 104 => ⟨S32, .f32⟩
  | 105 => ⟨S32, .f32⟩
  | 106 => ⟨S1x32, .f32⟩
  | 107 => ⟨S100000x32, .f32⟩
  | 108 => ⟨S100000x32, .f32⟩
  | 109 => ⟨S1x32, .f32⟩
  | 110 => ⟨S32, .f32⟩
  | 111 => ⟨S1x32, .f32⟩
  | 112 => ⟨S100000x32, .f32⟩
  | 113 => ⟨S100000x32, .f32⟩
  | 114 => ⟨S1x32, .f32⟩
  | 115 => ⟨S32, .f32⟩
  | 116 => ⟨S1x32, .f32⟩
  | 117 => ⟨S100000x32, .f32⟩
  | 118 => ⟨S100000x32, .f32⟩
  | 119 => ⟨S_, .f32⟩
  | 120 => ⟨S100000x32, .f32⟩
  | 121 => ⟨S100000x32, .f32⟩
  | 122 => ⟨S1x32x32, .f32⟩
  | 123 => ⟨S32x32, .f32⟩
  | 124 => ⟨S100000x32, .f32⟩
  | 125 => ⟨S1x32, .f32⟩
  | 126 => ⟨S32, .f32⟩
  | 127 => ⟨S1x32, .f32⟩
  | _ => ⟨S100000x256, .f32⟩

abbrev hbmTy0_2 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S1x32x32, .f32⟩
  | 6 => ⟨S32x32, .f32⟩
  | 7 => ⟨S100000x32, .f32⟩
  | 8 => ⟨S1x32, .f32⟩
  | 9 => ⟨S32, .f32⟩
  | 10 => ⟨S1x32, .f32⟩
  | 11 => ⟨S100000x32, .f32⟩
  | 12 => ⟨S100000x32, .f32⟩
  | 13 => ⟨S3300000x1, .f32⟩
  | 14 => ⟨S_, .i32⟩
  | 15 => ⟨S3300000, .i32⟩
  | 16 => ⟨S3300000, .i1⟩
  | 17 => ⟨S_, .i32⟩
  | 18 => ⟨S3300000, .i32⟩
  | 19 => ⟨S3300000, .i32⟩
  | 20 => ⟨S3300000, .i32⟩
  | 21 => ⟨S3300000x1, .i32⟩
  | 22 => ⟨S3300000x32, .f32⟩
  | 23 => ⟨S3300000x32, .f32⟩
  | 24 => ⟨S3300000x32, .f32⟩
  | 25 => ⟨S_, .f32⟩
  | 26 => ⟨S100000x32, .f32⟩
  | 27 => ⟨S3300000x1, .i32⟩
  | 28 => ⟨S100000x32, .f32⟩
  | 29 => ⟨S1x32, .f32⟩
  | 30 => ⟨S32, .f32⟩
  | 31 => ⟨S1x32, .f32⟩
  | 32 => ⟨S100000x32, .f32⟩
  | 33 => ⟨S100000x32, .f32⟩
  | 34 => ⟨S_, .f32⟩
  | 35 => ⟨S32, .f32⟩
  | 36 => ⟨S_, .f32⟩
  | 37 => ⟨S32, .f32⟩
  | 38 => ⟨S32, .f32⟩
  | 39 => ⟨S_, .i32⟩
  | 40 => ⟨S_, .f32⟩
  | 41 => ⟨S32, .f32⟩
  | 42 => ⟨S1x32, .f32⟩
  | 43 => ⟨S_, .f32⟩
  | 44 => ⟨S1x32, .f32⟩
  | 45 => ⟨S1x32, .f32⟩
  | 46 => ⟨S100000x32, .f32⟩
  | 47 => ⟨S100000x32, .f32⟩
  | 48 => ⟨S100000x32, .f32⟩
  | 49 => ⟨S_, .f32⟩
  | 50 => ⟨S_, .f32⟩
  | 51 => ⟨S_, .f32⟩
  | 52 => ⟨S_, .f32⟩
  | 53 => ⟨S32, .f32⟩
  | 54 => ⟨S32, .f32⟩
  | 55 => ⟨S32, .f32⟩
  | 56 => ⟨S_, .f32⟩
  | 57 => ⟨S_, .i1⟩
  | 58 => ⟨S_, .f32⟩
  | 59 => ⟨S_, .f32⟩
  | 60 => ⟨S32, .f32⟩
  | 61 => ⟨S32, .f32⟩
  | 62 => ⟨S1x32, .f32⟩
  | 63 => ⟨S100000x32, .f32⟩
  | 64 => ⟨S100000x32, .f32⟩
  | 65 => ⟨S_, .f32⟩
  | 66 => ⟨S32, .f32⟩
  | 67 => ⟨S32, .f32⟩
  | 68 => ⟨S32, .f32⟩
  | 69 => ⟨S1x32, .f32⟩
  | 70 => ⟨S100000x32, .f32⟩
  | 71 => ⟨S100000x32, .f32⟩
  | 72 => ⟨S1x32, .f32⟩
  | 73 => ⟨S32, .f32⟩
  | 74 => ⟨S1x32, .f32⟩
  | 75 => ⟨S100000x32, .f32⟩
  | 76 => ⟨S100000x32, .f32⟩
  | 77 => ⟨S1x32, .f32⟩
  | 78 => ⟨S32, .f32⟩
  | 79 => ⟨S1x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S1x32x32, .f32⟩
  | 86 => ⟨S32x32, .f32⟩
  | 87 => ⟨S100000x32, .f32⟩
  | 88 => ⟨S1x32, .f32⟩
  | 89 => ⟨S32, .f32⟩
  | 90 => ⟨S1x32, .f32⟩
  | 91 => ⟨S100000x32, .f32⟩
  | 92 => ⟨S100000x32, .f32⟩
  | 93 => ⟨S_, .f32⟩
  | 94 => ⟨S100000x32, .f32⟩
  | 95 => ⟨S100000x32, .f32⟩
  | 96 => ⟨S1x32x32, .f32⟩
  | 97 => ⟨S32x32, .f32⟩
  | 98 => ⟨S100000x32, .f32⟩
  | 99 => ⟨S1x32, .f32⟩
  | 100 => ⟨S32, .f32⟩
  | 101 => ⟨S1x32, .f32⟩
  | 102 => ⟨S100000x32, .f32⟩
  | 103 => ⟨S100000x32, .f32⟩
  | 104 => ⟨S3300000x1, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x32, .f32⟩
  | 114 => ⟨S3300000x32, .f32⟩
  | 115 => ⟨S3300000x32, .f32⟩
  | 116 => ⟨S_, .f32⟩
  | 117 => ⟨S100000x32, .f32⟩
  | 118 => ⟨S3300000x1, .i32⟩
  | 119 => ⟨S100000x32, .f32⟩
  | 120 => ⟨S1x32, .f32⟩
  | 121 => ⟨S32, .f32⟩
  | 122 => ⟨S1x32, .f32⟩
  | 123 => ⟨S100000x32, .f32⟩
  | 124 => ⟨S100000x32, .f32⟩
  | 125 => ⟨S_, .f32⟩
  | 126 => ⟨S32, .f32⟩
  | 127 => ⟨S_, .f32⟩
  | _ => ⟨S100000x256, .f32⟩

abbrev hbmTy0_3 (i : Nat) : BufTy := match i % 128 with
  | 0 => ⟨S32, .f32⟩
  | 1 => ⟨S32, .f32⟩
  | 2 => ⟨S_, .i32⟩
  | 3 => ⟨S_, .f32⟩
  | 4 => ⟨S32, .f32⟩
  | 5 => ⟨S1x32, .f32⟩
  | 6 => ⟨S_, .f32⟩
  | 7 => ⟨S1x32, .f32⟩
  | 8 => ⟨S1x32, .f32⟩
  | 9 => ⟨S100000x32, .f32⟩
  | 10 => ⟨S100000x32, .f32⟩
  | 11 => ⟨S100000x32, .f32⟩
  | 12 => ⟨S_, .f32⟩
  | 13 => ⟨S_, .f32⟩
  | 14 => ⟨S_, .f32⟩
  | 15 => ⟨S_, .f32⟩
  | 16 => ⟨S32, .f32⟩
  | 17 => ⟨S32, .f32⟩
  | 18 => ⟨S32, .f32⟩
  | 19 => ⟨S_, .f32⟩
  | 20 => ⟨S_, .i1⟩
  | 21 => ⟨S_, .f32⟩
  | 22 => ⟨S_, .f32⟩
  | 23 => ⟨S32, .f32⟩
  | 24 => ⟨S32, .f32⟩
  | 25 => ⟨S1x32, .f32⟩
  | 26 => ⟨S100000x32, .f32⟩
  | 27 => ⟨S100000x32, .f32⟩
  | 28 => ⟨S_, .f32⟩
  | 29 => ⟨S32, .f32⟩
  | 30 => ⟨S32, .f32⟩
  | 31 => ⟨S32, .f32⟩
  | 32 => ⟨S1x32, .f32⟩
  | 33 => ⟨S100000x32, .f32⟩
  | 34 => ⟨S100000x32, .f32⟩
  | 35 => ⟨S1x32, .f32⟩
  | 36 => ⟨S32, .f32⟩
  | 37 => ⟨S1x32, .f32⟩
  | 38 => ⟨S100000x32, .f32⟩
  | 39 => ⟨S100000x32, .f32⟩
  | 40 => ⟨S1x32, .f32⟩
  | 41 => ⟨S32, .f32⟩
  | 42 => ⟨S1x32, .f32⟩
  | 43 => ⟨S100000x32, .f32⟩
  | 44 => ⟨S100000x32, .f32⟩
  | 45 => ⟨S_, .f32⟩
  | 46 => ⟨S100000x32, .f32⟩
  | 47 => ⟨S100000x32, .f32⟩
  | 48 => ⟨S1x32x32, .f32⟩
  | 49 => ⟨S32x32, .f32⟩
  | 50 => ⟨S100000x32, .f32⟩
  | 51 => ⟨S1x32, .f32⟩
  | 52 => ⟨S32, .f32⟩
  | 53 => ⟨S1x32, .f32⟩
  | 54 => ⟨S100000x32, .f32⟩
  | 55 => ⟨S100000x32, .f32⟩
  | 56 => ⟨S_, .f32⟩
  | 57 => ⟨S100000x32, .f32⟩
  | 58 => ⟨S100000x32, .f32⟩
  | 59 => ⟨S1x32x32, .f32⟩
  | 60 => ⟨S32x32, .f32⟩
  | 61 => ⟨S100000x32, .f32⟩
  | 62 => ⟨S1x32, .f32⟩
  | 63 => ⟨S32, .f32⟩
  | 64 => ⟨S1x32, .f32⟩
  | 65 => ⟨S100000x32, .f32⟩
  | 66 => ⟨S100000x32, .f32⟩
  | 67 => ⟨S3300000x1, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000x32, .f32⟩
  | 77 => ⟨S3300000x32, .f32⟩
  | 78 => ⟨S3300000x32, .f32⟩
  | 79 => ⟨S_, .f32⟩
  | 80 => ⟨S100000x32, .f32⟩
  | 81 => ⟨S3300000x1, .i32⟩
  | 82 => ⟨S100000x32, .f32⟩
  | 83 => ⟨S1x32, .f32⟩
  | 84 => ⟨S32, .f32⟩
  | 85 => ⟨S1x32, .f32⟩
  | 86 => ⟨S100000x32, .f32⟩
  | 87 => ⟨S100000x32, .f32⟩
  | 88 => ⟨S_, .f32⟩
  | 89 => ⟨S32, .f32⟩
  | 90 => ⟨S_, .f32⟩
  | 91 => ⟨S32, .f32⟩
  | 92 => ⟨S32, .f32⟩
  | 93 => ⟨S_, .i32⟩
  | 94 => ⟨S_, .f32⟩
  | 95 => ⟨S32, .f32⟩
  | 96 => ⟨S1x32, .f32⟩
  | 97 => ⟨S_, .f32⟩
  | 98 => ⟨S1x32, .f32⟩
  | 99 => ⟨S1x32, .f32⟩
  | 100 => ⟨S100000x32, .f32⟩
  | 101 => ⟨S100000x32, .f32⟩
  | 102 => ⟨S100000x32, .f32⟩
  | 103 => ⟨S_, .f32⟩
  | 104 => ⟨S_, .f32⟩
  | 105 => ⟨S_, .f32⟩
  | 106 => ⟨S_, .f32⟩
  | 107 => ⟨S32, .f32⟩
  | 108 => ⟨S32, .f32⟩
  | 109 => ⟨S32, .f32⟩
  | 110 => ⟨S_, .f32⟩
  | 111 => ⟨S_, .i1⟩
  | 112 => ⟨S_, .f32⟩
  | 113 => ⟨S_, .f32⟩
  | 114 => ⟨S32, .f32⟩
  | 115 => ⟨S32, .f32⟩
  | 116 => ⟨S1x32, .f32⟩
  | 117 => ⟨S100000x32, .f32⟩
  | 118 => ⟨S100000x32, .f32⟩
  | 119 => ⟨S_, .f32⟩
  | 120 => ⟨S32, .f32⟩
  | 121 => ⟨S32, .f32⟩
  | 122 => ⟨S32, .f32⟩
  | 123 => ⟨S1x32, .f32⟩
  | 124 => ⟨S100000x32, .f32⟩
  | 125 => ⟨S100000x32, .f32⟩
  | 126 => ⟨S1x32, .f32⟩
  | 127 => ⟨S32, .f32⟩
  | _ => ⟨S100000x256, .f32⟩

abbrev hbmTy0_4 (i : Nat) : BufTy := match i % 128 with
  | 0 => ⟨S1x32, .f32⟩
  | 1 => ⟨S100000x32, .f32⟩
  | 2 => ⟨S100000x32, .f32⟩
  | 3 => ⟨S1x32, .f32⟩
  | 4 => ⟨S32, .f32⟩
  | 5 => ⟨S1x32, .f32⟩
  | 6 => ⟨S100000x32, .f32⟩
  | 7 => ⟨S100000x32, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_10 : Ref sig .tc := ⟨.hbm, 60, rfl⟩
abbrev main_v34 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_19 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_20 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_21 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_22 : Ref sig .tc := ⟨.hbm, 179, rfl⟩
abbrev main_v120 : Ref sig .tc := ⟨.hbm, 180, rfl⟩
abbrev main_v121 : Ref sig .tc := ⟨.hbm, 181, rfl⟩
abbrev main_c_23 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_cst_24 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_25 : Ref sig .tc := ⟨.hbm, 199, rfl⟩
abbrev main_v137 : Ref sig .tc := ⟨.hbm, 200, rfl⟩
abbrev main_cst_26 : Ref sig .tc := ⟨.hbm, 201, rfl⟩
abbrev main_v138 : Ref sig .tc := ⟨.hbm, 202, rfl⟩
abbrev main_v139 : Ref sig .tc := ⟨.hbm, 203, rfl⟩
abbrev main_c_27 : Ref sig .tc := ⟨.hbm, 204, rfl⟩
abbrev main_call3_cst : Ref sig .tc := ⟨.hbm, 205, rfl⟩
abbrev main_call3_v0 : Ref sig .tc := ⟨.hbm, 206, rfl⟩
abbrev main_call3_v1 : Ref sig .tc := ⟨.hbm, 207, rfl⟩
abbrev main_call3_cst_0 : Ref sig .tc := ⟨.hbm, 208, rfl⟩
abbrev main_call3_v2 : Ref sig .tc := ⟨.hbm, 209, rfl⟩
abbrev main_call3_v3 : Ref sig .tc := ⟨.hbm, 210, rfl⟩
abbrev main_call3_v4 : Ref sig .tc := ⟨.hbm, 211, rfl⟩
abbrev main_call3_v5 : Ref sig .tc := ⟨.hbm, 212, rfl⟩
abbrev main_call3_v6 : Ref sig .tc := ⟨.hbm, 213, rfl⟩
abbrev main_call3_v7 : Ref sig .tc := ⟨.hbm, 214, rfl⟩
abbrev main_call3_cst_1 : Ref sig .tc := ⟨.hbm, 215, rfl⟩
abbrev main_call3_v8 : Ref sig .tc := ⟨.hbm, 216, rfl⟩
abbrev main_call3_cst_2 : Ref sig .tc := ⟨.hbm, 217, rfl⟩
abbrev main_call3_v9 : Ref sig .tc := ⟨.hbm, 218, rfl⟩
abbrev main_call3_v10 : Ref sig .tc := ⟨.hbm, 219, rfl⟩
abbrev main_call3_v11 : Ref sig .tc := ⟨.hbm, 220, rfl⟩
abbrev main_call3_cst_3 : Ref sig .tc := ⟨.hbm, 221, rfl⟩
abbrev main_call3_v12 : Ref sig .tc := ⟨.hbm, 222, rfl⟩
abbrev main_call3_cst_4 : Ref sig .tc := ⟨.hbm, 223, rfl⟩
abbrev main_call3_call0_v0 : Ref sig .tc := ⟨.hbm, 224, rfl⟩
abbrev main_call3_call0_v1 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_cst_28 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_cst_29 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_30 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_c_31 : Ref sig .tc := ⟨.hbm, 270, rfl⟩
abbrev main_v181 : Ref sig .tc := ⟨.hbm, 271, rfl⟩
abbrev main_v182 : Ref sig .tc := ⟨.hbm, 272, rfl⟩
abbrev main_c_32 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_cst_33 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_cst_34 : Ref sig .tc := ⟨.hbm, 290, rfl⟩
abbrev main_v198 : Ref sig .tc := ⟨.hbm, 291, rfl⟩
abbrev main_cst_35 : Ref sig .tc := ⟨.hbm, 292, rfl⟩
abbrev main_v199 : Ref sig .tc := ⟨.hbm, 293, rfl⟩
abbrev main_v200 : Ref sig .tc := ⟨.hbm, 294, rfl⟩
abbrev main_c_36 : Ref sig .tc := ⟨.hbm, 295, rfl⟩
abbrev main_call4_cst : Ref sig .tc := ⟨.hbm, 296, rfl⟩
abbrev main_call4_v0 : Ref sig .tc := ⟨.hbm, 297, rfl⟩
abbrev main_call4_v1 : Ref sig .tc := ⟨.hbm, 298, rfl⟩
abbrev main_call4_cst_0 : Ref sig .tc := ⟨.hbm, 299, rfl⟩
abbrev main_call4_v2 : Ref sig .tc := ⟨.hbm, 300, rfl⟩
abbrev main_call4_v3 : Ref sig .tc := ⟨.hbm, 301, rfl⟩
abbrev main_call4_v4 : Ref sig .tc := ⟨.hbm, 302, rfl⟩
abbrev main_call4_v5 : Ref sig .tc := ⟨.hbm, 303, rfl⟩
abbrev main_call4_v6 : Ref sig .tc := ⟨.hbm, 304, rfl⟩
abbrev main_call4_v7 : Ref sig .tc := ⟨.hbm, 305, rfl⟩
abbrev main_call4_cst_1 : Ref sig .tc := ⟨.hbm, 306, rfl⟩
abbrev main_call4_v8 : Ref sig .tc := ⟨.hbm, 307, rfl⟩
abbrev main_call4_cst_2 : Ref sig .tc := ⟨.hbm, 308, rfl⟩
abbrev main_call4_v9 : Ref sig .tc := ⟨.hbm, 309, rfl⟩
abbrev main_call4_v10 : Ref sig .tc := ⟨.hbm, 310, rfl⟩
abbrev main_call4_v11 : Ref sig .tc := ⟨.hbm, 311, rfl⟩
abbrev main_call4_cst_3 : Ref sig .tc := ⟨.hbm, 312, rfl⟩
abbrev main_call4_v12 : Ref sig .tc := ⟨.hbm, 313, rfl⟩
abbrev main_call4_cst_4 : Ref sig .tc := ⟨.hbm, 314, rfl⟩
abbrev main_call4_call0_v0 : Ref sig .tc := ⟨.hbm, 315, rfl⟩
abbrev main_call4_call0_v1 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_cst_37 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_v211 : Ref sig .tc := ⟨.hbm, 328, rfl⟩
abbrev main_v212 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_cst_38 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_cst_39 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_c_40 : Ref sig .tc := ⟨.hbm, 361, rfl⟩
abbrev main_v242 : Ref sig .tc := ⟨.hbm, 362, rfl⟩
abbrev main_v243 : Ref sig .tc := ⟨.hbm, 363, rfl⟩
abbrev main_c_41 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_v250 : Ref sig .tc := ⟨.hbm, 371, rfl⟩
abbrev main_cst_42 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_cst_43 : Ref sig .tc := ⟨.hbm, 381, rfl⟩
abbrev main_v259 : Ref sig .tc := ⟨.hbm, 382, rfl⟩
abbrev main_cst_44 : Ref sig .tc := ⟨.hbm, 383, rfl⟩
abbrev main_v260 : Ref sig .tc := ⟨.hbm, 384, rfl⟩
abbrev main_v261 : Ref sig .tc := ⟨.hbm, 385, rfl⟩
abbrev main_c_45 : Ref sig .tc := ⟨.hbm, 386, rfl⟩
abbrev main_call5_cst : Ref sig .tc := ⟨.hbm, 387, rfl⟩
abbrev main_call5_v0 : Ref sig .tc := ⟨.hbm, 388, rfl⟩
abbrev main_call5_v1 : Ref sig .tc := ⟨.hbm, 389, rfl⟩
abbrev main_call5_cst_0 : Ref sig .tc := ⟨.hbm, 390, rfl⟩
abbrev main_call5_v2 : Ref sig .tc := ⟨.hbm, 391, rfl⟩
abbrev main_call5_v3 : Ref sig .tc := ⟨.hbm, 392, rfl⟩
abbrev main_call5_v4 : Ref sig .tc := ⟨.hbm, 393, rfl⟩
abbrev main_call5_v5 : Ref sig .tc := ⟨.hbm, 394, rfl⟩
abbrev main_call5_v6 : Ref sig .tc := ⟨.hbm, 395, rfl⟩
abbrev main_call5_v7 : Ref sig .tc := ⟨.hbm, 396, rfl⟩
abbrev main_call5_cst_1 : Ref sig .tc := ⟨.hbm, 397, rfl⟩
abbrev main_call5_v8 : Ref sig .tc := ⟨.hbm, 398, rfl⟩
abbrev main_call5_cst_2 : Ref sig .tc := ⟨.hbm, 399, rfl⟩
abbrev main_call5_v9 : Ref sig .tc := ⟨.hbm, 400, rfl⟩
abbrev main_call5_v10 : Ref sig .tc := ⟨.hbm, 401, rfl⟩
abbrev main_call5_v11 : Ref sig .tc := ⟨.hbm, 402, rfl⟩
abbrev main_call5_cst_3 : Ref sig .tc := ⟨.hbm, 403, rfl⟩
abbrev main_call5_v12 : Ref sig .tc := ⟨.hbm, 404, rfl⟩
abbrev main_call5_cst_4 : Ref sig .tc := ⟨.hbm, 405, rfl⟩
abbrev main_call5_call0_v0 : Ref sig .tc := ⟨.hbm, 406, rfl⟩
abbrev main_call5_call0_v1 : Ref sig .tc := ⟨.hbm, 407, rfl⟩
abbrev main_v262 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_cst_46 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_v270 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_v276 : Ref sig .tc := ⟨.hbm, 423, rfl⟩
abbrev main_v277 : Ref sig .tc := ⟨.hbm, 424, rfl⟩
abbrev main_v278 : Ref sig .tc := ⟨.hbm, 425, rfl⟩
abbrev main_v279 : Ref sig .tc := ⟨.hbm, 426, rfl⟩
abbrev main_v280 : Ref sig .tc := ⟨.hbm, 427, rfl⟩
abbrev main_v281 : Ref sig .tc := ⟨.hbm, 428, rfl⟩
abbrev main_cst_47 : Ref sig .tc := ⟨.hbm, 429, rfl⟩
abbrev main_v282 : Ref sig .tc := ⟨.hbm, 430, rfl⟩
abbrev main_v283 : Ref sig .tc := ⟨.hbm, 431, rfl⟩
abbrev main_v284 : Ref sig .tc := ⟨.hbm, 432, rfl⟩
abbrev main_v285 : Ref sig .tc := ⟨.hbm, 433, rfl⟩
abbrev main_v286 : Ref sig .tc := ⟨.hbm, 434, rfl⟩
abbrev main_v287 : Ref sig .tc := ⟨.hbm, 435, rfl⟩
abbrev main_v288 : Ref sig .tc := ⟨.hbm, 436, rfl⟩
abbrev main_v289 : Ref sig .tc := ⟨.hbm, 437, rfl⟩
abbrev main_v290 : Ref sig .tc := ⟨.hbm, 438, rfl⟩
abbrev main_v291 : Ref sig .tc := ⟨.hbm, 439, rfl⟩
abbrev main_cst_48 : Ref sig .tc := ⟨.hbm, 440, rfl⟩
abbrev main_v292 : Ref sig .tc := ⟨.hbm, 441, rfl⟩
abbrev main_v293 : Ref sig .tc := ⟨.hbm, 442, rfl⟩
abbrev main_v294 : Ref sig .tc := ⟨.hbm, 443, rfl⟩
abbrev main_v295 : Ref sig .tc := ⟨.hbm, 444, rfl⟩
abbrev main_v296 : Ref sig .tc := ⟨.hbm, 445, rfl⟩
abbrev main_v297 : Ref sig .tc := ⟨.hbm, 446, rfl⟩
abbrev main_v298 : Ref sig .tc := ⟨.hbm, 447, rfl⟩
abbrev main_v299 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_c_49 : Ref sig .tc := ⟨.hbm, 452, rfl⟩
abbrev main_v303 : Ref sig .tc := ⟨.hbm, 453, rfl⟩
abbrev main_v304 : Ref sig .tc := ⟨.hbm, 454, rfl⟩
abbrev main_c_50 : Ref sig .tc := ⟨.hbm, 455, rfl⟩
abbrev main_v305 : Ref sig .tc := ⟨.hbm, 456, rfl⟩
abbrev main_v306 : Ref sig .tc := ⟨.hbm, 457, rfl⟩
abbrev main_v307 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_cst_51 : Ref sig .tc := ⟨.hbm, 463, rfl⟩
abbrev main_v312 : Ref sig .tc := ⟨.hbm, 464, rfl⟩
abbrev main_v313 : Ref sig .tc := ⟨.hbm, 465, rfl⟩
abbrev main_v314 : Ref sig .tc := ⟨.hbm, 466, rfl⟩
abbrev main_v315 : Ref sig .tc := ⟨.hbm, 467, rfl⟩
abbrev main_v316 : Ref sig .tc := ⟨.hbm, 468, rfl⟩
abbrev main_v317 : Ref sig .tc := ⟨.hbm, 469, rfl⟩
abbrev main_v318 : Ref sig .tc := ⟨.hbm, 470, rfl⟩
abbrev main_v319 : Ref sig .tc := ⟨.hbm, 471, rfl⟩
abbrev main_cst_52 : Ref sig .tc := ⟨.hbm, 472, rfl⟩
abbrev main_v320 : Ref sig .tc := ⟨.hbm, 473, rfl⟩
abbrev main_cst_53 : Ref sig .tc := ⟨.hbm, 474, rfl⟩
abbrev main_v321 : Ref sig .tc := ⟨.hbm, 475, rfl⟩
abbrev main_v322 : Ref sig .tc := ⟨.hbm, 476, rfl⟩
abbrev main_c_54 : Ref sig .tc := ⟨.hbm, 477, rfl⟩
abbrev main_call6_cst : Ref sig .tc := ⟨.hbm, 478, rfl⟩
abbrev main_call6_v0 : Ref sig .tc := ⟨.hbm, 479, rfl⟩
abbrev main_call6_v1 : Ref sig .tc := ⟨.hbm, 480, rfl⟩
abbrev main_call6_cst_0 : Ref sig .tc := ⟨.hbm, 481, rfl⟩
abbrev main_call6_v2 : Ref sig .tc := ⟨.hbm, 482, rfl⟩
abbrev main_call6_v3 : Ref sig .tc := ⟨.hbm, 483, rfl⟩
abbrev main_call6_v4 : Ref sig .tc := ⟨.hbm, 484, rfl⟩
abbrev main_call6_v5 : Ref sig .tc := ⟨.hbm, 485, rfl⟩
abbrev main_call6_v6 : Ref sig .tc := ⟨.hbm, 486, rfl⟩
abbrev main_call6_v7 : Ref sig .tc := ⟨.hbm, 487, rfl⟩
abbrev main_call6_cst_1 : Ref sig .tc := ⟨.hbm, 488, rfl⟩
abbrev main_call6_v8 : Ref sig .tc := ⟨.hbm, 489, rfl⟩
abbrev main_call6_cst_2 : Ref sig .tc := ⟨.hbm, 490, rfl⟩
abbrev main_call6_v9 : Ref sig .tc := ⟨.hbm, 491, rfl⟩
abbrev main_call6_v10 : Ref sig .tc := ⟨.hbm, 492, rfl⟩
abbrev main_call6_v11 : Ref sig .tc := ⟨.hbm, 493, rfl⟩
abbrev main_call6_cst_3 : Ref sig .tc := ⟨.hbm, 494, rfl⟩
abbrev main_call6_v12 : Ref sig .tc := ⟨.hbm, 495, rfl⟩
abbrev main_call6_cst_4 : Ref sig .tc := ⟨.hbm, 496, rfl⟩
abbrev main_call6_call0_v0 : Ref sig .tc := ⟨.hbm, 497, rfl⟩
abbrev main_call6_call0_v1 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_v326 : Ref sig .tc := ⟨.hbm, 502, rfl⟩
abbrev main_cst_55 : Ref sig .tc := ⟨.hbm, 503, rfl⟩
abbrev main_v327 : Ref sig .tc := ⟨.hbm, 504, rfl⟩
abbrev main_v328 : Ref sig .tc := ⟨.hbm, 505, rfl⟩
abbrev main_v329 : Ref sig .tc := ⟨.hbm, 506, rfl⟩
abbrev main_v330 : Ref sig .tc := ⟨.hbm, 507, rfl⟩
abbrev main_v331 : Ref sig .tc := ⟨.hbm, 508, rfl⟩
abbrev main_v332 : Ref sig .tc := ⟨.hbm, 509, rfl⟩
abbrev main_v333 : Ref sig .tc := ⟨.hbm, 510, rfl⟩
abbrev main_v334 : Ref sig .tc := ⟨.hbm, 511, rfl⟩
abbrev main_v335 : Ref sig .tc := ⟨.hbm, 512, rfl⟩
abbrev main_v336 : Ref sig .tc := ⟨.hbm, 513, rfl⟩
abbrev main_v337 : Ref sig .tc := ⟨.hbm, 514, rfl⟩
abbrev main_v338 : Ref sig .tc := ⟨.hbm, 515, rfl⟩
abbrev main_v339 : Ref sig .tc := ⟨.hbm, 516, rfl⟩
abbrev main_v340 : Ref sig .tc := ⟨.hbm, 517, rfl⟩
abbrev main_v341 : Ref sig .tc := ⟨.hbm, 518, rfl⟩
abbrev main_v342 : Ref sig .tc := ⟨.hbm, 519, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  slices_S5x32_S1x32_0_0 : S5x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S5x32x32_S1x32x32_0_0_0 : S5x32x32.Slices ![0, 0, 0] S1x32x32
  shapeCasts_S1x32x32_S32x32 : S1x32x32.ShapeCasts S32x32
  bcast_S3300000x1_S3300000x32_0_1 : S3300000x1.BroadcastsInDim S3300000x32 (![0, 1] : Fin 2 → Fin S3300000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S4x32x32_S1x32x32_0_0_0 : S4x32x32.Slices ![0, 0, 0] S1x32x32
  slices_S5x32_S1x32_1_0 : S5x32.Slices ![1, 0] S1x32
  slices_S5x32x32_S1x32x32_1_0_0 : S5x32x32.Slices ![1, 0, 0] S1x32x32
  slices_S4x32x32_S1x32x32_1_0_0 : S4x32x32.Slices ![1, 0, 0] S1x32x32
  slices_S5x32_S1x32_2_0 : S5x32.Slices ![2, 0] S1x32
  slices_S5x32x32_S1x32x32_2_0_0 : S5x32x32.Slices ![2, 0, 0] S1x32x32
  slices_S4x32x32_S1x32x32_2_0_0 : S4x32x32.Slices ![2, 0, 0] S1x32x32
  slices_S5x32_S1x32_3_0 : S5x32.Slices ![3, 0] S1x32
  slices_S5x32x32_S1x32x32_3_0_0 : S5x32x32.Slices ![3, 0, 0] S1x32x32
  slices_S4x32x32_S1x32x32_3_0_0 : S4x32x32.Slices ![3, 0, 0] S1x32x32
  slices_S5x32_S1x32_4_0 : S5x32.Slices ![4, 0] S1x32
  slices_S5x32x32_S1x32x32_4_0_0 : S5x32x32.Slices ![4, 0, 0] S1x32x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x32_S100000x32_1_0_0_1_n_n_wf : DotDims.WF S100000x256 S256x32 S100000x32 [1] [0] [0] [1] [] []
  dot_S100000x32_S32x32_S100000x32_1_0_0_1_n_n_wf : DotDims.WF S100000x32 S32x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.K.Mlp0.lean ====
/-
  The multilayer-perceptron region of pipeline 0: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or
    not (an unfetched window's block index has not moved), for any proof data over `V` whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or
    not (an unfetched window's block index has not moved), for any proof data over `V` whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or
    not (an unfetched window's block index has not moved), for any proof data over `V` whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or
    not (an unfetched window's block index has not moved), for any proof data over `V` whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or
    not (an unfetched window's block index has not moved), for any proof data over `V` whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x256 := Rect.unit (s := S5000x256) ![0, 0] S5000x256.size inb_S5000x256_S5000x256_0_0
abbrev r0_1 : Rect S256x32 := Rect.unit (s := S256x32) ![0, 0] S256x32.size inb_S256x32_S256x32_0_0
abbrev r0_2 : Rect S1x32 := Rect.unit (s := S1x32) ![0, 0] S1x32.size inb_S1x32_S1x32_0_0
abbrev r0_3 : Rect S32x32 := Rect.unit (s := S32x32) ![0, 0] S32x32.size inb_S32x32_S32x32_0_0
abbrev r0_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out0_5 (x0 : Vec F S5000x256 .f32) (x1 : Vec F S256x32 .f32) (x2 : Vec F S1x32 .f32) (x3 : Vec F S32x32 .f32) (x4 : Vec F S1x32 .f32) : Vec F S5000x32 .f32 :=
  View.canon [⟨r0_5, k0_pay1 (View.ld x0 r0_0) (View.ld x1 r0_1) (View.ld x2 r0_2) (View.ld x3 r0_3) (View.ld x4 r0_2)⟩]

/-- The one store is of the whole buffer, so it covers it. -/
theorem cover0_5 (p0 : Vec F S5000x32 .f32) (y : S5000x32.Idx) :
    ∃ pc ∈ ([⟨r0_5, p0⟩] : List (View.Piece (Elt F) S5000x32 .f32)), y ∈ pc.1.set :=
  View.cover_of_tiled [⟨r0_5, p0⟩] S5000x32.size (by rfl) y

/-! ## The body's triple -/

set_option maxHeartbeats 2000000 in
/-- The body on whole staging memrefs, the five inputs' at read contents `x0 … x4` and the output's at
    anything, runs to the continuation with the inputs as they were and the output at `out0_5` of them.
    The load of the output buffer before the store reads whatever it holds and its value goes nowhere. -/
theorem sound_kernel0 (c : Dev nD) (E : Set ℕ) (i : grid0.Coords)
    (arg1 : Memref sig .tc .vmem S5000x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x256 .f32) (x1 : Vec F S256x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point
    `t` each input's buffer at its block and the output's at `out0_5` of the five input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant
    and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.StatsLib.lean ====
import proofs.«114689_j15281493639468_1_alg».proof.Proof.Gen.Kernel
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Cert.Kernel Cert.Kernel.Gen

variable {F : FTy → Type} [FloatOps F]

/-! # Whole-buffer loads and stores of a [1,32] row and of a [5000,32] block

The statistics kernels touch their scratch rows, their bias row and their output rows only through the rectangle that is
the whole buffer: a store through it leaves its payload whatever was there, a load through it reads the buffer. -/

theorem stats_hz2 : (![0, 0] : Fin 2 → Nat) = fun _ => 0 := funext fun a => by fin_cases a <;> rfl

/-- One store through the whole-buffer rectangle of a row leaves its payload, whatever was there. -/
theorem stats_read_writes_row {κ : Kind} {sp : Space} (v : View sig κ sp S1x32 .f32) (f : v.ty.Contents (Elt F)) (w : Vec F S1x32 .f32)
    (L : List (View.Piece (Elt F) S1x32 .f32)) :
    v.read (Elt F) (v.writes (Elt F) f (⟨Rect.unit (s := S1x32) ![0, 0] S1x32.size inb_S1x32_S1x32_0_0, w⟩ :: L)) = w := by
  rw [View.read_writes_eq_canon _ _ _ (fun y => ⟨_, List.mem_cons_self, View.mem_set_unit_zero stats_hz2 inb_S1x32_S1x32_0_0 y⟩),
    View.canon_cons_unit_zero (S := S1x32) stats_hz2]

/-- A load through the whole-buffer rectangle reads the buffer. -/
theorem stats_readAt_row {κ : Kind} {sp : Space} (v : View sig κ sp S1x32 .f32) (f : v.ty.Contents (Elt F)) :
    View.readAt (Elt F) v (Rect.unit (s := S1x32) ![0, 0] S1x32.size inb_S1x32_S1x32_0_0).toLoadRect f = v.read (Elt F) f :=
  (View.readAt_eq_ld v f _).trans (View.ld_unit_zero (S := S1x32) stats_hz2 _ _)
theorem stats_readAt_blk {κ : Kind} {sp : Space} (v : View sig κ sp S5000x32 .f32) (f : v.ty.Contents (Elt F)) :
    View.readAt (Elt F) v (Rect.unit (s := S5000x32) ![0, 0] S5000x32.size inb_S5000x32_S5000x32_0_0).toLoadRect f = v.read (Elt F) f :=
  (View.readAt_eq_ld v f _).trans (View.ld_unit_zero (S := S5000x32) stats_hz2 _ _)

/-- A load through the whole-buffer rectangle after one store through it reads the store's payload. -/
theorem stats_readCov_row {κ : Kind} {sp : Space} (v : View sig κ sp S1x32 .f32) (w : Vec F S1x32 .f32) :
    v.readCov [(⟨Rect.unit (s := S1x32) ![0, 0] S1x32.size inb_S1x32_S1x32_0_0, w⟩ : View.Piece (Elt F) S1x32 .f32)]
      (Rect.unit (s := S1x32) ![0, 0] S1x32.size inb_S1x32_S1x32_0_0).toLoadRect = w :=
  View.readCov_unit_zero (S := S1x32) v stats_hz2 inb_S1x32_S1x32_0_0 w

end Cert.Kernel.Hand
end
-- ==== Proof.K.Stats1.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.K.StatsLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 1: two column sums accumulated in scratch over the 20 row blocks -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first conditional (the reset of the two scratch rows) is taken exactly at the first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional (the copy of the scratch rows into the output windows) is taken exactly at the last point. -/
abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

/-- The input windows are never idle; the output windows are idle, and not written back, off the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val = 19 → cfg1.idle 2 (grid1.coords t) = true := by decide +kernel
theorem idleAt1_3 : ∀ t : Fin cfg1.N, ¬ t.val = 19 → cfg1.idle 3 (grid1.coords t) = true := by decide +kernel
theorem noFlush1_2 : ∀ t : Fin cfg1.N, ¬ t.val = 19 → (cfg1.win 2).flush t = false := by decide +kernel
theorem noFlush1_3 : ∀ t : Fin cfg1.N, ¬ t.val = 19 → (cfg1.win 3).flush t = false := by decide +kernel
theorem liveAt1_2 : ∀ t : Fin cfg1.N, t.val = 19 → cfg1.idle 2 (grid1.coords t) = false := by decide +kernel
theorem liveAt1_3 : ∀ t : Fin cfg1.N, t.val = 19 → cfg1.idle 3 (grid1.coords t) = false := by decide +kernel

/-! ## The body on whole memrefs, case by case -/

/-- The accumulation payloads respect equality of their three arguments. -/
theorem k1_pay4_congr {a a' : Vec F S5000x32 .f32} {b b' s s' : Vec F S1x32 .f32} (ha : a = a') (hb : b = b') (hs : s = s') :
    k1_pay4 a b s = k1_pay4 a' b' s' := by subst ha hb hs; rfl
theorem k1_pay5_congr {a a' : Vec F S5000x32 .f32} {b b' s s' : Vec F S1x32 .f32} (ha : a = a') (hb : b = b') (hs : s = s') :
    k1_pay5 a b s = k1_pay5 a' b' s' := by subst ha hb hs; rfl

set_option maxHeartbeats 1000000 in
/-- A middle point (neither conditional taken): both scratch rows go from `s` to the accumulation payloads of the
    two input blocks over `s`; every window's buffer is handed back as found. -/
theorem run1_B (c : Dev nD) (E : Set ℕ) (i : grid1.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond1_0 i) (hc1 : ¬cond1_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k1_pay4 x0 x1 s0) ∗ owns (c : Thread nD τ) arg6 fullShare (k1_pay5 x0 x1 s1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run1_A (c : Dev nD) (E : Set ℕ) (i : grid1.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond1_0 i) (hc1 : ¬cond1_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k1_pay4 x0 x1 k1_pay1) ∗ owns (c : Thread nD τ) arg6 fullShare (k1_pay5 x0 x1 k1_pay2)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k1_pay4_congr (stats_readAt_blk _ _) (stats_readAt_row _ _) ?_
    sl_unfold_run_names; exact stats_readCov_row _ _
  · iexists _; isplitr
    swap; · iexact H5
    ipureintro; rw [stats_read_writes_row]
    refine k1_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run1_C (c : Dev nD) (E : Set ℕ) (i : grid1.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond1_0 i) (hc1 : cond1_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k1_pay4 x0 x1 s0) ∗ owns (c : Thread nD τ) arg4 fullShare (k1_pay5 x0 x1 s1)
            ∗ owns (c : Thread nD τ) arg5 fullShare (k1_pay4 x0 x1 s0) ∗ owns (c : Thread nD τ) arg6 fullShare (k1_pay5 x0 x1 s1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k1_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k1_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k1_pay4_congr (stats_readAt_blk _ _) (stats_readAt_row _ _) (stats_readAt_row _ _)
  · iexists _; isplitr
    swap; · iexact H5
    ipureintro; sl_unfold_run_names
    refine (stats_read_writes_row _ _ _ _).trans ?_
    exact k1_pay5_congr (stats_readAt_blk _ _) (stats_readAt_row _ _) (stats_readAt_row _ _)

/-! ## The accumulation -/

/-- The two scratch operands: whole scoped buffers of the kernel's own, passed beside the windows. -/
abbrev scM1_0 : Memref sig .tc .vmem S1x32 .f32 := Memref.whole cc1_scratch0
abbrev scM1_1 : Memref sig .tc .vmem S1x32 .f32 := Memref.whole cc1_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc1 (c : Dev nD) : (n : ℕ) → Vec F S1x32 .f32 × Vec F S1x32 .f32
  | 0 => (k1_pay1, k1_pay2)
  | n + 1 =>
    if h : n < cfg1.N then
      (k1_pay4 (iblk1 V c 0 ⟨n, h⟩) (iblk1 V c 1 ⟨n, h⟩) (acc1 c n).1, k1_pay5 (iblk1 V c 0 ⟨n, h⟩) (iblk1 V c 1 ⟨n, h⟩) (acc1 c n).2)
    else acc1 c n

theorem acc1_zero (c : Dev nD) : acc1 V c 0 = (k1_pay1, k1_pay2) := rfl

theorem acc1_succ (c : Dev nD) (t : Fin cfg1.N) :
    acc1 V c (t.val + 1) = (k1_pay4 (iblk1 V c 0 t) (iblk1 V c 1 t) (acc1 V c t.val).1, k1_pay5 (iblk1 V c 0 t) (iblk1 V c 1 t) (acc1 V c t.val).2) := by
  rw [acc1, dif_pos t.isLt]

/-- The region invariant before position `n`: before the first point every scoped buffer that is no staging buffer at
    anything and the generator register at some state; afterwards the two scratch rows at what the points so far left
    in them (`acc1`), the other such buffers at anything, and the generator register at some state. -/
def Phi1 (c : Dev nD) : ℕ → sProp 𝕄
  | 0 => Pipeline.ΦA spec1 c
  | n + 1 => iprop(iprop(iprop(owns (c : Thread nD τ) scM1_0 fullShare (acc1 V c (n + 1)).1 ∗ owns (c : Thread nD τ) scM1_1 fullShare (acc1 V c (n + 1)).2)
      ∗ Pipeline.scopedRestBut (Ix := Unit) (Name := ℕ) (U := UR sig nD τ) (Lvl := ℕ) (Val := Elt F) spec1 c [cc1_scratch0, cc1_scratch1]) ∗ (∃ r, prngReg c r))

theorem Phi1_zero (c : Dev nD) (n : ℕ) (hz : n = 0) : Phi1 V c n = Pipeline.ΦA spec1 c := by subst hz; rfl

theorem Phi1_pos (c : Dev nD) (n : ℕ) (hz : n ≠ 0) :
    Phi1 V c n = iprop(iprop(iprop(owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The invariant before the first point with the two scratch rows taken out of the scoped rest, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The pipeline's proof data -/

/-- The proof data of pipeline 1 on core `c`: the arrays as the region finds them; after the body at point `t` each input's
    buffer at its block and the two outputs' at the scratch rows after that point (what the copy-out stores at the last
    point; elsewhere the windows are idle and this is not consulted); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c (t.val + 1)).1
    | ⟨3, _⟩ => (acc1 V c (t.val + 1)).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c (t.val + 1)).1 := by dsimp only [dat1]
theorem after1_3 (c : Dev nD) (t : Fin cfg1.N) : (dat1 V c).after 3 t = (acc1 V c (t.val + 1)).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, Phi1_pos V c _ (Nat.succ_ne_zero _)]
  rw [show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 20 := lt_of_lt_of_eq t.isLt (show cfg1.N = 20 from N_1)
  by_cases h1 : t.val = 19
  · have h0 : ¬ t.val = 0 := by omega
    rw [show (dat1 V c).leavesExact 2 t = owns (c : Thread nD τ) (st1_2 t) fullShare ((dat1 V c).after 2 t) from by
      unfold Dat.leavesExact; rw [liveAt1_2 t h1], after1_2]
    rw [show (dat1 V c).leavesExact 3 t = owns (c : Thread nD τ) (st1_3 t) fullShare ((dat1 V c).after 3 t) from by
      unfold Dat.leavesExact; rw [liveAt1_3 t h1], after1_3]
    rw [acc1_succ V c t, Phi1_pos V c _ h0]
    iintro ⟨⟨⟨⟨HS0, HS1⟩, Hrest⟩, Hg⟩, Ho, ⟨%d0, H0⟩, ⟨%d1, H1⟩, ⟨%d2, H2⟩, ⟨%d3, H3⟩⟩
    iapply (run1_C c Set.univ (grid1.coords t) _ _ _ _ _ _ _ _ _ _ _ _ (fun h => h0 ((hcond1_0 t).mp h)) ((hcond1_1 t).mpr h1)
      (iblk1 V c 0 t) (iblk1 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat1 V c) 2 t (idleAt1_2 t h1) (noFlush1_2 t h1)]
    rw [Dat.leavesExact_idle (dat1 V c) 3 t (idleAt1_3 t h1) (noFlush1_3 t h1)]
    rw [acc1_succ V c t]
    by_cases h0 : t.val = 0
    · rw [Phi1_zero V c _ h0, PhiA1_eq, show acc1 V c t.val = (k1_pay1, k1_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run1_A c Set.univ (grid1.coords t) _ _ _ _ _ _ _ _ _ _ _ _ ((hcond1_0 t).mpr h0) (fun h => h1 ((hcond1_1 t).mp h))
        (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi1_pos V c _ h0]
      iintro ⟨⟨⟨⟨HS0, HS1⟩, Hrest⟩, Hg⟩, Ho, ⟨%d0, H0⟩, ⟨%d1, H1⟩, ⟨%d2, H2⟩, ⟨%d3, H3⟩⟩
      iapply (run1_B c Set.univ (grid1.coords t) _ _ _ _ _ _ _ _ _ _ _ _ (fun h => h0 ((hcond1_0 t).mp h)) (fun h => h1 ((hcond1_1 t).mp h))
        (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the region hands the pipeline — the generator register at some state, the (empty) prefetched tables and the
    scoped buffers no window stages — is the invariant before the first point. -/
theorem hin1 (c : Dev nD) :
    iprop((∃ r, prngReg c r) ∗ Pipeline.prefHeld (Ix := Unit) (Name := ℕ) (U := UR sig nD τ) (Lvl := ℕ) (pcfgs (F := F) 1).pre c (fun _ => fullShare) ((cfgs 1).toPCfg_adm).1
        ∗ Pipeline.scopedRest (Ix := Unit) (Name := ℕ) (U := UR sig nD τ) (Lvl := ℕ) (Val := Elt F) spec1 c)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After any point the invariant gives back what it was entered with: the scratch rows' named contents are forgotten. -/
theorem Phi1_out (c : Dev nD) (n : ℕ) (hn : n ≠ 0) : Phi1 V c n ⊢ Pipeline.ΦA spec1 c := by
  rw [Phi1_pos V c _ hn, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout1 (c : Dev nD) :
    (dat1 V c).Φ (Fin.last cfg1.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec1 c) := by
  rw [show (dat1 V c).Φ (Fin.last cfg1.N) = Phi1 V c cfg1.N from rfl]
  refine (Phi1_out V c _ (by rw [show cfg1.N = 20 from N_1]; omega)).trans ?_
  rw [Pipeline.ownSems0_none]; unfold Pipeline.ΦA
  iintro ⟨Hr, Hp⟩
  isplitl [Hp]; · iexact Hp
  isplitr; · iempintro
  iexact Hr

end Cert.Kernel.Hand
end
-- ==== Proof.K.Norm2.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 2

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not: an unfetched window's block index has
    not moved, so the block kept from the point before is this point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point, fetched there or not: an unfetched window's block index has
    not moved, so the block kept from the point before is this point's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point, fetched there or not: an unfetched window's block index has
    not moved, so the block kept from the point before is this point's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every point, fetched there or not: an unfetched window's block index has
    not moved, so the block kept from the point before is this point's block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every point, fetched there or not: an unfetched window's block index has
    not moved, so the block kept from the point before is this point's block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5 holds its block at every point, fetched there or not: an unfetched window's block index has
    not moved, so the block kept from the point before is this point's block. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole 5000-row block and the whole one-row block -/

abbrev r2_0 : Rect S5000x32 := Rect.unit (s := S5000x32) ![0, 0] S5000x32.size inb_S5000x32_S5000x32_0_0
abbrev r2_1 : Rect S1x32 := Rect.unit (s := S1x32) ![0, 0] S1x32.size inb_S1x32_S1x32_0_0

/-! ## What the body leaves in the output window's buffer -/

/-- The output buffer after the body: its one store, of the payload of the six loads, laid over the block. -/
def out2_6 (x0 : Vec F S5000x32 .f32) (x1 x2 x3 x4 x5 : Vec F S1x32 .f32) : Vec F S5000x32 .f32 :=
  View.canon [⟨r2_0, k2_pay1 (View.ld x0 r2_0) (View.ld x1 r2_1) (View.ld x2 r2_1) (View.ld x3 r2_1) (View.ld x4 r2_1) (View.ld x5 r2_1)⟩]

/-- The one store's rectangle is the whole block, so it covers it. -/
theorem cover2_6 (p0 : Vec F S5000x32 .f32) (y : S5000x32.Idx) :
    ∃ pc ∈ ([⟨r2_0, p0⟩] : List (View.Piece (Elt F) S5000x32 .f32)), y ∈ pc.1.set :=
  View.cover_of_tiled [⟨r2_0, p0⟩] S5000x32.size (by rfl) y

/-! ## The body's triple -/

set_option maxHeartbeats 1000000 in
/-- The body on whole staging buffers, the six inputs' at read contents `x0 … x5` and the output's at anything,
    runs to a continuation that holds the inputs' as they were and the output's at `out2_6` of the inputs'.
    The load of the output buffer that precedes the store reads whatever the buffer holds and its value is
    not used. -/
theorem sound_kernel2 (c : Dev nD) (E : Set ℕ) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point
    `t` each input's buffer at its block and the output's at `out2_6` of the six input blocks; the invariant
    keeps the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Mlp3.lean ====
/-
  The multilayer-perceptron region of pipeline 3: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or
    not (an unfetched window's block index has not moved), for any proof data over `V` whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or
    not (an unfetched window's block index has not moved), for any proof data over `V` whose body leaves the
    block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or
    not (an unfetched window's block index has not moved), for any proof data over `V` whose body leaves the
    block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the pipeline fetched it there or
    not (an unfetched window's block index has not moved), for any proof data over `V` whose body leaves the
    block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the pipeline fetched it there or
    not (an unfetched window's block index has not moved), for any proof data over `V` whose body leaves the
    block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x32 := Rect.unit (s := S5000x32) ![0, 0] S5000x32.size inb_S5000x32_S5000x32_0_0
abbrev r3_1 : Rect S32x32 := Rect.unit (s := S32x32) ![0, 0] S32x32.size inb_S32x32_S32x32_0_0
abbrev r3_2 : Rect S1x32 := Rect.unit (s := S1x32) ![0, 0] S1x32.size inb_S1x32_S1x32_0_0
abbrev r3_3 : Rect S32x32 := Rect.unit (s := S32x32) ![0, 0] S32x32.size inb_S32x32_S32x32_0_0
abbrev r3_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out3_5 (x0 : Vec F S5000x32 .f32) (x1 : Vec F S32x32 .f32) (x2 : Vec F S1x32 .f32) (x3 : Vec F S32x32 .f32) (x4 : Vec F S1x32 .f32) : Vec F S5000x32 .f32 :=
  View.canon [⟨r3_5, k3_pay1 (View.ld x0 r3_0) (View.ld x1 r3_1) (View.ld x2 r3_2) (View.ld x3 r3_3) (View.ld x4 r3_2)⟩]

/-- The one store is of the whole buffer, so it covers it. -/
theorem cover3_5 (p0 : Vec F S5000x32 .f32) (y : S5000x32.Idx) :
    ∃ pc ∈ ([⟨r3_5, p0⟩] : List (View.Piece (Elt F) S5000x32 .f32)), y ∈ pc.1.set :=
  View.cover_of_tiled [⟨r3_5, p0⟩] S5000x32.size (by rfl) y

/-! ## The body's triple -/

set_option maxHeartbeats 2000000 in
/-- The body on whole staging memrefs, the five inputs' at read contents `x0 … x4` and the output's at
    anything, runs to the continuation with the inputs as they were and the output at `out3_5` of them.
    The load of the output buffer before the store reads whatever it holds and its value goes nowhere. -/
theorem sound_kernel3 (c : Dev nD) (E : Set ℕ) (i : grid3.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point
    `t` each input's buffer at its block and the output's at `out3_5` of the five input blocks; the
    invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant
    and the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Stats4.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.K.StatsLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 4: two column sums accumulated in scratch over the 20 row blocks -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (where it is not fetched
    the block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The first conditional (the reset of the two scratch rows) is taken exactly at the first point. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second conditional (the copy of the scratch rows into the output windows) is taken exactly at the last point. -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-- The input windows are never idle; the output windows are idle, and not written back, off the last point. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬ t.val = 19 → cfg4.idle 2 (grid4.coords t) = true := by decide +kernel
theorem idleAt4_3 : ∀ t : Fin cfg4.N, ¬ t.val = 19 → cfg4.idle 3 (grid4.coords t) = true := by decide +kernel
theorem noFlush4_2 : ∀ t : Fin cfg4.N, ¬ t.val = 19 → (cfg4.win 2).flush t = false := by decide +kernel
theorem noFlush4_3 : ∀ t : Fin cfg4.N, ¬ t.val = 19 → (cfg4.win 3).flush t = false := by decide +kernel
theorem liveAt4_2 : ∀ t : Fin cfg4.N, t.val = 19 → cfg4.idle 2 (grid4.coords t) = false := by decide +kernel
theorem liveAt4_3 : ∀ t : Fin cfg4.N, t.val = 19 → cfg4.idle 3 (grid4.coords t) = false := by decide +kernel

/-! ## The body on whole memrefs, case by case -/

/-- The accumulation payloads respect equality of their three arguments. -/
theorem k4_pay4_congr {a a' : Vec F S5000x32 .f32} {b b' s s' : Vec F S1x32 .f32} (ha : a = a') (hb : b = b') (hs : s = s') :
    k4_pay4 a b s = k4_pay4 a' b' s' := by subst ha hb hs; rfl
theorem k4_pay5_congr {a a' : Vec F S5000x32 .f32} {b b' s s' : Vec F S1x32 .f32} (ha : a = a') (hb : b = b') (hs : s = s') :
    k4_pay5 a b s = k4_pay5 a' b' s' := by subst ha hb hs; rfl

set_option maxHeartbeats 1000000 in
/-- A middle point (neither conditional taken): both scratch rows go from `s` to the accumulation payloads of the
    two input blocks over `s`; every window's buffer is handed back as found. -/
theorem run4_B (c : Dev nD) (E : Set ℕ) (i : grid4.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (hc1 : ¬cond4_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k4_pay4 x0 x1 s0) ∗ owns (c : Thread nD τ) arg6 fullShare (k4_pay5 x0 x1 s1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run4_A (c : Dev nD) (E : Set ℕ) (i : grid4.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond4_0 i) (hc1 : ¬cond4_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k4_pay4 x0 x1 k4_pay1) ∗ owns (c : Thread nD τ) arg6 fullShare (k4_pay5 x0 x1 k4_pay2)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k4_pay4_congr (stats_readAt_blk _ _) (stats_readAt_row _ _) ?_
    sl_unfold_run_names; exact stats_readCov_row _ _
  · iexists _; isplitr
    swap; · iexact H5
    ipureintro; rw [stats_read_writes_row]
    refine k4_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run4_C (c : Dev nD) (E : Set ℕ) (i : grid4.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (hc1 : cond4_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k4_pay4 x0 x1 s0) ∗ owns (c : Thread nD τ) arg4 fullShare (k4_pay5 x0 x1 s1)
            ∗ owns (c : Thread nD τ) arg5 fullShare (k4_pay4 x0 x1 s0) ∗ owns (c : Thread nD τ) arg6 fullShare (k4_pay5 x0 x1 s1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k4_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k4_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k4_pay4_congr (stats_readAt_blk _ _) (stats_readAt_row _ _) (stats_readAt_row _ _)
  · iexists _; isplitr
    swap; · iexact H5
    ipureintro; sl_unfold_run_names
    refine (stats_read_writes_row _ _ _ _).trans ?_
    exact k4_pay5_congr (stats_readAt_blk _ _) (stats_readAt_row _ _) (stats_readAt_row _ _)

/-! ## The accumulation -/

/-- The two scratch operands: whole scoped buffers of the kernel's own, passed beside the windows. -/
abbrev scM4_0 : Memref sig .tc .vmem S1x32 .f32 := Memref.whole cc4_scratch0
abbrev scM4_1 : Memref sig .tc .vmem S1x32 .f32 := Memref.whole cc4_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc4 (c : Dev nD) : (n : ℕ) → Vec F S1x32 .f32 × Vec F S1x32 .f32
  | 0 => (k4_pay1, k4_pay2)
  | n + 1 =>
    if h : n < cfg4.N then
      (k4_pay4 (iblk4 V c 0 ⟨n, h⟩) (iblk4 V c 1 ⟨n, h⟩) (acc4 c n).1, k4_pay5 (iblk4 V c 0 ⟨n, h⟩) (iblk4 V c 1 ⟨n, h⟩) (acc4 c n).2)
    else acc4 c n

theorem acc4_zero (c : Dev nD) : acc4 V c 0 = (k4_pay1, k4_pay2) := rfl

theorem acc4_succ (c : Dev nD) (t : Fin cfg4.N) :
    acc4 V c (t.val + 1) = (k4_pay4 (iblk4 V c 0 t) (iblk4 V c 1 t) (acc4 V c t.val).1, k4_pay5 (iblk4 V c 0 t) (iblk4 V c 1 t) (acc4 V c t.val).2) := by
  rw [acc4, dif_pos t.isLt]

/-- The region invariant before position `n`: before the first point every scoped buffer that is no staging buffer at
    anything and the generator register at some state; afterwards the two scratch rows at what the points so far left
    in them (`acc4`), the other such buffers at anything, and the generator register at some state. -/
def Phi4 (c : Dev nD) : ℕ → sProp 𝕄
  | 0 => Pipeline.ΦA spec4 c
  | n + 1 => iprop(iprop(iprop(owns (c : Thread nD τ) scM4_0 fullShare (acc4 V c (n + 1)).1 ∗ owns (c : Thread nD τ) scM4_1 fullShare (acc4 V c (n + 1)).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (hz : n = 0) : Phi4 V c n = Pipeline.ΦA spec4 c := by subst hz; rfl

theorem Phi4_pos (c : Dev nD) (n : ℕ) (hz : n ≠ 0) :
    Phi4 V c n = iprop(iprop(iprop(owns (c : Thread nD τ) scM4_0 fullShare (acc4 V c n).1 ∗ owns (c : Thread nD τ) scM4_1 fullShare (acc4 V c n).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The invariant before the first point with the two scratch rows taken out of the scoped rest, each owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The pipeline's proof data -/

/-- The proof data of pipeline 4 on core `c`: the arrays as the region finds them; after the body at point `t` each input's
    buffer at its block and the two outputs' at the scratch rows after that point (what the copy-out stores at the last
    point; elsewhere the windows are idle and this is not consulted); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (acc4 V c (t.val + 1)).1
    | ⟨3, _⟩ => (acc4 V c (t.val + 1)).2
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (acc4 V c (t.val + 1)).1 := by dsimp only [dat4]
theorem after4_3 (c : Dev nD) (t : Fin cfg4.N) : (dat4 V c).after 3 t = (acc4 V c (t.val + 1)).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) from rfl, Phi4_pos V c _ (Nat.succ_ne_zero _)]
  rw [show (dat4 V c).Φ t.castSucc = Phi4 V c t.val from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 20 := lt_of_lt_of_eq t.isLt (show cfg4.N = 20 from N_4)
  by_cases h1 : t.val = 19
  · have h0 : ¬ t.val = 0 := by omega
    rw [show (dat4 V c).leavesExact 2 t = owns (c : Thread nD τ) (st4_2 t) fullShare ((dat4 V c).after 2 t) from by
      unfold Dat.leavesExact; rw [liveAt4_2 t h1], after4_2]
    rw [show (dat4 V c).leavesExact 3 t = owns (c : Thread nD τ) (st4_3 t) fullShare ((dat4 V c).after 3 t) from by
      unfold Dat.leavesExact; rw [liveAt4_3 t h1], after4_3]
    rw [acc4_succ V c t, Phi4_pos V c _ h0]
    iintro ⟨⟨⟨⟨HS0, HS1⟩, Hrest⟩, Hg⟩, Ho, ⟨%d0, H0⟩, ⟨%d1, H1⟩, ⟨%d2, H2⟩, ⟨%d3, H3⟩⟩
    iapply (run4_C c Set.univ (grid4.coords t) _ _ _ _ _ _ _ _ _ _ _ _ (fun h => h0 ((hcond4_0 t).mp h)) ((hcond4_1 t).mpr h1)
      (iblk4 V c 0 t) (iblk4 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat4 V c) 2 t (idleAt4_2 t h1) (noFlush4_2 t h1)]
    rw [Dat.leavesExact_idle (dat4 V c) 3 t (idleAt4_3 t h1) (noFlush4_3 t h1)]
    rw [acc4_succ V c t]
    by_cases h0 : t.val = 0
    · rw [Phi4_zero V c _ h0, PhiA4_eq, show acc4 V c t.val = (k4_pay1, k4_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run4_A c Set.univ (grid4.coords t) _ _ _ _ _ _ _ _ _ _ _ _ ((hcond4_0 t).mpr h0) (fun h => h1 ((hcond4_1 t).mp h))
        (iblk4 V c 0 t) (iblk4 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi4_pos V c _ h0]
      iintro ⟨⟨⟨⟨HS0, HS1⟩, Hrest⟩, Hg⟩, Ho, ⟨%d0, H0⟩, ⟨%d1, H1⟩, ⟨%d2, H2⟩, ⟨%d3, H3⟩⟩
      iapply (run4_B c Set.univ (grid4.coords t) _ _ _ _ _ _ _ _ _ _ _ _ (fun h => h0 ((hcond4_0 t).mp h)) (fun h => h1 ((hcond4_1 t).mp h))
        (iblk4 V c 0 t) (iblk4 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the region hands the pipeline — the generator register at some state, the (empty) prefetched tables and the
    scoped buffers no window stages — is the invariant before the first point. -/
theorem hin4 (c : Dev nD) :
    iprop((∃ r, prngReg c r) ∗ Pipeline.prefHeld (Ix := Unit) (Name := ℕ) (U := UR sig nD τ) (Lvl := ℕ) (pcfgs (F := F) 4).pre c (fun _ => fullShare) ((cfgs 4).toPCfg_adm).1
        ∗ Pipeline.scopedRest (Ix := Unit) (Name := ℕ) (U := UR sig nD τ) (Lvl := ℕ) (Val := Elt F) spec4 c)
      ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

/-- After any point the invariant gives back what it was entered with: the scratch rows' named contents are forgotten. -/
theorem Phi4_out (c : Dev nD) (n : ℕ) (hn : n ≠ 0) : Phi4 V c n ⊢ Pipeline.ΦA spec4 c := by
  rw [Phi4_pos V c _ hn, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout4 (c : Dev nD) :
    (dat4 V c).Φ (Fin.last cfg4.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec4 c) := by
  rw [show (dat4 V c).Φ (Fin.last cfg4.N) = Phi4 V c cfg4.N from rfl]
  refine (Phi4_out V c _ (by rw [show cfg4.N = 20 from N_4]; omega)).trans ?_
  rw [Pipeline.ownSems0_none]; unfold Pipeline.ΦA
  iintro ⟨Hr, Hp⟩
  isplitl [Hp]; · iexact Hp
  isplitr; · iempintro
  iexact Hr

end Cert.Kernel.Hand
end
-- ==== Proof.K.Norm5.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 5

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 holds its block at every point, fetched there or not: an unfetched window's block index has
    not moved, so the block kept from the point before is this point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 holds its block at every point, fetched there or not: an unfetched window's block index has
    not moved, so the block kept from the point before is this point's block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 holds its block at every point, fetched there or not: an unfetched window's block index has
    not moved, so the block kept from the point before is this point's block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 holds its block at every point, fetched there or not: an unfetched window's block index has
    not moved, so the block kept from the point before is this point's block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 holds its block at every point, fetched there or not: an unfetched window's block index has
    not moved, so the block kept from the point before is this point's block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5 holds its block at every point, fetched there or not: an unfetched window's block index has
    not moved, so the block kept from the point before is this point's block. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole 5000-row block and the whole one-row block -/

abbrev r5_0 : Rect S5000x32 := Rect.unit (s := S5000x32) ![0, 0] S5000x32.size inb_S5000x32_S5000x32_0_0
abbrev r5_1 : Rect S1x32 := Rect.unit (s := S1x32) ![0, 0] S1x32.size inb_S1x32_S1x32_0_0

/-! ## What the body leaves in the output window's buffer -/

/-- The output buffer after the body: its one store, of the payload of the six loads, laid over the block. -/
def out5_6 (x0 : Vec F S5000x32 .f32) (x1 x2 x3 x4 x5 : Vec F S1x32 .f32) : Vec F S5000x32 .f32 :=
  View.canon [⟨r5_0, k5_pay1 (View.ld x0 r5_0) (View.ld x1 r5_1) (View.ld x2 r5_1) (View.ld x3 r5_1) (View.ld x4 r5_1) (View.ld x5 r5_1)⟩]

/-- The one store's rectangle is the whole block, so it covers it. -/
theorem cover5_6 (p0 : Vec F S5000x32 .f32) (y : S5000x32.Idx) :
    ∃ pc ∈ ([⟨r5_0, p0⟩] : List (View.Piece (Elt F) S5000x32 .f32)), y ∈ pc.1.set :=
  View.cover_of_tiled [⟨r5_0, p0⟩] S5000x32.size (by rfl) y

/-! ## The body's triple -/

set_option maxHeartbeats 1000000 in
/-- The body on whole staging buffers, the six inputs' at read contents `x0 … x5` and the output's at anything,
    runs to a continuation that holds the inputs' as they were and the output's at `out5_6` of the inputs'.
    The load of the output buffer that precedes the store reads whatever the buffer holds and its value is
    not used. -/
theorem sound_kernel5 (c : Dev nD) (E : Set ℕ) (i : grid5.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them; after the body at point
    `t` each input's buffer at its block and the output's at `out5_6` of the six input blocks; the invariant
    keeps the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Mlp6.lean ====
/-
  The multilayer-perceptron region of pipeline 6: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the pipeline fetched it there or
    not (an unfetched window's block index has not moved), for any proof data over `V` whose body leaves the
    block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the pipeline fetched it there or
    not (an unfetched window's block index has not moved), for any proof data over `V` whose body leaves the
    block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the pipeline fetched it there or
    not (an unfetched window's block index has not moved), for any proof data over `V` whose body leaves the
    block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether the pipeline fetched it there or
    not (an unfetched window's block index has not moved), for any proof data over `V` whose body leaves the
    block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, whether the pipeline fetched it there or
    not (an unfetched window's block index has not moved), for any proof data over `V` whose body leaves the
    block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S5000x32 := Rect.unit (s := S5000x32) ![0, 0] S5000x32.size inb_S5000x32_S5000x32_0_0
abbrev r6_1 : Rect S32x32 := Rect.unit (s := S32x32) ![0, 0] S32x32.size inb_S32x32_S32x32_0_0
abbrev r6_2 : Rect S1x32 := Rect.unit (s := S1x32) ![0, 0] S1x32.size inb_S1x32_S1x32_0_0
abbrev r6_3 : Rect S32x32 := Rect.unit (s := S32x32) ![0, 0] S32x32.size inb_S32x32_S32x32_0_0
abbrev r6_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out6_5 (x0 : Vec F S5000x32 .f32) (x1 : Vec F S32x32 .f32) (x2 : Vec F S1x32 .f32) (x3 : Vec F S32x32 .f32) (x4 : Vec F S1x32 .f32) : Vec F S5000x32 .f32 :=
  View.canon [⟨r6_5, k6_pay1 (View.ld x0 r6_0) (View.ld x1 r6_1) (View.ld x2 r6_2) (View.ld x3 r6_3) (View.ld x4 r6_2)⟩]

/-- The one store is of the whole buffer, so it covers it. -/
theorem cover6_5 (p0 : Vec F S5000x32 .f32) (y : S5000x32.Idx) :
    ∃ pc ∈ ([⟨r6_5, p0⟩] : List (View.Piece (Elt F) S5000x32 .f32)), y ∈ pc.1.set :=
  View.cover_of_tiled [⟨r6_5, p0⟩] S5000x32.size (by rfl) y

/-! ## The body's triple -/

set_option maxHeartbeats 2000000 in
/-- The body on whole staging memrefs, the five inputs' at read contents `x0 … x4` and the output's at
    anything, runs to the continuation with the inputs as they were and the output at `out6_5` of them.
    The load of the output buffer before the store reads whatever it holds and its value goes nowhere. -/
theorem sound_kernel6 (c : Dev nD) (E : Set ℕ) (i : grid6.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__mlp_kernel i arg1 harg1 arg2 harg2 arg3 harg3 arg4 harg4 arg5 harg5 arg6 harg6) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point
    `t` each input's buffer at its block and the output's at `out6_5` of the five input blocks; the
    invariant is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant
    and the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Stats7.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.K.StatsLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 7: two column sums accumulated in scratch over the 20 row blocks -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not (where it is not fetched
    the block index has not moved), for any proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The first conditional (the reset of the two scratch rows) is taken exactly at the first point. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
/-- The second conditional (the copy of the scratch rows into the output windows) is taken exactly at the last point. -/
abbrev cond7_1 (i : grid7.Coords) : Prop := k7_cond2 i = 1#1
theorem hcond7_1 : ∀ t : Fin cfg7.N, cond7_1 (grid7.coords t) ↔ t.val = 19 :=
  (by decide +kernel : ∀ t : Fin grid7.N, cond7_1 (grid7.coords t) ↔ t.val = 19)

/-- The input windows are never idle; the output windows are idle, and not written back, off the last point. -/
theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬ t.val = 19 → cfg7.idle 2 (grid7.coords t) = true := by decide +kernel
theorem idleAt7_3 : ∀ t : Fin cfg7.N, ¬ t.val = 19 → cfg7.idle 3 (grid7.coords t) = true := by decide +kernel
theorem noFlush7_2 : ∀ t : Fin cfg7.N, ¬ t.val = 19 → (cfg7.win 2).flush t = false := by decide +kernel
theorem noFlush7_3 : ∀ t : Fin cfg7.N, ¬ t.val = 19 → (cfg7.win 3).flush t = false := by decide +kernel
theorem liveAt7_2 : ∀ t : Fin cfg7.N, t.val = 19 → cfg7.idle 2 (grid7.coords t) = false := by decide +kernel
theorem liveAt7_3 : ∀ t : Fin cfg7.N, t.val = 19 → cfg7.idle 3 (grid7.coords t) = false := by decide +kernel

/-! ## The body on whole memrefs, case by case -/

/-- The accumulation payloads respect equality of their three arguments. -/
theorem k7_pay4_congr {a a' : Vec F S5000x32 .f32} {b b' s s' : Vec F S1x32 .f32} (ha : a = a') (hb : b = b') (hs : s = s') :
    k7_pay4 a b s = k7_pay4 a' b' s' := by subst ha hb hs; rfl
theorem k7_pay5_congr {a a' : Vec F S5000x32 .f32} {b b' s s' : Vec F S1x32 .f32} (ha : a = a') (hb : b = b') (hs : s = s') :
    k7_pay5 a b s = k7_pay5 a' b' s' := by subst ha hb hs; rfl

set_option maxHeartbeats 1000000 in
/-- A middle point (neither conditional taken): both scratch rows go from `s` to the accumulation payloads of the
    two input blocks over `s`; every window's buffer is handed back as found. -/
theorem run7_B (c : Dev nD) (E : Set ℕ) (i : grid7.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond7_0 i) (hc1 : ¬cond7_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k7_pay4 x0 x1 s0) ∗ owns (c : Thread nD τ) arg6 fullShare (k7_pay5 x0 x1 s1)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run7_A (c : Dev nD) (E : Set ℕ) (i : grid7.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond7_0 i) (hc1 : ¬cond7_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k7_pay4 x0 x1 k7_pay1) ∗ owns (c : Thread nD τ) arg6 fullShare (k7_pay5 x0 x1 k7_pay2)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k7_pay4_congr (stats_readAt_blk _ _) (stats_readAt_row _ _) ?_
    sl_unfold_run_names; exact stats_readCov_row _ _
  · iexists _; isplitr
    swap; · iexact H5
    ipureintro; rw [stats_read_writes_row]
    refine k7_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run7_C (c : Dev nD) (E : Set ℕ) (i : grid7.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond7_0 i) (hc1 : cond7_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k7_pay4 x0 x1 s0) ∗ owns (c : Thread nD τ) arg4 fullShare (k7_pay5 x0 x1 s1)
            ∗ owns (c : Thread nD τ) arg5 fullShare (k7_pay4 x0 x1 s0) ∗ owns (c : Thread nD τ) arg6 fullShare (k7_pay5 x0 x1 s1)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k7_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k7_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k7_pay4_congr (stats_readAt_blk _ _) (stats_readAt_row _ _) (stats_readAt_row _ _)
  · iexists _; isplitr
    swap; · iexact H5
    ipureintro; sl_unfold_run_names
    refine (stats_read_writes_row _ _ _ _).trans ?_
    exact k7_pay5_congr (stats_readAt_blk _ _) (stats_readAt_row _ _) (stats_readAt_row _ _)

/-! ## The accumulation -/

/-- The two scratch operands: whole scoped buffers of the kernel's own, passed beside the windows. -/
abbrev scM7_0 : Memref sig .tc .vmem S1x32 .f32 := Memref.whole cc7_scratch0
abbrev scM7_1 : Memref sig .tc .vmem S1x32 .f32 := Memref.whole cc7_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc7 (c : Dev nD) : (n : ℕ) → Vec F S1x32 .f32 × Vec F S1x32 .f32
  | 0 => (k7_pay1, k7_pay2)
  | n + 1 =>
    if h : n < cfg7.N then
      (k7_pay4 (iblk7 V c 0 ⟨n, h⟩) (iblk7 V c 1 ⟨n, h⟩) (acc7 c n).1, k7_pay5 (iblk7 V c 0 ⟨n, h⟩) (iblk7 V c 1 ⟨n, h⟩) (acc7 c n).2)
    else acc7 c n

theorem acc7_zero (c : Dev nD) : acc7 V c 0 = (k7_pay1, k7_pay2) := rfl

theorem acc7_succ (c : Dev nD) (t : Fin cfg7.N) :
    acc7 V c (t.val + 1) = (k7_pay4 (iblk7 V c 0 t) (iblk7 V c 1 t) (acc7 V c t.val).1, k7_pay5 (iblk7 V c 0 t) (iblk7 V c 1 t) (acc7 V c t.val).2) := by
  rw [acc7, dif_pos t.isLt]

/-- The region invariant before position `n`: before the first point every scoped buffer that is no staging buffer at
    anything and the generator register at some state; afterwards the two scratch rows at what the points so far left
    in them (`acc7`), the other such buffers at anything, and the generator register at some state. -/
def Phi7 (c : Dev nD) : ℕ → sProp 𝕄
  | 0 => Pipeline.ΦA spec7 c
  | n + 1 => iprop(iprop(iprop(owns (c : Thread nD τ) scM7_0 fullShare (acc7 V c (n + 1)).1 ∗ owns (c : Thread nD τ) scM7_1 fullShare (acc7 V c (n + 1)).2)
      ∗ Pipeline.scopedRestBut (Ix := Unit) (Name := ℕ) (U := UR sig nD τ) (Lvl := ℕ) (Val := Elt F) spec7 c [cc7_scratch0, cc7_scratch1]) ∗ (∃ r, prngReg c r))

theorem Phi7_zero (c : Dev nD) (n : ℕ) (hz : n = 0) : Phi7 V c n = Pipeline.ΦA spec7 c := by subst hz; rfl

theorem Phi7_pos (c : Dev nD) (n : ℕ) (hz : n ≠ 0) :
    Phi7 V c n = iprop(iprop(iprop(owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-- The invariant before the first point with the two scratch rows taken out of the scoped rest, each owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## The pipeline's proof data -/

/-- The proof data of pipeline 7 on core `c`: the arrays as the region finds them; after the body at point `t` each input's
    buffer at its block and the two outputs' at the scratch rows after that point (what the copy-out stores at the last
    point; elsewhere the windows are idle and this is not consulted); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (acc7 V c (t.val + 1)).1
    | ⟨3, _⟩ => (acc7 V c (t.val + 1)).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (acc7 V c (t.val + 1)).1 := by dsimp only [dat7]
theorem after7_3 (c : Dev nD) (t : Fin cfg7.N) : (dat7 V c).after 3 t = (acc7 V c (t.val + 1)).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) from rfl, Phi7_pos V c _ (Nat.succ_ne_zero _)]
  rw [show (dat7 V c).Φ t.castSucc = Phi7 V c t.val from rfl]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 20 := lt_of_lt_of_eq t.isLt (show cfg7.N = 20 from N_7)
  by_cases h1 : t.val = 19
  · have h0 : ¬ t.val = 0 := by omega
    rw [show (dat7 V c).leavesExact 2 t = owns (c : Thread nD τ) (st7_2 t) fullShare ((dat7 V c).after 2 t) from by
      unfold Dat.leavesExact; rw [liveAt7_2 t h1], after7_2]
    rw [show (dat7 V c).leavesExact 3 t = owns (c : Thread nD τ) (st7_3 t) fullShare ((dat7 V c).after 3 t) from by
      unfold Dat.leavesExact; rw [liveAt7_3 t h1], after7_3]
    rw [acc7_succ V c t, Phi7_pos V c _ h0]
    iintro ⟨⟨⟨⟨HS0, HS1⟩, Hrest⟩, Hg⟩, Ho, ⟨%d0, H0⟩, ⟨%d1, H1⟩, ⟨%d2, H2⟩, ⟨%d3, H3⟩⟩
    iapply (run7_C c Set.univ (grid7.coords t) _ _ _ _ _ _ _ _ _ _ _ _ (fun h => h0 ((hcond7_0 t).mp h)) ((hcond7_1 t).mpr h1)
      (iblk7 V c 0 t) (iblk7 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat7 V c) 2 t (idleAt7_2 t h1) (noFlush7_2 t h1)]
    rw [Dat.leavesExact_idle (dat7 V c) 3 t (idleAt7_3 t h1) (noFlush7_3 t h1)]
    rw [acc7_succ V c t]
    by_cases h0 : t.val = 0
    · rw [Phi7_zero V c _ h0, PhiA7_eq, show acc7 V c t.val = (k7_pay1, k7_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run7_A c Set.univ (grid7.coords t) _ _ _ _ _ _ _ _ _ _ _ _ ((hcond7_0 t).mpr h0) (fun h => h1 ((hcond7_1 t).mp h))
        (iblk7 V c 0 t) (iblk7 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi7_pos V c _ h0]
      iintro ⟨⟨⟨⟨HS0, HS1⟩, Hrest⟩, Hg⟩, Ho, ⟨%d0, H0⟩, ⟨%d1, H1⟩, ⟨%d2, H2⟩, ⟨%d3, H3⟩⟩
      iapply (run7_B c Set.univ (grid7.coords t) _ _ _ _ _ _ _ _ _ _ _ _ (fun h => h0 ((hcond7_0 t).mp h)) (fun h => h1 ((hcond7_1 t).mp h))
        (iblk7 V c 0 t) (iblk7 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into and out of the invariant -/

/-- What the region hands the pipeline — the generator register at some state, the (empty) prefetched tables and the
    scoped buffers no window stages — is the invariant before the first point. -/
theorem hin7 (c : Dev nD) :
    iprop((∃ r, prngReg c r) ∗ Pipeline.prefHeld (Ix := Unit) (Name := ℕ) (U := UR sig nD τ) (Lvl := ℕ) (pcfgs (F := F) 7).pre c (fun _ => fullShare) ((cfgs 7).toPCfg_adm).1
        ∗ Pipeline.scopedRest (Ix := Unit) (Name := ℕ) (U := UR sig nD τ) (Lvl := ℕ) (Val := Elt F) spec7 c)
      ⊢ (dat7 V c).Φ 0 := by
  rw [show (dat7 V c).Φ 0 = Pipeline.ΦA spec7 c from rfl]; unfold Pipeline.ΦA
  iintro ⟨Hp, -, Hr⟩
  isplitl [Hr]; · iexact Hr
  iexact Hp

/-- After any point the invariant gives back what it was entered with: the scratch rows' named contents are forgotten. -/
theorem Phi7_out (c : Dev nD) (n : ℕ) (hn : n ≠ 0) : Phi7 V c n ⊢ Pipeline.ΦA spec7 c := by
  rw [Phi7_pos V c _ hn, PhiA7_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout7 (c : Dev nD) :
    (dat7 V c).Φ (Fin.last cfg7.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec7 c) := by
  rw [show (dat7 V c).Φ (Fin.last cfg7.N) = Phi7 V c cfg7.N from rfl]
  refine (Phi7_out V c _ (by rw [show cfg7.N = 20 from N_7]; omega)).trans ?_
  rw [Pipeline.ownSems0_none]; unfold Pipeline.ΦA
  iintro ⟨Hr, Hp⟩
  isplitl [Hp]; · iexact Hp
  isplitr; · iempintro
  iexact Hr

end Cert.Kernel.Hand
end
-- ==== Proof.K.Norm8.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 8

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 holds its block at every point, fetched there or not: an unfetched window's block index has
    not moved, so the block kept from the point before is this point's block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1 holds its block at every point, fetched there or not: an unfetched window's block index has
    not moved, so the block kept from the point before is this point's block. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2 holds its block at every point, fetched there or not: an unfetched window's block index has
    not moved, so the block kept from the point before is this point's block. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3 holds its block at every point, fetched there or not: an unfetched window's block index has
    not moved, so the block kept from the point before is this point's block. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4 holds its block at every point, fetched there or not: an unfetched window's block index has
    not moved, so the block kept from the point before is this point's block. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5 holds its block at every point, fetched there or not: an unfetched window's block index has
    not moved, so the block kept from the point before is this point's block. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: the whole 5000-row block and the whole one-row block -/

abbrev r8_0 : Rect S5000x32 := Rect.unit (s := S5000x32) ![0, 0] S5000x32.size inb_S5000x32_S5000x32_0_0
abbrev r8_1 : Rect S1x32 := Rect.unit (s := S1x32) ![0, 0] S1x32.size inb_S1x32_S1x32_0_0

/-! ## What the body leaves in the output window's buffer -/

/-- The output buffer after the body: its one store, of the payload of the six loads, laid over the block. -/
def out8_6 (x0 : Vec F S5000x32 .f32) (x1 x2 x3 x4 x5 : Vec F S1x32 .f32) : Vec F S5000x32 .f32 :=
  View.canon [⟨r8_0, k8_pay1 (View.ld x0 r8_0) (View.ld x1 r8_1) (View.ld x2 r8_1) (View.ld x3 r8_1) (View.ld x4 r8_1) (View.ld x5 r8_1)⟩]

/-- The one store's rectangle is the whole block, so it covers it. -/
theorem cover8_6 (p0 : Vec F S5000x32 .f32) (y : S5000x32.Idx) :
    ∃ pc ∈ ([⟨r8_0, p0⟩] : List (View.Piece (Elt F) S5000x32 .f32)), y ∈ pc.1.set :=
  View.cover_of_tiled [⟨r8_0, p0⟩] S5000x32.size (by rfl) y

/-! ## The body's triple -/

set_option maxHeartbeats 1000000 in
/-- The body on whole staging buffers, the six inputs' at read contents `x0 … x5` and the output's at anything,
    runs to a continuation that holds the inputs' as they were and the output's at `out8_6` of the inputs'.
    The load of the output buffer that precedes the store reads whatever the buffer holds and its value is
    not used. -/
theorem sound_kernel8 (c : Dev nD) (E : Set ℕ) (i : grid8.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__norm_kernel i arg1 harg1 arg2 harg2 arg3 harg3 arg4 harg4 arg5 harg5 arg6 harg6 arg7 harg7) K := by
  simp only [cc8__norm_kernel_eq_skeleton]; unfold cc8__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them; after the body at point
    `t` each input's buffer at its block and the output's at `out8_6` of the six input blocks; the invariant
    keeps the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' buffers hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.Mlp9.lean ====
/-
  The multilayer-perceptron region of pipeline 9: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, whether the pipeline fetched it there or
    not (an unfetched window's block index has not moved), for any proof data over `V` whose body leaves the
    block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, whether the pipeline fetched it there or
    not (an unfetched window's block index has not moved), for any proof data over `V` whose body leaves the
    block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, whether the pipeline fetched it there or
    not (an unfetched window's block index has not moved), for any proof data over `V` whose body leaves the
    block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every point, whether the pipeline fetched it there or
    not (an unfetched window's block index has not moved), for any proof data over `V` whose body leaves the
    block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds its block at every point, whether the pipeline fetched it there or
    not (an unfetched window's block index has not moved), for any proof data over `V` whose body leaves the
    block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S5000x32 := Rect.unit (s := S5000x32) ![0, 0] S5000x32.size inb_S5000x32_S5000x32_0_0
abbrev r9_1 : Rect S32x32 := Rect.unit (s := S32x32) ![0, 0] S32x32.size inb_S32x32_S32x32_0_0
abbrev r9_2 : Rect S1x32 := Rect.unit (s := S1x32) ![0, 0] S1x32.size inb_S1x32_S1x32_0_0
abbrev r9_3 : Rect S32x32 := Rect.unit (s := S32x32) ![0, 0] S32x32.size inb_S32x32_S32x32_0_0
abbrev r9_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out9_5 (x0 : Vec F S5000x32 .f32) (x1 : Vec F S32x32 .f32) (x2 : Vec F S1x32 .f32) (x3 : Vec F S32x32 .f32) (x4 : Vec F S1x32 .f32) : Vec F S5000x32 .f32 :=
  View.canon [⟨r9_5, k9_pay1 (View.ld x0 r9_0) (View.ld x1 r9_1) (View.ld x2 r9_2) (View.ld x3 r9_3) (View.ld x4 r9_2)⟩]

/-- The one store is of the whole buffer, so it covers it. -/
theorem cover9_5 (p0 : Vec F S5000x32 .f32) (y : S5000x32.Idx) :
    ∃ pc ∈ ([⟨r9_5, p0⟩] : List (View.Piece (Elt F) S5000x32 .f32)), y ∈ pc.1.set :=
  View.cover_of_tiled [⟨r9_5, p0⟩] S5000x32.size (by rfl) y

/-! ## The body's triple -/

set_option maxHeartbeats 2000000 in
/-- The body on whole staging memrefs, the five inputs' at read contents `x0 … x4` and the output's at
    anything, runs to the continuation with the inputs as they were and the output at `out9_5` of them.
    The load of the output buffer before the store reads whatever it holds and its value goes nowhere. -/
theorem sound_kernel9 (c : Dev nD) (E : Set ℕ) (i : grid9.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them; after the body at point
    `t` each input's buffer at its block and the output's at `out9_5` of the five input blocks; the
    invariant is the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant
    and the core's obligations pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.K.Stats10.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.K.StatsLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 10: two column sums accumulated in scratch over the 20 row blocks -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not (where it is not fetched
    the block index has not moved), for any proof data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions, in closed form over the grid -/

/-- The first conditional (the reset of the two scratch rows) is taken exactly at the first point. -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)
/-- The second conditional (the copy of the scratch rows into the output windows) is taken exactly at the last point. -/
abbrev cond10_1 (i : grid10.Coords) : Prop := k10_cond2 i = 1#1
theorem hcond10_1 : ∀ t : Fin cfg10.N, cond10_1 (grid10.coords t) ↔ t.val = 19 :=
  (by decide +kernel : ∀ t : Fin grid10.N, cond10_1 (grid10.coords t) ↔ t.val = 19)

/-- The input windows are never idle; the output windows are idle, and not written back, off the last point. -/
theorem liveAt10_0 : ∀ t : Fin cfg10.N, cfg10.idle 0 (grid10.coords t) = false := by decide +kernel
theorem liveAt10_1 : ∀ t : Fin cfg10.N, cfg10.idle 1 (grid10.coords t) = false := by decide +kernel
theorem idleAt10_2 : ∀ t : Fin cfg10.N, ¬ t.val = 19 → cfg10.idle 2 (grid10.coords t) = true := by decide +kernel
theorem idleAt10_3 : ∀ t : Fin cfg10.N, ¬ t.val = 19 → cfg10.idle 3 (grid10.coords t) = true := by decide +kernel
theorem noFlush10_2 : ∀ t : Fin cfg10.N, ¬ t.val = 19 → (cfg10.win 2).flush t = false := by decide +kernel
theorem noFlush10_3 : ∀ t : Fin cfg10.N, ¬ t.val = 19 → (cfg10.win 3).flush t = false := by decide +kernel
theorem liveAt10_2 : ∀ t : Fin cfg10.N, t.val = 19 → cfg10.idle 2 (grid10.coords t) = false := by decide +kernel
theorem liveAt10_3 : ∀ t : Fin cfg10.N, t.val = 19 → cfg10.idle 3 (grid10.coords t) = false := by decide +kernel

/-! ## The body on whole memrefs, case by case -/

/-- The accumulation payloads respect equality of their three arguments. -/
theorem k10_pay4_congr {a a' : Vec F S5000x32 .f32} {b b' s s' : Vec F S1x32 .f32} (ha : a = a') (hb : b = b') (hs : s = s') :
    k10_pay4 a b s = k10_pay4 a' b' s' := by subst ha hb hs; rfl
theorem k10_pay5_congr {a a' : Vec F S5000x32 .f32} {b b' s s' : Vec F S1x32 .f32} (ha : a = a') (hb : b = b') (hs : s = s') :
    k10_pay5 a b s = k10_pay5 a' b' s' := by subst ha hb hs; rfl

set_option maxHeartbeats 1000000 in
/-- A middle point (neither conditional taken): both scratch rows go from `s` to the accumulation payloads of the
    two input blocks over `s`; every window's buffer is handed back as found. -/
theorem run10_B (c : Dev nD) (E : Set ℕ) (i : grid10.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond10_0 i) (hc1 : ¬cond10_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k10_pay4 x0 x1 s0) ∗ owns (c : Thread nD τ) arg6 fullShare (k10_pay5 x0 x1 s1)) -∗ K ⟨⟩))
      ⊢ wp frame (wpE (defs₀ (F := F)) Variants.none c none) E (cc10__stats_kernel i arg1 harg1 arg2 harg2 arg3 harg3 arg4 harg4 arg5 harg5 arg6 harg6) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run10_A (c : Dev nD) (E : Set ℕ) (i : grid10.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond10_0 i) (hc1 : ¬cond10_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k10_pay4 x0 x1 k10_pay1) ∗ owns (c : Thread nD τ) arg6 fullShare (k10_pay5 x0 x1 k10_pay2)) -∗ K ⟨⟩))
      ⊢ wp frame (wpE (defs₀ (F := F)) Variants.none c none) E (cc10__stats_kernel i arg1 harg1 arg2 harg2 arg3 harg3 arg4 harg4 arg5 harg5 arg6 harg6) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k10_pay4_congr (stats_readAt_blk _ _) (stats_readAt_row _ _) ?_
    sl_unfold_run_names; exact stats_readCov_row _ _
  · iexists _; isplitr
    swap; · iexact H5
    ipureintro; rw [stats_read_writes_row]
    refine k10_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run10_C (c : Dev nD) (E : Set ℕ) (i : grid10.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond10_0 i) (hc1 : cond10_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k10_pay4 x0 x1 s0) ∗ owns (c : Thread nD τ) arg4 fullShare (k10_pay5 x0 x1 s1)
            ∗ owns (c : Thread nD τ) arg5 fullShare (k10_pay4 x0 x1 s0) ∗ owns (c : Thread nD τ) arg6 fullShare (k10_pay5 x0 x1 s1)) -∗ K ⟨⟩))
      ⊢ wp frame (wpE (defs₀ (F := F)) Variants.none c none) E (cc10__stats_kernel i arg1 harg1 arg2 harg2 arg3 harg3 arg4 harg4 arg5 harg5 arg6 harg6) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k10_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k10_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k10_pay4_congr (stats_readAt_blk _ _) (stats_readAt_row _ _) (stats_readAt_row _ _)
  · iexists _; isplitr
    swap; · iexact H5
    ipureintro; sl_unfold_run_names
    refine (stats_read_writes_row _ _ _ _).trans ?_
    exact k10_pay5_congr (stats_readAt_blk _ _) (stats_readAt_row _ _) (stats_readAt_row _ _)

/-! ## The accumulation -/

/-- The two scratch operands: whole scoped buffers of the kernel's own, passed beside the windows. -/
abbrev scM10_0 : Memref sig .tc .vmem S1x32 .f32 := Memref.whole cc10_scratch0
abbrev scM10_1 : Memref sig .tc .vmem S1x32 .f32 := Memref.whole cc10_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc10 (c : Dev nD) : (n : ℕ) → Vec F S1x32 .f32 × Vec F S1x32 .f32
  | 0 => (k10_pay1, k10_pay2)
  | n + 1 =>
    if h : n < cfg10.N then
      (k10_pay4 (iblk10 V c 0 ⟨n, h⟩) (iblk10 V c 1 ⟨n, h⟩) (acc10 c n).1, k10_pay5 (iblk10 V c 0 ⟨n, h⟩) (iblk10 V c 1 ⟨n, h⟩) (acc10 c n).2)
    else acc10 c n

theorem acc10_zero (c : Dev nD) : acc10 V c 0 = (k10_pay1, k10_pay2) := rfl

theorem acc10_succ (c : Dev nD) (t : Fin cfg10.N) :
    acc10 V c (t.val + 1) = (k10_pay4 (iblk10 V c 0 t) (iblk10 V c 1 t) (acc10 V c t.val).1, k10_pay5 (iblk10 V c 0 t) (iblk10 V c 1 t) (acc10 V c t.val).2) := by
  rw [acc10, dif_pos t.isLt]

/-- The region invariant before position `n`: before the first point every scoped buffer that is no staging buffer at
    anything and the generator register at some state; afterwards the two scratch rows at what the points so far left
    in them (`acc10`), the other such buffers at anything, and the generator register at some state. -/
def Phi10 (c : Dev nD) : ℕ → sProp 𝕄
  | 0 => Pipeline.ΦA spec10 c
  | n + 1 => iprop(iprop(iprop(owns (c : Thread nD τ) scM10_0 fullShare (acc10 V c (n + 1)).1 ∗ owns (c : Thread nD τ) scM10_1 fullShare (acc10 V c (n + 1)).2)
      ∗ Pipeline.scopedRestBut (Ix := Unit) (Name := ℕ) (U := UR sig nD τ) (Lvl := ℕ) (Val := Elt F) spec10 c [cc10_scratch0, cc10_scratch1]) ∗ (∃ r, prngReg c r))

theorem Phi10_zero (c : Dev nD) (n : ℕ) (hz : n = 0) : Phi10 V c n = Pipeline.ΦA spec10 c := by subst hz; rfl

theorem Phi10_pos (c : Dev nD) (n : ℕ) (hz : n ≠ 0) :
    Phi10 V c n = iprop(iprop(iprop(owns (c : Thread nD τ) scM10_0 fullShare (acc10 V c n).1 ∗ owns (c : Thread nD τ) scM10_1 fullShare (acc10 V c n).2)
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-- The invariant before the first point with the two scratch rows taken out of the scoped rest, each owned at some contents. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

/-! ## The pipeline's proof data -/

/-- The proof data of pipeline 10 on core `c`: the arrays as the region finds them; after the body at point `t` each input's
    buffer at its block and the two outputs' at the scratch rows after that point (what the copy-out stores at the last
    point; elsewhere the windows are idle and this is not consulted); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (acc10 V c (t.val + 1)).1
    | ⟨3, _⟩ => (acc10 V c (t.val + 1)).2
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (acc10 V c (t.val + 1)).1 := by dsimp only [dat10]
theorem after10_3 (c : Dev nD) (t : Fin cfg10.N) : (dat10 V c).after 3 t = (acc10 V c (t.val + 1)).2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) from rfl, Phi10_pos V c _ (Nat.succ_ne_zero _)]
  rw [show (dat10 V c).Φ t.castSucc = Phi10 V c t.val from rfl]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  have hN : t.val < 20 := lt_of_lt_of_eq t.isLt (show cfg10.N = 20 from N_10)
  by_cases h1 : t.val = 19
  · have h0 : ¬ t.val = 0 := by omega
    rw [show (dat10 V c).leavesExact 2 t = owns (c : Thread nD τ) (st10_2 t) fullShare ((dat10 V c).after 2 t) from by
      unfold Dat.leavesExact; rw [liveAt10_2 t h1], after10_2]
    rw [show (dat10 V c).leavesExact 3 t = owns (c : Thread nD τ) (st10_3 t) fullShare ((dat10 V c).after 3 t) from by
      unfold Dat.leavesExact; rw [liveAt10_3 t h1], after10_3]
    rw [acc10_succ V c t, Phi10_pos V c _ h0]
    iintro ⟨⟨⟨⟨HS0, HS1⟩, Hrest⟩, Hg⟩, Ho, ⟨%d0, H0⟩, ⟨%d1, H1⟩, ⟨%d2, H2⟩, ⟨%d3, H3⟩⟩
    iapply (run10_C c Set.univ (grid10.coords t) _ _ _ _ _ _ _ _ _ _ _ _ (fun h => h0 ((hcond10_0 t).mp h)) ((hcond10_1 t).mpr h1)
      (iblk10 V c 0 t) (iblk10 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat10 V c) 2 t (idleAt10_2 t h1) (noFlush10_2 t h1)]
    rw [Dat.leavesExact_idle (dat10 V c) 3 t (idleAt10_3 t h1) (noFlush10_3 t h1)]
    rw [acc10_succ V c t]
    by_cases h0 : t.val = 0
    · rw [Phi10_zero V c _ h0, PhiA10_eq, show acc10 V c t.val = (k10_pay1, k10_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run10_A c Set.univ (grid10.coords t) _ _ _ _ _ _ _ _ _ _ _ _ ((hcond10_0 t).mpr h0) (fun h => h1 ((hcond10_1 t).mp h))
        (iblk10 V c 0 t) (iblk10 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi10_pos V c _ h0]
      iintro ⟨⟨⟨⟨HS0, HS1⟩, Hrest⟩, Hg⟩, Ho, ⟨%d0, H0⟩, ⟨%d1, H1⟩, ⟨%d2, H2⟩, ⟨%d3, H3⟩⟩
      iapply (run10_B c Set.univ (grid10.coords t) _ _ _ _ _ _ _ _ _ _ _ _ (fun h => h0 ((hcond10_0 t).mp h)) (fun h => h1 ((hcond10_1 t).mp h))
        (iblk10 V c 0 t) (iblk10 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into and out of the invariant -/

/-- What the region hands the pipeline — the generator register at some state, the (empty) prefetched tables and the
    scoped buffers no window stages — is the invariant before the first point. -/
theorem hin10 (c : Dev nD) :
    iprop((∃ r, prngReg c r) ∗ Pipeline.prefHeld (Ix := Unit) (Name := ℕ) (U := UR sig nD τ) (Lvl := ℕ) (pcfgs (F := F) 10).pre c (fun _ => fullShare) ((cfgs 10).toPCfg_adm).1
        ∗ Pipeline.scopedRest (Ix := Unit) (Name := ℕ) (U := UR sig nD τ) (Lvl := ℕ) (Val := Elt F) spec10 c)
      ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

/-- After any point the invariant gives back what it was entered with: the scratch rows' named contents are forgotten. -/
theorem Phi10_out (c : Dev nD) (n : ℕ) (hn : n ≠ 0) : Phi10 V c n ⊢ Pipeline.ΦA spec10 c := by
  rw [Phi10_pos V c _ hn, PhiA10_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout10 (c : Dev nD) :
    (dat10 V c).Φ (Fin.last cfg10.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec10 c) := by
  rw [show (dat10 V c).Φ (Fin.last cfg10.N) = Phi10 V c cfg10.N from rfl]
  refine (Phi10_out V c _ (by rw [show cfg10.N = 20 from N_10]; omega)).trans ?_
  rw [Pipeline.ownSems0_none]; unfold Pipeline.ΦA
  iintro ⟨Hr, Hp⟩
  isplitl [Hp]; · iexact Hp
  isplitr; · iempintro
  iexact Hr

end Cert.Kernel.Hand
end
-- ==== Proof.K.Norm11.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 11

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 holds its block at every point, fetched there or not: an unfetched window's block index has
    not moved, so the block kept from the point before is this point's block. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 holds its block at every point, fetched there or not: an unfetched window's block index has
    not moved, so the block kept from the point before is this point's block. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2 holds its block at every point, fetched there or not: an unfetched window's block index has
    not moved, so the block kept from the point before is this point's block. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3 holds its block at every point, fetched there or not: an unfetched window's block index has
    not moved, so the block kept from the point before is this point's block. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4 holds its block at every point, fetched there or not: an unfetched window's block index has
    not moved, so the block kept from the point before is this point's block. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5 holds its block at every point, fetched there or not: an unfetched window's block index has
    not moved, so the block kept from the point before is this point's block. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: the whole 5000-row block and the whole one-row block -/

abbrev r11_0 : Rect S5000x32 := Rect.unit (s := S5000x32) ![0, 0] S5000x32.size inb_S5000x32_S5000x32_0_0
abbrev r11_1 : Rect S1x32 := Rect.unit (s := S1x32) ![0, 0] S1x32.size inb_S1x32_S1x32_0_0

/-! ## What the body leaves in the output window's buffer -/

/-- The output buffer after the body: its one store, of the payload of the six loads, laid over the block. -/
def out11_6 (x0 : Vec F S5000x32 .f32) (x1 x2 x3 x4 x5 : Vec F S1x32 .f32) : Vec F S5000x32 .f32 :=
  View.canon [⟨r11_0, k11_pay1 (View.ld x0 r11_0) (View.ld x1 r11_1) (View.ld x2 r11_1) (View.ld x3 r11_1) (View.ld x4 r11_1) (View.ld x5 r11_1)⟩]

/-- The one store's rectangle is the whole block, so it covers it. -/
theorem cover11_6 (p0 : Vec F S5000x32 .f32) (y : S5000x32.Idx) :
    ∃ pc ∈ ([⟨r11_0, p0⟩] : List (View.Piece (Elt F) S5000x32 .f32)), y ∈ pc.1.set :=
  View.cover_of_tiled [⟨r11_0, p0⟩] S5000x32.size (by rfl) y

/-! ## The body's triple -/

set_option maxHeartbeats 1000000 in
/-- The body on whole staging buffers, the six inputs' at read contents `x0 … x5` and the output's at anything,
    runs to a continuation that holds the inputs' as they were and the output's at `out11_6` of the inputs'.
    The load of the output buffer that precedes the store reads whatever the buffer holds and its value is
    not used. -/
theorem sound_kernel11 (c : Dev nD) (E : Set ℕ) (i : grid11.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__norm_kernel i arg1 harg1 arg2 harg2 arg3 harg3 arg4 harg4 arg5 harg5 arg6 harg6 arg7 harg7) K := by
  simp only [cc11__norm_kernel_eq_skeleton]; unfold cc11__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them; after the body at point
    `t` each input's buffer at its block and the output's at `out11_6` of the six input blocks; the invariant
    keeps the scoped rest and the generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' buffers hold their blocks, so the body's triple applies; the invariant and
    the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K.Mlp12.lean ====
/-
  The multilayer-perceptron region of pipeline 12: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, whether the pipeline fetched it there or
    not (an unfetched window's block index has not moved), for any proof data over `V` whose body leaves the
    block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, whether the pipeline fetched it there or
    not (an unfetched window's block index has not moved), for any proof data over `V` whose body leaves the
    block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's staging buffer holds its block at every point, whether the pipeline fetched it there or
    not (an unfetched window's block index has not moved), for any proof data over `V` whose body leaves the
    block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's staging buffer holds its block at every point, whether the pipeline fetched it there or
    not (an unfetched window's block index has not moved), for any proof data over `V` whose body leaves the
    block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's staging buffer holds its block at every point, whether the pipeline fetched it there or
    not (an unfetched window's block index has not moved), for any proof data over `V` whose body leaves the
    block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S5000x32 := Rect.unit (s := S5000x32) ![0, 0] S5000x32.size inb_S5000x32_S5000x32_0_0
abbrev r12_1 : Rect S32x32 := Rect.unit (s := S32x32) ![0, 0] S32x32.size inb_S32x32_S32x32_0_0
abbrev r12_2 : Rect S1x32 := Rect.unit (s := S1x32) ![0, 0] S1x32.size inb_S1x32_S1x32_0_0
abbrev r12_3 : Rect S32x32 := Rect.unit (s := S32x32) ![0, 0] S32x32.size inb_S32x32_S32x32_0_0
abbrev r12_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out12_5 (x0 : Vec F S5000x32 .f32) (x1 : Vec F S32x32 .f32) (x2 : Vec F S1x32 .f32) (x3 : Vec F S32x32 .f32) (x4 : Vec F S1x32 .f32) : Vec F S5000x32 .f32 :=
  View.canon [⟨r12_5, k12_pay1 (View.ld x0 r12_0) (View.ld x1 r12_1) (View.ld x2 r12_2) (View.ld x3 r12_3) (View.ld x4 r12_2)⟩]

/-- The one store is of the whole buffer, so it covers it. -/
theorem cover12_5 (p0 : Vec F S5000x32 .f32) (y : S5000x32.Idx) :
    ∃ pc ∈ ([⟨r12_5, p0⟩] : List (View.Piece (Elt F) S5000x32 .f32)), y ∈ pc.1.set :=
  View.cover_of_tiled [⟨r12_5, p0⟩] S5000x32.size (by rfl) y

/-! ## The body's triple -/

set_option maxHeartbeats 2000000 in
/-- The body on whole staging memrefs, the five inputs' at read contents `x0 … x4` and the output's at
    anything, runs to the continuation with the inputs as they were and the output at `out12_5` of them.
    The load of the output buffer before the store reads whatever it holds and its value goes nowhere. -/
theorem sound_kernel12 (c : Dev nD) (E : Set ℕ) (i : grid12.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out12_5 x0 x1 x2 x3 x4)) -∗ K ⟨⟩))
      ⊢ wp frame (wpE (defs₀ (F := F)) Variants.none c none) E (cc12__mlp_kernel i arg1 harg1 arg2 harg2 arg3 harg3 arg4 harg4 arg5 harg5 arg6 harg6) K := by
  simp only [cc12__mlp_kernel_eq_skeleton]; unfold cc12__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of pipeline 12 on core `c`: the arrays as the region finds them; after the body at point
    `t` each input's buffer at its block and the output's at `out12_5` of the five input blocks; the
    invariant is the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so the body's triple applies; the invariant
    and the core's obligations pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K.Stats13.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.K.StatsLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 13: two column sums accumulated in scratch over the 20 row blocks -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's staging buffer holds its block at every point, fetched there or not (where it is not fetched
    the block index has not moved), for any proof data whose array is `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's two conditions, in closed form over the grid -/

/-- The first conditional (the reset of the two scratch rows) is taken exactly at the first point. -/
abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)
/-- The second conditional (the copy of the scratch rows into the output windows) is taken exactly at the last point. -/
abbrev cond13_1 (i : grid13.Coords) : Prop := k13_cond2 i = 1#1
theorem hcond13_1 : ∀ t : Fin cfg13.N, cond13_1 (grid13.coords t) ↔ t.val = 19 :=
  (by decide +kernel : ∀ t : Fin grid13.N, cond13_1 (grid13.coords t) ↔ t.val = 19)

/-- The input windows are never idle; the output windows are idle, and not written back, off the last point. -/
theorem liveAt13_0 : ∀ t : Fin cfg13.N, cfg13.idle 0 (grid13.coords t) = false := by decide +kernel
theorem liveAt13_1 : ∀ t : Fin cfg13.N, cfg13.idle 1 (grid13.coords t) = false := by decide +kernel
theorem idleAt13_2 : ∀ t : Fin cfg13.N, ¬ t.val = 19 → cfg13.idle 2 (grid13.coords t) = true := by decide +kernel
theorem idleAt13_3 : ∀ t : Fin cfg13.N, ¬ t.val = 19 → cfg13.idle 3 (grid13.coords t) = true := by decide +kernel
theorem noFlush13_2 : ∀ t : Fin cfg13.N, ¬ t.val = 19 → (cfg13.win 2).flush t = false := by decide +kernel
theorem noFlush13_3 : ∀ t : Fin cfg13.N, ¬ t.val = 19 → (cfg13.win 3).flush t = false := by decide +kernel
theorem liveAt13_2 : ∀ t : Fin cfg13.N, t.val = 19 → cfg13.idle 2 (grid13.coords t) = false := by decide +kernel
theorem liveAt13_3 : ∀ t : Fin cfg13.N, t.val = 19 → cfg13.idle 3 (grid13.coords t) = false := by decide +kernel

/-! ## The body on whole memrefs, case by case -/

/-- The accumulation payloads respect equality of their three arguments. -/
theorem k13_pay4_congr {a a' : Vec F S5000x32 .f32} {b b' s s' : Vec F S1x32 .f32} (ha : a = a') (hb : b = b') (hs : s = s') :
    k13_pay4 a b s = k13_pay4 a' b' s' := by subst ha hb hs; rfl
theorem k13_pay5_congr {a a' : Vec F S5000x32 .f32} {b b' s s' : Vec F S1x32 .f32} (ha : a = a') (hb : b = b') (hs : s = s') :
    k13_pay5 a b s = k13_pay5 a' b' s' := by subst ha hb hs; rfl

set_option maxHeartbeats 1000000 in
/-- A middle point (neither conditional taken): both scratch rows go from `s` to the accumulation payloads of the
    two input blocks over `s`; every window's buffer is handed back as found. -/
theorem run13_B (c : Dev nD) (E : Set ℕ) (i : grid13.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond13_0 i) (hc1 : ¬cond13_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k13_pay4 x0 x1 s0) ∗ owns (c : Thread nD τ) arg6 fullShare (k13_pay5 x0 x1 s1)) -∗ K ⟨⟩))
      ⊢ wp frame (wpE (defs₀ (F := F)) Variants.none c none) E (cc13__stats_kernel i arg1 harg1 arg2 harg2 arg3 harg3 arg4 harg4 arg5 harg5 arg6 harg6) K := by
  simp only [cc13__stats_kernel_eq_skeleton]; unfold cc13__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run13_A (c : Dev nD) (E : Set ℕ) (i : grid13.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond13_0 i) (hc1 : ¬cond13_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k13_pay4 x0 x1 k13_pay1) ∗ owns (c : Thread nD τ) arg6 fullShare (k13_pay5 x0 x1 k13_pay2)) -∗ K ⟨⟩))
      ⊢ wp frame (wpE (defs₀ (F := F)) Variants.none c none) E (cc13__stats_kernel i arg1 harg1 arg2 harg2 arg3 harg3 arg4 harg4 arg5 harg5 arg6 harg6) K := by
  simp only [cc13__stats_kernel_eq_skeleton]; unfold cc13__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k13_pay4_congr (stats_readAt_blk _ _) (stats_readAt_row _ _) ?_
    sl_unfold_run_names; exact stats_readCov_row _ _
  · iexists _; isplitr
    swap; · iexact H5
    ipureintro; rw [stats_read_writes_row]
    refine k13_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run13_C (c : Dev nD) (E : Set ℕ) (i : grid13.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond13_0 i) (hc1 : cond13_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k13_pay4 x0 x1 s0) ∗ owns (c : Thread nD τ) arg4 fullShare (k13_pay5 x0 x1 s1)
            ∗ owns (c : Thread nD τ) arg5 fullShare (k13_pay4 x0 x1 s0) ∗ owns (c : Thread nD τ) arg6 fullShare (k13_pay5 x0 x1 s1)) -∗ K ⟨⟩))
      ⊢ wp frame (wpE (defs₀ (F := F)) Variants.none c none) E (cc13__stats_kernel i arg1 harg1 arg2 harg2 arg3 harg3 arg4 harg4 arg5 harg5 arg6 harg6) K := by
  simp only [cc13__stats_kernel_eq_skeleton]; unfold cc13__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k13_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k13_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k13_pay4_congr (stats_readAt_blk _ _) (stats_readAt_row _ _) (stats_readAt_row _ _)
  · iexists _; isplitr
    swap; · iexact H5
    ipureintro; sl_unfold_run_names
    refine (stats_read_writes_row _ _ _ _).trans ?_
    exact k13_pay5_congr (stats_readAt_blk _ _) (stats_readAt_row _ _) (stats_readAt_row _ _)

/-! ## The accumulation -/

/-- The two scratch operands: whole scoped buffers of the kernel's own, passed beside the windows. -/
abbrev scM13_0 : Memref sig .tc .vmem S1x32 .f32 := Memref.whole cc13_scratch0
abbrev scM13_1 : Memref sig .tc .vmem S1x32 .f32 := Memref.whole cc13_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc13 (c : Dev nD) : (n : ℕ) → Vec F S1x32 .f32 × Vec F S1x32 .f32
  | 0 => (k13_pay1, k13_pay2)
  | n + 1 =>
    if h : n < cfg13.N then
      (k13_pay4 (iblk13 V c 0 ⟨n, h⟩) (iblk13 V c 1 ⟨n, h⟩) (acc13 c n).1, k13_pay5 (iblk13 V c 0 ⟨n, h⟩) (iblk13 V c 1 ⟨n, h⟩) (acc13 c n).2)
    else acc13 c n

theorem acc13_zero (c : Dev nD) : acc13 V c 0 = (k13_pay1, k13_pay2) := rfl

theorem acc13_succ (c : Dev nD) (t : Fin cfg13.N) :
    acc13 V c (t.val + 1) = (k13_pay4 (iblk13 V c 0 t) (iblk13 V c 1 t) (acc13 V c t.val).1, k13_pay5 (iblk13 V c 0 t) (iblk13 V c 1 t) (acc13 V c t.val).2) := by
  rw [acc13, dif_pos t.isLt]

/-- The region invariant before position `n`: before the first point every scoped buffer that is no staging buffer at
    anything and the generator register at some state; afterwards the two scratch rows at what the points so far left
    in them (`acc13`), the other such buffers at anything, and the generator register at some state. -/
def Phi13 (c : Dev nD) : ℕ → sProp 𝕄
  | 0 => Pipeline.ΦA spec13 c
  | n + 1 => iprop(iprop(iprop(owns (c : Thread nD τ) scM13_0 fullShare (acc13 V c (n + 1)).1 ∗ owns (c : Thread nD τ) scM13_1 fullShare (acc13 V c (n + 1)).2)
      ∗ Pipeline.scopedRestBut (Ix := Unit) (Name := ℕ) (U := UR sig nD τ) (Lvl := ℕ) (Val := Elt F) spec13 c [cc13_scratch0, cc13_scratch1]) ∗ (∃ r, prngReg c r))

theorem Phi13_zero (c : Dev nD) (n : ℕ) (hz : n = 0) : Phi13 V c n = Pipeline.ΦA spec13 c := by subst hz; rfl

theorem Phi13_pos (c : Dev nD) (n : ℕ) (hz : n ≠ 0) :
    Phi13 V c n = iprop(iprop(iprop(owns (c : Thread nD τ) scM13_0 fullShare (acc13 V c n).1 ∗ owns (c : Thread nD τ) scM13_1 fullShare (acc13 V c n).2)
      ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-- The invariant before the first point with the two scratch rows taken out of the scoped rest, each owned at some contents. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) ∗ (∃ r, prngReg c r)) := by
  unfold Pipeline.ΦA; rw [scopedRest13_split]; simp only [scM13_0, scM13_1, owns_whole]; try rfl

/-! ## The pipeline's proof data -/

/-- The proof data of pipeline 13 on core `c`: the arrays as the region finds them; after the body at point `t` each input's
    buffer at its block and the two outputs' at the scratch rows after that point (what the copy-out stores at the last
    point; elsewhere the windows are idle and this is not consulted); the invariant `Phi13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => (acc13 V c (t.val + 1)).1
    | ⟨3, _⟩ => (acc13 V c (t.val + 1)).2
  Φ t := Phi13 V c t.val
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (acc13 V c (t.val + 1)).1 := by dsimp only [dat13]
theorem after13_3 (c : Dev nD) (t : Fin cfg13.N) : (dat13 V c).after 3 t = (acc13 V c (t.val + 1)).2 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = Phi13 V c (t.val + 1) from rfl, Phi13_pos V c _ (Nat.succ_ne_zero _)]
  rw [show (dat13 V c).Φ t.castSucc = Phi13 V c t.val from rfl]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  have hN : t.val < 20 := lt_of_lt_of_eq t.isLt (show cfg13.N = 20 from N_13)
  by_cases h1 : t.val = 19
  · have h0 : ¬ t.val = 0 := by omega
    rw [show (dat13 V c).leavesExact 2 t = owns (c : Thread nD τ) (st13_2 t) fullShare ((dat13 V c).after 2 t) from by
      unfold Dat.leavesExact; rw [liveAt13_2 t h1], after13_2]
    rw [show (dat13 V c).leavesExact 3 t = owns (c : Thread nD τ) (st13_3 t) fullShare ((dat13 V c).after 3 t) from by
      unfold Dat.leavesExact; rw [liveAt13_3 t h1], after13_3]
    rw [acc13_succ V c t, Phi13_pos V c _ h0]
    iintro ⟨⟨⟨⟨HS0, HS1⟩, Hrest⟩, Hg⟩, Ho, ⟨%d0, H0⟩, ⟨%d1, H1⟩, ⟨%d2, H2⟩, ⟨%d3, H3⟩⟩
    iapply (run13_C c Set.univ (grid13.coords t) _ _ _ _ _ _ _ _ _ _ _ _ (fun h => h0 ((hcond13_0 t).mp h)) ((hcond13_1 t).mpr h1)
      (iblk13 V c 0 t) (iblk13 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat13 V c) 2 t (idleAt13_2 t h1) (noFlush13_2 t h1)]
    rw [Dat.leavesExact_idle (dat13 V c) 3 t (idleAt13_3 t h1) (noFlush13_3 t h1)]
    rw [acc13_succ V c t]
    by_cases h0 : t.val = 0
    · rw [Phi13_zero V c _ h0, PhiA13_eq, show acc13 V c t.val = (k13_pay1, k13_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run13_A c Set.univ (grid13.coords t) _ _ _ _ _ _ _ _ _ _ _ _ ((hcond13_0 t).mpr h0) (fun h => h1 ((hcond13_1 t).mp h))
        (iblk13 V c 0 t) (iblk13 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi13_pos V c _ h0]
      iintro ⟨⟨⟨⟨HS0, HS1⟩, Hrest⟩, Hg⟩, Ho, ⟨%d0, H0⟩, ⟨%d1, H1⟩, ⟨%d2, H2⟩, ⟨%d3, H3⟩⟩
      iapply (run13_B c Set.univ (grid13.coords t) _ _ _ _ _ _ _ _ _ _ _ _ (fun h => h0 ((hcond13_0 t).mp h)) (fun h => h1 ((hcond13_1 t).mp h))
        (iblk13 V c 0 t) (iblk13 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Into and out of the invariant -/

/-- What the region hands the pipeline — the generator register at some state, the (empty) prefetched tables and the
    scoped buffers no window stages — is the invariant before the first point. -/
theorem hin13 (c : Dev nD) :
    iprop((∃ r, prngReg c r) ∗ Pipeline.prefHeld (Ix := Unit) (Name := ℕ) (U := UR sig nD τ) (Lvl := ℕ) (pcfgs (F := F) 13).pre c (fun _ => fullShare) ((cfgs 13).toPCfg_adm).1
        ∗ Pipeline.scopedRest (Ix := Unit) (Name := ℕ) (U := UR sig nD τ) (Lvl := ℕ) (Val := Elt F) spec13 c)
      ⊢ (dat13 V c).Φ 0 := by
  rw [show (dat13 V c).Φ 0 = Pipeline.ΦA spec13 c from rfl]; unfold Pipeline.ΦA
  iintro ⟨Hp, -, Hr⟩
  isplitl [Hr]; · iexact Hr
  iexact Hp

/-- After any point the invariant gives back what it was entered with: the scratch rows' named contents are forgotten. -/
theorem Phi13_out (c : Dev nD) (n : ℕ) (hn : n ≠ 0) : Phi13 V c n ⊢ Pipeline.ΦA spec13 c := by
  rw [Phi13_pos V c _ hn, PhiA13_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout13 (c : Dev nD) :
    (dat13 V c).Φ (Fin.last cfg13.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec13 c) := by
  rw [show (dat13 V c).Φ (Fin.last cfg13.N) = Phi13 V c cfg13.N from rfl]
  refine (Phi13_out V c _ (by rw [show cfg13.N = 20 from N_13]; omega)).trans ?_
  rw [Pipeline.ownSems0_none]; unfold Pipeline.ΦA
  iintro ⟨Hr, Hp⟩
  isplitl [Hp]; · iexact Hp
  isplitr; · iempintro
  iexact Hr

end Cert.Kernel.Hand
end
-- ==== Proof.K.Norm14.lean ====
import proofs.«114689_j15281493639468_1_alg».proof.Proof.Gen.Kernel.Launch
import proofs.«114689_j15281493639468_1_alg».proof.Proof.Gen.Kernel.Skeleton
import proofs.«114689_j15281493639468_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 14

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0 holds its block at every point, fetched there or not: an unfetched window's block index has
    not moved, so the block kept from the point before is this point's block. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1 holds its block at every point, fetched there or not: an unfetched window's block index has
    not moved, so the block kept from the point before is this point's block. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2 holds its block at every point, fetched there or not: an unfetched window's block index has
    not moved, so the block kept from the point before is this point's block. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3 holds its block at every point, fetched there or not: an unfetched window's block index has
    not moved, so the block kept from the point before is this point's block. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4 holds its block at every point, fetched there or not: an unfetched window's block index has
    not moved, so the block kept from the point before is this point's block. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
/-- Input window 5 holds its block at every point, fetched there or not: an unfetched window's block index has
    not moved, so the block kept from the point before is this point's block. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: the whole 5000-row block and the whole one-row block -/

abbrev r14_0 : Rect S5000x32 := Rect.unit (s := S5000x32) ![0, 0] S5000x32.size inb_S5000x32_S5000x32_0_0
abbrev r14_1 : Rect S1x32 := Rect.unit (s := S1x32) ![0, 0] S1x32.size inb_S1x32_S1x32_0_0

/-! ## What the body leaves in the output window's buffer -/

/-- The output buffer after the body: its one store, of the payload of the six loads, laid over the block. -/
def out14_6 (x0 : Vec F S5000x32 .f32) (x1 x2 x3 x4 x5 : Vec F S1x32 .f32) : Vec F S5000x32 .f32 :=
  View.canon [⟨r14_0, k14_pay1 (View.ld x0 r14_0) (View.ld x1 r14_1) (View.ld x2 r14_1) (View.ld x3 r14_1) (View.ld x4 r14_1) (View.ld x5 r14_1)⟩]

/-- The one store's rectangle is the whole block, so it covers it. -/
theorem cover14_6 (p0 : Vec F S5000x32 .f32) (y : S5000x32.Idx) :
    ∃ pc ∈ ([⟨r14_0, p0⟩] : List (View.Piece (Elt F) S5000x32 .f32)), y ∈ pc.1.set :=
  View.cover_of_tiled [⟨r14_0, p0⟩] S5000x32.size (by rfl) y

/-! ## The body's triple -/

set_option maxHeartbeats 1000000 in
/-- The body on whole staging buffers, the six inputs' at read contents `x0 … x5` and the output's at anything,
    runs to a continuation that holds the inputs' as they were and the output's at `out14_6` of the inputs'.
    The load of the output buffer that precedes the store reads whatever the buffer holds and its value is
    not used. -/
theorem sound_kernel14 (c : Dev nD) (E : Set ℕ) (i : grid14.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__norm_kernel i arg1 harg1 arg2 harg2 arg3 harg3 arg4 harg4 arg5 harg5 arg6 harg6 arg7 harg7) K := by
  simp only [cc14__norm_kernel_eq_skeleton]; unfold cc14__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them; after the body at point
    `t` each input's buffer at its block and the output's at `out14_6` of the six input blocks; the invariant
    keeps the scoped rest and the generator register untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' buffers hold their blocks, so the body's triple applies; the invariant and
    the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand
-- ==== Proof.K.Fold.lean ====
import proofs.«114689_j15281493639468_1_alg».proof.Proof.K.Mlp0
import proofs.«114689_j15281493639468_1_alg».proof.Proof.K.Stats1
import proofs.«114689_j15281493639468_1_alg».proof.Proof.K.Norm2
import proofs.«114689_j15281493639468_1_alg».proof.Proof.K.Mlp3
import proofs.«114689_j15281493639468_1_alg».proof.Proof.K.Stats4
import proofs.«114689_j15281493639468_1_alg».proof.Proof.K.Norm5
import proofs.«114689_j15281493639468_1_alg».proof.Proof.K.Mlp6
import proofs.«114689_j15281493639468_1_alg».proof.Proof.K.Stats7
import proofs.«114689_j15281493639468_1_alg».proof.Proof.K.Norm8
import proofs.«114689_j15281493639468_1_alg».proof.Proof.K.Mlp9
import proofs.«114689_j15281493639468_1_alg».proof.Proof.K.Stats10
import proofs.«114689_j15281493639468_1_alg».proof.Proof.K.Norm11
import proofs.«114689_j15281493639468_1_alg».proof.Proof.K.Mlp12
import proofs.«114689_j15281493639468_1_alg».proof.Proof.K.Stats13
import proofs.«114689_j15281493639468_1_alg».proof.Proof.K.Norm14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of @main

  @main is five stretches of host operations, then fifteen kernel regions with a stretch of host operations between
  consecutive ones.  `W j c` is what core `c`'s buffers hold at boundary `j`: a stretch applies its operations
  (`StableHlo.after`), a region replaces its windows' arrays by what its write-backs leave and keeps the rest. -/

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)

/-- The contents region 0 is entered from, read at the TensorCore's references. -/
abbrev V5 : (c : Dev nD) → (b : Ref sig .tc) → Buf (Elt F) ((c : Thread nD τ).loc b) := fun c b => W5 m c b
/-- After region 0: its arrays at what the pipeline leaves, every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
abbrev W7 : Dev nD → Valuation τ sig (Elt F) := fun c => StableHlo.after hostOps1 (W6 m c)

/-- The contents region 1 is entered from, read at the TensorCore's references. -/
abbrev V7 : (c : Dev nD) → (b : Ref sig .tc) → Buf (Elt F) ((c : Thread nD τ).loc b) := fun c b => W7 m c b
/-- After region 1: its arrays at what the pipeline leaves, every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
abbrev W9 : Dev nD → Valuation τ sig (Elt F) := fun c => StableHlo.after hostOps2 (W8 m c)

/-- The contents region 2 is entered from, read at the TensorCore's references. -/
abbrev V9 : (c : Dev nD) → (b : Ref sig .tc) → Buf (Elt F) ((c : Thread nD τ).loc b) := fun c b => W9 m c b
/-- After region 2: its arrays at what the pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
abbrev W11 : Dev nD → Valuation τ sig (Elt F) := fun c => StableHlo.after hostOps3 (W10 m c)

/-- The contents region 3 is entered from, read at the TensorCore's references. -/
abbrev V11 : (c : Dev nD) → (b : Ref sig .tc) → Buf (Elt F) ((c : Thread nD τ).loc b) := fun c b => W11 m c b
/-- After region 3: its arrays at what the pipeline leaves, every other buffer as entered. -/
def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
theorem hF3 (c : Dev nD) (w : Fin cfg3.W) : (dat3 (V11 m) c).arrAt w cfg3.N = V12 m c (Pipeline.arrRef spec3 w) :=
  (W12_arr m c w).symm
theorem hrest3 (c : Dev nD) : ∀ b, b ∉ Finset.univ.image (Pipeline.arrRef spec3) → V12 m c b = V11 m c b :=
  fun b hb => W12_of_ne m c b fun w e => hb (Finset.mem_image.mpr ⟨w, Finset.mem_univ _, e⟩)
abbrev W13 : Dev nD → Valuation τ sig (Elt F) := fun c => StableHlo.after hostOps4 (W12 m c)

/-- The contents region 4 is entered from, read at the TensorCore's references. -/
abbrev V13 : (c : Dev nD) → (b : Ref sig .tc) → Buf (Elt F) ((c : Thread nD τ).loc b) := fun c b => W13 m c b
/-- After region 4: its arrays at what the pipeline leaves, every other buffer as entered. -/
def W14 (c : Dev nD) : Valuation τ sig (Elt F) :=
  Pipeline.withArrays spec4 c (W13 m c) fun w => (dat4 (V13 m) c).arrAt w cfg4.N
theorem W14_arr (c : Dev nD) (w : Fin cfg4.W) :
    W14 m c (Proc.devRef .tc (Pipeline.arrRef spec4 w)) = (dat4 (V13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev V14 : (c : Dev nD) → (b : Ref sig .tc) → Buf (Elt F) ((c : Thread nD τ).loc b) := fun c b => W14 m c b
theorem hF4 (c : Dev nD) (w : Fin cfg4.W) : (dat4 (V13 m) c).arrAt w cfg4.N = V14 m c (Pipeline.arrRef spec4 w) :=
  (W14_arr m c w).symm
theorem hrest4 (c : Dev nD) : ∀ b, b ∉ Finset.univ.image (Pipeline.arrRef spec4) → V14 m c b = V13 m c b :=
  fun b hb => W14_of_ne m c b fun w e => hb (Finset.mem_image.mpr ⟨w, Finset.mem_univ _, e⟩)
abbrev W15 : Dev nD → Valuation τ sig (Elt F) := fun c => StableHlo.after hostOps5 (W14 m c)

/-- The contents region 5 is entered from, read at the TensorCore's references. -/
abbrev V15 : (c : Dev nD) → (b : Ref sig .tc) → Buf (Elt F) ((c : Thread nD τ).loc b) := fun c b => W15 m c b
/-- After region 5: its arrays at what the pipeline leaves, every other buffer as entered. -/
def W16 (c : Dev nD) : Valuation τ sig (Elt F) :=
  Pipeline.withArrays spec5 c (W15 m c) fun w => (dat5 (V15 m) c).arrAt w cfg5.N
theorem W16_arr (c : Dev nD) (w : Fin cfg5.W) :
    W16 m c (Proc.devRef .tc (Pipeline.arrRef spec5 w)) = (dat5 (V15 m) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m c (Proc.devRef .tc b) = W15 m c (Proc.devRef .tc b) := by
  unfold W16; exact Pipeline.withArrays_of_ne spec5 c _ _ b hb
abbrev V16 : (c : Dev nD) → (b : Ref sig .tc) → Buf (Elt F) ((c : Thread nD τ).loc b) := fun c b => W16 m c b
theorem hF5 (c : Dev nD) (w : Fin cfg5.W) : (dat5 (V15 m) c).arrAt w cfg5.N = V16 m c (Pipeline.arrRef spec5 w) :=
  (W16_arr m c w).symm
theorem hrest5 (c : Dev nD) : ∀ b, b ∉ Finset.univ.image (Pipeline.arrRef spec5) → V16 m c b = V15 m c b :=
  fun b hb => W16_of_ne m c b fun w e => hb (Finset.mem_image.mpr ⟨w, Finset.mem_univ _, e⟩)
abbrev W17 : Dev nD → Valuation τ sig (Elt F) := fun c => StableHlo.after hostOps6 (W16 m c)

/-- The contents region 6 is entered from, read at the TensorCore's references. -/
abbrev V17 : (c : Dev nD) → (b : Ref sig .tc) → Buf (Elt F) ((c : Thread nD τ).loc b) := fun c b => W17 m c b
/-- After region 6: its arrays at what the pipeline leaves, every other buffer as entered. -/
def W18 (c : Dev nD) : Valuation τ sig (Elt F) :=
  Pipeline.withArrays spec6 c (W17 m c) fun w => (dat6 (V17 m) c).arrAt w cfg6.N
theorem W18_arr (c : Dev nD) (w : Fin cfg6.W) :
    W18 m c (Proc.devRef .tc (Pipeline.arrRef spec6 w)) = (dat6 (V17 m) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m c (Proc.devRef .tc b) = W17 m c (Proc.devRef .tc b) := by
  unfold W18; exact Pipeline.withArrays_of_ne spec6 c _ _ b hb
abbrev V18 : (c : Dev nD) → (b : Ref sig .tc) → Buf (Elt F) ((c : Thread nD τ).loc b) := fun c b => W18 m c b
theorem hF6 (c : Dev nD) (w : Fin cfg6.W) : (dat6 (V17 m) c).arrAt w cfg6.N = V18 m c (Pipeline.arrRef spec6 w) :=
  (W18_arr m c w).symm
theorem hrest6 (c : Dev nD) : ∀ b, b ∉ Finset.univ.image (Pipeline.arrRef spec6) → V18 m c b = V17 m c b :=
  fun b hb => W18_of_ne m c b fun w e => hb (Finset.mem_image.mpr ⟨w, Finset.mem_univ _, e⟩)
abbrev W19 : Dev nD → Valuation τ sig (Elt F) := fun c => StableHlo.after hostOps7 (W18 m c)

/-- The contents region 7 is entered from, read at the TensorCore's references. -/
abbrev V19 : (c : Dev nD) → (b : Ref sig .tc) → Buf (Elt F) ((c : Thread nD τ).loc b) := fun c b => W19 m c b
/-- After region 7: its arrays at what the pipeline leaves, every other buffer as entered. -/
def W20 (c : Dev nD) : Valuation τ sig (Elt F) :=
  Pipeline.withArrays spec7 c (W19 m c) fun w => (dat7 (V19 m) c).arrAt w cfg7.N
theorem W20_arr (c : Dev nD) (w : Fin cfg7.W) :
    W20 m c (Proc.devRef .tc (Pipeline.arrRef spec7 w)) = (dat7 (V19 m) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m c (Proc.devRef .tc b) = W19 m c (Proc.devRef .tc b) := by
  unfold W20; exact Pipeline.withArrays_of_ne spec7 c _ _ b hb
abbrev V20 : (c : Dev nD) → (b : Ref sig .tc) → Buf (Elt F) ((c : Thread nD τ).loc b) := fun c b => W20 m c b
theorem hF7 (c : Dev nD) (w : Fin cfg7.W) : (dat7 (V19 m) c).arrAt w cfg7.N = V20 m c (Pipeline.arrRef spec7 w) :=
  (W20_arr m c w).symm
theorem hrest7 (c : Dev nD) : ∀ b, b ∉ Finset.univ.image (Pipeline.arrRef spec7) → V20 m c b = V19 m c b :=
  fun b hb => W20_of_ne m c b fun w e => hb (Finset.mem_image.mpr ⟨w, Finset.mem_univ _, e⟩)
abbrev W21 : Dev nD → Valuation τ sig (Elt F) := fun c => StableHlo.after hostOps8 (W20 m c)

/-- The contents region 8 is entered from, read at the TensorCore's references. -/
abbrev V21 : (c : Dev nD) → (b : Ref sig .tc) → Buf (Elt F) ((c : Thread nD τ).loc b) := fun c b => W21 m c b
/-- After region 8: its arrays at what the pipeline leaves, every other buffer as entered. -/
def W22 (c : Dev nD) : Valuation τ sig (Elt F) :=
  Pipeline.withArrays spec8 c (W21 m c) fun w => (dat8 (V21 m) c).arrAt w cfg8.N
theorem W22_arr (c : Dev nD) (w : Fin cfg8.W) :
    W22 m c (Proc.devRef .tc (Pipeline.arrRef spec8 w)) = (dat8 (V21 m) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m c (Proc.devRef .tc b) = W21 m c (Proc.devRef .tc b) := by
  unfold W22; exact Pipeline.withArrays_of_ne spec8 c _ _ b hb
abbrev V22 : (c : Dev nD) → (b : Ref sig .tc) → Buf (Elt F) ((c : Thread nD τ).loc b) := fun c b => W22 m c b
theorem hF8 (c : Dev nD) (w : Fin cfg8.W) : (dat8 (V21 m) c).arrAt w cfg8.N = V22 m c (Pipeline.arrRef spec8 w) :=
  (W22_arr m c w).symm
theorem hrest8 (c : Dev nD) : ∀ b, b ∉ Finset.univ.image (Pipeline.arrRef spec8) → V22 m c b = V21 m c b :=
  fun b hb => W22_of_ne m c b fun w e => hb (Finset.mem_image.mpr ⟨w, Finset.mem_univ _, e⟩)
abbrev W23 : Dev nD → Valuation τ sig (Elt F) := fun c => StableHlo.after hostOps9 (W22 m c)

/-- The contents region 9 is entered from, read at the TensorCore's references. -/
abbrev V23 : (c : Dev nD) → (b : Ref sig .tc) → Buf (Elt F) ((c : Thread nD τ).loc b) := fun c b => W23 m c b
/-- After region 9: its arrays at what the pipeline leaves, every other buffer as entered. -/
def W24 (c : Dev nD) : Valuation τ sig (Elt F) :=
  Pipeline.withArrays spec9 c (W23 m c) fun w => (dat9 (V23 m) c).arrAt w cfg9.N
theorem W24_arr (c : Dev nD) (w : Fin cfg9.W) :
    W24 m c (Proc.devRef .tc (Pipeline.arrRef spec9 w)) = (dat9 (V23 m) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m c (Proc.devRef .tc b) = W23 m c (Proc.devRef .tc b) := by
  unfold W24; exact Pipeline.withArrays_of_ne spec9 c _ _ b hb
abbrev V24 : (c : Dev nD) → (b : Ref sig .tc) → Buf (Elt F) ((c : Thread nD τ).loc b) := fun c b => W24 m c b
theorem hF9 (c : Dev nD) (w : Fin cfg9.W) : (dat9 (V23 m) c).arrAt w cfg9.N = V24 m c (Pipeline.arrRef spec9 w) :=
  (W24_arr m c w).symm
theorem hrest9 (c : Dev nD) : ∀ b, b ∉ Finset.univ.image (Pipeline.arrRef spec9) → V24 m c b = V23 m c b :=
  fun b hb => W24_of_ne m c b fun w e => hb (Finset.mem_image.mpr ⟨w, Finset.mem_univ _, e⟩)
abbrev W25 : Dev nD → Valuation τ sig (Elt F) := fun c => StableHlo.after hostOps10 (W24 m c)

/-- The contents region 10 is entered from, read at the TensorCore's references. -/
abbrev V25 : (c : Dev nD) → (b : Ref sig .tc) → Buf (Elt F) ((c : Thread nD τ).loc b) := fun c b => W25 m c b
/-- After region 10: its arrays at what the pipeline leaves, every other buffer as entered. -/
def W26 (c : Dev nD) : Valuation τ sig (Elt F) :=
  Pipeline.withArrays spec10 c (W25 m c) fun w => (dat10 (V25 m) c).arrAt w cfg10.N
theorem W26_arr (c : Dev nD) (w : Fin cfg10.W) :
    W26 m c (Proc.devRef .tc (Pipeline.arrRef spec10 w)) = (dat10 (V25 m) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m c (Proc.devRef .tc b) = W25 m c (Proc.devRef .tc b) := by
  unfold W26; exact Pipeline.withArrays_of_ne spec10 c _ _ b hb
abbrev V26 : (c : Dev nD) → (b : Ref sig .tc) → Buf (Elt F) ((c : Thread nD τ).loc b) := fun c b => W26 m c b
theorem hF10 (c : Dev nD) (w : Fin cfg10.W) : (dat10 (V25 m) c).arrAt w cfg10.N = V26 m c (Pipeline.arrRef spec10 w) :=
  (W26_arr m c w).symm
theorem hrest10 (c : Dev nD) : ∀ b, b ∉ Finset.univ.image (Pipeline.arrRef spec10) → V26 m c b = V25 m c b :=
  fun b hb => W26_of_ne m c b fun w e => hb (Finset.mem_image.mpr ⟨w, Finset.mem_univ _, e⟩)
abbrev W27 : Dev nD → Valuation τ sig (Elt F) := fun c => StableHlo.after hostOps11 (W26 m c)

/-- The contents region 11 is entered from, read at the TensorCore's references. -/
abbrev V27 : (c : Dev nD) → (b : Ref sig .tc) → Buf (Elt F) ((c : Thread nD τ).loc b) := fun c b => W27 m c b
/-- After region 11: its arrays at what the pipeline leaves, every other buffer as entered. -/
def W28 (c : Dev nD) : Valuation τ sig (Elt F) :=
  Pipeline.withArrays spec11 c (W27 m c) fun w => (dat11 (V27 m) c).arrAt w cfg11.N
theorem W28_arr (c : Dev nD) (w : Fin cfg11.W) :
    W28 m c (Proc.devRef .tc (Pipeline.arrRef spec11 w)) = (dat11 (V27 m) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m c (Proc.devRef .tc b) = W27 m c (Proc.devRef .tc b) := by
  unfold W28; exact Pipeline.withArrays_of_ne spec11 c _ _ b hb
abbrev V28 : (c : Dev nD) → (b : Ref sig .tc) → Buf (Elt F) ((c : Thread nD τ).loc b) := fun c b => W28 m c b
theorem hF11 (c : Dev nD) (w : Fin cfg11.W) : (dat11 (V27 m) c).arrAt w cfg11.N = V28 m c (Pipeline.arrRef spec11 w) :=
  (W28_arr m c w).symm
theorem hrest11 (c : Dev nD) : ∀ b, b ∉ Finset.univ.image (Pipeline.arrRef spec11) → V28 m c b = V27 m c b :=
  fun b hb => W28_of_ne m c b fun w e => hb (Finset.mem_image.mpr ⟨w, Finset.mem_univ _, e⟩)
abbrev W29 : Dev nD → Valuation τ sig (Elt F) := fun c => StableHlo.after hostOps12 (W28 m c)

/-- The contents region 12 is entered from, read at the TensorCore's references. -/
abbrev V29 : (c : Dev nD) → (b : Ref sig .tc) → Buf (Elt F) ((c : Thread nD τ).loc b) := fun c b => W29 m c b
/-- After region 12: its arrays at what the pipeline leaves, every other buffer as entered. -/
def W30 (c : Dev nD) : Valuation τ sig (Elt F) :=
  Pipeline.withArrays spec12 c (W29 m c) fun w => (dat12 (V29 m) c).arrAt w cfg12.N
theorem W30_arr (c : Dev nD) (w : Fin cfg12.W) :
    W30 m c (Proc.devRef .tc (Pipeline.arrRef spec12 w)) = (dat12 (V29 m) c).arrAt w cfg12.N := by
  unfold W30; exact Pipeline.withArrays_arr spec12 launch12.win.arr_inj c _ _ w
theorem W30_of_ne (c : Dev nD) (b : Ref sig .tc) (hb : ∀ w, Pipeline.arrRef spec12 w ≠ b) :
    W30 m c (Proc.devRef .tc b) = W29 m c (Proc.devRef .tc b) := by
  unfold W30; exact Pipeline.withArrays_of_ne spec12 c _ _ b hb
abbrev V30 : (c : Dev nD) → (b : Ref sig .tc) → Buf (Elt F) ((c : Thread nD τ).loc b) := fun c b => W30 m c b
theorem hF12 (c : Dev nD) (w : Fin cfg12.W) : (dat12 (V29 m) c).arrAt w cfg12.N = V30 m c (Pipeline.arrRef spec12 w) :=
  (W30_arr m c w).symm
theorem hrest12 (c : Dev nD) : ∀ b, b ∉ Finset.univ.image (Pipeline.arrRef spec12) → V30 m c b = V29 m c b :=
  fun b hb => W30_of_ne m c b fun w e => hb (Finset.mem_image.mpr ⟨w, Finset.mem_univ _, e⟩)
abbrev W31 : Dev nD → Valuation τ sig (Elt F) := fun c => StableHlo.after hostOps13 (W30 m c)

/-- The contents region 13 is entered from, read at the TensorCore's references. -/
abbrev V31 : (c : Dev nD) → (b : Ref sig .tc) → Buf (Elt F) ((c : Thread nD τ).loc b) := fun c b => W31 m c b
/-- After region 13: its arrays at what the pipeline leaves, every other buffer as entered. -/
def W32 (c : Dev nD) : Valuation τ sig (Elt F) :=
  Pipeline.withArrays spec13 c (W31 m c) fun w => (dat13 (V31 m) c).arrAt w cfg13.N
theorem W32_arr (c : Dev nD) (w : Fin cfg13.W) :
    W32 m c (Proc.devRef .tc (Pipeline.arrRef spec13 w)) = (dat13 (V31 m) c).arrAt w cfg13.N := by
  unfold W32; exact Pipeline.withArrays_arr spec13 launch13.win.arr_inj c _ _ w
theorem W32_of_ne (c : Dev nD) (b : Ref sig .tc) (hb : ∀ w, Pipeline.arrRef spec13 w ≠ b) :
    W32 m c (Proc.devRef .tc b) = W31 m c (Proc.devRef .tc b) := by
  unfold W32; exact Pipeline.withArrays_of_ne spec13 c _ _ b hb
abbrev V32 : (c : Dev nD) → (b : Ref sig .tc) → Buf (Elt F) ((c : Thread nD τ).loc b) := fun c b => W32 m c b
theorem hF13 (c : Dev nD) (w : Fin cfg13.W) : (dat13 (V31 m) c).arrAt w cfg13.N = V32 m c (Pipeline.arrRef spec13 w) :=
  (W32_arr m c w).symm
theorem hrest13 (c : Dev nD) : ∀ b, b ∉ Finset.univ.image (Pipeline.arrRef spec13) → V32 m c b = V31 m c b :=
  fun b hb => W32_of_ne m c b fun w e => hb (Finset.mem_image.mpr ⟨w, Finset.mem_univ _, e⟩)
abbrev W33 : Dev nD → Valuation τ sig (Elt F) := fun c => StableHlo.after hostOps14 (W32 m c)

/-- The contents region 14 is entered from, read at the TensorCore's references. -/
abbrev V33 : (c : Dev nD) → (b : Ref sig .tc) → Buf (Elt F) ((c : Thread nD τ).loc b) := fun c b => W33 m c b
/-- After region 14: its arrays at what the pipeline leaves, every other buffer as entered. -/
def W34 (c : Dev nD) : Valuation τ sig (Elt F) :=
  Pipeline.withArrays spec14 c (W33 m c) fun w => (dat14 (V33 m) c).arrAt w cfg14.N
theorem W34_arr (c : Dev nD) (w : Fin cfg14.W) :
    W34 m c (Proc.devRef .tc (Pipeline.arrRef spec14 w)) = (dat14 (V33 m) c).arrAt w cfg14.N := by
  unfold W34; exact Pipeline.withArrays_arr spec14 launch14.win.arr_inj c _ _ w
theorem W34_of_ne (c : Dev nD) (b : Ref sig .tc) (hb : ∀ w, Pipeline.arrRef spec14 w ≠ b) :
    W34 m c (Proc.devRef .tc b) = W33 m c (Proc.devRef .tc b) := by
  unfold W34; exact Pipeline.withArrays_of_ne spec14 c _ _ b hb
abbrev V34 : (c : Dev nD) → (b : Ref sig .tc) → Buf (Elt F) ((c : Thread nD τ).loc b) := fun c b => W34 m c b
theorem hF14 (c : Dev nD) (w : Fin cfg14.W) : (dat14 (V33 m) c).arrAt w cfg14.N = V34 m c (Pipeline.arrRef spec14 w) :=
  (W34_arr m c w).symm
theorem hrest14 (c : Dev nD) : ∀ b, b ∉ Finset.univ.image (Pipeline.arrRef spec14) → V34 m c b = V33 m c b :=
  fun b hb => W34_of_ne m c b fun w e => hb (Finset.mem_image.mpr ⟨w, Finset.mem_univ _, e⟩)

/-! # The proof data family and the thread state -/

abbrev adm : (p : Fin 15) → (pcfgs (F := F) p).Adm := fun p => (cfgs p).toPCfg_adm
/-- Every pipeline's proof data, each at its region's entry contents (a literal match, so that the pinned
    configuration at a numeral reduces to the printed one). -/
def pdats : (p : Fin 15) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
  | ⟨3, _⟩ => fun c => dat3 (V11 m) c
  | ⟨4, _⟩ => fun c => dat4 (V13 m) c
  | ⟨5, _⟩ => fun c => dat5 (V15 m) c
  | ⟨6, _⟩ => fun c => dat6 (V17 m) c
  | ⟨7, _⟩ => fun c => dat7 (V19 m) c
  | ⟨8, _⟩ => fun c => dat8 (V21 m) c
  | ⟨9, _⟩ => fun c => dat9 (V23 m) c
  | ⟨10, _⟩ => fun c => dat10 (V25 m) c
  | ⟨11, _⟩ => fun c => dat11 (V27 m) c
  | ⟨12, _⟩ => fun c => dat12 (V29 m) c
  | ⟨13, _⟩ => fun c => dat13 (V31 m) c
  | ⟨14, _⟩ => fun c => dat14 (V33 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W34 m c) ∗ ∃ r, prngReg c r)

end Cert.Kernel.Hand

end
-- ==== Proof.K.Reg0.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at boundary 5's contents, left with them at
    boundary 6's.  Its windows' arrays are split out of the unscoped buffers and put back at the exit contents; the
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at boundary 7's contents, left with them at
    boundary 8's.  Its windows' arrays are split out of the unscoped buffers and put back at the exit contents; the
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V7 m) c
  hout c := hout1 (V7 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at boundary 9's contents, left with them at
    boundary 10's.  Its windows' arrays are split out of the unscoped buffers and put back at the exit contents; the
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at boundary 11's contents, left with them at
    boundary 12's.  Its windows' arrays are split out of the unscoped buffers and put back at the exit contents; the
    register goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V11 m c) (V12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at boundary 13's contents, left with them at
    boundary 14's.  Its windows' arrays are split out of the unscoped buffers and put back at the exit contents; the
    register goes into the pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (V13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (V13 m) c
  hout c := hout4 (V13 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V13 m c) (V14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at boundary 15's contents, left with them at
    boundary 16's.  Its windows' arrays are split out of the unscoped buffers and put back at the exit contents; the
    register goes into the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (V15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V15 m c) (V16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 over the thread state: entered with every unscoped buffer at boundary 17's contents, left with them at
    boundary 18's.  Its windows' arrays are split out of the unscoped buffers and put back at the exit contents; the
    register goes into the pipeline's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V17 m) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (V17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V17 m c) (V18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 over the thread state: entered with every unscoped buffer at boundary 19's contents, left with them at
    boundary 20's.  Its windows' arrays are split out of the unscoped buffers and put back at the exit contents; the
    register goes into the pipeline's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (V19 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (V19 m) c
  hout c := hout7 (V19 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V19 m c) (V20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg8.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered with every unscoped buffer at boundary 21's contents, left with them at
    boundary 22's.  Its windows' arrays are split out of the unscoped buffers and put back at the exit contents; the
    register goes into the pipeline's invariant and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V21 m) c).loose
  hwaits := Pipeline.hwaits_of_owed_zero _ _ _ _ L lv 8 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec8 c (V21 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V21 m c) (V22 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9 over the thread state: entered with every unscoped buffer at boundary 23's contents, left with them at
    boundary 24's.  Its windows' arrays are split out of the unscoped buffers and put back at the exit contents; the
    register goes into the pipeline's invariant and comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V23 m) c).loose
  hwaits := Pipeline.hwaits_of_owed_zero _ _ _ _ L lv 9 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec9 c (V23 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V23 m c) (V24 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg10.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 10 over the thread state: entered with every unscoped buffer at boundary 25's contents, left with them at
    boundary 26's.  Its windows' arrays are split out of the unscoped buffers and put back at the exit contents; the
    register goes into the pipeline's invariant and comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V25 m) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (V25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (V25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (V25 m) c
  hout c := hout10 (V25 m) c
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (V25 m c) (V26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg11.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 11 over the thread state: entered with every unscoped buffer at boundary 27's contents, left with them at
    boundary 28's.  Its windows' arrays are split out of the unscoped buffers and put back at the exit contents; the
    register goes into the pipeline's invariant and comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V27 m) c).loose
  hwaits := Pipeline.hwaits_of_owed_zero _ _ _ _ L lv 11 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec11 c (V27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (V27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (V27 m c) (V28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg12.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 12 over the thread state: entered with every unscoped buffer at boundary 29's contents, left with them at
    boundary 30's.  Its windows' arrays are split out of the unscoped buffers and put back at the exit contents; the
    register goes into the pipeline's invariant and comes back; nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V29 m) c).loose
  hwaits := Pipeline.hwaits_of_owed_zero _ _ _ _ L lv 12 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec12 c (V29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (V29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (V29 m c) (V30 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg13.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 13 over the thread state: entered with every unscoped buffer at boundary 31's contents, left with them at
    boundary 32's.  Its windows' arrays are split out of the unscoped buffers and put back at the exit contents; the
    register goes into the pipeline's invariant and comes back; nothing is owed; the kernel has no semaphore of its own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V31 m) c).loose
  hwaits := Pipeline.hwaits_of_owed_zero _ _ _ _ L lv 13 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec13 c (V31 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (V31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin13 (V31 m) c
  hout c := hout13 (V31 m) c
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (V31 m c) (V32 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg14.lean ====
import proofs.«114689_j15281493639468_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 14 over the thread state: entered with every unscoped buffer at boundary 33's contents, left with them at
    boundary 34's.  Its windows' arrays are split out of the unscoped buffers and put back at the exit contents; the
    register goes into the pipeline's invariant and comes back; nothing is owed; the kernel has no semaphore of its own. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V33 m) c).loose
  hwaits := Pipeline.hwaits_of_owed_zero _ _ _ _ L lv 14 fun _ _ => rfl
  pre c := iprop(StableHlo.held (c : Thread nD τ) (Pipeline.ucRefs τ sig) (W33 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec14 c (V33 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (V33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (V33 m c) (V34 m c) ((pdats m 14 c).arrAt · cfg14.N) (hF14 m c) (hrest14 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«114689_j15281493639468_1_alg».proof.Proof.K.Reg0
import proofs.«114689_j15281493639468_1_alg».proof.Proof.K.Reg1
import proofs.«114689_j15281493639468_1_alg».proof.Proof.K.Reg2
import proofs.«114689_j15281493639468_1_alg».proof.Proof.K.Reg3
import proofs.«114689_j15281493639468_1_alg».proof.Proof.K.Reg4
import proofs.«114689_j15281493639468_1_alg».proof.Proof.K.Reg5
import proofs.«114689_j15281493639468_1_alg».proof.Proof.K.Reg6
import proofs.«114689_j15281493639468_1_alg».proof.Proof.K.Reg7
import proofs.«114689_j15281493639468_1_alg».proof.Proof.K.Reg8
import proofs.«114689_j15281493639468_1_alg».proof.Proof.K.Reg9
import proofs.«114689_j15281493639468_1_alg».proof.Proof.K.Reg10
import proofs.«114689_j15281493639468_1_alg».proof.Proof.K.Reg11
import proofs.«114689_j15281493639468_1_alg».proof.Proof.K.Reg12
import proofs.«114689_j15281493639468_1_alg».proof.Proof.K.Reg13
import proofs.«114689_j15281493639468_1_alg».proof.Proof.K.Reg14
import proofs.«114689_j15281493639468_1_alg».proof.Proof.K.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # @main as segments, and the launch -/

/-- @main's 34 items in order: a host segment per stretch from its boundary's contents, a region per kernel call. -/
abbrev segs : List (Pipeline.Seg (pcfgs (F := F)) adm (pdats m) () defs₀ 𝒱₀ L lv) :=
  [ .host (hseg hostOps0 hostOps0_sub Cert.Kernel.GenP.hostOps0_fresh (W0 m)),
    .host (hseg hostOps0_1 hostOps0_1_sub Cert.Kernel.GenP.hostOps0_1_fresh (W1 m)),
    .host (hseg hostOps0_2 hostOps0_2_sub Cert.Kernel.GenP.hostOps0_2_fresh (W2 m)),
    .host (hseg hostOps0_3 hostOps0_3_sub Cert.Kernel.GenP.hostOps0_3_fresh (W3 m)),
    .host (hseg hostOps0_4 hostOps0_4_sub Cert.Kernel.GenP.hostOps0_4_fresh (W4 m)),
    .region (reg0 m),
    .host (hseg hostOps1 hostOps1_sub Cert.Kernel.GenP.hostOps1_fresh (W6 m)),
    .region (reg1 m),
    .host (hseg hostOps2 hostOps2_sub Cert.Kernel.GenP.hostOps2_fresh (W8 m)),
    .region (reg2 m),
    .host (hseg hostOps3 hostOps3_sub Cert.Kernel.GenP.hostOps3_fresh (W10 m)),
    .region (reg3 m),
    .host (hseg hostOps4 hostOps4_sub Cert.Kernel.GenP.hostOps4_fresh (W12 m)),
    .region (reg4 m),
    .host (hseg hostOps5 hostOps5_sub Cert.Kernel.GenP.hostOps5_fresh (W14 m)),
    .region (reg5 m),
    .host (hseg hostOps6 hostOps6_sub Cert.Kernel.GenP.hostOps6_fresh (W16 m)),
    .region (reg6 m),
    .host (hseg hostOps7 hostOps7_sub Cert.Kernel.GenP.hostOps7_fresh (W18 m)),
    .region (reg7 m),
    .host (hseg hostOps8 hostOps8_sub Cert.Kernel.GenP.hostOps8_fresh (W20 m)),
    .region (reg8 m),
    .host (hseg hostOps9 hostOps9_sub Cert.Kernel.GenP.hostOps9_fresh (W22 m)),
    .region (reg9 m),
    .host (hseg hostOps10 hostOps10_sub Cert.Kernel.GenP.hostOps10_fresh (W24 m)),
    .region (reg10 m),
    .host (hseg hostOps11 hostOps11_sub Cert.Kernel.GenP.hostOps11_fresh (W26 m)),
    .region (reg11 m),
    .host (hseg hostOps12 hostOps12_sub Cert.Kernel.GenP.hostOps12_fresh (W28 m)),
    .region (reg12 m),
    .host (hseg hostOps13 hostOps13_sub Cert.Kernel.GenP.hostOps13_fresh (W30 m)),
    .region (reg13 m),
    .host (hseg hostOps14 hostOps14_sub Cert.Kernel.GenP.hostOps14_fresh (W32 m)),
    .region (reg14 m) ]

/-- @main is the run of the segments: the printed chain of its items, then the segments' run against that chain. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting, and
    in every final state each unscoped buffer of each core holds the last boundary's contents `W34`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W34 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m c b)
    (hfin := fun c s' => by
      iintro ⟨⟨Hh, -⟩, HSI⟩
      unfold StableHlo.held
      imodintro
      iapply (pointsTo_read_all (Pipeline.ucRefs τ sig) (fun b => (((c : Thread nD τ)).1, b)) (W34 m c) s')
      isplitl [Hh] <;> iassumption)
    (hQ := fun s h c => h c)

end Cert.Kernel.Hand

end
-- ==== Proof.K.Args.lean ====
import proofs.«114689_j15281493639468_1_alg».proof.Proof.K.Fold
import proofs.«114689_j15281493639468_1_alg».proof.Proof.K.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The arguments end as launched

  No stretch of host operations writes an argument's buffer, and a region either does not touch it or reads it through
  an input window (the first region reads two of them), so at every boundary an argument's buffer holds what the launch
  memory held. -/
theorem W34_main_arg0 (c : Dev nD) : W34 m c (Proc.devRef .tc main_arg0) = m ((c : Thread nD τ).loc main_arg0) :=
  (W34_of_ne m c main_arg0 (by decide)).trans <|
  (StableHlo.after_of_writes_sub hostOps14 _ Cert.Kernel.GenP.hostOps14_writes (by decide : main_arg0 ∉ Cert.Kernel.GenP.hostOps14_W)).trans <|
  (W32_of_ne m c main_arg0 (by decide)).trans <|
  (StableHlo.after_of_writes_sub hostOps13 _ Cert.Kernel.GenP.hostOps13_writes (by decide : main_arg0 ∉ Cert.Kernel.GenP.hostOps13_W)).trans <|
  (W30_of_ne m c main_arg0 (by decide)).trans <|
  (StableHlo.after_of_writes_sub hostOps12 _ Cert.Kernel.GenP.hostOps12_writes (by decide : main_arg0 ∉ Cert.Kernel.GenP.hostOps12_W)).trans <|
  (W28_of_ne m c main_arg0 (by decide)).trans <|
  (StableHlo.after_of_writes_sub hostOps11 _ Cert.Kernel.GenP.hostOps11_writes (by decide : main_arg0 ∉ Cert.Kernel.GenP.hostOps11_W)).trans <|
  (W26_of_ne m c main_arg0 (by decide)).trans <|
  (StableHlo.after_of_writes_sub hostOps10 _ Cert.Kernel.GenP.hostOps10_writes (by decide : main_arg0 ∉ Cert.Kernel.GenP.hostOps10_W)).trans <|
  (W24_of_ne m c main_arg0 (by decide)).trans <|
  (StableHlo.after_of_writes_sub hostOps9 _ Cert.Kernel.GenP.hostOps9_writes (by decide : main_arg0 ∉ Cert.Kernel.GenP.hostOps9_W)).trans <|
  (W22_of_ne m c main_arg0 (by decide)).trans <|
  (StableHlo.after_of_writes_sub hostOps8 _ Cert.Kernel.GenP.hostOps8_writes (by decide : main_arg0 ∉ Cert.Kernel.GenP.hostOps8_W)).trans <|
  (W20_of_ne m c main_arg0 (by decide)).trans <|
  (StableHlo.after_of_writes_sub hostOps7 _ Cert.Kernel.GenP.hostOps7_writes (by decide : main_arg0 ∉ Cert.Kernel.GenP.hostOps7_W)).trans <|
  (W18_of_ne m c main_arg0 (by decide)).trans <|
  (StableHlo.after_of_writes_sub hostOps6 _ Cert.Kernel.GenP.hostOps6_writes (by decide : main_arg0 ∉ Cert.Kernel.GenP.hostOps6_W)).trans <|
  (W16_of_ne m c main_arg0 (by decide)).trans <|
  (StableHlo.after_of_writes_sub hostOps5 _ Cert.Kernel.GenP.hostOps5_writes (by decide : main_arg0 ∉ Cert.Kernel.GenP.hostOps5_W)).trans <|
  (W14_of_ne m c main_arg0 (by decide)).trans <|
  (StableHlo.after_of_writes_sub hostOps4 _ Cert.Kernel.GenP.hostOps4_writes (by decide : main_arg0 ∉ Cert.Kernel.GenP.hostOps4_W)).trans <|
  (W12_of_ne m c main_arg0 (by decide)).trans <|
  (StableHlo.after_of_writes_sub hostOps3 _ Cert.Kernel.GenP.hostOps3_writes (by decide : main_arg0 ∉ Cert.Kernel.GenP.hostOps3_W)).trans <|
  (W10_of_ne m c main_arg0 (by decide)).trans <|
  (StableHlo.after_of_writes_sub hostOps2 _ Cert.Kernel.GenP.hostOps2_writes (by decide : main_arg0 ∉ Cert.Kernel.GenP.hostOps2_W)).trans <|
  (W8_of_ne m c main_arg0 (by decide)).trans <|
  (StableHlo.after_of_writes_sub hostOps1 _ Cert.Kernel.GenP.hostOps1_writes (by decide : main_arg0 ∉ Cert.Kernel.GenP.hostOps1_W)).trans <|
  ((W6_arr m c 0).trans (((dat0 (V5 m) c).arrAt_in 0 rfl _).trans (A_eq0 (V5 m) c 0))).trans <|
  (StableHlo.after_of_writes_sub hostOps0_4 _ Cert.Kernel.GenP.hostOps0_4_writes (by decide : main_arg0 ∉ Cert.Kernel.GenP.hostOps0_4_W)).trans <|
  (StableHlo.after_of_writes_sub hostOps0_3 _ Cert.Kernel.GenP.hostOps0_3_writes (by decide : main_arg0 ∉ Cert.Kernel.GenP.hostOps0_3_W)).trans <|
  (StableHlo.after_of_writes_sub hostOps0_2 _ Cert.Kernel.GenP.hostOps0_2_writes (by decide : main_arg0 ∉ Cert.Kernel.GenP.hostOps0_2_W)).trans <|
  (StableHlo.after_of_writes_sub hostOps0_1 _ Cert.Kernel.GenP.hostOps0_1_writes (by decide : main_arg0 ∉ Cert.Kernel.GenP.hostOps0_1_W)).trans <|
  (StableHlo.after_of_writes_sub hostOps0 _ Cert.Kernel.GenP.hostOps0_writes (by decide : main_arg0 ∉ Cert.Kernel.GenP.hostOps0_W)).trans rfl

theorem W34_main_arg1 (c : Dev nD) : W34 m c (Proc.devRef .tc main_arg1) = m ((c : Thread nD τ).loc main_arg1) :=
  (W34_of_ne m c main_arg1 (by decide)).trans <|
  (StableHlo.after_of_writes_sub hostOps14 _ Cert.Kernel.GenP.hostOps14_writes (by decide : main_arg1 ∉ Cert.Kernel.GenP.hostOps14_W)).trans <|
  (W32_of_ne m c main_arg1 (by decide)).trans <|
  (StableHlo.after_of_writes_sub hostOps13 _ Cert.Kernel.GenP.hostOps13_writes (by decide : main_arg1 ∉ Cert.Kernel.GenP.hostOps13_W)).trans <|
  (W30_of_ne m c main_arg1 (by decide)).trans <|
  (StableHlo.after_of_writes_sub hostOps12 _ Cert.Kernel.GenP.hostOps12_writes (by decide : main_arg1 ∉ Cert.Kernel.GenP.hostOps12_W)).trans <|
  (W28_of_ne m c main_arg1 (by decide)).trans <|
  (StableHlo.after_of_writes_sub hostOps11 _ Cert.Kernel.GenP.hostOps11_writes (by decide : main_arg1 ∉ Cert.Kernel.GenP.hostOps11_W)).trans <|
  (W26_of_ne m c main_arg1 (by decide)).trans <|
  (StableHlo.after_of_writes_sub hostOps10 _ Cert.Kernel.GenP.hostOps10_writes (by decide : main_arg1 ∉ Cert.Kernel.GenP.hostOps10_W)).trans <|
  (W24_of_ne m c main_arg1 (by decide)).trans <|
  (StableHlo.after_of_writes_sub hostOps9 _ Cert.Kernel.GenP.hostOps9_writes (by decide : main_arg1 ∉ Cert.Kernel.GenP.hostOps9_W)).trans <|
  (W22_of_ne m c main_arg1 (by decide)).trans <|
  (StableHlo.after_of_writes_sub hostOps8 _ Cert.Kernel.GenP.hostOps8_writes (by decide : main_arg1 ∉ Cert.Kernel.GenP.hostOps8_W)).trans <|
  (W20_of_ne m c main_arg1 (by decide)).trans <|
  (StableHlo.after_of_writes_sub hostOps7 _ Cert.Kernel.GenP.hostOps7_writes (by decide : main_arg1 ∉ Cert.Kernel.GenP.hostOps7_W)).trans <|
  (W18_of_ne m c main_arg1 (by decide)).trans <|
  (StableHlo.after_of_writes_sub hostOps6 _ Cert.Kernel.GenP.hostOps6_writes (by decide : main_arg1 ∉ Cert.Kernel.GenP.hostOps6_W)).trans <|
  (W16_of_ne m c main_arg1 (by decide)).trans <|
  (StableHlo.after_of_writes_sub hostOps5 _ Cert.Kernel.GenP.hostOps5_writes (by decide : main_arg1 ∉ Cert.Kernel.GenP.hostOps5_W)).trans <|
  (W14_of_ne m c main_arg1 (by decide)).trans <|
  (StableHlo.after_of_writes_sub hostOps4 _ Cert.Kernel.GenP.hostOps4_writes (by decide : main_arg1 ∉ Cert.Kernel.GenP.hostOps4_W)).trans <|
  (W12_of_ne m c main_arg1 (by decide)).trans <|
  (StableHlo.after_of_writes_sub hostOps3 _ Cert.Kernel.GenP.hostOps3_writes (by decide : main_arg1 ∉ Cert.Kernel.GenP.hostOps3_W)).trans <|
  (W10_of_ne m c main_arg1 (by decide)).trans <|
  (StableHlo.after_of_writes_sub hostOps2 _ Cert.Kernel.GenP.hostOps2_writes (by decide : main_arg1 ∉ Cert.Kernel.GenP.hostOps2_W)).trans <|
  (W8_of_ne m c main_arg1 (by decide)).trans <|
  (StableHlo.after_of_writes_sub hostOps1 _ Cert.Kernel.GenP.hostOps1_writes (by decide : main_arg1 ∉ Cert.Kernel.GenP.hostOps1_W)).trans <|
  (W6_of_ne m c main_arg1 (by decide)).trans <|
  (StableHlo.after_of_writes_sub hostOps0_4 _ Cert.Kernel.GenP.hostOps0_4_writes (by decide : main_arg1 ∉ Cert.Kernel.GenP.hostOps0_4_W)).trans <|
  (StableHlo.after_of_writes_sub hostOps0_3 _ Cert.Kernel.GenP.hostOps0_3_writes (by decide : main_arg1 ∉ Cert.Kernel.GenP.hostOps0_3_W)).trans <|
  (StableHlo.after_of_writes_sub hostOps0_2 _ Cert.Kernel.GenP.hostOps0_2_writes (by decide : main_arg1 ∉ Cert.Kernel.GenP.hostOps0_2_W)).trans <|
  (StableHlo.after_of_writes_sub hostOps0_1 _ Cert.Kernel.GenP.hostOps0_1_writes (by decide : main_arg1 ∉ Cert.Kernel.GenP.hostOps0_1_W)).trans <|
  (StableHlo.after_of_writes_sub hostOps0 _ Cert.Kernel.GenP.hostOps0_writes (by decide : main_arg1 ∉ Cert.Kernel.GenP.hostOps0_W)).trans rfl

theorem W34_main_arg2 (c : Dev nD) : W34 m c (Proc.devRef .tc main_arg2) = m ((c : Thread nD τ).loc main_arg2) :=
  (W34_of_ne m c main_arg2 (by decide)).trans <|
  (StableHlo.after_of_writes_sub hostOps14 _ Cert.Kernel.GenP.hostOps14_writes (by decide : main_arg2 ∉ Cert.Kernel.GenP.hostOps14_W)).trans <|
  (W32_of_ne m c main_arg2 (by decide)).trans <|
  (StableHlo.after_of_writes_sub hostOps13 _ Cert.Kernel.GenP.hostOps13_writes (by decide : main_arg2 ∉ Cert.Kernel.GenP.hostOps13_W)).trans <|
  (W30_of_ne m c main_arg2 (by decide)).trans <|
  (StableHlo.after_of_writes_sub hostOps12 _ Cert.Kernel.GenP.hostOps12_writes (by decide : main_arg2 ∉ Cert.Kernel.GenP.hostOps12_W)).trans <|
  (W28_of_ne m c main_arg2 (by decide)).trans <|
  (StableHlo.after_of_writes_sub hostOps11 _ Cert.Kernel.GenP.hostOps11_writes (by decide : main_arg2 ∉ Cert.Kernel.GenP.hostOps11_W)).trans <|
  (W26_of_ne m c main_arg2 (by decide)).trans <|
  (StableHlo.after_of_writes_sub hostOps10 _ Cert.Kernel.GenP.hostOps10_writes (by decide : main_arg2 ∉ Cert.Kernel.GenP.hostOps10_W)).trans <|
  (W24_of_ne m c main_arg2 (by decide)).trans <|
  (StableHlo.after_of_writes_sub hostOps9 _ Cert.Kernel.GenP.hostOps9_writes (by decide : main_arg2 ∉ Cert.Kernel.GenP.hostOps9_W)).trans <|
  (W22_of_ne m c main_arg2 (by decide)).trans <|
  (StableHlo.after_of_writes_sub hostOps8 _ Cert.Kernel.GenP.hostOps8_writes (by decide : main_arg2 ∉ Cert.Kernel.GenP.hostOps8_W)).trans <|
  (W20_of_ne m c main_arg2 (by decide)).trans <|
  (StableHlo.after_of_writes_sub hostOps7 _ Cert.Kernel.GenP.hostOps7_writes (by decide : main_arg2 ∉ Cert.Kernel.GenP.hostOps7_W)).trans <|
  (W18_of_ne m c main_arg2 (by decide)).trans <|
  (StableHlo.after_of_writes_sub hostOps6 _ Cert.Kernel.GenP.hostOps6_writes (by decide : main_arg2 ∉ Cert.Kernel.GenP.hostOps6_W)).trans <|
  (W16_of_ne m c main_arg2 (by decide)).trans <|
  (StableHlo.after_of_writes_sub hostOps5 _ Cert.Kernel.GenP.hostOps5_writes (by decide : main_arg2 ∉ Cert.Kernel.GenP.hostOps5_W)).trans <|
  (W14_of_ne m c main_arg2 (by decide)).trans <|
  (StableHlo.after_of_writes_sub hostOps4 _ Cert.Kernel.GenP.hostOps4_writes (by decide : main_arg2 ∉ Cert.Kernel.GenP.hostOps4_W)).trans <|
  (W12_of_ne m c main_arg2 (by decide)).trans <|
  (StableHlo.after_of_writes_sub hostOps3 _ Cert.Kernel.GenP.hostOps3_writes (by decide : main_arg2 ∉ Cert.Kernel.GenP.hostOps3_W)).trans <|
  (W10_of_ne m c main_arg2 (by decide)).trans <|
  (StableHlo.after_of_writes_sub hostOps2 _ Cert.Kernel.GenP.hostOps2_writes (by decide : main_arg2 ∉ Cert.Kernel.GenP.hostOps2_W)).trans <|
  (W8_of_ne m c main_arg2 (by decide)).trans <|
  (StableHlo.after_of_writes_sub hostOps1 _ Cert.Kernel.GenP.hostOps1_writes (by decide : main_arg2 ∉ Cert.Kernel.GenP.hostOps1_W)).trans <|
  ((W6_arr m c 1).trans (((dat0 (V5 m) c).arrAt_in 1 rfl _).trans (A_eq0 (V5 m) c 1))).trans <|
  (StableHlo.after_of_writes_sub hostOps0_4 _ Cert.Kernel.GenP.hostOps0_4_writes (by decide : main_arg2 ∉ Cert.Kernel.GenP.hostOps0_4_W)).trans <|
  (StableHlo.after_of_writes_sub hostOps0_3 _ Cert.Kernel.GenP.hostOps0_3_writes (by decide : main_arg2 ∉ Cert.Kernel.GenP.hostOps0_3_W)).trans <|
  (StableHlo.after_of_writes_sub hostOps0_2 _ Cert.Kernel.GenP.hostOps0_2_writes (by decide : main_arg2 ∉ Cert.Kernel.GenP.hostOps0_2_W)).trans <|
  (StableHlo.after_of_writes_sub hostOps0_1 _ Cert.Kernel.GenP.hostOps0_1_writes (by decide : main_arg2 ∉ Cert.Kernel.GenP.hostOps0_1_W)).trans <|
  (StableHlo.after_of_writes_sub hostOps0 _ Cert.Kernel.GenP.hostOps0_writes (by decide : main_arg2 ∉ Cert.Kernel.GenP.hostOps0_W)).trans rfl

theorem W34_main_arg3 (c : Dev nD) : W34 m c (Proc.devRef .tc main_arg3) = m ((c : Thread nD τ).loc main_arg3) :=
  (W34_of_ne m c main_arg3 (by decide)).trans <|
  (StableHlo.after_of_writes_sub hostOps14 _ Cert.Kernel.GenP.hostOps14_writes (by decide : main_arg3 ∉ Cert.Kernel.GenP.hostOps14_W)).trans <|
  (W32_of_ne m c main_arg3 (by decide)).trans <|
  (StableHlo.after_of_writes_sub hostOps13 _ Cert.Kernel.GenP.hostOps13_writes (by decide : main_arg3 ∉ Cert.Kernel.GenP.hostOps13_W)).trans <|
  (W30_of_ne m c main_arg3 (by decide)).trans <|
  (StableHlo.after_of_writes_sub hostOps12 _ Cert.Kernel.GenP.hostOps12_writes (by decide : main_arg3 ∉ Cert.Kernel.GenP.hostOps12_W)).trans <|
  (W28_of_ne m c main_arg3 (by decide)).trans <|
  (StableHlo.after_of_writes_sub hostOps11 _ Cert.Kernel.GenP.hostOps11_writes (by decide : main_arg3 ∉ Cert.Kernel.GenP.hostOps11_W)).trans <|
  (W26_of_ne m c main_arg3 (by decide)).trans <|
  (StableHlo.after_of_writes_sub hostOps10 _ Cert.Kernel.GenP.hostOps10_writes (by decide : main_arg3 ∉ Cert.Kernel.GenP.hostOps10_W)).trans <|
  (W24_of_ne m c main_arg3 (by decide)).trans <|
  (StableHlo.after_of_writes_sub hostOps9 _ Cert.Kernel.GenP.hostOps9_writes (by decide : main_arg3 ∉ Cert.Kernel.GenP.hostOps9_W)).trans <|
  (W22_of_ne m c main_arg3 (by decide)).trans <|
  (StableHlo.after_of_writes_sub hostOps8 _ Cert.Kernel.GenP.hostOps8_writes (by decide : main_arg3 ∉ Cert.Kernel.GenP.hostOps8_W)).trans <|
  (W20_of_ne m c main_arg3 (by decide)).trans <|
  (StableHlo.after_of_writes_sub hostOps7 _ Cert.Kernel.GenP.hostOps7_writes (by decide : main_arg3 ∉ Cert.Kernel.GenP.hostOps7_W)).trans <|
  (W18_of_ne m c main_arg3 (by decide)).trans <|
  (StableHlo.after_of_writes_sub hostOps6 _ Cert.Kernel.GenP.hostOps6_writes (by decide : main_arg3 ∉ Cert.Kernel.GenP.hostOps6_W)).trans <|
  (W16_of_ne m c main_arg3 (by decide)).trans <|
  (StableHlo.after_of_writes_sub hostOps5 _ Cert.Kernel.GenP.hostOps5_writes (by decide : main_arg3 ∉ Cert.Kernel.GenP.hostOps5_W)).trans <|
  (W14_of_ne m c main_arg3 (by decide)).trans <|
  (StableHlo.after_of_writes_sub hostOps4 _ Cert.Kernel.GenP.hostOps4_writes (by decide : main_arg3 ∉ Cert.Kernel.GenP.hostOps4_W)).trans <|
  (W12_of_ne m c main_arg3 (by decide)).trans <|
  (StableHlo.after_of_writes_sub hostOps3 _ Cert.Kernel.GenP.hostOps3_writes (by decide : main_arg3 ∉ Cert.Kernel.GenP.hostOps3_W)).trans <|
  (W10_of_ne m c main_arg3 (by decide)).trans <|
  (StableHlo.after_of_writes_sub hostOps2 _ Cert.Kernel.GenP.hostOps2_writes (by decide : main_arg3 ∉ Cert.Kernel.GenP.hostOps2_W)).trans <|
  (W8_of_ne m c main_arg3 (by decide)).trans <|
  (StableHlo.after_of_writes_sub hostOps1 _ Cert.Kernel.GenP.hostOps1_writes (by decide : main_arg3 ∉ Cert.Kernel.GenP.hostOps1_W)).trans <|
  (W6_of_ne m c main_arg3 (by decide)).trans <|
  (StableHlo.after_of_writes_sub hostOps0_4 _ Cert.Kernel.GenP.hostOps0_4_writes (by decide : main_arg3 ∉ Cert.Kernel.GenP.hostOps0_4_W)).trans <|
  (StableHlo.after_of_writes_sub hostOps0_3 _ Cert.Kernel.GenP.hostOps0_3_writes (by decide : main_arg3 ∉ Cert.Kernel.GenP.hostOps0_3_W)).trans <|
  (StableHlo.after_of_writes_sub hostOps0_2 _ Cert.Kernel.GenP.hostOps0_2_writes (by decide : main_arg3 ∉ Cert.Kernel.GenP.hostOps0_2_W)).trans <|
  (StableHlo.after_of_writes_sub hostOps0_1 _ Cert.Kernel.GenP.hostOps0_1_writes (by decide : main_arg3 ∉ Cert.Kernel.GenP.hostOps0_1_W)).trans <|
  (StableHlo.after_of_writes_sub hostOps0 _ Cert.Kernel.GenP.hostOps0_writes (by decide : main_arg3 ∉ Cert.Kernel.GenP.hostOps0_W)).trans rfl

theorem W34_main_arg4 (c : Dev nD) : W34 m c (Proc.devRef .tc main_arg4) = m ((c : Thread nD τ).loc main_arg4) :=
  (W34_of_ne m c main_arg4 (by decide)).trans <|
  (StableHlo.after_of_writes_sub hostOps14 _ Cert.Kernel.GenP.hostOps14_writes (by decide : main_arg4 ∉ Cert.Kernel.GenP.hostOps14_W)).trans <|
  (W32_of_ne m c main_arg4 (by decide)).trans <|
  (StableHlo.after_of_writes_sub hostOps13 _ Cert.Kernel.GenP.hostOps13_writes (by decide : main_arg4 ∉ Cert.Kernel.GenP.hostOps13_W)).trans <|
  (W30_of_ne m c main_arg4 (by decide)).trans <|
  (StableHlo.after_of_writes_sub hostOps12 _ Cert.Kernel.GenP.hostOps12_writes (by decide : main_arg4 ∉ Cert.Kernel.GenP.hostOps12_W)).trans <|
  (W28_of_ne m c main_arg4 (by decide)).trans <|
  (StableHlo.after_of_writes_sub hostOps11 _ Cert.Kernel.GenP.hostOps11_writes (by decide : main_arg4 ∉ Cert.Kernel.GenP.hostOps11_W)).trans <|
  (W26_of_ne m c main_arg4 (by decide)).trans <|
  (StableHlo.after_of_writes_sub hostOps10 _ Cert.Kernel.GenP.hostOps10_writes (by decide : main_arg4 ∉ Cert.Kernel.GenP.hostOps10_W)).trans <|
  (W24_of_ne m c main_arg4 (by decide)).trans <|
  (StableHlo.after_of_writes_sub hostOps9 _ Cert.Kernel.GenP.hostOps9_writes (by decide : main_arg4 ∉ Cert.Kernel.GenP.hostOps9_W)).trans <|
  (W22_of_ne m c main_arg4 (by decide)).trans <|
  (StableHlo.after_of_writes_sub hostOps8 _ Cert.Kernel.GenP.hostOps8_writes (by decide : main_arg4 ∉ Cert.Kernel.GenP.hostOps8_W)).trans <|
  (W20_of_ne m c main_arg4 (by decide)).trans <|
  (StableHlo.after_of_writes_sub hostOps7 _ Cert.Kernel.GenP.hostOps7_writes (by decide : main_arg4 ∉ Cert.Kernel.GenP.hostOps7_W)).trans <|
  (W18_of_ne m c main_arg4 (by decide)).trans <|
  (StableHlo.after_of_writes_sub hostOps6 _ Cert.Kernel.GenP.hostOps6_writes (by decide : main_arg4 ∉ Cert.Kernel.GenP.hostOps6_W)).trans <|
  (W16_of_ne m c main_arg4 (by decide)).trans <|
  (StableHlo.after_of_writes_sub hostOps5 _ Cert.Kernel.GenP.hostOps5_writes (by decide : main_arg4 ∉ Cert.Kernel.GenP.hostOps5_W)).trans <|
  (W14_of_ne m c main_arg4 (by decide)).trans <|
  (StableHlo.after_of_writes_sub hostOps4 _ Cert.Kernel.GenP.hostOps4_writes (by decide : main_arg4 ∉ Cert.Kernel.GenP.hostOps4_W)).trans <|
  (W12_of_ne m c main_arg4 (by decide)).trans <|
  (StableHlo.after_of_writes_sub hostOps3 _ Cert.Kernel.GenP.hostOps3_writes (by decide : main_arg4 ∉ Cert.Kernel.GenP.hostOps3_W)).trans <|
  (W10_of_ne m c main_arg4 (by decide)).trans <|
  (StableHlo.after_of_writes_sub hostOps2 _ Cert.Kernel.GenP.hostOps2_writes (by decide : main_arg4 ∉ Cert.Kernel.GenP.hostOps2_W)).trans <|
  (W8_of_ne m c main_arg4 (by decide)).trans <|
  (StableHlo.after_of_writes_sub hostOps1 _ Cert.Kernel.GenP.hostOps1_writes (by decide : main_arg4 ∉ Cert.Kernel.GenP.hostOps1_W)).trans <|
  (W6_of_ne m c main_arg4 (by decide)).trans <|
  (StableHlo.after_of_writes_sub hostOps0_4 _ Cert.Kernel.GenP.hostOps0_4_writes (by decide : main_arg4 ∉ Cert.Kernel.GenP.hostOps0_4_W)).trans <|
  (StableHlo.after_of_writes_sub hostOps0_3 _ Cert.Kernel.GenP.hostOps0_3_writes (by decide : main_arg4 ∉ Cert.Kernel.GenP.hostOps0_3_W)).trans <|
  (StableHlo.after_of_writes_sub hostOps0_2 _ Cert.Kernel.GenP.hostOps0_2_writes (by decide : main_arg4 ∉ Cert.Kernel.GenP.hostOps0_2_W)).trans <|
  (StableHlo.after_of_writes_sub hostOps0_1 _ Cert.Kernel.GenP.hostOps0_1_writes (by decide : main_arg4 ∉ Cert.Kernel.GenP.hostOps0_1_W)).trans <|
  (StableHlo.after_of_writes_sub hostOps0 _ Cert.Kernel.GenP.hostOps0_writes (by decide : main_arg4 ∉ Cert.Kernel.GenP.hostOps0_W)).trans rfl

theorem W34_main_arg5 (c : Dev nD) : W34 m c (Proc.devRef .tc main_arg5) = m ((c : Thread nD τ).loc main_arg5) :=
  (W34_of_ne m c main_arg5 (by decide)).trans <|
  (StableHlo.after_of_writes_sub hostOps14 _ Cert.Kernel.GenP.hostOps14_writes (by decide : main_arg5 ∉ Cert.Kernel.GenP.hostOps14_W)).trans <|
  (W32_of_ne m c main_arg5 (by decide)).trans <|
  (StableHlo.after_of_writes_sub hostOps13 _ Cert.Kernel.GenP.hostOps13_writes (by decide : main_arg5 ∉ Cert.Kernel.GenP.hostOps13_W)).trans <|
  (W30_of_ne m c main_arg5 (by decide)).trans <|
  (StableHlo.after_of_writes_sub hostOps12 _ Cert.Kernel.GenP.hostOps12_writes (by decide : main_arg5 ∉ Cert.Kernel.GenP.hostOps12_W)).trans <|
  (W28_of_ne m c main_arg5 (by decide)).trans <|
  (StableHlo.after_of_writes_sub hostOps11 _ Cert.Kernel.GenP.hostOps11_writes (by decide : main_arg5 ∉ Cert.Kernel.GenP.hostOps11_W)).trans <|
  (W26_of_ne m c main_arg5 (by decide)).trans <|
  (StableHlo.after_of_writes_sub hostOps10 _ Cert.Kernel.GenP.hostOps10_writes (by decide : main_arg5 ∉ Cert.Kernel.GenP.hostOps10_W)).trans <|
  (W24_of_ne m c main_arg5 (by decide)).trans <|
  (StableHlo.after_of_writes_sub hostOps9 _ Cert.Kernel.GenP.hostOps9_writes (by decide : main_arg5 ∉ Cert.Kernel.GenP.hostOps9_W)).trans <|
  (W22_of_ne m c main_arg5 (by decide)).trans <|
  (StableHlo.after_of_writes_sub hostOps8 _ Cert.Kernel.GenP.hostOps8_writes (by decide : main_arg5 ∉ Cert.Kernel.GenP.hostOps8_W)).trans <|
  (W20_of_ne m c main_arg5 (by decide)).trans <|
  (StableHlo.after_of_writes_sub hostOps7 _ Cert.Kernel.GenP.hostOps7_writes (by decide : main_arg5 ∉ Cert.Kernel.GenP.hostOps7_W)).trans <|
  (W18_of_ne m c main_arg5 (by decide)).trans <|
  (StableHlo.after_of_writes_sub hostOps6 _ Cert.Kernel.GenP.hostOps6_writes (by decide : main_arg5 ∉ Cert.Kernel.GenP.hostOps6_W)).trans <|
  (W16_of_ne m c main_arg5 (by decide)).trans <|
  (StableHlo.after_of_writes_sub hostOps5 _ Cert.Kernel.GenP.hostOps5_writes (by decide : main_arg5 ∉ Cert.Kernel.GenP.hostOps5_W)).trans <|
  (W14_of_ne m c main_arg5 (by decide)).trans <|
  (StableHlo.after_of_writes_sub hostOps4 _ Cert.Kernel.GenP.hostOps4_writes (by decide : main_arg5 ∉ Cert.Kernel.GenP.hostOps4_W)).trans <|
  (W12_of_ne m c main_arg5 (by decide)).trans <|
  (StableHlo.after_of_writes_sub hostOps3 _ Cert.Kernel.GenP.hostOps3_writes (by decide : main_arg5 ∉ Cert.Kernel.GenP.hostOps3_W)).trans <|
  (W10_of_ne m c main_arg5 (by decide)).trans <|
  (StableHlo.after_of_writes_sub hostOps2 _ Cert.Kernel.GenP.hostOps2_writes (by decide : main_arg5 ∉ Cert.Kernel.GenP.hostOps2_W)).trans <|
  (W8_of_ne m c main_arg5 (by decide)).trans <|
  (StableHlo.after_of_writes_sub hostOps1 _ Cert.Kernel.GenP.hostOps1_writes (by decide : main_arg5 ∉ Cert.Kernel.GenP.hostOps1_W)).trans <|
  (W6_of_ne m c main_arg5 (by decide)).trans <|
  (StableHlo.after_of_writes_sub hostOps0_4 _ Cert.Kernel.GenP.hostOps0_4_writes (by decide : main_arg5 ∉ Cert.Kernel.GenP.hostOps0_4_W)).trans <|
  (StableHlo.after_of_writes_sub hostOps0_3 _ Cert.Kernel.GenP.hostOps0_3_writes (by decide : main_arg5 ∉ Cert.Kernel.GenP.hostOps0_3_W)).trans <|
  (StableHlo.after_of_writes_sub hostOps0_2 _ Cert.Kernel.GenP.hostOps0_2_writes (by decide : main_arg5 ∉ Cert.Kernel.GenP.hostOps0_2_W)).trans <|
  (StableHlo.after_of_writes_sub hostOps0_1 _ Cert.Kernel.GenP.hostOps0_1_writes (by decide : main_arg5 ∉ Cert.Kernel.GenP.hostOps0_1_W)).trans <|
  (StableHlo.after_of_writes_sub hostOps0 _ Cert.Kernel.GenP.hostOps0_writes (by decide : main_arg5 ∉ Cert.Kernel.GenP.hostOps0_W)).trans rfl

theorem W34_main_arg6 (c : Dev nD) : W34 m c (Proc.devRef .tc main_arg6) = m ((c : Thread nD τ).loc main_arg6) :=
  (W34_of_ne m c main_arg6 (by decide)).trans <|
  (StableHlo.after_of_writes_sub hostOps14 _ Cert.Kernel.GenP.hostOps14_writes (by decide : main_arg6 ∉ Cert.Kernel.GenP.hostOps14_W)).trans <|
  (W32_of_ne m c main_arg6 (by decide)).trans <|
  (StableHlo.after_of_writes_sub hostOps13 _ Cert.Kernel.GenP.hostOps13_writes (by decide : main_arg6 ∉ Cert.Kernel.GenP.hostOps13_W)).trans <|
  (W30_of_ne m c main_arg6 (by decide)).trans <|
  (StableHlo.after_of_writes_sub hostOps12 _ Cert.Kernel.GenP.hostOps12_writes (by decide : main_arg6 ∉ Cert.Kernel.GenP.hostOps12_W)).trans <|
  (W28_of_ne m c main_arg6 (by decide)).trans <|
  (StableHlo.after_of_writes_sub hostOps11 _ Cert.Kernel.GenP.hostOps11_writes (by decide : main_arg6 ∉ Cert.Kernel.GenP.hostOps11_W)).trans <|
  (W26_of_ne m c main_arg6 (by decide)).trans <|
  (StableHlo.after_of_writes_sub hostOps10 _ Cert.Kernel.GenP.hostOps10_writes (by decide : main_arg6 ∉ Cert.Kernel.GenP.hostOps10_W)).trans <|
  (W24_of_ne m c main_arg6 (by decide)).trans <|
  (StableHlo.after_of_writes_sub hostOps9 _ Cert.Kernel.GenP.hostOps9_writes (by decide : main_arg6 ∉ Cert.Kernel.GenP.hostOps9_W)).trans <|
  (W22_of_ne m c main_arg6 (by decide)).trans <|
  (StableHlo.after_of_writes_sub hostOps8 _ Cert.Kernel.GenP.hostOps8_writes (by decide : main_arg6 ∉ Cert.Kernel.GenP.hostOps8_W)).trans <|
  (W20_of_ne m c main_arg6 (by decide)).trans <|
  (StableHlo.after_of_writes_sub hostOps7 _ Cert.Kernel.GenP.hostOps7_writes (by decide : main_arg6 ∉ Cert.Kernel.GenP.hostOps7_W)).trans <|
  (W18_of_ne m c main_arg6 (by decide)).trans <|
  (StableHlo.after_of_writes_sub hostOps6 _ Cert.Kernel.GenP.hostOps6_writes (by decide : main_arg6 ∉ Cert.Kernel.GenP.hostOps6_W)).trans <|
  (W16_of_ne m c main_arg6 (by decide)).trans <|
  (StableHlo.after_of_writes_sub hostOps5 _ Cert.Kernel.GenP.hostOps5_writes (by decide : main_arg6 ∉ Cert.Kernel.GenP.hostOps5_W)).trans <|
  (W14_of_ne m c main_arg6 (by decide)).trans <|
  (StableHlo.after_of_writes_sub hostOps4 _ Cert.Kernel.GenP.hostOps4_writes (by decide : main_arg6 ∉ Cert.Kernel.GenP.hostOps4_W)).trans <|
  (W12_of_ne m c main_arg6 (by decide)).trans <|
  (StableHlo.after_of_writes_sub hostOps3 _ Cert.Kernel.GenP.hostOps3_writes (by decide : main_arg6 ∉ Cert.Kernel.GenP.hostOps3_W)).trans <|
  (W10_of_ne m c main_arg6 (by decide)).trans <|
  (StableHlo.after_of_writes_sub hostOps2 _ Cert.Kernel.GenP.hostOps2_writes (by decide : main_arg6 ∉ Cert.Kernel.GenP.hostOps2_W)).trans <|
  (W8_of_ne m c main_arg6 (by decide)).trans <|
  (StableHlo.after_of_writes_sub hostOps1 _ Cert.Kernel.GenP.hostOps1_writes (by decide : main_arg6 ∉ Cert.Kernel.GenP.hostOps1_W)).trans <|
  (W6_of_ne m c main_arg6 (by decide)).trans <|
  (StableHlo.after_of_writes_sub hostOps0_4 _ Cert.Kernel.GenP.hostOps0_4_writes (by decide : main_arg6 ∉ Cert.Kernel.GenP.hostOps0_4_W)).trans <|
  (StableHlo.after_of_writes_sub hostOps0_3 _ Cert.Kernel.GenP.hostOps0_3_writes (by decide : main_arg6 ∉ Cert.Kernel.GenP.hostOps0_3_W)).trans <|
  (StableHlo.after_of_writes_sub hostOps0_2 _ Cert.Kernel.GenP.hostOps0_2_writes (by decide : main_arg6 ∉ Cert.Kernel.GenP.hostOps0_2_W)).trans <|
  (StableHlo.after_of_writes_sub hostOps0_1 _ Cert.Kernel.GenP.hostOps0_1_writes (by decide : main_arg6 ∉ Cert.Kernel.GenP.hostOps0_1_W)).trans <|
  (StableHlo.after_of_writes_sub hostOps0 _ Cert.Kernel.GenP.hostOps0_writes (by decide : main_arg6 ∉ Cert.Kernel.GenP.hostOps0_W)).trans rfl

theorem W34_main_arg7 (c : Dev nD) : W34 m c (Proc.devRef .tc main_arg7) = m ((c : Thread nD τ).loc main_arg7) :=
  (W34_of_ne m c main_arg7 (by decide)).trans <|
  (StableHlo.after_of_writes_sub hostOps14 _ Cert.Kernel.GenP.hostOps14_writes (by decide : main_arg7 ∉ Cert.Kernel.GenP.hostOps14_W)).trans <|
  (W32_of_ne m c main_arg7 (by decide)).trans <|
  (StableHlo.after_of_writes_sub hostOps13 _ Cert.Kernel.GenP.hostOps13_writes (by decide : main_arg7 ∉ Cert.Kernel.GenP.hostOps13_W)).trans <|
  (W30_of_ne m c main_arg7 (by decide)).trans <|
  (StableHlo.after_of_writes_sub hostOps12 _ Cert.Kernel.GenP.hostOps12_writes (by decide : main_arg7 ∉ Cert.Kernel.GenP.hostOps12_W)).trans <|
  (W28_of_ne m c main_arg7 (by decide)).trans <|
  (StableHlo.after_of_writes_sub hostOps11 _ Cert.Kernel.GenP.hostOps11_writes (by decide : main_arg7 ∉ Cert.Kernel.GenP.hostOps11_W)).trans <|
  (W26_of_ne m c main_arg7 (by decide)).trans <|
  (StableHlo.after_of_writes_sub hostOps10 _ Cert.Kernel.GenP.hostOps10_writes (by decide : main_arg7 ∉ Cert.Kernel.GenP.hostOps10_W)).trans <|
  (W24_of_ne m c main_arg7 (by decide)).trans <|
  (StableHlo.after_of_writes_sub hostOps9 _ Cert.Kernel.GenP.hostOps9_writes (by decide : main_arg7 ∉ Cert.Kernel.GenP.hostOps9_W)).trans <|
  (W22_of_ne m c main_arg7 (by decide)).trans <|
  (StableHlo.after_of_writes_sub hostOps8 _ Cert.Kernel.GenP.hostOps8_writes (by decide : main_arg7 ∉ Cert.Kernel.GenP.hostOps8_W)).trans <|
  (W20_of_ne m c main_arg7 (by decide)).trans <|
  (StableHlo.after_of_writes_sub hostOps7 _ Cert.Kernel.GenP.hostOps7_writes (by decide : main_arg7 ∉ Cert.Kernel.GenP.hostOps7_W)).trans <|
  (W18_of_ne m c main_arg7 (by decide)).trans <|
  (StableHlo.after_of_writes_sub hostOps6 _ Cert.Kernel.GenP.hostOps6_writes (by decide : main_arg7 ∉ Cert.Kernel.GenP.hostOps6_W)).trans <|
  (W16_of_ne m c main_arg7 (by decide)).trans <|
  (StableHlo.after_of_writes_sub hostOps5 _ Cert.Kernel.GenP.hostOps5_writes (by decide : main_arg7 ∉ Cert.Kernel.GenP.hostOps5_W)).trans <|
  (W14_of_ne m c main_arg7 (by decide)).trans <|
  (StableHlo.after_of_writes_sub hostOps4 _ Cert.Kernel.GenP.hostOps4_writes (by decide : main_arg7 ∉ Cert.Kernel.GenP.hostOps4_W)).trans <|
  (W12_of_ne m c main_arg7 (by decide)).trans <|
  (StableHlo.after_of_writes_sub hostOps3 _ Cert.Kernel.GenP.hostOps3_writes (by decide : main_arg7 ∉ Cert.Kernel.GenP.hostOps3_W)).trans <|
  (W10_of_ne m c main_arg7 (by decide)).trans <|
  (StableHlo.after_of_writes_sub hostOps2 _ Cert.Kernel.GenP.hostOps2_writes (by decide : main_arg7 ∉ Cert.Kernel.GenP.hostOps2_W)).trans <|
  (W8_of_ne m c main_arg7 (by decide)).trans <|
  (StableHlo.after_of_writes_sub hostOps1 _ Cert.Kernel.GenP.hostOps1_writes (by decide : main_arg7 ∉ Cert.Kernel.GenP.hostOps1_W)).trans <|
  (W6_of_ne m c main_arg7 (by decide)).trans <|
  (StableHlo.after_of_writes_sub hostOps0_4 _ Cert.Kernel.GenP.hostOps0_4_writes (by decide : main_arg7 ∉ Cert.Kernel.GenP.hostOps0_4_W)).trans <|
  (StableHlo.after_of_writes_sub hostOps0_3 _ Cert.Kernel.GenP.hostOps0_3_writes (by decide : main_arg7 ∉ Cert.Kernel.GenP.hostOps0_3_W)).trans <|
  (StableHlo.after_of_writes_sub hostOps0_2 _ Cert.Kernel.GenP.hostOps0_2_writes (by decide : main_arg7 ∉ Cert.Kernel.GenP.hostOps0_2_W)).trans <|
  (StableHlo.after_of_writes_sub hostOps0_1 _ Cert.Kernel.GenP.hostOps0_1_writes (by decide : main_arg7 ∉ Cert.Kernel.GenP.hostOps0_1_W)).trans <|
  (StableHlo.after_of_writes_sub hostOps0 _ Cert.Kernel.GenP.hostOps0_writes (by decide : main_arg7 ∉ Cert.Kernel.GenP.hostOps0_W)).trans rfl

theorem W34_main_arg8 (c : Dev nD) : W34 m c (Proc.devRef .tc main_arg8) = m ((c : Thread nD τ).loc main_arg8) :=
  (W34_of_ne m c main_arg8 (by decide)).trans <|
  (StableHlo.after_of_writes_sub hostOps14 _ Cert.Kernel.GenP.hostOps14_writes (by decide : main_arg8 ∉ Cert.Kernel.GenP.hostOps14_W)).trans <|
  (W32_of_ne m c main_arg8 (by decide)).trans <|
  (StableHlo.after_of_writes_sub hostOps13 _ Cert.Kernel.GenP.hostOps13_writes (by decide : main_arg8 ∉ Cert.Kernel.GenP.hostOps13_W)).trans <|
  (W30_of_ne m c main_arg8 (by decide)).trans <|
  (StableHlo.after_of_writes_sub hostOps12 _ Cert.Kernel.GenP.hostOps12_writes (by decide : main_arg8 ∉ Cert.Kernel.GenP.hostOps12_W)).trans <|
  (W28_of_ne m c main_arg8 (by decide)).trans <|
  (StableHlo.after_of_writes_sub hostOps11 _ Cert.Kernel.GenP.hostOps11_writes (by decide : main_arg8 ∉ Cert.Kernel.GenP.hostOps11_W)).trans <|
  (W26_of_ne m c main_arg8 (by decide)).trans <|
  (StableHlo.after_of_writes_sub hostOps10 _ Cert.Kernel.GenP.hostOps10_writes (by decide : main_arg8 ∉ Cert.Kernel.GenP.hostOps10_W)).trans <|
  (W24_of_ne m c main_arg8 (by decide)).trans <|
  (StableHlo.after_of_writes_sub hostOps9 _ Cert.Kernel.GenP.hostOps9_writes (by decide : main_arg8 ∉ Cert.Kernel.GenP.hostOps9_W)).trans <|
  (W22_of_ne m c main_arg8 (by decide)).trans <|
  (StableHlo.after_of_writes_sub hostOps8 _ Cert.Kernel.GenP.hostOps8_writes (by decide : main_arg8 ∉ Cert.Kernel.GenP.hostOps8_W)).trans <|
  (W20_of_ne m c main_arg8 (by decide)).trans <|
  (StableHlo.after_of_writes_sub hostOps7 _ Cert.Kernel.GenP.hostOps7_writes (by decide : main_arg8 ∉ Cert.Kernel.GenP.hostOps7_W)).trans <|
  (W18_of_ne m c main_arg8 (by decide)).trans <|
  (StableHlo.after_of_writes_sub hostOps6 _ Cert.Kernel.GenP.hostOps6_writes (by decide : main_arg8 ∉ Cert.Kernel.GenP.hostOps6_W)).trans <|
  (W16_of_ne m c main_arg8 (by decide)).trans <|
  (StableHlo.after_of_writes_sub hostOps5 _ Cert.Kernel.GenP.hostOps5_writes (by decide : main_arg8 ∉ Cert.Kernel.GenP.hostOps5_W)).trans <|
  (W14_of_ne m c main_arg8 (by decide)).trans <|
  (StableHlo.after_of_writes_sub hostOps4 _ Cert.Kernel.GenP.hostOps4_writes (by decide : main_arg8 ∉ Cert.Kernel.GenP.hostOps4_W)).trans <|
  (W12_of_ne m c main_arg8 (by decide)).trans <|
  (StableHlo.after_of_writes_sub hostOps3 _ Cert.Kernel.GenP.hostOps3_writes (by decide : main_arg8 ∉ Cert.Kernel.GenP.hostOps3_W)).trans <|
  (W10_of_ne m c main_arg8 (by decide)).trans <|
  (StableHlo.after_of_writes_sub hostOps2 _ Cert.Kernel.GenP.hostOps2_writes (by decide : main_arg8 ∉ Cert.Kernel.GenP.hostOps2_W)).trans <|
  (W8_of_ne m c main_arg8 (by decide)).trans <|
  (StableHlo.after_of_writes_sub hostOps1 _ Cert.Kernel.GenP.hostOps1_writes (by decide : main_arg8 ∉ Cert.Kernel.GenP.hostOps1_W)).trans <|
  (W6_of_ne m c main_arg8 (by decide)).trans <|
  (StableHlo.after_of_writes_sub hostOps0_4 _ Cert.Kernel.GenP.hostOps0_4_writes (by decide : main_arg8 ∉ Cert.Kernel.GenP.hostOps0_4_W)).trans <|
  (StableHlo.after_of_writes_sub hostOps0_3 _ Cert.Kernel.GenP.hostOps0_3_writes (by decide : main_arg8 ∉ Cert.Kernel.GenP.hostOps0_3_W)).trans <|
  (StableHlo.after_of_writes_sub hostOps0_2 _ Cert.Kernel.GenP.hostOps0_2_writes (by decide : main_arg8 ∉ Cert.Kernel.GenP.hostOps0_2_W)).trans <|
  (StableHlo.after_of_writes_sub hostOps0_1 _ Cert.Kernel.GenP.hostOps0_1_writes (by decide : main_arg8 ∉ Cert.Kernel.GenP.hostOps0_1_W)).trans <|
  (StableHlo.after_of_writes_sub hostOps0 _ Cert.Kernel.GenP.hostOps0_writes (by decide : main_arg8 ∉ Cert.Kernel.GenP.hostOps0_W)).trans rfl

theorem W34_main_arg9 (c : Dev nD) : W34 m c (Proc.devRef .tc main_arg9) = m ((c : Thread nD τ).loc main_arg9) :=
  (W34_of_ne m c main_arg9 (by decide)).trans <|
  (StableHlo.after_of_writes_sub hostOps14 _ Cert.Kernel.GenP.hostOps14_writes (by decide : main_arg9 ∉ Cert.Kernel.GenP.hostOps14_W)).trans <|
  (W32_of_ne m c main_arg9 (by decide)).trans <|
  (StableHlo.after_of_writes_sub hostOps13 _ Cert.Kernel.GenP.hostOps13_writes (by decide : main_arg9 ∉ Cert.Kernel.GenP.hostOps13_W)).trans <|
  (W30_of_ne m c main_arg9 (by decide)).trans <|
  (StableHlo.after_of_writes_sub hostOps12 _ Cert.Kernel.GenP.hostOps12_writes (by decide : main_arg9 ∉ Cert.Kernel.GenP.hostOps12_W)).trans <|
  (W28_of_ne m c main_arg9 (by decide)).trans <|
  (StableHlo.after_of_writes_sub hostOps11 _ Cert.Kernel.GenP.hostOps11_writes (by decide : main_arg9 ∉ Cert.Kernel.GenP.hostOps11_W)).trans <|
  (W26_of_ne m c main_arg9 (by decide)).trans <|
  (StableHlo.after_of_writes_sub hostOps10 _ Cert.Kernel.GenP.hostOps10_writes (by decide : main_arg9 ∉ Cert.Kernel.GenP.hostOps10_W)).trans <|
  (W24_of_ne m c main_arg9 (by decide)).trans <|
  (StableHlo.after_of_writes_sub hostOps9 _ Cert.Kernel.GenP.hostOps9_writes (by decide : main_arg9 ∉ Cert.Kernel.GenP.hostOps9_W)).trans <|
  (W22_of_ne m c main_arg9 (by decide)).trans <|
  (StableHlo.after_of_writes_sub hostOps8 _ Cert.Kernel.GenP.hostOps8_writes (by decide : main_arg9 ∉ Cert.Kernel.GenP.hostOps8_W)).trans <|
  (W20_of_ne m c main_arg9 (by decide)).trans <|
  (StableHlo.after_of_writes_sub hostOps7 _ Cert.Kernel.GenP.hostOps7_writes (by decide : main_arg9 ∉ Cert.Kernel.GenP.hostOps7_W)).trans <|
  (W18_of_ne m c main_arg9 (by decide)).trans <|
  (StableHlo.after_of_writes_sub hostOps6 _ Cert.Kernel.GenP.hostOps6_writes (by decide : main_arg9 ∉ Cert.Kernel.GenP.hostOps6_W)).trans <|
  (W16_of_ne m c main_arg9 (by decide)).trans <|
  (StableHlo.after_of_writes_sub hostOps5 _ Cert.Kernel.GenP.hostOps5_writes (by decide : main_arg9 ∉ Cert.Kernel.GenP.hostOps5_W)).trans <|
  (W14_of_ne m c main_arg9 (by decide)).trans <|
  (StableHlo.after_of_writes_sub hostOps4 _ Cert.Kernel.GenP.hostOps4_writes (by decide : main_arg9 ∉ Cert.Kernel.GenP.hostOps4_W)).trans <|
  (W12_of_ne m c main_arg9 (by decide)).trans <|
  (StableHlo.after_of_writes_sub hostOps3 _ Cert.Kernel.GenP.hostOps3_writes (by decide : main_arg9 ∉ Cert.Kernel.GenP.hostOps3_W)).trans <|
  (W10_of_ne m c main_arg9 (by decide)).trans <|
  (StableHlo.after_of_writes_sub hostOps2 _ Cert.Kernel.GenP.hostOps2_writes (by decide : main_arg9 ∉ Cert.Kernel.GenP.hostOps2_W)).trans <|
  (W8_of_ne m c main_arg9 (by decide)).trans <|
  (StableHlo.after_of_writes_sub hostOps1 _ Cert.Kernel.GenP.hostOps1_writes (by decide : main_arg9 ∉ Cert.Kernel.GenP.hostOps1_W)).trans <|
  (W6_of_ne m c main_arg9 (by decide)).trans <|
  (StableHlo.after_of_writes_sub hostOps0_4 _ Cert.Kernel.GenP.hostOps0_4_writes (by decide : main_arg9 ∉ Cert.Kernel.GenP.hostOps0_4_W)).trans <|
  (StableHlo.after_of_writes_sub hostOps0_3 _ Cert.Kernel.GenP.hostOps0_3_writes (by decide : main_arg9 ∉ Cert.Kernel.GenP.hostOps0_3_W)).trans <|
  (StableHlo.after_of_writes_sub hostOps0_2 _ Cert.Kernel.GenP.hostOps0_2_writes (by decide : main_arg9 ∉ Cert.Kernel.GenP.hostOps0_2_W)).trans <|
  (StableHlo.after_of_writes_sub hostOps0_1 _ Cert.Kernel.GenP.hostOps0_1_writes (by decide : main_arg9 ∉ Cert.Kernel.GenP.hostOps0_1_W)).trans <|
  (StableHlo.after_of_writes_sub hostOps0 _ Cert.Kernel.GenP.hostOps0_writes (by decide : main_arg9 ∉ Cert.Kernel.GenP.hostOps0_W)).trans rfl

end Cert.Kernel.Hand

end
-- ==== Proof.KI.Mlp0.lean ====
/-
  The multilayer-perceptron region of pipeline 0: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or
    not (an unfetched window's block index has not moved), for any proof data over `V` whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or
    not (an unfetched window's block index has not moved), for any proof data over `V` whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or
    not (an unfetched window's block index has not moved), for any proof data over `V` whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the pipeline fetched it there or
    not (an unfetched window's block index has not moved), for any proof data over `V` whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the pipeline fetched it there or
    not (an unfetched window's block index has not moved), for any proof data over `V` whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x256 := Rect.unit (s := S5000x256) ![0, 0] S5000x256.size inb_S5000x256_S5000x256_0_0
abbrev r0_1 : Rect S256x32 := Rect.unit (s := S256x32) ![0, 0] S256x32.size inb_S256x32_S256x32_0_0
abbrev r0_2 : Rect S1x32 := Rect.unit (s := S1x32) ![0, 0] S1x32.size inb_S1x32_S1x32_0_0
abbrev r0_3 : Rect S32x32 := Rect.unit (s := S32x32) ![0, 0] S32x32.size inb_S32x32_S32x32_0_0
abbrev r0_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out0_5 (x0 : Vec F S5000x256 .f32) (x1 : Vec F S256x32 .f32) (x2 : Vec F S1x32 .f32) (x3 : Vec F S32x32 .f32) (x4 : Vec F S1x32 .f32) : Vec F S5000x32 .f32 :=
  View.canon [⟨r0_5, k0_pay1 (View.ld x0 r0_0) (View.ld x1 r0_1) (View.ld x2 r0_2) (View.ld x3 r0_3) (View.ld x4 r0_2)⟩]

/-- The one store is of the whole buffer, so it covers it. -/
theorem cover0_5 (p0 : Vec F S5000x32 .f32) (y : S5000x32.Idx) :
    ∃ pc ∈ ([⟨r0_5, p0⟩] : List (View.Piece (Elt F) S5000x32 .f32)), y ∈ pc.1.set :=
  View.cover_of_tiled [⟨r0_5, p0⟩] S5000x32.size (by rfl) y

/-! ## The body's triple -/

set_option maxHeartbeats 2000000 in
/-- The body on whole staging memrefs, the five inputs' at read contents `x0 … x4` and the output's at
    anything, runs to the continuation with the inputs as they were and the output at `out0_5` of them.
    The load of the output buffer before the store reads whatever it holds and its value goes nowhere. -/
theorem sound_kernel0 (c : Dev nD) (E : Set ℕ) (i : grid0.Coords)
    (arg1 : Memref sig .tc .vmem S5000x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x256 .f32) (x1 : Vec F S256x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point
    `t` each input's buffer at its block and the output's at `out0_5` of the five input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant
    and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.StatsLib.lean ====
import proofs.«114689_j15281493639468_1_alg».proof.Proof.Gen.KernelIdeal
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-! # Whole-buffer loads and stores of a [1,32] row and of a [5000,32] block

The statistics kernels touch their scratch rows, their bias row and their output rows only through the rectangle that is
the whole buffer: a store through it leaves its payload whatever was there, a load through it reads the buffer. -/

theorem stats_hz2 : (![0, 0] : Fin 2 → Nat) = fun _ => 0 := funext fun a => by fin_cases a <;> rfl

/-- One store through the whole-buffer rectangle of a row leaves its payload, whatever was there. -/
theorem stats_read_writes_row {κ : Kind} {sp : Space} (v : View sig κ sp S1x32 .f32) (f : v.ty.Contents (Elt F)) (w : Vec F S1x32 .f32)
    (L : List (View.Piece (Elt F) S1x32 .f32)) :
    v.read (Elt F) (v.writes (Elt F) f (⟨Rect.unit (s := S1x32) ![0, 0] S1x32.size inb_S1x32_S1x32_0_0, w⟩ :: L)) = w := by
  rw [View.read_writes_eq_canon _ _ _ (fun y => ⟨_, List.mem_cons_self, View.mem_set_unit_zero stats_hz2 inb_S1x32_S1x32_0_0 y⟩),
    View.canon_cons_unit_zero (S := S1x32) stats_hz2]

/-- A load through the whole-buffer rectangle reads the buffer. -/
theorem stats_readAt_row {κ : Kind} {sp : Space} (v : View sig κ sp S1x32 .f32) (f : v.ty.Contents (Elt F)) :
    View.readAt (Elt F) v (Rect.unit (s := S1x32) ![0, 0] S1x32.size inb_S1x32_S1x32_0_0).toLoadRect f = v.read (Elt F) f :=
  (View.readAt_eq_ld v f _).trans (View.ld_unit_zero (S := S1x32) stats_hz2 _ _)
theorem stats_readAt_blk {κ : Kind} {sp : Space} (v : View sig κ sp S5000x32 .f32) (f : v.ty.Contents (Elt F)) :
    View.readAt (Elt F) v (Rect.unit (s := S5000x32) ![0, 0] S5000x32.size inb_S5000x32_S5000x32_0_0).toLoadRect f = v.read (Elt F) f :=
  (View.readAt_eq_ld v f _).trans (View.ld_unit_zero (S := S5000x32) stats_hz2 _ _)

/-- A load through the whole-buffer rectangle after one store through it reads the store's payload. -/
theorem stats_readCov_row {κ : Kind} {sp : Space} (v : View sig κ sp S1x32 .f32) (w : Vec F S1x32 .f32) :
    v.readCov [(⟨Rect.unit (s := S1x32) ![0, 0] S1x32.size inb_S1x32_S1x32_0_0, w⟩ : View.Piece (Elt F) S1x32 .f32)]
      (Rect.unit (s := S1x32) ![0, 0] S1x32.size inb_S1x32_S1x32_0_0).toLoadRect = w :=
  View.readCov_unit_zero (S := S1x32) v stats_hz2 inb_S1x32_S1x32_0_0 w

end Cert.KernelIdeal.Hand
end
-- ==== Proof.KI.Stats1.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.KI.StatsLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 1: two column sums accumulated in scratch over the 20 row blocks -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first conditional (the reset of the two scratch rows) is taken exactly at the first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional (the copy of the scratch rows into the output windows) is taken exactly at the last point. -/
abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

/-- The input windows are never idle; the output windows are idle, and not written back, off the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val = 19 → cfg1.idle 2 (grid1.coords t) = true := by decide +kernel
theorem idleAt1_3 : ∀ t : Fin cfg1.N, ¬ t.val = 19 → cfg1.idle 3 (grid1.coords t) = true := by decide +kernel
theorem noFlush1_2 : ∀ t : Fin cfg1.N, ¬ t.val = 19 → (cfg1.win 2).flush t = false := by decide +kernel
theorem noFlush1_3 : ∀ t : Fin cfg1.N, ¬ t.val = 19 → (cfg1.win 3).flush t = false := by decide +kernel
theorem liveAt1_2 : ∀ t : Fin cfg1.N, t.val = 19 → cfg1.idle 2 (grid1.coords t) = false := by decide +kernel
theorem liveAt1_3 : ∀ t : Fin cfg1.N, t.val = 19 → cfg1.idle 3 (grid1.coords t) = false := by decide +kernel

/-! ## The body on whole memrefs, case by case -/

/-- The accumulation payloads respect equality of their three arguments. -/
theorem k1_pay4_congr {a a' : Vec F S5000x32 .f32} {b b' s s' : Vec F S1x32 .f32} (ha : a = a') (hb : b = b') (hs : s = s') :
    k1_pay4 a b s = k1_pay4 a' b' s' := by subst ha hb hs; rfl
theorem k1_pay5_congr {a a' : Vec F S5000x32 .f32} {b b' s s' : Vec F S1x32 .f32} (ha : a = a') (hb : b = b') (hs : s = s') :
    k1_pay5 a b s = k1_pay5 a' b' s' := by subst ha hb hs; rfl

set_option maxHeartbeats 1000000 in
/-- A middle point (neither conditional taken): both scratch rows go from `s` to the accumulation payloads of the
    two input blocks over `s`; every window's buffer is handed back as found. -/
theorem run1_B (c : Dev nD) (E : Set ℕ) (i : grid1.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond1_0 i) (hc1 : ¬cond1_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k1_pay4 x0 x1 s0) ∗ owns (c : Thread nD τ) arg6 fullShare (k1_pay5 x0 x1 s1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run1_A (c : Dev nD) (E : Set ℕ) (i : grid1.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond1_0 i) (hc1 : ¬cond1_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k1_pay4 x0 x1 k1_pay1) ∗ owns (c : Thread nD τ) arg6 fullShare (k1_pay5 x0 x1 k1_pay2)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k1_pay4_congr (stats_readAt_blk _ _) (stats_readAt_row _ _) ?_
    sl_unfold_run_names; exact stats_readCov_row _ _
  · iexists _; isplitr
    swap; · iexact H5
    ipureintro; rw [stats_read_writes_row]
    refine k1_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run1_C (c : Dev nD) (E : Set ℕ) (i : grid1.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond1_0 i) (hc1 : cond1_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k1_pay4 x0 x1 s0) ∗ owns (c : Thread nD τ) arg4 fullShare (k1_pay5 x0 x1 s1)
            ∗ owns (c : Thread nD τ) arg5 fullShare (k1_pay4 x0 x1 s0) ∗ owns (c : Thread nD τ) arg6 fullShare (k1_pay5 x0 x1 s1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k1_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k1_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k1_pay4_congr (stats_readAt_blk _ _) (stats_readAt_row _ _) (stats_readAt_row _ _)
  · iexists _; isplitr
    swap; · iexact H5
    ipureintro; sl_unfold_run_names
    refine (stats_read_writes_row _ _ _ _).trans ?_
    exact k1_pay5_congr (stats_readAt_blk _ _) (stats_readAt_row _ _) (stats_readAt_row _ _)

/-! ## The accumulation -/

/-- The two scratch operands: whole scoped buffers of the kernel's own, passed beside the windows. -/
abbrev scM1_0 : Memref sig .tc .vmem S1x32 .f32 := Memref.whole cc1_scratch0
abbrev scM1_1 : Memref sig .tc .vmem S1x32 .f32 := Memref.whole cc1_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc1 (c : Dev nD) : (n : ℕ) → Vec F S1x32 .f32 × Vec F S1x32 .f32
  | 0 => (k1_pay1, k1_pay2)
  | n + 1 =>
    if h : n < cfg1.N then
      (k1_pay4 (iblk1 V c 0 ⟨n, h⟩) (iblk1 V c 1 ⟨n, h⟩) (acc1 c n).1, k1_pay5 (iblk1 V c 0 ⟨n, h⟩) (iblk1 V c 1 ⟨n, h⟩) (acc1 c n).2)
    else acc1 c n

theorem acc1_zero (c : Dev nD) : acc1 V c 0 = (k1_pay1, k1_pay2) := rfl

theorem acc1_succ (c : Dev nD) (t : Fin cfg1.N) :
    acc1 V c (t.val + 1) = (k1_pay4 (iblk1 V c 0 t) (iblk1 V c 1 t) (acc1 V c t.val).1, k1_pay5 (iblk1 V c 0 t) (iblk1 V c 1 t) (acc1 V c t.val).2) := by
  rw [acc1, dif_pos t.isLt]

/-- The region invariant before position `n`: before the first point every scoped buffer that is no staging buffer at
    anything and the generator register at some state; afterwards the two scratch rows at what the points so far left
    in them (`acc1`), the other such buffers at anything, and the generator register at some state. -/
def Phi1 (c : Dev nD) : ℕ → sProp 𝕄
  | 0 => Pipeline.ΦA spec1 c
  | n + 1 => iprop(iprop(iprop(owns (c : Thread nD τ) scM1_0 fullShare (acc1 V c (n + 1)).1 ∗ owns (c : Thread nD τ) scM1_1 fullShare (acc1 V c (n + 1)).2)
      ∗ Pipeline.scopedRestBut (Ix := Unit) (Name := ℕ) (U := UR sig nD τ) (Lvl := ℕ) (Val := Elt F) spec1 c [cc1_scratch0, cc1_scratch1]) ∗ (∃ r, prngReg c r))

theorem Phi1_zero (c : Dev nD) (n : ℕ) (hz : n = 0) : Phi1 V c n = Pipeline.ΦA spec1 c := by subst hz; rfl

theorem Phi1_pos (c : Dev nD) (n : ℕ) (hz : n ≠ 0) :
    Phi1 V c n = iprop(iprop(iprop(owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The invariant before the first point with the two scratch rows taken out of the scoped rest, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The pipeline's proof data -/

/-- The proof data of pipeline 1 on core `c`: the arrays as the region finds them; after the body at point `t` each input's
    buffer at its block and the two outputs' at the scratch rows after that point (what the copy-out stores at the last
    point; elsewhere the windows are idle and this is not consulted); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c (t.val + 1)).1
    | ⟨3, _⟩ => (acc1 V c (t.val + 1)).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c (t.val + 1)).1 := by dsimp only [dat1]
theorem after1_3 (c : Dev nD) (t : Fin cfg1.N) : (dat1 V c).after 3 t = (acc1 V c (t.val + 1)).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, Phi1_pos V c _ (Nat.succ_ne_zero _)]
  rw [show (dat1 V c).Φ t.castSucc = Phi1 V c t.val from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 20 := lt_of_lt_of_eq t.isLt (show cfg1.N = 20 from N_1)
  by_cases h1 : t.val = 19
  · have h0 : ¬ t.val = 0 := by omega
    rw [show (dat1 V c).leavesExact 2 t = owns (c : Thread nD τ) (st1_2 t) fullShare ((dat1 V c).after 2 t) from by
      unfold Dat.leavesExact; rw [liveAt1_2 t h1], after1_2]
    rw [show (dat1 V c).leavesExact 3 t = owns (c : Thread nD τ) (st1_3 t) fullShare ((dat1 V c).after 3 t) from by
      unfold Dat.leavesExact; rw [liveAt1_3 t h1], after1_3]
    rw [acc1_succ V c t, Phi1_pos V c _ h0]
    iintro ⟨⟨⟨⟨HS0, HS1⟩, Hrest⟩, Hg⟩, Ho, ⟨%d0, H0⟩, ⟨%d1, H1⟩, ⟨%d2, H2⟩, ⟨%d3, H3⟩⟩
    iapply (run1_C c Set.univ (grid1.coords t) _ _ _ _ _ _ _ _ _ _ _ _ (fun h => h0 ((hcond1_0 t).mp h)) ((hcond1_1 t).mpr h1)
      (iblk1 V c 0 t) (iblk1 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat1 V c) 2 t (idleAt1_2 t h1) (noFlush1_2 t h1)]
    rw [Dat.leavesExact_idle (dat1 V c) 3 t (idleAt1_3 t h1) (noFlush1_3 t h1)]
    rw [acc1_succ V c t]
    by_cases h0 : t.val = 0
    · rw [Phi1_zero V c _ h0, PhiA1_eq, show acc1 V c t.val = (k1_pay1, k1_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run1_A c Set.univ (grid1.coords t) _ _ _ _ _ _ _ _ _ _ _ _ ((hcond1_0 t).mpr h0) (fun h => h1 ((hcond1_1 t).mp h))
        (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi1_pos V c _ h0]
      iintro ⟨⟨⟨⟨HS0, HS1⟩, Hrest⟩, Hg⟩, Ho, ⟨%d0, H0⟩, ⟨%d1, H1⟩, ⟨%d2, H2⟩, ⟨%d3, H3⟩⟩
      iapply (run1_B c Set.univ (grid1.coords t) _ _ _ _ _ _ _ _ _ _ _ _ (fun h => h0 ((hcond1_0 t).mp h)) (fun h => h1 ((hcond1_1 t).mp h))
        (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the region hands the pipeline — the generator register at some state, the (empty) prefetched tables and the
    scoped buffers no window stages — is the invariant before the first point. -/
theorem hin1 (c : Dev nD) :
    iprop((∃ r, prngReg c r) ∗ Pipeline.prefHeld (Ix := Unit) (Name := ℕ) (U := UR sig nD τ) (Lvl := ℕ) (pcfgs (F := F) 1).pre c (fun _ => fullShare) ((cfgs 1).toPCfg_adm).1
        ∗ Pipeline.scopedRest (Ix := Unit) (Name := ℕ) (U := UR sig nD τ) (Lvl := ℕ) (Val := Elt F) spec1 c)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After any point the invariant gives back what it was entered with: the scratch rows' named contents are forgotten. -/
theorem Phi1_out (c : Dev nD) (n : ℕ) (hn : n ≠ 0) : Phi1 V c n ⊢ Pipeline.ΦA spec1 c := by
  rw [Phi1_pos V c _ hn, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout1 (c : Dev nD) :
    (dat1 V c).Φ (Fin.last cfg1.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec1 c) := by
  rw [show (dat1 V c).Φ (Fin.last cfg1.N) = Phi1 V c cfg1.N from rfl]
  refine (Phi1_out V c _ (by rw [show cfg1.N = 20 from N_1]; omega)).trans ?_
  rw [Pipeline.ownSems0_none]; unfold Pipeline.ΦA
  iintro ⟨Hr, Hp⟩
  isplitl [Hp]; · iexact Hp
  isplitr; · iempintro
  iexact Hr

end Cert.KernelIdeal.Hand
end
-- ==== Proof.KI.Norm2.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 2

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not: an unfetched window's block index has
    not moved, so the block kept from the point before is this point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point, fetched there or not: an unfetched window's block index has
    not moved, so the block kept from the point before is this point's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point, fetched there or not: an unfetched window's block index has
    not moved, so the block kept from the point before is this point's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every point, fetched there or not: an unfetched window's block index has
    not moved, so the block kept from the point before is this point's block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every point, fetched there or not: an unfetched window's block index has
    not moved, so the block kept from the point before is this point's block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5 holds its block at every point, fetched there or not: an unfetched window's block index has
    not moved, so the block kept from the point before is this point's block. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole 5000-row block and the whole one-row block -/

abbrev r2_0 : Rect S5000x32 := Rect.unit (s := S5000x32) ![0, 0] S5000x32.size inb_S5000x32_S5000x32_0_0
abbrev r2_1 : Rect S1x32 := Rect.unit (s := S1x32) ![0, 0] S1x32.size inb_S1x32_S1x32_0_0

/-! ## What the body leaves in the output window's buffer -/

/-- The output buffer after the body: its one store, of the payload of the six loads, laid over the block. -/
def out2_6 (x0 : Vec F S5000x32 .f32) (x1 x2 x3 x4 x5 : Vec F S1x32 .f32) : Vec F S5000x32 .f32 :=
  View.canon [⟨r2_0, k2_pay1 (View.ld x0 r2_0) (View.ld x1 r2_1) (View.ld x2 r2_1) (View.ld x3 r2_1) (View.ld x4 r2_1) (View.ld x5 r2_1)⟩]

/-- The one store's rectangle is the whole block, so it covers it. -/
theorem cover2_6 (p0 : Vec F S5000x32 .f32) (y : S5000x32.Idx) :
    ∃ pc ∈ ([⟨r2_0, p0⟩] : List (View.Piece (Elt F) S5000x32 .f32)), y ∈ pc.1.set :=
  View.cover_of_tiled [⟨r2_0, p0⟩] S5000x32.size (by rfl) y

/-! ## The body's triple -/

set_option maxHeartbeats 1000000 in
/-- The body on whole staging buffers, the six inputs' at read contents `x0 … x5` and the output's at anything,
    runs to a continuation that holds the inputs' as they were and the output's at `out2_6` of the inputs'.
    The load of the output buffer that precedes the store reads whatever the buffer holds and its value is
    not used. -/
theorem sound_kernel2 (c : Dev nD) (E : Set ℕ) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point
    `t` each input's buffer at its block and the output's at `out2_6` of the six input blocks; the invariant
    keeps the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Mlp3.lean ====
/-
  The multilayer-perceptron region of pipeline 3: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or
    not (an unfetched window's block index has not moved), for any proof data over `V` whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or
    not (an unfetched window's block index has not moved), for any proof data over `V` whose body leaves the
    block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or
    not (an unfetched window's block index has not moved), for any proof data over `V` whose body leaves the
    block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the pipeline fetched it there or
    not (an unfetched window's block index has not moved), for any proof data over `V` whose body leaves the
    block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the pipeline fetched it there or
    not (an unfetched window's block index has not moved), for any proof data over `V` whose body leaves the
    block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x32 := Rect.unit (s := S5000x32) ![0, 0] S5000x32.size inb_S5000x32_S5000x32_0_0
abbrev r3_1 : Rect S32x32 := Rect.unit (s := S32x32) ![0, 0] S32x32.size inb_S32x32_S32x32_0_0
abbrev r3_2 : Rect S1x32 := Rect.unit (s := S1x32) ![0, 0] S1x32.size inb_S1x32_S1x32_0_0
abbrev r3_3 : Rect S32x32 := Rect.unit (s := S32x32) ![0, 0] S32x32.size inb_S32x32_S32x32_0_0
abbrev r3_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out3_5 (x0 : Vec F S5000x32 .f32) (x1 : Vec F S32x32 .f32) (x2 : Vec F S1x32 .f32) (x3 : Vec F S32x32 .f32) (x4 : Vec F S1x32 .f32) : Vec F S5000x32 .f32 :=
  View.canon [⟨r3_5, k3_pay1 (View.ld x0 r3_0) (View.ld x1 r3_1) (View.ld x2 r3_2) (View.ld x3 r3_3) (View.ld x4 r3_2)⟩]

/-- The one store is of the whole buffer, so it covers it. -/
theorem cover3_5 (p0 : Vec F S5000x32 .f32) (y : S5000x32.Idx) :
    ∃ pc ∈ ([⟨r3_5, p0⟩] : List (View.Piece (Elt F) S5000x32 .f32)), y ∈ pc.1.set :=
  View.cover_of_tiled [⟨r3_5, p0⟩] S5000x32.size (by rfl) y

/-! ## The body's triple -/

set_option maxHeartbeats 2000000 in
/-- The body on whole staging memrefs, the five inputs' at read contents `x0 … x4` and the output's at
    anything, runs to the continuation with the inputs as they were and the output at `out3_5` of them.
    The load of the output buffer before the store reads whatever it holds and its value goes nowhere. -/
theorem sound_kernel3 (c : Dev nD) (E : Set ℕ) (i : grid3.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point
    `t` each input's buffer at its block and the output's at `out3_5` of the five input blocks; the
    invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant
    and the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Stats4.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.KI.StatsLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 4: two column sums accumulated in scratch over the 20 row blocks -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (where it is not fetched
    the block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The first conditional (the reset of the two scratch rows) is taken exactly at the first point. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second conditional (the copy of the scratch rows into the output windows) is taken exactly at the last point. -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-- The input windows are never idle; the output windows are idle, and not written back, off the last point. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬ t.val = 19 → cfg4.idle 2 (grid4.coords t) = true := by decide +kernel
theorem idleAt4_3 : ∀ t : Fin cfg4.N, ¬ t.val = 19 → cfg4.idle 3 (grid4.coords t) = true := by decide +kernel
theorem noFlush4_2 : ∀ t : Fin cfg4.N, ¬ t.val = 19 → (cfg4.win 2).flush t = false := by decide +kernel
theorem noFlush4_3 : ∀ t : Fin cfg4.N, ¬ t.val = 19 → (cfg4.win 3).flush t = false := by decide +kernel
theorem liveAt4_2 : ∀ t : Fin cfg4.N, t.val = 19 → cfg4.idle 2 (grid4.coords t) = false := by decide +kernel
theorem liveAt4_3 : ∀ t : Fin cfg4.N, t.val = 19 → cfg4.idle 3 (grid4.coords t) = false := by decide +kernel

/-! ## The body on whole memrefs, case by case -/

/-- The accumulation payloads respect equality of their three arguments. -/
theorem k4_pay4_congr {a a' : Vec F S5000x32 .f32} {b b' s s' : Vec F S1x32 .f32} (ha : a = a') (hb : b = b') (hs : s = s') :
    k4_pay4 a b s = k4_pay4 a' b' s' := by subst ha hb hs; rfl
theorem k4_pay5_congr {a a' : Vec F S5000x32 .f32} {b b' s s' : Vec F S1x32 .f32} (ha : a = a') (hb : b = b') (hs : s = s') :
    k4_pay5 a b s = k4_pay5 a' b' s' := by subst ha hb hs; rfl

set_option maxHeartbeats 1000000 in
/-- A middle point (neither conditional taken): both scratch rows go from `s` to the accumulation payloads of the
    two input blocks over `s`; every window's buffer is handed back as found. -/
theorem run4_B (c : Dev nD) (E : Set ℕ) (i : grid4.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (hc1 : ¬cond4_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k4_pay4 x0 x1 s0) ∗ owns (c : Thread nD τ) arg6 fullShare (k4_pay5 x0 x1 s1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run4_A (c : Dev nD) (E : Set ℕ) (i : grid4.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond4_0 i) (hc1 : ¬cond4_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k4_pay4 x0 x1 k4_pay1) ∗ owns (c : Thread nD τ) arg6 fullShare (k4_pay5 x0 x1 k4_pay2)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k4_pay4_congr (stats_readAt_blk _ _) (stats_readAt_row _ _) ?_
    sl_unfold_run_names; exact stats_readCov_row _ _
  · iexists _; isplitr
    swap; · iexact H5
    ipureintro; rw [stats_read_writes_row]
    refine k4_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run4_C (c : Dev nD) (E : Set ℕ) (i : grid4.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (hc1 : cond4_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k4_pay4 x0 x1 s0) ∗ owns (c : Thread nD τ) arg4 fullShare (k4_pay5 x0 x1 s1)
            ∗ owns (c : Thread nD τ) arg5 fullShare (k4_pay4 x0 x1 s0) ∗ owns (c : Thread nD τ) arg6 fullShare (k4_pay5 x0 x1 s1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k4_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k4_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k4_pay4_congr (stats_readAt_blk _ _) (stats_readAt_row _ _) (stats_readAt_row _ _)
  · iexists _; isplitr
    swap; · iexact H5
    ipureintro; sl_unfold_run_names
    refine (stats_read_writes_row _ _ _ _).trans ?_
    exact k4_pay5_congr (stats_readAt_blk _ _) (stats_readAt_row _ _) (stats_readAt_row _ _)

/-! ## The accumulation -/

/-- The two scratch operands: whole scoped buffers of the kernel's own, passed beside the windows. -/
abbrev scM4_0 : Memref sig .tc .vmem S1x32 .f32 := Memref.whole cc4_scratch0
abbrev scM4_1 : Memref sig .tc .vmem S1x32 .f32 := Memref.whole cc4_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc4 (c : Dev nD) : (n : ℕ) → Vec F S1x32 .f32 × Vec F S1x32 .f32
  | 0 => (k4_pay1, k4_pay2)
  | n + 1 =>
    if h : n < cfg4.N then
      (k4_pay4 (iblk4 V c 0 ⟨n, h⟩) (iblk4 V c 1 ⟨n, h⟩) (acc4 c n).1, k4_pay5 (iblk4 V c 0 ⟨n, h⟩) (iblk4 V c 1 ⟨n, h⟩) (acc4 c n).2)
    else acc4 c n

theorem acc4_zero (c : Dev nD) : acc4 V c 0 = (k4_pay1, k4_pay2) := rfl

theorem acc4_succ (c : Dev nD) (t : Fin cfg4.N) :
    acc4 V c (t.val + 1) = (k4_pay4 (iblk4 V c 0 t) (iblk4 V c 1 t) (acc4 V c t.val).1, k4_pay5 (iblk4 V c 0 t) (iblk4 V c 1 t) (acc4 V c t.val).2) := by
  rw [acc4, dif_pos t.isLt]

/-- The region invariant before position `n`: before the first point every scoped buffer that is no staging buffer at
    anything and the generator register at some state; afterwards the two scratch rows at what the points so far left
    in them (`acc4`), the other such buffers at anything, and the generator register at some state. -/
def Phi4 (c : Dev nD) : ℕ → sProp 𝕄
  | 0 => Pipeline.ΦA spec4 c
  | n + 1 => iprop(iprop(iprop(owns (c : Thread nD τ) scM4_0 fullShare (acc4 V c (n + 1)).1 ∗ owns (c : Thread nD τ) scM4_1 fullShare (acc4 V c (n + 1)).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (hz : n = 0) : Phi4 V c n = Pipeline.ΦA spec4 c := by subst hz; rfl

theorem Phi4_pos (c : Dev nD) (n : ℕ) (hz : n ≠ 0) :
    Phi4 V c n = iprop(iprop(iprop(owns (c : Thread nD τ) scM4_0 fullShare (acc4 V c n).1 ∗ owns (c : Thread nD τ) scM4_1 fullShare (acc4 V c n).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The invariant before the first point with the two scratch rows taken out of the scoped rest, each owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The pipeline's proof data -/

/-- The proof data of pipeline 4 on core `c`: the arrays as the region finds them; after the body at point `t` each input's
    buffer at its block and the two outputs' at the scratch rows after that point (what the copy-out stores at the last
    point; elsewhere the windows are idle and this is not consulted); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (acc4 V c (t.val + 1)).1
    | ⟨3, _⟩ => (acc4 V c (t.val + 1)).2
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (acc4 V c (t.val + 1)).1 := by dsimp only [dat4]
theorem after4_3 (c : Dev nD) (t : Fin cfg4.N) : (dat4 V c).after 3 t = (acc4 V c (t.val + 1)).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) from rfl, Phi4_pos V c _ (Nat.succ_ne_zero _)]
  rw [show (dat4 V c).Φ t.castSucc = Phi4 V c t.val from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 20 := lt_of_lt_of_eq t.isLt (show cfg4.N = 20 from N_4)
  by_cases h1 : t.val = 19
  · have h0 : ¬ t.val = 0 := by omega
    rw [show (dat4 V c).leavesExact 2 t = owns (c : Thread nD τ) (st4_2 t) fullShare ((dat4 V c).after 2 t) from by
      unfold Dat.leavesExact; rw [liveAt4_2 t h1], after4_2]
    rw [show (dat4 V c).leavesExact 3 t = owns (c : Thread nD τ) (st4_3 t) fullShare ((dat4 V c).after 3 t) from by
      unfold Dat.leavesExact; rw [liveAt4_3 t h1], after4_3]
    rw [acc4_succ V c t, Phi4_pos V c _ h0]
    iintro ⟨⟨⟨⟨HS0, HS1⟩, Hrest⟩, Hg⟩, Ho, ⟨%d0, H0⟩, ⟨%d1, H1⟩, ⟨%d2, H2⟩, ⟨%d3, H3⟩⟩
    iapply (run4_C c Set.univ (grid4.coords t) _ _ _ _ _ _ _ _ _ _ _ _ (fun h => h0 ((hcond4_0 t).mp h)) ((hcond4_1 t).mpr h1)
      (iblk4 V c 0 t) (iblk4 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat4 V c) 2 t (idleAt4_2 t h1) (noFlush4_2 t h1)]
    rw [Dat.leavesExact_idle (dat4 V c) 3 t (idleAt4_3 t h1) (noFlush4_3 t h1)]
    rw [acc4_succ V c t]
    by_cases h0 : t.val = 0
    · rw [Phi4_zero V c _ h0, PhiA4_eq, show acc4 V c t.val = (k4_pay1, k4_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run4_A c Set.univ (grid4.coords t) _ _ _ _ _ _ _ _ _ _ _ _ ((hcond4_0 t).mpr h0) (fun h => h1 ((hcond4_1 t).mp h))
        (iblk4 V c 0 t) (iblk4 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi4_pos V c _ h0]
      iintro ⟨⟨⟨⟨HS0, HS1⟩, Hrest⟩, Hg⟩, Ho, ⟨%d0, H0⟩, ⟨%d1, H1⟩, ⟨%d2, H2⟩, ⟨%d3, H3⟩⟩
      iapply (run4_B c Set.univ (grid4.coords t) _ _ _ _ _ _ _ _ _ _ _ _ (fun h => h0 ((hcond4_0 t).mp h)) (fun h => h1 ((hcond4_1 t).mp h))
        (iblk4 V c 0 t) (iblk4 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the region hands the pipeline — the generator register at some state, the (empty) prefetched tables and the
    scoped buffers no window stages — is the invariant before the first point. -/
theorem hin4 (c : Dev nD) :
    iprop((∃ r, prngReg c r) ∗ Pipeline.prefHeld (Ix := Unit) (Name := ℕ) (U := UR sig nD τ) (Lvl := ℕ) (pcfgs (F := F) 4).pre c (fun _ => fullShare) ((cfgs 4).toPCfg_adm).1
        ∗ Pipeline.scopedRest (Ix := Unit) (Name := ℕ) (U := UR sig nD τ) (Lvl := ℕ) (Val := Elt F) spec4 c)
      ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

/-- After any point the invariant gives back what it was entered with: the scratch rows' named contents are forgotten. -/
theorem Phi4_out (c : Dev nD) (n : ℕ) (hn : n ≠ 0) : Phi4 V c n ⊢ Pipeline.ΦA spec4 c := by
  rw [Phi4_pos V c _ hn, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout4 (c : Dev nD) :
    (dat4 V c).Φ (Fin.last cfg4.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec4 c) := by
  rw [show (dat4 V c).Φ (Fin.last cfg4.N) = Phi4 V c cfg4.N from rfl]
  refine (Phi4_out V c _ (by rw [show cfg4.N = 20 from N_4]; omega)).trans ?_
  rw [Pipeline.ownSems0_none]; unfold Pipeline.ΦA
  iintro ⟨Hr, Hp⟩
  isplitl [Hp]; · iexact Hp
  isplitr; · iempintro
  iexact Hr

end Cert.KernelIdeal.Hand
end
-- ==== Proof.KI.Norm5.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 5

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 holds its block at every point, fetched there or not: an unfetched window's block index has
    not moved, so the block kept from the point before is this point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 holds its block at every point, fetched there or not: an unfetched window's block index has
    not moved, so the block kept from the point before is this point's block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 holds its block at every point, fetched there or not: an unfetched window's block index has
    not moved, so the block kept from the point before is this point's block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 holds its block at every point, fetched there or not: an unfetched window's block index has
    not moved, so the block kept from the point before is this point's block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 holds its block at every point, fetched there or not: an unfetched window's block index has
    not moved, so the block kept from the point before is this point's block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5 holds its block at every point, fetched there or not: an unfetched window's block index has
    not moved, so the block kept from the point before is this point's block. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole 5000-row block and the whole one-row block -/

abbrev r5_0 : Rect S5000x32 := Rect.unit (s := S5000x32) ![0, 0] S5000x32.size inb_S5000x32_S5000x32_0_0
abbrev r5_1 : Rect S1x32 := Rect.unit (s := S1x32) ![0, 0] S1x32.size inb_S1x32_S1x32_0_0

/-! ## What the body leaves in the output window's buffer -/

/-- The output buffer after the body: its one store, of the payload of the six loads, laid over the block. -/
def out5_6 (x0 : Vec F S5000x32 .f32) (x1 x2 x3 x4 x5 : Vec F S1x32 .f32) : Vec F S5000x32 .f32 :=
  View.canon [⟨r5_0, k5_pay1 (View.ld x0 r5_0) (View.ld x1 r5_1) (View.ld x2 r5_1) (View.ld x3 r5_1) (View.ld x4 r5_1) (View.ld x5 r5_1)⟩]

/-- The one store's rectangle is the whole block, so it covers it. -/
theorem cover5_6 (p0 : Vec F S5000x32 .f32) (y : S5000x32.Idx) :
    ∃ pc ∈ ([⟨r5_0, p0⟩] : List (View.Piece (Elt F) S5000x32 .f32)), y ∈ pc.1.set :=
  View.cover_of_tiled [⟨r5_0, p0⟩] S5000x32.size (by rfl) y

/-! ## The body's triple -/

set_option maxHeartbeats 1000000 in
/-- The body on whole staging buffers, the six inputs' at read contents `x0 … x5` and the output's at anything,
    runs to a continuation that holds the inputs' as they were and the output's at `out5_6` of the inputs'.
    The load of the output buffer that precedes the store reads whatever the buffer holds and its value is
    not used. -/
theorem sound_kernel5 (c : Dev nD) (E : Set ℕ) (i : grid5.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them; after the body at point
    `t` each input's buffer at its block and the output's at `out5_6` of the six input blocks; the invariant
    keeps the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Mlp6.lean ====
/-
  The multilayer-perceptron region of pipeline 6: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the pipeline fetched it there or
    not (an unfetched window's block index has not moved), for any proof data over `V` whose body leaves the
    block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the pipeline fetched it there or
    not (an unfetched window's block index has not moved), for any proof data over `V` whose body leaves the
    block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the pipeline fetched it there or
    not (an unfetched window's block index has not moved), for any proof data over `V` whose body leaves the
    block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, whether the pipeline fetched it there or
    not (an unfetched window's block index has not moved), for any proof data over `V` whose body leaves the
    block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, whether the pipeline fetched it there or
    not (an unfetched window's block index has not moved), for any proof data over `V` whose body leaves the
    block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S5000x32 := Rect.unit (s := S5000x32) ![0, 0] S5000x32.size inb_S5000x32_S5000x32_0_0
abbrev r6_1 : Rect S32x32 := Rect.unit (s := S32x32) ![0, 0] S32x32.size inb_S32x32_S32x32_0_0
abbrev r6_2 : Rect S1x32 := Rect.unit (s := S1x32) ![0, 0] S1x32.size inb_S1x32_S1x32_0_0
abbrev r6_3 : Rect S32x32 := Rect.unit (s := S32x32) ![0, 0] S32x32.size inb_S32x32_S32x32_0_0
abbrev r6_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out6_5 (x0 : Vec F S5000x32 .f32) (x1 : Vec F S32x32 .f32) (x2 : Vec F S1x32 .f32) (x3 : Vec F S32x32 .f32) (x4 : Vec F S1x32 .f32) : Vec F S5000x32 .f32 :=
  View.canon [⟨r6_5, k6_pay1 (View.ld x0 r6_0) (View.ld x1 r6_1) (View.ld x2 r6_2) (View.ld x3 r6_3) (View.ld x4 r6_2)⟩]

/-- The one store is of the whole buffer, so it covers it. -/
theorem cover6_5 (p0 : Vec F S5000x32 .f32) (y : S5000x32.Idx) :
    ∃ pc ∈ ([⟨r6_5, p0⟩] : List (View.Piece (Elt F) S5000x32 .f32)), y ∈ pc.1.set :=
  View.cover_of_tiled [⟨r6_5, p0⟩] S5000x32.size (by rfl) y

/-! ## The body's triple -/

set_option maxHeartbeats 2000000 in
/-- The body on whole staging memrefs, the five inputs' at read contents `x0 … x4` and the output's at
    anything, runs to the continuation with the inputs as they were and the output at `out6_5` of them.
    The load of the output buffer before the store reads whatever it holds and its value goes nowhere. -/
theorem sound_kernel6 (c : Dev nD) (E : Set ℕ) (i : grid6.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__mlp_kernel i arg1 harg1 arg2 harg2 arg3 harg3 arg4 harg4 arg5 harg5 arg6 harg6) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point
    `t` each input's buffer at its block and the output's at `out6_5` of the five input blocks; the
    invariant is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant
    and the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Stats7.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.KI.StatsLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 7: two column sums accumulated in scratch over the 20 row blocks -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not (where it is not fetched
    the block index has not moved), for any proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The first conditional (the reset of the two scratch rows) is taken exactly at the first point. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
/-- The second conditional (the copy of the scratch rows into the output windows) is taken exactly at the last point. -/
abbrev cond7_1 (i : grid7.Coords) : Prop := k7_cond2 i = 1#1
theorem hcond7_1 : ∀ t : Fin cfg7.N, cond7_1 (grid7.coords t) ↔ t.val = 19 :=
  (by decide +kernel : ∀ t : Fin grid7.N, cond7_1 (grid7.coords t) ↔ t.val = 19)

/-- The input windows are never idle; the output windows are idle, and not written back, off the last point. -/
theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬ t.val = 19 → cfg7.idle 2 (grid7.coords t) = true := by decide +kernel
theorem idleAt7_3 : ∀ t : Fin cfg7.N, ¬ t.val = 19 → cfg7.idle 3 (grid7.coords t) = true := by decide +kernel
theorem noFlush7_2 : ∀ t : Fin cfg7.N, ¬ t.val = 19 → (cfg7.win 2).flush t = false := by decide +kernel
theorem noFlush7_3 : ∀ t : Fin cfg7.N, ¬ t.val = 19 → (cfg7.win 3).flush t = false := by decide +kernel
theorem liveAt7_2 : ∀ t : Fin cfg7.N, t.val = 19 → cfg7.idle 2 (grid7.coords t) = false := by decide +kernel
theorem liveAt7_3 : ∀ t : Fin cfg7.N, t.val = 19 → cfg7.idle 3 (grid7.coords t) = false := by decide +kernel

/-! ## The body on whole memrefs, case by case -/

/-- The accumulation payloads respect equality of their three arguments. -/
theorem k7_pay4_congr {a a' : Vec F S5000x32 .f32} {b b' s s' : Vec F S1x32 .f32} (ha : a = a') (hb : b = b') (hs : s = s') :
    k7_pay4 a b s = k7_pay4 a' b' s' := by subst ha hb hs; rfl
theorem k7_pay5_congr {a a' : Vec F S5000x32 .f32} {b b' s s' : Vec F S1x32 .f32} (ha : a = a') (hb : b = b') (hs : s = s') :
    k7_pay5 a b s = k7_pay5 a' b' s' := by subst ha hb hs; rfl

set_option maxHeartbeats 1000000 in
/-- A middle point (neither conditional taken): both scratch rows go from `s` to the accumulation payloads of the
    two input blocks over `s`; every window's buffer is handed back as found. -/
theorem run7_B (c : Dev nD) (E : Set ℕ) (i : grid7.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond7_0 i) (hc1 : ¬cond7_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k7_pay4 x0 x1 s0) ∗ owns (c : Thread nD τ) arg6 fullShare (k7_pay5 x0 x1 s1)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run7_A (c : Dev nD) (E : Set ℕ) (i : grid7.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond7_0 i) (hc1 : ¬cond7_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k7_pay4 x0 x1 k7_pay1) ∗ owns (c : Thread nD τ) arg6 fullShare (k7_pay5 x0 x1 k7_pay2)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k7_pay4_congr (stats_readAt_blk _ _) (stats_readAt_row _ _) ?_
    sl_unfold_run_names; exact stats_readCov_row _ _
  · iexists _; isplitr
    swap; · iexact H5
    ipureintro; rw [stats_read_writes_row]
    refine k7_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run7_C (c : Dev nD) (E : Set ℕ) (i : grid7.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond7_0 i) (hc1 : cond7_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k7_pay4 x0 x1 s0) ∗ owns (c : Thread nD τ) arg4 fullShare (k7_pay5 x0 x1 s1)
            ∗ owns (c : Thread nD τ) arg5 fullShare (k7_pay4 x0 x1 s0) ∗ owns (c : Thread nD τ) arg6 fullShare (k7_pay5 x0 x1 s1)) -∗ K ⟨⟩))
      ⊢ wp frame (wpE (defs₀ (F := F)) Variants.none c none) E (cc7__stats_kernel i arg1 harg1 arg2 harg2 arg3 harg3 arg4 harg4 arg5 harg5 arg6 harg6) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k7_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k7_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k7_pay4_congr (stats_readAt_blk _ _) (stats_readAt_row _ _) (stats_readAt_row _ _)
  · iexists _; isplitr
    swap; · iexact H5
    ipureintro; sl_unfold_run_names
    refine (stats_read_writes_row _ _ _ _).trans ?_
    exact k7_pay5_congr (stats_readAt_blk _ _) (stats_readAt_row _ _) (stats_readAt_row _ _)

/-! ## The accumulation -/

/-- The two scratch operands: whole scoped buffers of the kernel's own, passed beside the windows. -/
abbrev scM7_0 : Memref sig .tc .vmem S1x32 .f32 := Memref.whole cc7_scratch0
abbrev scM7_1 : Memref sig .tc .vmem S1x32 .f32 := Memref.whole cc7_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc7 (c : Dev nD) : (n : ℕ) → Vec F S1x32 .f32 × Vec F S1x32 .f32
  | 0 => (k7_pay1, k7_pay2)
  | n + 1 =>
    if h : n < cfg7.N then
      (k7_pay4 (iblk7 V c 0 ⟨n, h⟩) (iblk7 V c 1 ⟨n, h⟩) (acc7 c n).1, k7_pay5 (iblk7 V c 0 ⟨n, h⟩) (iblk7 V c 1 ⟨n, h⟩) (acc7 c n).2)
    else acc7 c n

theorem acc7_zero (c : Dev nD) : acc7 V c 0 = (k7_pay1, k7_pay2) := rfl

theorem acc7_succ (c : Dev nD) (t : Fin cfg7.N) :
    acc7 V c (t.val + 1) = (k7_pay4 (iblk7 V c 0 t) (iblk7 V c 1 t) (acc7 V c t.val).1, k7_pay5 (iblk7 V c 0 t) (iblk7 V c 1 t) (acc7 V c t.val).2) := by
  rw [acc7, dif_pos t.isLt]

/-- The region invariant before position `n`: before the first point every scoped buffer that is no staging buffer at
    anything and the generator register at some state; afterwards the two scratch rows at what the points so far left
    in them (`acc7`), the other such buffers at anything, and the generator register at some state. -/
def Phi7 (c : Dev nD) : ℕ → sProp 𝕄
  | 0 => Pipeline.ΦA spec7 c
  | n + 1 => iprop(iprop(iprop(owns (c : Thread nD τ) scM7_0 fullShare (acc7 V c (n + 1)).1 ∗ owns (c : Thread nD τ) scM7_1 fullShare (acc7 V c (n + 1)).2)
      ∗ Pipeline.scopedRestBut (Ix := Unit) (Name := ℕ) (U := UR sig nD τ) (Lvl := ℕ) (Val := Elt F) spec7 c [cc7_scratch0, cc7_scratch1]) ∗ (∃ r, prngReg c r))

theorem Phi7_zero (c : Dev nD) (n : ℕ) (hz : n = 0) : Phi7 V c n = Pipeline.ΦA spec7 c := by subst hz; rfl

theorem Phi7_pos (c : Dev nD) (n : ℕ) (hz : n ≠ 0) :
    Phi7 V c n = iprop(iprop(iprop(owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-- The invariant before the first point with the two scratch rows taken out of the scoped rest, each owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## The pipeline's proof data -/

/-- The proof data of pipeline 7 on core `c`: the arrays as the region finds them; after the body at point `t` each input's
    buffer at its block and the two outputs' at the scratch rows after that point (what the copy-out stores at the last
    point; elsewhere the windows are idle and this is not consulted); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (acc7 V c (t.val + 1)).1
    | ⟨3, _⟩ => (acc7 V c (t.val + 1)).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (acc7 V c (t.val + 1)).1 := by dsimp only [dat7]
theorem after7_3 (c : Dev nD) (t : Fin cfg7.N) : (dat7 V c).after 3 t = (acc7 V c (t.val + 1)).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) from rfl, Phi7_pos V c _ (Nat.succ_ne_zero _)]
  rw [show (dat7 V c).Φ t.castSucc = Phi7 V c t.val from rfl]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 20 := lt_of_lt_of_eq t.isLt (show cfg7.N = 20 from N_7)
  by_cases h1 : t.val = 19
  · have h0 : ¬ t.val = 0 := by omega
    rw [show (dat7 V c).leavesExact 2 t = owns (c : Thread nD τ) (st7_2 t) fullShare ((dat7 V c).after 2 t) from by
      unfold Dat.leavesExact; rw [liveAt7_2 t h1], after7_2]
    rw [show (dat7 V c).leavesExact 3 t = owns (c : Thread nD τ) (st7_3 t) fullShare ((dat7 V c).after 3 t) from by
      unfold Dat.leavesExact; rw [liveAt7_3 t h1], after7_3]
    rw [acc7_succ V c t, Phi7_pos V c _ h0]
    iintro ⟨⟨⟨⟨HS0, HS1⟩, Hrest⟩, Hg⟩, Ho, ⟨%d0, H0⟩, ⟨%d1, H1⟩, ⟨%d2, H2⟩, ⟨%d3, H3⟩⟩
    iapply (run7_C c Set.univ (grid7.coords t) _ _ _ _ _ _ _ _ _ _ _ _ (fun h => h0 ((hcond7_0 t).mp h)) ((hcond7_1 t).mpr h1)
      (iblk7 V c 0 t) (iblk7 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat7 V c) 2 t (idleAt7_2 t h1) (noFlush7_2 t h1)]
    rw [Dat.leavesExact_idle (dat7 V c) 3 t (idleAt7_3 t h1) (noFlush7_3 t h1)]
    rw [acc7_succ V c t]
    by_cases h0 : t.val = 0
    · rw [Phi7_zero V c _ h0, PhiA7_eq, show acc7 V c t.val = (k7_pay1, k7_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run7_A c Set.univ (grid7.coords t) _ _ _ _ _ _ _ _ _ _ _ _ ((hcond7_0 t).mpr h0) (fun h => h1 ((hcond7_1 t).mp h))
        (iblk7 V c 0 t) (iblk7 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi7_pos V c _ h0]
      iintro ⟨⟨⟨⟨HS0, HS1⟩, Hrest⟩, Hg⟩, Ho, ⟨%d0, H0⟩, ⟨%d1, H1⟩, ⟨%d2, H2⟩, ⟨%d3, H3⟩⟩
      iapply (run7_B c Set.univ (grid7.coords t) _ _ _ _ _ _ _ _ _ _ _ _ (fun h => h0 ((hcond7_0 t).mp h)) (fun h => h1 ((hcond7_1 t).mp h))
        (iblk7 V c 0 t) (iblk7 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into and out of the invariant -/

/-- What the region hands the pipeline — the generator register at some state, the (empty) prefetched tables and the
    scoped buffers no window stages — is the invariant before the first point. -/
theorem hin7 (c : Dev nD) :
    iprop((∃ r, prngReg c r) ∗ Pipeline.prefHeld (Ix := Unit) (Name := ℕ) (U := UR sig nD τ) (Lvl := ℕ) (pcfgs (F := F) 7).pre c (fun _ => fullShare) ((cfgs 7).toPCfg_adm).1
        ∗ Pipeline.scopedRest (Ix := Unit) (Name := ℕ) (U := UR sig nD τ) (Lvl := ℕ) (Val := Elt F) spec7 c)
      ⊢ (dat7 V c).Φ 0 := by
  rw [show (dat7 V c).Φ 0 = Pipeline.ΦA spec7 c from rfl]; unfold Pipeline.ΦA
  iintro ⟨Hp, -, Hr⟩
  isplitl [Hr]; · iexact Hr
  iexact Hp

/-- After any point the invariant gives back what it was entered with: the scratch rows' named contents are forgotten. -/
theorem Phi7_out (c : Dev nD) (n : ℕ) (hn : n ≠ 0) : Phi7 V c n ⊢ Pipeline.ΦA spec7 c := by
  rw [Phi7_pos V c _ hn, PhiA7_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout7 (c : Dev nD) :
    (dat7 V c).Φ (Fin.last cfg7.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec7 c) := by
  rw [show (dat7 V c).Φ (Fin.last cfg7.N) = Phi7 V c cfg7.N from rfl]
  refine (Phi7_out V c _ (by rw [show cfg7.N = 20 from N_7]; omega)).trans ?_
  rw [Pipeline.ownSems0_none]; unfold Pipeline.ΦA
  iintro ⟨Hr, Hp⟩
  isplitl [Hp]; · iexact Hp
  isplitr; · iempintro
  iexact Hr

end Cert.KernelIdeal.Hand
end
-- ==== Proof.KI.Norm8.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 8

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 holds its block at every point, fetched there or not: an unfetched window's block index has
    not moved, so the block kept from the point before is this point's block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1 holds its block at every point, fetched there or not: an unfetched window's block index has
    not moved, so the block kept from the point before is this point's block. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2 holds its block at every point, fetched there or not: an unfetched window's block index has
    not moved, so the block kept from the point before is this point's block. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3 holds its block at every point, fetched there or not: an unfetched window's block index has
    not moved, so the block kept from the point before is this point's block. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4 holds its block at every point, fetched there or not: an unfetched window's block index has
    not moved, so the block kept from the point before is this point's block. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5 holds its block at every point, fetched there or not: an unfetched window's block index has
    not moved, so the block kept from the point before is this point's block. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: the whole 5000-row block and the whole one-row block -/

abbrev r8_0 : Rect S5000x32 := Rect.unit (s := S5000x32) ![0, 0] S5000x32.size inb_S5000x32_S5000x32_0_0
abbrev r8_1 : Rect S1x32 := Rect.unit (s := S1x32) ![0, 0] S1x32.size inb_S1x32_S1x32_0_0

/-! ## What the body leaves in the output window's buffer -/

/-- The output buffer after the body: its one store, of the payload of the six loads, laid over the block. -/
def out8_6 (x0 : Vec F S5000x32 .f32) (x1 x2 x3 x4 x5 : Vec F S1x32 .f32) : Vec F S5000x32 .f32 :=
  View.canon [⟨r8_0, k8_pay1 (View.ld x0 r8_0) (View.ld x1 r8_1) (View.ld x2 r8_1) (View.ld x3 r8_1) (View.ld x4 r8_1) (View.ld x5 r8_1)⟩]

/-- The one store's rectangle is the whole block, so it covers it. -/
theorem cover8_6 (p0 : Vec F S5000x32 .f32) (y : S5000x32.Idx) :
    ∃ pc ∈ ([⟨r8_0, p0⟩] : List (View.Piece (Elt F) S5000x32 .f32)), y ∈ pc.1.set :=
  View.cover_of_tiled [⟨r8_0, p0⟩] S5000x32.size (by rfl) y

/-! ## The body's triple -/

set_option maxHeartbeats 1000000 in
/-- The body on whole staging buffers, the six inputs' at read contents `x0 … x5` and the output's at anything,
    runs to a continuation that holds the inputs' as they were and the output's at `out8_6` of the inputs'.
    The load of the output buffer that precedes the store reads whatever the buffer holds and its value is
    not used. -/
theorem sound_kernel8 (c : Dev nD) (E : Set ℕ) (i : grid8.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__norm_kernel i arg1 harg1 arg2 harg2 arg3 harg3 arg4 harg4 arg5 harg5 arg6 harg6 arg7 harg7) K := by
  simp only [cc8__norm_kernel_eq_skeleton]; unfold cc8__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them; after the body at point
    `t` each input's buffer at its block and the output's at `out8_6` of the six input blocks; the invariant
    keeps the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' buffers hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Mlp9.lean ====
/-
  The multilayer-perceptron region of pipeline 9: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, whether the pipeline fetched it there or
    not (an unfetched window's block index has not moved), for any proof data over `V` whose body leaves the
    block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, whether the pipeline fetched it there or
    not (an unfetched window's block index has not moved), for any proof data over `V` whose body leaves the
    block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, whether the pipeline fetched it there or
    not (an unfetched window's block index has not moved), for any proof data over `V` whose body leaves the
    block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every point, whether the pipeline fetched it there or
    not (an unfetched window's block index has not moved), for any proof data over `V` whose body leaves the
    block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds its block at every point, whether the pipeline fetched it there or
    not (an unfetched window's block index has not moved), for any proof data over `V` whose body leaves the
    block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S5000x32 := Rect.unit (s := S5000x32) ![0, 0] S5000x32.size inb_S5000x32_S5000x32_0_0
abbrev r9_1 : Rect S32x32 := Rect.unit (s := S32x32) ![0, 0] S32x32.size inb_S32x32_S32x32_0_0
abbrev r9_2 : Rect S1x32 := Rect.unit (s := S1x32) ![0, 0] S1x32.size inb_S1x32_S1x32_0_0
abbrev r9_3 : Rect S32x32 := Rect.unit (s := S32x32) ![0, 0] S32x32.size inb_S32x32_S32x32_0_0
abbrev r9_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out9_5 (x0 : Vec F S5000x32 .f32) (x1 : Vec F S32x32 .f32) (x2 : Vec F S1x32 .f32) (x3 : Vec F S32x32 .f32) (x4 : Vec F S1x32 .f32) : Vec F S5000x32 .f32 :=
  View.canon [⟨r9_5, k9_pay1 (View.ld x0 r9_0) (View.ld x1 r9_1) (View.ld x2 r9_2) (View.ld x3 r9_3) (View.ld x4 r9_2)⟩]

/-- The one store is of the whole buffer, so it covers it. -/
theorem cover9_5 (p0 : Vec F S5000x32 .f32) (y : S5000x32.Idx) :
    ∃ pc ∈ ([⟨r9_5, p0⟩] : List (View.Piece (Elt F) S5000x32 .f32)), y ∈ pc.1.set :=
  View.cover_of_tiled [⟨r9_5, p0⟩] S5000x32.size (by rfl) y

/-! ## The body's triple -/

set_option maxHeartbeats 2000000 in
/-- The body on whole staging memrefs, the five inputs' at read contents `x0 … x4` and the output's at
    anything, runs to the continuation with the inputs as they were and the output at `out9_5` of them.
    The load of the output buffer before the store reads whatever it holds and its value goes nowhere. -/
theorem sound_kernel9 (c : Dev nD) (E : Set ℕ) (i : grid9.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them; after the body at point
    `t` each input's buffer at its block and the output's at `out9_5` of the five input blocks; the
    invariant is the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant
    and the core's obligations pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.Stats10.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.KI.StatsLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 10: two column sums accumulated in scratch over the 20 row blocks -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not (where it is not fetched
    the block index has not moved), for any proof data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions, in closed form over the grid -/

/-- The first conditional (the reset of the two scratch rows) is taken exactly at the first point. -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)
/-- The second conditional (the copy of the scratch rows into the output windows) is taken exactly at the last point. -/
abbrev cond10_1 (i : grid10.Coords) : Prop := k10_cond2 i = 1#1
theorem hcond10_1 : ∀ t : Fin cfg10.N, cond10_1 (grid10.coords t) ↔ t.val = 19 :=
  (by decide +kernel : ∀ t : Fin grid10.N, cond10_1 (grid10.coords t) ↔ t.val = 19)

/-- The input windows are never idle; the output windows are idle, and not written back, off the last point. -/
theorem liveAt10_0 : ∀ t : Fin cfg10.N, cfg10.idle 0 (grid10.coords t) = false := by decide +kernel
theorem liveAt10_1 : ∀ t : Fin cfg10.N, cfg10.idle 1 (grid10.coords t) = false := by decide +kernel
theorem idleAt10_2 : ∀ t : Fin cfg10.N, ¬ t.val = 19 → cfg10.idle 2 (grid10.coords t) = true := by decide +kernel
theorem idleAt10_3 : ∀ t : Fin cfg10.N, ¬ t.val = 19 → cfg10.idle 3 (grid10.coords t) = true := by decide +kernel
theorem noFlush10_2 : ∀ t : Fin cfg10.N, ¬ t.val = 19 → (cfg10.win 2).flush t = false := by decide +kernel
theorem noFlush10_3 : ∀ t : Fin cfg10.N, ¬ t.val = 19 → (cfg10.win 3).flush t = false := by decide +kernel
theorem liveAt10_2 : ∀ t : Fin cfg10.N, t.val = 19 → cfg10.idle 2 (grid10.coords t) = false := by decide +kernel
theorem liveAt10_3 : ∀ t : Fin cfg10.N, t.val = 19 → cfg10.idle 3 (grid10.coords t) = false := by decide +kernel

/-! ## The body on whole memrefs, case by case -/

/-- The accumulation payloads respect equality of their three arguments. -/
theorem k10_pay4_congr {a a' : Vec F S5000x32 .f32} {b b' s s' : Vec F S1x32 .f32} (ha : a = a') (hb : b = b') (hs : s = s') :
    k10_pay4 a b s = k10_pay4 a' b' s' := by subst ha hb hs; rfl
theorem k10_pay5_congr {a a' : Vec F S5000x32 .f32} {b b' s s' : Vec F S1x32 .f32} (ha : a = a') (hb : b = b') (hs : s = s') :
    k10_pay5 a b s = k10_pay5 a' b' s' := by subst ha hb hs; rfl

set_option maxHeartbeats 1000000 in
/-- A middle point (neither conditional taken): both scratch rows go from `s` to the accumulation payloads of the
    two input blocks over `s`; every window's buffer is handed back as found. -/
theorem run10_B (c : Dev nD) (E : Set ℕ) (i : grid10.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond10_0 i) (hc1 : ¬cond10_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k10_pay4 x0 x1 s0) ∗ owns (c : Thread nD τ) arg6 fullShare (k10_pay5 x0 x1 s1)) -∗ K ⟨⟩))
      ⊢ wp frame (wpE (defs₀ (F := F)) Variants.none c none) E (cc10__stats_kernel i arg1 harg1 arg2 harg2 arg3 harg3 arg4 harg4 arg5 harg5 arg6 harg6) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run10_A (c : Dev nD) (E : Set ℕ) (i : grid10.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond10_0 i) (hc1 : ¬cond10_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k10_pay4 x0 x1 k10_pay1) ∗ owns (c : Thread nD τ) arg6 fullShare (k10_pay5 x0 x1 k10_pay2)) -∗ K ⟨⟩))
      ⊢ wp frame (wpE (defs₀ (F := F)) Variants.none c none) E (cc10__stats_kernel i arg1 harg1 arg2 harg2 arg3 harg3 arg4 harg4 arg5 harg5 arg6 harg6) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k10_pay4_congr (stats_readAt_blk _ _) (stats_readAt_row _ _) ?_
    sl_unfold_run_names; exact stats_readCov_row _ _
  · iexists _; isplitr
    swap; · iexact H5
    ipureintro; rw [stats_read_writes_row]
    refine k10_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run10_C (c : Dev nD) (E : Set ℕ) (i : grid10.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond10_0 i) (hc1 : cond10_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k10_pay4 x0 x1 s0) ∗ owns (c : Thread nD τ) arg4 fullShare (k10_pay5 x0 x1 s1)
            ∗ owns (c : Thread nD τ) arg5 fullShare (k10_pay4 x0 x1 s0) ∗ owns (c : Thread nD τ) arg6 fullShare (k10_pay5 x0 x1 s1)) -∗ K ⟨⟩))
      ⊢ wp frame (wpE (defs₀ (F := F)) Variants.none c none) E (cc10__stats_kernel i arg1 harg1 arg2 harg2 arg3 harg3 arg4 harg4 arg5 harg5 arg6 harg6) K := by
  simp only [cc10__stats_kernel_eq_skeleton]; unfold cc10__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k10_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k10_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k10_pay4_congr (stats_readAt_blk _ _) (stats_readAt_row _ _) (stats_readAt_row _ _)
  · iexists _; isplitr
    swap; · iexact H5
    ipureintro; sl_unfold_run_names
    refine (stats_read_writes_row _ _ _ _).trans ?_
    exact k10_pay5_congr (stats_readAt_blk _ _) (stats_readAt_row _ _) (stats_readAt_row _ _)

/-! ## The accumulation -/

/-- The two scratch operands: whole scoped buffers of the kernel's own, passed beside the windows. -/
abbrev scM10_0 : Memref sig .tc .vmem S1x32 .f32 := Memref.whole cc10_scratch0
abbrev scM10_1 : Memref sig .tc .vmem S1x32 .f32 := Memref.whole cc10_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc10 (c : Dev nD) : (n : ℕ) → Vec F S1x32 .f32 × Vec F S1x32 .f32
  | 0 => (k10_pay1, k10_pay2)
  | n + 1 =>
    if h : n < cfg10.N then
      (k10_pay4 (iblk10 V c 0 ⟨n, h⟩) (iblk10 V c 1 ⟨n, h⟩) (acc10 c n).1, k10_pay5 (iblk10 V c 0 ⟨n, h⟩) (iblk10 V c 1 ⟨n, h⟩) (acc10 c n).2)
    else acc10 c n

theorem acc10_zero (c : Dev nD) : acc10 V c 0 = (k10_pay1, k10_pay2) := rfl

theorem acc10_succ (c : Dev nD) (t : Fin cfg10.N) :
    acc10 V c (t.val + 1) = (k10_pay4 (iblk10 V c 0 t) (iblk10 V c 1 t) (acc10 V c t.val).1, k10_pay5 (iblk10 V c 0 t) (iblk10 V c 1 t) (acc10 V c t.val).2) := by
  rw [acc10, dif_pos t.isLt]

/-- The region invariant before position `n`: before the first point every scoped buffer that is no staging buffer at
    anything and the generator register at some state; afterwards the two scratch rows at what the points so far left
    in them (`acc10`), the other such buffers at anything, and the generator register at some state. -/
def Phi10 (c : Dev nD) : ℕ → sProp 𝕄
  | 0 => Pipeline.ΦA spec10 c
  | n + 1 => iprop(iprop(iprop(owns (c : Thread nD τ) scM10_0 fullShare (acc10 V c (n + 1)).1 ∗ owns (c : Thread nD τ) scM10_1 fullShare (acc10 V c (n + 1)).2)
      ∗ Pipeline.scopedRestBut (Ix := Unit) (Name := ℕ) (U := UR sig nD τ) (Lvl := ℕ) (Val := Elt F) spec10 c [cc10_scratch0, cc10_scratch1]) ∗ (∃ r, prngReg c r))

theorem Phi10_zero (c : Dev nD) (n : ℕ) (hz : n = 0) : Phi10 V c n = Pipeline.ΦA spec10 c := by subst hz; rfl

theorem Phi10_pos (c : Dev nD) (n : ℕ) (hz : n ≠ 0) :
    Phi10 V c n = iprop(iprop(iprop(owns (c : Thread nD τ) scM10_0 fullShare (acc10 V c n).1 ∗ owns (c : Thread nD τ) scM10_1 fullShare (acc10 V c n).2)
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-- The invariant before the first point with the two scratch rows taken out of the scoped rest, each owned at some contents. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

/-! ## The pipeline's proof data -/

/-- The proof data of pipeline 10 on core `c`: the arrays as the region finds them; after the body at point `t` each input's
    buffer at its block and the two outputs' at the scratch rows after that point (what the copy-out stores at the last
    point; elsewhere the windows are idle and this is not consulted); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (acc10 V c (t.val + 1)).1
    | ⟨3, _⟩ => (acc10 V c (t.val + 1)).2
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (acc10 V c (t.val + 1)).1 := by dsimp only [dat10]
theorem after10_3 (c : Dev nD) (t : Fin cfg10.N) : (dat10 V c).after 3 t = (acc10 V c (t.val + 1)).2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) from rfl, Phi10_pos V c _ (Nat.succ_ne_zero _)]
  rw [show (dat10 V c).Φ t.castSucc = Phi10 V c t.val from rfl]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  have hN : t.val < 20 := lt_of_lt_of_eq t.isLt (show cfg10.N = 20 from N_10)
  by_cases h1 : t.val = 19
  · have h0 : ¬ t.val = 0 := by omega
    rw [show (dat10 V c).leavesExact 2 t = owns (c : Thread nD τ) (st10_2 t) fullShare ((dat10 V c).after 2 t) from by
      unfold Dat.leavesExact; rw [liveAt10_2 t h1], after10_2]
    rw [show (dat10 V c).leavesExact 3 t = owns (c : Thread nD τ) (st10_3 t) fullShare ((dat10 V c).after 3 t) from by
      unfold Dat.leavesExact; rw [liveAt10_3 t h1], after10_3]
    rw [acc10_succ V c t, Phi10_pos V c _ h0]
    iintro ⟨⟨⟨⟨HS0, HS1⟩, Hrest⟩, Hg⟩, Ho, ⟨%d0, H0⟩, ⟨%d1, H1⟩, ⟨%d2, H2⟩, ⟨%d3, H3⟩⟩
    iapply (run10_C c Set.univ (grid10.coords t) _ _ _ _ _ _ _ _ _ _ _ _ (fun h => h0 ((hcond10_0 t).mp h)) ((hcond10_1 t).mpr h1)
      (iblk10 V c 0 t) (iblk10 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat10 V c) 2 t (idleAt10_2 t h1) (noFlush10_2 t h1)]
    rw [Dat.leavesExact_idle (dat10 V c) 3 t (idleAt10_3 t h1) (noFlush10_3 t h1)]
    rw [acc10_succ V c t]
    by_cases h0 : t.val = 0
    · rw [Phi10_zero V c _ h0, PhiA10_eq, show acc10 V c t.val = (k10_pay1, k10_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run10_A c Set.univ (grid10.coords t) _ _ _ _ _ _ _ _ _ _ _ _ ((hcond10_0 t).mpr h0) (fun h => h1 ((hcond10_1 t).mp h))
        (iblk10 V c 0 t) (iblk10 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi10_pos V c _ h0]
      iintro ⟨⟨⟨⟨HS0, HS1⟩, Hrest⟩, Hg⟩, Ho, ⟨%d0, H0⟩, ⟨%d1, H1⟩, ⟨%d2, H2⟩, ⟨%d3, H3⟩⟩
      iapply (run10_B c Set.univ (grid10.coords t) _ _ _ _ _ _ _ _ _ _ _ _ (fun h => h0 ((hcond10_0 t).mp h)) (fun h => h1 ((hcond10_1 t).mp h))
        (iblk10 V c 0 t) (iblk10 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into and out of the invariant -/

/-- What the region hands the pipeline — the generator register at some state, the (empty) prefetched tables and the
    scoped buffers no window stages — is the invariant before the first point. -/
theorem hin10 (c : Dev nD) :
    iprop((∃ r, prngReg c r) ∗ Pipeline.prefHeld (Ix := Unit) (Name := ℕ) (U := UR sig nD τ) (Lvl := ℕ) (pcfgs (F := F) 10).pre c (fun _ => fullShare) ((cfgs 10).toPCfg_adm).1
        ∗ Pipeline.scopedRest (Ix := Unit) (Name := ℕ) (U := UR sig nD τ) (Lvl := ℕ) (Val := Elt F) spec10 c)
      ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

/-- After any point the invariant gives back what it was entered with: the scratch rows' named contents are forgotten. -/
theorem Phi10_out (c : Dev nD) (n : ℕ) (hn : n ≠ 0) : Phi10 V c n ⊢ Pipeline.ΦA spec10 c := by
  rw [Phi10_pos V c _ hn, PhiA10_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout10 (c : Dev nD) :
    (dat10 V c).Φ (Fin.last cfg10.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec10 c) := by
  rw [show (dat10 V c).Φ (Fin.last cfg10.N) = Phi10 V c cfg10.N from rfl]
  refine (Phi10_out V c _ (by rw [show cfg10.N = 20 from N_10]; omega)).trans ?_
  rw [Pipeline.ownSems0_none]; unfold Pipeline.ΦA
  iintro ⟨Hr, Hp⟩
  isplitl [Hp]; · iexact Hp
  isplitr; · iempintro
  iexact Hr

end Cert.KernelIdeal.Hand
end
-- ==== Proof.KI.Norm11.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 11

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 holds its block at every point, fetched there or not: an unfetched window's block index has
    not moved, so the block kept from the point before is this point's block. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 holds its block at every point, fetched there or not: an unfetched window's block index has
    not moved, so the block kept from the point before is this point's block. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2 holds its block at every point, fetched there or not: an unfetched window's block index has
    not moved, so the block kept from the point before is this point's block. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3 holds its block at every point, fetched there or not: an unfetched window's block index has
    not moved, so the block kept from the point before is this point's block. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4 holds its block at every point, fetched there or not: an unfetched window's block index has
    not moved, so the block kept from the point before is this point's block. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5 holds its block at every point, fetched there or not: an unfetched window's block index has
    not moved, so the block kept from the point before is this point's block. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: the whole 5000-row block and the whole one-row block -/

abbrev r11_0 : Rect S5000x32 := Rect.unit (s := S5000x32) ![0, 0] S5000x32.size inb_S5000x32_S5000x32_0_0
abbrev r11_1 : Rect S1x32 := Rect.unit (s := S1x32) ![0, 0] S1x32.size inb_S1x32_S1x32_0_0

/-! ## What the body leaves in the output window's buffer -/

/-- The output buffer after the body: its one store, of the payload of the six loads, laid over the block. -/
def out11_6 (x0 : Vec F S5000x32 .f32) (x1 x2 x3 x4 x5 : Vec F S1x32 .f32) : Vec F S5000x32 .f32 :=
  View.canon [⟨r11_0, k11_pay1 (View.ld x0 r11_0) (View.ld x1 r11_1) (View.ld x2 r11_1) (View.ld x3 r11_1) (View.ld x4 r11_1) (View.ld x5 r11_1)⟩]

/-- The one store's rectangle is the whole block, so it covers it. -/
theorem cover11_6 (p0 : Vec F S5000x32 .f32) (y : S5000x32.Idx) :
    ∃ pc ∈ ([⟨r11_0, p0⟩] : List (View.Piece (Elt F) S5000x32 .f32)), y ∈ pc.1.set :=
  View.cover_of_tiled [⟨r11_0, p0⟩] S5000x32.size (by rfl) y

/-! ## The body's triple -/

set_option maxHeartbeats 1000000 in
/-- The body on whole staging buffers, the six inputs' at read contents `x0 … x5` and the output's at anything,
    runs to a continuation that holds the inputs' as they were and the output's at `out11_6` of the inputs'.
    The load of the output buffer that precedes the store reads whatever the buffer holds and its value is
    not used. -/
theorem sound_kernel11 (c : Dev nD) (E : Set ℕ) (i : grid11.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__norm_kernel i arg1 harg1 arg2 harg2 arg3 harg3 arg4 harg4 arg5 harg5 arg6 harg6 arg7 harg7) K := by
  simp only [cc11__norm_kernel_eq_skeleton]; unfold cc11__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them; after the body at point
    `t` each input's buffer at its block and the output's at `out11_6` of the six input blocks; the invariant
    keeps the scoped rest and the generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' buffers hold their blocks, so the body's triple applies; the invariant and
    the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.Mlp12.lean ====
/-
  The multilayer-perceptron region of pipeline 12: what the body leaves in its output window's staging
  buffer as a closed function of the five input blocks, the body's triple, the pipeline's proof data at a
  parameter `V` (the contents of the core's buffers when the region is entered), and the body obligation.
  Everything here is generic in the float carrier `F`.
-/
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, whether the pipeline fetched it there or
    not (an unfetched window's block index has not moved), for any proof data over `V` whose body leaves the
    block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, whether the pipeline fetched it there or
    not (an unfetched window's block index has not moved), for any proof data over `V` whose body leaves the
    block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's staging buffer holds its block at every point, whether the pipeline fetched it there or
    not (an unfetched window's block index has not moved), for any proof data over `V` whose body leaves the
    block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's staging buffer holds its block at every point, whether the pipeline fetched it there or
    not (an unfetched window's block index has not moved), for any proof data over `V` whose body leaves the
    block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's staging buffer holds its block at every point, whether the pipeline fetched it there or
    not (an unfetched window's block index has not moved), for any proof data over `V` whose body leaves the
    block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S5000x32 := Rect.unit (s := S5000x32) ![0, 0] S5000x32.size inb_S5000x32_S5000x32_0_0
abbrev r12_1 : Rect S32x32 := Rect.unit (s := S32x32) ![0, 0] S32x32.size inb_S32x32_S32x32_0_0
abbrev r12_2 : Rect S1x32 := Rect.unit (s := S1x32) ![0, 0] S1x32.size inb_S1x32_S1x32_0_0
abbrev r12_3 : Rect S32x32 := Rect.unit (s := S32x32) ![0, 0] S32x32.size inb_S32x32_S32x32_0_0
abbrev r12_5 : Rect S5000x32 := Rect.unit (s := S5000x32) ![0, 0] S5000x32.size inb_S5000x32_S5000x32_0_0

/-! ## What the body leaves in the output window's buffer -/

/-- The output buffer after the body, from the five input blocks: the one whole-buffer store of
    `max(x·W₁ + b₁, 0)·W₂ + b₂` (the payload, over what the five loads read). -/
def out12_5 (x0 : Vec F S5000x32 .f32) (x1 : Vec F S32x32 .f32) (x2 : Vec F S1x32 .f32) (x3 : Vec F S32x32 .f32) (x4 : Vec F S1x32 .f32) : Vec F S5000x32 .f32 :=
  View.canon [⟨r12_5, k12_pay1 (View.ld x0 r12_0) (View.ld x1 r12_1) (View.ld x2 r12_2) (View.ld x3 r12_3) (View.ld x4 r12_2)⟩]

/-- The one store is of the whole buffer, so it covers it. -/
theorem cover12_5 (p0 : Vec F S5000x32 .f32) (y : S5000x32.Idx) :
    ∃ pc ∈ ([⟨r12_5, p0⟩] : List (View.Piece (Elt F) S5000x32 .f32)), y ∈ pc.1.set :=
  View.cover_of_tiled [⟨r12_5, p0⟩] S5000x32.size (by rfl) y

/-! ## The body's triple -/

set_option maxHeartbeats 2000000 in
/-- The body on whole staging memrefs, the five inputs' at read contents `x0 … x4` and the output's at
    anything, runs to the continuation with the inputs as they were and the output at `out12_5` of them.
    The load of the output buffer before the store reads whatever it holds and its value goes nowhere. -/
theorem sound_kernel12 (c : Dev nD) (E : Set ℕ) (i : grid12.Coords)
    (arg1 : Memref sig .tc .vmem S5000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S32x32 .f32) (harg4 : arg4.IsWhole)
    (arg5 : Memref sig .tc .vmem S1x32 .f32) (harg5 : arg5.IsWhole) (arg6 : Memref sig .tc .vmem S5000x32 .f32) (harg6 : arg6.IsWhole)
    (x0 : Vec F S5000x32 .f32) (x1 : Vec F S32x32 .f32) (x2 : Vec F S1x32 .f32) (x3 : Vec F S32x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out12_5 x0 x1 x2 x3 x4)) -∗ K ⟨⟩))
      ⊢ wp frame (wpE (defs₀ (F := F)) Variants.none c none) E (cc12__mlp_kernel i arg1 harg1 arg2 harg2 arg3 harg3 arg4 harg4 arg5 harg5 arg6 harg6) K := by
  simp only [cc12__mlp_kernel_eq_skeleton]; unfold cc12__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of pipeline 12 on core `c`: the arrays as the region finds them; after the body at point
    `t` each input's buffer at its block and the output's at `out12_5` of the five input blocks; the
    invariant is the scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so the body's triple applies; the invariant
    and the core's obligations pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Stats13.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«114689_j15281493639468_1_alg».proof.Proof.KI.StatsLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics kernel of pipeline 13: two column sums accumulated in scratch over the 20 row blocks -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's staging buffer holds its block at every point, fetched there or not (where it is not fetched
    the block index has not moved), for any proof data whose array is `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's two conditions, in closed form over the grid -/

/-- The first conditional (the reset of the two scratch rows) is taken exactly at the first point. -/
abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val = 0 :=
  (by decide +kernel : ∀ t : Fin grid13.N, cond13_0 (grid13.coords t) ↔ t.val = 0)
/-- The second conditional (the copy of the scratch rows into the output windows) is taken exactly at the last point. -/
abbrev cond13_1 (i : grid13.Coords) : Prop := k13_cond2 i = 1#1
theorem hcond13_1 : ∀ t : Fin cfg13.N, cond13_1 (grid13.coords t) ↔ t.val = 19 :=
  (by decide +kernel : ∀ t : Fin grid13.N, cond13_1 (grid13.coords t) ↔ t.val = 19)

/-- The input windows are never idle; the output windows are idle, and not written back, off the last point. -/
theorem liveAt13_0 : ∀ t : Fin cfg13.N, cfg13.idle 0 (grid13.coords t) = false := by decide +kernel
theorem liveAt13_1 : ∀ t : Fin cfg13.N, cfg13.idle 1 (grid13.coords t) = false := by decide +kernel
theorem idleAt13_2 : ∀ t : Fin cfg13.N, ¬ t.val = 19 → cfg13.idle 2 (grid13.coords t) = true := by decide +kernel
theorem idleAt13_3 : ∀ t : Fin cfg13.N, ¬ t.val = 19 → cfg13.idle 3 (grid13.coords t) = true := by decide +kernel
theorem noFlush13_2 : ∀ t : Fin cfg13.N, ¬ t.val = 19 → (cfg13.win 2).flush t = false := by decide +kernel
theorem noFlush13_3 : ∀ t : Fin cfg13.N, ¬ t.val = 19 → (cfg13.win 3).flush t = false := by decide +kernel
theorem liveAt13_2 : ∀ t : Fin cfg13.N, t.val = 19 → cfg13.idle 2 (grid13.coords t) = false := by decide +kernel
theorem liveAt13_3 : ∀ t : Fin cfg13.N, t.val = 19 → cfg13.idle 3 (grid13.coords t) = false := by decide +kernel

/-! ## The body on whole memrefs, case by case -/

/-- The accumulation payloads respect equality of their three arguments. -/
theorem k13_pay4_congr {a a' : Vec F S5000x32 .f32} {b b' s s' : Vec F S1x32 .f32} (ha : a = a') (hb : b = b') (hs : s = s') :
    k13_pay4 a b s = k13_pay4 a' b' s' := by subst ha hb hs; rfl
theorem k13_pay5_congr {a a' : Vec F S5000x32 .f32} {b b' s s' : Vec F S1x32 .f32} (ha : a = a') (hb : b = b') (hs : s = s') :
    k13_pay5 a b s = k13_pay5 a' b' s' := by subst ha hb hs; rfl

set_option maxHeartbeats 1000000 in
/-- A middle point (neither conditional taken): both scratch rows go from `s` to the accumulation payloads of the
    two input blocks over `s`; every window's buffer is handed back as found. -/
theorem run13_B (c : Dev nD) (E : Set ℕ) (i : grid13.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond13_0 i) (hc1 : ¬cond13_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k13_pay4 x0 x1 s0) ∗ owns (c : Thread nD τ) arg6 fullShare (k13_pay5 x0 x1 s1)) -∗ K ⟨⟩))
      ⊢ wp frame (wpE (defs₀ (F := F)) Variants.none c none) E (cc13__stats_kernel i arg1 harg1 arg2 harg2 arg3 harg3 arg4 harg4 arg5 harg5 arg6 harg6) K := by
  simp only [cc13__stats_kernel_eq_skeleton]; unfold cc13__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row, stats_readAt_row, stats_readAt_row, stats_readAt_blk]
  · iexists _; isplitr
    swap; · iexact H5
    ipureintro; rw [stats_read_writes_row, stats_readAt_row, stats_readAt_row, stats_readAt_blk]

set_option maxHeartbeats 1000000 in
/-- The first point (the reset taken, the copy-out not): whatever the scratch rows held, they end at the accumulation
    payloads over the zero rows the reset stores; every window's buffer is handed back as found. -/
theorem run13_A (c : Dev nD) (E : Set ℕ) (i : grid13.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : cond13_0 i) (hc1 : ¬cond13_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d2 ∗ owns (c : Thread nD τ) arg4 fullShare d3
            ∗ owns (c : Thread nD τ) arg5 fullShare (k13_pay4 x0 x1 k13_pay1) ∗ owns (c : Thread nD τ) arg6 fullShare (k13_pay5 x0 x1 k13_pay2)) -∗ K ⟨⟩))
      ⊢ wp frame (wpE (defs₀ (F := F)) Variants.none c none) E (cc13__stats_kernel i arg1 harg1 arg2 harg2 arg3 harg3 arg4 harg4 arg5 harg5 arg6 harg6) K := by
  simp only [cc13__stats_kernel_eq_skeleton]; unfold cc13__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]
  · iexists _; isplitr
    swap; · iexact H4
    ipureintro; rw [stats_read_writes_row]
    refine k13_pay4_congr (stats_readAt_blk _ _) (stats_readAt_row _ _) ?_
    sl_unfold_run_names; exact stats_readCov_row _ _
  · iexists _; isplitr
    swap; · iexact H5
    ipureintro; rw [stats_read_writes_row]
    refine k13_pay5_congr (stats_readAt_blk _ _) (stats_readAt_row _ _) ?_
    sl_unfold_run_names; exact stats_readCov_row _ _

set_option maxHeartbeats 1000000 in
/-- The last point (the copy-out taken, the reset not): the scratch rows accumulate as at a middle point, and each
    output window's buffer ends at the scratch row copied into it, whatever it held. -/
theorem run13_C (c : Dev nD) (E : Set ℕ) (i : grid13.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S1x32 .f32) (harg6 : arg6.IsWhole)
    (hc0 : ¬cond13_0 i) (hc1 : cond13_1 i)
    (x0 : Vec F S5000x32 .f32) (x1 d2 d3 s0 s1 : Vec F S1x32 .f32) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k13_pay4 x0 x1 s0) ∗ owns (c : Thread nD τ) arg4 fullShare (k13_pay5 x0 x1 s1)
            ∗ owns (c : Thread nD τ) arg5 fullShare (k13_pay4 x0 x1 s0) ∗ owns (c : Thread nD τ) arg6 fullShare (k13_pay5 x0 x1 s1)) -∗ K ⟨⟩))
      ⊢ wp frame (wpE (defs₀ (F := F)) Variants.none c none) E (cc13__stats_kernel i arg1 harg1 arg2 harg2 arg3 harg3 arg4 harg4 arg5 harg5 arg6 harg6) K := by
  simp only [cc13__stats_kernel_eq_skeleton]; unfold cc13__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro; rw [stats_read_writes_row]; sl_unfold_run_names
    refine (stats_readCov_row _ _).trans ?_
    exact k13_pay4_congr (stats_readAt_blk _ _) (stats_readAt_row _ _) (stats_readAt_row _ _)
  isplitl [H3]
  · iexists _; isplitr
    swap; · iexact H3
    ipureintro; rw [stats_read_writes_row]; sl_unfold_run_names
    refine (stats_readCov_row _ _).trans ?_
    exact k13_pay5_congr (stats_readAt_blk _ _) (stats_readAt_row _ _) (stats_readAt_row _ _)
  isplitl [H4]
  · iexists _; isplitr
    swap; · iexact H4
    ipureintro; sl_unfold_run_names
    refine (stats_read_writes_row _ _ _ _).trans ?_
    exact k13_pay4_congr (stats_readAt_blk _ _) (stats_readAt_row _ _) (stats_readAt_row _ _)
  · iexists _; isplitr
    swap; · iexact H5
    ipureintro; sl_unfold_run_names
    refine (stats_read_writes_row _ _ _ _).trans ?_
    exact k13_pay5_congr (stats_readAt_blk _ _) (stats_readAt_row _ _) (stats_readAt_row _ _)

/-! ## The accumulation -/

/-- The two scratch operands: whole scoped buffers of the kernel's own, passed beside the windows. -/
abbrev scM13_0 : Memref sig .tc .vmem S1x32 .f32 := Memref.whole cc13_scratch0
abbrev scM13_1 : Memref sig .tc .vmem S1x32 .f32 := Memref.whole cc13_scratch1

/-- The two scratch rows after the first `n` points: before any point the zero rows the reset stores at the first
    point (so that every point, the first included, adds its block's column sums to what this names); then, point by
    point, the sum row plus the column sums of the block shifted by the bias row, and the sum-of-squares row plus the
    column sums of its square (the payloads as the stores leave them). -/
def acc13 (c : Dev nD) : (n : ℕ) → Vec F S1x32 .f32 × Vec F S1x32 .f32
  | 0 => (k13_pay1, k13_pay2)
  | n + 1 =>
    if h : n < cfg13.N then
      (k13_pay4 (iblk13 V c 0 ⟨n, h⟩) (iblk13 V c 1 ⟨n, h⟩) (acc13 c n).1, k13_pay5 (iblk13 V c 0 ⟨n, h⟩) (iblk13 V c 1 ⟨n, h⟩) (acc13 c n).2)
    else acc13 c n

theorem acc13_zero (c : Dev nD) : acc13 V c 0 = (k13_pay1, k13_pay2) := rfl

theorem acc13_succ (c : Dev nD) (t : Fin cfg13.N) :
    acc13 V c (t.val + 1) = (k13_pay4 (iblk13 V c 0 t) (iblk13 V c 1 t) (acc13 V c t.val).1, k13_pay5 (iblk13 V c 0 t) (iblk13 V c 1 t) (acc13 V c t.val).2) := by
  rw [acc13, dif_pos t.isLt]

/-- The region invariant before position `n`: before the first point every scoped buffer that is no staging buffer at
    anything and the generator register at some state; afterwards the two scratch rows at what the points so far left
    in them (`acc13`), the other such buffers at anything, and the generator register at some state. -/
def Phi13 (c : Dev nD) : ℕ → sProp 𝕄
  | 0 => Pipeline.ΦA spec13 c
  | n + 1 => iprop(iprop(iprop(owns (c : Thread nD τ) scM13_0 fullShare (acc13 V c (n + 1)).1 ∗ owns (c : Thread nD τ) scM13_1 fullShare (acc13 V c (n + 1)).2)
      ∗ Pipeline.scopedRestBut (Ix := Unit) (Name := ℕ) (U := UR sig nD τ) (Lvl := ℕ) (Val := Elt F) spec13 c [cc13_scratch0, cc13_scratch1]) ∗ (∃ r, prngReg c r))

theorem Phi13_zero (c : Dev nD) (n : ℕ) (hz : n = 0) : Phi13 V c n = Pipeline.ΦA spec13 c := by subst hz; rfl

theorem Phi13_pos (c : Dev nD) (n : ℕ) (hz : n ≠ 0) :
    Phi13 V c n = iprop(iprop(iprop(owns (c : Thread nD τ) scM13_0 fullShare (acc13 V c n).1 ∗ owns (c : Thread nD τ) scM13_1 fullShare (acc13 V c n).2)
      ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-- The invariant before the first point with the two scratch rows taken out of the scoped rest, each owned at some contents. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) ∗ (∃ r, prngReg c r)) := by
  unfold Pipeline.ΦA; rw [scopedRest13_split]; simp only [scM13_0, scM13_1, owns_whole]; try rfl

/-! ## The pipeline's proof data -/

/-- The proof data of pipeline 13 on core `c`: the arrays as the region finds them; after the body at point `t` each input's
    buffer at its block and the two outputs' at the scratch rows after that point (what the copy-out stores at the last
    point; elsewhere the windows are idle and this is not consulted); the invariant `Phi13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => (acc13 V c (t.val + 1)).1
    | ⟨3, _⟩ => (acc13 V c (t.val + 1)).2
  Φ t := Phi13 V c t.val
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = (acc13 V c (t.val + 1)).1 := by dsimp only [dat13]
theorem after13_3 (c : Dev nD) (t : Fin cfg13.N) : (dat13 V c).after 3 t = (acc13 V c (t.val + 1)).2 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4000000 in
/-- The body at any point: the inputs' memrefs hold their blocks; the closed forms of the two conditions say which of the
    three cases the point is in; the invariant hands the body the two scratch rows at what the points before left (at
    anything at the first point) and takes them back at this point's contents; an output window idle at the point is
    handed back as found, and at the last point it is left at the scratch row copied into it. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = Phi13 V c (t.val + 1) from rfl, Phi13_pos V c _ (Nat.succ_ne_zero _)]
  rw [show (dat13 V c).Φ t.castSucc = Phi13 V c t.val from rfl]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  have hN : t.val < 20 := lt_of_lt_of_eq t.isLt (show cfg13.N = 20 from N_13)
  by_cases h1 : t.val = 19
  · have h0 : ¬ t.val = 0 := by omega
    rw [show (dat13 V c).leavesExact 2 t = owns (c : Thread nD τ) (st13_2 t) fullShare ((dat13 V c).after 2 t) from by
      unfold Dat.leavesExact; rw [liveAt13_2 t h1], after13_2]
    rw [show (dat13 V c).leavesExact 3 t = owns (c : Thread nD τ) (st13_3 t) fullShare ((dat13 V c).after 3 t) from by
      unfold Dat.leavesExact; rw [liveAt13_3 t h1], after13_3]
    rw [acc13_succ V c t, Phi13_pos V c _ h0]
    iintro ⟨⟨⟨⟨HS0, HS1⟩, Hrest⟩, Hg⟩, Ho, ⟨%d0, H0⟩, ⟨%d1, H1⟩, ⟨%d2, H2⟩, ⟨%d3, H3⟩⟩
    iapply (run13_C c Set.univ (grid13.coords t) _ _ _ _ _ _ _ _ _ _ _ _ (fun h => h0 ((hcond13_0 t).mp h)) ((hcond13_1 t).mpr h1)
      (iblk13 V c 0 t) (iblk13 V c 1 t) _ _ _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    iexact H3
  · rw [Dat.leavesExact_idle (dat13 V c) 2 t (idleAt13_2 t h1) (noFlush13_2 t h1)]
    rw [Dat.leavesExact_idle (dat13 V c) 3 t (idleAt13_3 t h1) (noFlush13_3 t h1)]
    rw [acc13_succ V c t]
    by_cases h0 : t.val = 0
    · rw [Phi13_zero V c _ h0, PhiA13_eq, show acc13 V c t.val = (k13_pay1, k13_pay2) from by rw [h0]; rfl]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩⟩
      iapply (run13_A c Set.univ (grid13.coords t) _ _ _ _ _ _ _ _ _ _ _ _ ((hcond13_0 t).mpr h0) (fun h => h1 ((hcond13_1 t).mp h))
        (iblk13 V c 0 t) (iblk13 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3
    · rw [Phi13_pos V c _ h0]
      iintro ⟨⟨⟨⟨HS0, HS1⟩, Hrest⟩, Hg⟩, Ho, ⟨%d0, H0⟩, ⟨%d1, H1⟩, ⟨%d2, H2⟩, ⟨%d3, H3⟩⟩
      iapply (run13_B c Set.univ (grid13.coords t) _ _ _ _ _ _ _ _ _ _ _ _ (fun h => h0 ((hcond13_0 t).mp h)) (fun h => h1 ((hcond13_1 t).mp h))
        (iblk13 V c 0 t) (iblk13 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Into and out of the invariant -/

/-- What the region hands the pipeline — the generator register at some state, the (empty) prefetched tables and the
    scoped buffers no window stages — is the invariant before the first point. -/
theorem hin13 (c : Dev nD) :
    iprop((∃ r, prngReg c r) ∗ Pipeline.prefHeld (Ix := Unit) (Name := ℕ) (U := UR sig nD τ) (Lvl := ℕ) (pcfgs (F := F) 13).pre c (fun _ => fullShare) ((cfgs 13).toPCfg_adm).1
        ∗ Pipeline.scopedRest (Ix := Unit) (Name := ℕ) (U := UR sig nD τ) (Lvl := ℕ) (Val := Elt F) spec13 c)
      ⊢ (dat13 V c).Φ 0 := by
  rw [show (dat13 V c).Φ 0 = Pipeline.ΦA spec13 c from rfl]; unfold Pipeline.ΦA
  iintro ⟨Hp, -, Hr⟩
  isplitl [Hr]; · iexact Hr
  iexact Hp

/-- After any point the invariant gives back what it was entered with: the scratch rows' named contents are forgotten. -/
theorem Phi13_out (c : Dev nD) (n : ℕ) (hn : n ≠ 0) : Phi13 V c n ⊢ Pipeline.ΦA spec13 c := by
  rw [Phi13_pos V c _ hn, PhiA13_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- After the last point the invariant gives the generator register and the scoped buffers back: the scratch rows'
    named contents are forgotten. -/
theorem hout13 (c : Dev nD) :
    (dat13 V c).Φ (Fin.last cfg13.N)
      ⊢ iprop((∃ r, prngReg c r) ∗ Pipeline.ownSems0 (Ix := Unit) (Name := ℕ) (U := UR sig nD τ) (Lvl := ℕ) (Val := Elt F) (PEmpty.elim : PEmpty → SemLoc sig) c
        ∗ Pipeline.scopedRest (Ix := Unit) (Name := ℕ) (U := UR sig nD τ) (Lvl := ℕ) (Val := Elt F) spec13 c) := by
  rw [show (dat13 V c).Φ (Fin.last cfg13.N) = Phi13 V c cfg13.N from rfl]
  refine (Phi13_out V c _ (by rw [show cfg13.N = 20 from N_13]; omega)).trans ?_
  rw [Pipeline.ownSems0_none]; unfold Pipeline.ΦA
  iintro ⟨Hr, Hp⟩
  isplitl [Hp]; · iexact Hp
  isplitr; · iempintro
  iexact Hr

end Cert.KernelIdeal.Hand
end
-- ==== Proof.KI.Norm14.lean ====
import proofs.«114689_j15281493639468_1_alg».proof.Proof.Gen.KernelIdeal.Launch
import proofs.«114689_j15281493639468_1_alg».proof.Proof.Gen.KernelIdeal.Skeleton
import proofs.«114689_j15281493639468_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation region of pipeline 14

At each of the 20 grid points the body reads a block of 5000 rows of the aggregated array and five
one-row arrays (bias, mean, variance, scale, offset), and overwrites the whole output block with a
function of these six reads. Its one store covers the output block, so what the body leaves there
does not depend on what the block held before; the five one-row windows are fetched at the first
point only and keep their row for the rest of the grid.

This file states what each window's staging buffer holds before and after the body at a point,
proves the body's triple, and derives the body obligation of the pipeline, for any region-entry
contents `V` and any float model `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0 holds its block at every point, fetched there or not: an unfetched window's block index has
    not moved, so the block kept from the point before is this point's block. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1 holds its block at every point, fetched there or not: an unfetched window's block index has
    not moved, so the block kept from the point before is this point's block. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2 holds its block at every point, fetched there or not: an unfetched window's block index has
    not moved, so the block kept from the point before is this point's block. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3 holds its block at every point, fetched there or not: an unfetched window's block index has
    not moved, so the block kept from the point before is this point's block. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4 holds its block at every point, fetched there or not: an unfetched window's block index has
    not moved, so the block kept from the point before is this point's block. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
/-- Input window 5 holds its block at every point, fetched there or not: an unfetched window's block index has
    not moved, so the block kept from the point before is this point's block. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: the whole 5000-row block and the whole one-row block -/

abbrev r14_0 : Rect S5000x32 := Rect.unit (s := S5000x32) ![0, 0] S5000x32.size inb_S5000x32_S5000x32_0_0
abbrev r14_1 : Rect S1x32 := Rect.unit (s := S1x32) ![0, 0] S1x32.size inb_S1x32_S1x32_0_0

/-! ## What the body leaves in the output window's buffer -/

/-- The output buffer after the body: its one store, of the payload of the six loads, laid over the block. -/
def out14_6 (x0 : Vec F S5000x32 .f32) (x1 x2 x3 x4 x5 : Vec F S1x32 .f32) : Vec F S5000x32 .f32 :=
  View.canon [⟨r14_0, k14_pay1 (View.ld x0 r14_0) (View.ld x1 r14_1) (View.ld x2 r14_1) (View.ld x3 r14_1) (View.ld x4 r14_1) (View.ld x5 r14_1)⟩]

/-- The one store's rectangle is the whole block, so it covers it. -/
theorem cover14_6 (p0 : Vec F S5000x32 .f32) (y : S5000x32.Idx) :
    ∃ pc ∈ ([⟨r14_0, p0⟩] : List (View.Piece (Elt F) S5000x32 .f32)), y ∈ pc.1.set :=
  View.cover_of_tiled [⟨r14_0, p0⟩] S5000x32.size (by rfl) y

/-! ## The body's triple -/

set_option maxHeartbeats 1000000 in
/-- The body on whole staging buffers, the six inputs' at read contents `x0 … x5` and the output's at anything,
    runs to a continuation that holds the inputs' as they were and the output's at `out14_6` of the inputs'.
    The load of the output buffer that precedes the store reads whatever the buffer holds and its value is
    not used. -/
theorem sound_kernel14 (c : Dev nD) (E : Set ℕ) (i : grid14.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S5000x32 .f32) (harg7 : arg7.IsWhole)
    (x0 : Vec F S5000x32 .f32) (x1 x2 x3 x4 x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__norm_kernel i arg1 harg1 arg2 harg2 arg3 harg3 arg4 harg4 arg5 harg5 arg6 harg6 arg7 harg7) K := by
  simp only [cc14__norm_kernel_eq_skeleton]; unfold cc14__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them; after the body at point
    `t` each input's buffer at its block and the output's at `out14_6` of the six input blocks; the invariant
    keeps the scoped rest and the generator register untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' buffers hold their blocks, so the body's triple applies; the invariant and
    the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand
-- ==== Proof.KI.Fold.lean ====
import proofs.«114689_j15281493639468_1_alg».proof.Proof.KI.Mlp0
import proofs.«114689_j15281493639468_1_alg».proof.Proof.KI.Stats1
import proofs.«114689_j15281493639468_1_alg».proof.Proof.KI.Norm2
import proofs.«114689_j15281493639468_1_alg».proof.Proof.KI.Mlp3
import proofs.«114689_j15281493639468_1_alg».proof.Proof.KI.Stats4
import proofs.«114689_j15281493639468_1_alg».proof.Proof.KI.Norm5
import proofs.«114689_j15281493639468_1_alg».proof.Proof.KI.Mlp6
import proofs.«114689_j15281493639468_1_alg».proof.Proof.KI.Stats7
import proofs.«114689_j15281493639468_1_alg».proof.Proof.KI.Norm8
import proofs.«114689_j15281493639468_1_alg».proof.Proof.KI.Mlp9
import proofs.«114689_j15281493639468_1_alg».proof.Proof.KI.Stats10
import proofs.«114689_j15281493639468_1_alg».proof.Proof.KI.Norm11
import proofs.«114689_j15281493639468_1_alg».proof.Proof.KI.Mlp12
import proofs.«114689_j15281493639468_1_alg».proof.Proof.KI.Stats13
import proofs.«114689_j15281493639468_1_alg».proof.Proof.KI.Norm14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of @main

  @main is five stretches of host operations, then fifteen kernel regions with a stretch of host operations between
  consecutive ones.  `W j c` is what core `c`'s buffers hold at boundary `j`: a stretch applies its operations
  (`StableHlo.after`), a region replaces its windows' arrays by what its write-backs leave and keeps the rest. -/

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)

/-- The contents region 0 is entered from, read at the TensorCore's references. -/
abbrev V5 : (c : Dev nD) → (b : Ref sig .tc) → Buf (Elt F) ((c : Thread nD τ).loc b) := fun c b => W5 m c b
/-- After region 0: its arrays at what the pipeline leaves, every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
abbrev W7 : Dev nD → Valuation τ sig (Elt F) := fun c => StableHlo.after hostOps1 (W6 m c)

/-- The contents region 1 is entered from, read at the TensorCore's references. -/
abbrev V7 : (c : Dev nD) → (b : Ref sig .tc) → Buf (Elt F) ((c : Thread nD τ).loc b) := fun c b => W7 m c b
/-- After region 1: its arrays at what the pipeline leaves, every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
abbrev W9 : Dev nD → Valuation τ sig (Elt F) := fun c => StableHlo.after hostOps2 (W8 m c)

/-- The contents region 2 is entered from, read at the TensorCore's references. -/
abbrev V9 : (c : Dev nD) → (b : Ref sig .tc) → Buf (Elt F) ((c : Thread nD τ).loc b) := fun c b => W9 m c b
/-- After region 2: its arrays at what the pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
abbrev W11 : Dev nD → Valuation τ sig (Elt F) := fun c => StableHlo.after hostOps3 (W10 m c)

/-- The contents region 3 is entered from, read at the TensorCore's references. -/
abbrev V11 : (c : Dev nD) → (b : Ref sig .tc) → Buf (Elt F) ((c : Thread nD τ).loc b) := fun c b => W11 m c b
/-- After region 3: its arrays at what the pipeline leaves, every other buffer as entered. -/
def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
theorem hF3 (c : Dev nD) (w : Fin cfg3.W) : (dat3 (V11 m) c).arrAt w cfg3.N = V12 m c (Pipeline.arrRef spec3 w) :=
  (W12_arr m c w).symm
theorem hrest3 (c : Dev nD) : ∀ b, b ∉ Finset.univ.image (Pipeline.arrRef spec3) → V12 m c b = V11 m c b :=
  fun b hb => W12_of_ne m c b fun w e => hb (Finset.mem_image.mpr ⟨w, Finset.mem_univ _, e⟩)
abbrev W13 : Dev nD → Valuation τ sig (Elt F) := fun c => StableHlo.after hostOps4 (W12 m c)

/-- The contents region 4 is entered from, read at the TensorCore's references. -/
abbrev V13 : (c : Dev nD) → (b : Ref sig .tc) → Buf (Elt F) ((c : Thread nD τ).loc b) := fun c b => W13 m c b
/-- After region 4: its arrays at what the pipeline leaves, every other buffer as entered. -/
def W14 (c : Dev nD) : Valuation τ sig (Elt F) :=
  Pipeline.withArrays spec4 c (W13 m c) fun w => (dat4 (V13 m) c).arrAt w cfg4.N
theorem W14_arr (c : Dev nD) (w : Fin cfg4.W) :
    W14 m c (Proc.devRef .tc (Pipeline.arrRef spec4 w)) = (dat4 (V13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev V14 : (c : Dev nD) → (b : Ref sig .tc) → Buf (Elt F) ((c : Thread nD τ).loc b) := fun c b => W14 m c b
theorem hF4 (c : Dev nD) (w : Fin cfg4.W) : (dat4 (V13 m) c).arrAt w cfg4.N = V14 m c (Pipeline.arrRef spec4 w) :=
  (W14_arr m c w).symm
theorem hrest4 (c : Dev nD) : ∀ b, b ∉ Finset.univ.image (Pipeline.arrRef spec4) → V14 m c b = V13 m c b :=
  fun b hb => W14_of_ne m c b fun w e => hb (Finset.mem_image.mpr ⟨w, Finset.mem_univ _, e⟩)
abbrev W15 : Dev nD → Valuation τ sig (Elt F) := fun c => StableHlo.after hostOps5 (W14 m c)

/-- The contents region 5 is entered from, read at the TensorCore's references. -/
abbrev V15 : (c : Dev nD) → (b : Ref sig .tc) → Buf (Elt F) ((c : Thread nD τ).loc b) := fun c b => W15 m c b
/-- After region 5: its arrays at what the pipeline leaves, every other buffer as entered. -/
def W16 (c : Dev nD) : Valuation τ sig (Elt F) :=
  Pipeline.withArrays spec5 c (W15 m c) fun w => (dat5 (V15 m) c).arrAt w cfg5.N
theorem W16_arr (c : Dev nD) (w : Fin cfg5.W) :
    W16 m c (Proc.devRef .tc (Pipeline.arrRef spec5 w)) = (dat5 (V15 m) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m c (Proc.devRef .tc b) = W15 m c (Proc.devRef .tc b) := by
  unfold W16; exact Pipeline.withArrays_of_ne spec5 c _ _ b hb
abbrev V16 : (c : Dev nD) → (b : Ref sig .tc) → Buf (Elt F) ((c : Thread nD τ).loc b) := fun c b => W16 m c b
theorem hF5 (c : Dev nD) (w : Fin cfg5.W) : (dat5 (V15 m) c).arrAt w cfg5.N = V16 m c (Pipeline.arrRef spec5 w) :=
  (W16_arr m c w).symm
theorem hrest5 (c : Dev nD) : ∀ b, b ∉ Finset.univ.image (Pipeline.arrRef spec5) → V16 m c b = V15 m c b :=
  fun b hb => W16_of_ne m c b fun w e => hb (Finset.mem_image.mpr ⟨w, Finset.mem_univ _, e⟩)
abbrev W17 : Dev nD → Valuation τ sig (Elt F) := fun c => StableHlo.after hostOps6 (W16 m c)

/-- The contents region 6 is entered from, read at the TensorCore's references. -/
abbrev V17 : (c : Dev nD) → (b : Ref sig .tc) → Buf (Elt F) ((c : Thread nD τ).loc b) := fun c b => W17 m c b
/-- After region 6: its arrays at what the pipeline leaves, every other buffer as entered. -/
def W18 (c : Dev nD) : Valuation τ sig (Elt F) :=
  Pipeline.withArrays spec6 c (W17 m c) fun w => (dat6 (V17 m) c).arrAt w cfg6.N
theorem W18_arr (c : Dev nD) (w : Fin cfg6.W) :
    W18 m c (Proc.devRef .tc (Pipeline.arrRef spec6 w)) = (dat6 (V17 m) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m c (Proc.devRef .tc b) = W17 m c (Proc.devRef .tc b) := by
  unfold W18; exact Pipeline.withArrays_of_ne spec6 c _ _ b hb
abbrev V18 : (c : Dev nD) → (b : Ref sig .tc) → Buf (Elt F) ((c : Thread nD τ).loc b) := fun c b => W18 m c b
theorem hF6 (c : Dev nD) (w : Fin cfg6.W) : (dat6 (V17 m) c).arrAt w cfg6.N = V18 m c (Pipeline.arrRef spec6 w) :=
  (W18_arr m c w).symm
theorem hrest6 (c : Dev nD) : ∀ b, b ∉ Finset.univ.image (Pipeline.arrRef spec6) → V18 m c b = V17 m c b :=
  fun b hb => W18_of_ne m c b fun w e => hb (Finset.mem_image.mpr ⟨w, Finset.mem_univ _, e⟩)
abbrev W19 : Dev nD → Valuation τ sig (Elt F) := fun c => StableHlo.after hostOps7 (W18 m c)

/-- The contents region 7 is entered from, read at the TensorCore's references. -/
abbrev V19 : (c : Dev nD) → (b : Ref sig .tc) → Buf (Elt F) ((c : Thread nD τ).loc b) := fun c b => W19 m c b
/-- After region 7: its arrays at what the pipeline leaves, every other buffer as entered. -/
def W20 (c : Dev nD) : Valuation τ sig (Elt F) :=
  Pipeline.withArrays spec7 c (W19 m c) fun w => (dat7 (V19 m) c).arrAt w cfg7.N
theorem W20_arr (c : Dev nD) (w : Fin cfg7.W) :
    W20 m c (Proc.devRef .tc (Pipeline.arrRef spec7 w)) = (dat7 (V19 m) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m c (Proc.devRef .tc b) = W19 m c (Proc.devRef .tc b) := by
  unfold W20; exact Pipeline.withArrays_of_ne spec7 c _ _ b hb
abbrev V20 : (c : Dev nD) → (b : Ref sig .tc) → Buf (Elt F) ((c : Thread nD τ).loc b) := fun c b => W20 m c b
theorem hF7 (c : Dev nD) (w : Fin cfg7.W) : (dat7 (V19 m) c).arrAt w cfg7.N = V20 m c (Pipeline.arrRef spec7 w) :=
  (W20_arr m c w).symm
theorem hrest7 (c : Dev nD) : ∀ b, b ∉ Finset.univ.image (Pipeline.arrRef spec7) → V20 m c b = V19 m c b :=
  fun b hb => W20_of_ne m c b fun w e => hb (Finset.mem_image.mpr ⟨w, Finset.mem_univ _, e⟩)
abbrev W21 : Dev nD → Valuation τ sig (Elt F) := fun c => StableHlo.after hostOps8 (W20 m c)

/-- The contents region 8 is entered from, read at the TensorCore's references. -/
abbrev V21 : (c : Dev nD) → (b : Ref sig .tc) → Buf (Elt F) ((c : Thread nD τ).loc b) := fun c b => W21 m c b
/-- After region 8: its arrays at what the pipeline leaves, every other buffer as entered. -/
def W22 (c : Dev nD) : Valuation τ sig (Elt F) :=
  Pipeline.withArrays spec8 c (W21 m c) fun w => (dat8 (V21 m) c).arrAt w cfg8.N
theorem W22_arr (c : Dev nD) (w : Fin cfg8.W) :
    W22 m c (Proc.devRef .tc (Pipeline.arrRef spec8 w)) = (dat8 (V21 m) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m c (Proc.devRef .tc b) = W21 m c (Proc.devRef .tc b) := by
  unfold W22; exact Pipeline.withArrays_of_ne spec8 c _ _ b hb
abbrev V22 : (c : Dev nD) → (b : Ref sig .tc) → Buf (Elt F) ((c : Thread nD τ).loc b) := fun c b => W22 m c b
theorem hF8 (c : Dev nD) (w : Fin cfg8.W) : (dat8 (V21 m) c).arrAt w cfg8.N = V22 m c (Pipeline.arrRef spec8 w) :=
  (W22_arr m c w).symm
theorem hrest8 (c : Dev nD) : ∀ b, b ∉ Finset.univ.image (Pipeline.arrRef spec8) → V22 m c b = V21 m c b :=
  fun b hb => W22_of_ne m c b fun w e => hb (Finset.mem_image.mpr ⟨w, Finset.mem_univ _, e⟩)
abbrev W23 : Dev nD → Valuation τ sig (Elt F) := fun c => StableHlo.after hostOps9 (W22 m c)

/-- The contents region 9 is entered from, read at the TensorCore's references. -/
abbrev V23 : (c : Dev nD) → (b : Ref sig .tc) → Buf (Elt F) ((c : Thread nD τ).loc b) := fun c b => W23 m c b
/-- After region 9: its arrays at what the pipeline leaves, every other buffer as entered. -/
def W24 (c : Dev nD) : Valuation τ sig (Elt F) :=
  Pipeline.withArrays spec9 c (W23 m c) fun w => (dat9 (V23 m) c).arrAt w cfg9.N
theorem W24_arr (c : Dev nD) (w : Fin cfg9.W) :
    W24 m c (Proc.devRef .tc (Pipeline.arrRef spec9 w)) = (dat9 (V23 m) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m c (Proc.devRef .tc b) = W23 m c (Proc.devRef .tc b) := by
  unfold W24; exact Pipeline.withArrays_of_ne spec9 c _ _ b hb
abbrev V24 : (c : Dev nD) → (b : Ref sig .tc) → Buf (Elt F) ((c : Thread nD τ).loc b) := fun c b => W24 m c b
theorem hF9 (c : Dev nD) (w : Fin cfg9.W) : (dat9 (V23 m) c).arrAt w cfg9.N = V24 m c (Pipeline.arrRef spec9 w) :=
  (W24_arr m c w).symm
theorem hrest9 (c : Dev nD) : ∀ b, b ∉ Finset.univ.image (Pipeline.arrRef spec9) → V24 m c b = V23 m c b :=
  fun b hb => W24_of_ne m c b fun w e => hb (Finset.mem_image.mpr ⟨w, Finset.mem_univ _, e⟩)
abbrev W25 : Dev nD → Valuation τ sig (Elt F) := fun c => StableHlo.after hostOps10 (W24 m c)

/-- The contents region 10 is entered from, read at the TensorCore's references. -/
abbrev V25 : (c : Dev nD) → (b : Ref sig .tc) → Buf (Elt F) ((c : Thread nD τ).loc b) := fun c b => W25 m c b
/-- After region 10: its arrays at what the pipeline leaves, every other buffer as entered. -/
def W26 (c : Dev nD) : Valuation τ sig (Elt F) :=
  Pipeline.withArrays spec10 c (W25 m c) fun w => (dat10 (V25 m) c).arrAt w cfg10.N
theorem W26_arr (c : Dev nD) (w : Fin cfg10.W) :
    W26 m c (Proc.devRef .tc (Pipeline.arrRef spec10 w)) = (dat10 (V25 m) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m c (Proc.devRef .tc b) = W25 m c (Proc.devRef .tc b) := by
  unfold W26; exact Pipeline.withArrays_of_ne spec10 c _ _ b hb
abbrev V26 : (c : Dev nD) → (b : Ref sig .tc) → Buf (Elt F) ((c : Thread nD τ).loc b) := fun c b => W26 m c b
theorem hF10 (c : Dev nD) (w : Fin cfg10.W) : (dat10 (V25 m) c).arrAt w cfg10.N = V26 m c (Pipeline.arrRef spec10 w) :=
  (W26_arr m c w).symm
theorem hrest10 (c : Dev nD) : ∀ b, b ∉ Finset.univ.image (Pipeline.arrRef spec10) → V26 m c b = V25 m c b :=
  fun b hb => W26_of_ne m c b fun w e => hb (Finset.mem_image.mpr ⟨w, Finset.mem_univ _, e⟩)
abbrev W27 : Dev nD → Valuation τ sig (Elt F) := fun c => StableHlo.after hostOps11 (W26 m c)

/-- The contents region 11 is entered from, read at the TensorCore's references. -/
abbrev V27 : (c : Dev nD) → (b : Ref sig .tc) → Buf (Elt F) ((c : Thread nD τ).loc b) := fun c b => W27 m c b
/-- After region 11: its arrays at what the pipeline leaves, every other buffer as entered. -/
def W28 (c : Dev nD) : Valuation τ sig (Elt F) :=
  Pipeline.withArrays spec11 c (W27 m c) fun w => (dat11 (V27 m) c).arrAt w cfg11.N
theorem W28_arr (c : Dev nD) (w : Fin cfg11.W) :
    W28 m c (Proc.devRef .tc (Pipeline.arrRef spec11 w)) = (dat11 (V27 m) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m c (Proc.devRef .tc b) = W27 m c (Proc.devRef .tc b) := by
  unfold W28; exact Pipeline.withArrays_of_ne spec11 c _ _ b hb
abbrev V28 : (c : Dev nD) → (b : Ref sig .tc) → Buf (Elt F) ((c : Thread nD τ).loc b) := fun c b => W28 m c b
theorem hF11 (c : Dev nD) (w : Fin cfg11.W) : (dat11 (V27 m) c).arrAt w cfg11.N = V28 m c (Pipeline.arrRef spec11 w) :=
  (W28_arr m c w).symm
theorem hrest11 (c : Dev nD) : ∀ b, b ∉ Finset.univ.image (Pipeline.arrRef spec11) → V28 m c b = V27 m c b :=
  fun b hb => W28_of_ne m c b fun w e => hb (Finset.mem_image.mpr ⟨w, Finset.mem_univ _, e⟩)
abbrev W29 : Dev nD → Valuation τ sig (Elt F) := fun c => StableHlo.after hostOps12 (W28 m c)

/-- The contents region 12 is entered from, read at the TensorCore's references. -/
abbrev V29 : (c : Dev nD) → (b : Ref sig .tc) → Buf (Elt F) ((c : Thread nD τ).loc b) := fun c b => W29 m c b
/-- After region 12: its arrays at what the pipeline leaves, every other buffer as entered. -/
def W30 (c : Dev nD) : Valuation τ sig (Elt F) :=
  Pipeline.withArrays spec12 c (W29 m c) fun w => (dat12 (V29 m) c).arrAt w cfg12.N
theorem W30_arr (c : Dev nD) (w : Fin cfg12.W) :
    W30 m c (Proc.devRef .tc (Pipeline.arrRef spec12 w)) = (dat12 (V29 m) c).arrAt w cfg12.N := by
  unfold W30; exact Pipeline.withArrays_arr spec12 launch12.win.arr_inj c _ _ w
theorem W30_of_ne (c : Dev nD) (b : Ref sig .tc) (hb : ∀ w, Pipeline.arrRef spec12 w ≠ b) :
    W30 m c (Proc.devRef .tc b) = W29 m c (Proc.devRef .tc b) := by
  unfold W30; exact Pipeline.withArrays_of_ne spec12 c _ _ b hb
abbrev V30 : (c : Dev nD) → (b : Ref sig .tc) → Buf (Elt F) ((c : Thread nD τ).loc b) := fun c b => W30 m c b
theorem hF12 (c : Dev nD) (w : Fin cfg12.W) : (dat12 (V29 m) c).arrAt w cfg12.N = V30 m c (Pipeline.arrRef spec12 w) :=
  (W30_arr m c w).symm
theorem hrest12 (c : Dev nD) : ∀ b, b ∉ Finset.univ.image (Pipeline.arrRef spec12) → V30 m c b = V29 m c b :=
  fun b hb => W30_of_ne m c b fun w e => hb (Finset.mem_image.mpr ⟨w, Finset.mem_univ _, e⟩)
abbrev W31 : Dev nD → Valuation τ sig (Elt F) := fun c => StableHlo.after hostOps13 (W30 m c)

/-- The contents region 13 is entered from, read at the TensorCore's references. -/
abbrev V31 : (c : Dev nD) → (b : Ref sig .tc) → Buf (Elt F) ((c : Thread nD τ).loc b) := fun c b => W31 m c b
/-- After region 13: its arrays at what the pipeline leaves, every other buffer as entered. -/
def W32 (c : Dev nD) : Valuation τ sig (Elt F) :=
  Pipeline.withArrays spec13 c (W31 m c) fun w => (dat13 (V31 m) c).arrAt w cfg13.N
theorem W32_arr (c : Dev nD) (w : Fin cfg13.W) :
    W32 m c (Proc.devRef .tc (Pipeline.arrRef spec13 w)) = (dat13 (V31 m) c).arrAt w cfg13.N := by
  unfold W32; exact Pipeline.withArrays_arr spec13 launch13.win.arr_inj c _ _ w
theorem W32_of_ne (c : Dev nD) (b : Ref sig .tc) (hb : ∀ w, Pipeline.arrRef spec13 w ≠ b) :
    W32 m c (Proc.devRef .tc b) = W31 m c (Proc.devRef .tc b) := by
  unfold W32; exact Pipeline.withArrays_of_ne spec13 c _ _ b hb
abbrev V32 : (c : Dev nD) → (b : Ref sig .tc) → Buf (Elt F) ((c : Thread nD τ).loc b) := fun c b => W32 m c b
theorem hF13 (c : Dev nD) (w : Fin cfg13.W) : (dat13 (V31 m) c).arrAt w cfg13.N = V32 m c (Pipeline.arrRef spec13 w) :=
  (W32_arr m c w).symm
theorem hrest13 (c : Dev nD) : ∀ b, b ∉ Finset.univ.image (Pipeline.arrRef spec13) → V32 m c b = V31 m c b :=
  fun b hb => W32_of_ne m c b fun w e => hb (Finset.mem_image.mpr ⟨w, Finset.mem_univ _, e⟩)
abbrev W33 : Dev nD → Valuation τ sig (Elt F) := fun c => StableHlo.after hostOps14 (W32 m c)

/-- The contents region 14 is entered from, read at the TensorCore's references. -/
abbrev V33 : (c : Dev nD) → (b : Ref sig .tc) → Buf (Elt F) ((c : Thread nD τ).loc b) := fun c b => W33 m c b
/-- After region 14: its arrays at what the pipeline leaves, every other buffer as entered. -/
def W34 (c : Dev nD) : Valuation τ sig (Elt F) :=
  Pipeline.withArrays spec14 c (W33 m c) fun w => (dat14 (V33 m) c).arrAt w cfg14.N
theorem W34_arr (c : Dev nD) (w : Fin cfg14.W) :
    W34 m c (Proc.devRef .tc (Pipeline.arrRef spec14 w)) = (dat14 (V33 m) c).arrAt w cfg14.N := by
  unfold W34; exact Pipeline.withArrays_arr spec14 launch14.win.arr_inj c _ _ w
theorem W34_of_ne (c : Dev nD) (b : Ref sig .tc) (hb : ∀ w, Pipeline.arrRef spec14 w ≠ b) :
    W34 m c (Proc.devRef .tc b) = W33 m c (Proc.devRef .tc b) := by
  unfold W34; exact Pipeline.withArrays_of_ne spec14 c _ _ b hb
abbrev V34 : (c : Dev nD) → (b : Ref sig .tc) → Buf (Elt F) ((c : Thread nD τ).loc b) := fun c b => W34 m c b
theorem hF14 (c : Dev nD) (w : Fin cfg14.W) : (dat14 (V33 m) c).arrAt w cfg14.N = V34 m c (Pipeline.arrRef spec14 w) :=
  (W34_arr m c w).symm
theorem hrest14 (c : Dev nD) : ∀ b, b ∉ Finset.univ.image (Pipeline.arrRef spec14) → V34 m c b = V33 m c b :=
  fun b hb => W34_of_ne m c b fun w e => hb (Finset.mem_image.mpr ⟨w, Finset.mem_univ _, e⟩)

/-! # The proof data family and the thread state -/

abbrev adm : (p : Fin 15) → (pcfgs (F := F) p).Adm := fun p => (cfgs p).toPCfg_adm
/-- Every pipeline's proof data, each at its region's entry contents (a literal match, so that the pinned
    configuration at a numeral reduces to the printed one). -/
def pdats : (p : Fin 15) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
  | ⟨3, _⟩ => fun c => dat3 (V11 m) c
  | ⟨4, _⟩ => fun c => dat4 (V13 m) c
  | ⟨5, _⟩ => fun c => dat5 (V15 m) c
  | ⟨6, _⟩ => fun c => dat6 (V17 m) c
  | ⟨7, _⟩ => fun c => dat7 (V19 m) c
  | ⟨8, _⟩ => fun c => dat8 (V21 m) c
  | ⟨9, _⟩ => fun c => dat9 (V23 m) c
  | ⟨10, _⟩ => fun c => dat10 (V25 m) c
  | ⟨11, _⟩ => fun c => dat11 (V27 m) c
  | ⟨12, _⟩ => fun c => dat12 (V29 m) c
  | ⟨13, _⟩ => fun c => dat13 (V31 m) c
  | ⟨14, _⟩ => fun c => dat14 (V33 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W34 m c) ∗ ∃ r, prngReg c r)

end Cert.KernelIdeal.Hand

end
-- ==== Proof.KI.Reg0.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at boundary 5's contents, left with them at
    boundary 6's.  Its windows' arrays are split out of the unscoped buffers and put back at the exit contents; the
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at boundary 7's contents, left with them at
    boundary 8's.  Its windows' arrays are split out of the unscoped buffers and put back at the exit contents; the
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V7 m) c
  hout c := hout1 (V7 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at boundary 9's contents, left with them at
    boundary 10's.  Its windows' arrays are split out of the unscoped buffers and put back at the exit contents; the
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at boundary 11's contents, left with them at
    boundary 12's.  Its windows' arrays are split out of the unscoped buffers and put back at the exit contents; the
    register goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V11 m c) (V12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at boundary 13's contents, left with them at
    boundary 14's.  Its windows' arrays are split out of the unscoped buffers and put back at the exit contents; the
    register goes into the pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (V13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (V13 m) c
  hout c := hout4 (V13 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V13 m c) (V14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at boundary 15's contents, left with them at
    boundary 16's.  Its windows' arrays are split out of the unscoped buffers and put back at the exit contents; the
    register goes into the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (V15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V15 m c) (V16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 over the thread state: entered with every unscoped buffer at boundary 17's contents, left with them at
    boundary 18's.  Its windows' arrays are split out of the unscoped buffers and put back at the exit contents; the
    register goes into the pipeline's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V17 m) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (V17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V17 m c) (V18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 over the thread state: entered with every unscoped buffer at boundary 19's contents, left with them at
    boundary 20's.  Its windows' arrays are split out of the unscoped buffers and put back at the exit contents; the
    register goes into the pipeline's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m) c).loose
  hwaits := Pipeline.hwaits_of_owed_zero _ _ _ _ L lv 7 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec7 c (V19 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (V19 m) c
  hout c := hout7 (V19 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V19 m c) (V20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered with every unscoped buffer at boundary 21's contents, left with them at
    boundary 22's.  Its windows' arrays are split out of the unscoped buffers and put back at the exit contents; the
    register goes into the pipeline's invariant and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V21 m) c).loose
  hwaits := Pipeline.hwaits_of_owed_zero _ _ _ _ L lv 8 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec8 c (V21 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V21 m c) (V22 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9 over the thread state: entered with every unscoped buffer at boundary 23's contents, left with them at
    boundary 24's.  Its windows' arrays are split out of the unscoped buffers and put back at the exit contents; the
    register goes into the pipeline's invariant and comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V23 m) c).loose
  hwaits := Pipeline.hwaits_of_owed_zero _ _ _ _ L lv 9 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec9 c (V23 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V23 m c) (V24 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg10.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 10 over the thread state: entered with every unscoped buffer at boundary 25's contents, left with them at
    boundary 26's.  Its windows' arrays are split out of the unscoped buffers and put back at the exit contents; the
    register goes into the pipeline's invariant and comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V25 m) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (V25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (V25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (V25 m) c
  hout c := hout10 (V25 m) c
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (V25 m c) (V26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 11 over the thread state: entered with every unscoped buffer at boundary 27's contents, left with them at
    boundary 28's.  Its windows' arrays are split out of the unscoped buffers and put back at the exit contents; the
    register goes into the pipeline's invariant and comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V27 m) c).loose
  hwaits := Pipeline.hwaits_of_owed_zero _ _ _ _ L lv 11 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec11 c (V27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (V27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (V27 m c) (V28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg12.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 12 over the thread state: entered with every unscoped buffer at boundary 29's contents, left with them at
    boundary 30's.  Its windows' arrays are split out of the unscoped buffers and put back at the exit contents; the
    register goes into the pipeline's invariant and comes back; nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V29 m) c).loose
  hwaits := Pipeline.hwaits_of_owed_zero _ _ _ _ L lv 12 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec12 c (V29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (V29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (V29 m c) (V30 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg13.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 13 over the thread state: entered with every unscoped buffer at boundary 31's contents, left with them at
    boundary 32's.  Its windows' arrays are split out of the unscoped buffers and put back at the exit contents; the
    register goes into the pipeline's invariant and comes back; nothing is owed; the kernel has no semaphore of its own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V31 m) c).loose
  hwaits := Pipeline.hwaits_of_owed_zero _ _ _ _ L lv 13 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec13 c (V31 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (V31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin13 (V31 m) c
  hout c := hout13 (V31 m) c
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (V31 m c) (V32 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg14.lean ====
import proofs.«114689_j15281493639468_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 14 over the thread state: entered with every unscoped buffer at boundary 33's contents, left with them at
    boundary 34's.  Its windows' arrays are split out of the unscoped buffers and put back at the exit contents; the
    register goes into the pipeline's invariant and comes back; nothing is owed; the kernel has no semaphore of its own. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V33 m) c).loose
  hwaits := Pipeline.hwaits_of_owed_zero _ _ _ _ L lv 14 fun _ _ => rfl
  pre c := iprop(StableHlo.held (c : Thread nD τ) (Pipeline.ucRefs τ sig) (W33 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec14 c (V33 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (V33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (V33 m c) (V34 m c) ((pdats m 14 c).arrAt · cfg14.N) (hF14 m c) (hrest14 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«114689_j15281493639468_1_alg».proof.Proof.KI.Reg0
import proofs.«114689_j15281493639468_1_alg».proof.Proof.KI.Reg1
import proofs.«114689_j15281493639468_1_alg».proof.Proof.KI.Reg2
import proofs.«114689_j15281493639468_1_alg».proof.Proof.KI.Reg3
import proofs.«114689_j15281493639468_1_alg».proof.Proof.KI.Reg4
import proofs.«114689_j15281493639468_1_alg».proof.Proof.KI.Reg5
import proofs.«114689_j15281493639468_1_alg».proof.Proof.KI.Reg6
import proofs.«114689_j15281493639468_1_alg».proof.Proof.KI.Reg7
import proofs.«114689_j15281493639468_1_alg».proof.Proof.KI.Reg8
import proofs.«114689_j15281493639468_1_alg».proof.Proof.KI.Reg9
import proofs.«114689_j15281493639468_1_alg».proof.Proof.KI.Reg10
import proofs.«114689_j15281493639468_1_alg».proof.Proof.KI.Reg11
import proofs.«114689_j15281493639468_1_alg».proof.Proof.KI.Reg12
import proofs.«114689_j15281493639468_1_alg».proof.Proof.KI.Reg13
import proofs.«114689_j15281493639468_1_alg».proof.Proof.KI.Reg14
import proofs.«114689_j15281493639468_1_alg».proof.Proof.KI.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # @main as segments, and the launch -/

/-- @main's 34 items in order: a host segment per stretch from its boundary's contents, a region per kernel call. -/
abbrev segs : List (Pipeline.Seg (pcfgs (F := F)) adm (pdats m) () defs₀ 𝒱₀ L lv) :=
  [ .host (hseg hostOps0 hostOps0_sub Cert.KernelIdeal.GenP.hostOps0_fresh (W0 m)),
    .host (hseg hostOps0_1 hostOps0_1_sub Cert.KernelIdeal.GenP.hostOps0_1_fresh (W1 m)),
    .host (hseg hostOps0_2 hostOps0_2_sub Cert.KernelIdeal.GenP.hostOps0_2_fresh (W2 m)),
    .host (hseg hostOps0_3 hostOps0_3_sub Cert.KernelIdeal.GenP.hostOps0_3_fresh (W3 m)),
    .host (hseg hostOps0_4 hostOps0_4_sub Cert.KernelIdeal.GenP.hostOps0_4_fresh (W4 m)),
    .region (reg0 m),
    .host (hseg hostOps1 hostOps1_sub Cert.KernelIdeal.GenP.hostOps1_fresh (W6 m)),
    .region (reg1 m),
    .host (hseg hostOps2 hostOps2_sub Cert.KernelIdeal.GenP.hostOps2_fresh (W8 m)),
    .region (reg2 m),
    .host (hseg hostOps3 hostOps3_sub Cert.KernelIdeal.GenP.hostOps3_fresh (W10 m)),
    .region (reg3 m),
    .host (hseg hostOps4 hostOps4_sub Cert.KernelIdeal.GenP.hostOps4_fresh (W12 m)),
    .region (reg4 m),
    .host (hseg hostOps5 hostOps5_sub Cert.KernelIdeal.GenP.hostOps5_fresh (W14 m)),
    .region (reg5 m),
    .host (hseg hostOps6 hostOps6_sub Cert.KernelIdeal.GenP.hostOps6_fresh (W16 m)),
    .region (reg6 m),
    .host (hseg hostOps7 hostOps7_sub Cert.KernelIdeal.GenP.hostOps7_fresh (W18 m)),
    .region (reg7 m),
    .host (hseg hostOps8 hostOps8_sub Cert.KernelIdeal.GenP.hostOps8_fresh (W20 m)),
    .region (reg8 m),
    .host (hseg hostOps9 hostOps9_sub Cert.KernelIdeal.GenP.hostOps9_fresh (W22 m)),
    .region (reg9 m),
    .host (hseg hostOps10 hostOps10_sub Cert.KernelIdeal.GenP.hostOps10_fresh (W24 m)),
    .region (reg10 m),
    .host (hseg hostOps11 hostOps11_sub Cert.KernelIdeal.GenP.hostOps11_fresh (W26 m)),
    .region (reg11 m),
    .host (hseg hostOps12 hostOps12_sub Cert.KernelIdeal.GenP.hostOps12_fresh (W28 m)),
    .region (reg12 m),
    .host (hseg hostOps13 hostOps13_sub Cert.KernelIdeal.GenP.hostOps13_fresh (W30 m)),
    .region (reg13 m),
    .host (hseg hostOps14 hostOps14_sub Cert.KernelIdeal.GenP.hostOps14_fresh (W32 m)),
    .region (reg14 m) ]

/-- @main is the run of the segments: the printed chain of its items, then the segments' run against that chain. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting, and
    in every final state each unscoped buffer of each core holds the last boundary's contents `W34`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W34 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m c b)
    (hfin := fun c s' => by
      iintro ⟨⟨Hh, -⟩, HSI⟩
      unfold StableHlo.held
      imodintro
      iapply (pointsTo_read_all (Pipeline.ucRefs τ sig) (fun b => (((c : Thread nD τ)).1, b)) (W34 m c) s')
      isplitl [Hh] <;> iassumption)
    (hQ := fun s h c => h c)

end Cert.KernelIdeal.Hand

end
-- ==== Proof.KI.Args.lean ====
import proofs.«114689_j15281493639468_1_alg».proof.Proof.KI.Fold
import proofs.«114689_j15281493639468_1_alg».proof.Proof.KI.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The arguments end as launched

  No stretch of host operations writes an argument's buffer, and a region either does not touch it or reads it through
  an input window (the first region reads two of them), so at every boundary an argument's buffer holds what the launch
  memory held. -/
theorem W34_main_arg0 (c : Dev nD) : W34 m c (Proc.devRef .tc main_arg0) = m ((c : Thread nD τ).loc main_arg0) :=
  (W34_of_ne m c main_arg0 (by decide)).trans <|
  (StableHlo.after_of_writes_sub hostOps14 _ Cert.KernelIdeal.GenP.hostOps14_writes (by decide : main_arg0 ∉ Cert.KernelIdeal.GenP.hostOps14_W)).trans <|
  (W32_of_ne m c main_arg0 (by decide)).trans <|
  (StableHlo.after_of_writes_sub hostOps13 _ Cert.KernelIdeal.GenP.hostOps13_writes (by decide : main_arg0 ∉ Cert.KernelIdeal.GenP.hostOps13_W)).trans <|
  (W30_of_ne m c main_arg0 (by decide)).trans <|
  (StableHlo.after_of_writes_sub hostOps12 _ Cert.KernelIdeal.GenP.hostOps12_writes (by decide : main_arg0 ∉ Cert.KernelIdeal.GenP.hostOps12_W)).trans <|
  (W28_of_ne m c main_arg0 (by decide)).trans <|
  (StableHlo.after_of_writes_sub hostOps11 _ Cert.KernelIdeal.GenP.hostOps11_writes (by decide : main_arg0 ∉ Cert.KernelIdeal.GenP.hostOps11_W)).trans <|
  (W26_of_ne m c main_arg0 (by decide)).trans <|
  (StableHlo.after_of_writes_sub hostOps10 _ Cert.KernelIdeal.GenP.hostOps10_writes (by decide : main_arg0 ∉ Cert.KernelIdeal.GenP.hostOps10_W)).trans <|
  (W24_of_ne m c main_arg0 (by decide)).trans <|
  (StableHlo.after_of_writes_sub hostOps9 _ Cert.KernelIdeal.GenP.hostOps9_writes (by decide : main_arg0 ∉ Cert.KernelIdeal.GenP.hostOps9_W)).trans <|
  (W22_of_ne m c main_arg0 (by decide)).trans <|
  (StableHlo.after_of_writes_sub hostOps8 _ Cert.KernelIdeal.GenP.hostOps8_writes (by decide : main_arg0 ∉ Cert.KernelIdeal.GenP.hostOps8_W)).trans <|
  (W20_of_ne m c main_arg0 (by decide)).trans <|
  (StableHlo.after_of_writes_sub hostOps7 _ Cert.KernelIdeal.GenP.hostOps7_writes (by decide : main_arg0 ∉ Cert.KernelIdeal.GenP.hostOps7_W)).trans <|
  (W18_of_ne m c main_arg0 (by decide)).trans <|
  (StableHlo.after_of_writes_sub hostOps6 _ Cert.KernelIdeal.GenP.hostOps6_writes (by decide : main_arg0 ∉ Cert.KernelIdeal.GenP.hostOps6_W)).trans <|
  (W16_of_ne m c main_arg0 (by decide)).trans <|
  (StableHlo.after_of_writes_sub hostOps5 _ Cert.KernelIdeal.GenP.hostOps5_writes (by decide : main_arg0 ∉ Cert.KernelIdeal.GenP.hostOps5_W)).trans <|
  (W14_of_ne m c main_arg0 (by decide)).trans <|
  (StableHlo.after_of_writes_sub hostOps4 _ Cert.KernelIdeal.GenP.hostOps4_writes (by decide : main_arg0 ∉ Cert.KernelIdeal.GenP.hostOps4_W)).trans <|
  (W12_of_ne m c main_arg0 (by decide)).trans <|
  (StableHlo.after_of_writes_sub hostOps3 _ Cert.KernelIdeal.GenP.hostOps3_writes (by decide : main_arg0 ∉ Cert.KernelIdeal.GenP.hostOps3_W)).trans <|
  (W10_of_ne m c main_arg0 (by decide)).trans <|
  (StableHlo.after_of_writes_sub hostOps2 _ Cert.KernelIdeal.GenP.hostOps2_writes (by decide : main_arg0 ∉ Cert.KernelIdeal.GenP.hostOps2_W)).trans <|
  (W8_of_ne m c main_arg0 (by decide)).trans <|
  (StableHlo.after_of_writes_sub hostOps1 _ Cert.KernelIdeal.GenP.hostOps1_writes (by decide : main_arg0 ∉ Cert.KernelIdeal.GenP.hostOps1_W)).trans <|
  ((W6_arr m c 0).trans (((dat0 (V5 m) c).arrAt_in 0 rfl _).trans (A_eq0 (V5 m) c 0))).trans <|
  (StableHlo.after_of_writes_sub hostOps0_4 _ Cert.KernelIdeal.GenP.hostOps0_4_writes (by decide : main_arg0 ∉ Cert.KernelIdeal.GenP.hostOps0_4_W)).trans <|
  (StableHlo.after_of_writes_sub hostOps0_3 _ Cert.KernelIdeal.GenP.hostOps0_3_writes (by decide : main_arg0 ∉ Cert.KernelIdeal.GenP.hostOps0_3_W)).trans <|
  (StableHlo.after_of_writes_sub hostOps0_2 _ Cert.KernelIdeal.GenP.hostOps0_2_writes (by decide : main_arg0 ∉ Cert.KernelIdeal.GenP.hostOps0_2_W)).trans <|
  (StableHlo.after_of_writes_sub hostOps0_1 _ Cert.KernelIdeal.GenP.hostOps0_1_writes (by decide : main_arg0 ∉ Cert.KernelIdeal.GenP.hostOps0_1_W)).trans <|
  (StableHlo.after_of_writes_sub hostOps0 _ Cert.KernelIdeal.GenP.hostOps0_writes (by decide : main_arg0 ∉ Cert.KernelIdeal.GenP.hostOps0_W)).trans rfl

theorem W34_main_arg1 (c : Dev nD) : W34 m c (Proc.devRef .tc main_arg1) = m ((c : Thread nD τ).loc main_arg1) :=
  (W34_of_ne m c main_arg1 (by decide)).trans <|
  (StableHlo.after_of_writes_sub hostOps14 _ Cert.KernelIdeal.GenP.hostOps14_writes (by decide : main_arg1 ∉ Cert.KernelIdeal.GenP.hostOps14_W)).trans <|
  (W32_of_ne m c main_arg1 (by decide)).trans <|
  (StableHlo.after_of_writes_sub hostOps13 _ Cert.KernelIdeal.GenP.hostOps13_writes (by decide : main_arg1 ∉ Cert.KernelIdeal.GenP.hostOps13_W)).trans <|
  (W30_of_ne m c main_arg1 (by decide)).trans <|
  (StableHlo.after_of_writes_sub hostOps12 _ Cert.KernelIdeal.GenP.hostOps12_writes (by decide : main_arg1 ∉ Cert.KernelIdeal.GenP.hostOps12_W)).trans <|
  (W28_of_ne m c main_arg1 (by decide)).trans <|
  (StableHlo.after_of_writes_sub hostOps11 _ Cert.KernelIdeal.GenP.hostOps11_writes (by decide : main_arg1 ∉ Cert.KernelIdeal.GenP.hostOps11_W)).trans <|
  (W26_of_ne m c main_arg1 (by decide)).trans <|
  (StableHlo.after_of_writes_sub hostOps10 _ Cert.KernelIdeal.GenP.hostOps10_writes (by decide : main_arg1 ∉ Cert.KernelIdeal.GenP.hostOps10_W)).trans <|
  (W24_of_ne m c main_arg1 (by decide)).trans <|
  (StableHlo.after_of_writes_sub hostOps9 _ Cert.KernelIdeal.GenP.hostOps9_writes (by decide : main_arg1 ∉ Cert.KernelIdeal.GenP.hostOps9_W)).trans <|
  (W22_of_ne m c main_arg1 (by decide)).trans <|
  (StableHlo.after_of_writes_sub hostOps8 _ Cert.KernelIdeal.GenP.hostOps8_writes (by decide : main_arg1 ∉ Cert.KernelIdeal.GenP.hostOps8_W)).trans <|
  (W20_of_ne m c main_arg1 (by decide)).trans <|
  (StableHlo.after_of_writes_sub hostOps7 _ Cert.KernelIdeal.GenP.hostOps7_writes (by decide : main_arg1 ∉ Cert.KernelIdeal.GenP.hostOps7_W)).trans <|
  (W18_of_ne m c main_arg1 (by decide)).trans <|
  (StableHlo.after_of_writes_sub hostOps6 _ Cert.KernelIdeal.GenP.hostOps6_writes (by decide : main_arg1 ∉ Cert.KernelIdeal.GenP.hostOps6_W)).trans <|
  (W16_of_ne m c main_arg1 (by decide)).trans <|
  (StableHlo.after_of_writes_sub hostOps5 _ Cert.KernelIdeal.GenP.hostOps5_writes (by decide : main_arg1 ∉ Cert.KernelIdeal.GenP.hostOps5_W)).trans <|
  (W14_of_ne m c main_arg1 (by decide)).trans <|
  (StableHlo.after_of_writes_sub hostOps4 _ Cert.KernelIdeal.GenP.hostOps4_writes (by decide : main_arg1 ∉ Cert.KernelIdeal.GenP.hostOps4_W)).trans <|
  (W12_of_ne m c main_arg1 (by decide)).trans <|
  (StableHlo.after_of_writes_sub hostOps3 _ Cert.KernelIdeal.GenP.hostOps3_writes (by decide : main_arg1 ∉ Cert.KernelIdeal.GenP.hostOps3_W)).trans <|
  (W10_of_ne m c main_arg1 (by decide)).trans <|
  (StableHlo.after_of_writes_sub hostOps2 _ Cert.KernelIdeal.GenP.hostOps2_writes (by decide : main_arg1 ∉ Cert.KernelIdeal.GenP.hostOps2_W)).trans <|
  (W8_of_ne m c main_arg1 (by decide)).trans <|
  (StableHlo.after_of_writes_sub hostOps1 _ Cert.KernelIdeal.GenP.hostOps1_writes (by decide : main_arg1 ∉ Cert.KernelIdeal.GenP.hostOps1_W)).trans <|
  (W6_of_ne m c main_arg1 (by decide)).trans <|
  (StableHlo.after_of_writes_sub hostOps0_4 _ Cert.KernelIdeal.GenP.hostOps0_4_writes (by decide : main_arg1 ∉ Cert.KernelIdeal.GenP.hostOps0_4_W)).trans <|
  (StableHlo.after_of_writes_sub hostOps0_3 _ Cert.KernelIdeal.GenP.hostOps0_3_writes (by decide : main_arg1 ∉ Cert.KernelIdeal.GenP.hostOps0_3_W)).trans <|
  (StableHlo.after_of_writes_sub hostOps0_2 _ Cert.KernelIdeal.GenP.hostOps0_2_writes (by decide : main_arg1 ∉ Cert.KernelIdeal.GenP.hostOps0_2_W)).trans <|
  (StableHlo.after_of_writes_sub hostOps0_1 _ Cert.KernelIdeal.GenP.hostOps0_1_writes (by decide : main_arg1 ∉ Cert.KernelIdeal.GenP.hostOps0_1_W)).trans <|
  (StableHlo.after_of_writes_sub hostOps0 _ Cert.KernelIdeal.GenP.hostOps0_writes (by decide : main_arg1 ∉ Cert.KernelIdeal.GenP.hostOps0_W)).trans rfl

theorem W34_main_arg2 (c : Dev nD) : W34 m c (Proc.devRef .tc main_arg2) = m ((c : Thread nD τ).loc main_arg2) :=
  (W34_of_ne m c main_arg2 (by decide)).trans <|
  (StableHlo.after_of_writes_sub hostOps14 _ Cert.KernelIdeal.GenP.hostOps14_writes (by decide : main_arg2 ∉ Cert.KernelIdeal.GenP.hostOps14_W)).trans <|
  (W32_of_ne m c main_arg2 (by decide)).trans <|
  (StableHlo.after_of_writes_sub hostOps13 _ Cert.KernelIdeal.GenP.hostOps13_writes (by decide : main_arg2 ∉ Cert.KernelIdeal.GenP.hostOps13_W)).trans <|
  (W30_of_ne m c main_arg2 (by decide)).trans <|
  (StableHlo.after_of_writes_sub hostOps12 _ Cert.KernelIdeal.GenP.hostOps12_writes (by decide : main_arg2 ∉ Cert.KernelIdeal.GenP.hostOps12_W)).trans <|
  (W28_of_ne m c main_arg2 (by decide)).trans <|
  (StableHlo.after_of_writes_sub hostOps11 _ Cert.KernelIdeal.GenP.hostOps11_writes (by decide : main_arg2 ∉ Cert.KernelIdeal.GenP.hostOps11_W)).trans <|
  (W26_of_ne m c main_arg2 (by decide)).trans <|
  (StableHlo.after_of_writes_sub hostOps10 _ Cert.KernelIdeal.GenP.hostOps10_writes (by decide : main_arg2 ∉ Cert.KernelIdeal.GenP.hostOps10_W)).trans <|
  (W24_of_ne m c main_arg2 (by decide)).trans <|
  (StableHlo.after_of_writes_sub hostOps9 _ Cert.KernelIdeal.GenP.hostOps9_writes (by decide : main_arg2 ∉ Cert.KernelIdeal.GenP.hostOps9_W)).trans <|
  (W22_of_ne m c main_arg2 (by decide)).trans <|
  (StableHlo.after_of_writes_sub hostOps8 _ Cert.KernelIdeal.GenP.hostOps8_writes (by decide : main_arg2 ∉ Cert.KernelIdeal.GenP.hostOps8_W)).trans <|
  (W20_of_ne m c main_arg2 (by decide)).trans <|
  (StableHlo.after_of_writes_sub hostOps7 _ Cert.KernelIdeal.GenP.hostOps7_writes (by decide : main_arg2 ∉ Cert.KernelIdeal.GenP.hostOps7_W)).trans <|
  (W18_of_ne m c main_arg2 (by decide)).trans <|
  (StableHlo.after_of_writes_sub hostOps6 _ Cert.KernelIdeal.GenP.hostOps6_writes (by decide : main_arg2 ∉ Cert.KernelIdeal.GenP.hostOps6_W)).trans <|
  (W16_of_ne m c main_arg2 (by decide)).trans <|
  (StableHlo.after_of_writes_sub hostOps5 _ Cert.KernelIdeal.GenP.hostOps5_writes (by decide : main_arg2 ∉ Cert.KernelIdeal.GenP.hostOps5_W)).trans <|
  (W14_of_ne m c main_arg2 (by decide)).trans <|
  (StableHlo.after_of_writes_sub hostOps4 _ Cert.KernelIdeal.GenP.hostOps4_writes (by decide : main_arg2 ∉ Cert.KernelIdeal.GenP.hostOps4_W)).trans <|
  (W12_of_ne m c main_arg2 (by decide)).trans <|
  (StableHlo.after_of_writes_sub hostOps3 _ Cert.KernelIdeal.GenP.hostOps3_writes (by decide : main_arg2 ∉ Cert.KernelIdeal.GenP.hostOps3_W)).trans <|
  (W10_of_ne m c main_arg2 (by decide)).trans <|
  (StableHlo.after_of_writes_sub hostOps2 _ Cert.KernelIdeal.GenP.hostOps2_writes (by decide : main_arg2 ∉ Cert.KernelIdeal.GenP.hostOps2_W)).trans <|
  (W8_of_ne m c main_arg2 (by decide)).trans <|
  (StableHlo.after_of_writes_sub hostOps1 _ Cert.KernelIdeal.GenP.hostOps1_writes (by decide : main_arg2 ∉ Cert.KernelIdeal.GenP.hostOps1_W)).trans <|
  ((W6_arr m c 1).trans (((dat0 (V5 m) c).arrAt_in 1 rfl _).trans (A_eq0 (V5 m) c 1))).trans <|
  (StableHlo.after_of_writes_sub hostOps0_4 _ Cert.KernelIdeal.GenP.hostOps0_4_writes (by decide : main_arg2 ∉ Cert.KernelIdeal.GenP.hostOps0_4_W)).trans <|
  (StableHlo.after_of_writes_sub hostOps0_3 _ Cert.KernelIdeal.GenP.hostOps0_3_writes (by decide : main_arg2 ∉ Cert.KernelIdeal.GenP.hostOps0_3_W)).trans <|
  (StableHlo.after_of_writes_sub hostOps0_2 _ Cert.KernelIdeal.GenP.hostOps0_2_writes (by decide : main_arg2 ∉ Cert.KernelIdeal.GenP.hostOps0_2_W)).trans <|
  (StableHlo.after_of_writes_sub hostOps0_1 _ Cert.KernelIdeal.GenP.hostOps0_1_writes (by decide : main_arg2 ∉ Cert.KernelIdeal.GenP.hostOps0_1_W)).trans <|
  (StableHlo.after_of_writes_sub hostOps0 _ Cert.KernelIdeal.GenP.hostOps0_writes (by decide : main_arg2 ∉ Cert.KernelIdeal.GenP.hostOps0_W)).trans rfl

theorem W34_main_arg3 (c : Dev nD) : W34 m c (Proc.devRef .tc main_arg3) = m ((c : Thread nD τ).loc main_arg3) :=
  (W34_of_ne m c main_arg3 (by decide)).trans <|
  (StableHlo.after_of_writes_sub hostOps14 _ Cert.KernelIdeal.GenP.hostOps14_writes (by decide : main_arg3 ∉ Cert.KernelIdeal.GenP.hostOps14_W)).trans <|
  (W32_of_ne m c main_arg3 (by decide)).trans <|
  (StableHlo.after_of_writes_sub hostOps13 _ Cert.KernelIdeal.GenP.hostOps13_writes (by decide : main_arg3 ∉ Cert.KernelIdeal.GenP.hostOps13_W)).trans <|
  (W30_of_ne m c main_arg3 (by decide)).trans <|
  (StableHlo.after_of_writes_sub hostOps12 _ Cert.KernelIdeal.GenP.hostOps12_writes (by decide : main_arg3 ∉ Cert.KernelIdeal.GenP.hostOps12_W)).trans <|
  (W28_of_ne m c main_arg3 (by decide)).trans <|
  (StableHlo.after_of_writes_sub hostOps11 _ Cert.KernelIdeal.GenP.hostOps11_writes (by decide : main_arg3 ∉ Cert.KernelIdeal.GenP.hostOps11_W)).trans <|
  (W26_of_ne m c main_arg3 (by decide)).trans <|
  (StableHlo.after_of_writes_sub hostOps10 _ Cert.KernelIdeal.GenP.hostOps10_writes (by decide : main_arg3 ∉ Cert.KernelIdeal.GenP.hostOps10_W)).trans <|
  (W24_of_ne m c main_arg3 (by decide)).trans <|
  (StableHlo.after_of_writes_sub hostOps9 _ Cert.KernelIdeal.GenP.hostOps9_writes (by decide : main_arg3 ∉ Cert.KernelIdeal.GenP.hostOps9_W)).trans <|
  (W22_of_ne m c main_arg3 (by decide)).trans <|
  (StableHlo.after_of_writes_sub hostOps8 _ Cert.KernelIdeal.GenP.hostOps8_writes (by decide : main_arg3 ∉ Cert.KernelIdeal.GenP.hostOps8_W)).trans <|
  (W20_of_ne m c main_arg3 (by decide)).trans <|
  (StableHlo.after_of_writes_sub hostOps7 _ Cert.KernelIdeal.GenP.hostOps7_writes (by decide : main_arg3 ∉ Cert.KernelIdeal.GenP.hostOps7_W)).trans <|
  (W18_of_ne m c main_arg3 (by decide)).trans <|
  (StableHlo.after_of_writes_sub hostOps6 _ Cert.KernelIdeal.GenP.hostOps6_writes (by decide : main_arg3 ∉ Cert.KernelIdeal.GenP.hostOps6_W)).trans <|
  (W16_of_ne m c main_arg3 (by decide)).trans <|
  (StableHlo.after_of_writes_sub hostOps5 _ Cert.KernelIdeal.GenP.hostOps5_writes (by decide : main_arg3 ∉ Cert.KernelIdeal.GenP.hostOps5_W)).trans <|
  (W14_of_ne m c main_arg3 (by decide)).trans <|
  (StableHlo.after_of_writes_sub hostOps4 _ Cert.KernelIdeal.GenP.hostOps4_writes (by decide : main_arg3 ∉ Cert.KernelIdeal.GenP.hostOps4_W)).trans <|
  (W12_of_ne m c main_arg3 (by decide)).trans <|
  (StableHlo.after_of_writes_sub hostOps3 _ Cert.KernelIdeal.GenP.hostOps3_writes (by decide : main_arg3 ∉ Cert.KernelIdeal.GenP.hostOps3_W)).trans <|
  (W10_of_ne m c main_arg3 (by decide)).trans <|
  (StableHlo.after_of_writes_sub hostOps2 _ Cert.KernelIdeal.GenP.hostOps2_writes (by decide : main_arg3 ∉ Cert.KernelIdeal.GenP.hostOps2_W)).trans <|
  (W8_of_ne m c main_arg3 (by decide)).trans <|
  (StableHlo.after_of_writes_sub hostOps1 _ Cert.KernelIdeal.GenP.hostOps1_writes (by decide : main_arg3 ∉ Cert.KernelIdeal.GenP.hostOps1_W)).trans <|
  (W6_of_ne m c main_arg3 (by decide)).trans <|
  (StableHlo.after_of_writes_sub hostOps0_4 _ Cert.KernelIdeal.GenP.hostOps0_4_writes (by decide : main_arg3 ∉ Cert.KernelIdeal.GenP.hostOps0_4_W)).trans <|
  (StableHlo.after_of_writes_sub hostOps0_3 _ Cert.KernelIdeal.GenP.hostOps0_3_writes (by decide : main_arg3 ∉ Cert.KernelIdeal.GenP.hostOps0_3_W)).trans <|
  (StableHlo.after_of_writes_sub hostOps0_2 _ Cert.KernelIdeal.GenP.hostOps0_2_writes (by decide : main_arg3 ∉ Cert.KernelIdeal.GenP.hostOps0_2_W)).trans <|
  (StableHlo.after_of_writes_sub hostOps0_1 _ Cert.KernelIdeal.GenP.hostOps0_1_writes (by decide : main_arg3 ∉ Cert.KernelIdeal.GenP.hostOps0_1_W)).trans <|
  (StableHlo.after_of_writes_sub hostOps0 _ Cert.KernelIdeal.GenP.hostOps0_writes (by decide : main_arg3 ∉ Cert.KernelIdeal.GenP.hostOps0_W)).trans rfl

theorem W34_main_arg4 (c : Dev nD) : W34 m c (Proc.devRef .tc main_arg4) = m ((c : Thread nD τ).loc main_arg4) :=
  (W34_of_ne m c main_arg4 (by decide)).trans <|
  (StableHlo.after_of_writes_sub hostOps14 _ Cert.KernelIdeal.GenP.hostOps14_writes (by decide : main_arg4 ∉ Cert.KernelIdeal.GenP.hostOps14_W)).trans <|
  (W32_of_ne m c main_arg4 (by decide)).trans <|
  (StableHlo.after_of_writes_sub hostOps13 _ Cert.KernelIdeal.GenP.hostOps13_writes (by decide : main_arg4 ∉ Cert.KernelIdeal.GenP.hostOps13_W)).trans <|
  (W30_of_ne m c main_arg4 (by decide)).trans <|
  (StableHlo.after_of_writes_sub hostOps12 _ Cert.KernelIdeal.GenP.hostOps12_writes (by decide : main_arg4 ∉ Cert.KernelIdeal.GenP.hostOps12_W)).trans <|
  (W28_of_ne m c main_arg4 (by decide)).trans <|
  (StableHlo.after_of_writes_sub hostOps11 _ Cert.KernelIdeal.GenP.hostOps11_writes (by decide : main_arg4 ∉ Cert.KernelIdeal.GenP.hostOps11_W)).trans <|
  (W26_of_ne m c main_arg4 (by decide)).trans <|
  (StableHlo.after_of_writes_sub hostOps10 _ Cert.KernelIdeal.GenP.hostOps10_writes (by decide : main_arg4 ∉ Cert.KernelIdeal.GenP.hostOps10_W)).trans <|
  (W24_of_ne m c main_arg4 (by decide)).trans <|
  (StableHlo.after_of_writes_sub hostOps9 _ Cert.KernelIdeal.GenP.hostOps9_writes (by decide : main_arg4 ∉ Cert.KernelIdeal.GenP.hostOps9_W)).trans <|
  (W22_of_ne m c main_arg4 (by decide)).trans <|
  (StableHlo.after_of_writes_sub hostOps8 _ Cert.KernelIdeal.GenP.hostOps8_writes (by decide : main_arg4 ∉ Cert.KernelIdeal.GenP.hostOps8_W)).trans <|
  (W20_of_ne m c main_arg4 (by decide)).trans <|
  (StableHlo.after_of_writes_sub hostOps7 _ Cert.KernelIdeal.GenP.hostOps7_writes (by decide : main_arg4 ∉ Cert.KernelIdeal.GenP.hostOps7_W)).trans <|
  (W18_of_ne m c main_arg4 (by decide)).trans <|
  (StableHlo.after_of_writes_sub hostOps6 _ Cert.KernelIdeal.GenP.hostOps6_writes (by decide : main_arg4 ∉ Cert.KernelIdeal.GenP.hostOps6_W)).trans <|
  (W16_of_ne m c main_arg4 (by decide)).trans <|
  (StableHlo.after_of_writes_sub hostOps5 _ Cert.KernelIdeal.GenP.hostOps5_writes (by decide : main_arg4 ∉ Cert.KernelIdeal.GenP.hostOps5_W)).trans <|
  (W14_of_ne m c main_arg4 (by decide)).trans <|
  (StableHlo.after_of_writes_sub hostOps4 _ Cert.KernelIdeal.GenP.hostOps4_writes (by decide : main_arg4 ∉ Cert.KernelIdeal.GenP.hostOps4_W)).trans <|
  (W12_of_ne m c main_arg4 (by decide)).trans <|
  (StableHlo.after_of_writes_sub hostOps3 _ Cert.KernelIdeal.GenP.hostOps3_writes (by decide : main_arg4 ∉ Cert.KernelIdeal.GenP.hostOps3_W)).trans <|
  (W10_of_ne m c main_arg4 (by decide)).trans <|
  (StableHlo.after_of_writes_sub hostOps2 _ Cert.KernelIdeal.GenP.hostOps2_writes (by decide : main_arg4 ∉ Cert.KernelIdeal.GenP.hostOps2_W)).trans <|
  (W8_of_ne m c main_arg4 (by decide)).trans <|
  (StableHlo.after_of_writes_sub hostOps1 _ Cert.KernelIdeal.GenP.hostOps1_writes (by decide : main_arg4 ∉ Cert.KernelIdeal.GenP.hostOps1_W)).trans <|
  (W6_of_ne m c main_arg4 (by decide)).trans <|
  (StableHlo.after_of_writes_sub hostOps0_4 _ Cert.KernelIdeal.GenP.hostOps0_4_writes (by decide : main_arg4 ∉ Cert.KernelIdeal.GenP.hostOps0_4_W)).trans <|
  (StableHlo.after_of_writes_sub hostOps0_3 _ Cert.KernelIdeal.GenP.hostOps0_3_writes (by decide : main_arg4 ∉ Cert.KernelIdeal.GenP.hostOps0_3_W)).trans <|
  (StableHlo.after_of_writes_sub hostOps0_2 _ Cert.KernelIdeal.GenP.hostOps0_2_writes (by decide : main_arg4 ∉ Cert.KernelIdeal.GenP.hostOps0_2_W)).trans <|
  (StableHlo.after_of_writes_sub hostOps0_1 _ Cert.KernelIdeal.GenP.hostOps0_1_writes (by decide : main_arg4 ∉ Cert.KernelIdeal.GenP.hostOps0_1_W)).trans <|
  (StableHlo.after_of_writes_sub hostOps0 _ Cert.KernelIdeal.GenP.hostOps0_writes (by decide : main_arg4 ∉ Cert.KernelIdeal.GenP.hostOps0_W)).trans rfl

theorem W34_main_arg5 (c : Dev nD) : W34 m c (Proc.devRef .tc main_arg5) = m ((c : Thread nD τ).loc main_arg5) :=
  (W34_of_ne m c main_arg5 (by decide)).trans <|
  (StableHlo.after_of_writes_sub hostOps14 _ Cert.KernelIdeal.GenP.hostOps14_writes (by decide : main_arg5 ∉ Cert.KernelIdeal.GenP.hostOps14_W)).trans <|
  (W32_of_ne m c main_arg5 (by decide)).trans <|
  (StableHlo.after_of_writes_sub hostOps13 _ Cert.KernelIdeal.GenP.hostOps13_writes (by decide : main_arg5 ∉ Cert.KernelIdeal.GenP.hostOps13_W)).trans <|
  (W30_of_ne m c main_arg5 (by decide)).trans <|
  (StableHlo.after_of_writes_sub hostOps12 _ Cert.KernelIdeal.GenP.hostOps12_writes (by decide : main_arg5 ∉ Cert.KernelIdeal.GenP.hostOps12_W)).trans <|
  (W28_of_ne m c main_arg5 (by decide)).trans <|
  (StableHlo.after_of_writes_sub hostOps11 _ Cert.KernelIdeal.GenP.hostOps11_writes (by decide : main_arg5 ∉ Cert.KernelIdeal.GenP.hostOps11_W)).trans <|
  (W26_of_ne m c main_arg5 (by decide)).trans <|
  (StableHlo.after_of_writes_sub hostOps10 _ Cert.KernelIdeal.GenP.hostOps10_writes (by decide : main_arg5 ∉ Cert.KernelIdeal.GenP.hostOps10_W)).trans <|
  (W24_of_ne m c main_arg5 (by decide)).trans <|
  (StableHlo.after_of_writes_sub hostOps9 _ Cert.KernelIdeal.GenP.hostOps9_writes (by decide : main_arg5 ∉ Cert.KernelIdeal.GenP.hostOps9_W)).trans <|
  (W22_of_ne m c main_arg5 (by decide)).trans <|
  (StableHlo.after_of_writes_sub hostOps8 _ Cert.KernelIdeal.GenP.hostOps8_writes (by decide : main_arg5 ∉ Cert.KernelIdeal.GenP.hostOps8_W)).trans <|
  (W20_of_ne m c main_arg5 (by decide)).trans <|
  (StableHlo.after_of_writes_sub hostOps7 _ Cert.KernelIdeal.GenP.hostOps7_writes (by decide : main_arg5 ∉ Cert.KernelIdeal.GenP.hostOps7_W)).trans <|
  (W18_of_ne m c main_arg5 (by decide)).trans <|
  (StableHlo.after_of_writes_sub hostOps6 _ Cert.KernelIdeal.GenP.hostOps6_writes (by decide : main_arg5 ∉ Cert.KernelIdeal.GenP.hostOps6_W)).trans <|
  (W16_of_ne m c main_arg5 (by decide)).trans <|
  (StableHlo.after_of_writes_sub hostOps5 _ Cert.KernelIdeal.GenP.hostOps5_writes (by decide : main_arg5 ∉ Cert.KernelIdeal.GenP.hostOps5_W)).trans <|
  (W14_of_ne m c main_arg5 (by decide)).trans <|
  (StableHlo.after_of_writes_sub hostOps4 _ Cert.KernelIdeal.GenP.hostOps4_writes (by decide : main_arg5 ∉ Cert.KernelIdeal.GenP.hostOps4_W)).trans <|
  (W12_of_ne m c main_arg5 (by decide)).trans <|
  (StableHlo.after_of_writes_sub hostOps3 _ Cert.KernelIdeal.GenP.hostOps3_writes (by decide : main_arg5 ∉ Cert.KernelIdeal.GenP.hostOps3_W)).trans <|
  (W10_of_ne m c main_arg5 (by decide)).trans <|
  (StableHlo.after_of_writes_sub hostOps2 _ Cert.KernelIdeal.GenP.hostOps2_writes (by decide : main_arg5 ∉ Cert.KernelIdeal.GenP.hostOps2_W)).trans <|
  (W8_of_ne m c main_arg5 (by decide)).trans <|
  (StableHlo.after_of_writes_sub hostOps1 _ Cert.KernelIdeal.GenP.hostOps1_writes (by decide : main_arg5 ∉ Cert.KernelIdeal.GenP.hostOps1_W)).trans <|
  (W6_of_ne m c main_arg5 (by decide)).trans <|
  (StableHlo.after_of_writes_sub hostOps0_4 _ Cert.KernelIdeal.GenP.hostOps0_4_writes (by decide : main_arg5 ∉ Cert.KernelIdeal.GenP.hostOps0_4_W)).trans <|
  (StableHlo.after_of_writes_sub hostOps0_3 _ Cert.KernelIdeal.GenP.hostOps0_3_writes (by decide : main_arg5 ∉ Cert.KernelIdeal.GenP.hostOps0_3_W)).trans <|
  (StableHlo.after_of_writes_sub hostOps0_2 _ Cert.KernelIdeal.GenP.hostOps0_2_writes (by decide : main_arg5 ∉ Cert.KernelIdeal.GenP.hostOps0_2_W)).trans <|
  (StableHlo.after_of_writes_sub hostOps0_1 _ Cert.KernelIdeal.GenP.hostOps0_1_writes (by decide : main_arg5 ∉ Cert.KernelIdeal.GenP.hostOps0_1_W)).trans <|
  (StableHlo.after_of_writes_sub hostOps0 _ Cert.KernelIdeal.GenP.hostOps0_writes (by decide : main_arg5 ∉ Cert.KernelIdeal.GenP.hostOps0_W)).trans rfl

theorem W34_main_arg6 (c : Dev nD) : W34 m c (Proc.devRef .tc main_arg6) = m ((c : Thread nD τ).loc main_arg6) :=
  (W34_of_ne m c main_arg6 (by decide)).trans <|
  (StableHlo.after_of_writes_sub hostOps14 _ Cert.KernelIdeal.GenP.hostOps14_writes (by decide : main_arg6 ∉ Cert.KernelIdeal.GenP.hostOps14_W)).trans <|
  (W32_of_ne m c main_arg6 (by decide)).trans <|
  (StableHlo.after_of_writes_sub hostOps13 _ Cert.KernelIdeal.GenP.hostOps13_writes (by decide : main_arg6 ∉ Cert.KernelIdeal.GenP.hostOps13_W)).trans <|
  (W30_of_ne m c main_arg6 (by decide)).trans <|
  (StableHlo.after_of_writes_sub hostOps12 _ Cert.KernelIdeal.GenP.hostOps12_writes (by decide : main_arg6 ∉ Cert.KernelIdeal.GenP.hostOps12_W)).trans <|
  (W28_of_ne m c main_arg6 (by decide)).trans <|
  (StableHlo.after_of_writes_sub hostOps11 _ Cert.KernelIdeal.GenP.hostOps11_writes (by decide : main_arg6 ∉ Cert.KernelIdeal.GenP.hostOps11_W)).trans <|
  (W26_of_ne m c main_arg6 (by decide)).trans <|
  (StableHlo.after_of_writes_sub hostOps10 _ Cert.KernelIdeal.GenP.hostOps10_writes (by decide : main_arg6 ∉ Cert.KernelIdeal.GenP.hostOps10_W)).trans <|
  (W24_of_ne m c main_arg6 (by decide)).trans <|
  (StableHlo.after_of_writes_sub hostOps9 _ Cert.KernelIdeal.GenP.hostOps9_writes (by decide : main_arg6 ∉ Cert.KernelIdeal.GenP.hostOps9_W)).trans <|
  (W22_of_ne m c main_arg6 (by decide)).trans <|
  (StableHlo.after_of_writes_sub hostOps8 _ Cert.KernelIdeal.GenP.hostOps8_writes (by decide : main_arg6 ∉ Cert.KernelIdeal.GenP.hostOps8_W)).trans <|
  (W20_of_ne m c main_arg6 (by decide)).trans <|
  (StableHlo.after_of_writes_sub hostOps7 _ Cert.KernelIdeal.GenP.hostOps7_writes (by decide : main_arg6 ∉ Cert.KernelIdeal.GenP.hostOps7_W)).trans <|
  (W18_of_ne m c main_arg6 (by decide)).trans <|
  (StableHlo.after_of_writes_sub hostOps6 _ Cert.KernelIdeal.GenP.hostOps6_writes (by decide : main_arg6 ∉ Cert.KernelIdeal.GenP.hostOps6_W)).trans <|
  (W16_of_ne m c main_arg6 (by decide)).trans <|
  (StableHlo.after_of_writes_sub hostOps5 _ Cert.KernelIdeal.GenP.hostOps5_writes (by decide : main_arg6 ∉ Cert.KernelIdeal.GenP.hostOps5_W)).trans <|
  (W14_of_ne m c main_arg6 (by decide)).trans <|
  (StableHlo.after_of_writes_sub hostOps4 _ Cert.KernelIdeal.GenP.hostOps4_writes (by decide : main_arg6 ∉ Cert.KernelIdeal.GenP.hostOps4_W)).trans <|
  (W12_of_ne m c main_arg6 (by decide)).trans <|
  (StableHlo.after_of_writes_sub hostOps3 _ Cert.KernelIdeal.GenP.hostOps3_writes (by decide : main_arg6 ∉ Cert.KernelIdeal.GenP.hostOps3_W)).trans <|
  (W10_of_ne m c main_arg6 (by decide)).trans <|
  (StableHlo.after_of_writes_sub hostOps2 _ Cert.KernelIdeal.GenP.hostOps2_writes (by decide : main_arg6 ∉ Cert.KernelIdeal.GenP.hostOps2_W)).trans <|
  (W8_of_ne m c main_arg6 (by decide)).trans <|
  (StableHlo.after_of_writes_sub hostOps1 _ Cert.KernelIdeal.GenP.hostOps1_writes (by decide : main_arg6 ∉ Cert.KernelIdeal.GenP.hostOps1_W)).trans <|
  (W6_of_ne m c main_arg6 (by decide)).trans <|
  (StableHlo.after_of_writes_sub hostOps0_4 _ Cert.KernelIdeal.GenP.hostOps0_4_writes (by decide : main_arg6 ∉ Cert.KernelIdeal.GenP.hostOps0_4_W)).trans <|
  (StableHlo.after_of_writes_sub hostOps0_3 _ Cert.KernelIdeal.GenP.hostOps0_3_writes (by decide : main_arg6 ∉ Cert.KernelIdeal.GenP.hostOps0_3_W)).trans <|
  (StableHlo.after_of_writes_sub hostOps0_2 _ Cert.KernelIdeal.GenP.hostOps0_2_writes (by decide : main_arg6 ∉ Cert.KernelIdeal.GenP.hostOps0_2_W)).trans <|
  (StableHlo.after_of_writes_sub hostOps0_1 _ Cert.KernelIdeal.GenP.hostOps0_1_writes (by decide : main_arg6 ∉ Cert.KernelIdeal.GenP.hostOps0_1_W)).trans <|
  (StableHlo.after_of_writes_sub hostOps0 _ Cert.KernelIdeal.GenP.hostOps0_writes (by decide : main_arg6 ∉ Cert.KernelIdeal.GenP.hostOps0_W)).trans rfl

theorem W34_main_arg7 (c : Dev nD) : W34 m c (Proc.devRef .tc main_arg7) = m ((c : Thread nD τ).loc main_arg7) :=
  (W34_of_ne m c main_arg7 (by decide)).trans <|
  (StableHlo.after_of_writes_sub hostOps14 _ Cert.KernelIdeal.GenP.hostOps14_writes (by decide : main_arg7 ∉ Cert.KernelIdeal.GenP.hostOps14_W)).trans <|
  (W32_of_ne m c main_arg7 (by decide)).trans <|
  (StableHlo.after_of_writes_sub hostOps13 _ Cert.KernelIdeal.GenP.hostOps13_writes (by decide : main_arg7 ∉ Cert.KernelIdeal.GenP.hostOps13_W)).trans <|
  (W30_of_ne m c main_arg7 (by decide)).trans <|
  (StableHlo.after_of_writes_sub hostOps12 _ Cert.KernelIdeal.GenP.hostOps12_writes (by decide : main_arg7 ∉ Cert.KernelIdeal.GenP.hostOps12_W)).trans <|
  (W28_of_ne m c main_arg7 (by decide)).trans <|
  (StableHlo.after_of_writes_sub hostOps11 _ Cert.KernelIdeal.GenP.hostOps11_writes (by decide : main_arg7 ∉ Cert.KernelIdeal.GenP.hostOps11_W)).trans <|
  (W26_of_ne m c main_arg7 (by decide)).trans <|
  (StableHlo.after_of_writes_sub hostOps10 _ Cert.KernelIdeal.GenP.hostOps10_writes (by decide : main_arg7 ∉ Cert.KernelIdeal.GenP.hostOps10_W)).trans <|
  (W24_of_ne m c main_arg7 (by decide)).trans <|
  (StableHlo.after_of_writes_sub hostOps9 _ Cert.KernelIdeal.GenP.hostOps9_writes (by decide : main_arg7 ∉ Cert.KernelIdeal.GenP.hostOps9_W)).trans <|
  (W22_of_ne m c main_arg7 (by decide)).trans <|
  (StableHlo.after_of_writes_sub hostOps8 _ Cert.KernelIdeal.GenP.hostOps8_writes (by decide : main_arg7 ∉ Cert.KernelIdeal.GenP.hostOps8_W)).trans <|
  (W20_of_ne m c main_arg7 (by decide)).trans <|
  (StableHlo.after_of_writes_sub hostOps7 _ Cert.KernelIdeal.GenP.hostOps7_writes (by decide : main_arg7 ∉ Cert.KernelIdeal.GenP.hostOps7_W)).trans <|
  (W18_of_ne m c main_arg7 (by decide)).trans <|
  (StableHlo.after_of_writes_sub hostOps6 _ Cert.KernelIdeal.GenP.hostOps6_writes (by decide : main_arg7 ∉ Cert.KernelIdeal.GenP.hostOps6_W)).trans <|
  (W16_of_ne m c main_arg7 (by decide)).trans <|
  (StableHlo.after_of_writes_sub hostOps5 _ Cert.KernelIdeal.GenP.hostOps5_writes (by decide : main_arg7 ∉ Cert.KernelIdeal.GenP.hostOps5_W)).trans <|
  (W14_of_ne m c main_arg7 (by decide)).trans <|
  (StableHlo.after_of_writes_sub hostOps4 _ Cert.KernelIdeal.GenP.hostOps4_writes (by decide : main_arg7 ∉ Cert.KernelIdeal.GenP.hostOps4_W)).trans <|
  (W12_of_ne m c main_arg7 (by decide)).trans <|
  (StableHlo.after_of_writes_sub hostOps3 _ Cert.KernelIdeal.GenP.hostOps3_writes (by decide : main_arg7 ∉ Cert.KernelIdeal.GenP.hostOps3_W)).trans <|
  (W10_of_ne m c main_arg7 (by decide)).trans <|
  (StableHlo.after_of_writes_sub hostOps2 _ Cert.KernelIdeal.GenP.hostOps2_writes (by decide : main_arg7 ∉ Cert.KernelIdeal.GenP.hostOps2_W)).trans <|
  (W8_of_ne m c main_arg7 (by decide)).trans <|
  (StableHlo.after_of_writes_sub hostOps1 _ Cert.KernelIdeal.GenP.hostOps1_writes (by decide : main_arg7 ∉ Cert.KernelIdeal.GenP.hostOps1_W)).trans <|
  (W6_of_ne m c main_arg7 (by decide)).trans <|
  (StableHlo.after_of_writes_sub hostOps0_4 _ Cert.KernelIdeal.GenP.hostOps0_4_writes (by decide : main_arg7 ∉ Cert.KernelIdeal.GenP.hostOps0_4_W)).trans <|
  (StableHlo.after_of_writes_sub hostOps0_3 _ Cert.KernelIdeal.GenP.hostOps0_3_writes (by decide : main_arg7 ∉ Cert.KernelIdeal.GenP.hostOps0_3_W)).trans <|
  (StableHlo.after_of_writes_sub hostOps0_2 _ Cert.KernelIdeal.GenP.hostOps0_2_writes (by decide : main_arg7 ∉ Cert.KernelIdeal.GenP.hostOps0_2_W)).trans <|
  (StableHlo.after_of_writes_sub hostOps0_1 _ Cert.KernelIdeal.GenP.hostOps0_1_writes (by decide : main_arg7 ∉ Cert.KernelIdeal.GenP.hostOps0_1_W)).trans <|
  (StableHlo.after_of_writes_sub hostOps0 _ Cert.KernelIdeal.GenP.hostOps0_writes (by decide : main_arg7 ∉ Cert.KernelIdeal.GenP.hostOps0_W)).trans rfl

theorem W34_main_arg8 (c : Dev nD) : W34 m c (Proc.devRef .tc main_arg8) = m ((c : Thread nD τ).loc main_arg8) :=
  (W34_of_ne m c main_arg8 (by decide)).trans <|
  (StableHlo.after_of_writes_sub hostOps14 _ Cert.KernelIdeal.GenP.hostOps14_writes (by decide : main_arg8 ∉ Cert.KernelIdeal.GenP.hostOps14_W)).trans <|
  (W32_of_ne m c main_arg8 (by decide)).trans <|
  (StableHlo.after_of_writes_sub hostOps13 _ Cert.KernelIdeal.GenP.hostOps13_writes (by decide : main_arg8 ∉ Cert.KernelIdeal.GenP.hostOps13_W)).trans <|
  (W30_of_ne m c main_arg8 (by decide)).trans <|
  (StableHlo.after_of_writes_sub hostOps12 _ Cert.KernelIdeal.GenP.hostOps12_writes (by decide : main_arg8 ∉ Cert.KernelIdeal.GenP.hostOps12_W)).trans <|
  (W28_of_ne m c main_arg8 (by decide)).trans <|
  (StableHlo.after_of_writes_sub hostOps11 _ Cert.KernelIdeal.GenP.hostOps11_writes (by decide : main_arg8 ∉ Cert.KernelIdeal.GenP.hostOps11_W)).trans <|
  (W26_of_ne m c main_arg8 (by decide)).trans <|
  (StableHlo.after_of_writes_sub hostOps10 _ Cert.KernelIdeal.GenP.hostOps10_writes (by decide : main_arg8 ∉ Cert.KernelIdeal.GenP.hostOps10_W)).trans <|
  (W24_of_ne m c main_arg8 (by decide)).trans <|
  (StableHlo.after_of_writes_sub hostOps9 _ Cert.KernelIdeal.GenP.hostOps9_writes (by decide : main_arg8 ∉ Cert.KernelIdeal.GenP.hostOps9_W)).trans <|
  (W22_of_ne m c main_arg8 (by decide)).trans <|
  (StableHlo.after_of_writes_sub hostOps8 _ Cert.KernelIdeal.GenP.hostOps8_writes (by decide : main_arg8 ∉ Cert.KernelIdeal.GenP.hostOps8_W)).trans <|
  (W20_of_ne m c main_arg8 (by decide)).trans <|
  (StableHlo.after_of_writes_sub hostOps7 _ Cert.KernelIdeal.GenP.hostOps7_writes (by decide : main_arg8 ∉ Cert.KernelIdeal.GenP.hostOps7_W)).trans <|
  (W18_of_ne m c main_arg8 (by decide)).trans <|
  (StableHlo.after_of_writes_sub hostOps6 _ Cert.KernelIdeal.GenP.hostOps6_writes (by decide : main_arg8 ∉ Cert.KernelIdeal.GenP.hostOps6_W)).trans <|
  (W16_of_ne m c main_arg8 (by decide)).trans <|
  (StableHlo.after_of_writes_sub hostOps5 _ Cert.KernelIdeal.GenP.hostOps5_writes (by decide : main_arg8 ∉ Cert.KernelIdeal.GenP.hostOps5_W)).trans <|
  (W14_of_ne m c main_arg8 (by decide)).trans <|
  (StableHlo.after_of_writes_sub hostOps4 _ Cert.KernelIdeal.GenP.hostOps4_writes (by decide : main_arg8 ∉ Cert.KernelIdeal.GenP.hostOps4_W)).trans <|
  (W12_of_ne m c main_arg8 (by decide)).trans <|
  (StableHlo.after_of_writes_sub hostOps3 _ Cert.KernelIdeal.GenP.hostOps3_writes (by decide : main_arg8 ∉ Cert.KernelIdeal.GenP.hostOps3_W)).trans <|
  (W10_of_ne m c main_arg8 (by decide)).trans <|
  (StableHlo.after_of_writes_sub hostOps2 _ Cert.KernelIdeal.GenP.hostOps2_writes (by decide : main_arg8 ∉ Cert.KernelIdeal.GenP.hostOps2_W)).trans <|
  (W8_of_ne m c main_arg8 (by decide)).trans <|
  (StableHlo.after_of_writes_sub hostOps1 _ Cert.KernelIdeal.GenP.hostOps1_writes (by decide : main_arg8 ∉ Cert.KernelIdeal.GenP.hostOps1_W)).trans <|
  (W6_of_ne m c main_arg8 (by decide)).trans <|
  (StableHlo.after_of_writes_sub hostOps0_4 _ Cert.KernelIdeal.GenP.hostOps0_4_writes (by decide : main_arg8 ∉ Cert.KernelIdeal.GenP.hostOps0_4_W)).trans <|
  (StableHlo.after_of_writes_sub hostOps0_3 _ Cert.KernelIdeal.GenP.hostOps0_3_writes (by decide : main_arg8 ∉ Cert.KernelIdeal.GenP.hostOps0_3_W)).trans <|
  (StableHlo.after_of_writes_sub hostOps0_2 _ Cert.KernelIdeal.GenP.hostOps0_2_writes (by decide : main_arg8 ∉ Cert.KernelIdeal.GenP.hostOps0_2_W)).trans <|
  (StableHlo.after_of_writes_sub hostOps0_1 _ Cert.KernelIdeal.GenP.hostOps0_1_writes (by decide : main_arg8 ∉ Cert.KernelIdeal.GenP.hostOps0_1_W)).trans <|
  (StableHlo.after_of_writes_sub hostOps0 _ Cert.KernelIdeal.GenP.hostOps0_writes (by decide : main_arg8 ∉ Cert.KernelIdeal.GenP.hostOps0_W)).trans rfl

theorem W34_main_arg9 (c : Dev nD) : W34 m c (Proc.devRef .tc main_arg9) = m ((c : Thread nD τ).loc main_arg9) :=
  (W34_of_ne m c main_arg9 (by decide)).trans <|
  (StableHlo.after_of_writes_sub hostOps14 _ Cert.KernelIdeal.GenP.hostOps14_writes (by decide : main_arg9 ∉ Cert.KernelIdeal.GenP.hostOps14_W)).trans <|
  (W32_of_ne m c main_arg9 (by decide)).trans <|
  (StableHlo.after_of_writes_sub hostOps13 _ Cert.KernelIdeal.GenP.hostOps13_writes (by decide : main_arg9 ∉ Cert.KernelIdeal.GenP.hostOps13_W)).trans <|
  (W30_of_ne m c main_arg9 (by decide)).trans <|
  (StableHlo.after_of_writes_sub hostOps12 _ Cert.KernelIdeal.GenP.hostOps12_writes (by decide : main_arg9 ∉ Cert.KernelIdeal.GenP.hostOps12_W)).trans <|
  (W28_of_ne m c main_arg9 (by decide)).trans <|
  (StableHlo.after_of_writes_sub hostOps11 _ Cert.KernelIdeal.GenP.hostOps11_writes (by decide : main_arg9 ∉ Cert.KernelIdeal.GenP.hostOps11_W)).trans <|
  (W26_of_ne m c main_arg9 (by decide)).trans <|
  (StableHlo.after_of_writes_sub hostOps10 _ Cert.KernelIdeal.GenP.hostOps10_writes (by decide : main_arg9 ∉ Cert.KernelIdeal.GenP.hostOps10_W)).trans <|
  (W24_of_ne m c main_arg9 (by decide)).trans <|
  (StableHlo.after_of_writes_sub hostOps9 _ Cert.KernelIdeal.GenP.hostOps9_writes (by decide : main_arg9 ∉ Cert.KernelIdeal.GenP.hostOps9_W)).trans <|
  (W22_of_ne m c main_arg9 (by decide)).trans <|
  (StableHlo.after_of_writes_sub hostOps8 _ Cert.KernelIdeal.GenP.hostOps8_writes (by decide : main_arg9 ∉ Cert.KernelIdeal.GenP.hostOps8_W)).trans <|
  (W20_of_ne m c main_arg9 (by decide)).trans <|
  (StableHlo.after_of_writes_sub hostOps7 _ Cert.KernelIdeal.GenP.hostOps7_writes (by decide : main_arg9 ∉ Cert.KernelIdeal.GenP.hostOps7_W)).trans <|
  (W18_of_ne m c main_arg9 (by decide)).trans <|
  (StableHlo.after_of_writes_sub hostOps6 _ Cert.KernelIdeal.GenP.hostOps6_writes (by decide : main_arg9 ∉ Cert.KernelIdeal.GenP.hostOps6_W)).trans <|
  (W16_of_ne m c main_arg9 (by decide)).trans <|
  (StableHlo.after_of_writes_sub hostOps5 _ Cert.KernelIdeal.GenP.hostOps5_writes (by decide : main_arg9 ∉ Cert.KernelIdeal.GenP.hostOps5_W)).trans <|
  (W14_of_ne m c main_arg9 (by decide)).trans <|
  (StableHlo.after_of_writes_sub hostOps4 _ Cert.KernelIdeal.GenP.hostOps4_writes (by decide : main_arg9 ∉ Cert.KernelIdeal.GenP.hostOps4_W)).trans <|
  (W12_of_ne m c main_arg9 (by decide)).trans <|
  (StableHlo.after_of_writes_sub hostOps3 _ Cert.KernelIdeal.GenP.hostOps3_writes (by decide : main_arg9 ∉ Cert.KernelIdeal.GenP.hostOps3_W)).trans <|
  (W10_of_ne m c main_arg9 (by decide)).trans <|
  (StableHlo.after_of_writes_sub hostOps2 _ Cert.KernelIdeal.GenP.hostOps2_writes (by decide : main_arg9 ∉ Cert.KernelIdeal.GenP.hostOps2_W)).trans <|
  (W8_of_ne m c main_arg9 (by decide)).trans <|
  (StableHlo.after_of_writes_sub hostOps1 _ Cert.KernelIdeal.GenP.hostOps1_writes (by decide : main_arg9 ∉ Cert.KernelIdeal.GenP.hostOps1_W)).trans <|
  (W6_of_ne m c main_arg9 (by decide)).trans <|
  (StableHlo.after_of_writes_sub hostOps0_4 _ Cert.KernelIdeal.GenP.hostOps0_4_writes (by decide : main_arg9 ∉ Cert.KernelIdeal.GenP.hostOps0_4_W)).trans <|
  (StableHlo.after_of_writes_sub hostOps0_3 _ Cert.KernelIdeal.GenP.hostOps0_3_writes (by decide : main_arg9 ∉ Cert.KernelIdeal.GenP.hostOps0_3_W)).trans <|
  (StableHlo.after_of_writes_sub hostOps0_2 _ Cert.KernelIdeal.GenP.hostOps0_2_writes (by decide : main_arg9 ∉ Cert.KernelIdeal.GenP.hostOps0_2_W)).trans <|
  (StableHlo.after_of_writes_sub hostOps0_1 _ Cert.KernelIdeal.GenP.hostOps0_1_writes (by decide : main_arg9 ∉ Cert.KernelIdeal.GenP.hostOps0_1_W)).trans <|
  (StableHlo.after_of_writes_sub hostOps0 _ Cert.KernelIdeal.GenP.hostOps0_writes (by decide : main_arg9 ∉ Cert.KernelIdeal.GenP.hostOps0_W)).trans rfl

end Cert.KernelIdeal.Hand

end
-- ==== Proof.Ref.Ops.lean ====
import proofs.«114689_j15281493639468_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's @main as one straight line of host operations. The printed program is seven windows of
    statements, three of them calling the outlined functions `_where` (twice, in the prelude) and `_var` (once a layer, itself
    calling `_where_0`); a call is the callee's body over the call's record of buffers, so here each call's operations are
    listed in place over that record. The line is cut into twelve consecutive pieces at the union of the printed windows'
    ends and the layers' ends, so that both a window and a layer are concatenations of whole pieces. -/

/-- Operations 1 … 60 of 510: the shared prelude: the two index vectors with the self loops appended, the degree by a scatter of ones, its inverse square root, and the edge weights. -/
abbrev q0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x3F800000#32),
    StableHlo.unary main_cst_1 main_v11 (broadcastInDim S3300000 ![] bcast_S_S3300000 : (⟨S_, .f32⟩ : BufTy).Contents (Elt F) → (⟨S3300000, .f32⟩ : BufTy).Contents (Elt F)),
    StableHlo.nullary main_cst_2 (constant S_ .f32 0x00000000#32),
    StableHlo.unary main_cst_2 main_v12 (broadcastInDim S100000 ![] bcast_S_S100000 : (⟨S_, .f32⟩ : BufTy).Contents (Elt F) → (⟨S100000, .f32⟩ : BufTy).Contents (Elt F)),
    StableHlo.unary main_v6 main_v13 (broadcastInDim S3300000x1 ![0] bcast_S3300000_S3300000x1_0 : (⟨S3300000, .i32⟩ : BufTy).Contents (Elt F) → (⟨S3300000x1, .i32⟩ : BufTy).Contents (Elt F)),
    StableHlo.ternary main_v12 main_v13 main_v11 main_v14 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v14 main_v15 main_v16 (cmpf .ogt : (⟨S100000, .f32⟩ : BufTy).Contents (Elt F) → (⟨S100000, .f32⟩ : BufTy).Contents (Elt F) → (⟨S100000, .i1⟩ : BufTy).Contents (Elt F)),
    StableHlo.nullary main_cst_4 (constant S_ .f32 0x3F800000#32),
    StableHlo.unary main_cst_4 main_v17 (broadcastInDim S100000 ![] bcast_S_S100000 : (⟨S_, .f32⟩ : BufTy).Contents (Elt F) → (⟨S100000, .f32⟩ : BufTy).Contents (Elt F)),
    StableHlo.binary main_v14 main_v17 main_v18 (maximumf : (⟨S100000, .f32⟩ : BufTy).Contents (Elt F) → (⟨S100000, .f32⟩ : BufTy).Contents (Elt F) → (⟨S100000, .f32⟩ : BufTy).Contents (Elt F)),
    StableHlo.binary main_v10 main_v18 main_v19 (Host.divf : (⟨S100000, .f32⟩ : BufTy).Contents (Elt F) → (⟨S100000, .f32⟩ : BufTy).Contents (Elt F) → (⟨S100000, .f32⟩ : BufTy).Contents (Elt F)),
    StableHlo.nullary main_cst_5 (constant S_ .f32 0x00000000#32),
    StableHlo.TRef.unary (.of main_cst_5) main_call0.v0 id,
    StableHlo.TRef.unary main_call0.v0 main_call0.v1 (broadcastInDim S100000 ![] bcast_S_S100000),
    StableHlo.TRef.ternary (.of main_v16) (.of main_v19) main_call0.v1 main_call0.v2 select,
    StableHlo.nullary main_cst_6 (constant S_ .f32 0x00000000#32),
    StableHlo.unary main_cst_6 main_v21 (broadcastInDim S100000 ![] bcast_S_S100000 : (⟨S_, .f32⟩ : BufTy).Contents (Elt F) → (⟨S100000, .f32⟩ : BufTy).Contents (Elt F)),
    StableHlo.binary main_v20 main_v21 main_v22 (cmpf .ogt : (⟨S100000, .f32⟩ : BufTy).Contents (Elt F) → (⟨S100000, .f32⟩ : BufTy).Contents (Elt F) → (⟨S100000, .i1⟩ : BufTy).Contents (Elt F)),
    StableHlo.nullary main_cst_7 (constant S_ .f32 0xBF000000#32),
    StableHlo.unary main_cst_7 main_v23 (broadcastInDim S100000 ![] bcast_S_S100000 : (⟨S_, .f32⟩ : BufTy).Contents (Elt F) → (⟨S100000, .f32⟩ : BufTy).Contents (Elt F)),
    StableHlo.binary main_v20 main_v23 main_v24 (Host.powf : (⟨S100000, .f32⟩ : BufTy).Contents (Elt F) → (⟨S100000, .f32⟩ : BufTy).Contents (Elt F) → (⟨S100000, .f32⟩ : BufTy).Contents (Elt F)),
    StableHlo.nullary main_cst_8 (constant S_ .f32 0x00000000#32),
    StableHlo.TRef.unary (.of main_cst_8) main_call1.v0 id,
    StableHlo.TRef.unary main_call1.v0 main_call1.v1 (broadcastInDim S100000 ![] bcast_S_S100000),
    StableHlo.TRef.ternary (.of main_v22) (.of main_v24) main_call1.v1 main_call1.v2 select,
    StableHlo.nullary main_c (constantI S_ 32 0#32),
    StableHlo.unary main_c main_v26 (broadcastInDim S3300000 ![] bcast_S_S3300000 : (⟨S_, .i32⟩ : BufTy).Contents (Elt F) → (⟨S3300000, .i32⟩ : BufTy).Contents (Elt F)),
    StableHlo.binary main_v3 main_v26 main_v27 (cmpi .slt : (⟨S3300000, .i32⟩ : BufTy).Contents (Elt F) → (⟨S3300000, .i32⟩ : BufTy).Contents (Elt F) → (⟨S3300000, .i1⟩ : BufTy).Contents (Elt F)),
    StableHlo.nullary main_c_9 (constantI S_ 32 100000#32),
    StableHlo.unary main_c_9 main_v28 (broadcastInDim S3300000 ![] bcast_S_S3300000 : (⟨S_, .i32⟩ : BufTy).Contents (Elt F) → (⟨S3300000, .i32⟩ : BufTy).Contents (Elt F)),
    StableHlo.binary main_v3 main_v28 main_v29 (addi : (⟨S3300000, .i32⟩ : BufTy).Contents (Elt F) → (⟨S3300000, .i32⟩ : BufTy).Contents (Elt F) → (⟨S3300000, .i32⟩ : BufTy).Contents (Elt F)),
    StableHlo.ternary main_v27 main_v29 main_v3 main_v30 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v30 main_v31 (broadcastInDim S3300000x1 ![0] bcast_S3300000_S3300000x1_0 : (⟨S3300000, .i32⟩ : BufTy).Contents (Elt F) → (⟨S3300000x1, .i32⟩ : BufTy).Contents (Elt F)),
    StableHlo.binary main_v25 main_v31 main_v32 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v32 main_v7 main_v33 (mulf : (⟨S3300000, .f32⟩ : BufTy).Contents (Elt F) → (⟨S3300000, .f32⟩ : BufTy).Contents (Elt F) → (⟨S3300000, .f32⟩ : BufTy).Contents (Elt F)),
    StableHlo.nullary main_c_10 (constantI S_ 32 0#32),
    StableHlo.unary main_c_10 main_v34 (broadcastInDim S3300000 ![] bcast_S_S3300000 : (⟨S_, .i32⟩ : BufTy).Contents (Elt F) → (⟨S3300000, .i32⟩ : BufTy).Contents (Elt F)),
    StableHlo.binary main_v6 main_v34 main_v35 (cmpi .slt : (⟨S3300000, .i32⟩ : BufTy).Contents (Elt F) → (⟨S3300000, .i32⟩ : BufTy).Contents (Elt F) → (⟨S3300000, .i1⟩ : BufTy).Contents (Elt F)),
    StableHlo.nullary main_c_11 (constantI S_ 32 100000#32),
    StableHlo.unary main_c_11 main_v36 (broadcastInDim S3300000 ![] bcast_S_S3300000 : (⟨S_, .i32⟩ : BufTy).Contents (Elt F) → (⟨S3300000, .i32⟩ : BufTy).Contents (Elt F)),
    StableHlo.binary main_v6 main_v36 main_v37 (addi : (⟨S3300000, .i32⟩ : BufTy).Contents (Elt F) → (⟨S3300000, .i32⟩ : BufTy).Contents (Elt F) → (⟨S3300000, .i32⟩ : BufTy).Contents (Elt F)),
    StableHlo.ternary main_v35 main_v37 main_v6 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v38 main_v39 (broadcastInDim S3300000x1 ![0] bcast_S3300000_S3300000x1_0 : (⟨S3300000, .i32⟩ : BufTy).Contents (Elt F) → (⟨S3300000x1, .i32⟩ : BufTy).Contents (Elt F)),
    StableHlo.binary main_v25 main_v39 main_v40 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v33 main_v40 main_v41 (mulf : (⟨S3300000, .f32⟩ : BufTy).Contents (Elt F) → (⟨S3300000, .f32⟩ : BufTy).Contents (Elt F) → (⟨S3300000, .f32⟩ : BufTy).Contents (Elt F)) ]

/-- Operations 61 … 64 of 510: the first four operations of layer 0: the input product and the first bias row. -/
abbrev q1 : List (HloOp τ sig (Elt F)) :=
  [ StableHlo.binary main_arg0 main_arg2 main_v42 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    StableHlo.unary main_arg4 main_v43 ((extractStridedSlice S1x32 ![0, 0] · slices_S5x32_S1x32_0_0) : (⟨S5x32, .f32⟩ : BufTy).Contents (Elt F) → (⟨S1x32, .f32⟩ : BufTy).Contents (Elt F)),
    StableHlo.reshape main_v43 main_v44 rfl shapeCasts_S1x32_S32,
    StableHlo.unary main_v44 main_v45 (broadcastInDim S1x32 ![1] bcast_S32_S1x32_1 : (⟨S32, .f32⟩ : BufTy).Contents (Elt F) → (⟨S1x32, .f32⟩ : BufTy).Contents (Elt F)) ]

/-- Operations 65 … 145 of 510: layer 0 from the bias's broadcast to the last broadcast of its shift row. -/
abbrev q2 : List (HloOp τ sig (Elt F)) :=
  [ StableHlo.unary main_v45 main_v46 (broadcastInDim S100000x32 ![0, 1] bcast_S1x32_S100000x32_0_1 : (⟨S1x32, .f32⟩ : BufTy).Contents (Elt F) → (⟨S100000x32, .f32⟩ : BufTy).Contents (Elt F)),
    StableHlo.binary main_v42 main_v46 main_v47 (addf : (⟨S100000x32, .f32⟩ : BufTy).Contents (Elt F) → (⟨S100000x32, .f32⟩ : BufTy).Contents (Elt F) → (⟨S100000x32, .f32⟩ : BufTy).Contents (Elt F)),
    StableHlo.nullary main_cst_12 (constant S_ .f32 0x00000000#32),
    StableHlo.unary main_cst_12 main_v48 (broadcastInDim S100000x32 ![] bcast_S_S100000x32 : (⟨S_, .f32⟩ : BufTy).Contents (Elt F) → (⟨S100000x32, .f32⟩ : BufTy).Contents (Elt F)),
    StableHlo.binary main_v47 main_v48 main_v49 (maximumf : (⟨S100000x32, .f32⟩ : BufTy).Contents (Elt F) → (⟨S100000x32, .f32⟩ : BufTy).Contents (Elt F) → (⟨S100000x32, .f32⟩ : BufTy).Contents (Elt F)),
    StableHlo.unary main_arg5 main_v50 ((extractStridedSlice S1x32x32 ![0, 0, 0] · slices_S5x32x32_S1x32x32_0_0_0) : (⟨S5x32x32, .f32⟩ : BufTy).Contents (Elt F) → (⟨S1x32x32, .f32⟩ : BufTy).Contents (Elt F)),
    StableHlo.reshape main_v50 main_v51 rfl shapeCasts_S1x32x32_S32x32,
    StableHlo.binary main_v49 main_v51 main_v52 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v53 ((extractStridedSlice S1x32 ![0, 0] · slices_S5x32_S1x32_0_0) : (⟨S5x32, .f32⟩ : BufTy).Contents (Elt F) → (⟨S1x32, .f32⟩ : BufTy).Contents (Elt F)),
    StableHlo.reshape main_v53 main_v54 rfl shapeCasts_S1x32_S32,
    StableHlo.unary main_v54 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S100000x32 ![0, 1] bcast_S1x32_S100000x32_0_1 : (⟨S1x32, .f32⟩ : BufTy).Contents (Elt F) → (⟨S100000x32, .f32⟩ : BufTy).Contents (Elt F)),
    StableHlo.binary main_v52 main_v56 main_v57 (addf : (⟨S100000x32, .f32⟩ : BufTy).Contents (Elt F) → (⟨S100000x32, .f32⟩ : BufTy).Contents (Elt F) → (⟨S100000x32, .f32⟩ : BufTy).Contents (Elt F)),
    StableHlo.unary main_v41 main_v58 (broadcastInDim S3300000x1 ![0] bcast_S3300000_S3300000x1_0 : (⟨S3300000, .f32⟩ : BufTy).Contents (Elt F) → (⟨S3300000x1, .f32⟩ : BufTy).Contents (Elt F)),
    StableHlo.nullary main_c_13 (constantI S_ 32 0#32),
    StableHlo.unary main_c_13 main_v59 (broadcastInDim S3300000 ![] bcast_S_S3300000 : (⟨S_, .i32⟩ : BufTy).Contents (Elt F) → (⟨S3300000, .i32⟩ : BufTy).Contents (Elt F)),
    StableHlo.binary main_v3 main_v59 main_v60 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v61 (broadcastInDim S3300000 ![] bcast_S_S3300000 : (⟨S_, .i32⟩ : BufTy).Contents (Elt F) → (⟨S3300000, .i32⟩ : BufTy).Contents (Elt F)),
    StableHlo.binary main_v3 main_v61 main_v62 (addi : (⟨S3300000, .i32⟩ : BufTy).Contents (Elt F) → (⟨S3300000, .i32⟩ : BufTy).Contents (Elt F) → (⟨S3300000, .i32⟩ : BufTy).Contents (Elt F)),
    StableHlo.ternary main_v60 main_v62 main_v3 main_v63 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v63 main_v64 (broadcastInDim S3300000x1 ![0] bcast_S3300000_S3300000x1_0 : (⟨S3300000, .i32⟩ : BufTy).Contents (Elt F) → (⟨S3300000x1, .i32⟩ : BufTy).Contents (Elt F)),
    StableHlo.binary main_v57 main_v64 main_v65 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v58 main_v66 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v66 main_v65 main_v67 (mulf : (⟨S3300000x32, .f32⟩ : BufTy).Contents (Elt F) → (⟨S3300000x32, .f32⟩ : BufTy).Contents (Elt F) → (⟨S3300000x32, .f32⟩ : BufTy).Contents (Elt F)),
    StableHlo.nullary main_cst_15 (constant S_ .f32 0x00000000#32),
    StableHlo.unary main_cst_15 main_v68 (broadcastInDim S100000x32 ![] bcast_S_S100000x32 : (⟨S_, .f32⟩ : BufTy).Contents (Elt F) → (⟨S100000x32, .f32⟩ : BufTy).Contents (Elt F)),
    StableHlo.unary main_v6 main_v69 (broadcastInDim S3300000x1 ![0] bcast_S3300000_S3300000x1_0 : (⟨S3300000, .i32⟩ : BufTy).Contents (Elt F) → (⟨S3300000x1, .i32⟩ : BufTy).Contents (Elt F)),
    StableHlo.ternary main_v68 main_v69 main_v67 main_v70 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg7 main_v71 ((extractStridedSlice S1x32 ![0, 0] · slices_S5x32_S1x32_0_0) : (⟨S5x32, .f32⟩ : BufTy).Contents (Elt F) → (⟨S1x32, .f32⟩ : BufTy).Contents (Elt F)),
    StableHlo.reshape main_v71 main_v72 rfl shapeCasts_S1x32_S32,
    StableHlo.unary main_v72 main_v73 (broadcastInDim S1x32 ![1] bcast_S32_S1x32_1 : (⟨S32, .f32⟩ : BufTy).Contents (Elt F) → (⟨S1x32, .f32⟩ : BufTy).Contents (Elt F)),
    StableHlo.unary main_v73 main_v74 (broadcastInDim S100000x32 ![0, 1] bcast_S1x32_S100000x32_0_1 : (⟨S1x32, .f32⟩ : BufTy).Contents (Elt F) → (⟨S100000x32, .f32⟩ : BufTy).Contents (Elt F)),
    StableHlo.binary main_v70 main_v74 main_v75 (addf : (⟨S100000x32, .f32⟩ : BufTy).Contents (Elt F) → (⟨S100000x32, .f32⟩ : BufTy).Contents (Elt F) → (⟨S100000x32, .f32⟩ : BufTy).Contents (Elt F)),
    StableHlo.nullary main_cst_16 (constant S_ .f32 0x00000000#32),
    StableHlo.binary main_v75 main_cst_16 main_v76 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_17 (constant S_ .f32 0x47C35000#32),
    StableHlo.unary main_cst_17 main_v77 (broadcastInDim S32 ![] bcast_S_S32 : (⟨S_, .f32⟩ : BufTy).Contents (Elt F) → (⟨S32, .f32⟩ : BufTy).Contents (Elt F)),
    StableHlo.binary main_v76 main_v77 main_v78 (Host.divf : (⟨S32, .f32⟩ : BufTy).Contents (Elt F) → (⟨S32, .f32⟩ : BufTy).Contents (Elt F) → (⟨S32, .f32⟩ : BufTy).Contents (Elt F)),
    StableHlo.nullary main_c_18 (constantI S_ 32 0#32),
    StableHlo.TRef.nullary main_call2.cst (constant S_ .f32 0x00000000#32),
    StableHlo.TRef.binary (.of main_v75) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v75) main_call2.v4 main_call2.v5 subf,
    StableHlo.TRef.binary main_call2.v5 main_call2.v5 main_call2.v6 mulf,
    StableHlo.TRef.unary (.of main_c_18) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v78 main_v80 (broadcastInDim S1x32 ![1] bcast_S32_S1x32_1 : (⟨S32, .f32⟩ : BufTy).Contents (Elt F) → (⟨S1x32, .f32⟩ : BufTy).Contents (Elt F)),
    StableHlo.unary main_v80 main_v81 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v81 main_v82 (subf : (⟨S100000x32, .f32⟩ : BufTy).Contents (Elt F) → (⟨S100000x32, .f32⟩ : BufTy).Contents (Elt F) → (⟨S100000x32, .f32⟩ : BufTy).Contents (Elt F)),
    StableHlo.nullary main_cst_19 (constant S_ .f32 0x3727C5AC#32),
    StableHlo.unary main_cst_19 main_v83 (broadcastInDim S32 ![] bcast_S_S32 : (⟨S_, .f32⟩ : BufTy).Contents (Elt F) → (⟨S32, .f32⟩ : BufTy).Contents (Elt F)),
    StableHlo.binary main_v79 main_v83 main_v84 (addf : (⟨S32, .f32⟩ : BufTy).Contents (Elt F) → (⟨S32, .f32⟩ : BufTy).Contents (Elt F) → (⟨S32, .f32⟩ : BufTy).Contents (Elt F)),
    StableHlo.unary main_v84 main_v85 (Host.sqrt : (⟨S32, .f32⟩ : BufTy).Contents (Elt F) → (⟨S32, .f32⟩ : BufTy).Contents (Elt F)),
    StableHlo.unary main_v85 main_v86 (broadcastInDim S1x32 ![1] bcast_S32_S1x32_1 : (⟨S32, .f32⟩ : BufTy).Contents (Elt F) → (⟨S1x32, .f32⟩ : BufTy).Contents (Elt F)),
    StableHlo.unary main_v86 main_v87 (broadcastInDim S100000x32 ![0, 1] bcast_S1x32_S100000x32_0_1 : (⟨S1x32, .f32⟩ : BufTy).Contents (Elt F) → (⟨S100000x32, .f32⟩ : BufTy).Contents (Elt F)),
    StableHlo.binary main_v82 main_v87 main_v88 (Host.divf : (⟨S100000x32, .f32⟩ : BufTy).Contents (Elt F) → (⟨S100000x32, .f32⟩ : BufTy).Contents (Elt F) → (⟨S100000x32, .f32⟩ : BufTy).Contents (Elt F)),
    StableHlo.unary main_arg8 main_v89 ((extractStridedSlice S1x32 ![0, 0] · slices_S5x32_S1x32_0_0) : (⟨S5x32, .f32⟩ : BufTy).Contents (Elt F) → (⟨S1x32, .f32⟩ : BufTy).Contents (Elt F)),
    StableHlo.reshape main_v89 main_v90 rfl shapeCasts_S1x32_S32,
    StableHlo.unary main_v90 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S100000x32 ![0, 1] bcast_S1x32_S100000x32_0_1 : (⟨S1x32, .f32⟩ : BufTy).Contents (Elt F) → (⟨S100000x32, .f32⟩ : BufTy).Contents (Elt F)),
    StableHlo.binary main_v88 main_v92 main_v93 (mulf : (⟨S100000x32, .f32⟩ : BufTy).Contents (Elt F) → (⟨S100000x32, .f32⟩ : BufTy).Contents (Elt F) → (⟨S100000x32, .f32⟩ : BufTy).Contents (Elt F)),
    StableHlo.unary main_arg9 main_v94 ((extractStridedSlice S1x32 ![0, 0] · slices_S5x32_S1x32_0_0) : (⟨S5x32, .f32⟩ : BufTy).Contents (Elt F) → (⟨S1x32, .f32⟩ : BufTy).Contents (Elt F)),
    StableHlo.reshape main_v94 main_v95 rfl shapeCasts_S1x32_S32,
    StableHlo.unary main_v95 main_v96 (broadcastInDim S1x32 ![1] bcast_S32_S1x32_1 : (⟨S32, .f32⟩ : BufTy).Contents (Elt F) → (⟨S1x32, .f32⟩ : BufTy).Contents (Elt F)),
    StableHlo.unary main_v96 main_v97 (broadcastInDim S100000x32 ![0, 1] bcast_S1x32_S100000x32_0_1 : (⟨S1x32, .f32⟩ : BufTy).Contents (Elt F) → (⟨S100000x32, .f32⟩ : BufTy).Contents (Elt F)) ]

/-- Operations 146 … 149 of 510: the end of layer 0 (shift, clamp) and the slice of layer 1's first weight. -/
abbrev q3 : List (HloOp τ sig (Elt F)) :=
  [ StableHlo.binary main_v93 main_v97 main_v98 (addf : (⟨S100000x32, .f32⟩ : BufTy).Contents (Elt F) → (⟨S100000x32, .f32⟩ : BufTy).Contents (Elt F) → (⟨S100000x32, .f32⟩ : BufTy).Contents (Elt F)),
    StableHlo.nullary main_cst_20 (constant S_ .f32 0x00000000#32),
    StableHlo.unary main_cst_20 main_v99 (broadcastInDim S100000x32 ![] bcast_S_S100000x32 : (⟨S_, .f32⟩ : BufTy).Contents (Elt F) → (⟨S100000x32, .f32⟩ : BufTy).Contents (Elt F)),
    StableHlo.binary main_v98 main_v99 main_v100 (maximumf : (⟨S100000x32, .f32⟩ : BufTy).Contents (Elt F) → (⟨S100000x32, .f32⟩ : BufTy).Contents (Elt F) → (⟨S100000x32, .f32⟩ : BufTy).Contents (Elt F)) ]

/-- Operations 150 … 226 of 510: layer 1 up to the broadcasts of its normalisation. -/
abbrev q4 : List (HloOp τ sig (Elt F)) :=
  [ StableHlo.unary main_arg3 main_v101 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v101 main_v102 rfl shapeCasts_S1x32x32_S32x32,
    StableHlo.binary main_v100 main_v102 main_v103 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg4 main_v104 ((extractStridedSlice S1x32 ![1, 0] · slices_S5x32_S1x32_1_0) : (⟨S5x32, .f32⟩ : BufTy).Contents (Elt F) → (⟨S1x32, .f32⟩ : BufTy).Contents (Elt F)),
    StableHlo.reshape main_v104 main_v105 rfl shapeCasts_S1x32_S32,
    StableHlo.unary main_v105 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
    StableHlo.binary main_v103 main_v107 main_v108 (addf : (⟨S100000x32, .f32⟩ : BufTy).Contents (Elt F) → (⟨S100000x32, .f32⟩ : BufTy).Contents (Elt F) → (⟨S100000x32, .f32⟩ : BufTy).Contents (Elt F)),
    StableHlo.nullary main_cst_21 (constant S_ .f32 0x00000000#32),
    StableHlo.unary main_cst_21 main_v109 (broadcastInDim S100000x32 ![] bcast_S_S100000x32 : (⟨S_, .f32⟩ : BufTy).Contents (Elt F) → (⟨S100000x32, .f32⟩ : BufTy).Contents (Elt F)),
    StableHlo.binary main_v108 main_v109 main_v110 (maximumf : (⟨S100000x32, .f32⟩ : BufTy).Contents (Elt F) → (⟨S100000x32, .f32⟩ : BufTy).Contents (Elt F) → (⟨S100000x32, .f32⟩ : BufTy).Contents (Elt F)),
    StableHlo.unary main_arg5 main_v111 ((extractStridedSlice S1x32x32 ![1, 0, 0] · slices_S5x32x32_S1x32x32_1_0_0) : (⟨S5x32x32, .f32⟩ : BufTy).Contents (Elt F) → (⟨S1x32x32, .f32⟩ : BufTy).Contents (Elt F)),
    StableHlo.reshape main_v111 main_v112 rfl shapeCasts_S1x32x32_S32x32,
    StableHlo.binary main_v110 main_v112 main_v113 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v114 ((extractStridedSlice S1x32 ![1, 0] · slices_S5x32_S1x32_1_0) : (⟨S5x32, .f32⟩ : BufTy).Contents (Elt F) → (⟨S1x32, .f32⟩ : BufTy).Contents (Elt F)),
    StableHlo.reshape main_v114 main_v115 rfl shapeCasts_S1x32_S32,
    StableHlo.unary main_v115 main_v116 (broadcastInDim S1x32 ![1] bcast_S32_S1x32_1 : (⟨S32, .f32⟩ : BufTy).Contents (Elt F) → (⟨S1x32, .f32⟩ : BufTy).Contents (Elt F)),
    StableHlo.unary main_v116 main_v117 (broadcastInDim S100000x32 ![0, 1] bcast_S1x32_S100000x32_0_1 : (⟨S1x32, .f32⟩ : BufTy).Contents (Elt F) → (⟨S100000x32, .f32⟩ : BufTy).Contents (Elt F)),
    StableHlo.binary main_v113 main_v117 main_v118 (addf : (⟨S100000x32, .f32⟩ : BufTy).Contents (Elt F) → (⟨S100000x32, .f32⟩ : BufTy).Contents (Elt F) → (⟨S100000x32, .f32⟩ : BufTy).Contents (Elt F)),
    StableHlo.unary main_v41 main_v119 (broadcastInDim S3300000x1 ![0] bcast_S3300000_S3300000x1_0 : (⟨S3300000, .f32⟩ : BufTy).Contents (Elt F) → (⟨S3300000x1, .f32⟩ : BufTy).Contents (Elt F)),
    StableHlo.nullary main_c_22 (constantI S_ 32 0#32),
    StableHlo.unary main_c_22 main_v120 (broadcastInDim S3300000 ![] bcast_S_S3300000 : (⟨S_, .i32⟩ : BufTy).Contents (Elt F) → (⟨S3300000, .i32⟩ : BufTy).Contents (Elt F)),
    StableHlo.binary main_v3 main_v120 main_v121 (cmpi .slt : (⟨S3300000, .i32⟩ : BufTy).Contents (Elt F) → (⟨S3300000, .i32⟩ : BufTy).Contents (Elt F) → (⟨S3300000, .i1⟩ : BufTy).Contents (Elt F)),
    StableHlo.nullary main_c_23 (constantI S_ 32 100000#32),
    StableHlo.unary main_c_23 main_v122 (broadcastInDim S3300000 ![] bcast_S_S3300000 : (⟨S_, .i32⟩ : BufTy).Contents (Elt F) → (⟨S3300000, .i32⟩ : BufTy).Contents (Elt F)),
    StableHlo.binary main_v3 main_v122 main_v123 (addi : (⟨S3300000, .i32⟩ : BufTy).Contents (Elt F) → (⟨S3300000, .i32⟩ : BufTy).Contents (Elt F) → (⟨S3300000, .i32⟩ : BufTy).Contents (Elt F)),
    StableHlo.ternary main_v121 main_v123 main_v3 main_v124 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v124 main_v125 (broadcastInDim S3300000x1 ![0] bcast_S3300000_S3300000x1_0 : (⟨S3300000, .i32⟩ : BufTy).Contents (Elt F) → (⟨S3300000x1, .i32⟩ : BufTy).Contents (Elt F)),
    StableHlo.binary main_v118 main_v125 main_v126 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v119 main_v127 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v127 main_v126 main_v128 (mulf : (⟨S3300000x32, .f32⟩ : BufTy).Contents (Elt F) → (⟨S3300000x32, .f32⟩ : BufTy).Contents (Elt F) → (⟨S3300000x32, .f32⟩ : BufTy).Contents (Elt F)),
    StableHlo.nullary main_cst_24 (constant S_ .f32 0x00000000#32),
    StableHlo.unary main_cst_24 main_v129 (broadcastInDim S100000x32 ![] bcast_S_S100000x32 : (⟨S_, .f32⟩ : BufTy).Contents (Elt F) → (⟨S100000x32, .f32⟩ : BufTy).Contents (Elt F)),
    StableHlo.unary main_v6 main_v130 (broadcastInDim S3300000x1 ![0] bcast_S3300000_S3300000x1_0 : (⟨S3300000, .i32⟩ : BufTy).Contents (Elt F) → (⟨S3300000x1, .i32⟩ : BufTy).Contents (Elt F)),
    StableHlo.ternary main_v129 main_v130 main_v128 main_v131 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg7 main_v132 ((extractStridedSlice S1x32 ![1, 0] · slices_S5x32_S1x32_1_0) : (⟨S5x32, .f32⟩ : BufTy).Contents (Elt F) → (⟨S1x32, .f32⟩ : BufTy).Contents (Elt F)),
    StableHlo.reshape main_v132 main_v133 rfl shapeCasts_S1x32_S32,
    StableHlo.unary main_v133 main_v134 (broadcastInDim S1x32 ![1] bcast_S32_S1x32_1 : (⟨S32, .f32⟩ : BufTy).Contents (Elt F) → (⟨S1x32, .f32⟩ : BufTy).Contents (Elt F)),
    StableHlo.unary main_v134 main_v135 (broadcastInDim S100000x32 ![0, 1] bcast_S1x32_S100000x32_0_1 : (⟨S1x32, .f32⟩ : BufTy).Contents (Elt F) → (⟨S100000x32, .f32⟩ : BufTy).Contents (Elt F)),
    StableHlo.binary main_v131 main_v135 main_v136 (addf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x00000000#32),
    StableHlo.binary main_v136 main_cst_25 main_v137 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_26 (constant S_ .f32 0x47C35000#32),
    StableHlo.unary main_cst_26 main_v138 (broadcastInDim S32 ![] bcast_S_S32 : (⟨S_, .f32⟩ : BufTy).Contents (Elt F) → (⟨S32, .f32⟩ : BufTy).Contents (Elt F)),
    StableHlo.binary main_v137 main_v138 main_v139 (Host.divf : (⟨S32, .f32⟩ : BufTy).Contents (Elt F) → (⟨S32, .f32⟩ : BufTy).Contents (Elt F) → (⟨S32, .f32⟩ : BufTy).Contents (Elt F)),
    StableHlo.nullary main_c_27 (constantI S_ 32 0#32),
    StableHlo.TRef.nullary main_call3.cst (constant S_ .f32 0x00000000#32),
    StableHlo.TRef.binary (.of main_v136) main_call3.cst main_call3.v0 (fun x v => Host.reduceAdd x v reducesTo_S100000x32_S32_d0 h_S_),
    StableHlo.TRef.unary main_call3.v0 main_call3.v1 (broadcastInDim S1x32 ![1] bcast_S32_S1x32_1),
    StableHlo.TRef.nullary main_call3.cst_0 (constant S_ .f32 0x47C35000#32),
    StableHlo.TRef.unary main_call3.cst_0 main_call3.v2 (broadcastInDim S1x32 ![] bcast_S_S1x32),
    StableHlo.TRef.binary main_call3.v1 main_call3.v2 main_call3.v3 Host.divf,
    StableHlo.TRef.unary main_call3.v3 main_call3.v4 (broadcastInDim S100000x32 ![0, 1] bcast_S1x32_S100000x32_0_1),
    StableHlo.TRef.binary (.of main_v136) main_call3.v4 main_call3.v5 subf,
    StableHlo.TRef.binary main_call3.v5 main_call3.v5 main_call3.v6 mulf,
    StableHlo.TRef.unary (.of main_c_27) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x32_S32_d0 h_S_),
    StableHlo.TRef.unary main_call3.v8 main_call3.v10 (broadcastInDim S32 ![] bcast_S_S32),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S32 ![] bcast_S_S32),
    StableHlo.TRef.ternary main_call3.v12 main_call3.v11 main_call3.call0.v1 main_call3.call0.v2 (fun p a b => select (broadcastInDim S32 ![] bcast_S_S32 p) a b),
    StableHlo.unary main_v139 main_v141 (broadcastInDim S1x32 ![1] bcast_S32_S1x32_1 : (⟨S32, .f32⟩ : BufTy).Contents (Elt F) → (⟨S1x32, .f32⟩ : BufTy).Contents (Elt F)),
    StableHlo.unary main_v141 main_v142 (broadcastInDim S100000x32 ![0, 1] bcast_S1x32_S100000x32_0_1 : (⟨S1x32, .f32⟩ : BufTy).Contents (Elt F) → (⟨S100000x32, .f32⟩ : BufTy).Contents (Elt F)),
    StableHlo.binary main_v136 main_v142 main_v143 (subf : (⟨S100000x32, .f32⟩ : BufTy).Contents (Elt F) → (⟨S100000x32, .f32⟩ : BufTy).Contents (Elt F) → (⟨S100000x32, .f32⟩ : BufTy).Contents (Elt F)),
    StableHlo.nullary main_cst_28 (constant S_ .f32 0x3727C5AC#32),
    StableHlo.unary main_cst_28 main_v144 (broadcastInDim S32 ![] bcast_S_S32 : (⟨S_, .f32⟩ : BufTy).Contents (Elt F) → (⟨S32, .f32⟩ : BufTy).Contents (Elt F)),
    StableHlo.binary main_v140 main_v144 main_v145 (addf : (⟨S32, .f32⟩ : BufTy).Contents (Elt F) → (⟨S32, .f32⟩ : BufTy).Contents (Elt F) → (⟨S32, .f32⟩ : BufTy).Contents (Elt F)),
    StableHlo.unary main_v145 main_v146 (Host.sqrt : (⟨S32, .f32⟩ : BufTy).Contents (Elt F) → (⟨S32, .f32⟩ : BufTy).Contents (Elt F)),
    StableHlo.unary main_v146 main_v147 (broadcastInDim S1x32 ![1] bcast_S32_S1x32_1 : (⟨S32, .f32⟩ : BufTy).Contents (Elt F) → (⟨S1x32, .f32⟩ : BufTy).Contents (Elt F)),
    StableHlo.unary main_v147 main_v148 (broadcastInDim S100000x32 ![0, 1] bcast_S1x32_S100000x32_0_1 : (⟨S1x32, .f32⟩ : BufTy).Contents (Elt F) → (⟨S100000x32, .f32⟩ : BufTy).Contents (Elt F)) ]

/-- Operations 227 … 240 of 510: the end of layer 1. -/
abbrev q5 : List (HloOp τ sig (Elt F)) :=
  [ StableHlo.binary main_v143 main_v148 main_v149 (Host.divf : (⟨S100000x32, .f32⟩ : BufTy).Contents (Elt F) → (⟨S100000x32, .f32⟩ : BufTy).Contents (Elt F) → (⟨S100000x32, .f32⟩ : BufTy).Contents (Elt F)),
    StableHlo.unary main_arg8 main_v150 ((extractStridedSlice S1x32 ![1, 0] · slices_S5x32_S1x32_1_0) : (⟨S5x32, .f32⟩ : BufTy).Contents (Elt F) → (⟨S1x32, .f32⟩ : BufTy).Contents (Elt F)),
    StableHlo.reshape main_v150 main_v151 rfl shapeCasts_S1x32_S32,
    StableHlo.unary main_v151 main_v152 (broadcastInDim S1x32 ![1] bcast_S32_S1x32_1 : (⟨S32, .f32⟩ : BufTy).Contents (Elt F) → (⟨S1x32, .f32⟩ : BufTy).Contents (Elt F)),
    StableHlo.unary main_v152 main_v153 (broadcastInDim S100000x32 ![0, 1] bcast_S1x32_S100000x32_0_1 : (⟨S1x32, .f32⟩ : BufTy).Contents (Elt F) → (⟨S100000x32, .f32⟩ : BufTy).Contents (Elt F)),
    StableHlo.binary main_v149 main_v153 main_v154 (mulf : (⟨S100000x32, .f32⟩ : BufTy).Contents (Elt F) → (⟨S100000x32, .f32⟩ : BufTy).Contents (Elt F) → (⟨S100000x32, .f32⟩ : BufTy).Contents (Elt F)),
    StableHlo.unary main_arg9 main_v155 ((extractStridedSlice S1x32 ![1, 0] · slices_S5x32_S1x32_1_0) : (⟨S5x32, .f32⟩ : BufTy).Contents (Elt F) → (⟨S1x32, .f32⟩ : BufTy).Contents (Elt F)),
    StableHlo.reshape main_v155 main_v156 rfl shapeCasts_S1x32_S32,
    StableHlo.unary main_v156 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S100000x32 ![0, 1] bcast_S1x32_S100000x32_0_1 : (⟨S1x32, .f32⟩ : BufTy).Contents (Elt F) → (⟨S100000x32, .f32⟩ : BufTy).Contents (Elt F)),
    StableHlo.binary main_v154 main_v158 main_v159 (addf : (⟨S100000x32, .f32⟩ : BufTy).Contents (Elt F) → (⟨S100000x32, .f32⟩ : BufTy).Contents (Elt F) → (⟨S100000x32, .f32⟩ : BufTy).Contents (Elt F)),
    StableHlo.nullary main_cst_29 (constant S_ .f32 0x00000000#32),
    StableHlo.unary main_cst_29 main_v160 (broadcastInDim S100000x32 ![] bcast_S_S100000x32 : (⟨S_, .f32⟩ : BufTy).Contents (Elt F) → (⟨S100000x32, .f32⟩ : BufTy).Contents (Elt F)),
    StableHlo.binary main_v159 main_v160 main_v161 (maximumf : (⟨S100000x32, .f32⟩ : BufTy).Contents (Elt F) → (⟨S100000x32, .f32⟩ : BufTy).Contents (Elt F) → (⟨S100000x32, .f32⟩ : BufTy).Contents (Elt F)) ]

/-- Operations 241 … 286 of 510: layer 2, first part. -/
abbrev q6 : List (HloOp τ sig (Elt F)) :=
  [ StableHlo.unary main_arg3 main_v162 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v162 main_v163 rfl shapeCasts_S1x32x32_S32x32,
    StableHlo.binary main_v161 main_v163 main_v164 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg4 main_v165 ((extractStridedSlice S1x32 ![2, 0] · slices_S5x32_S1x32_2_0) : (⟨S5x32, .f32⟩ : BufTy).Contents (Elt F) → (⟨S1x32, .f32⟩ : BufTy).Contents (Elt F)),
    StableHlo.reshape main_v165 main_v166 rfl shapeCasts_S1x32_S32,
    StableHlo.unary main_v166 main_v167 (broadcastInDim S1x32 ![1] bcast_S32_S1x32_1 : (⟨S32, .f32⟩ : BufTy).Contents (Elt F) → (⟨S1x32, .f32⟩ : BufTy).Contents (Elt F)),
    StableHlo.unary main_v167 main_v168 (broadcastInDim S100000x32 ![0, 1] bcast_S1x32_S100000x32_0_1 : (⟨S1x32, .f32⟩ : BufTy).Contents (Elt F) → (⟨S100000x32, .f32⟩ : BufTy).Contents (Elt F)),
    StableHlo.binary main_v164 main_v168 main_v169 (addf : (⟨S100000x32, .f32⟩ : BufTy).Contents (Elt F) → (⟨S100000x32, .f32⟩ : BufTy).Contents (Elt F) → (⟨S100000x32, .f32⟩ : BufTy).Contents (Elt F)),
    StableHlo.nullary main_cst_30 (constant S_ .f32 0x00000000#32),
    StableHlo.unary main_cst_30 main_v170 (broadcastInDim S100000x32 ![] bcast_S_S100000x32 : (⟨S_, .f32⟩ : BufTy).Contents (Elt F) → (⟨S100000x32, .f32⟩ : BufTy).Contents (Elt F)),
    StableHlo.binary main_v169 main_v170 main_v171 (maximumf : (⟨S100000x32, .f32⟩ : BufTy).Contents (Elt F) → (⟨S100000x32, .f32⟩ : BufTy).Contents (Elt F) → (⟨S100000x32, .f32⟩ : BufTy).Contents (Elt F)),
    StableHlo.unary main_arg5 main_v172 ((extractStridedSlice S1x32x32 ![2, 0, 0] · slices_S5x32x32_S1x32x32_2_0_0) : (⟨S5x32x32, .f32⟩ : BufTy).Contents (Elt F) → (⟨S1x32x32, .f32⟩ : BufTy).Contents (Elt F)),
    StableHlo.reshape main_v172 main_v173 rfl shapeCasts_S1x32x32_S32x32,
    StableHlo.binary main_v171 main_v173 main_v174 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v175 ((extractStridedSlice S1x32 ![2, 0] · slices_S5x32_S1x32_2_0) : (⟨S5x32, .f32⟩ : BufTy).Contents (Elt F) → (⟨S1x32, .f32⟩ : BufTy).Contents (Elt F)),
    StableHlo.reshape main_v175 main_v176 rfl shapeCasts_S1x32_S32,
    StableHlo.unary main_v176 main_v177 (broadcastInDim S1x32 ![1] bcast_S32_S1x32_1 : (⟨S32, .f32⟩ : BufTy).Contents (Elt F) → (⟨S1x32, .f32⟩ : BufTy).Contents (Elt F)),
    StableHlo.unary main_v177 main_v178 (broadcastInDim S100000x32 ![0, 1] bcast_S1x32_S100000x32_0_1 : (⟨S1x32, .f32⟩ : BufTy).Contents (Elt F) → (⟨S100000x32, .f32⟩ : BufTy).Contents (Elt F)),
    StableHlo.binary main_v174 main_v178 main_v179 (addf : (⟨S100000x32, .f32⟩ : BufTy).Contents (Elt F) → (⟨S100000x32, .f32⟩ : BufTy).Contents (Elt F) → (⟨S100000x32, .f32⟩ : BufTy).Contents (Elt F)),
    StableHlo.unary main_v41 main_v180 (broadcastInDim S3300000x1 ![0] bcast_S3300000_S3300000x1_0 : (⟨S3300000, .f32⟩ : BufTy).Contents (Elt F) → (⟨S3300000x1, .f32⟩ : BufTy).Contents (Elt F)),
    StableHlo.nullary main_c_31 (constantI S_ 32 0#32),
    StableHlo.unary main_c_31 main_v181 (broadcastInDim S3300000 ![] bcast_S_S3300000 : (⟨S_, .i32⟩ : BufTy).Contents (Elt F) → (⟨S3300000, .i32⟩ : BufTy).Contents (Elt F)),
    StableHlo.binary main_v3 main_v181 main_v182 (cmpi .slt : (⟨S3300000, .i32⟩ : BufTy).Contents (Elt F) → (⟨S3300000, .i32⟩ : BufTy).Contents (Elt F) → (⟨S3300000, .i1⟩ : BufTy).Contents (Elt F)),
    StableHlo.nullary main_c_32 (constantI S_ 32 100000#32),
    StableHlo.unary main_c_32 main_v183 (broadcastInDim S3300000 ![] bcast_S_S3300000 : (⟨S_, .i32⟩ : BufTy).Contents (Elt F) → (⟨S3300000, .i32⟩ : BufTy).Contents (Elt F)),
    StableHlo.binary main_v3 main_v183 main_v184 (addi : (⟨S3300000, .i32⟩ : BufTy).Contents (Elt F) → (⟨S3300000, .i32⟩ : BufTy).Contents (Elt F) → (⟨S3300000, .i32⟩ : BufTy).Contents (Elt F)),
    StableHlo.ternary main_v182 main_v184 main_v3 main_v185 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v185 main_v186 (broadcastInDim S3300000x1 ![0] bcast_S3300000_S3300000x1_0 : (⟨S3300000, .i32⟩ : BufTy).Contents (Elt F) → (⟨S3300000x1, .i32⟩ : BufTy).Contents (Elt F)),
    StableHlo.binary main_v179 main_v186 main_v187 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v180 main_v188 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v188 main_v187 main_v189 (mulf : (⟨S3300000x32, .f32⟩ : BufTy).Contents (Elt F) → (⟨S3300000x32, .f32⟩ : BufTy).Contents (Elt F) → (⟨S3300000x32, .f32⟩ : BufTy).Contents (Elt F)),
    StableHlo.nullary main_cst_33 (constant S_ .f32 0x00000000#32),
    StableHlo.unary main_cst_33 main_v190 (broadcastInDim S100000x32 ![] bcast_S_S100000x32 : (⟨S_, .f32⟩ : BufTy).Contents (Elt F) → (⟨S100000x32, .f32⟩ : BufTy).Contents (Elt F)),
    StableHlo.unary main_v6 main_v191 (broadcastInDim S3300000x1 ![0] bcast_S3300000_S3300000x1_0 : (⟨S3300000, .i32⟩ : BufTy).Contents (Elt F) → (⟨S3300000x1, .i32⟩ : BufTy).Contents (Elt F)),
    StableHlo.ternary main_v190 main_v191 main_v189 main_v192 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg7 main_v193 ((extractStridedSlice S1x32 ![2, 0] · slices_S5x32_S1x32_2_0) : (⟨S5x32, .f32⟩ : BufTy).Contents (Elt F) → (⟨S1x32, .f32⟩ : BufTy).Contents (Elt F)),
    StableHlo.reshape main_v193 main_v194 rfl shapeCasts_S1x32_S32,
    StableHlo.unary main_v194 main_v195 (broadcastInDim S1x32 ![1] bcast_S32_S1x32_1 : (⟨S32, .f32⟩ : BufTy).Contents (Elt F) → (⟨S1x32, .f32⟩ : BufTy).Contents (Elt F)),
    StableHlo.unary main_v195 main_v196 (broadcastInDim S100000x32 ![0, 1] bcast_S1x32_S100000x32_0_1 : (⟨S1x32, .f32⟩ : BufTy).Contents (Elt F) → (⟨S100000x32, .f32⟩ : BufTy).Contents (Elt F)),
    StableHlo.binary main_v192 main_v196 main_v197 (addf : (⟨S100000x32, .f32⟩ : BufTy).Contents (Elt F) → (⟨S100000x32, .f32⟩ : BufTy).Contents (Elt F) → (⟨S100000x32, .f32⟩ : BufTy).Contents (Elt F)),
    StableHlo.nullary main_cst_34 (constant S_ .f32 0x00000000#32),
    StableHlo.binary main_v197 main_cst_34 main_v198 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_35 (constant S_ .f32 0x47C35000#32),
    StableHlo.unary main_cst_35 main_v199 (broadcastInDim S32 ![] bcast_S_S32 : (⟨S_, .f32⟩ : BufTy).Contents (Elt F) → (⟨S32, .f32⟩ : BufTy).Contents (Elt F)),
    StableHlo.binary main_v198 main_v199 main_v200 (Host.divf : (⟨S32, .f32⟩ : BufTy).Contents (Elt F) → (⟨S32, .f32⟩ : BufTy).Contents (Elt F) → (⟨S32, .f32⟩ : BufTy).Contents (Elt F)),
    StableHlo.nullary main_c_36 (constantI S_ 32 0#32) ]

/-- Operations 287 … 331 of 510: layer 2, second part. -/
abbrev q7 : List (HloOp τ sig (Elt F)) :=
  [ StableHlo.TRef.nullary main_call4.cst (constant S_ .f32 0x00000000#32),
    StableHlo.TRef.binary (.of main_v197) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v197) main_call4.v4 main_call4.v5 subf,
    StableHlo.TRef.binary main_call4.v5 main_call4.v5 main_call4.v6 mulf,
    StableHlo.TRef.unary (.of main_c_36) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v200 main_v202 (broadcastInDim S1x32 ![1] bcast_S32_S1x32_1 : (⟨S32, .f32⟩ : BufTy).Contents (Elt F) → (⟨S1x32, .f32⟩ : BufTy).Contents (Elt F)),
    StableHlo.unary main_v202 main_v203 (broadcastInDim S100000x32 ![0, 1] bcast_S1x32_S100000x32_0_1 : (⟨S1x32, .f32⟩ : BufTy).Contents (Elt F) → (⟨S100000x32, .f32⟩ : BufTy).Contents (Elt F)),
    StableHlo.binary main_v197 main_v203 main_v204 (subf : (⟨S100000x32, .f32⟩ : BufTy).Contents (Elt F) → (⟨S100000x32, .f32⟩ : BufTy).Contents (Elt F) → (⟨S100000x32, .f32⟩ : BufTy).Contents (Elt F)),
    StableHlo.nullary main_cst_37 (constant S_ .f32 0x3727C5AC#32),
    StableHlo.unary main_cst_37 main_v205 (broadcastInDim S32 ![] bcast_S_S32 : (⟨S_, .f32⟩ : BufTy).Contents (Elt F) → (⟨S32, .f32⟩ : BufTy).Contents (Elt F)),
    StableHlo.binary main_v201 main_v205 main_v206 (addf : (⟨S32, .f32⟩ : BufTy).Contents (Elt F) → (⟨S32, .f32⟩ : BufTy).Contents (Elt F) → (⟨S32, .f32⟩ : BufTy).Contents (Elt F)),
    StableHlo.unary main_v206 main_v207 (Host.sqrt : (⟨S32, .f32⟩ : BufTy).Contents (Elt F) → (⟨S32, .f32⟩ : BufTy).Contents (Elt F)),
    StableHlo.unary main_v207 main_v208 (broadcastInDim S1x32 ![1] bcast_S32_S1x32_1 : (⟨S32, .f32⟩ : BufTy).Contents (Elt F) → (⟨S1x32, .f32⟩ : BufTy).Contents (Elt F)),
    StableHlo.unary main_v208 main_v209 (broadcastInDim S100000x32 ![0, 1] bcast_S1x32_S100000x32_0_1 : (⟨S1x32, .f32⟩ : BufTy).Contents (Elt F) → (⟨S100000x32, .f32⟩ : BufTy).Contents (Elt F)),
    StableHlo.binary main_v204 main_v209 main_v210 (Host.divf : (⟨S100000x32, .f32⟩ : BufTy).Contents (Elt F) → (⟨S100000x32, .f32⟩ : BufTy).Contents (Elt F) → (⟨S100000x32, .f32⟩ : BufTy).Contents (Elt F)),
    StableHlo.unary main_arg8 main_v211 ((extractStridedSlice S1x32 ![2, 0] · slices_S5x32_S1x32_2_0) : (⟨S5x32, .f32⟩ : BufTy).Contents (Elt F) → (⟨S1x32, .f32⟩ : BufTy).Contents (Elt F)),
    StableHlo.reshape main_v211 main_v212 rfl shapeCasts_S1x32_S32,
    StableHlo.unary main_v212 main_v213 (broadcastInDim S1x32 ![1] bcast_S32_S1x32_1 : (⟨S32, .f32⟩ : BufTy).Contents (Elt F) → (⟨S1x32, .f32⟩ : BufTy).Contents (Elt F)),
    StableHlo.unary main_v213 main_v214 (broadcastInDim S100000x32 ![0, 1] bcast_S1x32_S100000x32_0_1 : (⟨S1x32, .f32⟩ : BufTy).Contents (Elt F) → (⟨S100000x32, .f32⟩ : BufTy).Contents (Elt F)),
    StableHlo.binary main_v210 main_v214 main_v215 (mulf : (⟨S100000x32, .f32⟩ : BufTy).Contents (Elt F) → (⟨S100000x32, .f32⟩ : BufTy).Contents (Elt F) → (⟨S100000x32, .f32⟩ : BufTy).Contents (Elt F)),
    StableHlo.unary main_arg9 main_v216 ((extractStridedSlice S1x32 ![2, 0] · slices_S5x32_S1x32_2_0) : (⟨S5x32, .f32⟩ : BufTy).Contents (Elt F) → (⟨S1x32, .f32⟩ : BufTy).Contents (Elt F)),
    StableHlo.reshape main_v216 main_v217 rfl shapeCasts_S1x32_S32,
    StableHlo.unary main_v217 main_v218 (broadcastInDim S1x32 ![1] bcast_S32_S1x32_1 : (⟨S32, .f32⟩ : BufTy).Contents (Elt F) → (⟨S1x32, .f32⟩ : BufTy).Contents (Elt F)),
    StableHlo.unary main_v218 main_v219 (broadcastInDim S100000x32 ![0, 1] bcast_S1x32_S100000x32_0_1 : (⟨S1x32, .f32⟩ : BufTy).Contents (Elt F) → (⟨S100000x32, .f32⟩ : BufTy).Contents (Elt F)),
    StableHlo.binary main_v215 main_v219 main_v220 (addf : (⟨S100000x32, .f32⟩ : BufTy).Contents (Elt F) → (⟨S100000x32, .f32⟩ : BufTy).Contents (Elt F) → (⟨S100000x32, .f32⟩ : BufTy).Contents (Elt F)),
    StableHlo.nullary main_cst_38 (constant S_ .f32 0x00000000#32),
    StableHlo.unary main_cst_38 main_v221 (broadcastInDim S100000x32 ![] bcast_S_S100000x32 : (⟨S_, .f32⟩ : BufTy).Contents (Elt F) → (⟨S100000x32, .f32⟩ : BufTy).Contents (Elt F)),
    StableHlo.binary main_v220 main_v221 main_v222 (maximumf : (⟨S100000x32, .f32⟩ : BufTy).Contents (Elt F) → (⟨S100000x32, .f32⟩ : BufTy).Contents (Elt F) → (⟨S100000x32, .f32⟩ : BufTy).Contents (Elt F)) ]

/-- Operations 332 … 367 of 510: layer 3, first part. -/
abbrev q8 : List (HloOp τ sig (Elt F)) :=
  [ StableHlo.unary main_arg3 main_v223 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v223 main_v224 rfl shapeCasts_S1x32x32_S32x32,
    StableHlo.binary main_v222 main_v224 main_v225 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg4 main_v226 ((extractStridedSlice S1x32 ![3, 0] · slices_S5x32_S1x32_3_0) : (⟨S5x32, .f32⟩ : BufTy).Contents (Elt F) → (⟨S1x32, .f32⟩ : BufTy).Contents (Elt F)),
    StableHlo.reshape main_v226 main_v227 rfl shapeCasts_S1x32_S32,
    StableHlo.unary main_v227 main_v228 (broadcastInDim S1x32 ![1] bcast_S32_S1x32_1 : (⟨S32, .f32⟩ : BufTy).Contents (Elt F) → (⟨S1x32, .f32⟩ : BufTy).Contents (Elt F)),
    StableHlo.unary main_v228 main_v229 (broadcastInDim S100000x32 ![0, 1] bcast_S1x32_S100000x32_0_1 : (⟨S1x32, .f32⟩ : BufTy).Contents (Elt F) → (⟨S100000x32, .f32⟩ : BufTy).Contents (Elt F)),
    StableHlo.binary main_v225 main_v229 main_v230 (addf : (⟨S100000x32, .f32⟩ : BufTy).Contents (Elt F) → (⟨S100000x32, .f32⟩ : BufTy).Contents (Elt F) → (⟨S100000x32, .f32⟩ : BufTy).Contents (Elt F)),
    StableHlo.nullary main_cst_39 (constant S_ .f32 0x00000000#32),
    StableHlo.unary main_cst_39 main_v231 (broadcastInDim S100000x32 ![] bcast_S_S100000x32 : (⟨S_, .f32⟩ : BufTy).Contents (Elt F) → (⟨S100000x32, .f32⟩ : BufTy).Contents (Elt F)),
    StableHlo.binary main_v230 main_v231 main_v232 (maximumf : (⟨S100000x32, .f32⟩ : BufTy).Contents (Elt F) → (⟨S100000x32, .f32⟩ : BufTy).Contents (Elt F) → (⟨S100000x32, .f32⟩ : BufTy).Contents (Elt F)),
    StableHlo.unary main_arg5 main_v233 ((extractStridedSlice S1x32x32 ![3, 0, 0] · slices_S5x32x32_S1x32x32_3_0_0) : (⟨S5x32x32, .f32⟩ : BufTy).Contents (Elt F) → (⟨S1x32x32, .f32⟩ : BufTy).Contents (Elt F)),
    StableHlo.reshape main_v233 main_v234 rfl shapeCasts_S1x32x32_S32x32,
    StableHlo.binary main_v232 main_v234 main_v235 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v236 ((extractStridedSlice S1x32 ![3, 0] · slices_S5x32_S1x32_3_0) : (⟨S5x32, .f32⟩ : BufTy).Contents (Elt F) → (⟨S1x32, .f32⟩ : BufTy).Contents (Elt F)),
    StableHlo.reshape main_v236 main_v237 rfl shapeCasts_S1x32_S32,
    StableHlo.unary main_v237 main_v238 (broadcastInDim S1x32 ![1] bcast_S32_S1x32_1 : (⟨S32, .f32⟩ : BufTy).Contents (Elt F) → (⟨S1x32, .f32⟩ : BufTy).Contents (Elt F)),
    StableHlo.unary main_v238 main_v239 (broadcastInDim S100000x32 ![0, 1] bcast_S1x32_S100000x32_0_1 : (⟨S1x32, .f32⟩ : BufTy).Contents (Elt F) → (⟨S100000x32, .f32⟩ : BufTy).Contents (Elt F)),
    StableHlo.binary main_v235 main_v239 main_v240 (addf : (⟨S100000x32, .f32⟩ : BufTy).Contents (Elt F) → (⟨S100000x32, .f32⟩ : BufTy).Contents (Elt F) → (⟨S100000x32, .f32⟩ : BufTy).Contents (Elt F)),
    StableHlo.unary main_v41 main_v241 (broadcastInDim S3300000x1 ![0] bcast_S3300000_S3300000x1_0 : (⟨S3300000, .f32⟩ : BufTy).Contents (Elt F) → (⟨S3300000x1, .f32⟩ : BufTy).Contents (Elt F)),
    StableHlo.nullary main_c_40 (constantI S_ 32 0#32),
    StableHlo.unary main_c_40 main_v242 (broadcastInDim S3300000 ![] bcast_S_S3300000 : (⟨S_, .i32⟩ : BufTy).Contents (Elt F) → (⟨S3300000, .i32⟩ : BufTy).Contents (Elt F)),
    StableHlo.binary main_v3 main_v242 main_v243 (cmpi .slt : (⟨S3300000, .i32⟩ : BufTy).Contents (Elt F) → (⟨S3300000, .i32⟩ : BufTy).Contents (Elt F) → (⟨S3300000, .i1⟩ : BufTy).Contents (Elt F)),
    StableHlo.nullary main_c_41 (constantI S_ 32 100000#32),
    StableHlo.unary main_c_41 main_v244 (broadcastInDim S3300000 ![] bcast_S_S3300000 : (⟨S_, .i32⟩ : BufTy).Contents (Elt F) → (⟨S3300000, .i32⟩ : BufTy).Contents (Elt F)),
    StableHlo.binary main_v3 main_v244 main_v245 (addi : (⟨S3300000, .i32⟩ : BufTy).Contents (Elt F) → (⟨S3300000, .i32⟩ : BufTy).Contents (Elt F) → (⟨S3300000, .i32⟩ : BufTy).Contents (Elt F)),
    StableHlo.ternary main_v243 main_v245 main_v3 main_v246 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v246 main_v247 (broadcastInDim S3300000x1 ![0] bcast_S3300000_S3300000x1_0 : (⟨S3300000, .i32⟩ : BufTy).Contents (Elt F) → (⟨S3300000x1, .i32⟩ : BufTy).Contents (Elt F)),
    StableHlo.binary main_v240 main_v247 main_v248 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v241 main_v249 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v249 main_v248 main_v250 (mulf : (⟨S3300000x32, .f32⟩ : BufTy).Contents (Elt F) → (⟨S3300000x32, .f32⟩ : BufTy).Contents (Elt F) → (⟨S3300000x32, .f32⟩ : BufTy).Contents (Elt F)),
    StableHlo.nullary main_cst_42 (constant S_ .f32 0x00000000#32),
    StableHlo.unary main_cst_42 main_v251 (broadcastInDim S100000x32 ![] bcast_S_S100000x32 : (⟨S_, .f32⟩ : BufTy).Contents (Elt F) → (⟨S100000x32, .f32⟩ : BufTy).Contents (Elt F)),
    StableHlo.unary main_v6 main_v252 (broadcastInDim S3300000x1 ![0] bcast_S3300000_S3300000x1_0 : (⟨S3300000, .i32⟩ : BufTy).Contents (Elt F) → (⟨S3300000x1, .i32⟩ : BufTy).Contents (Elt F)),
    StableHlo.ternary main_v251 main_v252 main_v250 main_v253 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg7 main_v254 ((extractStridedSlice S1x32 ![3, 0] · slices_S5x32_S1x32_3_0) : (⟨S5x32, .f32⟩ : BufTy).Contents (Elt F) → (⟨S1x32, .f32⟩ : BufTy).Contents (Elt F)) ]

/-- Operations 368 … 422 of 510: layer 3, second part. -/
abbrev q9 : List (HloOp τ sig (Elt F)) :=
  [ StableHlo.reshape main_v254 main_v255 rfl shapeCasts_S1x32_S32,
    StableHlo.unary main_v255 main_v256 (broadcastInDim S1x32 ![1] bcast_S32_S1x32_1 : (⟨S32, .f32⟩ : BufTy).Contents (Elt F) → (⟨S1x32, .f32⟩ : BufTy).Contents (Elt F)),
    StableHlo.unary main_v256 main_v257 (broadcastInDim S100000x32 ![0, 1] bcast_S1x32_S100000x32_0_1 : (⟨S1x32, .f32⟩ : BufTy).Contents (Elt F) → (⟨S100000x32, .f32⟩ : BufTy).Contents (Elt F)),
    StableHlo.binary main_v253 main_v257 main_v258 (addf : (⟨S100000x32, .f32⟩ : BufTy).Contents (Elt F) → (⟨S100000x32, .f32⟩ : BufTy).Contents (Elt F) → (⟨S100000x32, .f32⟩ : BufTy).Contents (Elt F)),
    StableHlo.nullary main_cst_43 (constant S_ .f32 0x00000000#32),
    StableHlo.binary main_v258 main_cst_43 main_v259 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_44 (constant S_ .f32 0x47C35000#32),
    StableHlo.unary main_cst_44 main_v260 (broadcastInDim S32 ![] bcast_S_S32 : (⟨S_, .f32⟩ : BufTy).Contents (Elt F) → (⟨S32, .f32⟩ : BufTy).Contents (Elt F)),
    StableHlo.binary main_v259 main_v260 main_v261 (Host.divf : (⟨S32, .f32⟩ : BufTy).Contents (Elt F) → (⟨S32, .f32⟩ : BufTy).Contents (Elt F) → (⟨S32, .f32⟩ : BufTy).Contents (Elt F)),
    StableHlo.nullary main_c_45 (constantI S_ 32 0#32),
    StableHlo.TRef.nullary main_call5.cst (constant S_ .f32 0x00000000#32),
    StableHlo.TRef.binary (.of main_v258) main_call5.cst main_call5.v0 (fun x v => Host.reduceAdd x v reducesTo_S100000x32_S32_d0 h_S_),
    StableHlo.TRef.unary main_call5.v0 main_call5.v1 (broadcastInDim S1x32 ![1] bcast_S32_S1x32_1),
    StableHlo.TRef.nullary main_call5.cst_0 (constant S_ .f32 0x47C35000#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S100000x32 ![0, 1] bcast_S1x32_S100000x32_0_1),
    StableHlo.TRef.binary (.of main_v258) main_call5.v4 main_call5.v5 subf,
    StableHlo.TRef.binary main_call5.v5 main_call5.v5 main_call5.v6 mulf,
    StableHlo.TRef.unary (.of main_c_45) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x32_S32_d0 h_S_),
    StableHlo.TRef.unary main_call5.v8 main_call5.v10 (broadcastInDim S32 ![] bcast_S_S32),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S32 ![] bcast_S_S32),
    StableHlo.TRef.ternary main_call5.v12 main_call5.v11 main_call5.call0.v1 main_call5.call0.v2 (fun p a b => select (broadcastInDim S32 ![] bcast_S_S32 p) a b),
    StableHlo.unary main_v261 main_v263 (broadcastInDim S1x32 ![1] bcast_S32_S1x32_1 : (⟨S32, .f32⟩ : BufTy).Contents (Elt F) → (⟨S1x32, .f32⟩ : BufTy).Contents (Elt F)),
    StableHlo.unary main_v263 main_v264 (broadcastInDim S100000x32 ![0, 1] bcast_S1x32_S100000x32_0_1 : (⟨S1x32, .f32⟩ : BufTy).Contents (Elt F) → (⟨S100000x32, .f32⟩ : BufTy).Contents (Elt F)),
    StableHlo.binary main_v258 main_v264 main_v265 (subf : (⟨S100000x32, .f32⟩ : BufTy).Contents (Elt F) → (⟨S100000x32, .f32⟩ : BufTy).Contents (Elt F) → (⟨S100000x32, .f32⟩ : BufTy).Contents (Elt F)),
    StableHlo.nullary main_cst_46 (constant S_ .f32 0x3727C5AC#32),
    StableHlo.unary main_cst_46 main_v266 (broadcastInDim S32 ![] bcast_S_S32 : (⟨S_, .f32⟩ : BufTy).Contents (Elt F) → (⟨S32, .f32⟩ : BufTy).Contents (Elt F)),
    StableHlo.binary main_v262 main_v266 main_v267 (addf : (⟨S32, .f32⟩ : BufTy).Contents (Elt F) → (⟨S32, .f32⟩ : BufTy).Contents (Elt F) → (⟨S32, .f32⟩ : BufTy).Contents (Elt F)),
    StableHlo.unary main_v267 main_v268 (Host.sqrt : (⟨S32, .f32⟩ : BufTy).Contents (Elt F) → (⟨S32, .f32⟩ : BufTy).Contents (Elt F)),
    StableHlo.unary main_v268 main_v269 (broadcastInDim S1x32 ![1] bcast_S32_S1x32_1 : (⟨S32, .f32⟩ : BufTy).Contents (Elt F) → (⟨S1x32, .f32⟩ : BufTy).Contents (Elt F)),
    StableHlo.unary main_v269 main_v270 (broadcastInDim S100000x32 ![0, 1] bcast_S1x32_S100000x32_0_1 : (⟨S1x32, .f32⟩ : BufTy).Contents (Elt F) → (⟨S100000x32, .f32⟩ : BufTy).Contents (Elt F)),
    StableHlo.binary main_v265 main_v270 main_v271 (Host.divf : (⟨S100000x32, .f32⟩ : BufTy).Contents (Elt F) → (⟨S100000x32, .f32⟩ : BufTy).Contents (Elt F) → (⟨S100000x32, .f32⟩ : BufTy).Contents (Elt F)),
    StableHlo.unary main_arg8 main_v272 ((extractStridedSlice S1x32 ![3, 0] · slices_S5x32_S1x32_3_0) : (⟨S5x32, .f32⟩ : BufTy).Contents (Elt F) → (⟨S1x32, .f32⟩ : BufTy).Contents (Elt F)),
    StableHlo.reshape main_v272 main_v273 rfl shapeCasts_S1x32_S32,
    StableHlo.unary main_v273 main_v274 (broadcastInDim S1x32 ![1] bcast_S32_S1x32_1 : (⟨S32, .f32⟩ : BufTy).Contents (Elt F) → (⟨S1x32, .f32⟩ : BufTy).Contents (Elt F)),
    StableHlo.unary main_v274 main_v275 (broadcastInDim S100000x32 ![0, 1] bcast_S1x32_S100000x32_0_1 : (⟨S1x32, .f32⟩ : BufTy).Contents (Elt F) → (⟨S100000x32, .f32⟩ : BufTy).Contents (Elt F)),
    StableHlo.binary main_v271 main_v275 main_v276 (mulf : (⟨S100000x32, .f32⟩ : BufTy).Contents (Elt F) → (⟨S100000x32, .f32⟩ : BufTy).Contents (Elt F) → (⟨S100000x32, .f32⟩ : BufTy).Contents (Elt F)),
    StableHlo.unary main_arg9 main_v277 ((extractStridedSlice S1x32 ![3, 0] · slices_S5x32_S1x32_3_0) : (⟨S5x32, .f32⟩ : BufTy).Contents (Elt F) → (⟨S1x32, .f32⟩ : BufTy).Contents (Elt F)),
    StableHlo.reshape main_v277 main_v278 rfl shapeCasts_S1x32_S32,
    StableHlo.unary main_v278 main_v279 (broadcastInDim S1x32 ![1] bcast_S32_S1x32_1 : (⟨S32, .f32⟩ : BufTy).Contents (Elt F) → (⟨S1x32, .f32⟩ : BufTy).Contents (Elt F)),
    StableHlo.unary main_v279 main_v280 (broadcastInDim S100000x32 ![0, 1] bcast_S1x32_S100000x32_0_1 : (⟨S1x32, .f32⟩ : BufTy).Contents (Elt F) → (⟨S100000x32, .f32⟩ : BufTy).Contents (Elt F)),
    StableHlo.binary main_v276 main_v280 main_v281 (addf : (⟨S100000x32, .f32⟩ : BufTy).Contents (Elt F) → (⟨S100000x32, .f32⟩ : BufTy).Contents (Elt F) → (⟨S100000x32, .f32⟩ : BufTy).Contents (Elt F)),
    StableHlo.nullary main_cst_47 (constant S_ .f32 0x00000000#32),
    StableHlo.unary main_cst_47 main_v282 (broadcastInDim S100000x32 ![] bcast_S_S100000x32 : (⟨S_, .f32⟩ : BufTy).Contents (Elt F) → (⟨S100000x32, .f32⟩ : BufTy).Contents (Elt F)),
    StableHlo.binary main_v281 main_v282 main_v283 (maximumf : (⟨S100000x32, .f32⟩ : BufTy).Contents (Elt F) → (⟨S100000x32, .f32⟩ : BufTy).Contents (Elt F) → (⟨S100000x32, .f32⟩ : BufTy).Contents (Elt F)) ]

/-- Operations 423 … 448 of 510: layer 4, first part. -/
abbrev q10 : List (HloOp τ sig (Elt F)) :=
  [ StableHlo.unary main_arg3 main_v284 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v284 main_v285 rfl shapeCasts_S1x32x32_S32x32,
    StableHlo.binary main_v283 main_v285 main_v286 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg4 main_v287 ((extractStridedSlice S1x32 ![4, 0] · slices_S5x32_S1x32_4_0) : (⟨S5x32, .f32⟩ : BufTy).Contents (Elt F) → (⟨S1x32, .f32⟩ : BufTy).Contents (Elt F)),
    StableHlo.reshape main_v287 main_v288 rfl shapeCasts_S1x32_S32,
    StableHlo.unary main_v288 main_v289 (broadcastInDim S1x32 ![1] bcast_S32_S1x32_1 : (⟨S32, .f32⟩ : BufTy).Contents (Elt F) → (⟨S1x32, .f32⟩ : BufTy).Contents (Elt F)),
    StableHlo.unary main_v289 main_v290 (broadcastInDim S100000x32 ![0, 1] bcast_S1x32_S100000x32_0_1 : (⟨S1x32, .f32⟩ : BufTy).Contents (Elt F) → (⟨S100000x32, .f32⟩ : BufTy).Contents (Elt F)),
    StableHlo.binary main_v286 main_v290 main_v291 (addf : (⟨S100000x32, .f32⟩ : BufTy).Contents (Elt F) → (⟨S100000x32, .f32⟩ : BufTy).Contents (Elt F) → (⟨S100000x32, .f32⟩ : BufTy).Contents (Elt F)),
    StableHlo.nullary main_cst_48 (constant S_ .f32 0x00000000#32),
    StableHlo.unary main_cst_48 main_v292 (broadcastInDim S100000x32 ![] bcast_S_S100000x32 : (⟨S_, .f32⟩ : BufTy).Contents (Elt F) → (⟨S100000x32, .f32⟩ : BufTy).Contents (Elt F)),
    StableHlo.binary main_v291 main_v292 main_v293 (maximumf : (⟨S100000x32, .f32⟩ : BufTy).Contents (Elt F) → (⟨S100000x32, .f32⟩ : BufTy).Contents (Elt F) → (⟨S100000x32, .f32⟩ : BufTy).Contents (Elt F)),
    StableHlo.unary main_arg5 main_v294 ((extractStridedSlice S1x32x32 ![4, 0, 0] · slices_S5x32x32_S1x32x32_4_0_0) : (⟨S5x32x32, .f32⟩ : BufTy).Contents (Elt F) → (⟨S1x32x32, .f32⟩ : BufTy).Contents (Elt F)),
    StableHlo.reshape main_v294 main_v295 rfl shapeCasts_S1x32x32_S32x32,
    StableHlo.binary main_v293 main_v295 main_v296 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v297 ((extractStridedSlice S1x32 ![4, 0] · slices_S5x32_S1x32_4_0) : (⟨S5x32, .f32⟩ : BufTy).Contents (Elt F) → (⟨S1x32, .f32⟩ : BufTy).Contents (Elt F)),
    StableHlo.reshape main_v297 main_v298 rfl shapeCasts_S1x32_S32,
    StableHlo.unary main_v298 main_v299 (broadcastInDim S1x32 ![1] bcast_S32_S1x32_1 : (⟨S32, .f32⟩ : BufTy).Contents (Elt F) → (⟨S1x32, .f32⟩ : BufTy).Contents (Elt F)),
    StableHlo.unary main_v299 main_v300 (broadcastInDim S100000x32 ![0, 1] bcast_S1x32_S100000x32_0_1 : (⟨S1x32, .f32⟩ : BufTy).Contents (Elt F) → (⟨S100000x32, .f32⟩ : BufTy).Contents (Elt F)),
    StableHlo.binary main_v296 main_v300 main_v301 (addf : (⟨S100000x32, .f32⟩ : BufTy).Contents (Elt F) → (⟨S100000x32, .f32⟩ : BufTy).Contents (Elt F) → (⟨S100000x32, .f32⟩ : BufTy).Contents (Elt F)),
    StableHlo.unary main_v41 main_v302 (broadcastInDim S3300000x1 ![0] bcast_S3300000_S3300000x1_0 : (⟨S3300000, .f32⟩ : BufTy).Contents (Elt F) → (⟨S3300000x1, .f32⟩ : BufTy).Contents (Elt F)),
    StableHlo.nullary main_c_49 (constantI S_ 32 0#32),
    StableHlo.unary main_c_49 main_v303 (broadcastInDim S3300000 ![] bcast_S_S3300000 : (⟨S_, .i32⟩ : BufTy).Contents (Elt F) → (⟨S3300000, .i32⟩ : BufTy).Contents (Elt F)),
    StableHlo.binary main_v3 main_v303 main_v304 (cmpi .slt : (⟨S3300000, .i32⟩ : BufTy).Contents (Elt F) → (⟨S3300000, .i32⟩ : BufTy).Contents (Elt F) → (⟨S3300000, .i1⟩ : BufTy).Contents (Elt F)),
    StableHlo.nullary main_c_50 (constantI S_ 32 100000#32),
    StableHlo.unary main_c_50 main_v305 (broadcastInDim S3300000 ![] bcast_S_S3300000 : (⟨S_, .i32⟩ : BufTy).Contents (Elt F) → (⟨S3300000, .i32⟩ : BufTy).Contents (Elt F)),
    StableHlo.binary main_v3 main_v305 main_v306 (addi : (⟨S3300000, .i32⟩ : BufTy).Contents (Elt F) → (⟨S3300000, .i32⟩ : BufTy).Contents (Elt F) → (⟨S3300000, .i32⟩ : BufTy).Contents (Elt F)) ]

/-- Operations 449 … 510 of 510: layer 4, second part. -/
abbrev q11 : List (HloOp τ sig (Elt F)) :=
  [ StableHlo.ternary main_v304 main_v306 main_v3 main_v307 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v307 main_v308 (broadcastInDim S3300000x1 ![0] bcast_S3300000_S3300000x1_0 : (⟨S3300000, .i32⟩ : BufTy).Contents (Elt F) → (⟨S3300000x1, .i32⟩ : BufTy).Contents (Elt F)),
    StableHlo.binary main_v301 main_v308 main_v309 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v302 main_v310 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v310 main_v309 main_v311 (mulf : (⟨S3300000x32, .f32⟩ : BufTy).Contents (Elt F) → (⟨S3300000x32, .f32⟩ : BufTy).Contents (Elt F) → (⟨S3300000x32, .f32⟩ : BufTy).Contents (Elt F)),
    StableHlo.nullary main_cst_51 (constant S_ .f32 0x00000000#32),
    StableHlo.unary main_cst_51 main_v312 (broadcastInDim S100000x32 ![] bcast_S_S100000x32 : (⟨S_, .f32⟩ : BufTy).Contents (Elt F) → (⟨S100000x32, .f32⟩ : BufTy).Contents (Elt F)),
    StableHlo.unary main_v6 main_v313 (broadcastInDim S3300000x1 ![0] bcast_S3300000_S3300000x1_0 : (⟨S3300000, .i32⟩ : BufTy).Contents (Elt F) → (⟨S3300000x1, .i32⟩ : BufTy).Contents (Elt F)),
    StableHlo.ternary main_v312 main_v313 main_v311 main_v314 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg7 main_v315 ((extractStridedSlice S1x32 ![4, 0] · slices_S5x32_S1x32_4_0) : (⟨S5x32, .f32⟩ : BufTy).Contents (Elt F) → (⟨S1x32, .f32⟩ : BufTy).Contents (Elt F)),
    StableHlo.reshape main_v315 main_v316 rfl shapeCasts_S1x32_S32,
    StableHlo.unary main_v316 main_v317 (broadcastInDim S1x32 ![1] bcast_S32_S1x32_1 : (⟨S32, .f32⟩ : BufTy).Contents (Elt F) → (⟨S1x32, .f32⟩ : BufTy).Contents (Elt F)),
    StableHlo.unary main_v317 main_v318 (broadcastInDim S100000x32 ![0, 1] bcast_S1x32_S100000x32_0_1 : (⟨S1x32, .f32⟩ : BufTy).Contents (Elt F) → (⟨S100000x32, .f32⟩ : BufTy).Contents (Elt F)),
    StableHlo.binary main_v314 main_v318 main_v319 (addf : (⟨S100000x32, .f32⟩ : BufTy).Contents (Elt F) → (⟨S100000x32, .f32⟩ : BufTy).Contents (Elt F) → (⟨S100000x32, .f32⟩ : BufTy).Contents (Elt F)),
    StableHlo.nullary main_cst_52 (constant S_ .f32 0x00000000#32),
    StableHlo.binary main_v319 main_cst_52 main_v320 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_53 (constant S_ .f32 0x47C35000#32),
    StableHlo.unary main_cst_53 main_v321 (broadcastInDim S32 ![] bcast_S_S32 : (⟨S_, .f32⟩ : BufTy).Contents (Elt F) → (⟨S32, .f32⟩ : BufTy).Contents (Elt F)),
    StableHlo.binary main_v320 main_v321 main_v322 (Host.divf : (⟨S32, .f32⟩ : BufTy).Contents (Elt F) → (⟨S32, .f32⟩ : BufTy).Contents (Elt F) → (⟨S32, .f32⟩ : BufTy).Contents (Elt F)),
    StableHlo.nullary main_c_54 (constantI S_ 32 0#32),
    StableHlo.TRef.nullary main_call6.cst (constant S_ .f32 0x00000000#32),
    StableHlo.TRef.binary (.of main_v319) main_call6.cst main_call6.v0 (fun x v => Host.reduceAdd x v reducesTo_S100000x32_S32_d0 h_S_),
    StableHlo.TRef.unary main_call6.v0 main_call6.v1 (broadcastInDim S1x32 ![1] bcast_S32_S1x32_1),
    StableHlo.TRef.nullary main_call6.cst_0 (constant S_ .f32 0x47C35000#32),
    StableHlo.TRef.unary main_call6.cst_0 main_call6.v2 (broadcastInDim S1x32 ![] bcast_S_S1x32),
    StableHlo.TRef.binary main_call6.v1 main_call6.v2 main_call6.v3 Host.divf,
    StableHlo.TRef.unary main_call6.v3 main_call6.v4 (broadcastInDim S100000x32 ![0, 1] bcast_S1x32_S100000x32_0_1),
    StableHlo.TRef.binary (.of main_v319) main_call6.v4 main_call6.v5 subf,
    StableHlo.TRef.binary main_call6.v5 main_call6.v5 main_call6.v6 mulf,
    StableHlo.TRef.unary (.of main_c_54) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x32_S32_d0 h_S_),
    StableHlo.TRef.unary main_call6.v8 main_call6.v10 (broadcastInDim S32 ![] bcast_S_S32),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S32 ![] bcast_S_S32),
    StableHlo.TRef.ternary main_call6.v12 main_call6.v11 main_call6.call0.v1 main_call6.call0.v2 (fun p a b => select (broadcastInDim S32 ![] bcast_S_S32 p) a b),
    StableHlo.unary main_v322 main_v324 (broadcastInDim S1x32 ![1] bcast_S32_S1x32_1 : (⟨S32, .f32⟩ : BufTy).Contents (Elt F) → (⟨S1x32, .f32⟩ : BufTy).Contents (Elt F)),
    StableHlo.unary main_v324 main_v325 (broadcastInDim S100000x32 ![0, 1] bcast_S1x32_S100000x32_0_1 : (⟨S1x32, .f32⟩ : BufTy).Contents (Elt F) → (⟨S100000x32, .f32⟩ : BufTy).Contents (Elt F)),
    StableHlo.binary main_v319 main_v325 main_v326 (subf : (⟨S100000x32, .f32⟩ : BufTy).Contents (Elt F) → (⟨S100000x32, .f32⟩ : BufTy).Contents (Elt F) → (⟨S100000x32, .f32⟩ : BufTy).Contents (Elt F)),
    StableHlo.nullary main_cst_55 (constant S_ .f32 0x3727C5AC#32),
    StableHlo.unary main_cst_55 main_v327 (broadcastInDim S32 ![] bcast_S_S32 : (⟨S_, .f32⟩ : BufTy).Contents (Elt F) → (⟨S32, .f32⟩ : BufTy).Contents (Elt F)),
    StableHlo.binary main_v323 main_v327 main_v328 (addf : (⟨S32, .f32⟩ : BufTy).Contents (Elt F) → (⟨S32, .f32⟩ : BufTy).Contents (Elt F) → (⟨S32, .f32⟩ : BufTy).Contents (Elt F)),
    StableHlo.unary main_v328 main_v329 (Host.sqrt : (⟨S32, .f32⟩ : BufTy).Contents (Elt F) → (⟨S32, .f32⟩ : BufTy).Contents (Elt F)),
    StableHlo.unary main_v329 main_v330 (broadcastInDim S1x32 ![1] bcast_S32_S1x32_1 : (⟨S32, .f32⟩ : BufTy).Contents (Elt F) → (⟨S1x32, .f32⟩ : BufTy).Contents (Elt F)),
    StableHlo.unary main_v330 main_v331 (broadcastInDim S100000x32 ![0, 1] bcast_S1x32_S100000x32_0_1 : (⟨S1x32, .f32⟩ : BufTy).Contents (Elt F) → (⟨S100000x32, .f32⟩ : BufTy).Contents (Elt F)),
    StableHlo.binary main_v326 main_v331 main_v332 (Host.divf : (⟨S100000x32, .f32⟩ : BufTy).Contents (Elt F) → (⟨S100000x32, .f32⟩ : BufTy).Contents (Elt F) → (⟨S100000x32, .f32⟩ : BufTy).Contents (Elt F)),
    StableHlo.unary main_arg8 main_v333 ((extractStridedSlice S1x32 ![4, 0] · slices_S5x32_S1x32_4_0) : (⟨S5x32, .f32⟩ : BufTy).Contents (Elt F) → (⟨S1x32, .f32⟩ : BufTy).Contents (Elt F)),
    StableHlo.reshape main_v333 main_v334 rfl shapeCasts_S1x32_S32,
    StableHlo.unary main_v334 main_v335 (broadcastInDim S1x32 ![1] bcast_S32_S1x32_1 : (⟨S32, .f32⟩ : BufTy).Contents (Elt F) → (⟨S1x32, .f32⟩ : BufTy).Contents (Elt F)),
    StableHlo.unary main_v335 main_v336 (broadcastInDim S100000x32 ![0, 1] bcast_S1x32_S100000x32_0_1 : (⟨S1x32, .f32⟩ : BufTy).Contents (Elt F) → (⟨S100000x32, .f32⟩ : BufTy).Contents (Elt F)),
    StableHlo.binary main_v332 main_v336 main_v337 (mulf : (⟨S100000x32, .f32⟩ : BufTy).Contents (Elt F) → (⟨S100000x32, .f32⟩ : BufTy).Contents (Elt F) → (⟨S100000x32, .f32⟩ : BufTy).Contents (Elt F)),
    StableHlo.unary main_arg9 main_v338 ((extractStridedSlice S1x32 ![4, 0] · slices_S5x32_S1x32_4_0) : (⟨S5x32, .f32⟩ : BufTy).Contents (Elt F) → (⟨S1x32, .f32⟩ : BufTy).Contents (Elt F)),
    StableHlo.reshape main_v338 main_v339 rfl shapeCasts_S1x32_S32,
    StableHlo.unary main_v339 main_v340 (broadcastInDim S1x32 ![1] bcast_S32_S1x32_1 : (⟨S32, .f32⟩ : BufTy).Contents (Elt F) → (⟨S1x32, .f32⟩ : BufTy).Contents (Elt F)),
    StableHlo.unary main_v340 main_v341 (broadcastInDim S100000x32 ![0, 1] bcast_S1x32_S100000x32_0_1 : (⟨S1x32, .f32⟩ : BufTy).Contents (Elt F) → (⟨S100000x32, .f32⟩ : BufTy).Contents (Elt F)),
    StableHlo.binary main_v337 main_v341 main_v342 (addf : (⟨S100000x32, .f32⟩ : BufTy).Contents (Elt F) → (⟨S100000x32, .f32⟩ : BufTy).Contents (Elt F) → (⟨S100000x32, .f32⟩ : BufTy).Contents (Elt F)) ]

/-- @main's 510 operations in order, the calls' bodies in place. -/
abbrev ops : List (HloOp τ sig (Elt F)) :=
  q0 ++ (q1 ++ (q2 ++ (q3 ++ (q4 ++ (q5 ++ (q6 ++ (q7 ++ (q8 ++ (q9 ++ (q10 ++ (q11)))))))))))

end Cert.ReferenceIdeal.Hand

end
-- ==== Proof.Ref.Eq0.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 0 of @main is the straight line of its pieces: the statements are the listed operations one for
    one, a call unfolding to its callee's body over the call's record. -/
theorem main_part0_eq (c : Dev nD) : main_part0 (F := F) c = seq (q0 ++ (q1)) := rfl

end Cert.ReferenceIdeal.Hand

end
-- ==== Proof.Ref.Eq1.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 1 of @main is the straight line of its pieces: the statements are the listed operations one for
    one, a call unfolding to its callee's body over the call's record. -/
theorem main_part1_eq (c : Dev nD) : main_part1 (F := F) c = seq (q2) := rfl

end Cert.ReferenceIdeal.Hand

end
-- ==== Proof.Ref.Eq2.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 2 of @main is the straight line of its pieces: the statements are the listed operations one for
    one, a call unfolding to its callee's body over the call's record. -/
theorem main_part2_eq (c : Dev nD) : main_part2 (F := F) c = seq (q3 ++ (q4)) := rfl

end Cert.ReferenceIdeal.Hand

end
-- ==== Proof.Ref.Eq3.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 3 of @main is the straight line of its pieces: the statements are the listed operations one for
    one, a call unfolding to its callee's body over the call's record. -/
theorem main_part3_eq (c : Dev nD) : main_part3 (F := F) c = seq (q5 ++ (q6)) := rfl

end Cert.ReferenceIdeal.Hand

end
-- ==== Proof.Ref.Eq4.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 4 of @main is the straight line of its pieces: the statements are the listed operations one for
    one, a call unfolding to its callee's body over the call's record. -/
theorem main_part4_eq (c : Dev nD) : main_part4 (F := F) c = seq (q7 ++ (q8)) := rfl

end Cert.ReferenceIdeal.Hand

end
-- ==== Proof.Ref.Eq5.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 5 of @main is the straight line of its pieces: the statements are the listed operations one for
    one, a call unfolding to its callee's body over the call's record. -/
theorem main_part5_eq (c : Dev nD) : main_part5 (F := F) c = seq (q9 ++ (q10)) := rfl

end Cert.ReferenceIdeal.Hand

end
-- ==== Proof.Ref.Eq6.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The printed window 6 of @main is the straight line of its pieces: the statements are the listed operations one for
    one, a call unfolding to its callee's body over the call's record. -/
theorem main_part6_eq (c : Dev nD) : main_part6 (F := F) c = seq (q11) := rfl

end Cert.ReferenceIdeal.Hand

end
-- ==== Proof.Ref.Sub.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Every operation of the line touches TensorCore buffers only, and none of them allocates: the two side conditions of the
    straight-line run, piece by piece and then for the whole line. -/

set_option maxRecDepth 8192 in
theorem q0_sub : (q0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem q0_fresh : (q0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q1_sub : (q1 : List (HloOp τ sig (Elt F))).Forall fun op => op.bufs ⊆ tcRefs τ sig :=
  ⟨binary_bufs_sub .., unary_bufs_sub .., reshape_bufs_sub .., unary_bufs_sub ..⟩

set_option maxRecDepth 8192 in
theorem q1_fresh : (q1 : List (HloOp τ sig (Elt F))).Forall fun op => op.fresh = ∅ :=
  ⟨rfl, rfl, rfl, rfl⟩

set_option maxRecDepth 8192 in
theorem q2_sub : (q2 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub ..⟩

set_option maxRecDepth 8192 in
theorem q2_fresh : (q2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q3_sub : (q3 : List (HloOp τ sig (Elt F))).Forall fun op => op.bufs ⊆ tcRefs τ sig :=
  ⟨binary_bufs_sub .., nullary_bufs_sub .., unary_bufs_sub .., binary_bufs_sub ..⟩

set_option maxRecDepth 8192 in
theorem q3_fresh : (q3 : List (HloOp τ sig (Elt F))).Forall fun op => op.fresh = ∅ :=
  ⟨rfl, rfl, rfl, rfl⟩

set_option maxRecDepth 8192 in
theorem q4_sub : (q4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

set_option maxRecDepth 8192 in
theorem q4_fresh : (q4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q5_sub : (q5 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem q5_fresh : (q5 : List (HloOp τ sig (Elt F))).Forall fun op => op.fresh = ∅ :=
  ⟨rfl, rfl, rfl, rfl, rfl, rfl, rfl, rfl, rfl, rfl, rfl, rfl, rfl, rfl⟩

set_option maxRecDepth 8192 in
theorem q6_sub : (q6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub ..⟩

set_option maxRecDepth 8192 in
theorem q6_fresh : (q6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q7_sub : (q7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem q7_fresh : (q7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q8_sub : (q8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩

set_option maxRecDepth 8192 in
theorem q8_fresh : (q8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q9_sub : (q9 : List (HloOp τ sig (Elt F))).Forall fun op => op.bufs ⊆ tcRefs τ sig :=
  ⟨reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem q9_fresh : (q9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q10_sub : (q10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., nullary_bufs_sub .., unary_bufs_sub .., binary_bufs_sub ..⟩

set_option maxRecDepth 8192 in
theorem q10_fresh : (q10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem q11_sub : (q11 : List (HloOp τ sig (Elt F))).Forall fun op => op.bufs ⊆ tcRefs τ sig :=
  ⟨ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

set_option maxRecDepth 8192 in
theorem q11_fresh : (q11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp q0_sub op h, List.forall_iff_forall_mem.mp q1_sub op h, List.forall_iff_forall_mem.mp q2_sub op h, List.forall_iff_forall_mem.mp q3_sub op h, List.forall_iff_forall_mem.mp q4_sub op h, List.forall_iff_forall_mem.mp q5_sub op h, List.forall_iff_forall_mem.mp q6_sub op h, List.forall_iff_forall_mem.mp q7_sub op h, List.forall_iff_forall_mem.mp q8_sub op h, List.forall_iff_forall_mem.mp q9_sub op h, List.forall_iff_forall_mem.mp q10_sub op h, List.forall_iff_forall_mem.mp q11_sub op h]

theorem ops_fresh : ∀ op ∈ (ops : List (HloOp τ sig (Elt F))), op.fresh = ∅ := fun op h => by
  simp only [ops, List.mem_append] at h
  rcases h with h | h | h | h | h | h | h | h | h | h | h | h
  exacts [List.forall_iff_forall_mem.mp q0_fresh op h, List.forall_iff_forall_mem.mp q1_fresh op h, List.forall_iff_forall_mem.mp q2_fresh op h, List.forall_iff_forall_mem.mp q3_fresh op h, List.forall_iff_forall_mem.mp q4_fresh op h, List.forall_iff_forall_mem.mp q5_fresh op h, List.forall_iff_forall_mem.mp q6_fresh op h, List.forall_iff_forall_mem.mp q7_fresh op h, List.forall_iff_forall_mem.mp q8_fresh op h, List.forall_iff_forall_mem.mp q9_fresh op h, List.forall_iff_forall_mem.mp q10_fresh op h, List.forall_iff_forall_mem.mp q11_fresh op h]

end Cert.ReferenceIdeal.Hand

end
-- ==== Proof.Ref.Keep.lean ====
import proofs.«114689_j15281493639468_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Which buffers each piece of the line writes, and hence that any other buffer keeps its contents through the piece. -/

/-- The contents after two lines run one after the other. -/
theorem after_append : ∀ (l₁ l₂ : List (HloOp τ sig (Elt F))) (V : Valuation τ sig (Elt F)), after (l₁ ++ l₂) V = after l₂ (after l₁ V)
  | [], _, _ => rfl
  | op :: l, l₂, V => by simp only [List.cons_append, after_cons]; exact after_append l l₂ _

/-- The buffers piece 0 writes, one an operation. -/
abbrev q0_W : List (Ref sig .tc) := [main_v0, main_v1, main_v2, main_v3, main_v4, main_v5, main_v6, main_cst, main_v7, main_cst_0, main_v8, main_v9, main_v10, main_cst_1, main_v11, main_cst_2, main_v12, main_v13, main_v14, main_cst_3, main_v15, main_v16, main_cst_4, main_v17, main_v18, main_v19, main_cst_5, main_call0.v0.ref, main_call0.v1.ref, main_call0.v2.ref, main_cst_6, main_v21, main_v22, main_cst_7, main_v23, main_v24, main_cst_8, main_call1.v0.ref, main_call1.v1.ref, main_call1.v2.ref, main_c, main_v26, main_v27, main_c_9, main_v28, main_v29, main_v30, main_v31, main_v32, main_v33, main_c_10, main_v34, main_v35, main_c_11, main_v36, main_v37, main_v38, main_v39, main_v40, main_v41]
set_option maxRecDepth 8192 in
theorem q0_writes : (q0 : List (HloOp τ sig (Elt F))).Forall fun op => op.writes ⊆ (q0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 0 does not write keeps its contents through it. -/
theorem q0_keep (V : Valuation τ sig (Elt F)) (r : Ref sig .tc) (h : r ∉ q0_W) :
    after q0 V (Proc.devRef .tc r) = V (Proc.devRef .tc r) :=
  after_of_writes_sub q0 _ q0_writes h

/-- The buffers piece 1 writes, one an operation. -/
abbrev q1_W : List (Ref sig .tc) := [main_v42, main_v43, main_v44, main_v45]
set_option maxRecDepth 8192 in
theorem q1_writes : (q1 : List (HloOp τ sig (Elt F))).Forall fun op => op.writes ⊆ (q1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 1 does not write keeps its contents through it. -/
theorem q1_keep (V : Valuation τ sig (Elt F)) (r : Ref sig .tc) (h : r ∉ q1_W) :
    after q1 V (Proc.devRef .tc r) = V (Proc.devRef .tc r) :=
  after_of_writes_sub q1 _ q1_writes h

/-- The buffers piece 2 writes, one an operation. -/
abbrev q2_W : List (Ref sig .tc) := [main_v46, main_v47, main_cst_12, main_v48, main_v49, main_v50, main_v51, main_v52, main_v53, main_v54, main_v55, main_v56, main_v57, main_v58, main_c_13, main_v59, main_v60, main_c_14, main_v61, main_v62, main_v63, main_v64, main_v65, main_v66, main_v67, main_cst_15, main_v68, main_v69, main_v70, main_v71, main_v72, main_v73, main_v74, main_v75, main_cst_16, main_v76, main_cst_17, main_v77, main_v78, main_c_18, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v80, main_v81, main_v82, main_cst_19, main_v83, main_v84, main_v85, main_v86, main_v87, main_v88, main_v89, main_v90, main_v91, main_v92, main_v93, main_v94, main_v95, main_v96, main_v97]
set_option maxRecDepth 8192 in
theorem q2_writes : (q2 : List (HloOp τ sig (Elt F))).Forall fun op => op.writes ⊆ (q2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 2 does not write keeps its contents through it. -/
theorem q2_keep (V : Valuation τ sig (Elt F)) (r : Ref sig .tc) (h : r ∉ q2_W) :
    after q2 V (Proc.devRef .tc r) = V (Proc.devRef .tc r) :=
  after_of_writes_sub q2 _ q2_writes h

/-- The buffers piece 3 writes, one an operation. -/
abbrev q3_W : List (Ref sig .tc) := [main_v98, main_cst_20, main_v99, main_v100]
set_option maxRecDepth 8192 in
theorem q3_writes : (q3 : List (HloOp τ sig (Elt F))).Forall fun op => op.writes ⊆ (q3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 3 does not write keeps its contents through it. -/
theorem q3_keep (V : Valuation τ sig (Elt F)) (r : Ref sig .tc) (h : r ∉ q3_W) :
    after q3 V (Proc.devRef .tc r) = V (Proc.devRef .tc r) :=
  after_of_writes_sub q3 _ q3_writes h

/-- The buffers piece 4 writes, one an operation. -/
abbrev q4_W : List (Ref sig .tc) := [main_v101, main_v102, main_v103, main_v104, main_v105, main_v106, main_v107, main_v108, main_cst_21, main_v109, main_v110, main_v111, main_v112, main_v113, main_v114, main_v115, main_v116, main_v117, main_v118, main_v119, main_c_22, main_v120, main_v121, main_c_23, main_v122, main_v123, main_v124, main_v125, main_v126, main_v127, main_v128, main_cst_24, main_v129, main_v130, main_v131, main_v132, main_v133, main_v134, main_v135, main_v136, main_cst_25, main_v137, main_cst_26, main_v138, main_v139, main_c_27, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v141, main_v142, main_v143, main_cst_28, main_v144, main_v145, main_v146, main_v147, main_v148]
set_option maxRecDepth 8192 in
theorem q4_writes : (q4 : List (HloOp τ sig (Elt F))).Forall fun op => op.writes ⊆ (q4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 4 does not write keeps its contents through it. -/
theorem q4_keep (V : Valuation τ sig (Elt F)) (r : Ref sig .tc) (h : r ∉ q4_W) :
    after q4 V (Proc.devRef .tc r) = V (Proc.devRef .tc r) :=
  after_of_writes_sub q4 _ q4_writes h

/-- The buffers piece 5 writes, one an operation. -/
abbrev q5_W : List (Ref sig .tc) := [main_v149, main_v150, main_v151, main_v152, main_v153, main_v154, main_v155, main_v156, main_v157, main_v158, main_v159, main_cst_29, main_v160, main_v161]
set_option maxRecDepth 8192 in
theorem q5_writes : (q5 : List (HloOp τ sig (Elt F))).Forall fun op => op.writes ⊆ (q5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 5 does not write keeps its contents through it. -/
theorem q5_keep (V : Valuation τ sig (Elt F)) (r : Ref sig .tc) (h : r ∉ q5_W) :
    after q5 V (Proc.devRef .tc r) = V (Proc.devRef .tc r) :=
  after_of_writes_sub q5 _ q5_writes h

/-- The buffers piece 6 writes, one an operation. -/
abbrev q6_W : List (Ref sig .tc) := [main_v162, main_v163, main_v164, main_v165, main_v166, main_v167, main_v168, main_v169, main_cst_30, main_v170, main_v171, main_v172, main_v173, main_v174, main_v175, main_v176, main_v177, main_v178, main_v179, main_v180, main_c_31, main_v181, main_v182, main_c_32, main_v183, main_v184, main_v185, main_v186, main_v187, main_v188, main_v189, main_cst_33, main_v190, main_v191, main_v192, main_v193, main_v194, main_v195, main_v196, main_v197, main_cst_34, main_v198, main_cst_35, main_v199, main_v200, main_c_36]
set_option maxRecDepth 8192 in
theorem q6_writes : (q6 : List (HloOp τ sig (Elt F))).Forall fun op => op.writes ⊆ (q6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 6 does not write keeps its contents through it. -/
theorem q6_keep (V : Valuation τ sig (Elt F)) (r : Ref sig .tc) (h : r ∉ q6_W) :
    after q6 V (Proc.devRef .tc r) = V (Proc.devRef .tc r) :=
  after_of_writes_sub q6 _ q6_writes h

/-- The buffers piece 7 writes, one an operation. -/
abbrev q7_W : List (Ref sig .tc) := [main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v202, main_v203, main_v204, main_cst_37, main_v205, main_v206, main_v207, main_v208, main_v209, main_v210, main_v211, main_v212, main_v213, main_v214, main_v215, main_v216, main_v217, main_v218, main_v219, main_v220, main_cst_38, main_v221, main_v222]
set_option maxRecDepth 8192 in
theorem q7_writes : (q7 : List (HloOp τ sig (Elt F))).Forall fun op => op.writes ⊆ (q7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 7 does not write keeps its contents through it. -/
theorem q7_keep (V : Valuation τ sig (Elt F)) (r : Ref sig .tc) (h : r ∉ q7_W) :
    after q7 V (Proc.devRef .tc r) = V (Proc.devRef .tc r) :=
  after_of_writes_sub q7 _ q7_writes h

/-- The buffers piece 8 writes, one an operation. -/
abbrev q8_W : List (Ref sig .tc) := [main_v223, main_v224, main_v225, main_v226, main_v227, main_v228, main_v229, main_v230, main_cst_39, main_v231, main_v232, main_v233, main_v234, main_v235, main_v236, main_v237, main_v238, main_v239, main_v240, main_v241, main_c_40, main_v242, main_v243, main_c_41, main_v244, main_v245, main_v246, main_v247, main_v248, main_v249, main_v250, main_cst_42, main_v251, main_v252, main_v253, main_v254]
set_option maxRecDepth 8192 in
theorem q8_writes : (q8 : List (HloOp τ sig (Elt F))).Forall fun op => op.writes ⊆ (q8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 8 does not write keeps its contents through it. -/
theorem q8_keep (V : Valuation τ sig (Elt F)) (r : Ref sig .tc) (h : r ∉ q8_W) :
    after q8 V (Proc.devRef .tc r) = V (Proc.devRef .tc r) :=
  after_of_writes_sub q8 _ q8_writes h

/-- The buffers piece 9 writes, one an operation. -/
abbrev q9_W : List (Ref sig .tc) := [main_v255, main_v256, main_v257, main_v258, main_cst_43, main_v259, main_cst_44, main_v260, main_v261, main_c_45, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v263, main_v264, main_v265, main_cst_46, main_v266, main_v267, main_v268, main_v269, main_v270, main_v271, main_v272, main_v273, main_v274, main_v275, main_v276, main_v277, main_v278, main_v279, main_v280, main_v281, main_cst_47, main_v282, main_v283]
set_option maxRecDepth 8192 in
theorem q9_writes : (q9 : List (HloOp τ sig (Elt F))).Forall fun op => op.writes ⊆ (q9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 9 does not write keeps its contents through it. -/
theorem q9_keep (V : Valuation τ sig (Elt F)) (r : Ref sig .tc) (h : r ∉ q9_W) :
    after q9 V (Proc.devRef .tc r) = V (Proc.devRef .tc r) :=
  after_of_writes_sub q9 _ q9_writes h

/-- The buffers piece 10 writes, one an operation. -/
abbrev q10_W : List (Ref sig .tc) := [main_v284, main_v285, main_v286, main_v287, main_v288, main_v289, main_v290, main_v291, main_cst_48, main_v292, main_v293, main_v294, main_v295, main_v296, main_v297, main_v298, main_v299, main_v300, main_v301, main_v302, main_c_49, main_v303, main_v304, main_c_50, main_v305, main_v306]
set_option maxRecDepth 8192 in
theorem q10_writes : (q10 : List (HloOp τ sig (Elt F))).Forall fun op => op.writes ⊆ (q10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 10 does not write keeps its contents through it. -/
theorem q10_keep (V : Valuation τ sig (Elt F)) (r : Ref sig .tc) (h : r ∉ q10_W) :
    after q10 V (Proc.devRef .tc r) = V (Proc.devRef .tc r) :=
  after_of_writes_sub q10 _ q10_writes h

/-- The buffers piece 11 writes, one an operation. -/
abbrev q11_W : List (Ref sig .tc) := [main_v307, main_v308, main_v309, main_v310, main_v311, main_cst_51, main_v312, main_v313, main_v314, main_v315, main_v316, main_v317, main_v318, main_v319, main_cst_52, main_v320, main_cst_53, main_v321, main_v322, main_c_54, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v324, main_v325, main_v326, main_cst_55, main_v327, main_v328, main_v329, main_v330, main_v331, main_v332, main_v333, main_v334, main_v335, main_v336, main_v337, main_v338, main_v339, main_v340, main_v341, main_v342]
set_option maxRecDepth 8192 in
theorem q11_writes : (q11 : List (HloOp τ sig (Elt F))).Forall fun op => op.writes ⊆ (q11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer piece 11 does not write keeps its contents through it. -/
theorem q11_keep (V : Valuation τ sig (Elt F)) (r : Ref sig .tc) (h : r ∉ q11_W) :
    after q11 V (Proc.devRef .tc r) = V (Proc.devRef .tc r) :=
  after_of_writes_sub q11 _ q11_writes h

end Cert.ReferenceIdeal.Hand

end
-- ==== Proof.Ref.Run.lean ====
import proofs.«114689_j15281493639468_1_alg».proof.Proof.Ref.Eq0
import proofs.«114689_j15281493639468_1_alg».proof.Proof.Ref.Eq1
import proofs.«114689_j15281493639468_1_alg».proof.Proof.Ref.Eq2
import proofs.«114689_j15281493639468_1_alg».proof.Proof.Ref.Eq3
import proofs.«114689_j15281493639468_1_alg».proof.Proof.Ref.Eq4
import proofs.«114689_j15281493639468_1_alg».proof.Proof.Ref.Eq5
import proofs.«114689_j15281493639468_1_alg».proof.Proof.Ref.Eq6
import proofs.«114689_j15281493639468_1_alg».proof.Proof.Ref.Sub
import proofs.«114689_j15281493639468_1_alg».proof.Proof.Ref.Keep

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's run: @main is the straight line `ops`, so every weakly fair execution terminates with each buffer at the
    fold of the operations' results over the launch contents; the result is read at the last layer's output buffer and the
    ten arguments, which no operation writes, end as they started. -/

/-- @main is the straight line of its 510 operations: window by window (each by unfolding), joined by the law that a
    concatenation runs as its parts in order. -/
theorem main_eq (c : Dev nD) : main (F := F) c = seq ops := by
  simp only [main, main_part0_eq, main_part1_eq, main_part2_eq, main_part3_eq, main_part4_eq, main_part5_eq, main_part6_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- The contents after the whole line are the pieces' folds nested in order. -/
theorem after_ops (V : Valuation τ sig (Elt F)) :
    after ops V = after q11 (after q10 (after q9 (after q8 (after q7 (after q6 (after q5 (after q4 (after q3 (after q2 (after q1 (after q0 (V)))))))))))) := by
  simp only [ops, after_append]

/-- A buffer that no piece writes keeps its contents through the whole line. -/
theorem ops_keep (V : Valuation τ sig (Elt F)) (r : Ref sig .tc)
    (h0 : r ∉ q0_W) (h1 : r ∉ q1_W) (h2 : r ∉ q2_W) (h3 : r ∉ q3_W) (h4 : r ∉ q4_W) (h5 : r ∉ q5_W) (h6 : r ∉ q6_W) (h7 : r ∉ q7_W) (h8 : r ∉ q8_W) (h9 : r ∉ q9_W) (h10 : r ∉ q10_W) (h11 : r ∉ q11_W) :
    after ops V (Proc.devRef .tc r) = V (Proc.devRef .tc r) := by
  rw [after_ops, q11_keep _ r h11, q10_keep _ r h10, q9_keep _ r h9, q8_keep _ r h8, q7_keep _ r h7, q6_keep _ r h6, q5_keep _ r h5, q4_keep _ r h4, q3_keep _ r h3, q2_keep _ r h2, q1_keep _ r h1, q0_keep _ r h0]

/-- What the result buffer holds after the line run from the launch contents of device `c`: the fold of the 510
    operations' pure functions, read at the last layer's output. -/
def result (m : (ℓ : Loc nD τ sig) → Buf (Elt F) ℓ) (c : Dev nD) : (⟨S100000x32, .f32⟩ : BufTy).Contents (Elt F) :=
  after ops (launchContents m c) (Proc.devRef .tc main_v342)

/-- On every device, for any float values, from any memory with zero counters: every weakly fair execution of @main
    terminates with the result buffer at the operations' composed term of the launch contents and the ten arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v342) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v342,
      (h c main_arg0).trans (ops_keep _ main_arg0 (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Spec.lean ====
/-
  The network both programs compute, written once over the extended reals, index by index.

  Nodes are rows `p : Fin 100000`, channels are columns.  One layer is

    z      = max (h · W1 + b1) 0 · W2 + b2                         (`dense`)
    a      = the edge aggregation of z (a function `agg` shared by both programs, kept abstract here)
    v      = a + bias                                              (`shift`)
    s1, s2 = the column sums of v and of v · v                      (`colSum`, `colSumSq`)
    h'     = (v − mean) · scale · γ + β, optionally clamped at 0    (`normalize`)

  where one program takes mean = s1 / n, var = s2 / n − mean · mean and scale = rsqrt (var + ε), and the other
  takes mean = s1 / n, var = (Σ (v − mean)²) / n and divides by sqrt (var + ε).  On real entries the two
  agree: the variance identity  (Σ v²) / n − ((Σ v) / n)² = (Σ (v − (Σ v) / n)²) / n  and
  x · (√y)⁻¹ = x / √y  for  y > 0.
-/
import Mathlib
import Idealize.ShloMosaic.PureOps.Ideal
import Idealize.ShloMosaic.PureOps.Ideal.Laws

noncomputable section

namespace Cert.Spec

open Idealize.ShloMosaic

/-- The number of nodes as an extended real: the pattern of the float `100000.0`. -/
def nF : EReal := Ideal.ofBits .f32 0x47C35000#32
/-- The stabiliser inside the square root: the pattern of the float nearest `1e-5`. -/
def eps : EReal := Ideal.ofBits .f32 0x3727C5AC#32

/-- A two-layer perceptron applied to every row: `max (x · W1 + b1) 0 · W2 + b2`. -/
def dense {C : ℕ} (X : Fin 100000 → Fin C → EReal) (W1 : Fin C → Fin 32 → EReal) (b1 : Fin 32 → EReal)
    (W2 : Fin 32 → Fin 32 → EReal) (b2 : Fin 32 → EReal) : Fin 100000 → Fin 32 → EReal :=
  fun p q => (∑ k : Fin 32, max ((∑ j : Fin C, X p j * W1 j k) + b1 k) 0 * W2 k q) + b2 q

/-- A row vector added to every row. -/
def shift (A : Fin 100000 → Fin 32 → EReal) (bias : Fin 32 → EReal) : Fin 100000 → Fin 32 → EReal :=
  fun p q => A p q + bias q

/-- The sum of every column of `A + bias`. -/
def colSum (A : Fin 100000 → Fin 32 → EReal) (bias : Fin 32 → EReal) : Fin 32 → EReal :=
  fun q => ∑ p : Fin 100000, shift A bias p q

/-- The sum of the squares of every column of `A + bias`. -/
def colSumSq (A : Fin 100000 → Fin 32 → EReal) (bias : Fin 32 → EReal) : Fin 32 → EReal :=
  fun q => ∑ p : Fin 100000, shift A bias p q * shift A bias p q

/-- The mean as the first program takes it: the column sum divided by the number of rows. -/
def meanOf (s1 : Fin 32 → EReal) : Fin 32 → EReal := fun q => Ideal.div (s1 q) nF

/-- The variance as the first program takes it: the mean of the squares less the square of the mean. -/
def varOf (s1 s2 : Fin 32 → EReal) : Fin 32 → EReal :=
  fun q => Ideal.div (s2 q) nF - meanOf s1 q * meanOf s1 q

/-- The normalisation as the first program takes it, from a given mean and variance row. -/
def normalize (relu : Bool) (A : Fin 100000 → Fin 32 → EReal) (bias mean var gamma beta : Fin 32 → EReal) :
    Fin 100000 → Fin 32 → EReal :=
  fun p q =>
    let y := (shift A bias p q - mean q) * Ideal.rsqrt (var q + eps) * gamma q + beta q
    if relu then max y 0 else y

/-- The variance as the second program takes it: the mean of the squared deviations from the mean. -/
def varCentered (A : Fin 100000 → Fin 32 → EReal) (bias : Fin 32 → EReal) : Fin 32 → EReal :=
  fun q => Ideal.div (∑ p : Fin 100000,
      (shift A bias p q - meanOf (colSum A bias) q) * (shift A bias p q - meanOf (colSum A bias) q)) nF

/-- The normalisation as the second program takes it: a quotient by the square root. -/
def normalizeDiv (relu : Bool) (A : Fin 100000 → Fin 32 → EReal) (bias mean var gamma beta : Fin 32 → EReal) :
    Fin 100000 → Fin 32 → EReal :=
  fun p q =>
    let y := Ideal.div (shift A bias p q - mean q) (Ideal.sqrt (var q + eps)) * gamma q + beta q
    if relu then max y 0 else y

/-- An array of extended reals all of whose entries are real numbers. -/
def IsReal2 {a b : ℕ} (A : Fin a → Fin b → EReal) : Prop := ∀ p q, ∃ r : ℝ, A p q = (r : EReal)
def IsReal1 {a : ℕ} (v : Fin a → EReal) : Prop := ∀ q, ∃ r : ℝ, v q = (r : EReal)

end Cert.Spec

end
-- ==== Proof.SpecLaws.lean ====
/-
  The laws behind `Spec`: on arrays whose entries are real numbers the two ways of normalising a layer
  agree, and every layer of the network keeps the entries real.

  The extended reals add and multiply commutatively and associatively, but distributing a product over a
  sum and cancelling a factor are sound only away from the infinities.  So each law assumes real entries,
  names the real numbers behind them, pushes the coercion `ℝ → EReal` outwards through sums, products and
  quotients by the row count, and is then an identity of real numbers:

    (Σ v²) / n − ((Σ v) / n)² = (Σ (v − (Σ v) / n)²) / n          (`real_var`)
    x · (√y)⁻¹ = x / √y   for  y > 0                               (`mul_rsqrt_eq_div_sqrt`)

  The variance in its centred form is a mean of squares, hence nonnegative; with the positive stabiliser
  the argument of the square root is positive, which is what the second identity needs.
-/
import Mathlib
import Idealize.ShloMosaic.PureOps.Ideal
import Idealize.ShloMosaic.PureOps.Ideal.Laws
import proofs.«114689_j15281493639468_1_alg».proof.Proof.Spec

noncomputable section

namespace Cert.Spec

open Idealize.ShloMosaic

/-! ## The two constants -/

/-- The pattern `0x47C35000`: sign `0`, exponent field `143`, significand field `4411392`, that is
    `(2²³ + 4411392) · 2^(143 − 127 − 23) = 12800000 / 128 = 100000`. -/
theorem nF_eq : nF = ((100000 : ℝ) : EReal) := by
  unfold nF
  simp [Ideal.ofBits, Ideal.ieee]
  rw [← EReal.coe_mul]
  congr 1
  norm_num

/-- The pattern `0x3727C5AC`: sign `0`, exponent field `110`, significand field `2606508`, that is
    `(2²³ + 2606508) · 2^(110 − 127 − 23) = 10995116 / 2⁴⁰`, a positive real number. -/
theorem eps_pos : ∃ e : ℝ, 0 < e ∧ eps = (e : EReal) := by
  unfold eps
  simp [Ideal.ofBits, Ideal.ieee]
  refine ⟨_, ?_, (EReal.coe_mul _ _).symm⟩
  positivity

/-! ## Extended reals that are real numbers -/

/-- An extended real that is a real number. -/
def IsR (x : EReal) : Prop := ∃ r : ℝ, x = (r : EReal)

theorem IsR.coe (r : ℝ) : IsR (r : EReal) := ⟨r, rfl⟩

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.max {x y : EReal} (hx : IsR x) (hy : IsR y) : IsR (max x y) := by
  obtain ⟨a, rfl⟩ := hx; obtain ⟨b, rfl⟩ := hy; exact ⟨Max.max a b, (EReal.coe_strictMono.monotone.map_max).symm⟩

/-- A finite sum of real numbers is a real number. -/
theorem IsR.sum {ι : Type*} (s : Finset ι) (f : ι → EReal) (h : ∀ i ∈ s, IsR (f i)) : IsR (∑ i ∈ s, f i) :=
  Finset.sum_induction f IsR (fun _ _ => IsR.add) IsR.zero h

/-- The coercion of a finite sum of real numbers is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real number divided by the row count. -/
theorem div_nF (x : ℝ) : Ideal.div (x : EReal) nF = ((x / 100000 : ℝ) : EReal) := by
  rw [nF_eq, Ideal.div_coe (by norm_num : (100000 : ℝ) ≠ 0), ← EReal.coe_mul, mul_one_div]

/-! ## The two identities over the real numbers -/

/-- The mean of the squares less the square of the mean is the mean of the squared deviations. -/
theorem real_var {ι : Type*} (s : Finset ι) (v : ι → ℝ) (n : ℝ) (hn : (s.card : ℝ) = n) (hn0 : n ≠ 0)
    (m : ℝ) (hm : m = (∑ p ∈ s, v p) / n) :
    (∑ p ∈ s, v p * v p) / n - m * m = (∑ p ∈ s, (v p - m) * (v p - m)) / n := by
  have hS : ∑ p ∈ s, v p = n * m := by rw [hm]; field_simp
  have h1 : ∑ p ∈ s, (v p - m) * (v p - m) = (∑ p ∈ s, v p * v p) - 2 * m * (∑ p ∈ s, v p) + n * (m * m) := by
    have h : ∀ p, (v p - m) * (v p - m) = v p * v p - 2 * m * v p + m * m := fun p => by ring
    simp only [h, Finset.sum_add_distrib, Finset.sum_sub_distrib, ← Finset.mul_sum, Finset.sum_const,
      nsmul_eq_mul, hn]
    ring
  rw [h1, hS]
  field_simp
  ring

/-- A product with the reciprocal square root is the quotient by the square root, for a positive argument. -/
theorem mul_rsqrt_eq_div_sqrt (x : EReal) {y : ℝ} (hy : 0 < y) :
    x * Ideal.rsqrt (y : EReal) = Ideal.div x (Ideal.sqrt (y : EReal)) := by
  have hs : Real.sqrt y ≠ 0 := (Real.sqrt_pos.mpr hy).ne'
  rw [Ideal.rsqrt_coe, if_neg (not_lt.mpr hy.le), if_neg hy.ne', Ideal.sqrt_coe, if_neg (not_lt.mpr hy.le),
    Ideal.div_coe hs, one_div]

/-! ## Each quantity of a layer, written over the real numbers behind the entries -/

section Coe

variable {A : Fin 100000 → Fin 32 → EReal} {bias : Fin 32 → EReal}
  {a : Fin 100000 → Fin 32 → ℝ} {b : Fin 32 → ℝ}

theorem shift_coe (hA : ∀ p q, A p q = (a p q : EReal)) (hb : ∀ q, bias q = (b q : EReal)) (p : Fin 100000)
    (q : Fin 32) : shift A bias p q = ((a p q + b q : ℝ) : EReal) := by
  unfold shift; rw [hA, hb, EReal.coe_add]

theorem colSum_coe (hA : ∀ p q, A p q = (a p q : EReal)) (hb : ∀ q, bias q = (b q : EReal)) (q : Fin 32) :
    colSum A bias q = ((∑ p, (a p q + b q) : ℝ) : EReal) := by
  unfold colSum; rw [coe_sum]; exact Finset.sum_congr rfl fun p _ => shift_coe hA hb p q

theorem colSumSq_coe (hA : ∀ p q, A p q = (a p q : EReal)) (hb : ∀ q, bias q = (b q : EReal)) (q : Fin 32) :
    colSumSq A bias q = ((∑ p, (a p q + b q) * (a p q + b q) : ℝ) : EReal) := by
  unfold colSumSq; rw [coe_sum]
  refine Finset.sum_congr rfl fun p _ => ?_
  rw [shift_coe hA hb, EReal.coe_mul]

theorem mean_coe (hA : ∀ p q, A p q = (a p q : EReal)) (hb : ∀ q, bias q = (b q : EReal)) (q : Fin 32) :
    meanOf (colSum A bias) q = (((∑ p, (a p q + b q)) / 100000 : ℝ) : EReal) := by
  unfold meanOf; rw [colSum_coe hA hb, div_nF]

theorem varOf_coe (hA : ∀ p q, A p q = (a p q : EReal)) (hb : ∀ q, bias q = (b q : EReal)) (q : Fin 32) :
    varOf (colSum A bias) (colSumSq A bias) q
      = (((∑ p, (a p q + b q) * (a p q + b q)) / 100000
          - (∑ p, (a p q + b q)) / 100000 * ((∑ p, (a p q + b q)) / 100000) : ℝ) : EReal) := by
  unfold varOf; rw [colSumSq_coe hA hb, div_nF, mean_coe hA hb, ← EReal.coe_mul, ← EReal.coe_sub]

theorem varCentered_coe (hA : ∀ p q, A p q = (a p q : EReal)) (hb : ∀ q, bias q = (b q : EReal)) (q : Fin 32) :
    varCentered A bias q
      = (((∑ p, (a p q + b q - (∑ p, (a p q + b q)) / 100000)
            * (a p q + b q - (∑ p, (a p q + b q)) / 100000)) / 100000 : ℝ) : EReal) := by
  unfold varCentered
  rw [mean_coe hA hb]
  generalize (∑ p, (a p q + b q)) / 100000 = m
  have h : ∀ p : Fin 100000, (shift A bias p q - (m : EReal)) * (shift A bias p q - (m : EReal))
      = (((a p q + b q - m) * (a p q + b q - m) : ℝ) : EReal) := fun p => by
    rw [shift_coe hA hb, ← EReal.coe_sub, ← EReal.coe_mul]
  rw [Finset.sum_congr rfl fun p _ => h p, ← coe_sum, div_nF]

end Coe

/-! ## Every layer keeps the entries real -/

variable {A : Fin 100000 → Fin 32 → EReal} {bias gamma beta : Fin 32 → EReal}

theorem isReal_shift (hA : IsReal2 A) (hb : IsReal1 bias) : IsReal2 (shift A bias) :=
  fun p q => IsR.add (hA p q) (hb q)

theorem isReal_colSum (hA : IsReal2 A) (hb : IsReal1 bias) : IsReal1 (colSum A bias) :=
  fun q => IsR.sum _ _ fun p _ => isReal_shift hA hb p q

theorem isReal_colSumSq (hA : IsReal2 A) (hb : IsReal1 bias) : IsReal1 (colSumSq A bias) :=
  fun q => IsR.sum _ _ fun p _ => IsR.mul (isReal_shift hA hb p q) (isReal_shift hA hb p q)

theorem isReal_dense {C : ℕ} {X : Fin 100000 → Fin C → EReal} {W1 : Fin C → Fin 32 → EReal} {b1 : Fin 32 → EReal}
    {W2 : Fin 32 → Fin 32 → EReal} {b2 : Fin 32 → EReal} (hX : IsReal2 X) (hW1 : IsReal2 W1) (hb1 : IsReal1 b1)
    (hW2 : IsReal2 W2) (hb2 : IsReal1 b2) : IsReal2 (dense X W1 b1 W2 b2) :=
  fun p q => IsR.add
    (IsR.sum _ _ fun k _ => IsR.mul
      (IsR.max (IsR.add (IsR.sum _ _ fun j _ => IsR.mul (hX p j) (hW1 j k)) (hb1 k)) IsR.zero) (hW2 k q))
    (hb2 q)

/-! ## The two variances agree, and the centred one is nonnegative -/

theorem var_eq (hA : IsReal2 A) (hb : IsReal1 bias) :
    varOf (colSum A bias) (colSumSq A bias) = varCentered A bias := by
  choose a ha using hA
  choose b hb' using hb
  funext q
  rw [varOf_coe ha hb', varCentered_coe ha hb']
  exact congrArg _ (real_var Finset.univ (fun p => a p q + b q) 100000 (by simp) (by norm_num) _ rfl)

theorem var_nonneg (hA : IsReal2 A) (hb : IsReal1 bias) :
    ∀ q, ∃ r : ℝ, 0 ≤ r ∧ varCentered A bias q = (r : EReal) := by
  choose a ha using hA
  choose b hb' using hb
  intro q
  exact ⟨_, div_nonneg (Finset.sum_nonneg fun p _ => mul_self_nonneg _) (by norm_num), varCentered_coe ha hb' q⟩

/-- The argument of the square root: a positive real number. -/
theorem var_add_eps_pos (hA : IsReal2 A) (hb : IsReal1 bias) (q : Fin 32) :
    ∃ y : ℝ, 0 < y ∧ varCentered A bias q + eps = (y : EReal) := by
  obtain ⟨r, hr0, hr⟩ := var_nonneg hA hb q
  obtain ⟨e, he, heps⟩ := eps_pos
  exact ⟨r + e, add_pos_of_nonneg_of_pos hr0 he, by rw [hr, heps, EReal.coe_add]⟩

/-! ## The two normalisations agree -/

theorem normalize_eq (relu : Bool) (hA : IsReal2 A) (hb : IsReal1 bias) (hg : IsReal1 gamma) (hbe : IsReal1 beta) :
    normalize relu A bias (meanOf (colSum A bias)) (varOf (colSum A bias) (colSumSq A bias)) gamma beta
      = normalizeDiv relu A bias (meanOf (colSum A bias)) (varCentered A bias) gamma beta := by
  rw [var_eq hA hb]
  funext p q
  obtain ⟨y, hy0, hy⟩ := var_add_eps_pos hA hb q
  have key : (shift A bias p q - meanOf (colSum A bias) q) * Ideal.rsqrt (varCentered A bias q + eps)
      = Ideal.div (shift A bias p q - meanOf (colSum A bias) q) (Ideal.sqrt (varCentered A bias q + eps)) := by
    rw [hy]; exact mul_rsqrt_eq_div_sqrt _ hy0
  simp only [normalize, normalizeDiv, key]

theorem isReal_normalizeDiv (relu : Bool) (hA : IsReal2 A) (hb : IsReal1 bias) (hg : IsReal1 gamma)
    (hbe : IsReal1 beta) :
    IsReal2 (normalizeDiv relu A bias (meanOf (colSum A bias)) (varCentered A bias) gamma beta) := by
  intro p q
  obtain ⟨y, hy0, hy⟩ := var_add_eps_pos hA hb q
  have hm : IsR (meanOf (colSum A bias) q) := by
    obtain ⟨s, hs⟩ := isReal_colSum hA hb q
    unfold meanOf; rw [hs, div_nF]; exact IsR.coe _
  have hx : IsR (shift A bias p q - meanOf (colSum A bias) q) := IsR.sub (isReal_shift hA hb p q) hm
  have hd : IsR (Ideal.div (shift A bias p q - meanOf (colSum A bias) q)
      (Ideal.sqrt (varCentered A bias q + eps))) := by
    rw [hy, Ideal.sqrt_coe, if_neg (not_lt.mpr hy0.le), Ideal.div_coe (Real.sqrt_pos.mpr hy0).ne']
    exact IsR.mul hx (IsR.coe _)
  have hv : IsR (Ideal.div (shift A bias p q - meanOf (colSum A bias) q)
      (Ideal.sqrt (varCentered A bias q + eps)) * gamma q + beta q) := IsR.add (IsR.mul hd (hg q)) (hbe q)
  cases relu
  · simp only [normalizeDiv, Bool.false_eq_true, if_false]; exact hv
  · simp only [normalizeDiv, if_true]; exact IsR.max hv IsR.zero

end Cert.Spec

end
-- ==== Proof.HostReal.lean ====
/-
  The host operations both programs share keep real entries real.

  A gather reads entries of its operand; an accumulating scatter adds to each operand entry a finite sum of
  update entries; products, sums, differences, maxima and selections of real numbers are real; a quotient
  by a real number that is not zero is real; a power of a real base to a real exponent is real.  Hence the
  degree normalisation  select (d > 0) (d ^ (−1/2)) 0  with  d = select (c > 0) (s / max c 1) 0  has real
  entries whenever `s` and `c` have (`max c 1 ≥ 1` is not zero), and so have the edge weights gathered from
  it and every edge aggregation of a real array.
-/
import Mathlib
import Idealize.ShloMosaic.PureOps.Ideal
import Idealize.ShloMosaic.PureOps.Ideal.Laws
import proofs.«114689_j15281493639468_1_alg».proof.Proof.SpecLaws

noncomputable section

namespace Cert.Spec

open Idealize.ShloMosaic

/-! ## Three constants -/

/-- The pattern `0x3F800000`: sign `0`, exponent field `127`, significand field `0`: `2²³ · 2^(127 − 127 − 23) = 1`. -/
theorem ofBits_one_f32 : Ideal.ofBits .f32 0x3F800000#32 = 1 := by
  simp [Ideal.ofBits, Ideal.ieee]
  rw [← EReal.coe_mul, ← EReal.coe_one]
  congr 1
  norm_num

/-- The pattern `0xBF000000`: sign `1`, exponent field `126`, significand field `0`: `−2²³ · 2^(126 − 127 − 23) = −1/2`. -/
theorem ofBits_mhalf_f32 : Ideal.ofBits .f32 0xBF000000#32 = ((-1 / 2 : ℝ) : EReal) := by
  simp [Ideal.ofBits, Ideal.ieee]
  rw [← EReal.coe_mul, ← EReal.coe_neg]
  congr 1
  norm_num

theorem IsR.one : IsR 1 := ⟨1, EReal.coe_one.symm⟩

/-! ## Gather and accumulating scatter -/

section Ops

variable {s si t u : Shape} {w : Nat} {φ : FTy}

/-- A gather reads entries of its operand. -/
theorem isR_gather (d : GatherDims s si t) (x : FVec Ideal s φ) (i : IVec si w) (hx : ∀ k, IsR (x k)) :
    ∀ j, IsR (Host.gather d x i j) :=
  fun j => hx (d.operandIdx j i)

/-- An accumulating scatter adds to each operand entry a finite sum of update entries. -/
theorem isR_scatterAdd (d : ScatterDims s si u) (x : FVec Ideal s φ) (i : IVec si w) (upd : FVec Ideal u φ)
    (hx : ∀ k, IsR (x k)) (hu : ∀ k, IsR (upd k)) : ∀ j, IsR (Host.scatterAdd d x i upd j) :=
  fun j => IsR.add (hx j) (IsR.sum _ _ fun k _ => hu k)

/-! ## The pointwise operations -/

theorem isR_mulf (x y : FVec Ideal s φ) (hx : ∀ k, IsR (x k)) (hy : ∀ k, IsR (y k)) :
    ∀ j, IsR (mulf (F := Ideal) x y j) :=
  fun j => IsR.mul (hx j) (hy j)

theorem isR_addf (x y : FVec Ideal s φ) (hx : ∀ k, IsR (x k)) (hy : ∀ k, IsR (y k)) :
    ∀ j, IsR (addf (F := Ideal) x y j) :=
  fun j => IsR.add (hx j) (hy j)

theorem isR_subf (x y : FVec Ideal s φ) (hx : ∀ k, IsR (x k)) (hy : ∀ k, IsR (y k)) :
    ∀ j, IsR (subf (F := Ideal) x y j) :=
  fun j => IsR.sub (hx j) (hy j)

theorem isR_maximumf (x y : FVec Ideal s φ) (hx : ∀ k, IsR (x k)) (hy : ∀ k, IsR (y k)) :
    ∀ j, IsR (maximumf (F := Ideal) x y j) :=
  fun j => IsR.max (hx j) (hy j)

/-- A selection between two real arrays is real, whatever the mask. -/
theorem isR_select (c : IVec s 1) (a b : FVec Ideal s φ) (ha : ∀ k, IsR (a k)) (hb : ∀ k, IsR (b k)) :
    ∀ j, IsR (select c a b j) := by
  intro j
  show IsR (if c j = 1 then a j else b j)
  split
  · exact ha j
  · exact hb j

/-- A quotient of extended reals by a real number that is not zero is real when the numerator is. -/
theorem IsR.div {x y : EReal} (hx : IsR x) {r : ℝ} (hy : y = (r : EReal)) (hr : r ≠ 0) : IsR (Ideal.div x y) := by
  rw [hy, Ideal.div_coe hr]; exact IsR.mul hx (IsR.coe _)

theorem isR_hostDivf (x y : FVec Ideal s φ) (hx : ∀ k, IsR (x k))
    (hy : ∀ k, ∃ r : ℝ, r ≠ 0 ∧ y k = (r : EReal)) : ∀ j, IsR (Host.divf (F := Ideal) x y j) := by
  intro j
  obtain ⟨r, hr, hyj⟩ := hy j
  exact IsR.div (hx j) hyj hr

/-- The maximum of a real number and one is a real number that is not zero. -/
theorem max_one_ne_zero {c o : EReal} (hc : IsR c) (ho : o = 1) : ∃ r : ℝ, r ≠ 0 ∧ max c o = (r : EReal) := by
  obtain ⟨a, rfl⟩ := hc
  refine ⟨Max.max a 1, ?_, ?_⟩
  · have : (0 : ℝ) < Max.max a 1 := lt_of_lt_of_le one_pos (le_max_right a 1)
    exact this.ne'
  · rw [ho, ← EReal.coe_one]; exact (EReal.coe_strictMono.monotone.map_max).symm

/-- A power of a real base to a real exponent is real (the real power function is total). -/
theorem IsR.pow {x y : EReal} (hx : IsR x) (hy : IsR y) : IsR (Ideal.pow x y) := by
  obtain ⟨a, rfl⟩ := hx; obtain ⟨b, rfl⟩ := hy
  exact ⟨Real.rpow a b, Ideal.pow_coe_coe a b⟩

theorem isR_hostPowf (x y : FVec Ideal s φ) (hx : ∀ k, IsR (x k)) (hy : ∀ k, IsR (y k)) :
    ∀ j, IsR (Host.powf (F := Ideal) x y j) :=
  fun j => IsR.pow (hx j) (hy j)

/-! ## The degree normalisation, the edge weights and the edge aggregation -/

/-- `select m₂ (d ^ e) z₂` with `d = select m₁ (s / max c 1) z₁`: real entries whenever `s`, `c`, `e`, `z₁`,
    `z₂` have, whatever the two masks. -/
theorem isR_degNorm (m1 m2 : IVec s 1) (sm cnt ones mhalf z1 z2 : FVec Ideal s φ)
    (hs : ∀ k, IsR (sm k)) (hc : ∀ k, IsR (cnt k)) (h1 : ∀ k, ones k = 1) (hm : ∀ k, IsR (mhalf k))
    (hz1 : ∀ k, IsR (z1 k)) (hz2 : ∀ k, IsR (z2 k)) :
    ∀ j, IsR (select m2 (Host.powf (F := Ideal)
      (select m1 (Host.divf (F := Ideal) sm (maximumf (F := Ideal) cnt ones)) z1) mhalf) z2 j) :=
  isR_select _ _ _
    (isR_hostPowf _ _
      (isR_select _ _ _ (isR_hostDivf _ _ hs fun k => max_one_ne_zero (hc k) (h1 k)) hz1) hm)
    hz2

/-- The same with the masks the programs compute: `c > 0` and `d > 0`, against any arrays. -/
theorem isR_degNorm_cmp (sm cnt ones mhalf z1 z2 z3 z4 : FVec Ideal s φ)
    (hs : ∀ k, IsR (sm k)) (hc : ∀ k, IsR (cnt k)) (h1 : ∀ k, ones k = 1) (hm : ∀ k, IsR (mhalf k))
    (hz2 : ∀ k, IsR (z2 k)) (hz4 : ∀ k, IsR (z4 k)) :
    ∀ j, IsR (select
      (cmpf (F := Ideal) .ogt
        (select (cmpf (F := Ideal) .ogt cnt z1) (Host.divf (F := Ideal) sm (maximumf (F := Ideal) cnt ones)) z2) z3)
      (Host.powf (F := Ideal)
        (select (cmpf (F := Ideal) .ogt cnt z1) (Host.divf (F := Ideal) sm (maximumf (F := Ideal) cnt ones)) z2)
        mhalf) z4 j) :=
  isR_degNorm _ _ sm cnt ones mhalf z2 z4 hs hc h1 hm hz2 hz4

/-- The edge weights: the product of the normalisation gathered at one end, an array of real numbers and the
    normalisation gathered at the other end. -/
theorem isR_edgeWeight (d1 d2 : GatherDims s si t) (dinv : FVec Ideal s φ) (ones : FVec Ideal t φ)
    (i1 i2 : IVec si w) (hd : ∀ k, IsR (dinv k)) (h1 : ∀ k, IsR (ones k)) :
    ∀ j, IsR (mulf (F := Ideal) (mulf (F := Ideal) (Host.gather d1 dinv i1) ones) (Host.gather d2 dinv i2) j) :=
  isR_mulf _ _ (isR_mulf _ _ (isR_gather d1 dinv i1 hd) h1) (isR_gather d2 dinv i2 hd)

/-- One edge aggregation: rows gathered at the sources, weighted, and summed at the targets. -/
theorem isR_aggregate {sj : Shape} {w' : Nat} (dg : GatherDims s si u) (ds : ScatterDims t sj u)
    (z : FVec Ideal s φ) (ew : FVec Ideal u φ) (zeros : FVec Ideal t φ) (iS : IVec si w) (iD : IVec sj w')
    (hz : ∀ k, IsR (z k)) (he : ∀ k, IsR (ew k)) (h0 : ∀ k, IsR (zeros k)) :
    ∀ j, IsR (Host.scatterAdd (F := Ideal) ds zeros iD (mulf (F := Ideal) ew (Host.gather dg z iS)) j) :=
  isR_scatterAdd ds zeros iD _ h0 (isR_mulf _ _ he (isR_gather dg z iS hz))

end Ops

end Cert.Spec

end
-- ==== Proof.SpecHost.lean ====
/-
  The host operations both programs share, as functions over the literal shapes.

  Both programs take the source and target node of every edge from the two rows of the edge array and
  append one loop per node; both normalise by the degree, counted by summing ones at the targets; both
  aggregate a layer's rows by gathering them at the sources, weighting them, and summing them at the targets.
  Every step keeps real entries real (`HostReal`), so the edge weights are real and an aggregation of a real
  array with real weights is real.
-/
import Mathlib
import Idealize.ShloMosaic.PureOps.Ideal
import Idealize.ShloMosaic.PureOps.Ideal.Laws
import proofs.«114689_j15281493639468_1_alg».proof.Proof.HostReal

noncomputable section

namespace Cert.Spec

open Idealize.ShloMosaic

/-! ## Shapes and dimension records -/

/-- One entry per edge, the loops included. -/
abbrev SE : Shape := ⟨1, ![3300000]⟩
abbrev SEx1 : Shape := ⟨2, ![3300000, 1]⟩
abbrev SEx32 : Shape := ⟨2, ![3300000, 32]⟩
/-- One entry per node. -/
abbrev SN : Shape := ⟨1, ![100000]⟩
abbrev SNx32 : Shape := ⟨2, ![100000, 32]⟩
abbrev S0 : Shape := ⟨0, ![]⟩

theorem bcast_S0_SE : S0.BroadcastsInDim SE (![] : Fin 0 → Fin SE.rank) := by decide
theorem bcast_S0_SN : S0.BroadcastsInDim SN (![] : Fin 0 → Fin SN.rank) := by decide
theorem bcast_S0_SNx32 : S0.BroadcastsInDim SNx32 (![] : Fin 0 → Fin SNx32.rank) := by decide
theorem bcast_SE_SEx1 : SE.BroadcastsInDim SEx1 (![0] : Fin 1 → Fin SEx1.rank) := by decide
theorem bcast_SEx1_SEx32 : SEx1.BroadcastsInDim SEx32 (![0, 1] : Fin 2 → Fin SEx32.rank) := by decide

/-- Sum one number per edge into its node. -/
def scatterN : ScatterDims SN SEx1 SE where
  updateWindowDims := []
  insertedWindowDims := [0]
  scatterDimsToOperandDims := [0]
  indexVectorDim := 1
  wf := by decide
/-- Read one number per edge from its node. -/
def gatherN : GatherDims SN SEx1 SE where
  offsetDims := []
  collapsedSliceDims := [0]
  operandBatchingDims := []
  startIndicesBatchingDims := []
  startIndexMap := [0]
  indexVectorDim := 1
  sliceSizes := ![1]
  wf := by decide
/-- Read one row per edge from its node. -/
def gatherNx32 : GatherDims SNx32 SEx1 SEx32 where
  offsetDims := [1]
  collapsedSliceDims := [0]
  operandBatchingDims := []
  startIndicesBatchingDims := []
  startIndexMap := [0]
  indexVectorDim := 1
  sliceSizes := ![1, 32]
  wf := by decide
/-- Sum one row per edge into its node. -/
def scatterNx32 : ScatterDims SNx32 SEx1 SEx32 where
  updateWindowDims := [1]
  insertedWindowDims := [0]
  scatterDimsToOperandDims := [0]
  indexVectorDim := 1
  wf := by decide

/-! ## The edge aggregation -/

/-- A node index read as jax reads it: a negative one counts from the end. -/
def normIdx (i : IVec SE 32) : IVec SE 32 :=
  select (cmpi .slt i (broadcastInDim SE ![] bcast_S0_SE (constantI S0 32 0#32)))
    (addi i (broadcastInDim SE ![] bcast_S0_SE (constantI S0 32 100000#32))) i

/-- One edge aggregation: the rows of `z` gathered at the sources, weighted by `ew`, summed at the targets. -/
def aggArr (src dst : IVec SE 32) (ew : FVec Ideal SE .f32) (z : FVec Ideal SNx32 .f32) : FVec Ideal SNx32 .f32 :=
  Host.scatterAdd (F := Ideal) scatterNx32
    (broadcastInDim SNx32 ![] bcast_S0_SNx32 (constant (F := Ideal) S0 .f32 0x00000000#32))
    (broadcastInDim SEx1 ![0] bcast_SE_SEx1 dst)
    (mulf (F := Ideal)
      (broadcastInDim SEx32 ![0, 1] bcast_SEx1_SEx32 (broadcastInDim SEx1 ![0] bcast_SE_SEx1 ew))
      (Host.gather gatherNx32 z (broadcastInDim SEx1 ![0] bcast_SE_SEx1 (normIdx src))))

/-! ## The edge endpoints -/

abbrev S2xE0 : Shape := ⟨2, ![2, 3200000]⟩
abbrev S1xE0 : Shape := ⟨2, ![1, 3200000]⟩
abbrev SE0 : Shape := ⟨1, ![3200000]⟩

theorem slices_row0 : S2xE0.Slices ![0, 0] S1xE0 := by decide
theorem slices_row1 : S2xE0.Slices ![1, 0] S1xE0 := by decide
theorem shapeCasts_S1xE0_SE0 : S1xE0.ShapeCasts SE0 := by decide
theorem concatenates_SE0_SN_SE : Shape.Concatenates [SE0, SN] SE 0 := by decide

/-- The sources: row `0` of the edge array, then one loop per node. -/
def srcArr (edge : IVec S2xE0 32) : IVec SE 32 :=
  concatenate SE 0 [⟨SE0, shapeCast SE0 (extractStridedSlice S1xE0 ![0, 0] edge slices_row0) shapeCasts_S1xE0_SE0⟩,
    ⟨SN, iotaInDim SN 32 0⟩] concatenates_SE0_SN_SE

/-- The targets: row `1` of the edge array, then one loop per node. -/
def dstArr (edge : IVec S2xE0 32) : IVec SE 32 :=
  concatenate SE 0 [⟨SE0, shapeCast SE0 (extractStridedSlice S1xE0 ![1, 0] edge slices_row1) shapeCasts_S1xE0_SE0⟩,
    ⟨SN, iotaInDim SN 32 0⟩] concatenates_SE0_SN_SE

/-! ## The edge weights -/

/-- One per edge. -/
def onesE : FVec Ideal SE .f32 := broadcastInDim SE ![] bcast_S0_SE (constant (F := Ideal) S0 .f32 0x3F800000#32)
/-- Zero, one and minus one half per node. -/
def zerosN : FVec Ideal SN .f32 := broadcastInDim SN ![] bcast_S0_SN (constant (F := Ideal) S0 .f32 0x00000000#32)
def onesN : FVec Ideal SN .f32 := broadcastInDim SN ![] bcast_S0_SN (constant (F := Ideal) S0 .f32 0x3F800000#32)
def mhalfN : FVec Ideal SN .f32 := broadcastInDim SN ![] bcast_S0_SN (constant (F := Ideal) S0 .f32 0xBF000000#32)

/-- The number of edges into each node, as a sum of ones. -/
def cntArr (dst : IVec SE 32) : FVec Ideal SN .f32 :=
  Host.scatterAdd (F := Ideal) scatterN zerosN (broadcastInDim SEx1 ![0] bcast_SE_SEx1 dst) onesE

/-- The mean edge weight into each node (`0` where no edge arrives). -/
def degArr (dst : IVec SE 32) : FVec Ideal SN .f32 :=
  select (cmpf (F := Ideal) .ogt (cntArr dst) zerosN)
    (Host.divf (F := Ideal) (cntArr dst) (maximumf (F := Ideal) (cntArr dst) onesN)) zerosN

/-- Its reciprocal square root (`0` where it is not positive). -/
def dinvArr (dst : IVec SE 32) : FVec Ideal SN .f32 :=
  select (cmpf (F := Ideal) .ogt (degArr dst) zerosN) (Host.powf (F := Ideal) (degArr dst) mhalfN) zerosN

/-- The weight of each edge: the normalisation at its source times one times the normalisation at its target. -/
def ewArr (src dst : IVec SE 32) : FVec Ideal SE .f32 :=
  mulf (F := Ideal)
    (mulf (F := Ideal) (Host.gather gatherN (dinvArr dst) (broadcastInDim SEx1 ![0] bcast_SE_SEx1 (normIdx src))) onesE)
    (Host.gather gatherN (dinvArr dst) (broadcastInDim SEx1 ![0] bcast_SE_SEx1 (normIdx dst)))

/-! ## Real entries -/

theorem onesE_apply (k : SE.Idx) : onesE k = 1 := ofBits_one_f32
theorem zerosN_apply (k : SN.Idx) : zerosN k = 0 := Ideal.ofBits_zero_f32
theorem onesN_apply (k : SN.Idx) : onesN k = 1 := ofBits_one_f32
theorem mhalfN_apply (k : SN.Idx) : mhalfN k = ((-1 / 2 : ℝ) : EReal) := ofBits_mhalf_f32

theorem isR_zerosN (k : SN.Idx) : IsR (zerosN k) := by rw [zerosN_apply]; exact IsR.zero
theorem isR_onesE (k : SE.Idx) : IsR (onesE k) := by rw [onesE_apply]; exact IsR.one

theorem isR_cntArr (dst : IVec SE 32) : ∀ j, IsR (cntArr dst j) :=
  isR_scatterAdd scatterN zerosN _ onesE isR_zerosN isR_onesE

theorem isR_dinvArr (dst : IVec SE 32) : ∀ j, IsR (dinvArr dst j) :=
  isR_degNorm_cmp (cntArr dst) (cntArr dst) onesN mhalfN zerosN zerosN zerosN zerosN (isR_cntArr dst) (isR_cntArr dst)
    onesN_apply (fun k => by rw [mhalfN_apply]; exact IsR.coe _) isR_zerosN isR_zerosN

/-- The edge weights are real. -/
theorem isR_ewArr (src dst : IVec SE 32) : ∀ j, IsR (ewArr src dst j) :=
  isR_edgeWeight gatherN gatherN (dinvArr dst) onesE _ _ (isR_dinvArr dst) isR_onesE

/-- An edge aggregation of a real array with real weights is real. -/
theorem isR_aggArr (src dst : IVec SE 32) (ew : FVec Ideal SE .f32) (z : FVec Ideal SNx32 .f32)
    (hew : ∀ k, IsR (ew k)) (hz : ∀ k, IsR (z k)) : ∀ j, IsR (aggArr src dst ew z j) :=
  isR_aggregate gatherNx32 scatterNx32 z _ _ _ _ hz (fun _ => hew _)
    (fun _ => by
      show IsR (Ideal.ofBits .f32 0x00000000#32)
      rw [Ideal.ofBits_zero_f32]; exact IsR.zero)

end Cert.Spec

end
-- ==== Proof.SpecNet.lean ====
/-
  One layer of the network as each program computes it, and their agreement.

  A layer applies the two-layer perceptron to every row, aggregates the rows along the edges, and
  normalises the columns.  The first program normalises with the mean of the squares less the square of the
  mean and a reciprocal square root, the second with the mean of the squared deviations and a quotient by
  the square root.  On real inputs the perceptron's rows are real, an aggregation with real weights keeps
  them real, and on real entries the two normalisations agree (`normalize_eq`) and are real again — so the
  layers can be chained.
-/
import Mathlib
import Idealize.ShloMosaic.PureOps.Ideal
import Idealize.ShloMosaic.PureOps.Ideal.Laws
import Idealize.ShloMosaic.Lib.ValueIdx
import proofs.«114689_j15281493639468_1_alg».proof.Proof.SpecLaws
import proofs.«114689_j15281493639468_1_alg».proof.Proof.SpecHost

noncomputable section

namespace Cert.Spec

open Idealize.ShloMosaic

/-! ## A node array by rows and columns -/

/-- The entries of a node array by row and column. -/
def cur (A : FVec Ideal SNx32 .f32) : Fin 100000 → Fin 32 → EReal := fun p q => A (ValueIdx.ix2 p q)

/-- The node array with given entries. -/
def uncur (Z : Fin 100000 → Fin 32 → EReal) : FVec Ideal SNx32 .f32 := fun i => Z (i 0) (i 1)

theorem cur_uncur (Z : Fin 100000 → Fin 32 → EReal) : cur (uncur Z) = Z := rfl

theorem uncur_cur (A : FVec Ideal SNx32 .f32) : uncur (cur A) = A :=
  funext fun i => congrArg A (ValueIdx.eq_ix2 i).symm

theorem cur_apply (A : FVec Ideal SNx32 .f32) (p : Fin 100000) (q : Fin 32) : cur A p q = A (ValueIdx.ix2 p q) := rfl

theorem uncur_apply (Z : Fin 100000 → Fin 32 → EReal) (i : SNx32.Idx) : uncur Z i = Z (i 0) (i 1) := rfl

theorem isReal_cur {A : FVec Ideal SNx32 .f32} (hA : ∀ k, IsR (A k)) : IsReal2 (cur A) := fun p q => hA _

theorem isR_uncur {Z : Fin 100000 → Fin 32 → EReal} (hZ : IsReal2 Z) : ∀ k, IsR (uncur Z k) := fun k => hZ (k 0) (k 1)

/-! ## One layer, both ways -/

section Layer

variable (relu : Bool) (src dst : IVec SE 32) (ew : FVec Ideal SE .f32) {C : ℕ} (H : Fin 100000 → Fin C → EReal)
  (W1 : Fin C → Fin 32 → EReal) (b1 : Fin 32 → EReal) (W2 : Fin 32 → Fin 32 → EReal) (b2 bias gamma beta : Fin 32 → EReal)

/-- The aggregated perceptron rows: what both programs normalise. -/
def layerAgg : Fin 100000 → Fin 32 → EReal := cur (aggArr src dst ew (uncur (dense H W1 b1 W2 b2)))

/-- The layer as the first program computes it. -/
def layerK : Fin 100000 → Fin 32 → EReal :=
  let A := cur (aggArr src dst ew (uncur (dense H W1 b1 W2 b2)))
  normalize relu A bias (meanOf (colSum A bias)) (varOf (colSum A bias) (colSumSq A bias)) gamma beta

/-- The layer as the second program computes it. -/
def layerR : Fin 100000 → Fin 32 → EReal :=
  let A := cur (aggArr src dst ew (uncur (dense H W1 b1 W2 b2)))
  normalizeDiv relu A bias (meanOf (colSum A bias)) (varCentered A bias) gamma beta

variable {relu src dst ew H W1 b1 W2 b2 bias gamma beta}

/-- The aggregated rows are real. -/
theorem isReal_layerAgg (hew : ∀ k, IsR (ew k)) (hH : IsReal2 H) (hW1 : IsReal2 W1) (hb1 : IsReal1 b1)
    (hW2 : IsReal2 W2) (hb2 : IsReal1 b2) : IsReal2 (layerAgg src dst ew H W1 b1 W2 b2) :=
  isReal_cur (isR_aggArr src dst ew _ hew (isR_uncur (isReal_dense hH hW1 hb1 hW2 hb2)))

/-- On real inputs the two programs compute the same layer, and it is real. -/
theorem layer_eq (hew : ∀ k, IsR (ew k)) (hH : IsReal2 H) (hW1 : IsReal2 W1) (hb1 : IsReal1 b1) (hW2 : IsReal2 W2)
    (hb2 : IsReal1 b2) (hbias : IsReal1 bias) (hg : IsReal1 gamma) (hbe : IsReal1 beta) :
    layerK relu src dst ew H W1 b1 W2 b2 bias gamma beta = layerR relu src dst ew H W1 b1 W2 b2 bias gamma beta
      ∧ IsReal2 (layerR relu src dst ew H W1 b1 W2 b2 bias gamma beta) :=
  have hA := isReal_layerAgg (src := src) (dst := dst) hew hH hW1 hb1 hW2 hb2
  ⟨normalize_eq relu hA hbias hg hbe, isReal_normalizeDiv relu hA hbias hg hbe⟩

end Layer

end Cert.Spec

end
-- ==== Proof.SpecRows.lean ====
/-
  Rows and blocks of the stacked parameter arrays, and how a row or a block cut out by a slice and relaid by
  shape casts reads entry by entry.
-/
import Idealize.ShloMosaic.PureOps.Ideal
import Idealize.ShloMosaic.Lib.ValueIdx
import Idealize.ShloMosaic.Lib.Pipeline.Value
import Idealize.ShloMosaic.Lib.ValueLayout

noncomputable section

namespace Cert.Spec

open Idealize.ShloMosaic Idealize.ShloMosaic.ValueIdx

/-- Row `l` of a matrix. -/
def rowOf {n b : ℕ} (A : (⟨2, ![n, b]⟩ : Shape).Idx → EReal) (l : Fin n) : Fin b → EReal := fun q => A (ix2 l q)

/-- Block `l` of a stack of matrices. -/
def matOf {n a b : ℕ} (A : (⟨3, ![n, a, b]⟩ : Shape).Idx → EReal) (l : Fin n) : Fin a → Fin b → EReal :=
  fun j k => A (ix3 l j k)

variable {α : Type}

/-- Row l of an [n, b] matrix cut out as a one-row matrix, flattened and laid as a one-row matrix again. -/
theorem rowSlice_apply {n b : ℕ} (l : Nat) (X : (⟨2, ![n, b]⟩ : Shape).Idx → α)
    (hs : (⟨2, ![n, b]⟩ : Shape).Slices ![l, 0] ⟨2, ![1, b]⟩) (h1 : (⟨2, ![1, b]⟩ : Shape).ShapeCasts ⟨1, ![b]⟩)
    (h2 : (⟨1, ![b]⟩ : Shape).ShapeCasts ⟨2, ![1, b]⟩) (k : Fin n) (hk : k.val = l) (u : Fin 1) (q : Fin b) :
    shapeCast ⟨2, ![1, b]⟩ (shapeCast ⟨1, ![b]⟩ (extractStridedSlice ⟨2, ![1, b]⟩ ![l, 0] X hs) h1) h2 (ix2 u q) = X (ix2 k q) := by
  rw [shapeCast_a_1a_apply, shapeCast_1a_a_apply]
  exact slice2_axis0_apply l X hs (0 : Fin 1) q k (by rw [hk]; rfl)

/-- Block l of an [n, a, b] array cut out as a one-block array and laid as a matrix. -/
theorem matSlice_apply {n a b : ℕ} (l : Nat) (X : (⟨3, ![n, a, b]⟩ : Shape).Idx → α)
    (hs : (⟨3, ![n, a, b]⟩ : Shape).Slices ![l, 0, 0] ⟨3, ![1, a, b]⟩) (h1 : (⟨3, ![1, a, b]⟩ : Shape).ShapeCasts ⟨2, ![a, b]⟩)
    (k : Fin n) (hk : k.val = l) (i : Fin a) (j : Fin b) :
    shapeCast ⟨2, ![a, b]⟩ (extractStridedSlice ⟨3, ![1, a, b]⟩ ![l, 0, 0] X hs) h1 (ix2 i j) = X (ix3 k i j) := by
  rw [shapeCast_1ab_ab_apply]
  exact extractStridedSlice_apply _ _ _ _ _ (fun ax => by
    match ax with
    | ⟨0, _⟩ => show k.val = l + 0; omega
    | ⟨1, _⟩ => show i.val = 0 + i.val; omega
    | ⟨2, _⟩ => show j.val = 0 + j.val; omega)

end Cert.Spec

end
-- ==== Proof.SpecFull.lean ====
/-
  The whole network: five layers, the output of each the input of the next, the last without the clamp.
  Written twice — once with each program's normalisation — and the two shown equal on real inputs by applying the
  one-layer agreement five times, each layer handing the next the fact that its output is real.
-/
import proofs.«114689_j15281493639468_1_alg».proof.Proof.SpecNet
import proofs.«114689_j15281493639468_1_alg».proof.Proof.SpecRows

noncomputable section

namespace Cert.Spec

open Idealize.ShloMosaic

section Net

variable (x : (⟨2, ![100000, 256]⟩ : Shape).Idx → EReal) (edge : IVec S2xE0 32) (w10 : (⟨2, ![256, 32]⟩ : Shape).Idx → EReal)
  (w1r : (⟨3, ![4, 32, 32]⟩ : Shape).Idx → EReal) (b1 : (⟨2, ![5, 32]⟩ : Shape).Idx → EReal)
  (w2 : (⟨3, ![5, 32, 32]⟩ : Shape).Idx → EReal) (b2 bias gamma beta : (⟨2, ![5, 32]⟩ : Shape).Idx → EReal)

/-- The network with the first program's normalisation in every layer. -/
def netK : Fin 100000 → Fin 32 → EReal :=
  layerK false (srcArr edge) (dstArr edge) (ewArr (srcArr edge) (dstArr edge)) (layerK true (srcArr edge) (dstArr edge) (ewArr (srcArr edge) (dstArr edge)) (layerK true (srcArr edge) (dstArr edge) (ewArr (srcArr edge) (dstArr edge)) (layerK true (srcArr edge) (dstArr edge) (ewArr (srcArr edge) (dstArr edge)) (layerK true (srcArr edge) (dstArr edge) (ewArr (srcArr edge) (dstArr edge)) (fun p j => x (ValueIdx.ix2 p j)) (fun j k => w10 (ValueIdx.ix2 j k)) (rowOf b1 0) (matOf w2 0) (rowOf b2 0) (rowOf bias 0) (rowOf gamma 0) (rowOf beta 0)) (matOf w1r 0) (rowOf b1 1) (matOf w2 1) (rowOf b2 1) (rowOf bias 1) (rowOf gamma 1) (rowOf beta 1)) (matOf w1r 1) (rowOf b1 2) (matOf w2 2) (rowOf b2 2) (rowOf bias 2) (rowOf gamma 2) (rowOf beta 2)) (matOf w1r 2) (rowOf b1 3) (matOf w2 3) (rowOf b2 3) (rowOf bias 3) (rowOf gamma 3) (rowOf beta 3)) (matOf w1r 3) (rowOf b1 4) (matOf w2 4) (rowOf b2 4) (rowOf bias 4) (rowOf gamma 4) (rowOf beta 4)

/-- The network with the second program's normalisation in every layer. -/
def netR : Fin 100000 → Fin 32 → EReal :=
  layerR false (srcArr edge) (dstArr edge) (ewArr (srcArr edge) (dstArr edge)) (layerR true (srcArr edge) (dstArr edge) (ewArr (srcArr edge) (dstArr edge)) (layerR true (srcArr edge) (dstArr edge) (ewArr (srcArr edge) (dstArr edge)) (layerR true (srcArr edge) (dstArr edge) (ewArr (srcArr edge) (dstArr edge)) (layerR true (srcArr edge) (dstArr edge) (ewArr (srcArr edge) (dstArr edge)) (fun p j => x (ValueIdx.ix2 p j)) (fun j k => w10 (ValueIdx.ix2 j k)) (rowOf b1 0) (matOf w2 0) (rowOf b2 0) (rowOf bias 0) (rowOf gamma 0) (rowOf beta 0)) (matOf w1r 0) (rowOf b1 1) (matOf w2 1) (rowOf b2 1) (rowOf bias 1) (rowOf gamma 1) (rowOf beta 1)) (matOf w1r 1) (rowOf b1 2) (matOf w2 2) (rowOf b2 2) (rowOf bias 2) (rowOf gamma 2) (rowOf beta 2)) (matOf w1r 2) (rowOf b1 3) (matOf w2 3) (rowOf b2 3) (rowOf bias 3) (rowOf gamma 3) (rowOf beta 3)) (matOf w1r 3) (rowOf b1 4) (matOf w2 4) (rowOf b2 4) (rowOf bias 4) (rowOf gamma 4) (rowOf beta 4)

variable {x edge w10 w1r b1 w2 b2 bias gamma beta}

/-- On real inputs the two networks are one function. -/
theorem net_eq (hx : ∀ i, IsR (x i)) (hw10 : ∀ i, IsR (w10 i)) (hw1r : ∀ i, IsR (w1r i)) (hb1 : ∀ i, IsR (b1 i))
    (hw2 : ∀ i, IsR (w2 i)) (hb2 : ∀ i, IsR (b2 i)) (hbias : ∀ i, IsR (bias i)) (hg : ∀ i, IsR (gamma i))
    (hbe : ∀ i, IsR (beta i)) :
    netK x edge w10 w1r b1 w2 b2 bias gamma beta = netR x edge w10 w1r b1 w2 b2 bias gamma beta := by
  have hew := isR_ewArr (srcArr edge) (dstArr edge)
  have row : ∀ (A : (⟨2, ![5, 32]⟩ : Shape).Idx → EReal), (∀ i, IsR (A i)) → ∀ l, IsReal1 (rowOf A l) := fun A hA l q => hA _
  have m5 : ∀ l, IsReal2 (matOf w2 l) := fun l j k => hw2 _
  have m4 : ∀ l, IsReal2 (matOf w1r l) := fun l j k => hw1r _
  obtain ⟨e1, r1⟩ := layer_eq (relu := true) (src := srcArr edge) (dst := dstArr edge) hew
    (H := fun p j => x (ValueIdx.ix2 p j)) (W1 := fun j k => w10 (ValueIdx.ix2 j k)) (fun p j => hx _) (fun j k => hw10 _)
    (row b1 hb1 0) (m5 0) (row b2 hb2 0) (row bias hbias 0) (row gamma hg 0) (row beta hbe 0)
  obtain ⟨e2, r2⟩ := layer_eq (relu := true) (src := srcArr edge) (dst := dstArr edge) hew r1 (m4 0)
    (row b1 hb1 1) (m5 1) (row b2 hb2 1) (row bias hbias 1) (row gamma hg 1) (row beta hbe 1)
  obtain ⟨e3, r3⟩ := layer_eq (relu := true) (src := srcArr edge) (dst := dstArr edge) hew r2 (m4 1)
    (row b1 hb1 2) (m5 2) (row b2 hb2 2) (row bias hbias 2) (row gamma hg 2) (row beta hbe 2)
  obtain ⟨e4, r4⟩ := layer_eq (relu := true) (src := srcArr edge) (dst := dstArr edge) hew r3 (m4 2)
    (row b1 hb1 3) (m5 3) (row b2 hb2 3) (row bias hbias 3) (row gamma hg 3) (row beta hbe 3)
  obtain ⟨e5, -⟩ := layer_eq (relu := false) (src := srcArr edge) (dst := dstArr edge) hew r4 (m4 3)
    (row b1 hb1 4) (m5 4) (row b2 hb2 4) (row bias hbias 4) (row gamma hg 4) (row beta hbe 4)
  unfold netK netR
  rw [e1, e2, e3, e4, e5]

end Net

end Cert.Spec

end
-- ==== Proof.KI.ChainHost0.lean ====
/-
  What the host operations around layer 0 compute, read for an arbitrary valuation of the buffers: the rows and
  blocks of the stacked parameters they cut out, the edge aggregation of the perceptron's result, and the mean and
  variance rows from the two column sums.
-/
import proofs.«114689_j15281493639468_1_alg».proof.Proof.Gen.KernelIdeal.Launch
import proofs.«114689_j15281493639468_1_alg».proof.Proof.Spec
import proofs.«114689_j15281493639468_1_alg».proof.Proof.SpecHost
import proofs.«114689_j15281493639468_1_alg».proof.Proof.SpecRows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (W : Valuation τ sig (Elt Ideal))

/-! ## Before the perceptron: its weights and bias rows -/

set_option maxHeartbeats 4000000 in
/-- The first bias row of layer 0 is row 0 of its stack. -/
theorem hmlp0_b1 (q : Fin 32) : StableHlo.after (hostOps0_4 (F := Ideal)) W (Proc.devRef .tc main_v48) (ix2 (0 : Fin 1) q)
      = W (Proc.devRef .tc main_arg4) (ix2 (0 : Fin 5) q) := by
  after_results_simp
  exact Cert.Spec.rowSlice_apply 0 _ _ _ _ (0 : Fin 5) rfl (0 : Fin 1) q

set_option maxHeartbeats 4000000 in
/-- The second weight matrix of layer 0 is block 0 of its stack. -/
theorem hmlp0_w2 (j k : Fin 32) : StableHlo.after (hostOps0_4 (F := Ideal)) W (Proc.devRef .tc main_v45) (ix2 j k)
      = W (Proc.devRef .tc main_arg5) (ix3 (0 : Fin 5) j k) := by
  after_results_simp
  exact Cert.Spec.matSlice_apply 0 _ _ _ (0 : Fin 5) rfl j k

set_option maxHeartbeats 4000000 in
/-- The second bias row of layer 0 is row 0 of its stack. -/
theorem hmlp0_b2 (q : Fin 32) : StableHlo.after (hostOps0_4 (F := Ideal)) W (Proc.devRef .tc main_v49) (ix2 (0 : Fin 1) q)
      = W (Proc.devRef .tc main_arg6) (ix2 (0 : Fin 5) q) := by
  after_results_simp
  exact Cert.Spec.rowSlice_apply 0 _ _ _ _ (0 : Fin 5) rfl (0 : Fin 1) q

/-! ## Between the perceptron and the statistics: the edge aggregation -/

set_option maxHeartbeats 4000000 in
/-- The aggregated array is the edge aggregation of the perceptron's result. -/
theorem hagg0 : StableHlo.after (hostOps1 (F := Ideal)) W (Proc.devRef .tc main_v63)
      = Cert.Spec.aggArr (W (Proc.devRef .tc main_v3)) (W (Proc.devRef .tc main_v6)) (W (Proc.devRef .tc main_v41)) (W (Proc.devRef .tc main_v50)) := by
  after_results_simp; rfl

set_option maxHeartbeats 4000000 in
/-- The bias row the statistics add is row 0 of its stack. -/
theorem hagg0_bias (q : Fin 32) : StableHlo.after (hostOps1 (F := Ideal)) W (Proc.devRef .tc main_v66) (ix2 (0 : Fin 1) q)
      = W (Proc.devRef .tc main_arg7) (ix2 (0 : Fin 5) q) := by
  after_results_simp
  exact Cert.Spec.rowSlice_apply 0 _ _ _ _ (0 : Fin 5) rfl (0 : Fin 1) q

/-! ## Between the statistics and the normalisation: mean, variance and the three parameter rows -/

set_option maxHeartbeats 4000000 in
/-- The mean row is the first column sum divided by the number of rows. -/
theorem hnorm0_mean (q : Fin 32) : StableHlo.after (hostOps2 (F := Ideal)) W (Proc.devRef .tc main_v69) (ix2 (0 : Fin 1) q)
      = Cert.Spec.meanOf (fun q => W (Proc.devRef .tc main_v67_0) (ix2 (0 : Fin 1) q)) q := by
  after_results_simp; rfl

set_option maxHeartbeats 4000000 in
/-- The variance row is the mean of the squares less the square of the mean. -/
theorem hnorm0_var (q : Fin 32) : StableHlo.after (hostOps2 (F := Ideal)) W (Proc.devRef .tc main_v73) (ix2 (0 : Fin 1) q)
      = Cert.Spec.varOf (fun q => W (Proc.devRef .tc main_v67_0) (ix2 (0 : Fin 1) q)) (fun q => W (Proc.devRef .tc main_v67_1) (ix2 (0 : Fin 1) q)) q := by
  after_results_simp; rfl

set_option maxHeartbeats 4000000 in
/-- The bias row the normalisation adds is row 0 of its stack. -/
theorem hnorm0_bias (q : Fin 32) : StableHlo.after (hostOps2 (F := Ideal)) W (Proc.devRef .tc main_v80) (ix2 (0 : Fin 1) q)
      = W (Proc.devRef .tc main_arg7) (ix2 (0 : Fin 5) q) := by
  after_results_simp
  exact Cert.Spec.rowSlice_apply 0 _ _ _ _ (0 : Fin 5) rfl (0 : Fin 1) q

set_option maxHeartbeats 4000000 in
/-- The scale row is row 0 of its stack. -/
theorem hnorm0_gamma (q : Fin 32) : StableHlo.after (hostOps2 (F := Ideal)) W (Proc.devRef .tc main_v81) (ix2 (0 : Fin 1) q)
      = W (Proc.devRef .tc main_arg8) (ix2 (0 : Fin 5) q) := by
  after_results_simp
  exact Cert.Spec.rowSlice_apply 0 _ _ _ _ (0 : Fin 5) rfl (0 : Fin 1) q

set_option maxHeartbeats 4000000 in
/-- The offset row is row 0 of its stack. -/
theorem hnorm0_beta (q : Fin 32) : StableHlo.after (hostOps2 (F := Ideal)) W (Proc.devRef .tc main_v82) (ix2 (0 : Fin 1) q)
      = W (Proc.devRef .tc main_arg9) (ix2 (0 : Fin 5) q) := by
  after_results_simp
  exact Cert.Spec.rowSlice_apply 0 _ _ _ _ (0 : Fin 5) rfl (0 : Fin 1) q

end Cert.KernelIdeal.Hand

end
-- ==== Proof.Lib.LibDenseRows.lean ====
/-
  A dense layer acts on a matrix one row at a time.

  For a matrix A (m rows of k entries), a weight matrix W (k by n) and a bias laid as a one-row matrix B (1 by n),
  row p of  A·W + B  is the affine image  a ↦ a·W + B  of row p of A, and nothing else of A enters it. The same
  holds after clamping at zero, after a second such layer, and after adding the input row back. So each dense
  stage of the network is a function of one row applied to every row, and a block of consecutive rows of the
  result is that function applied to the same rows of the input.

  Two spellings of one affine layer are read here at row p and column q:
  * a product accumulated into a zero matrix, plus the one-row bias copied down the rows by aligning trailing axes;
  * a plain product, plus the one-row bias copied down the rows by naming the axes.
  Both are  ∑ c, A(p, c) · W(c, q) + B(0, q): the accumulator is the extended real 0 and 0 + x = x, so no
  finiteness is used. A vector laid as a one-row matrix is the same matrix whether it is recast or broadcast.
-/
import Idealize.ShloMosaic.Lib.StackMember
import Idealize.ShloMosaic.Lib.KernelVsHost
import Idealize.ShloMosaic.Lib.ValueLayout
import Idealize.ShloMosaic.PureOps.Ideal.Laws

noncomputable section

namespace DenseRows

open Idealize.ShloMosaic Idealize.ShloMosaic.ValueIdx Idealize.ShloMosaic.StackMember

variable {m k n : Nat}

/-- A matrix of extended reals, entry by entry. -/
abbrev Mat (m n : Nat) := (⟨2, ![m, n]⟩ : Shape).Idx → EReal

/-- Row p of a matrix. -/
def row (A : Mat m k) (p : Fin m) : Fin k → EReal := fun c => A (ix2 p c)

/-- The affine image of one row: a·W + B, with B a one-row matrix. -/
def affine (W : Mat k n) (B : Mat 1 n) (a : Fin k → EReal) : Fin n → EReal :=
  fun q => (∑ c : Fin k, a c * W (ix2 c q)) + B (ix2 (0 : Fin 1) q)

/-- A row clamped below at the zero word's value. -/
def clamp (v : Fin n → EReal) : Fin n → EReal := fun q => max (v q) (Ideal.ofBits .f32 0x00000000#32)

/-- A function of one row applied to every row of a matrix. -/
def onRows (f : (Fin k → EReal) → Fin n → EReal) (A : Mat m k) : Mat m n := fun i => f (row A (i 0)) (i 1)

theorem onRows_apply (f : (Fin k → EReal) → Fin n → EReal) (A : Mat m k) (p : Fin m) (q : Fin n) :
    onRows f A (ix2 p q) = f (row A p) q := rfl

variable {α : Type}

/-- A one-row matrix copied down m rows by aligning trailing axes: at (p, q) it is the row's entry q. -/
theorem broadcastTo_oneRow_apply (B : (⟨2, ![1, n]⟩ : Shape).Idx → α)
    (h : (⟨2, ![1, n]⟩ : Shape).Broadcasts ⟨2, ![m, n]⟩) (p : Fin m) (q : Fin n) :
    broadcastTo ⟨2, ![m, n]⟩ B h (ix2 p q) = B (ix2 (0 : Fin 1) q) := by
  refine broadcastTo_apply B h (ix2 p q) (ix2 (0 : Fin 1) q) fun ax => ?_
  match ax with
  | ⟨0, _⟩ => rfl
  | ⟨1, _⟩ =>
    show q.val = if n = 1 then 0 else q.val
    split
    · have := q.isLt; omega
    · rfl

/-- A vector recast as a one-row matrix is the vector broadcast along axis 1 of a one-row matrix. -/
theorem shapeCast_row_eq_broadcastInDim (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  obtain ⟨u, q, rfl⟩ : ∃ (u : Fin 1) (q : Fin n), i = ix2 u q := ⟨i 0, i 1, eq_ix2 i⟩
  have e1 := shapeCast_apply b h1 (ix2 u q) (ix1 q) (by
    rw [Shape.rowMajor_val_two, Shape.rowMajor_val_one]
    show q.val = u.val * n + q.val
    have := u.isLt; have hu : u.val = 0 := by omega
    rw [hu]; omega)
  have e2 := broadcastInDim_apply ![1] hd b (ix2 u q) (ix1 q) (by
    intro a
    match a with
    | ⟨0, _⟩ =>
      show q.val = if n = 1 then 0 else q.val
      split
      · have := q.isLt; omega
      · rfl)
  exact e1.trans e2.symm

/-- One affine layer in the accumulating spelling, on m rows: at (p, q) it is the affine image of row p. -/
theorem matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    addf (matmul (DotDims.plain m k n) prec X W (constant (F := Ideal) ⟨2, ![m, n]⟩ .f32 0x00000000#32))
        (broadcastTo ⟨2, ![m, n]⟩ B hb) (ix2 p q)
      = affine (n := n) W B (row (k := k) X p) q := by
  show matmul (DotDims.plain m k n) prec X W (constant (F := Ideal) ⟨2, ![m, n]⟩ .f32 0x00000000#32) (ix2 p q)
      + broadcastTo ⟨2, ![m, n]⟩ B hb (ix2 p q) = (∑ c : Fin k, X (ix2 p c) * W (ix2 c q)) + B (ix2 (0 : Fin 1) q)
  rw [matmul_zero_eq_dotGeneral, dotGeneral_plain_apply, broadcastTo_oneRow_apply]

/-- One affine layer in the plain spelling, on m rows: at (p, q) it is the affine image of row p. -/
theorem dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1]) (p : Fin m) (q : Fin n) :
    addf (Host.dotGeneral (DotDims.plain m k n) prec A W) (broadcastInDim ⟨2, ![m, n]⟩ ![0, 1] hbc B) (ix2 p q)
      = affine (n := n) W B (row (k := k) A p) q := by
  show Host.dotGeneral (DotDims.plain m k n) prec A W (ix2 p q) + broadcastInDim ⟨2, ![m, n]⟩ ![0, 1] hbc B (ix2 p q)
      = (∑ c : Fin k, A (ix2 p c) * W (ix2 c q)) + B (ix2 (0 : Fin 1) q)
  rw [dotGeneral_plain_apply, broadcastInDim_oneRow_apply]

/-- One clamped affine layer in the accumulating spelling: at (p, q) the clamped affine image of row p. -/
theorem clamped_matmul_bias_apply {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) (q : Fin n) :
    maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32)) (ix2 p q)
      = clamp (affine (n := n) W B (row (k := k) X p)) q := by
  show max (addf (matmul (DotDims.plain m k n) prec X W (constant (F := Ideal) ⟨2, ![m, n]⟩ .f32 0x00000000#32))
        (broadcastTo ⟨2, ![m, n]⟩ B hb) (ix2 p q)) (Ideal.ofBits .f32 0x00000000#32) = _
  rw [matmul_bias_apply]
  rfl

/-- Row p of one clamped affine layer in the accumulating spelling, whatever float format it is then read at. -/
theorem row_clamped_matmul_bias {φ₁ φ₂ : FTy} (prec : Option ContractPrecision)
    (X : FVec Ideal ⟨2, ![m, k]⟩ φ₁) (W : FVec Ideal ⟨2, ![k, n]⟩ φ₂) (B : FVec Ideal ⟨2, ![1, n]⟩ .f32)
    (hb : (⟨2, ![1, n]⟩ : Shape).Broadcasts ⟨2, ![m, n]⟩) (p : Fin m) :
    row (m := m) (k := n) (maximumf (addf (matmul (DotDims.plain m k n) prec X W (constant (F := Ideal) ⟨2, ![m, n]⟩ .f32 0x00000000#32))
        (broadcastTo ⟨2, ![m, n]⟩ B hb)) (broadcast ⟨2, ![m, n]⟩ (Scalar.ofBits (F := Ideal) .f32 0x00000000#32))) p
      = clamp (affine (n := n) W B (row (k := k) X p)) :=
  funext fun q => clamped_matmul_bias_apply prec X W B hb p q

/-- One clamped affine layer in the plain spelling, clamped against a broadcast zero constant: at (p, q) the
    clamped affine image of row p. -/
theorem clamped_dot_bias_apply {φ₁ φ₂ : FTy} (prec : Option ContractPrecision)
    (A : FVec Ideal ⟨2, ![m, k]⟩ φ₁) (W : FVec Ideal ⟨2, ![k, n]⟩ φ₂) (B : FVec Ideal ⟨2, ![1, n]⟩ .f32)
    (hbc : (⟨2, ![1, n]⟩ : Shape).BroadcastsInDim ⟨2, ![m, n]⟩ ![0, 1])
    (hz : (⟨0, ![]⟩ : Shape).BroadcastsInDim ⟨2, ![m, n]⟩ ![]) (p : Fin m) (q : Fin n) :
    maximumf (addf (Host.dotGeneral (DotDims.plain m k n) prec A W) (broadcastInDim ⟨2, ![m, n]⟩ ![0, 1] hbc B))
        (broadcastInDim ⟨2, ![m, n]⟩ ![] hz (constant (F := Ideal) ⟨0, ![]⟩ .f32 0x00000000#32)) (ix2 p q)
      = clamp (affine (n := n) W B (row (k := k) A p)) q := by
  show max (addf (Host.dotGeneral (DotDims.plain m k n) prec A W) (broadcastInDim ⟨2, ![m, n]⟩ ![0, 1] hbc B) (ix2 p q))
      (Ideal.ofBits .f32 0x00000000#32) = _
  rw [dot_bias_apply]
  rfl

/-! ## The three kinds of stage, as functions of one row -/

/-- Two clamped affine layers: the encoder. -/
def encoderRow {k h n : Nat} (W0 : Mat k h) (B0 : Mat 1 h) (W1 : Mat h n) (B1 : Mat 1 n) (a : Fin k → EReal) : Fin n → EReal :=
  clamp (affine W1 B1 (clamp (affine W0 B0 a)))

/-- One clamped affine layer with the input row added back: a hop's update. -/
def hopRow {k : Nat} (W : Mat k k) (B : Mat 1 k) (a : Fin k → EReal) : Fin k → EReal :=
  fun q => clamp (affine W B a) q + a q

/-- A clamped affine layer followed by a plain affine layer: the decoder. -/
def decoderRow {k h n : Nat} (W0 : Mat k h) (B0 : Mat 1 h) (W1 : Mat h n) (B1 : Mat 1 n) (a : Fin k → EReal) : Fin n → EReal :=
  affine W1 B1 (clamp (affine W0 B0 a))

end DenseRows

end
-- ==== Proof.KI.Mlp0Value.lean ====
/-
  The value the multilayer-perceptron region of pipeline 0 leaves in its output array, over the extended reals:
  every row p of the output is  max(x_p · W₁ + b₁, 0) · W₂ + b₂  of row p of the input, the two products read as
  sums over the contracted index.  Grid point t handles rows 5000·t … 5000·t + 4999, and the twenty points cover
  the 100000 rows.
-/
import proofs.«114689_j15281493639468_1_alg».proof.Proof.KI.Mlp0
import proofs.«114689_j15281493639468_1_alg».proof.Proof.Spec
import proofs.«114689_j15281493639468_1_alg».proof.Proof.Lib.LibDenseRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payload at an index -/

/-- At row p and column q of a block the stored value is the two-layer perceptron of row p: rounding to a
    narrower format is the identity on the extended reals, each product into a zero accumulator is the sum over
    the contracted index, and the clamp is against the extended real 0. -/
theorem k0_pay1_apply (x0 : Vec Ideal S5000x256 .f32) (x1 : Vec Ideal S256x32 .f32) (x2 : Vec Ideal S1x32 .f32)
    (x3 : Vec Ideal S32x32 .f32) (x4 : Vec Ideal S1x32 .f32) (p : Fin 5000) (q : Fin 32) :
    k0_pay1 (F := Ideal) x0 x1 x2 x3 x4 (ix2 p q)
      = (∑ k : Fin 32, max ((∑ j : Fin 256, x0 (ix2 p j) * x1 (ix2 j k)) + x2 (ix2 (0 : Fin 1) k)) 0 * x3 (ix2 k q))
          + x4 (ix2 (0 : Fin 1) q) := by
  unfold k0_pay1
  simp only [shapeCast_self]
  refine (DenseRows.matmul_bias_apply (m := 5000) (k := 32) (n := 32) none _ _ x4 _ p q).trans ?_
  show (∑ c : Fin 32, _ * x3 (ix2 c q)) + x4 (ix2 (0 : Fin 1) q) = _
  refine congrArg (· + x4 (ix2 (0 : Fin 1) q)) (Finset.sum_congr rfl fun k _ => ?_)
  refine congrArg (· * x3 (ix2 k q)) ?_
  refine (DenseRows.clamped_matmul_bias_apply (m := 5000) (k := 256) (n := 32) none _ _ x2 _ p k).trans ?_
  show max ((∑ c : Fin 256, x0 (ix2 p c) * x1 (ix2 c k)) + x2 (ix2 (0 : Fin 1) k)) (Ideal.ofBits .f32 0x00000000#32) = _
  rw [Ideal.ofBits_zero_f32]

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The block index maps over the twenty grid points: the input and output row blocks move with the point,
    the weights and biases stay at their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five arrays the region reads, as the region finds them, entry by entry. -/
def inRows0 (c : Dev nD) : Fin 100000 → Fin 256 → EReal := fun p j => V c (Pipeline.arrRef spec0 0) (ix2 p j)
def wOne0 (c : Dev nD) : Fin 256 → Fin 32 → EReal := fun j k => V c (Pipeline.arrRef spec0 1) (ix2 j k)
def bOne0 (c : Dev nD) : Fin 32 → EReal := fun k => V c (Pipeline.arrRef spec0 2) (ix2 0 k)
def wTwo0 (c : Dev nD) : Fin 32 → Fin 32 → EReal := fun k q => V c (Pipeline.arrRef spec0 3) (ix2 k q)
def bTwo0 (c : Dev nD) : Fin 32 → EReal := fun q => V c (Pipeline.arrRef spec0 4) (ix2 0 q)

/-- The whole output array as one function of those five. -/
def G0 (c : Dev nD) : S100000x32.Idx → EReal := fun i =>
  Cert.Spec.dense (inRows0 V c) (wOne0 V c) (bOne0 V c) (wTwo0 V c) (bTwo0 V c) (i 0) (i 1)

/-- The input block at point t is rows 5000·t … 5000·t + 4999 of the input array. -/
theorem iblk0_0_apply (c : Dev nD) (t : Fin cfg0.N) (p : Fin 5000) (j : Fin 256) (r : Fin 100000)
    (hr : r.val = t.val * 5000 + p.val) :
    (iblk0 V c 0 t : Vec Ideal S5000x256 .f32) (ix2 p j) = inRows0 V c r j := by
  obtain ⟨h00, h01, -⟩ := idx0 t
  unfold iblk0 inRows0
  rw [View.read_apply]
  show V c (Pipeline.arrRef spec0 0) _ = V c (Pipeline.arrRef spec0 0) _
  refine congrArg (V c (Pipeline.arrRef spec0 0)) ?_
  funext ax; apply Fin.ext
  match ax with
  | ⟨0, _⟩ => show win0_0.index t (0 : Fin 2) * 5000 + 1 * p.val = r.val; rw [h00, hr]; omega
  | ⟨1, _⟩ => show win0_0.index t (1 : Fin 2) * 256 + 1 * j.val = j.val; rw [h01]; omega

/-- Window 1's block is its whole array at every point. -/
theorem iblk0_1_apply (c : Dev nD) (t : Fin cfg0.N) (j : Fin 256) (k : Fin 32) :
    (iblk0 V c 1 t : Vec Ideal S256x32 .f32) (ix2 j k) = wOne0 V c j k := by
  obtain ⟨-, -, h10, h11, h20, h21, h30, h31, h40, h41, -, -⟩ := idx0 t
  unfold iblk0 wOne0
  rw [View.read_apply]
  show V c (Pipeline.arrRef spec0 1) _ = V c (Pipeline.arrRef spec0 1) _
  refine congrArg (V c (Pipeline.arrRef spec0 1)) ?_
  funext ax; apply Fin.ext
  match ax with
  | ⟨0, _⟩ => show win0_1.index t (0 : Fin 2) * 256 + 1 * (ix2 j k 0).val = (ix2 j k 0).val; rw [h10]; omega
  | ⟨1, _⟩ => show win0_1.index t (1 : Fin 2) * 32 + 1 * (ix2 j k 1).val = (ix2 j k 1).val; rw [h11]; omega

/-- Window 2's block is its whole array at every point. -/
theorem iblk0_2_apply (c : Dev nD) (t : Fin cfg0.N) (k : Fin 32) :
    (iblk0 V c 2 t : Vec Ideal S1x32 .f32) (ix2 (0 : Fin 1) k) = bOne0 V c k := by
  obtain ⟨-, -, h10, h11, h20, h21, h30, h31, h40, h41, -, -⟩ := idx0 t
  unfold iblk0 bOne0
  rw [View.read_apply]
  show V c (Pipeline.arrRef spec0 2) _ = V c (Pipeline.arrRef spec0 2) _
  refine congrArg (V c (Pipeline.arrRef spec0 2)) ?_
  funext ax; apply Fin.ext
  match ax with
  | ⟨0, _⟩ => show win0_2.index t (0 : Fin 2) * 1 + 1 * (ix2 (0 : Fin 1) k 0).val = (ix2 (0 : Fin 1) k 0).val; rw [h20]; omega
  | ⟨1, _⟩ => show win0_2.index t (1 : Fin 2) * 32 + 1 * (ix2 (0 : Fin 1) k 1).val = (ix2 (0 : Fin 1) k 1).val; rw [h21]; omega

/-- Window 3's block is its whole array at every point. -/
theorem iblk0_3_apply (c : Dev nD) (t : Fin cfg0.N) (k : Fin 32) (q : Fin 32) :
    (iblk0 V c 3 t : Vec Ideal S32x32 .f32) (ix2 k q) = wTwo0 V c k q := by
  obtain ⟨-, -, h10, h11, h20, h21, h30, h31, h40, h41, -, -⟩ := idx0 t
  unfold iblk0 wTwo0
  rw [View.read_apply]
  show V c (Pipeline.arrRef spec0 3) _ = V c (Pipeline.arrRef spec0 3) _
  refine congrArg (V c (Pipeline.arrRef spec0 3)) ?_
  funext ax; apply Fin.ext
  match ax with
  | ⟨0, _⟩ => show win0_3.index t (0 : Fin 2) * 32 + 1 * (ix2 k q 0).val = (ix2 k q 0).val; rw [h30]; omega
  | ⟨1, _⟩ => show win0_3.index t (1 : Fin 2) * 32 + 1 * (ix2 k q 1).val = (ix2 k q 1).val; rw [h31]; omega

/-- Window 4's block is its whole array at every point. -/
theorem iblk0_4_apply (c : Dev nD) (t : Fin cfg0.N) (q : Fin 32) :
    (iblk0 V c 4 t : Vec Ideal S1x32 .f32) (ix2 (0 : Fin 1) q) = bTwo0 V c q := by
  obtain ⟨-, -, h10, h11, h20, h21, h30, h31, h40, h41, -, -⟩ := idx0 t
  unfold iblk0 bTwo0
  rw [View.read_apply]
  show V c (Pipeline.arrRef spec0 4) _ = V c (Pipeline.arrRef spec0 4) _
  refine congrArg (V c (Pipeline.arrRef spec0 4)) ?_
  funext ax; apply Fin.ext
  match ax with
  | ⟨0, _⟩ => show win0_4.index t (0 : Fin 2) * 1 + 1 * (ix2 (0 : Fin 1) q 0).val = (ix2 (0 : Fin 1) q 0).val; rw [h40]; omega
  | ⟨1, _⟩ => show win0_4.index t (1 : Fin 2) * 32 + 1 * (ix2 (0 : Fin 1) q 1).val = (ix2 (0 : Fin 1) q 1).val; rw [h41]; omega

set_option maxHeartbeats 1000000 in
/-- What point t writes back is block t of `G0`. -/
theorem flushed0_5_eq (c : Dev nD) (t : Fin cfg0.N) :
    (dat0 V c).flushed 5 t = ((cfg0.win 5).blk t).view.read (Elt Ideal) (G0 V c) := by
  have hN : cfg0.N = 20 := N_0
  obtain ⟨-, -, -, -, -, -, -, -, -, -, h50, h51⟩ := idx0 t
  show (cfg0.win 5).cut (grid0.coords t) ((dat0 V c).after 5 t) = _
  rw [after0_5]
  unfold out0_5
  rw [View.canon_unit_zero hz0]
  simp only [View.ld_unit_zero (S := S5000x256) hz0, View.ld_unit_zero (S := S256x32) hz0, View.ld_unit_zero (S := S1x32) hz0,
    View.ld_unit_zero (S := S32x32) hz0]
  funext y
  obtain ⟨p, q, rfl⟩ : ∃ (p : Fin 5000) (q : Fin 32), y = ix2 p q := ⟨y 0, y 1, eq_ix2 y⟩
  have hp : p.val < 5000 := p.isLt
  have ht : t.val < 20 := hN ▸ t.isLt
  have hemb : ((cfg0.win 5).blk t).view.emb (ix2 p q) = (ix2 (⟨t.val * 5000 + p.val, by omega⟩ : Fin 100000) q : S100000x32.Idx) := by
    funext ax; apply Fin.ext
    match ax with
    | ⟨0, _⟩ => show win0_5.index t (0 : Fin 2) * 5000 + 1 * p.val = t.val * 5000 + p.val; rw [h50]; omega
    | ⟨1, _⟩ => show win0_5.index t (1 : Fin 2) * 32 + 1 * q.val = q.val; rw [h51]; omega
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  rw [hemb]
  refine (k0_pay1_apply (iblk0 V c 0 t) (iblk0 V c 1 t) (iblk0 V c 2 t) (iblk0 V c 3 t) (iblk0 V c 4 t) p q).trans ?_
  show _ = Cert.Spec.dense (inRows0 V c) (wOne0 V c) (bOne0 V c) (wTwo0 V c) (bTwo0 V c) (⟨t.val * 5000 + p.val, by omega⟩ : Fin 100000) q
  unfold Cert.Spec.dense
  simp only [iblk0_0_apply V c t p _ (⟨t.val * 5000 + p.val, by omega⟩ : Fin 100000) rfl, iblk0_1_apply V c t, iblk0_2_apply V c t, iblk0_3_apply V c t, iblk0_4_apply V c t]

/-- Every row of the output array is in the block of the point its row number divided by 5000 names. -/
theorem covered0_5 (i : S100000x32.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 32 := (i 1).isLt
  have ht : (i 0).val / 5000 < cfg0.N := by rw [hN]; omega
  obtain ⟨-, -, -, -, -, -, -, -, -, -, h50, h51⟩ := idx0 ⟨(i 0).val / 5000, ht⟩
  have h50' : win0_5.index ⟨(i 0).val / 5000, ht⟩ (0 : Fin 2) = (i 0).val / 5000 := h50
  refine ⟨⟨(i 0).val / 5000, ht⟩, flush0_5 _, ?_⟩
  show i ∈ ((View.whole main_v50).slice (win0_5.rect ⟨(i 0).val / 5000, ht⟩)).set
  rw [View.set_slice_whole, Rect.mem_set_unit]
  intro ax
  match ax with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [h50']; omega
  | ⟨1, _⟩ =>
    show win0_5.index ⟨(i 0).val / 5000, ht⟩ (1 : Fin 2) * 32 ≤ (i 1).val
      ∧ (i 1).val < win0_5.index ⟨(i 0).val / 5000, ht⟩ (1 : Fin 2) * 32 + 32
    rw [h51]; omega

/-- The output array after the region is `G0`. -/
theorem final0_5 (c : Dev nD) : (dat0 (F := Ideal) V c).arrAt 5 cfg0.N = G0 V c :=
  (dat0 V c).arrAt_eq_of_cover 5 (G0 V c) (fun t _ => flushed0_5_eq V c t) (covered0_5)

/-- The output array after the region, entry by entry: the two-layer perceptron of the input array's rows. -/
theorem arrAt0_5 (c : Dev nD) (p : Fin 100000) (q : Fin 32) :
    (dat0 (F := Ideal) V c).arrAt 5 cfg0.N (ValueIdx.ix2 p q)
      = Cert.Spec.dense (fun p j => V c (Pipeline.arrRef spec0 0) (ValueIdx.ix2 p j)) (fun j k => V c (Pipeline.arrRef spec0 1) (ValueIdx.ix2 j k))
          (fun k => V c (Pipeline.arrRef spec0 2) (ValueIdx.ix2 0 k)) (fun k q => V c (Pipeline.arrRef spec0 3) (ValueIdx.ix2 k q))
          (fun q => V c (Pipeline.arrRef spec0 4) (ValueIdx.ix2 0 q)) p q := by
  rw [final0_5]; rfl

end Cert.KernelIdeal.Hand

end
-- ==== Proof.KI.StatsValueLib.lean ====
import proofs.«114689_j15281493639468_1_alg».proof.Proof.Gen.KernelIdeal
import proofs.«114689_j15281493639468_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen
open scoped BigOperators

/-! # Reading the statistics kernels' arithmetic at an index, over the extended reals -/

/-- The column sums of a [5000,32] block, as the kernel takes them (a reduction over the row axis from the zero
    pattern), read at a column: the sum over the 5000 rows. -/
theorem stats_colsum_apply (src : FVec Ideal S5000x32 .f32) (h : S5000x32.Reduces [0] S32) (q : Fin 32) :
    multiReduction .add [0] S32 src 0x00000000#32 h (.inl rfl) rfl (ix1 q) = ∑ r : Fin 5000, src (ix2 r q) := by
  refine (Ideal.multiReduction_add_single src 0x00000000#32 h (.inl rfl) rfl (ix1 q)).trans ?_
  refine Finset.sum_congr rfl fun k _ => congrArg src ?_
  funext a
  match a with
  | ⟨0, _⟩ => rfl
  | ⟨1, _⟩ => rfl

/-- A sum over the first `b * (n + 1)` naturals is the sum over the first `b * n` plus the sum over the next block of `b`. -/
theorem stats_sum_range_block (f : ℕ → EReal) (b n : ℕ) :
    ∑ p ∈ Finset.range (b * (n + 1)), f p = ∑ p ∈ Finset.range (b * n), f p + ∑ r : Fin b, f (b * n + r.val) := by
  rw [Nat.mul_succ, Finset.sum_range_add]
  exact congrArg _ (Finset.sum_range fun r => f (b * n + r))

/-- A sum over `Fin N` of a function given on the naturals below `N`. -/
theorem stats_sum_fin_eq_range (N : ℕ) (g : Fin N → EReal) :
    ∑ p : Fin N, g p = ∑ p ∈ Finset.range N, (if h : p < N then g ⟨p, h⟩ else 0) := by
  rw [Finset.sum_range]
  refine Finset.sum_congr rfl fun p _ => ?_
  rw [dif_pos p.isLt]

end Cert.KernelIdeal.Hand
end
-- ==== Proof.KI.Stats1Value.lean ====
import proofs.«114689_j15281493639468_1_alg».proof.Proof.KI.Stats1
import proofs.«114689_j15281493639468_1_alg».proof.Proof.KI.StatsValueLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! # What the statistics kernel of pipeline 1 leaves in its two result rows, over the extended reals -/

/-! ## The payloads at an index -/

/-- The column sums of a [5000,32] block, as the kernel takes them (a reduction over the row axis from the zero
    pattern), read at a column: the sum over the 5000 rows. -/
theorem colsum1_apply (src : FVec Ideal S5000x32 .f32) (h : S5000x32.Reduces [0] S32) (hφ : FKind.Formats .f32)
    (hacc : (0x00000000#32 : BitVec 32) = 0x00000000#32) (q : Fin 32) :
    multiReduction .add [0] S32 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a
  match a with
  | ⟨0, _⟩ => rfl
  | ⟨1, _⟩ => rfl

theorem k1_pay1_apply (q : Fin 32) : k1_pay1 (F := Ideal) (ix2 (0 : Fin 1) q) = 0 := by
  unfold k1_pay1
  rw [shapeCast_self]
  exact Ideal.ofBits_zero_f32

theorem k1_pay2_apply (q : Fin 32) : k1_pay2 (F := Ideal) (ix2 (0 : Fin 1) q) = 0 := by
  unfold k1_pay2
  rw [shapeCast_self]
  exact Ideal.ofBits_zero_f32

/-- The block shifted by the bias row. -/
theorem k1_pay3_apply (x0 : Vec Ideal S5000x32 .f32) (x1 : Vec Ideal S1x32 .f32) (r : Fin 5000) (q : Fin 32) :
    k1_pay3 x0 x1 (ix2 r q) = x0 (ix2 r q) + x1 (ix2 (0 : Fin 1) q) := by
  unfold k1_pay3
  rw [addf_apply, shapeCast_self, broadcastTo_1b_ab_apply, shapeCast_self]

/-- The sum row after a point: what it held plus the column sums of the shifted block. -/
theorem k1_pay4_apply (x0 : Vec Ideal S5000x32 .f32) (x1 s : Vec Ideal S1x32 .f32) (q : Fin 32) :
    k1_pay4 x0 x1 s (ix2 (0 : Fin 1) q) = s (ix2 (0 : Fin 1) q) + ∑ r : Fin 5000, (x0 (ix2 r q) + x1 (ix2 (0 : Fin 1) q)) := by
  unfold k1_pay4
  rw [shapeCast_self, addf_apply, shapeCast_a_1a_apply]
  refine congrArg (s (ix2 (0 : Fin 1) q) + ·) ?_
  refine (colsum1_apply _ _ _ _ q).trans ?_
  exact Finset.sum_congr rfl fun r _ => k1_pay3_apply x0 x1 r q

/-- The sum-of-squares row after a point: what it held plus the column sums of the square of the shifted block. -/
theorem k1_pay5_apply (x0 : Vec Ideal S5000x32 .f32) (x1 s : Vec Ideal S1x32 .f32) (q : Fin 32) :
    k1_pay5 x0 x1 s (ix2 (0 : Fin 1) q)
      = s (ix2 (0 : Fin 1) q) + ∑ r : Fin 5000, (x0 (ix2 r q) + x1 (ix2 (0 : Fin 1) q)) * (x0 (ix2 r q) + x1 (ix2 (0 : Fin 1) q)) := by
  unfold k1_pay5
  rw [shapeCast_self, addf_apply, shapeCast_a_1a_apply]
  refine congrArg (s (ix2 (0 : Fin 1) q) + ·) ?_
  refine (colsum1_apply _ _ _ _ q).trans ?_
  exact Finset.sum_congr rfl fun r _ => by rw [mulf_apply, k1_pay3_apply]

/-! ## The blocks, read at an index -/

/-- Window 0's block index at point `t` is (t, 0); window 1's is (0, 0). -/
theorem index1_0 : ∀ t : Fin cfg1.N, win1_0.index t 0 = t.val ∧ win1_0.index t 1 = 0 := by decide +kernel
theorem index1_1 : ∀ t : Fin cfg1.N, win1_1.index t 0 = 0 ∧ win1_1.index t 1 = 0 := by decide +kernel

/-- Row `r` of block `t` is row `5000 t + r` of the array. -/
theorem iblk1_0_apply (c : Dev nD) (t : Fin cfg1.N) (r : Fin 5000) (q : Fin 32) (h : 5000 * t.val + r.val < 100000) :
    (iblk1 V c 0 t : Vec Ideal S5000x32 .f32) (ix2 r q) = V c (Pipeline.arrRef spec1 0) (ix2 ⟨5000 * t.val + r.val, h⟩ q) := by
  have hi := index1_0 t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * r.val = 5000 * t.val + r.val; rw [hi.1]; omega
  | ⟨1, _⟩ => show win1_0.index t 1 * 32 + 1 * q.val = q.val; rw [hi.2]; omega

/-- The bias row's block is the bias row at every point. -/
theorem iblk1_1_apply (c : Dev nD) (t : Fin cfg1.N) (q : Fin 32) :
    (iblk1 V c 1 t : Vec Ideal S1x32 .f32) (ix2 (0 : Fin 1) q) = V c (Pipeline.arrRef spec1 1) (ix2 (0 : Fin 1) q) := by
  have hi := index1_1 t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [hi.1]
  | ⟨1, _⟩ => show win1_1.index t 1 * 32 + 1 * q.val = q.val; rw [hi.2]; omega

/-! ## The accumulation, read at a column -/

/-- The aggregated array and the bias row as the region finds them, as functions of their coordinates. -/
abbrev accv1_A (c : Dev nD) : Fin 100000 → Fin 32 → EReal := fun p q => V c (Pipeline.arrRef spec1 0) (ix2 p q)
abbrev accv1_b (c : Dev nD) : Fin 32 → EReal := fun q => V c (Pipeline.arrRef spec1 1) (ix2 (0 : Fin 1) q)

/-- Row `p` of the shifted array at column `q` (zero past the array, where nothing is summed). -/
def accv1_term (c : Dev nD) (q : Fin 32) (p : ℕ) : EReal :=
  if h : p < 100000 then accv1_A V c ⟨p, h⟩ q + accv1_b V c q else 0

/-- After `n` points the sum row holds the column sums of the first `5000 n` rows of the shifted array: by induction on
    the point, each point adding its block's rows. -/
theorem accv1_fst (c : Dev nD) (q : Fin 32) : ∀ n, n ≤ 20 →
    (acc1 V c n).1 (ix2 (0 : Fin 1) q) = ∑ p ∈ Finset.range (5000 * n), accv1_term V c q p
  | 0, _ => by
    rw [acc1_zero]
    exact (k1_pay1_apply q).trans (by simp)
  | n + 1, hn => by
    have hN : cfg1.N = 20 := N_1
    have hlt : n < cfg1.N := by omega
    have hs : acc1 V c (n + 1) = _ := acc1_succ V c ⟨n, hlt⟩
    rw [hs]
    show k1_pay4 _ _ _ _ = _
    rw [k1_pay4_apply, accv1_fst c q n (by omega), stats_sum_range_block]
    refine congrArg _ (Finset.sum_congr rfl fun r _ => ?_)
    have hr := r.isLt
    have h : 5000 * n + r.val < 100000 := by omega
    rw [iblk1_0_apply V c ⟨n, hlt⟩ r q h, iblk1_1_apply V c ⟨n, hlt⟩ q]
    unfold accv1_term; rw [dif_pos h]; try rfl

/-- The same for the sum-of-squares row. -/
theorem accv1_snd (c : Dev nD) (q : Fin 32) : ∀ n, n ≤ 20 →
    (acc1 V c n).2 (ix2 (0 : Fin 1) q) = ∑ p ∈ Finset.range (5000 * n), accv1_term V c q p * accv1_term V c q p
  | 0, _ => by
    rw [acc1_zero]
    exact (k1_pay2_apply q).trans (by simp)
  | n + 1, hn => by
    have hN : cfg1.N = 20 := N_1
    have hlt : n < cfg1.N := by omega
    have hs : acc1 V c (n + 1) = _ := acc1_succ V c ⟨n, hlt⟩
    rw [hs]
    show k1_pay5 _ _ _ _ = _
    rw [k1_pay5_apply, accv1_snd c q n (by omega), stats_sum_range_block (fun p => accv1_term V c q p * accv1_term V c q p)]
    refine congrArg _ (Finset.sum_congr rfl fun r _ => ?_)
    have hr := r.isLt
    have h : 5000 * n + r.val < 100000 := by omega
    rw [iblk1_0_apply V c ⟨n, hlt⟩ r q h, iblk1_1_apply V c ⟨n, hlt⟩ q]
    unfold accv1_term; rw [dif_pos h]; try rfl

/-- After the last point: the column sums of the whole shifted array, and of its square. -/
theorem accv1_fst_final (c : Dev nD) (q : Fin 32) :
    (acc1 V c 20).1 (ix2 (0 : Fin 1) q)
      = Cert.Spec.colSum (fun p q => V c (Pipeline.arrRef spec1 0) (ix2 p q)) (fun q => V c (Pipeline.arrRef spec1 1) (ix2 (0 : Fin 1) q)) q := by
  rw [accv1_fst V c q 20 le_rfl, show (5000 * 20 : ℕ) = 100000 from by norm_num]
  unfold Cert.Spec.colSum Cert.Spec.shift
  rw [stats_sum_fin_eq_range]
  refine Finset.sum_congr rfl fun p _ => ?_
  unfold accv1_term
  by_cases h : p < 100000
  · rw [dif_pos h]
  · rw [dif_neg h]

theorem accv1_snd_final (c : Dev nD) (q : Fin 32) :
    (acc1 V c 20).2 (ix2 (0 : Fin 1) q)
      = Cert.Spec.colSumSq (fun p q => V c (Pipeline.arrRef spec1 0) (ix2 p q)) (fun q => V c (Pipeline.arrRef spec1 1) (ix2 (0 : Fin 1) q)) q := by
  rw [accv1_snd V c q 20 le_rfl, show (5000 * 20 : ℕ) = 100000 from by norm_num]
  unfold Cert.Spec.colSumSq Cert.Spec.shift
  rw [stats_sum_fin_eq_range]
  refine Finset.sum_congr rfl fun p _ => ?_
  unfold accv1_term
  by_cases h : p < 100000
  · rw [dif_pos h, dif_pos h]
  · rw [dif_neg h, dif_neg h, mul_zero]

/-! ## The result rows after the run -/

/-- The last point, the one that writes the result rows back. -/
abbrev t1_last : Fin cfg1.N := ⟨19, by rw [show cfg1.N = 20 from N_1]; omega⟩

/-- The result rows as array contents: the scratch rows after the last point (each row's one block is the array). -/
abbrev result1_2 (c : Dev nD) : Buf (Elt Ideal) ((cfg1.win 2).arr.view.loc (c.tc : Thread nD τ)) := (acc1 V c 20).1
abbrev result1_3 (c : Dev nD) : Buf (Elt Ideal) ((cfg1.win 3).arr.view.loc (c.tc : Thread nD τ)) := (acc1 V c 20).2

/-- The one write-back of window 2, at the last point, writes the sum row: its block, read through zero offsets, is the array. -/
theorem flushed_eq1_2 (c : Dev nD) (t : Fin cfg1.N) (hf : (cfg1.win 2).flush t = true) :
    (dat1 V c).flushed 2 t = ((cfg1.win 2).blk t).view.read (Elt Ideal) (result1_2 V c) := by
  have hN : cfg1.N = 20 := N_1
  have h19 : t.val = 19 := by have := (flush1_2 t).mp hf; have := t.isLt; omega
  obtain rfl : t = t1_last := Fin.ext h19
  show (cfg1.win 2).cut (grid1.coords t1_last) ((dat1 V c).after 2 t1_last) = _
  rw [after1_2]
  have hz' : (fun a => win1_2.index t1_last a * (Pipeline.arrRef spec1 2).ty.shape.size a) = fun _ => 0 :=
    funext fun a => by fin_cases a <;> decide
  exact (Memref.read_access_unit_zero (Elt Ideal) (Pipeline.arrRef spec1 2) hz' (fun a => by rw [congrFun hz' a]; simp) (result1_2 V c)).symm

theorem flushed_eq1_3 (c : Dev nD) (t : Fin cfg1.N) (hf : (cfg1.win 3).flush t = true) :
    (dat1 V c).flushed 3 t = ((cfg1.win 3).blk t).view.read (Elt Ideal) (result1_3 V c) := by
  have hN : cfg1.N = 20 := N_1
  have h19 : t.val = 19 := by have := (flush1_3 t).mp hf; have := t.isLt; omega
  obtain rfl : t = t1_last := Fin.ext h19
  show (cfg1.win 3).cut (grid1.coords t1_last) ((dat1 V c).after 3 t1_last) = _
  rw [after1_3]
  have hz' : (fun a => win1_3.index t1_last a * (Pipeline.arrRef spec1 3).ty.shape.size a) = fun _ => 0 :=
    funext fun a => by fin_cases a <;> decide
  exact (Memref.read_access_unit_zero (Elt Ideal) (Pipeline.arrRef spec1 3) hz' (fun a => by rw [congrFun hz' a]; simp) (result1_3 V c)).symm

/-- So each result array ends holding its scratch row after the last point (that point's block covers it). -/
theorem final1_2 (c : Dev nD) : (dat1 V c).arrAt 2 cfg1.N = result1_2 V c :=
  (dat1 V c).arrAt_eq_of_cover 2 (result1_2 V c) (flushed_eq1_2 V c) fun i =>
    ⟨t1_last, (flush1_2 t1_last).mpr rfl, by
      show i ∈ ((View.whole (Pipeline.arrRef spec1 2)).slice (win1_2.rect t1_last)).set
      rw [View.set_slice_whole, Rect.mem_set_unit]
      intro a
      have h0 : (i 0 : Nat) < 1 := (i 0).isLt
      have h1 : (i 1 : Nat) < 32 := (i 1).isLt
      match a with
      | ⟨0, _⟩ => show win1_2.index t1_last 0 * win1_2.size 0 ≤ (i 0 : Nat) ∧ (i 0 : Nat) < win1_2.index t1_last 0 * win1_2.size 0 + win1_2.xsize (grid1.coords t1_last) 0
                  rw [show win1_2.index t1_last 0 * win1_2.size 0 = 0 from by decide +kernel, show win1_2.xsize (grid1.coords t1_last) 0 = 1 from by decide +kernel]; omega
      | ⟨1, _⟩ => show win1_2.index t1_last 1 * win1_2.size 1 ≤ (i 1 : Nat) ∧ (i 1 : Nat) < win1_2.index t1_last 1 * win1_2.size 1 + win1_2.xsize (grid1.coords t1_last) 1
                  rw [show win1_2.index t1_last 1 * win1_2.size 1 = 0 from by decide +kernel, show win1_2.xsize (grid1.coords t1_last) 1 = 32 from by decide +kernel]; omega⟩

theorem final1_3 (c : Dev nD) : (dat1 V c).arrAt 3 cfg1.N = result1_3 V c :=
  (dat1 V c).arrAt_eq_of_cover 3 (result1_3 V c) (flushed_eq1_3 V c) fun i =>
    ⟨t1_last, (flush1_3 t1_last).mpr rfl, by
      show i ∈ ((View.whole (Pipeline.arrRef spec1 3)).slice (win1_3.rect t1_last)).set
      rw [View.set_slice_whole, Rect.mem_set_unit]
      intro a
      have h0 : (i 0 : Nat) < 1 := (i 0).isLt
      have h1 : (i 1 : Nat) < 32 := (i 1).isLt
      match a with
      | ⟨0, _⟩ => show win1_3.index t1_last 0 * win1_3.size 0 ≤ (i 0 : Nat) ∧ (i 0 : Nat) < win1_3.index t1_last 0 * win1_3.size 0 + win1_3.xsize (grid1.coords t1_last) 0
                  rw [show win1_3.index t1_last 0 * win1_3.size 0 = 0 from by decide +kernel, show win1_3.xsize (grid1.coords t1_last) 0 = 1 from by decide +kernel]; omega
      | ⟨1, _⟩ => show win1_3.index t1_last 1 * win1_3.size 1 ≤ (i 1 : Nat) ∧ (i 1 : Nat) < win1_3.index t1_last 1 * win1_3.size 1 + win1_3.xsize (grid1.coords t1_last) 1
                  rw [show win1_3.index t1_last 1 * win1_3.size 1 = 0 from by decide +kernel, show win1_3.xsize (grid1.coords t1_last) 1 = 32 from by decide +kernel]; omega⟩

/-- THE VALUES: after the run, window 2's array is the column sums of the array shifted by the bias row, and window 3's
    the column sums of its square, over all 100000 rows. -/
theorem arrAt1_2 (c : Dev nD) (q : Fin 32) :
    (dat1 (F := Ideal) V c).arrAt 2 cfg1.N (ix2 (0 : Fin 1) q)
      = Cert.Spec.colSum (fun p q => V c (Pipeline.arrRef spec1 0) (ix2 p q)) (fun q => V c (Pipeline.arrRef spec1 1) (ix2 (0 : Fin 1) q)) q := by
  rw [final1_2]
  exact accv1_fst_final V c q

theorem arrAt1_3 (c : Dev nD) (q : Fin 32) :
    (dat1 (F := Ideal) V c).arrAt 3 cfg1.N (ix2 (0 : Fin 1) q)
      = Cert.Spec.colSumSq (fun p q => V c (Pipeline.arrRef spec1 0) (ix2 p q)) (fun q => V c (Pipeline.arrRef spec1 1) (ix2 (0 : Fin 1) q)) q := by
  rw [final1_3]
  exact accv1_snd_final V c q

end Cert.KernelIdeal.Hand
end
-- ==== Proof.KI.NormLib.lean ====
import Idealize.ShloMosaic.Lib.ValueIdx
import Idealize.ShloMosaic.Lib.Pipeline.Value

/-!
# Two small facts the normalisation regions' value lemmas share
-/

noncomputable section

namespace Cert.KernelIdeal.Hand

open Idealize.ShloMosaic

/-- A reciprocal square root of a vector, read at an index, is that of the element. -/
theorem rsqrt_vec_apply {s : Shape} {φ : FTy} (a : FVec Ideal s φ) (i : s.Idx) : rsqrt a i = Ideal.rsqrt (a i) := rfl

/-- The offset of a rectangle that starts at the origin of a rank-2 shape. -/
theorem off_zero2 : (![0, 0] : Fin 2 → Nat) = fun _ => 0 := funext fun a => by fin_cases a <;> rfl

end Cert.KernelIdeal.Hand
-- ==== Proof.KI.Norm2Value.lean ====
import proofs.«114689_j15281493639468_1_alg».proof.Proof.KI.Norm2
import proofs.«114689_j15281493639468_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«114689_j15281493639468_1_alg».proof.Proof.KI.NormLib
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-!
# What the normalisation region of pipeline 2 leaves in its output array

Every entry `(p, q)` of the output array is written by the grid point `p / 5000`, and what is written there is
`(A p q + bias q − mean q) · rsqrt (var q + ε) · γ q + β q`, clamped at 0, where `A` is the aggregated array and the five rows
are the one-row arrays as the region finds them.
-/

variable (V : (c : Dev nD) → (b : Ref sig .tc) → Buf (Elt Ideal) ((c : Thread nD τ).loc b))

/-- The arrays the seven windows stage, by name. -/
theorem arrRef2_0 : Pipeline.arrRef spec2 0 = main_v63 := rfl
theorem arrRef2_1 : Pipeline.arrRef spec2 1 = main_v80 := rfl
theorem arrRef2_2 : Pipeline.arrRef spec2 2 = main_v69 := rfl
theorem arrRef2_3 : Pipeline.arrRef spec2 3 = main_v73 := rfl
theorem arrRef2_4 : Pipeline.arrRef spec2 4 = main_v81 := rfl
theorem arrRef2_5 : Pipeline.arrRef spec2 5 = main_v82 := rfl
theorem arrRef2_6 : Pipeline.arrRef spec2 6 = main_v83 := rfl

/-- The payload of the body's store, read at row `p` and column `q` of the block: the one-row operands are read
    at their only row. -/
theorem k2_pay1_apply (x0 : Vec Ideal S5000x32 .f32) (x1 x2 x3 x4 x5 : Vec Ideal S1x32 .f32) (p : Fin 5000) (q : Fin 32) :
    k2_pay1 x0 x1 x2 x3 x4 x5 (ix2 p q)
      = max ((x0 (ix2 p q) + x1 (ix2 (0 : Fin 1) q) - x2 (ix2 (0 : Fin 1) q)) * Ideal.rsqrt (x3 (ix2 (0 : Fin 1) q) + Cert.Spec.eps) * x4 (ix2 (0 : Fin 1) q) + x5 (ix2 (0 : Fin 1) q)) 0 := by
  unfold k2_pay1
  simp only [shapeCast_self]
  simp only [maximumf_apply, addf_apply, mulf_apply, subf_apply, broadcast_apply, broadcastTo_1b_ab_apply, rsqrt_vec_apply,
    Ideal.ofBits_def, Ideal.ofBits_zero_f32, Cert.Spec.eps]

/-- The output array the region leaves, as one function of the arrays the region finds. -/
def normArr2 (c : Dev nD) : S100000x32.Idx → EReal := fun i =>
  Cert.Spec.normalize true (fun p q => V c main_v63 (ix2 p q))
      (fun q => V c main_v80 (ix2 (0 : Fin 1) q))
      (fun q => V c main_v69 (ix2 (0 : Fin 1) q))
      (fun q => V c main_v73 (ix2 (0 : Fin 1) q))
      (fun q => V c main_v81 (ix2 (0 : Fin 1) q))
      (fun q => V c main_v82 (ix2 (0 : Fin 1) q)) (i 0) (i 1)

/-- The block index maps, decided over the 20 grid points: the aggregated array's and the output's blocks are
    block row `t`; each one-row array is its own only block. -/
theorem idx_facts2 : ∀ t : Fin cfg2.N, t.val < 20
    ∧ win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Block row `t` of a 100000-row array, read at `(p, q)`, is the array at row `5000 t + p` (window 0). -/
theorem read_blk2_0 (X : S100000x32.Idx → EReal) (t : Fin cfg2.N) (p : Fin 5000) (q : Fin 32) (h : t.val * 5000 + p.val < 100000) :
    ((cfg2.win 0).blk t).view.read (Elt Ideal) X (ix2 p q) = X (ix2 (⟨t.val * 5000 + p.val, h⟩ : Fin 100000) q) := by
  obtain ⟨ht, e00, e01, e60, e61, -⟩ := idx_facts2 t
  refine congrArg X ?_
  funext a; apply Fin.ext
  match a with
  | ⟨0, _⟩ => show win2_0.index t (0 : Fin 2) * 5000 + 1 * p.val = t.val * 5000 + p.val; omega
  | ⟨1, _⟩ => show win2_0.index t (1 : Fin 2) * 32 + 1 * q.val = q.val; omega
/-- Block row `t` of a 100000-row array, read at `(p, q)`, is the array at row `5000 t + p` (window 6). -/
theorem read_blk2_6 (X : S100000x32.Idx → EReal) (t : Fin cfg2.N) (p : Fin 5000) (q : Fin 32) (h : t.val * 5000 + p.val < 100000) :
    ((cfg2.win 6).blk t).view.read (Elt Ideal) X (ix2 p q) = X (ix2 (⟨t.val * 5000 + p.val, h⟩ : Fin 100000) q) := by
  obtain ⟨ht, e00, e01, e60, e61, -⟩ := idx_facts2 t
  refine congrArg X ?_
  funext a; apply Fin.ext
  match a with
  | ⟨0, _⟩ => show win2_6.index t (0 : Fin 2) * 5000 + 1 * p.val = t.val * 5000 + p.val; omega
  | ⟨1, _⟩ => show win2_6.index t (1 : Fin 2) * 32 + 1 * q.val = q.val; omega
/-- The only block of a one-row array, read at column `q`, is the array's row at `q` (window 1). -/
theorem read_blk2_1 (X : S1x32.Idx → EReal) (t : Fin cfg2.N) (q : Fin 32) :
    ((cfg2.win 1).blk t).view.read (Elt Ideal) X (ix2 (0 : Fin 1) q) = X (ix2 (0 : Fin 1) q) := by
  obtain ⟨ht, e00, e01, e60, e61, e10, e11, e20, e21, e30, e31, e40, e41, e50, e51⟩ := idx_facts2 t
  refine congrArg X ?_
  funext a; apply Fin.ext
  match a with
  | ⟨0, _⟩ => show win2_1.index t (0 : Fin 2) * 1 + 1 * 0 = 0; omega
  | ⟨1, _⟩ => show win2_1.index t (1 : Fin 2) * 32 + 1 * q.val = q.val; omega
/-- The only block of a one-row array, read at column `q`, is the array's row at `q` (window 2). -/
theorem read_blk2_2 (X : S1x32.Idx → EReal) (t : Fin cfg2.N) (q : Fin 32) :
    ((cfg2.win 2).blk t).view.read (Elt Ideal) X (ix2 (0 : Fin 1) q) = X (ix2 (0 : Fin 1) q) := by
  obtain ⟨ht, e00, e01, e60, e61, e10, e11, e20, e21, e30, e31, e40, e41, e50, e51⟩ := idx_facts2 t
  refine congrArg X ?_
  funext a; apply Fin.ext
  match a with
  | ⟨0, _⟩ => show win2_2.index t (0 : Fin 2) * 1 + 1 * 0 = 0; omega
  | ⟨1, _⟩ => show win2_2.index t (1 : Fin 2) * 32 + 1 * q.val = q.val; omega
/-- The only block of a one-row array, read at column `q`, is the array's row at `q` (window 3). -/
theorem read_blk2_3 (X : S1x32.Idx → EReal) (t : Fin cfg2.N) (q : Fin 32) :
    ((cfg2.win 3).blk t).view.read (Elt Ideal) X (ix2 (0 : Fin 1) q) = X (ix2 (0 : Fin 1) q) := by
  obtain ⟨ht, e00, e01, e60, e61, e10, e11, e20, e21, e30, e31, e40, e41, e50, e51⟩ := idx_facts2 t
  refine congrArg X ?_
  funext a; apply Fin.ext
  match a with
  | ⟨0, _⟩ => show win2_3.index t (0 : Fin 2) * 1 + 1 * 0 = 0; omega
  | ⟨1, _⟩ => show win2_3.index t (1 : Fin 2) * 32 + 1 * q.val = q.val; omega
/-- The only block of a one-row array, read at column `q`, is the array's row at `q` (window 4). -/
theorem read_blk2_4 (X : S1x32.Idx → EReal) (t : Fin cfg2.N) (q : Fin 32) :
    ((cfg2.win 4).blk t).view.read (Elt Ideal) X (ix2 (0 : Fin 1) q) = X (ix2 (0 : Fin 1) q) := by
  obtain ⟨ht, e00, e01, e60, e61, e10, e11, e20, e21, e30, e31, e40, e41, e50, e51⟩ := idx_facts2 t
  refine congrArg X ?_
  funext a; apply Fin.ext
  match a with
  | ⟨0, _⟩ => show win2_4.index t (0 : Fin 2) * 1 + 1 * 0 = 0; omega
  | ⟨1, _⟩ => show win2_4.index t (1 : Fin 2) * 32 + 1 * q.val = q.val; omega
/-- The only block of a one-row array, read at column `q`, is the array's row at `q` (window 5). -/
theorem read_blk2_5 (X : S1x32.Idx → EReal) (t : Fin cfg2.N) (q : Fin 32) :
    ((cfg2.win 5).blk t).view.read (Elt Ideal) X (ix2 (0 : Fin 1) q) = X (ix2 (0 : Fin 1) q) := by
  obtain ⟨ht, e00, e01, e60, e61, e10, e11, e20, e21, e30, e31, e40, e41, e50, e51⟩ := idx_facts2 t
  refine congrArg X ?_
  funext a; apply Fin.ext
  match a with
  | ⟨0, _⟩ => show win2_5.index t (0 : Fin 2) * 1 + 1 * 0 = 0; omega
  | ⟨1, _⟩ => show win2_5.index t (1 : Fin 2) * 32 + 1 * q.val = q.val; omega

/-- What grid point `t` writes back is block row `t` of `normArr2`. -/
theorem flushed2_6_eq (c : Dev nD) (t : Fin cfg2.N) :
    (dat2 V c).flushed 6 t = ((cfg2.win 6).blk t).view.read (Elt Ideal) (normArr2 V c) := by
  show (cfg2.win 6).cut (grid2.coords t) ((dat2 V c).after 6 t) = _
  rw [after2_6]
  unfold out2_6
  rw [View.canon_unit_zero off_zero2]
  simp only [View.ld_unit_zero (S := S5000x32) off_zero2, View.ld_unit_zero (S := S1x32) off_zero2]
  have ht : t.val < 20 := (idx_facts2 t).1
  funext j
  obtain ⟨p, q, rfl⟩ : ∃ (p : Fin 5000) (q : Fin 32), j = ix2 p q := ⟨j 0, j 1, eq_ix2 j⟩
  have hp : p.val < 5000 := p.isLt
  have hlt : t.val * 5000 + p.val < 100000 := by omega
  refine (k2_pay1_apply (iblk2 V c 0 t) (iblk2 V c 1 t) (iblk2 V c 2 t) (iblk2 V c 3 t) (iblk2 V c 4 t) (iblk2 V c 5 t) p q).trans ?_
  refine Eq.trans ?_ (read_blk2_6 (normArr2 V c) t p q hlt).symm
  have hb0 : (iblk2 V c 0 t (ix2 p q) : EReal) = V c main_v63 (ix2 (⟨t.val * 5000 + p.val, hlt⟩ : Fin 100000) q) :=
    read_blk2_0 (V c main_v63) t p q hlt
  have hb1 : (iblk2 V c 1 t (ix2 (0 : Fin 1) q) : EReal) = V c main_v80 (ix2 (0 : Fin 1) q) :=
    read_blk2_1 (V c main_v80) t q
  have hb2 : (iblk2 V c 2 t (ix2 (0 : Fin 1) q) : EReal) = V c main_v69 (ix2 (0 : Fin 1) q) :=
    read_blk2_2 (V c main_v69) t q
  have hb3 : (iblk2 V c 3 t (ix2 (0 : Fin 1) q) : EReal) = V c main_v73 (ix2 (0 : Fin 1) q) :=
    read_blk2_3 (V c main_v73) t q
  have hb4 : (iblk2 V c 4 t (ix2 (0 : Fin 1) q) : EReal) = V c main_v81 (ix2 (0 : Fin 1) q) :=
    read_blk2_4 (V c main_v81) t q
  have hb5 : (iblk2 V c 5 t (ix2 (0 : Fin 1) q) : EReal) = V c main_v82 (ix2 (0 : Fin 1) q) :=
    read_blk2_5 (V c main_v82) t q
  rw [hb0, hb1, hb2, hb3, hb4, hb5]
  dsimp only [normArr2, Cert.Spec.normalize, Cert.Spec.shift]
  exact (if_pos rfl).symm

/-- An index of the output array is in point `t`'s block iff each coordinate is in the block's range on its axis. -/
theorem mem_blk2_6 (t : Fin cfg2.N) (i : S100000x32.Idx) :
    i ∈ ((cfg2.win 6).blk t).view.set ↔ ∀ a : Fin 2, win2_6.index t a * S5000x32.size a ≤ (i a).val ∧ (i a).val < win2_6.index t a * S5000x32.size a + S5000x32.size a := by
  show i ∈ ((View.whole main_v83).slice (win2_6.rect t)).set ↔ _
  rw [View.set_slice_whole, Rect.mem_set_unit]
  exact Iff.rfl

/-- Every index of the output array is in the block of the grid point `row / 5000`, which writes it back. -/
theorem cover2_arr (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨ht, e00, e01, e60, e61, -⟩ := idx_facts2 t
  have htv : t.val = (i 0).val / 5000 := rfl
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 32 ≤ (i 1).val ∧ (i 1).val < win2_6.index t (1 : Fin 2) * 32 + 32; omega

/-- The output array after the region, entry by entry. -/
theorem arrAt2_6 (c : Dev nD) (p : Fin 100000) (q : Fin 32) :
    (dat2 (F := Ideal) V c).arrAt 6 cfg2.N (ix2 p q)
      = Cert.Spec.normalize true (fun p q => V c main_v63 (ix2 p q))
      (fun q => V c main_v80 (ix2 (0 : Fin 1) q))
      (fun q => V c main_v69 (ix2 (0 : Fin 1) q))
      (fun q => V c main_v73 (ix2 (0 : Fin 1) q))
      (fun q => V c main_v81 (ix2 (0 : Fin 1) q))
      (fun q => V c main_v82 (ix2 (0 : Fin 1) q)) p q :=
  congrFun ((dat2 V c).arrAt_eq_of_cover 6 (normArr2 V c) (fun t _ => flushed2_6_eq V c t) (cover2_arr)) (ix2 p q)

end Cert.KernelIdeal.Hand
-- ==== Proof.KI.ChainL0.lean ====
/-
  Layer 0 of the network as the first program's run leaves it: the perceptron on every row of the layer's input,
  the edge aggregation, the two column sums, the mean and variance rows, and the normalisation, each read off the
  contents of the buffers at the boundary where it is produced and carried unchanged to where it is used.
-/
import proofs.«114689_j15281493639468_1_alg».proof.Proof.KI.Fold
import proofs.«114689_j15281493639468_1_alg».proof.Proof.KI.HostWrites
import proofs.«114689_j15281493639468_1_alg».proof.Proof.KI.ChainHost0
import proofs.«114689_j15281493639468_1_alg».proof.Proof.KI.Mlp0Value
import proofs.«114689_j15281493639468_1_alg».proof.Proof.KI.Stats1Value
import proofs.«114689_j15281493639468_1_alg».proof.Proof.KI.Norm2Value
import proofs.«114689_j15281493639468_1_alg».proof.Proof.SpecNet
import proofs.«114689_j15281493639468_1_alg».proof.Proof.SpecRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's operands, named -/

/-- The layer's input rows. -/
abbrev lay0_H (c : Dev nD) : Fin 100000 → Fin 256 → EReal := fun p j => m ((c : Thread nD τ).loc main_arg0) (ix2 p j)
/-- Its first weight matrix. -/
abbrev lay0_W1 (c : Dev nD) : Fin 256 → Fin 32 → EReal := fun j k => m ((c : Thread nD τ).loc main_arg2) (ix2 j k)
abbrev lay0_b1 (c : Dev nD) : Fin 32 → EReal := Cert.Spec.rowOf (m ((c : Thread nD τ).loc main_arg4)) (0 : Fin 5)
abbrev lay0_W2 (c : Dev nD) : Fin 32 → Fin 32 → EReal := Cert.Spec.matOf (m ((c : Thread nD τ).loc main_arg5)) (0 : Fin 5)
abbrev lay0_b2 (c : Dev nD) : Fin 32 → EReal := Cert.Spec.rowOf (m ((c : Thread nD τ).loc main_arg6)) (0 : Fin 5)
abbrev lay0_bias (c : Dev nD) : Fin 32 → EReal := Cert.Spec.rowOf (m ((c : Thread nD τ).loc main_arg7)) (0 : Fin 5)
abbrev lay0_gamma (c : Dev nD) : Fin 32 → EReal := Cert.Spec.rowOf (m ((c : Thread nD τ).loc main_arg8)) (0 : Fin 5)
abbrev lay0_beta (c : Dev nD) : Fin 32 → EReal := Cert.Spec.rowOf (m ((c : Thread nD τ).loc main_arg9)) (0 : Fin 5)
/-- The perceptron's rows. -/
abbrev lay0_Z (c : Dev nD) : Fin 100000 → Fin 32 → EReal :=
  Cert.Spec.dense (lay0_H m c) (lay0_W1 m c) (lay0_b1 m c) (lay0_W2 m c) (lay0_b2 m c)
/-- The aggregated rows. -/
abbrev lay0_A (c : Dev nD) : Fin 100000 → Fin 32 → EReal :=
  Cert.Spec.cur (Cert.Spec.aggArr (W5 m c (Proc.devRef .tc main_v3)) (W5 m c (Proc.devRef .tc main_v6)) (W5 m c (Proc.devRef .tc main_v41))
    (Cert.Spec.uncur (lay0_Z m c)))

/-! ## Buffers nothing writes between where they are produced and where they are read -/

theorem k0_arg0 (c : Dev nD) : W5 m c (Proc.devRef .tc main_arg0) = m ((c : Thread nD τ).loc main_arg0) :=
      (StableHlo.after_of_writes_sub hostOps0_4 _ Cert.KernelIdeal.GenP.hostOps0_4_writes (by decide : main_arg0 ∉ Cert.KernelIdeal.GenP.hostOps0_4_W)).trans <|
      (StableHlo.after_of_writes_sub hostOps0_3 _ Cert.KernelIdeal.GenP.hostOps0_3_writes (by decide : main_arg0 ∉ Cert.KernelIdeal.GenP.hostOps0_3_W)).trans <|
      (StableHlo.after_of_writes_sub hostOps0_2 _ Cert.KernelIdeal.GenP.hostOps0_2_writes (by decide : main_arg0 ∉ Cert.KernelIdeal.GenP.hostOps0_2_W)).trans <|
      (StableHlo.after_of_writes_sub hostOps0_1 _ Cert.KernelIdeal.GenP.hostOps0_1_writes (by decide : main_arg0 ∉ Cert.KernelIdeal.GenP.hostOps0_1_W)).trans <|
      (StableHlo.after_of_writes_sub hostOps0 _ Cert.KernelIdeal.GenP.hostOps0_writes (by decide : main_arg0 ∉ Cert.KernelIdeal.GenP.hostOps0_W)).trans rfl
theorem k0_arg2 (c : Dev nD) : W5 m c (Proc.devRef .tc main_arg2) = m ((c : Thread nD τ).loc main_arg2) :=
      (StableHlo.after_of_writes_sub hostOps0_4 _ Cert.KernelIdeal.GenP.hostOps0_4_writes (by decide : main_arg2 ∉ Cert.KernelIdeal.GenP.hostOps0_4_W)).trans <|
      (StableHlo.after_of_writes_sub hostOps0_3 _ Cert.KernelIdeal.GenP.hostOps0_3_writes (by decide : main_arg2 ∉ Cert.KernelIdeal.GenP.hostOps0_3_W)).trans <|
      (StableHlo.after_of_writes_sub hostOps0_2 _ Cert.KernelIdeal.GenP.hostOps0_2_writes (by decide : main_arg2 ∉ Cert.KernelIdeal.GenP.hostOps0_2_W)).trans <|
      (StableHlo.after_of_writes_sub hostOps0_1 _ Cert.KernelIdeal.GenP.hostOps0_1_writes (by decide : main_arg2 ∉ Cert.KernelIdeal.GenP.hostOps0_1_W)).trans <|
      (StableHlo.after_of_writes_sub hostOps0 _ Cert.KernelIdeal.GenP.hostOps0_writes (by decide : main_arg2 ∉ Cert.KernelIdeal.GenP.hostOps0_W)).trans rfl

theorem k0_arg4 (c : Dev nD) : W4 m c (Proc.devRef .tc main_arg4) = m ((c : Thread nD τ).loc main_arg4) :=
      (StableHlo.after_of_writes_sub hostOps0_3 _ Cert.KernelIdeal.GenP.hostOps0_3_writes (by decide : main_arg4 ∉ Cert.KernelIdeal.GenP.hostOps0_3_W)).trans <|
      (StableHlo.after_of_writes_sub hostOps0_2 _ Cert.KernelIdeal.GenP.hostOps0_2_writes (by decide : main_arg4 ∉ Cert.KernelIdeal.GenP.hostOps0_2_W)).trans <|
      (StableHlo.after_of_writes_sub hostOps0_1 _ Cert.KernelIdeal.GenP.hostOps0_1_writes (by decide : main_arg4 ∉ Cert.KernelIdeal.GenP.hostOps0_1_W)).trans <|
      (StableHlo.after_of_writes_sub hostOps0 _ Cert.KernelIdeal.GenP.hostOps0_writes (by decide : main_arg4 ∉ Cert.KernelIdeal.GenP.hostOps0_W)).trans rfl

theorem k0_arg5 (c : Dev nD) : W4 m c (Proc.devRef .tc main_arg5) = m ((c : Thread nD τ).loc main_arg5) :=
      (StableHlo.after_of_writes_sub hostOps0_3 _ Cert.KernelIdeal.GenP.hostOps0_3_writes (by decide : main_arg5 ∉ Cert.KernelIdeal.GenP.hostOps0_3_W)).trans <|
      (StableHlo.after_of_writes_sub hostOps0_2 _ Cert.KernelIdeal.GenP.hostOps0_2_writes (by decide : main_arg5 ∉ Cert.KernelIdeal.GenP.hostOps0_2_W)).trans <|
      (StableHlo.after_of_writes_sub hostOps0_1 _ Cert.KernelIdeal.GenP.hostOps0_1_writes (by decide : main_arg5 ∉ Cert.KernelIdeal.GenP.hostOps0_1_W)).trans <|
      (StableHlo.after_of_writes_sub hostOps0 _ Cert.KernelIdeal.GenP.hostOps0_writes (by decide : main_arg5 ∉ Cert.KernelIdeal.GenP.hostOps0_W)).trans rfl

theorem k0_arg6 (c : Dev nD) : W4 m c (Proc.devRef .tc main_arg6) = m ((c : Thread nD τ).loc main_arg6) :=
      (StableHlo.after_of_writes_sub hostOps0_3 _ Cert.KernelIdeal.GenP.hostOps0_3_writes (by decide : main_arg6 ∉ Cert.KernelIdeal.GenP.hostOps0_3_W)).trans <|
      (StableHlo.after_of_writes_sub hostOps0_2 _ Cert.KernelIdeal.GenP.hostOps0_2_writes (by decide : main_arg6 ∉ Cert.KernelIdeal.GenP.hostOps0_2_W)).trans <|
      (StableHlo.after_of_writes_sub hostOps0_1 _ Cert.KernelIdeal.GenP.hostOps0_1_writes (by decide : main_arg6 ∉ Cert.KernelIdeal.GenP.hostOps0_1_W)).trans <|
      (StableHlo.after_of_writes_sub hostOps0 _ Cert.KernelIdeal.GenP.hostOps0_writes (by decide : main_arg6 ∉ Cert.KernelIdeal.GenP.hostOps0_W)).trans rfl

theorem k0_arg7a (c : Dev nD) : W6 m c (Proc.devRef .tc main_arg7) = m ((c : Thread nD τ).loc main_arg7) :=
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k0_arg7b (c : Dev nD) : W8 m c (Proc.devRef .tc main_arg7) = m ((c : Thread nD τ).loc main_arg7) :=
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k0_arg8 (c : Dev nD) : W8 m c (Proc.devRef .tc main_arg8) = m ((c : Thread nD τ).loc main_arg8) :=
      (W8_of_ne m c main_arg8 (by decide)).trans <|
      (StableHlo.after_of_writes_sub hostOps1 _ Cert.KernelIdeal.GenP.hostOps1_writes (by decide : main_arg8 ∉ Cert.KernelIdeal.GenP.hostOps1_W)).trans <|
      (W6_of_ne m c main_arg8 (by decide)).trans <|
      (StableHlo.after_of_writes_sub hostOps0_4 _ Cert.KernelIdeal.GenP.hostOps0_4_writes (by decide : main_arg8 ∉ Cert.KernelIdeal.GenP.hostOps0_4_W)).trans <|
      (StableHlo.after_of_writes_sub hostOps0_3 _ Cert.KernelIdeal.GenP.hostOps0_3_writes (by decide : main_arg8 ∉ Cert.KernelIdeal.GenP.hostOps0_3_W)).trans <|
      (StableHlo.after_of_writes_sub hostOps0_2 _ Cert.KernelIdeal.GenP.hostOps0_2_writes (by decide : main_arg8 ∉ Cert.KernelIdeal.GenP.hostOps0_2_W)).trans <|
      (StableHlo.after_of_writes_sub hostOps0_1 _ Cert.KernelIdeal.GenP.hostOps0_1_writes (by decide : main_arg8 ∉ Cert.KernelIdeal.GenP.hostOps0_1_W)).trans <|
      (StableHlo.after_of_writes_sub hostOps0 _ Cert.KernelIdeal.GenP.hostOps0_writes (by decide : main_arg8 ∉ Cert.KernelIdeal.GenP.hostOps0_W)).trans rfl

theorem k0_arg9 (c : Dev nD) : W8 m c (Proc.devRef .tc main_arg9) = m ((c : Thread nD τ).loc main_arg9) :=
      (W8_of_ne m c main_arg9 (by decide)).trans <|
      (StableHlo.after_of_writes_sub hostOps1 _ Cert.KernelIdeal.GenP.hostOps1_writes (by decide : main_arg9 ∉ Cert.KernelIdeal.GenP.hostOps1_W)).trans <|
      (W6_of_ne m c main_arg9 (by decide)).trans <|
      (StableHlo.after_of_writes_sub hostOps0_4 _ Cert.KernelIdeal.GenP.hostOps0_4_writes (by decide : main_arg9 ∉ Cert.KernelIdeal.GenP.hostOps0_4_W)).trans <|
      (StableHlo.after_of_writes_sub hostOps0_3 _ Cert.KernelIdeal.GenP.hostOps0_3_writes (by decide : main_arg9 ∉ Cert.KernelIdeal.GenP.hostOps0_3_W)).trans <|
      (StableHlo.after_of_writes_sub hostOps0_2 _ Cert.KernelIdeal.GenP.hostOps0_2_writes (by decide : main_arg9 ∉ Cert.KernelIdeal.GenP.hostOps0_2_W)).trans <|
      (StableHlo.after_of_writes_sub hostOps0_1 _ Cert.KernelIdeal.GenP.hostOps0_1_writes (by decide : main_arg9 ∉ Cert.KernelIdeal.GenP.hostOps0_1_W)).trans <|
      (StableHlo.after_of_writes_sub hostOps0 _ Cert.KernelIdeal.GenP.hostOps0_writes (by decide : main_arg9 ∉ Cert.KernelIdeal.GenP.hostOps0_W)).trans rfl

theorem k0_v3 (c : Dev nD) : W6 m c (Proc.devRef .tc main_v3) = W5 m c (Proc.devRef .tc main_v3) :=
      (W6_of_ne m c main_v3 (by decide))

theorem k0_v6 (c : Dev nD) : W6 m c (Proc.devRef .tc main_v6) = W5 m c (Proc.devRef .tc main_v6) :=
      (W6_of_ne m c main_v6 (by decide))

theorem k0_v41 (c : Dev nD) : W6 m c (Proc.devRef .tc main_v41) = W5 m c (Proc.devRef .tc main_v41) :=
      (W6_of_ne m c main_v41 (by decide))

theorem k0_agg (c : Dev nD) : W9 m c (Proc.devRef .tc main_v63) = W7 m c (Proc.devRef .tc main_v63) :=
      (StableHlo.after_of_writes_sub hostOps2 _ Cert.KernelIdeal.GenP.hostOps2_writes (by decide : main_v63 ∉ Cert.KernelIdeal.GenP.hostOps2_W)).trans <|
      ((W8_arr m c 0).trans (((dat1 (V7 m) c).arrAt_in 0 rfl _).trans (A_eq1 (V7 m) c 0)))

/-! ## The perceptron -/

theorem lay0_in0 (c : Dev nD) : inRows0 (V5 m) c = lay0_H m c :=
  funext fun p => funext fun j => congrFun (k0_arg0 m c) (ix2 p j)
theorem lay0_in1 (c : Dev nD) : wOne0 (V5 m) c = lay0_W1 m c :=
  funext fun j => funext fun k => congrFun (k0_arg2 m c) (ix2 j k)
theorem lay0_in2 (c : Dev nD) : bOne0 (V5 m) c = lay0_b1 m c :=
  funext fun k => (hmlp0_b1 (W4 m c) k).trans (congrFun (k0_arg4 m c) (ix2 (0 : Fin 5) k))
theorem lay0_in3 (c : Dev nD) : wTwo0 (V5 m) c = lay0_W2 m c :=
  funext fun j => funext fun k => (hmlp0_w2 (W4 m c) j k).trans (congrFun (k0_arg5 m c) (ix3 (0 : Fin 5) j k))
theorem lay0_in4 (c : Dev nD) : bTwo0 (V5 m) c = lay0_b2 m c :=
  funext fun k => (hmlp0_b2 (W4 m c) k).trans (congrFun (k0_arg6 m c) (ix2 (0 : Fin 5) k))

/-- After the perceptron's region its output array holds the perceptron's rows. -/
theorem lay0_out (c : Dev nD) : W6 m c (Proc.devRef .tc main_v50) = Cert.Spec.uncur (lay0_Z m c) := by
  refine (W6_arr m c 5).trans ((final0_5 (V5 m) c).trans ?_)
  unfold G0
  rw [lay0_in0, lay0_in1, lay0_in2, lay0_in3, lay0_in4]
  rfl

/-! ## The aggregation -/

/-- The aggregated array when the statistics are entered. -/
theorem lay0_agg (c : Dev nD) : Cert.Spec.cur (W7 m c (Proc.devRef .tc main_v63)) = lay0_A m c := by
  refine congrArg Cert.Spec.cur ((hagg0 (W6 m c)).trans ?_)
  rw [k0_v3 m c, k0_v6 m c, k0_v41 m c, lay0_out m c]

/-- The bias row when the statistics are entered. -/
theorem lay0_sbias (c : Dev nD) : (fun q => W7 m c (Proc.devRef .tc main_v66) (ix2 (0 : Fin 1) q)) = lay0_bias m c :=
  funext fun q => (hagg0_bias (W6 m c) q).trans (congrFun (k0_arg7a m c) (ix2 (0 : Fin 5) q))

/-! ## The column sums -/

theorem lay0_s1 (c : Dev nD) : (fun q => W8 m c (Proc.devRef .tc main_v67_0) (ix2 (0 : Fin 1) q))
    = Cert.Spec.colSum (lay0_A m c) (lay0_bias m c) := by
  funext q
  refine (congrFun (W8_arr m c 2) (ix2 (0 : Fin 1) q)).trans ((arrAt1_2 (V7 m) c q).trans ?_)
  have hA : (fun p q => V7 m c (Pipeline.arrRef spec1 0) (ix2 p q)) = lay0_A m c := lay0_agg m c
  have hb : (fun q => V7 m c (Pipeline.arrRef spec1 1) (ix2 (0 : Fin 1) q)) = lay0_bias m c := lay0_sbias m c
  rw [hA, hb]

theorem lay0_s2 (c : Dev nD) : (fun q => W8 m c (Proc.devRef .tc main_v67_1) (ix2 (0 : Fin 1) q))
    = Cert.Spec.colSumSq (lay0_A m c) (lay0_bias m c) := by
  funext q
  refine (congrFun (W8_arr m c 3) (ix2 (0 : Fin 1) q)).trans ((arrAt1_3 (V7 m) c q).trans ?_)
  have hA : (fun p q => V7 m c (Pipeline.arrRef spec1 0) (ix2 p q)) = lay0_A m c := lay0_agg m c
  have hb : (fun q => V7 m c (Pipeline.arrRef spec1 1) (ix2 (0 : Fin 1) q)) = lay0_bias m c := lay0_sbias m c
  rw [hA, hb]

/-! ## What the normalisation is entered with -/

theorem lay0_nagg (c : Dev nD) : Cert.Spec.cur (W9 m c (Proc.devRef .tc main_v63)) = lay0_A m c :=
  (congrArg Cert.Spec.cur (k0_agg m c)).trans (lay0_agg m c)
theorem lay0_nbias (c : Dev nD) : (fun q => W9 m c (Proc.devRef .tc main_v80) (ix2 (0 : Fin 1) q)) = lay0_bias m c :=
  funext fun q => (hnorm0_bias (W8 m c) q).trans (congrFun (k0_arg7b m c) (ix2 (0 : Fin 5) q))
theorem lay0_ngamma (c : Dev nD) : (fun q => W9 m c (Proc.devRef .tc main_v81) (ix2 (0 : Fin 1) q)) = lay0_gamma m c :=
  funext fun q => (hnorm0_gamma (W8 m c) q).trans (congrFun (k0_arg8 m c) (ix2 (0 : Fin 5) q))
theorem lay0_nbeta (c : Dev nD) : (fun q => W9 m c (Proc.devRef .tc main_v82) (ix2 (0 : Fin 1) q)) = lay0_beta m c :=
  funext fun q => (hnorm0_beta (W8 m c) q).trans (congrFun (k0_arg9 m c) (ix2 (0 : Fin 5) q))
theorem lay0_nmean (c : Dev nD) : (fun q => W9 m c (Proc.devRef .tc main_v69) (ix2 (0 : Fin 1) q))
    = Cert.Spec.meanOf (Cert.Spec.colSum (lay0_A m c) (lay0_bias m c)) :=
  funext fun q => (hnorm0_mean (W8 m c) q).trans (by rw [lay0_s1 m c])
theorem lay0_nvar (c : Dev nD) : (fun q => W9 m c (Proc.devRef .tc main_v73) (ix2 (0 : Fin 1) q))
    = Cert.Spec.varOf (Cert.Spec.colSum (lay0_A m c) (lay0_bias m c)) (Cert.Spec.colSumSq (lay0_A m c) (lay0_bias m c)) :=
  funext fun q => (hnorm0_var (W8 m c) q).trans (by rw [lay0_s1 m c, lay0_s2 m c])

/-! ## The layer -/

/-- After the normalisation's region its output array holds the layer. -/
theorem layer_0 (c : Dev nD) : Cert.Spec.cur (W10 m c (Proc.devRef .tc main_v83))
    = Cert.Spec.layerK true (W5 m c (Proc.devRef .tc main_v3)) (W5 m c (Proc.devRef .tc main_v6)) (W5 m c (Proc.devRef .tc main_v41))
        (lay0_H m c) (lay0_W1 m c) (lay0_b1 m c) (lay0_W2 m c) (lay0_b2 m c) (lay0_bias m c) (lay0_gamma m c) (lay0_beta m c) := by
  funext p q
  refine (congrFun (W10_arr m c 6) (ix2 p q)).trans ((arrAt2_6 (V9 m) c p q).trans ?_)
  have hA : (fun p q => V9 m c main_v63 (ix2 p q)) = lay0_A m c := lay0_nagg m c
  have hb : (fun q => V9 m c main_v80 (ix2 (0 : Fin 1) q)) = lay0_bias m c := lay0_nbias m c
  have hm : (fun q => V9 m c main_v69 (ix2 (0 : Fin 1) q)) = _ := lay0_nmean m c
  have hv : (fun q => V9 m c main_v73 (ix2 (0 : Fin 1) q)) = _ := lay0_nvar m c
  have hg : (fun q => V9 m c main_v81 (ix2 (0 : Fin 1) q)) = lay0_gamma m c := lay0_ngamma m c
  have hbe : (fun q => V9 m c main_v82 (ix2 (0 : Fin 1) q)) = lay0_beta m c := lay0_nbeta m c
  rw [hA, hb, hm, hv, hg, hbe]
  rfl

end Cert.KernelIdeal.Hand

end
-- ==== Proof.KI.ChainHost1.lean ====
/-
  What the host operations around layer 1 compute, read for an arbitrary valuation of the buffers: the rows and
  blocks of the stacked parameters they cut out, the edge aggregation of the perceptron's result, and the mean and
  variance rows from the two column sums.
-/
import proofs.«114689_j15281493639468_1_alg».proof.Proof.Gen.KernelIdeal.Launch
import proofs.«114689_j15281493639468_1_alg».proof.Proof.Spec
import proofs.«114689_j15281493639468_1_alg».proof.Proof.SpecHost
import proofs.«114689_j15281493639468_1_alg».proof.Proof.SpecRows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (W : Valuation τ sig (Elt Ideal))

/-! ## Before the perceptron: its weights and bias rows -/

set_option maxHeartbeats 4000000 in
/-- The first weight matrix of layer 1 is block 0 of its stack. -/
theorem hmlp1_w1 (j k : Fin 32) : StableHlo.after (hostOps3 (F := Ideal)) W (Proc.devRef .tc main_v85) (ix2 j k)
      = W (Proc.devRef .tc main_arg3) (ix3 (0 : Fin 4) j k) := by
  after_results_simp
  exact Cert.Spec.matSlice_apply 0 _ _ _ (0 : Fin 4) rfl j k

set_option maxHeartbeats 4000000 in
/-- The first bias row of layer 1 is row 1 of its stack. -/
theorem hmlp1_b1 (q : Fin 32) : StableHlo.after (hostOps3 (F := Ideal)) W (Proc.devRef .tc main_v92) (ix2 (0 : Fin 1) q)
      = W (Proc.devRef .tc main_arg4) (ix2 (1 : Fin 5) q) := by
  after_results_simp
  exact Cert.Spec.rowSlice_apply 1 _ _ _ _ (1 : Fin 5) rfl (0 : Fin 1) q

set_option maxHeartbeats 4000000 in
/-- The second weight matrix of layer 1 is block 1 of its stack. -/
theorem hmlp1_w2 (j k : Fin 32) : StableHlo.after (hostOps3 (F := Ideal)) W (Proc.devRef .tc main_v89) (ix2 j k)
      = W (Proc.devRef .tc main_arg5) (ix3 (1 : Fin 5) j k) := by
  after_results_simp
  exact Cert.Spec.matSlice_apply 1 _ _ _ (1 : Fin 5) rfl j k

set_option maxHeartbeats 4000000 in
/-- The second bias row of layer 1 is row 1 of its stack. -/
theorem hmlp1_b2 (q : Fin 32) : StableHlo.after (hostOps3 (F := Ideal)) W (Proc.devRef .tc main_v93) (ix2 (0 : Fin 1) q)
      = W (Proc.devRef .tc main_arg6) (ix2 (1 : Fin 5) q) := by
  after_results_simp
  exact Cert.Spec.rowSlice_apply 1 _ _ _ _ (1 : Fin 5) rfl (0 : Fin 1) q

/-! ## Between the perceptron and the statistics: the edge aggregation -/

set_option maxHeartbeats 4000000 in
/-- The aggregated array is the edge aggregation of the perceptron's result. -/
theorem hagg1 : StableHlo.after (hostOps4 (F := Ideal)) W (Proc.devRef .tc main_v107)
      = Cert.Spec.aggArr (W (Proc.devRef .tc main_v3)) (W (Proc.devRef .tc main_v6)) (W (Proc.devRef .tc main_v41)) (W (Proc.devRef .tc main_v94)) := by
  after_results_simp; rfl

set_option maxHeartbeats 4000000 in
/-- The bias row the statistics add is row 1 of its stack. -/
theorem hagg1_bias (q : Fin 32) : StableHlo.after (hostOps4 (F := Ideal)) W (Proc.devRef .tc main_v110) (ix2 (0 : Fin 1) q)
      = W (Proc.devRef .tc main_arg7) (ix2 (1 : Fin 5) q) := by
  after_results_simp
  exact Cert.Spec.rowSlice_apply 1 _ _ _ _ (1 : Fin 5) rfl (0 : Fin 1) q

/-! ## Between the statistics and the normalisation: mean, variance and the three parameter rows -/

set_option maxHeartbeats 4000000 in
/-- The mean row is the first column sum divided by the number of rows. -/
theorem hnorm1_mean (q : Fin 32) : StableHlo.after (hostOps5 (F := Ideal)) W (Proc.devRef .tc main_v113) (ix2 (0 : Fin 1) q)
      = Cert.Spec.meanOf (fun q => W (Proc.devRef .tc main_v111_0) (ix2 (0 : Fin 1) q)) q := by
  after_results_simp; rfl

set_option maxHeartbeats 4000000 in
/-- The variance row is the mean of the squares less the square of the mean. -/
theorem hnorm1_var (q : Fin 32) : StableHlo.after (hostOps5 (F := Ideal)) W (Proc.devRef .tc main_v117) (ix2 (0 : Fin 1) q)
      = Cert.Spec.varOf (fun q => W (Proc.devRef .tc main_v111_0) (ix2 (0 : Fin 1) q)) (fun q => W (Proc.devRef .tc main_v111_1) (ix2 (0 : Fin 1) q)) q := by
  after_results_simp; rfl

set_option maxHeartbeats 4000000 in
/-- The bias row the normalisation adds is row 1 of its stack. -/
theorem hnorm1_bias (q : Fin 32) : StableHlo.after (hostOps5 (F := Ideal)) W (Proc.devRef .tc main_v124) (ix2 (0 : Fin 1) q)
      = W (Proc.devRef .tc main_arg7) (ix2 (1 : Fin 5) q) := by
  after_results_simp
  exact Cert.Spec.rowSlice_apply 1 _ _ _ _ (1 : Fin 5) rfl (0 : Fin 1) q

set_option maxHeartbeats 4000000 in
/-- The scale row is row 1 of its stack. -/
theorem hnorm1_gamma (q : Fin 32) : StableHlo.after (hostOps5 (F := Ideal)) W (Proc.devRef .tc main_v125) (ix2 (0 : Fin 1) q)
      = W (Proc.devRef .tc main_arg8) (ix2 (1 : Fin 5) q) := by
  after_results_simp
  exact Cert.Spec.rowSlice_apply 1 _ _ _ _ (1 : Fin 5) rfl (0 : Fin 1) q

set_option maxHeartbeats 4000000 in
/-- The offset row is row 1 of its stack. -/
theorem hnorm1_beta (q : Fin 32) : StableHlo.after (hostOps5 (F := Ideal)) W (Proc.devRef .tc main_v126) (ix2 (0 : Fin 1) q)
      = W (Proc.devRef .tc main_arg9) (ix2 (1 : Fin 5) q) := by
  after_results_simp
  exact Cert.Spec.rowSlice_apply 1 _ _ _ _ (1 : Fin 5) rfl (0 : Fin 1) q

end Cert.KernelIdeal.Hand

end
-- ==== Proof.KI.Mlp3Value.lean ====
/-
  The value the multilayer-perceptron region of pipeline 3 leaves in its output array, over the extended reals:
  every row p of the output is  max(x_p · W₁ + b₁, 0) · W₂ + b₂  of row p of the input, the two products read as
  sums over the contracted index.  Grid point t handles rows 5000·t … 5000·t + 4999, and the twenty points cover
  the 100000 rows.
-/
import proofs.«114689_j15281493639468_1_alg».proof.Proof.KI.Mlp3
import proofs.«114689_j15281493639468_1_alg».proof.Proof.Spec
import proofs.«114689_j15281493639468_1_alg».proof.Proof.Lib.LibDenseRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payload at an index -/

/-- At row p and column q of a block the stored value is the two-layer perceptron of row p: rounding to a
    narrower format is the identity on the extended reals, each product into a zero accumulator is the sum over
    the contracted index, and the clamp is against the extended real 0. -/
theorem k3_pay1_apply (x0 : Vec Ideal S5000x32 .f32) (x1 : Vec Ideal S32x32 .f32) (x2 : Vec Ideal S1x32 .f32)
    (x3 : Vec Ideal S32x32 .f32) (x4 : Vec Ideal S1x32 .f32) (p : Fin 5000) (q : Fin 32) :
    k3_pay1 (F := Ideal) x0 x1 x2 x3 x4 (ix2 p q)
      = (∑ k : Fin 32, max ((∑ j : Fin 32, x0 (ix2 p j) * x1 (ix2 j k)) + x2 (ix2 (0 : Fin 1) k)) 0 * x3 (ix2 k q))
          + x4 (ix2 (0 : Fin 1) q) := by
  unfold k3_pay1
  simp only [shapeCast_self]
  refine (DenseRows.matmul_bias_apply (m := 5000) (k := 32) (n := 32) none _ _ x4 _ p q).trans ?_
  show (∑ c : Fin 32, _ * x3 (ix2 c q)) + x4 (ix2 (0 : Fin 1) q) = _
  refine congrArg (· + x4 (ix2 (0 : Fin 1) q)) (Finset.sum_congr rfl fun k _ => ?_)
  refine congrArg (· * x3 (ix2 k q)) ?_
  refine (DenseRows.clamped_matmul_bias_apply (m := 5000) (k := 32) (n := 32) none _ _ x2 _ p k).trans ?_
  show max ((∑ c : Fin 32, x0 (ix2 p c) * x1 (ix2 c k)) + x2 (ix2 (0 : Fin 1) k)) (Ideal.ofBits .f32 0x00000000#32) = _
  rw [Ideal.ofBits_zero_f32]

/-! ## From blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The block index maps over the twenty grid points: the input and output row blocks move with the point,
    the weights and biases stay at their one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The five arrays the region reads, as the region finds them, entry by entry. -/
def inRows3 (c : Dev nD) : Fin 100000 → Fin 32 → EReal := fun p j => V c (Pipeline.arrRef spec3 0) (ix2 p j)
def wOne3 (c : Dev nD) : Fin 32 → Fin 32 → EReal := fun j k => V c (Pipeline.arrRef spec3 1) (ix2 j k)
def bOne3 (c : Dev nD) : Fin 32 → EReal := fun k => V c (Pipeline.arrRef spec3 2) (ix2 0 k)
def wTwo3 (c : Dev nD) : Fin 32 → Fin 32 → EReal := fun k q => V c (Pipeline.arrRef spec3 3) (ix2 k q)
def bTwo3 (c : Dev nD) : Fin 32 → EReal := fun q => V c (Pipeline.arrRef spec3 4) (ix2 0 q)

/-- The whole output array as one function of those five. -/
def G3 (c : Dev nD) : S100000x32.Idx → EReal := fun i =>
  Cert.Spec.dense (inRows3 V c) (wOne3 V c) (bOne3 V c) (wTwo3 V c) (bTwo3 V c) (i 0) (i 1)

/-- The input block at point t is rows 5000·t … 5000·t + 4999 of the input array. -/
theorem iblk3_0_apply (c : Dev nD) (t : Fin cfg3.N) (p : Fin 5000) (j : Fin 32) (r : Fin 100000)
    (hr : r.val = t.val * 5000 + p.val) :
    (iblk3 V c 0 t : Vec Ideal S5000x32 .f32) (ix2 p j) = inRows3 V c r j := by
  obtain ⟨h00, h01, -⟩ := idx3 t
  unfold iblk3 inRows3
  rw [View.read_apply]
  show V c (Pipeline.arrRef spec3 0) _ = V c (Pipeline.arrRef spec3 0) _
  refine congrArg (V c (Pipeline.arrRef spec3 0)) ?_
  funext ax; apply Fin.ext
  match ax with
  | ⟨0, _⟩ => show win3_0.index t (0 : Fin 2) * 5000 + 1 * p.val = r.val; rw [h00, hr]; omega
  | ⟨1, _⟩ => show win3_0.index t (1 : Fin 2) * 32 + 1 * j.val = j.val; rw [h01]; omega

/-- Window 1's block is its whole array at every point. -/
theorem iblk3_1_apply (c : Dev nD) (t : Fin cfg3.N) (j : Fin 32) (k : Fin 32) :
    (iblk3 V c 1 t : Vec Ideal S32x32 .f32) (ix2 j k) = wOne3 V c j k := by
  obtain ⟨-, -, h10, h11, h20, h21, h30, h31, h40, h41, -, -⟩ := idx3 t
  unfold iblk3 wOne3
  rw [View.read_apply]
  show V c (Pipeline.arrRef spec3 1) _ = V c (Pipeline.arrRef spec3 1) _
  refine congrArg (V c (Pipeline.arrRef spec3 1)) ?_
  funext ax; apply Fin.ext
  match ax with
  | ⟨0, _⟩ => show win3_1.index t (0 : Fin 2) * 32 + 1 * (ix2 j k 0).val = (ix2 j k 0).val; rw [h10]; omega
  | ⟨1, _⟩ => show win3_1.index t (1 : Fin 2) * 32 + 1 * (ix2 j k 1).val = (ix2 j k 1).val; rw [h11]; omega

/-- Window 2's block is its whole array at every point. -/
theorem iblk3_2_apply (c : Dev nD) (t : Fin cfg3.N) (k : Fin 32) :
    (iblk3 V c 2 t : Vec Ideal S1x32 .f32) (ix2 (0 : Fin 1) k) = bOne3 V c k := by
  obtain ⟨-, -, h10, h11, h20, h21, h30, h31, h40, h41, -, -⟩ := idx3 t
  unfold iblk3 bOne3
  rw [View.read_apply]
  show V c (Pipeline.arrRef spec3 2) _ = V c (Pipeline.arrRef spec3 2) _
  refine congrArg (V c (Pipeline.arrRef spec3 2)) ?_
  funext ax; apply Fin.ext
  match ax with
  | ⟨0, _⟩ => show win3_2.index t (0 : Fin 2) * 1 + 1 * (ix2 (0 : Fin 1) k 0).val = (ix2 (0 : Fin 1) k 0).val; rw [h20]; omega
  | ⟨1, _⟩ => show win3_2.index t (1 : Fin 2) * 32 + 1 * (ix2 (0 : Fin 1) k 1).val = (ix2 (0 : Fin 1) k 1).val; rw [h21]; omega

/-- Window 3's block is its whole array at every point. -/
theorem iblk3_3_apply (c : Dev nD) (t : Fin cfg3.N) (k : Fin 32) (q : Fin 32) :
    (iblk3 V c 3 t : Vec Ideal S32x32 .f32) (ix2 k q) = wTwo3 V c k q := by
  obtain ⟨-, -, h10, h11, h20, h21, h30, h31, h40, h41, -, -⟩ := idx3 t
  unfold iblk3 wTwo3
  rw [View.read_apply]
  show V c (Pipeline.arrRef spec3 3) _ = V c (Pipeline.arrRef spec3 3) _
  refine congrArg (V c (Pipeline.arrRef spec3 3)) ?_
  funext ax; apply Fin.ext
  match ax with
  | ⟨0, _⟩ => show win3_3.index t (0 : Fin 2) * 32 + 1 * (ix2 k q 0).val = (ix2 k q 0).val; rw [h30]; omega
  | ⟨1, _⟩ => show win3_3.index t (1 : Fin 2) * 32 + 1 * (ix2 k q 1).val = (ix2 k q 1).val; rw [h31]; omega

/-- Window 4's block is its whole array at every point. -/
theorem iblk3_4_apply (c : Dev nD) (t : Fin cfg3.N) (q : Fin 32) :
    (iblk3 V c 4 t : Vec Ideal S1x32 .f32) (ix2 (0 : Fin 1) q) = bTwo3 V c q := by
  obtain ⟨-, -, h10, h11, h20, h21, h30, h31, h40, h41, -, -⟩ := idx3 t
  unfold iblk3 bTwo3
  rw [View.read_apply]
  show V c (Pipeline.arrRef spec3 4) _ = V c (Pipeline.arrRef spec3 4) _
  refine congrArg (V c (Pipeline.arrRef spec3 4)) ?_
  funext ax; apply Fin.ext
  match ax with
  | ⟨0, _⟩ => show win3_4.index t (0 : Fin 2) * 1 + 1 * (ix2 (0 : Fin 1) q 0).val = (ix2 (0 : Fin 1) q 0).val; rw [h40]; omega
  | ⟨1, _⟩ => show win3_4.index t (1 : Fin 2) * 32 + 1 * (ix2 (0 : Fin 1) q 1).val = (ix2 (0 : Fin 1) q 1).val; rw [h41]; omega

set_option maxHeartbeats 1000000 in
/-- What point t writes back is block t of `G3`. -/
theorem flushed3_5_eq (c : Dev nD) (t : Fin cfg3.N) :
    (dat3 V c).flushed 5 t = ((cfg3.win 5).blk t).view.read (Elt Ideal) (G3 V c) := by
  have hN : cfg3.N = 20 := N_3
  obtain ⟨-, -, -, -, -, -, -, -, -, -, h50, h51⟩ := idx3 t
  show (cfg3.win 5).cut (grid3.coords t) ((dat3 V c).after 5 t) = _
  rw [after3_5]
  unfold out3_5
  rw [View.canon_unit_zero hz3]
  simp only [View.ld_unit_zero (S := S5000x32) hz3, View.ld_unit_zero (S := S32x32) hz3, View.ld_unit_zero (S := S1x32) hz3,
    View.ld_unit_zero (S := S32x32) hz3]
  funext y
  obtain ⟨p, q, rfl⟩ : ∃ (p : Fin 5000) (q : Fin 32), y = ix2 p q := ⟨y 0, y 1, eq_ix2 y⟩
  have hp : p.val < 5000 := p.isLt
  have ht : t.val < 20 := hN ▸ t.isLt
  have hemb : ((cfg3.win 5).blk t).view.emb (ix2 p q) = (ix2 (⟨t.val * 5000 + p.val, by omega⟩ : Fin 100000) q : S100000x32.Idx) := by
    funext ax; apply Fin.ext
    match ax with
    | ⟨0, _⟩ => show win3_5.index t (0 : Fin 2) * 5000 + 1 * p.val = t.val * 5000 + p.val; rw [h50]; omega
    | ⟨1, _⟩ => show win3_5.index t (1 : Fin 2) * 32 + 1 * q.val = q.val; rw [h51]; omega
  show k3_pay1 (F := Ideal) (iblk3 V c 0 t) (iblk3 V c 1 t) (iblk3 V c 2 t) (iblk3 V c 3 t) (iblk3 V c 4 t) (ix2 p q)
    = G3 V c (((cfg3.win 5).blk t).view.emb (ix2 p q))
  rw [hemb]
  refine (k3_pay1_apply (iblk3 V c 0 t) (iblk3 V c 1 t) (iblk3 V c 2 t) (iblk3 V c 3 t) (iblk3 V c 4 t) p q).trans ?_
  show _ = Cert.Spec.dense (inRows3 V c) (wOne3 V c) (bOne3 V c) (wTwo3 V c) (bTwo3 V c) (⟨t.val * 5000 + p.val, by omega⟩ : Fin 100000) q
  unfold Cert.Spec.dense
  simp only [iblk3_0_apply V c t p _ (⟨t.val * 5000 + p.val, by omega⟩ : Fin 100000) rfl, iblk3_1_apply V c t, iblk3_2_apply V c t, iblk3_3_apply V c t, iblk3_4_apply V c t]

/-- Every row of the output array is in the block of the point its row number divided by 5000 names. -/
theorem covered3_5 (i : S100000x32.Idx) :
    ∃ t : Fin cfg3.N, (cfg3.win 5).flush t = true ∧ i ∈ ((cfg3.win 5).blk t).view.set := by
  have hN : cfg3.N = 20 := N_3
  have hi0 : (i 0).val < 100000 := (i 0).isLt
  have hi1 : (i 1).val < 32 := (i 1).isLt
  have ht : (i 0).val / 5000 < cfg3.N := by rw [hN]; omega
  obtain ⟨-, -, -, -, -, -, -, -, -, -, h50, h51⟩ := idx3 ⟨(i 0).val / 5000, ht⟩
  have h50' : win3_5.index ⟨(i 0).val / 5000, ht⟩ (0 : Fin 2) = (i 0).val / 5000 := h50
  refine ⟨⟨(i 0).val / 5000, ht⟩, flush3_5 _, ?_⟩
  show i ∈ ((View.whole main_v94).slice (win3_5.rect ⟨(i 0).val / 5000, ht⟩)).set
  rw [View.set_slice_whole, Rect.mem_set_unit]
  intro ax
  match ax with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [h50']; omega
  | ⟨1, _⟩ =>
    show win3_5.index ⟨(i 0).val / 5000, ht⟩ (1 : Fin 2) * 32 ≤ (i 1).val
      ∧ (i 1).val < win3_5.index ⟨(i 0).val / 5000, ht⟩ (1 : Fin 2) * 32 + 32
    rw [h51]; omega

/-- The output array after the region is `G3`. -/
theorem final3_5 (c : Dev nD) : (dat3 (F := Ideal) V c).arrAt 5 cfg3.N = G3 V c :=
  (dat3 V c).arrAt_eq_of_cover 5 (G3 V c) (fun t _ => flushed3_5_eq V c t) (covered3_5)

/-- The output array after the region, entry by entry: the two-layer perceptron of the input array's rows. -/
theorem arrAt3_5 (c : Dev nD) (p : Fin 100000) (q : Fin 32) :
    (dat3 (F := Ideal) V c).arrAt 5 cfg3.N (ValueIdx.ix2 p q)
      = Cert.Spec.dense (fun p j => V c (Pipeline.arrRef spec3 0) (ValueIdx.ix2 p j)) (fun j k => V c (Pipeline.arrRef spec3 1) (ValueIdx.ix2 j k))
          (fun k => V c (Pipeline.arrRef spec3 2) (ValueIdx.ix2 0 k)) (fun k q => V c (Pipeline.arrRef spec3 3) (ValueIdx.ix2 k q))
          (fun q => V c (Pipeline.arrRef spec3 4) (ValueIdx.ix2 0 q)) p q := by
  rw [final3_5]; rfl

end Cert.KernelIdeal.Hand

end
-- ==== Proof.KI.Stats4Value.lean ====
import proofs.«114689_j15281493639468_1_alg».proof.Proof.KI.Stats4
import proofs.«114689_j15281493639468_1_alg».proof.Proof.KI.StatsValueLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! # What the statistics kernel of pipeline 4 leaves in its two result rows, over the extended reals -/

/-! ## The payloads at an index -/

/-- The column sums of a [5000,32] block, as the kernel takes them (a reduction over the row axis from the zero
    pattern), read at a column: the sum over the 5000 rows. -/
theorem colsum4_apply (src : FVec Ideal S5000x32 .f32) (h : S5000x32.Reduces [0] S32) (hφ : FKind.Formats .f32)
    (hacc : (0x00000000#32 : BitVec 32) = 0x00000000#32) (q : Fin 32) :
    multiReduction .add [0] S32 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a
  match a with
  | ⟨0, _⟩ => rfl
  | ⟨1, _⟩ => rfl

theorem k4_pay1_apply (q : Fin 32) : k4_pay1 (F := Ideal) (ix2 (0 : Fin 1) q) = 0 := by
  unfold k4_pay1
  rw [shapeCast_self]
  exact Ideal.ofBits_zero_f32

theorem k4_pay2_apply (q : Fin 32) : k4_pay2 (F := Ideal) (ix2 (0 : Fin 1) q) = 0 := by
  unfold k4_pay2
  rw [shapeCast_self]
  exact Ideal.ofBits_zero_f32

/-- The block shifted by the bias row. -/
theorem k4_pay3_apply (x0 : Vec Ideal S5000x32 .f32) (x1 : Vec Ideal S1x32 .f32) (r : Fin 5000) (q : Fin 32) :
    k4_pay3 x0 x1 (ix2 r q) = x0 (ix2 r q) + x1 (ix2 (0 : Fin 1) q) := by
  unfold k4_pay3
  rw [addf_apply, shapeCast_self, broadcastTo_1b_ab_apply, shapeCast_self]

/-- The sum row after a point: what it held plus the column sums of the shifted block. -/
theorem k4_pay4_apply (x0 : Vec Ideal S5000x32 .f32) (x1 s : Vec Ideal S1x32 .f32) (q : Fin 32) :
    k4_pay4 x0 x1 s (ix2 (0 : Fin 1) q) = s (ix2 (0 : Fin 1) q) + ∑ r : Fin 5000, (x0 (ix2 r q) + x1 (ix2 (0 : Fin 1) q)) := by
  unfold k4_pay4
  rw [shapeCast_self, addf_apply, shapeCast_a_1a_apply]
  refine congrArg (s (ix2 (0 : Fin 1) q) + ·) ?_
  refine (colsum4_apply _ _ _ _ q).trans ?_
  exact Finset.sum_congr rfl fun r _ => k4_pay3_apply x0 x1 r q

/-- The sum-of-squares row after a point: what it held plus the column sums of the square of the shifted block. -/
theorem k4_pay5_apply (x0 : Vec Ideal S5000x32 .f32) (x1 s : Vec Ideal S1x32 .f32) (q : Fin 32) :
    k4_pay5 x0 x1 s (ix2 (0 : Fin 1) q)
      = s (ix2 (0 : Fin 1) q) + ∑ r : Fin 5000, (x0 (ix2 r q) + x1 (ix2 (0 : Fin 1) q)) * (x0 (ix2 r q) + x1 (ix2 (0 : Fin 1) q)) := by
  unfold k4_pay5
  rw [shapeCast_self, addf_apply, shapeCast_a_1a_apply]
  refine congrArg (s (ix2 (0 : Fin 1) q) + ·) ?_
  refine (colsum4_apply _ _ _ _ q).trans ?_
  exact Finset.sum_congr rfl fun r _ => by rw [mulf_apply, k4_pay3_apply]

/-! ## The blocks, read at an index -/

/-- Window 0's block index at point `t` is (t, 0); window 1's is (0, 0). -/
theorem index4_0 : ∀ t : Fin cfg4.N, win4_0.index t 0 = t.val ∧ win4_0.index t 1 = 0 := by decide +kernel
theorem index4_1 : ∀ t : Fin cfg4.N, win4_1.index t 0 = 0 ∧ win4_1.index t 1 = 0 := by decide +kernel

/-- Row `r` of block `t` is row `5000 t + r` of the array. -/
theorem iblk4_0_apply (c : Dev nD) (t : Fin cfg4.N) (r : Fin 5000) (q : Fin 32) (h : 5000 * t.val + r.val < 100000) :
    (iblk4 V c 0 t : Vec Ideal S5000x32 .f32) (ix2 r q) = V c (Pipeline.arrRef spec4 0) (ix2 ⟨5000 * t.val + r.val, h⟩ q) := by
  have hi := index4_0 t
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * r.val = 5000 * t.val + r.val; rw [hi.1]; omega
  | ⟨1, _⟩ => show win4_0.index t 1 * 32 + 1 * q.val = q.val; rw [hi.2]; omega

/-- The bias row's block is the bias row at every point. -/
theorem iblk4_1_apply (c : Dev nD) (t : Fin cfg4.N) (q : Fin 32) :
    (iblk4 V c 1 t : Vec Ideal S1x32 .f32) (ix2 (0 : Fin 1) q) = V c (Pipeline.arrRef spec4 1) (ix2 (0 : Fin 1) q) := by
  have hi := index4_1 t
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [hi.1]
  | ⟨1, _⟩ => show win4_1.index t 1 * 32 + 1 * q.val = q.val; rw [hi.2]; omega

/-! ## The accumulation, read at a column -/

/-- The aggregated array and the bias row as the region finds them, as functions of their coordinates. -/
abbrev accv4_A (c : Dev nD) : Fin 100000 → Fin 32 → EReal := fun p q => V c (Pipeline.arrRef spec4 0) (ix2 p q)
abbrev accv4_b (c : Dev nD) : Fin 32 → EReal := fun q => V c (Pipeline.arrRef spec4 1) (ix2 (0 : Fin 1) q)

/-- Row `p` of the shifted array at column `q` (zero past the array, where nothing is summed). -/
def accv4_term (c : Dev nD) (q : Fin 32) (p : ℕ) : EReal :=
  if h : p < 100000 then accv4_A V c ⟨p, h⟩ q + accv4_b V c q else 0

/-- After `n` points the sum row holds the column sums of the first `5000 n` rows of the shifted array: by induction on
    the point, each point adding its block's rows. -/
theorem accv4_fst (c : Dev nD) (q : Fin 32) : ∀ n, n ≤ 20 →
    (acc4 V c n).1 (ix2 (0 : Fin 1) q) = ∑ p ∈ Finset.range (5000 * n), accv4_term V c q p
  | 0, _ => by
    rw [acc4_zero]
    exact (k4_pay1_apply q).trans (by simp)
  | n + 1, hn => by
    have hN : cfg4.N = 20 := N_4
    have hlt : n < cfg4.N := by omega
    have hs : acc4 V c (n + 1) = _ := acc4_succ V c ⟨n, hlt⟩
    rw [hs]
    show k4_pay4 _ _ _ _ = _
    rw [k4_pay4_apply, accv4_fst c q n (by omega), stats_sum_range_block]
    refine congrArg _ (Finset.sum_congr rfl fun r _ => ?_)
    have hr := r.isLt
    have h : 5000 * n + r.val < 100000 := by omega
    rw [iblk4_0_apply V c ⟨n, hlt⟩ r q h, iblk4_1_apply V c ⟨n, hlt⟩ q]
    unfold accv4_term; rw [dif_pos h]; try rfl

/-- The same for the sum-of-squares row. -/
theorem accv4_snd (c : Dev nD) (q : Fin 32) : ∀ n, n ≤ 20 →
    (acc4 V c n).2 (ix2 (0 : Fin 1) q) = ∑ p ∈ Finset.range (5000 * n), accv4_term V c q p * accv4_term V c q p
  | 0, _ => by
    rw [acc4_zero]
    exact (k4_pay2_apply q).trans (by simp)
  | n + 1, hn => by
    have hN : cfg4.N = 20 := N_4
    have hlt : n < cfg4.N := by omega
    have hs : acc4 V c (n + 1) = _ := acc4_succ V c ⟨n, hlt⟩
    rw [hs]
    show k4_pay5 _ _ _ _ = _
    rw [k4_pay5_apply, accv4_snd c q n (by omega), stats_sum_range_block (fun p => accv4_term V c q p * accv4_term V c q p)]
    refine congrArg _ (Finset.sum_congr rfl fun r _ => ?_)
    have hr := r.isLt
    have h : 5000 * n + r.val < 100000 := by omega
    rw [iblk4_0_apply V c ⟨n, hlt⟩ r q h, iblk4_1_apply V c ⟨n, hlt⟩ q]
    unfold accv4_term; rw [dif_pos h]; try rfl

/-- After the last point: the column sums of the whole shifted array, and of its square. -/
theorem accv4_fst_final (c : Dev nD) (q : Fin 32) :
    (acc4 V c 20).1 (ix2 (0 : Fin 1) q)
      = Cert.Spec.colSum (fun p q => V c (Pipeline.arrRef spec4 0) (ix2 p q)) (fun q => V c (Pipeline.arrRef spec4 1) (ix2 (0 : Fin 1) q)) q := by
  rw [accv4_fst V c q 20 le_rfl, show (5000 * 20 : ℕ) = 100000 from by norm_num]
  unfold Cert.Spec.colSum Cert.Spec.shift
  rw [stats_sum_fin_eq_range]
  refine Finset.sum_congr rfl fun p _ => ?_
  unfold accv4_term
  by_cases h : p < 100000
  · rw [dif_pos h]
  · rw [dif_neg h]

theorem accv4_snd_final (c : Dev nD) (q : Fin 32) :
    (acc4 V c 20).2 (ix2 (0 : Fin 1) q)
      = Cert.Spec.colSumSq (fun p q => V c (Pipeline.arrRef spec4 0) (ix2 p q)) (fun q => V c (Pipeline.arrRef spec4 1) (ix2 (0 : Fin 1) q)) q := by
  rw [accv4_snd V c q 20 le_rfl, show (5000 * 20 : ℕ) = 100000 from by norm_num]
  unfold Cert.Spec.colSumSq Cert.Spec.shift
  rw [stats_sum_fin_eq_range]
  refine Finset.sum_congr rfl fun p _ => ?_
  unfold accv4_term
  by_cases h : p < 100000
  · rw [dif_pos h, dif_pos h]
  · rw [dif_neg h, dif_neg h, mul_zero]

/-! ## The result rows after the run -/

/-- The last point, the one that writes the result rows back. -/
abbrev t4_last : Fin cfg4.N := ⟨19, by rw [show cfg4.N = 20 from N_4]; omega⟩

/-- The result rows as array contents: the scratch rows after the last point (each row's one block is the array). -/
abbrev result4_2 (c : Dev nD) : Buf (Elt Ideal) ((cfg4.win 2).arr.view.loc (c.tc : Thread nD τ)) := (acc4 V c 20).1
abbrev result4_3 (c : Dev nD) : Buf (Elt Ideal) ((cfg4.win 3).arr.view.loc (c.tc : Thread nD τ)) := (acc4 V c 20).2

/-- The one write-back of window 2, at the last point, writes the sum row: its block, read through zero offsets, is the array. -/
theorem flushed_eq4_2 (c : Dev nD) (t : Fin cfg4.N) (hf : (cfg4.win 2).flush t = true) :
    (dat4 V c).flushed 2 t = ((cfg4.win 2).blk t).view.read (Elt Ideal) (result4_2 V c) := by
  have hN : cfg4.N = 20 := N_4
  have h19 : t.val = 19 := by have := (flush4_2 t).mp hf; have := t.isLt; omega
  obtain rfl : t = t4_last := Fin.ext h19
  show (cfg4.win 2).cut (grid4.coords t4_last) ((dat4 V c).after 2 t4_last) = _
  rw [after4_2]
  have hz' : (fun a => win4_2.index t4_last a * (Pipeline.arrRef spec4 2).ty.shape.size a) = fun _ => 0 :=
    funext fun a => by fin_cases a <;> decide
  exact (Memref.read_access_unit_zero (Elt Ideal) (Pipeline.arrRef spec4 2) hz' (fun a => by rw [congrFun hz' a]; simp) (result4_2 V c)).symm

theorem flushed_eq4_3 (c : Dev nD) (t : Fin cfg4.N) (hf : (cfg4.win 3).flush t = true) :
    (dat4 V c).flushed 3 t = ((cfg4.win 3).blk t).view.read (Elt Ideal) (result4_3 V c) := by
  have hN : cfg4.N = 20 := N_4
  have h19 : t.val = 19 := by have := (flush4_3 t).mp hf; have := t.isLt; omega
  obtain rfl : t = t4_last := Fin.ext h19
  show (cfg4.win 3).cut (grid4.coords t4_last) ((dat4 V c).after 3 t4_last) = _
  rw [after4_3]
  have hz' : (fun a => win4_3.index t4_last a * (Pipeline.arrRef spec4 3).ty.shape.size a) = fun _ => 0 :=
    funext fun a => by fin_cases a <;> decide
  exact (Memref.read_access_unit_zero (Elt Ideal) (Pipeline.arrRef spec4 3) hz' (fun a => by rw [congrFun hz' a]; simp) (result4_3 V c)).symm

/-- So each result array ends holding its scratch row after the last point (that point's block covers it). -/
theorem final4_2 (c : Dev nD) : (dat4 V c).arrAt 2 cfg4.N = result4_2 V c :=
  (dat4 V c).arrAt_eq_of_cover 2 (result4_2 V c) (flushed_eq4_2 V c) fun i =>
    ⟨t4_last, (flush4_2 t4_last).mpr rfl, by
      show i ∈ ((View.whole (Pipeline.arrRef spec4 2)).slice (win4_2.rect t4_last)).set
      rw [View.set_slice_whole, Rect.mem_set_unit]
      intro a
      have h0 : (i 0 : Nat) < 1 := (i 0).isLt
      have h1 : (i 1 : Nat) < 32 := (i 1).isLt
      match a with
      | ⟨0, _⟩ => show win4_2.index t4_last 0 * win4_2.size 0 ≤ (i 0 : Nat) ∧ (i 0 : Nat) < win4_2.index t4_last 0 * win4_2.size 0 + win4_2.xsize (grid4.coords t4_last) 0
                  rw [show win4_2.index t4_last 0 * win4_2.size 0 = 0 from by decide +kernel, show win4_2.xsize (grid4.coords t4_last) 0 = 1 from by decide +kernel]; omega
      | ⟨1, _⟩ => show win4_2.index t4_last 1 * win4_2.size 1 ≤ (i 1 : Nat) ∧ (i 1 : Nat) < win4_2.index t4_last 1 * win4_2.size 1 + win4_2.xsize (grid4.coords t4_last) 1
                  rw [show win4_2.index t4_last 1 * win4_2.size 1 = 0 from by decide +kernel, show win4_2.xsize (grid4.coords t4_last) 1 = 32 from by decide +kernel]; omega⟩

theorem final4_3 (c : Dev nD) : (dat4 V c).arrAt 3 cfg4.N = result4_3 V c :=
  (dat4 V c).arrAt_eq_of_cover 3 (result4_3 V c) (flushed_eq4_3 V c) fun i =>
    ⟨t4_last, (flush4_3 t4_last).mpr rfl, by
      show i ∈ ((View.whole (Pipeline.arrRef spec4 3)).slice (win4_3.rect t4_last)).set
      rw [View.set_slice_whole, Rect.mem_set_unit]
      intro a
      have h0 : (i 0 : Nat) < 1 := (i 0).isLt
      have h1 : (i 1 : Nat) < 32 := (i 1).isLt
      match a with
      | ⟨0, _⟩ => show win4_3.index t4_last 0 * win4_3.size 0 ≤ (i 0 : Nat) ∧ (i 0 : Nat) < win4_3.index t4_last 0 * win4_3.size 0 + win4_3.xsize (grid4.coords t4_last) 0
                  rw [show win4_3.index t4_last 0 * win4_3.size 0 = 0 from by decide +kernel, show win4_3.xsize (grid4.coords t4_last) 0 = 1 from by decide +kernel]; omega
      | ⟨1, _⟩ => show win4_3.index t4_last 1 * win4_3.size 1 ≤ (i 1 : Nat) ∧ (i 1 : Nat) < win4_3.index t4_last 1 * win4_3.size 1 + win4_3.xsize (grid4.coords t4_last) 1
                  rw [show win4_3.index t4_last 1 * win4_3.size 1 = 0 from by decide +kernel, show win4_3.xsize (grid4.coords t4_last) 1 = 32 from by decide +kernel]; omega⟩

/-- THE VALUES: after the run, window 2's array is the column sums of the array shifted by the bias row, and window 3's
    the column sums of its square, over all 100000 rows. -/
theorem arrAt4_2 (c : Dev nD) (q : Fin 32) :
    (dat4 (F := Ideal) V c).arrAt 2 cfg4.N (ix2 (0 : Fin 1) q)
      = Cert.Spec.colSum (fun p q => V c (Pipeline.arrRef spec4 0) (ix2 p q)) (fun q => V c (Pipeline.arrRef spec4 1) (ix2 (0 : Fin 1) q)) q := by
  rw [final4_2]
  exact accv4_fst_final V c q

theorem arrAt4_3 (c : Dev nD) (q : Fin 32) :
    (dat4 (F := Ideal) V c).arrAt 3 cfg4.N (ix2 (0 : Fin 1) q)
      = Cert.Spec.colSumSq (fun p q => V c (Pipeline.arrRef spec4 0) (ix2 p q)) (fun q => V c (Pipeline.arrRef spec4 1) (ix2 (0 : Fin 1) q)) q := by
  rw [final4_3]
  exact accv4_snd_final V c q

end Cert.KernelIdeal.Hand
end
-- ==== Proof.KI.Norm5Value.lean ====
import proofs.«114689_j15281493639468_1_alg».proof.Proof.KI.Norm5
import proofs.«114689_j15281493639468_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«114689_j15281493639468_1_alg».proof.Proof.KI.NormLib
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-!
# What the normalisation region of pipeline 5 leaves in its output array

Every entry `(p, q)` of the output array is written by the grid point `p / 5000`, and what is written there is
`(A p q + bias q − mean q) · rsqrt (var q + ε) · γ q + β q`, clamped at 0, where `A` is the aggregated array and the five rows
are the one-row arrays as the region finds them.
-/

variable (V : (c : Dev nD) → (b : Ref sig .tc) → Buf (Elt Ideal) ((c : Thread nD τ).loc b))

/-- The arrays the seven windows stage, by name. -/
theorem arrRef5_0 : Pipeline.arrRef spec5 0 = main_v107 := rfl
theorem arrRef5_1 : Pipeline.arrRef spec5 1 = main_v124 := rfl
theorem arrRef5_2 : Pipeline.arrRef spec5 2 = main_v113 := rfl
theorem arrRef5_3 : Pipeline.arrRef spec5 3 = main_v117 := rfl
theorem arrRef5_4 : Pipeline.arrRef spec5 4 = main_v125 := rfl
theorem arrRef5_5 : Pipeline.arrRef spec5 5 = main_v126 := rfl
theorem arrRef5_6 : Pipeline.arrRef spec5 6 = main_v127 := rfl

/-- The payload of the body's store, read at row `p` and column `q` of the block: the one-row operands are read
    at their only row. -/
theorem k5_pay1_apply (x0 : Vec Ideal S5000x32 .f32) (x1 x2 x3 x4 x5 : Vec Ideal S1x32 .f32) (p : Fin 5000) (q : Fin 32) :
    k5_pay1 x0 x1 x2 x3 x4 x5 (ix2 p q)
      = max ((x0 (ix2 p q) + x1 (ix2 (0 : Fin 1) q) - x2 (ix2 (0 : Fin 1) q)) * Ideal.rsqrt (x3 (ix2 (0 : Fin 1) q) + Cert.Spec.eps) * x4 (ix2 (0 : Fin 1) q) + x5 (ix2 (0 : Fin 1) q)) 0 := by
  unfold k5_pay1
  simp only [shapeCast_self]
  simp only [maximumf_apply, addf_apply, mulf_apply, subf_apply, broadcast_apply, broadcastTo_1b_ab_apply, rsqrt_vec_apply,
    Ideal.ofBits_def, Ideal.ofBits_zero_f32, Cert.Spec.eps]

/-- The output array the region leaves, as one function of the arrays the region finds. -/
def normArr5 (c : Dev nD) : S100000x32.Idx → EReal := fun i =>
  Cert.Spec.normalize true (fun p q => V c main_v107 (ix2 p q))
      (fun q => V c main_v124 (ix2 (0 : Fin 1) q))
      (fun q => V c main_v113 (ix2 (0 : Fin 1) q))
      (fun q => V c main_v117 (ix2 (0 : Fin 1) q))
      (fun q => V c main_v125 (ix2 (0 : Fin 1) q))
      (fun q => V c main_v126 (ix2 (0 : Fin 1) q)) (i 0) (i 1)

/-- The block index maps, decided over the 20 grid points: the aggregated array's and the output's blocks are
    block row `t`; each one-row array is its own only block. -/
theorem idx_facts5 : ∀ t : Fin cfg5.N, t.val < 20
    ∧ win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Block row `t` of a 100000-row array, read at `(p, q)`, is the array at row `5000 t + p` (window 0). -/
theorem read_blk5_0 (X : S100000x32.Idx → EReal) (t : Fin cfg5.N) (p : Fin 5000) (q : Fin 32) (h : t.val * 5000 + p.val < 100000) :
    ((cfg5.win 0).blk t).view.read (Elt Ideal) X (ix2 p q) = X (ix2 (⟨t.val * 5000 + p.val, h⟩ : Fin 100000) q) := by
  obtain ⟨ht, e00, e01, e60, e61, -⟩ := idx_facts5 t
  refine congrArg X ?_
  funext a; apply Fin.ext
  match a with
  | ⟨0, _⟩ => show win5_0.index t (0 : Fin 2) * 5000 + 1 * p.val = t.val * 5000 + p.val; omega
  | ⟨1, _⟩ => show win5_0.index t (1 : Fin 2) * 32 + 1 * q.val = q.val; omega
/-- Block row `t` of a 100000-row array, read at `(p, q)`, is the array at row `5000 t + p` (window 6). -/
theorem read_blk5_6 (X : S100000x32.Idx → EReal) (t : Fin cfg5.N) (p : Fin 5000) (q : Fin 32) (h : t.val * 5000 + p.val < 100000) :
    ((cfg5.win 6).blk t).view.read (Elt Ideal) X (ix2 p q) = X (ix2 (⟨t.val * 5000 + p.val, h⟩ : Fin 100000) q) := by
  obtain ⟨ht, e00, e01, e60, e61, -⟩ := idx_facts5 t
  refine congrArg X ?_
  funext a; apply Fin.ext
  match a with
  | ⟨0, _⟩ => show win5_6.index t (0 : Fin 2) * 5000 + 1 * p.val = t.val * 5000 + p.val; omega
  | ⟨1, _⟩ => show win5_6.index t (1 : Fin 2) * 32 + 1 * q.val = q.val; omega
/-- The only block of a one-row array, read at column `q`, is the array's row at `q` (window 1). -/
theorem read_blk5_1 (X : S1x32.Idx → EReal) (t : Fin cfg5.N) (q : Fin 32) :
    ((cfg5.win 1).blk t).view.read (Elt Ideal) X (ix2 (0 : Fin 1) q) = X (ix2 (0 : Fin 1) q) := by
  obtain ⟨ht, e00, e01, e60, e61, e10, e11, e20, e21, e30, e31, e40, e41, e50, e51⟩ := idx_facts5 t
  refine congrArg X ?_
  funext a; apply Fin.ext
  match a with
  | ⟨0, _⟩ => show win5_1.index t (0 : Fin 2) * 1 + 1 * 0 = 0; omega
  | ⟨1, _⟩ => show win5_1.index t (1 : Fin 2) * 32 + 1 * q.val = q.val; omega
/-- The only block of a one-row array, read at column `q`, is the array's row at `q` (window 2). -/
theorem read_blk5_2 (X : S1x32.Idx → EReal) (t : Fin cfg5.N) (q : Fin 32) :
    ((cfg5.win 2).blk t).view.read (Elt Ideal) X (ix2 (0 : Fin 1) q) = X (ix2 (0 : Fin 1) q) := by
  obtain ⟨ht, e00, e01, e60, e61, e10, e11, e20, e21, e30, e31, e40, e41, e50, e51⟩ := idx_facts5 t
  refine congrArg X ?_
  funext a; apply Fin.ext
  match a with
  | ⟨0, _⟩ => show win5_2.index t (0 : Fin 2) * 1 + 1 * 0 = 0; omega
  | ⟨1, _⟩ => show win5_2.index t (1 : Fin 2) * 32 + 1 * q.val = q.val; omega
/-- The only block of a one-row array, read at column `q`, is the array's row at `q` (window 3). -/
theorem read_blk5_3 (X : S1x32.Idx → EReal) (t : Fin cfg5.N) (q : Fin 32) :
    ((cfg5.win 3).blk t).view.read (Elt Ideal) X (ix2 (0 : Fin 1) q) = X (ix2 (0 : Fin 1) q) := by
  obtain ⟨ht, e00, e01, e60, e61, e10, e11, e20, e21, e30, e31, e40, e41, e50, e51⟩ := idx_facts5 t
  refine congrArg X ?_
  funext a; apply Fin.ext
  match a with
  | ⟨0, _⟩ => show win5_3.index t (0 : Fin 2) * 1 + 1 * 0 = 0; omega
  | ⟨1, _⟩ => show win5_3.index t (1 : Fin 2) * 32 + 1 * q.val = q.val; omega
/-- The only block of a one-row array, read at column `q`, is the array's row at `q` (window 4). -/
theorem read_blk5_4 (X : S1x32.Idx → EReal) (t : Fin cfg5.N) (q : Fin 32) :
    ((cfg5.win 4).blk t).view.read (Elt Ideal) X (ix2 (0 : Fin 1) q) = X (ix2 (0 : Fin 1) q) := by
  obtain ⟨ht, e00, e01, e60, e61, e10, e11, e20, e21, e30, e31, e40, e41, e50, e51⟩ := idx_facts5 t
  refine congrArg X ?_
  funext a; apply Fin.ext
  match a with
  | ⟨0, _⟩ => show win5_4.index t (0 : Fin 2) * 1 + 1 * 0 = 0; omega
  | ⟨1, _⟩ => show win5_4.index t (1 : Fin 2) * 32 + 1 * q.val = q.val; omega
/-- The only block of a one-row array, read at column `q`, is the array's row at `q` (window 5). -/
theorem read_blk5_5 (X : S1x32.Idx → EReal) (t : Fin cfg5.N) (q : Fin 32) :
    ((cfg5.win 5).blk t).view.read (Elt Ideal) X (ix2 (0 : Fin 1) q) = X (ix2 (0 : Fin 1) q) := by
  obtain ⟨ht, e00, e01, e60, e61, e10, e11, e20, e21, e30, e31, e40, e41, e50, e51⟩ := idx_facts5 t
  refine congrArg X ?_
  funext a; apply Fin.ext
  match a with
  | ⟨0, _⟩ => show win5_5.index t (0 : Fin 2) * 1 + 1 * 0 = 0; omega
  | ⟨1, _⟩ => show win5_5.index t (1 : Fin 2) * 32 + 1 * q.val = q.val; omega

/-- What grid point `t` writes back is block row `t` of `normArr5`. -/
theorem flushed5_6_eq (c : Dev nD) (t : Fin cfg5.N) :
    (dat5 V c).flushed 6 t = ((cfg5.win 6).blk t).view.read (Elt Ideal) (normArr5 V c) := by
  show (cfg5.win 6).cut (grid5.coords t) ((dat5 V c).after 6 t) = _
  rw [after5_6]
  unfold out5_6
  rw [View.canon_unit_zero off_zero2]
  simp only [View.ld_unit_zero (S := S5000x32) off_zero2, View.ld_unit_zero (S := S1x32) off_zero2]
  have ht : t.val < 20 := (idx_facts5 t).1
  funext j
  obtain ⟨p, q, rfl⟩ : ∃ (p : Fin 5000) (q : Fin 32), j = ix2 p q := ⟨j 0, j 1, eq_ix2 j⟩
  have hp : p.val < 5000 := p.isLt
  have hlt : t.val * 5000 + p.val < 100000 := by omega
  refine (k5_pay1_apply (iblk5 V c 0 t) (iblk5 V c 1 t) (iblk5 V c 2 t) (iblk5 V c 3 t) (iblk5 V c 4 t) (iblk5 V c 5 t) p q).trans ?_
  refine Eq.trans ?_ (read_blk5_6 (normArr5 V c) t p q hlt).symm
  have hb0 : (iblk5 V c 0 t (ix2 p q) : EReal) = V c main_v107 (ix2 (⟨t.val * 5000 + p.val, hlt⟩ : Fin 100000) q) :=
    read_blk5_0 (V c main_v107) t p q hlt
  have hb1 : (iblk5 V c 1 t (ix2 (0 : Fin 1) q) : EReal) = V c main_v124 (ix2 (0 : Fin 1) q) :=
    read_blk5_1 (V c main_v124) t q
  have hb2 : (iblk5 V c 2 t (ix2 (0 : Fin 1) q) : EReal) = V c main_v113 (ix2 (0 : Fin 1) q) :=
    read_blk5_2 (V c main_v113) t q
  have hb3 : (iblk5 V c 3 t (ix2 (0 : Fin 1) q) : EReal) = V c main_v117 (ix2 (0 : Fin 1) q) :=
    read_blk5_3 (V c main_v117) t q
  have hb4 : (iblk5 V c 4 t (ix2 (0 : Fin 1) q) : EReal) = V c main_v125 (ix2 (0 : Fin 1) q) :=
    read_blk5_4 (V c main_v125) t q
  have hb5 : (iblk5 V c 5 t (ix2 (0 : Fin 1) q) : EReal) = V c main_v126 (ix2 (0 : Fin 1) q) :=
    read_blk5_5 (V c main_v126) t q
  rw [hb0, hb1, hb2, hb3, hb4, hb5]
  dsimp only [normArr5, Cert.Spec.normalize, Cert.Spec.shift]
  exact (if_pos rfl).symm

/-- An index of the output array is in point `t`'s block iff each coordinate is in the block's range on its axis. -/
theorem mem_blk5_6 (t : Fin cfg5.N) (i : S100000x32.Idx) :
    i ∈ ((cfg5.win 6).blk t).view.set ↔ ∀ a : Fin 2, win5_6.index t a * S5000x32.size a ≤ (i a).val ∧ (i a).val < win5_6.index t a * S5000x32.size a + S5000x32.size a := by
  show i ∈ ((View.whole main_v127).slice (win5_6.rect t)).set ↔ _
  rw [View.set_slice_whole, Rect.mem_set_unit]
  exact Iff.rfl

/-- Every index of the output array is in the block of the grid point `row / 5000`, which writes it back. -/
theorem cover5_arr (i : S100000x32.Idx) :
    ∃ t : Fin cfg5.N, (cfg5.win 6).flush t = true ∧ i ∈ ((cfg5.win 6).blk t).view.set := by
  have hi0 : (i 0).val < 100000 := (i 0).isLt
  have hi1 : (i 1).val < 32 := (i 1).isLt
  have hN : cfg5.N = 20 := N_5
  let t : Fin cfg5.N := ⟨(i 0).val / 5000, by rw [hN]; omega⟩
  obtain ⟨ht, e00, e01, e60, e61, -⟩ := idx_facts5 t
  have htv : t.val = (i 0).val / 5000 := rfl
  refine ⟨t, flush5_6 t, ?_⟩
  rw [mem_blk5_6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 32 ≤ (i 1).val ∧ (i 1).val < win5_6.index t (1 : Fin 2) * 32 + 32; omega

/-- The output array after the region, entry by entry. -/
theorem arrAt5_6 (c : Dev nD) (p : Fin 100000) (q : Fin 32) :
    (dat5 (F := Ideal) V c).arrAt 6 cfg5.N (ix2 p q)
      = Cert.Spec.normalize true (fun p q => V c main_v107 (ix2 p q))
      (fun q => V c main_v124 (ix2 (0 : Fin 1) q))
      (fun q => V c main_v113 (ix2 (0 : Fin 1) q))
      (fun q => V c main_v117 (ix2 (0 : Fin 1) q))
      (fun q => V c main_v125 (ix2 (0 : Fin 1) q))
      (fun q => V c main_v126 (ix2 (0 : Fin 1) q)) p q :=
  congrFun ((dat5 V c).arrAt_eq_of_cover 6 (normArr5 V c) (fun t _ => flushed5_6_eq V c t) (cover5_arr)) (ix2 p q)

end Cert.KernelIdeal.Hand
-- ==== Proof.KI.ChainL1.lean ====
/-
  Layer 1 of the network as the first program's run leaves it: the perceptron on every row of the layer's input,
  the edge aggregation, the two column sums, the mean and variance rows, and the normalisation, each read off the
  contents of the buffers at the boundary where it is produced and carried unchanged to where it is used.
-/
import proofs.«114689_j15281493639468_1_alg».proof.Proof.KI.Fold
import proofs.«114689_j15281493639468_1_alg».proof.Proof.KI.HostWrites
import proofs.«114689_j15281493639468_1_alg».proof.Proof.KI.ChainHost1
import proofs.«114689_j15281493639468_1_alg».proof.Proof.KI.Mlp3Value
import proofs.«114689_j15281493639468_1_alg».proof.Proof.KI.Stats4Value
import proofs.«114689_j15281493639468_1_alg».proof.Proof.KI.Norm5Value
import proofs.«114689_j15281493639468_1_alg».proof.Proof.SpecNet
import proofs.«114689_j15281493639468_1_alg».proof.Proof.SpecRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's operands, named -/

/-- The layer's input rows. -/
abbrev lay1_H (c : Dev nD) : Fin 100000 → Fin 32 → EReal := Cert.Spec.cur (W11 m c (Proc.devRef .tc main_v83))
/-- Its first weight matrix. -/
abbrev lay1_W1 (c : Dev nD) : Fin 32 → Fin 32 → EReal := Cert.Spec.matOf (m ((c : Thread nD τ).loc main_arg3)) (0 : Fin 4)
abbrev lay1_b1 (c : Dev nD) : Fin 32 → EReal := Cert.Spec.rowOf (m ((c : Thread nD τ).loc main_arg4)) (1 : Fin 5)
abbrev lay1_W2 (c : Dev nD) : Fin 32 → Fin 32 → EReal := Cert.Spec.matOf (m ((c : Thread nD τ).loc main_arg5)) (1 : Fin 5)
abbrev lay1_b2 (c : Dev nD) : Fin 32 → EReal := Cert.Spec.rowOf (m ((c : Thread nD τ).loc main_arg6)) (1 : Fin 5)
abbrev lay1_bias (c : Dev nD) : Fin 32 → EReal := Cert.Spec.rowOf (m ((c : Thread nD τ).loc main_arg7)) (1 : Fin 5)
abbrev lay1_gamma (c : Dev nD) : Fin 32 → EReal := Cert.Spec.rowOf (m ((c : Thread nD τ).loc main_arg8)) (1 : Fin 5)
abbrev lay1_beta (c : Dev nD) : Fin 32 → EReal := Cert.Spec.rowOf (m ((c : Thread nD τ).loc main_arg9)) (1 : Fin 5)
/-- The perceptron's rows. -/
abbrev lay1_Z (c : Dev nD) : Fin 100000 → Fin 32 → EReal :=
  Cert.Spec.dense (lay1_H m c) (lay1_W1 m c) (lay1_b1 m c) (lay1_W2 m c) (lay1_b2 m c)
/-- The aggregated rows. -/
abbrev lay1_A (c : Dev nD) : Fin 100000 → Fin 32 → EReal :=
  Cert.Spec.cur (Cert.Spec.aggArr (W5 m c (Proc.devRef .tc main_v3)) (W5 m c (Proc.devRef .tc main_v6)) (W5 m c (Proc.devRef .tc main_v41))
    (Cert.Spec.uncur (lay1_Z m c)))

/-! ## Buffers nothing writes between where they are produced and where they are read -/

theorem k1_arg3 (c : Dev nD) : W10 m c (Proc.devRef .tc main_arg3) = m ((c : Thread nD τ).loc main_arg3) :=
      (W10_of_ne m c main_arg3 (by decide)).trans <|
      (StableHlo.after_of_writes_sub hostOps2 _ Cert.KernelIdeal.GenP.hostOps2_writes (by decide : main_arg3 ∉ Cert.KernelIdeal.GenP.hostOps2_W)).trans <|
      (W8_of_ne m c main_arg3 (by decide)).trans <|
      (StableHlo.after_of_writes_sub hostOps1 _ Cert.KernelIdeal.GenP.hostOps1_writes (by decide : main_arg3 ∉ Cert.KernelIdeal.GenP.hostOps1_W)).trans <|
      (W6_of_ne m c main_arg3 (by decide)).trans <|
      (StableHlo.after_of_writes_sub hostOps0_4 _ Cert.KernelIdeal.GenP.hostOps0_4_writes (by decide : main_arg3 ∉ Cert.KernelIdeal.GenP.hostOps0_4_W)).trans <|
      (StableHlo.after_of_writes_sub hostOps0_3 _ Cert.KernelIdeal.GenP.hostOps0_3_writes (by decide : main_arg3 ∉ Cert.KernelIdeal.GenP.hostOps0_3_W)).trans <|
      (StableHlo.after_of_writes_sub hostOps0_2 _ Cert.KernelIdeal.GenP.hostOps0_2_writes (by decide : main_arg3 ∉ Cert.KernelIdeal.GenP.hostOps0_2_W)).trans <|
      (StableHlo.after_of_writes_sub hostOps0_1 _ Cert.KernelIdeal.GenP.hostOps0_1_writes (by decide : main_arg3 ∉ Cert.KernelIdeal.GenP.hostOps0_1_W)).trans <|
      (StableHlo.after_of_writes_sub hostOps0 _ Cert.KernelIdeal.GenP.hostOps0_writes (by decide : main_arg3 ∉ Cert.KernelIdeal.GenP.hostOps0_W)).trans rfl

theorem k1_arg4 (c : Dev nD) : W10 m c (Proc.devRef .tc main_arg4) = m ((c : Thread nD τ).loc main_arg4) :=
      (W10_of_ne m c main_arg4 (by decide)).trans <|
      (StableHlo.after_of_writes_sub hostOps2 _ Cert.KernelIdeal.GenP.hostOps2_writes (by decide : main_arg4 ∉ Cert.KernelIdeal.GenP.hostOps2_W)).trans <|
      (W8_of_ne m c main_arg4 (by decide)).trans <|
      (StableHlo.after_of_writes_sub hostOps1 _ Cert.KernelIdeal.GenP.hostOps1_writes (by decide : main_arg4 ∉ Cert.KernelIdeal.GenP.hostOps1_W)).trans <|
      (W6_of_ne m c main_arg4 (by decide)).trans <|
      (StableHlo.after_of_writes_sub hostOps0_4 _ Cert.KernelIdeal.GenP.hostOps0_4_writes (by decide : main_arg4 ∉ Cert.KernelIdeal.GenP.hostOps0_4_W)).trans <|
      (StableHlo.after_of_writes_sub hostOps0_3 _ Cert.KernelIdeal.GenP.hostOps0_3_writes (by decide : main_arg4 ∉ Cert.KernelIdeal.GenP.hostOps0_3_W)).trans <|
      (StableHlo.after_of_writes_sub hostOps0_2 _ Cert.KernelIdeal.GenP.hostOps0_2_writes (by decide : main_arg4 ∉ Cert.KernelIdeal.GenP.hostOps0_2_W)).trans <|
      (StableHlo.after_of_writes_sub hostOps0_1 _ Cert.KernelIdeal.GenP.hostOps0_1_writes (by decide : main_arg4 ∉ Cert.KernelIdeal.GenP.hostOps0_1_W)).trans <|
      (StableHlo.after_of_writes_sub hostOps0 _ Cert.KernelIdeal.GenP.hostOps0_writes (by decide : main_arg4 ∉ Cert.KernelIdeal.GenP.hostOps0_W)).trans rfl

theorem k1_arg5 (c : Dev nD) : W10 m c (Proc.devRef .tc main_arg5) = m ((c : Thread nD τ).loc main_arg5) :=
      (W10_of_ne m c main_arg5 (by decide)).trans <|
      (StableHlo.after_of_writes_sub hostOps2 _ Cert.KernelIdeal.GenP.hostOps2_writes (by decide : main_arg5 ∉ Cert.KernelIdeal.GenP.hostOps2_W)).trans <|
      (W8_of_ne m c main_arg5 (by decide)).trans <|
      (StableHlo.after_of_writes_sub hostOps1 _ Cert.KernelIdeal.GenP.hostOps1_writes (by decide : main_arg5 ∉ Cert.KernelIdeal.GenP.hostOps1_W)).trans <|
      (W6_of_ne m c main_arg5 (by decide)).trans <|
      (StableHlo.after_of_writes_sub hostOps0_4 _ Cert.KernelIdeal.GenP.hostOps0_4_writes (by decide : main_arg5 ∉ Cert.KernelIdeal.GenP.hostOps0_4_W)).trans <|
      (StableHlo.after_of_writes_sub hostOps0_3 _ Cert.KernelIdeal.GenP.hostOps0_3_writes (by decide : main_arg5 ∉ Cert.KernelIdeal.GenP.hostOps0_3_W)).trans <|
      (StableHlo.after_of_writes_sub hostOps0_2 _ Cert.KernelIdeal.GenP.hostOps0_2_writes (by decide : main_arg5 ∉ Cert.KernelIdeal.GenP.hostOps0_2_W)).trans <|
      (StableHlo.after_of_writes_sub hostOps0_1 _ Cert.KernelIdeal.GenP.hostOps0_1_writes (by decide : main_arg5 ∉ Cert.KernelIdeal.GenP.hostOps0_1_W)).trans <|
      (StableHlo.after_of_writes_sub hostOps0 _ Cert.KernelIdeal.GenP.hostOps0_writes (by decide : main_arg5 ∉ Cert.KernelIdeal.GenP.hostOps0_W)).trans rfl

theorem k1_arg6 (c : Dev nD) : W10 m c (Proc.devRef .tc main_arg6) = m ((c : Thread nD τ).loc main_arg6) :=
      (W10_of_ne m c main_arg6 (by decide)).trans <|
      (StableHlo.after_of_writes_sub hostOps2 _ Cert.KernelIdeal.GenP.hostOps2_writes (by decide : main_arg6 ∉ Cert.KernelIdeal.GenP.hostOps2_W)).trans <|
      (W8_of_ne m c main_arg6 (by decide)).trans <|
      (StableHlo.after_of_writes_sub hostOps1 _ Cert.KernelIdeal.GenP.hostOps1_writes (by decide : main_arg6 ∉ Cert.KernelIdeal.GenP.hostOps1_W)).trans <|
      (W6_of_ne m c main_arg6 (by decide)).trans <|
      (StableHlo.after_of_writes_sub hostOps0_4 _ Cert.KernelIdeal.GenP.hostOps0_4_writes (by decide : main_arg6 ∉ Cert.KernelIdeal.GenP.hostOps0_4_W)).trans <|
      (StableHlo.after_of_writes_sub hostOps0_3 _ Cert.KernelIdeal.GenP.hostOps0_3_writes (by decide : main_arg6 ∉ Cert.KernelIdeal.GenP.hostOps0_3_W)).trans <|
      (StableHlo.after_of_writes_sub hostOps0_2 _ Cert.KernelIdeal.GenP.hostOps0_2_writes (by decide : main_arg6 ∉ Cert.KernelIdeal.GenP.hostOps0_2_W)).trans <|
      (StableHlo.after_of_writes_sub hostOps0_1 _ Cert.KernelIdeal.GenP.hostOps0_1_writes (by decide : main_arg6 ∉ Cert.KernelIdeal.GenP.hostOps0_1_W)).trans <|
      (StableHlo.after_of_writes_sub hostOps0 _ Cert.KernelIdeal.GenP.hostOps0_writes (by decide : main_arg6 ∉ Cert.KernelIdeal.GenP.hostOps0_W)).trans rfl

theorem k1_arg7a (c : Dev nD) : W12 m c (Proc.devRef .tc main_arg7) = m ((c : Thread nD τ).loc main_arg7) :=
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k1_arg7b (c : Dev nD) : W14 m c (Proc.devRef .tc main_arg7) = m ((c : Thread nD τ).loc main_arg7) :=
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k1_arg8 (c : Dev nD) : W14 m c (Proc.devRef .tc main_arg8) = m ((c : Thread nD τ).loc main_arg8) :=
      (W14_of_ne m c main_arg8 (by decide)).trans <|
      (StableHlo.after_of_writes_sub hostOps4 _ Cert.KernelIdeal.GenP.hostOps4_writes (by decide : main_arg8 ∉ Cert.KernelIdeal.GenP.hostOps4_W)).trans <|
      (W12_of_ne m c main_arg8 (by decide)).trans <|
      (StableHlo.after_of_writes_sub hostOps3 _ Cert.KernelIdeal.GenP.hostOps3_writes (by decide : main_arg8 ∉ Cert.KernelIdeal.GenP.hostOps3_W)).trans <|
      (W10_of_ne m c main_arg8 (by decide)).trans <|
      (StableHlo.after_of_writes_sub hostOps2 _ Cert.KernelIdeal.GenP.hostOps2_writes (by decide : main_arg8 ∉ Cert.KernelIdeal.GenP.hostOps2_W)).trans <|
      (W8_of_ne m c main_arg8 (by decide)).trans <|
      (StableHlo.after_of_writes_sub hostOps1 _ Cert.KernelIdeal.GenP.hostOps1_writes (by decide : main_arg8 ∉ Cert.KernelIdeal.GenP.hostOps1_W)).trans <|
      (W6_of_ne m c main_arg8 (by decide)).trans <|
      (StableHlo.after_of_writes_sub hostOps0_4 _ Cert.KernelIdeal.GenP.hostOps0_4_writes (by decide : main_arg8 ∉ Cert.KernelIdeal.GenP.hostOps0_4_W)).trans <|
      (StableHlo.after_of_writes_sub hostOps0_3 _ Cert.KernelIdeal.GenP.hostOps0_3_writes (by decide : main_arg8 ∉ Cert.KernelIdeal.GenP.hostOps0_3_W)).trans <|
      (StableHlo.after_of_writes_sub hostOps0_2 _ Cert.KernelIdeal.GenP.hostOps0_2_writes (by decide : main_arg8 ∉ Cert.KernelIdeal.GenP.hostOps0_2_W)).trans <|
      (StableHlo.after_of_writes_sub hostOps0_1 _ Cert.KernelIdeal.GenP.hostOps0_1_writes (by decide : main_arg8 ∉ Cert.KernelIdeal.GenP.hostOps0_1_W)).trans <|
      (StableHlo.after_of_writes_sub hostOps0 _ Cert.KernelIdeal.GenP.hostOps0_writes (by decide : main_arg8 ∉ Cert.KernelIdeal.GenP.hostOps0_W)).trans rfl

theorem k1_arg9 (c : Dev nD) : W14 m c (Proc.devRef .tc main_arg9) = m ((c : Thread nD τ).loc main_arg9) :=
      (W14_of_ne m c main_arg9 (by decide)).trans <|
      (StableHlo.after_of_writes_sub hostOps4 _ Cert.KernelIdeal.GenP.hostOps4_writes (by decide : main_arg9 ∉ Cert.KernelIdeal.GenP.hostOps4_W)).trans <|
      (W12_of_ne m c main_arg9 (by decide)).trans <|
      (StableHlo.after_of_writes_sub hostOps3 _ Cert.KernelIdeal.GenP.hostOps3_writes (by decide : main_arg9 ∉ Cert.KernelIdeal.GenP.hostOps3_W)).trans <|
      (W10_of_ne m c main_arg9 (by decide)).trans <|
      (StableHlo.after_of_writes_sub hostOps2 _ Cert.KernelIdeal.GenP.hostOps2_writes (by decide : main_arg9 ∉ Cert.KernelIdeal.GenP.hostOps2_W)).trans <|
      (W8_of_ne m c main_arg9 (by decide)).trans <|
      (StableHlo.after_of_writes_sub hostOps1 _ Cert.KernelIdeal.GenP.hostOps1_writes (by decide : main_arg9 ∉ Cert.KernelIdeal.GenP.hostOps1_W)).trans <|
      (W6_of_ne m c main_arg9 (by decide)).trans <|
      (StableHlo.after_of_writes_sub hostOps0_4 _ Cert.KernelIdeal.GenP.hostOps0_4_writes (by decide : main_arg9 ∉ Cert.KernelIdeal.GenP.hostOps0_4_W)).trans <|
      (StableHlo.after_of_writes_sub hostOps0_3 _ Cert.KernelIdeal.GenP.hostOps0_3_writes (by decide : main_arg9 ∉ Cert.KernelIdeal.GenP.hostOps0_3_W)).trans <|
      (StableHlo.after_of_writes_sub hostOps0_2 _ Cert.KernelIdeal.GenP.hostOps0_2_writes (by decide : main_arg9 ∉ Cert.KernelIdeal.GenP.hostOps0_2_W)).trans <|
      (StableHlo.after_of_writes_sub hostOps0_1 _ Cert.KernelIdeal.GenP.hostOps0_1_writes (by decide : main_arg9 ∉ Cert.KernelIdeal.GenP.hostOps0_1_W)).trans <|
      (StableHlo.after_of_writes_sub hostOps0 _ Cert.KernelIdeal.GenP.hostOps0_writes (by decide : main_arg9 ∉ Cert.KernelIdeal.GenP.hostOps0_W)).trans rfl

theorem k1_v3 (c : Dev nD) : W12 m c (Proc.devRef .tc main_v3) = W5 m c (Proc.devRef .tc main_v3) :=
      (W12_of_ne m c main_v3 (by decide)).trans <|
      (StableHlo.after_of_writes_sub hostOps3 _ Cert.KernelIdeal.GenP.hostOps3_writes (by decide : main_v3 ∉ Cert.KernelIdeal.GenP.hostOps3_W)).trans <|
      (W10_of_ne m c main_v3 (by decide)).trans <|
      (StableHlo.after_of_writes_sub hostOps2 _ Cert.KernelIdeal.GenP.hostOps2_writes (by decide : main_v3 ∉ Cert.KernelIdeal.GenP.hostOps2_W)).trans <|
      (W8_of_ne m c main_v3 (by decide)).trans <|
      (StableHlo.after_of_writes_sub hostOps1 _ Cert.KernelIdeal.GenP.hostOps1_writes (by decide : main_v3 ∉ Cert.KernelIdeal.GenP.hostOps1_W)).trans <|
      (W6_of_ne m c main_v3 (by decide))

theorem k1_v6 (c : Dev nD) : W12 m c (Proc.devRef .tc main_v6) = W5 m c (Proc.devRef .tc main_v6) :=
      (W12_of_ne m c main_v6 (by decide)).trans <|
      (StableHlo.after_of_writes_sub hostOps3 _ Cert.KernelIdeal.GenP.hostOps3_writes (by decide : main_v6 ∉ Cert.KernelIdeal.GenP.hostOps3_W)).trans <|
      (W10_of_ne m c main_v6 (by decide)).trans <|
      (StableHlo.after_of_writes_sub hostOps2 _ Cert.KernelIdeal.GenP.hostOps2_writes (by decide : main_v6 ∉ Cert.KernelIdeal.GenP.hostOps2_W)).trans <|
      (W8_of_ne m c main_v6 (by decide)).trans <|
      (StableHlo.after_of_writes_sub hostOps1 _ Cert.KernelIdeal.GenP.hostOps1_writes (by decide : main_v6 ∉ Cert.KernelIdeal.GenP.hostOps1_W)).trans <|
      (W6_of_ne m c main_v6 (by decide))

theorem k1_v41 (c : Dev nD) : W12 m c (Proc.devRef .tc main_v41) = W5 m c (Proc.devRef .tc main_v41) :=
      (W12_of_ne m c main_v41 (by decide)).trans <|
      (StableHlo.after_of_writes_sub hostOps3 _ Cert.KernelIdeal.GenP.hostOps3_writes (by decide : main_v41 ∉ Cert.KernelIdeal.GenP.hostOps3_W)).trans <|
      (W10_of_ne m c main_v41 (by decide)).trans <|
      (StableHlo.after_of_writes_sub hostOps2 _ Cert.KernelIdeal.GenP.hostOps2_writes (by decide : main_v41 ∉ Cert.KernelIdeal.GenP.hostOps2_W)).trans <|
      (W8_of_ne m c main_v41 (by decide)).trans <|
      (StableHlo.after_of_writes_sub hostOps1 _ Cert.KernelIdeal.GenP.hostOps1_writes (by decide : main_v41 ∉ Cert.KernelIdeal.GenP.hostOps1_W)).trans <|
      (W6_of_ne m c main_v41 (by decide))

theorem k1_agg (c : Dev nD) : W15 m c (Proc.devRef .tc main_v107) = W13 m c (Proc.devRef .tc main_v107) :=
      (StableHlo.after_of_writes_sub hostOps5 _ Cert.KernelIdeal.GenP.hostOps5_writes (by decide : main_v107 ∉ Cert.KernelIdeal.GenP.hostOps5_W)).trans <|
      ((W14_arr m c 0).trans (((dat4 (V13 m) c).arrAt_in 0 rfl _).trans (A_eq4 (V13 m) c 0)))

/-! ## The perceptron -/

theorem lay1_in0 (c : Dev nD) : inRows3 (V11 m) c = lay1_H m c := rfl
theorem lay1_in1 (c : Dev nD) : wOne3 (V11 m) c = lay1_W1 m c :=
  funext fun j => funext fun k => (hmlp1_w1 (W10 m c) j k).trans (congrFun (k1_arg3 m c) (ix3 (0 : Fin 4) j k))
theorem lay1_in2 (c : Dev nD) : bOne3 (V11 m) c = lay1_b1 m c :=
  funext fun k => (hmlp1_b1 (W10 m c) k).trans (congrFun (k1_arg4 m c) (ix2 (1 : Fin 5) k))
theorem lay1_in3 (c : Dev nD) : wTwo3 (V11 m) c = lay1_W2 m c :=
  funext fun j => funext fun k => (hmlp1_w2 (W10 m c) j k).trans (congrFun (k1_arg5 m c) (ix3 (1 : Fin 5) j k))
theorem lay1_in4 (c : Dev nD) : bTwo3 (V11 m) c = lay1_b2 m c :=
  funext fun k => (hmlp1_b2 (W10 m c) k).trans (congrFun (k1_arg6 m c) (ix2 (1 : Fin 5) k))

/-- After the perceptron's region its output array holds the perceptron's rows. -/
theorem lay1_out (c : Dev nD) : W12 m c (Proc.devRef .tc main_v94) = Cert.Spec.uncur (lay1_Z m c) := by
  refine (W12_arr m c 5).trans ((final3_5 (V11 m) c).trans ?_)
  unfold G3
  rw [lay1_in0, lay1_in1, lay1_in2, lay1_in3, lay1_in4]
  rfl

/-! ## The aggregation -/

/-- The aggregated array when the statistics are entered. -/
theorem lay1_agg (c : Dev nD) : Cert.Spec.cur (W13 m c (Proc.devRef .tc main_v107)) = lay1_A m c := by
  refine congrArg Cert.Spec.cur ((hagg1 (W12 m c)).trans ?_)
  rw [k1_v3 m c, k1_v6 m c, k1_v41 m c, lay1_out m c]

/-- The bias row when the statistics are entered. -/
theorem lay1_sbias (c : Dev nD) : (fun q => W13 m c (Proc.devRef .tc main_v110) (ix2 (0 : Fin 1) q)) = lay1_bias m c :=
  funext fun q => (hagg1_bias (W12 m c) q).trans (congrFun (k1_arg7a m c) (ix2 (1 : Fin 5) q))

/-! ## The column sums -/

theorem lay1_s1 (c : Dev nD) : (fun q => W14 m c (Proc.devRef .tc main_v111_0) (ix2 (0 : Fin 1) q))
    = Cert.Spec.colSum (lay1_A m c) (lay1_bias m c) := by
  funext q
  refine (congrFun (W14_arr m c 2) (ix2 (0 : Fin 1) q)).trans ((arrAt4_2 (V13 m) c q).trans ?_)
  have hA : (fun p q => V13 m c (Pipeline.arrRef spec4 0) (ix2 p q)) = lay1_A m c := lay1_agg m c
  have hb : (fun q => V13 m c (Pipeline.arrRef spec4 1) (ix2 (0 : Fin 1) q)) = lay1_bias m c := lay1_sbias m c
  rw [hA, hb]

theorem lay1_s2 (c : Dev nD) : (fun q => W14 m c (Proc.devRef .tc main_v111_1) (ix2 (0 : Fin 1) q))
    = Cert.Spec.colSumSq (lay1_A m c) (lay1_bias m c) := by
  funext q
  refine (congrFun (W14_arr m c 3) (ix2 (0 : Fin 1) q)).trans ((arrAt4_3 (V13 m) c q).trans ?_)
  have hA : (fun p q => V13 m c (Pipeline.arrRef spec4 0) (ix2 p q)) = lay1_A m c := lay1_agg m c
  have hb : (fun q => V13 m c (Pipeline.arrRef spec4 1) (ix2 (0 : Fin 1) q)) = lay1_bias m c := lay1_sbias m c
  rw [hA, hb]

/-! ## What the normalisation is entered with -/

theorem lay1_nagg (c : Dev nD) : Cert.Spec.cur (W15 m c (Proc.devRef .tc main_v107)) = lay1_A m c :=
  (congrArg Cert.Spec.cur (k1_agg m c)).trans (lay1_agg m c)
theorem lay1_nbias (c : Dev nD) : (fun q => W15 m c (Proc.devRef .tc main_v124) (ix2 (0 : Fin 1) q)) = lay1_bias m c :=
  funext fun q => (hnorm1_bias (W14 m c) q).trans (congrFun (k1_arg7b m c) (ix2 (1 : Fin 5) q))
theorem lay1_ngamma (c : Dev nD) : (fun q => W15 m c (Proc.devRef .tc main_v125) (ix2 (0 : Fin 1) q)) = lay1_gamma m c :=
  funext fun q => (hnorm1_gamma (W14 m c) q).trans (congrFun (k1_arg8 m c) (ix2 (1 : Fin 5) q))
theorem lay1_nbeta (c : Dev nD) : (fun q => W15 m c (Proc.devRef .tc main_v126) (ix2 (0 : Fin 1) q)) = lay1_beta m c :=
  funext fun q => (hnorm1_beta (W14 m c) q).trans (congrFun (k1_arg9 m c) (ix2 (1 : Fin 5) q))
theorem lay1_nmean (c : Dev nD) : (fun q => W15 m c (Proc.devRef .tc main_v113) (ix2 (0 : Fin 1) q))
    = Cert.Spec.meanOf (Cert.Spec.colSum (lay1_A m c) (lay1_bias m c)) :=
  funext fun q => (hnorm1_mean (W14 m c) q).trans (by rw [lay1_s1 m c])
theorem lay1_nvar (c : Dev nD) : (fun q => W15 m c (Proc.devRef .tc main_v117) (ix2 (0 : Fin 1) q))
    = Cert.Spec.varOf (Cert.Spec.colSum (lay1_A m c) (lay1_bias m c)) (Cert.Spec.colSumSq (lay1_A m c) (lay1_bias m c)) :=
  funext fun q => (hnorm1_var (W14 m c) q).trans (by rw [lay1_s1 m c, lay1_s2 m c])

/-! ## The layer -/

/-- After the normalisation's region its output array holds the layer. -/
theorem layer_1 (c : Dev nD) : Cert.Spec.cur (W16 m c (Proc.devRef .tc main_v127))
    = Cert.Spec.layerK true (W5 m c (Proc.devRef .tc main_v3)) (W5 m c (Proc.devRef .tc main_v6)) (W5 m c (Proc.devRef .tc main_v41))
        (lay1_H m c) (lay1_W1 m c) (lay1_b1 m c) (lay1_W2 m c) (lay1_b2 m c) (lay1_bias m c) (lay1_gamma m c) (lay1_beta m c) := by
  funext p q
  refine (congrFun (W16_arr m c 6) (ix2 p q)).trans ((arrAt5_6 (V15 m) c p q).trans ?_)
  have hA : (fun p q => V15 m c main_v107 (ix2 p q)) = lay1_A m c := lay1_nagg m c
  have hb : (fun q => V15 m c main_v124 (ix2 (0 : Fin 1) q)) = lay1_bias m c := lay1_nbias m c
  have hm : (fun q => V15 m c main_v113 (ix2 (0 : Fin 1) q)) = _ := lay1_nmean m c
  have hv : (fun q => V15 m c main_v117 (ix2 (0 : Fin 1) q)) = _ := lay1_nvar m c
  have hg : (fun q => V15 m c main_v125 (ix2 (0 : Fin 1) q)) = lay1_gamma m c := lay1_ngamma m c
  have hbe : (fun q => V15 m c main_v126 (ix2 (0 : Fin 1) q)) = lay1_beta m c := lay1_nbeta m c
  rw [hA, hb, hm, hv, hg, hbe]
  rfl

end Cert.KernelIdeal.Hand

end
-- ==== Proof.KI.ChainHost2.lean ====
/-
  What the host operations around layer 2 compute, read for an arbitrary valuation of the buffers: the rows and
  blocks of the stacked parameters they cut out, the edge aggregation of the perceptron's result, and the mean and
  variance rows from the two column sums.
-/
import proofs.«114689_j15281493639468_1_alg».proof.Proof.Gen.KernelIdeal.Launch
import proofs.«114689_j15281493639468_1_alg».proof.Proof.Spec
import proofs.«114689_j15281493639468_1_alg».proof.Proof.SpecHost
import proofs.«114689_j15281493639468_1_alg».proof.Proof.SpecRows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (W : Valuation τ sig (Elt Ideal))

/-! ## Before the perceptron: its weights and bias rows -/

set_option maxHeartbeats 4000000 in
/-- The first weight matrix of layer 2 is block 1 of its stack. -/
theorem hmlp2_w1 (j k : Fin 32) : StableHlo.after (hostOps6 (F := Ideal)) W (Proc.devRef .tc main_v129) (ix2 j k)
      = W (Proc.devRef .tc main_arg3) (ix3 (1 : Fin 4) j k) := by
  after_results_simp
  exact Cert.Spec.matSlice_apply 1 _ _ _ (1 : Fin 4) rfl j k

set_option maxHeartbeats 4000000 in
/-- The first bias row of layer 2 is row 2 of its stack. -/
theorem hmlp2_b1 (q : Fin 32) : StableHlo.after (hostOps6 (F := Ideal)) W (Proc.devRef .tc main_v136) (ix2 (0 : Fin 1) q)
      = W (Proc.devRef .tc main_arg4) (ix2 (2 : Fin 5) q) := by
  after_results_simp
  exact Cert.Spec.rowSlice_apply 2 _ _ _ _ (2 : Fin 5) rfl (0 : Fin 1) q

set_option maxHeartbeats 4000000 in
/-- The second weight matrix of layer 2 is block 2 of its stack. -/
theorem hmlp2_w2 (j k : Fin 32) : StableHlo.after (hostOps6 (F := Ideal)) W (Proc.devRef .tc main_v133) (ix2 j k)
      = W (Proc.devRef .tc main_arg5) (ix3 (2 : Fin 5) j k) := by
  after_results_simp
  exact Cert.Spec.matSlice_apply 2 _ _ _ (2 : Fin 5) rfl j k

set_option maxHeartbeats 4000000 in
/-- The second bias row of layer 2 is row 2 of its stack. -/
theorem hmlp2_b2 (q : Fin 32) : StableHlo.after (hostOps6 (F := Ideal)) W (Proc.devRef .tc main_v137) (ix2 (0 : Fin 1) q)
      = W (Proc.devRef .tc main_arg6) (ix2 (2 : Fin 5) q) := by
  after_results_simp
  exact Cert.Spec.rowSlice_apply 2 _ _ _ _ (2 : Fin 5) rfl (0 : Fin 1) q

/-! ## Between the perceptron and the statistics: the edge aggregation -/

set_option maxHeartbeats 4000000 in
/-- The aggregated array is the edge aggregation of the perceptron's result. -/
theorem hagg2 : StableHlo.after (hostOps7 (F := Ideal)) W (Proc.devRef .tc main_v151)
      = Cert.Spec.aggArr (W (Proc.devRef .tc main_v3)) (W (Proc.devRef .tc main_v6)) (W (Proc.devRef .tc main_v41)) (W (Proc.devRef .tc main_v138)) := by
  after_results_simp; rfl

set_option maxHeartbeats 4000000 in
/-- The bias row the statistics add is row 2 of its stack. -/
theorem hagg2_bias (q : Fin 32) : StableHlo.after (hostOps7 (F := Ideal)) W (Proc.devRef .tc main_v154) (ix2 (0 : Fin 1) q)
      = W (Proc.devRef .tc main_arg7) (ix2 (2 : Fin 5) q) := by
  after_results_simp
  exact Cert.Spec.rowSlice_apply 2 _ _ _ _ (2 : Fin 5) rfl (0 : Fin 1) q

/-! ## Between the statistics and the normalisation: mean, variance and the three parameter rows -/

set_option maxHeartbeats 4000000 in
/-- The mean row is the first column sum divided by the number of rows. -/
theorem hnorm2_mean (q : Fin 32) : StableHlo.after (hostOps8 (F := Ideal)) W (Proc.devRef .tc main_v157) (ix2 (0 : Fin 1) q)
      = Cert.Spec.meanOf (fun q => W (Proc.devRef .tc main_v155_0) (ix2 (0 : Fin 1) q)) q := by
  after_results_simp; rfl

set_option maxHeartbeats 4000000 in
/-- The variance row is the mean of the squares less the square of the mean. -/
theorem hnorm2_var (q : Fin 32) : StableHlo.after (hostOps8 (F := Ideal)) W (Proc.devRef .tc main_v161) (ix2 (0 : Fin 1) q)
      = Cert.Spec.varOf (fun q => W (Proc.devRef .tc main_v155_0) (ix2 (0 : Fin 1) q)) (fun q => W (Proc.devRef .tc main_v155_1) (ix2 (0 : Fin 1) q)) q := by
  after_results_simp; rfl

set_option maxHeartbeats 4000000 in
/-- The bias row the normalisation adds is row 2 of its stack. -/
theorem hnorm2_bias (q : Fin 32) : StableHlo.after (hostOps8 (F := Ideal)) W (Proc.devRef .tc main_v168) (ix2 (0 : Fin 1) q)
      = W (Proc.devRef .tc main_arg7) (ix2 (2 : Fin 5) q) := by
  after_results_simp
  exact Cert.Spec.rowSlice_apply 2 _ _ _ _ (2 : Fin 5) rfl (0 : Fin 1) q

set_option maxHeartbeats 4000000 in
/-- The scale row is row 2 of its stack. -/
theorem hnorm2_gamma (q : Fin 32) : StableHlo.after (hostOps8 (F := Ideal)) W (Proc.devRef .tc main_v169) (ix2 (0 : Fin 1) q)
      = W (Proc.devRef .tc main_arg8) (ix2 (2 : Fin 5) q) := by
  after_results_simp
  exact Cert.Spec.rowSlice_apply 2 _ _ _ _ (2 : Fin 5) rfl (0 : Fin 1) q

set_option maxHeartbeats 4000000 in
/-- The offset row is row 2 of its stack. -/
theorem hnorm2_beta (q : Fin 32) : StableHlo.after (hostOps8 (F := Ideal)) W (Proc.devRef .tc main_v170) (ix2 (0 : Fin 1) q)
      = W (Proc.devRef .tc main_arg9) (ix2 (2 : Fin 5) q) := by
  after_results_simp
  exact Cert.Spec.rowSlice_apply 2 _ _ _ _ (2 : Fin 5) rfl (0 : Fin 1) q

end Cert.KernelIdeal.Hand

end
-- ==== Proof.KI.Mlp6Value.lean ====
/-
  The value the multilayer-perceptron region of pipeline 6 leaves in its output array, over the extended reals:
  every row p of the output is  max(x_p · W₁ + b₁, 0) · W₂ + b₂  of row p of the input, the two products read as
  sums over the contracted index.  Grid point t handles rows 5000·t … 5000·t + 4999, and the twenty points cover
  the 100000 rows.
-/
import proofs.«114689_j15281493639468_1_alg».proof.Proof.KI.Mlp6
import proofs.«114689_j15281493639468_1_alg».proof.Proof.Spec
import proofs.«114689_j15281493639468_1_alg».proof.Proof.Lib.LibDenseRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payload at an index -/

/-- At row p and column q of a block the stored value is the two-layer perceptron of row p: rounding to a
    narrower format is the identity on the extended reals, each product into a zero accumulator is the sum over
    the contracted index, and the clamp is against the extended real 0. -/
theorem k6_pay1_apply (x0 : Vec Ideal S5000x32 .f32) (x1 : Vec Ideal S32x32 .f32) (x2 : Vec Ideal S1x32 .f32)
    (x3 : Vec Ideal S32x32 .f32) (x4 : Vec Ideal S1x32 .f32) (p : Fin 5000) (q : Fin 32) :
    k6_pay1 (F := Ideal) x0 x1 x2 x3 x4 (ix2 p q)
      = (∑ k : Fin 32, max ((∑ j : Fin 32, x0 (ix2 p j) * x1 (ix2 j k)) + x2 (ix2 (0 : Fin 1) k)) 0 * x3 (ix2 k q))
          + x4 (ix2 (0 : Fin 1) q) := by
  unfold k6_pay1
  simp only [shapeCast_self]
  refine (DenseRows.matmul_bias_apply (m := 5000) (k := 32) (n := 32) none _ _ x4 _ p q).trans ?_
  show (∑ c : Fin 32, _ * x3 (ix2 c q)) + x4 (ix2 (0 : Fin 1) q) = _
  refine congrArg (· + x4 (ix2 (0 : Fin 1) q)) (Finset.sum_congr rfl fun k _ => ?_)
  refine congrArg (· * x3 (ix2 k q)) ?_
  refine (DenseRows.clamped_matmul_bias_apply (m := 5000) (k := 32) (n := 32) none _ _ x2 _ p k).trans ?_
  show max ((∑ c : Fin 32, x0 (ix2 p c) * x1 (ix2 c k)) + x2 (ix2 (0 : Fin 1) k)) (Ideal.ofBits .f32 0x00000000#32) = _
  rw [Ideal.ofBits_zero_f32]

/-! ## From blocks to the array -/

variable (V : (c : Dev nD) → (b : Ref sig .tc) → Buf (Elt Ideal) ((c : Thread nD τ).loc b))

theorem hz6 : (![0, 0] : Fin 2 → Nat) = fun _ => 0 := funext fun a => by fin_cases a <;> rfl

/-- The block index maps over the twenty grid points: the input and output row blocks move with the point,
    the weights and biases stay at their one block. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The five arrays the region reads, as the region finds them, entry by entry. -/
def inRows6 (c : Dev nD) : Fin 100000 → Fin 32 → EReal := fun p j => V c (Pipeline.arrRef spec6 0) (ix2 p j)
def wOne6 (c : Dev nD) : Fin 32 → Fin 32 → EReal := fun j k => V c (Pipeline.arrRef spec6 1) (ix2 j k)
def bOne6 (c : Dev nD) : Fin 32 → EReal := fun k => V c (Pipeline.arrRef spec6 2) (ix2 0 k)
def wTwo6 (c : Dev nD) : Fin 32 → Fin 32 → EReal := fun k q => V c (Pipeline.arrRef spec6 3) (ix2 k q)
def bTwo6 (c : Dev nD) : Fin 32 → EReal := fun q => V c (Pipeline.arrRef spec6 4) (ix2 0 q)

/-- The whole output array as one function of those five. -/
def G6 (c : Dev nD) : S100000x32.Idx → EReal := fun i =>
  Cert.Spec.dense (inRows6 V c) (wOne6 V c) (bOne6 V c) (wTwo6 V c) (bTwo6 V c) (i 0) (i 1)

/-- The input block at point t is rows 5000·t … 5000·t + 4999 of the input array. -/
theorem iblk6_0_apply (c : Dev nD) (t : Fin cfg6.N) (p : Fin 5000) (j : Fin 32) (r : Fin 100000)
    (hr : r.val = t.val * 5000 + p.val) :
    (iblk6 V c 0 t : Vec Ideal S5000x32 .f32) (ix2 p j) = inRows6 V c r j := by
  obtain ⟨h00, h01, -⟩ := idx6 t
  unfold iblk6 inRows6
  rw [View.read_apply]
  show V c (Pipeline.arrRef spec6 0) _ = V c (Pipeline.arrRef spec6 0) _
  refine congrArg (V c (Pipeline.arrRef spec6 0)) ?_
  funext ax; apply Fin.ext
  match ax with
  | ⟨0, _⟩ => show win6_0.index t (0 : Fin 2) * 5000 + 1 * p.val = r.val; rw [h00, hr]; omega
  | ⟨1, _⟩ => show win6_0.index t (1 : Fin 2) * 32 + 1 * j.val = j.val; rw [h01]; omega

/-- Window 1's block is its whole array at every point. -/
theorem iblk6_1_apply (c : Dev nD) (t : Fin cfg6.N) (j : Fin 32) (k : Fin 32) :
    (iblk6 V c 1 t : Vec Ideal S32x32 .f32) (ix2 j k) = wOne6 V c j k := by
  obtain ⟨-, -, h10, h11, h20, h21, h30, h31, h40, h41, -, -⟩ := idx6 t
  unfold iblk6 wOne6
  rw [View.read_apply]
  show V c (Pipeline.arrRef spec6 1) _ = V c (Pipeline.arrRef spec6 1) _
  refine congrArg (V c (Pipeline.arrRef spec6 1)) ?_
  funext ax; apply Fin.ext
  match ax with
  | ⟨0, _⟩ => show win6_1.index t (0 : Fin 2) * 32 + 1 * (ix2 j k 0).val = (ix2 j k 0).val; rw [h10]; omega
  | ⟨1, _⟩ => show win6_1.index t (1 : Fin 2) * 32 + 1 * (ix2 j k 1).val = (ix2 j k 1).val; rw [h11]; omega

/-- Window 2's block is its whole array at every point. -/
theorem iblk6_2_apply (c : Dev nD) (t : Fin cfg6.N) (k : Fin 32) :
    (iblk6 V c 2 t : Vec Ideal S1x32 .f32) (ix2 (0 : Fin 1) k) = bOne6 V c k := by
  obtain ⟨-, -, h10, h11, h20, h21, h30, h31, h40, h41, -, -⟩ := idx6 t
  unfold iblk6 bOne6
  rw [View.read_apply]
  show V c (Pipeline.arrRef spec6 2) _ = V c (Pipeline.arrRef spec6 2) _
  refine congrArg (V c (Pipeline.arrRef spec6 2)) ?_
  funext ax; apply Fin.ext
  match ax with
  | ⟨0, _⟩ => show win6_2.index t (0 : Fin 2) * 1 + 1 * (ix2 (0 : Fin 1) k 0).val = (ix2 (0 : Fin 1) k 0).val; rw [h20]; omega
  | ⟨1, _⟩ => show win6_2.index t (1 : Fin 2) * 32 + 1 * (ix2 (0 : Fin 1) k 1).val = (ix2 (0 : Fin 1) k 1).val; rw [h21]; omega

/-- Window 3's block is its whole array at every point. -/
theorem iblk6_3_apply (c : Dev nD) (t : Fin cfg6.N) (k : Fin 32) (q : Fin 32) :
    (iblk6 V c 3 t : Vec Ideal S32x32 .f32) (ix2 k q) = wTwo6 V c k q := by
  obtain ⟨-, -, h10, h11, h20, h21, h30, h31, h40, h41, -, -⟩ := idx6 t
  unfold iblk6 wTwo6
  rw [View.read_apply]
  show V c (Pipeline.arrRef spec6 3) _ = V c (Pipeline.arrRef spec6 3) _
  refine congrArg (V c (Pipeline.arrRef spec6 3)) ?_
  funext ax; apply Fin.ext
  match ax with
  | ⟨0, _⟩ => show win6_3.index t (0 : Fin 2) * 32 + 1 * (ix2 k q 0).val = (ix2 k q 0).val; rw [h30]; omega
  | ⟨1, _⟩ => show win6_3.index t (1 : Fin 2) * 32 + 1 * (ix2 k q 1).val = (ix2 k q 1).val; rw [h31]; omega

/-- Window 4's block is its whole array at every point. -/
theorem iblk6_4_apply (c : Dev nD) (t : Fin cfg6.N) (q : Fin 32) :
    (iblk6 V c 4 t : Vec Ideal S1x32 .f32) (ix2 (0 : Fin 1) q) = bTwo6 V c q := by
  obtain ⟨-, -, h10, h11, h20, h21, h30, h31, h40, h41, -, -⟩ := idx6 t
  unfold iblk6 bTwo6
  rw [View.read_apply]
  show V c (Pipeline.arrRef spec6 4) _ = V c (Pipeline.arrRef spec6 4) _
  refine congrArg (V c (Pipeline.arrRef spec6 4)) ?_
  funext ax; apply Fin.ext
  match ax with
  | ⟨0, _⟩ => show win6_4.index t (0 : Fin 2) * 1 + 1 * (ix2 (0 : Fin 1) q 0).val = (ix2 (0 : Fin 1) q 0).val; rw [h40]; omega
  | ⟨1, _⟩ => show win6_4.index t (1 : Fin 2) * 32 + 1 * (ix2 (0 : Fin 1) q 1).val = (ix2 (0 : Fin 1) q 1).val; rw [h41]; omega

set_option maxHeartbeats 1000000 in
/-- What point t writes back is block t of `G6`. -/
theorem flushed6_5_eq (c : Dev nD) (t : Fin cfg6.N) :
    (dat6 V c).flushed 5 t = ((cfg6.win 5).blk t).view.read (Elt Ideal) (G6 V c) := by
  have hN : cfg6.N = 20 := N_6
  obtain ⟨-, -, -, -, -, -, -, -, -, -, h50, h51⟩ := idx6 t
  show (cfg6.win 5).cut (grid6.coords t) ((dat6 V c).after 5 t) = _
  rw [after6_5]
  unfold out6_5
  rw [View.canon_unit_zero hz6]
  simp only [View.ld_unit_zero (S := S5000x32) hz6, View.ld_unit_zero (S := S32x32) hz6, View.ld_unit_zero (S := S1x32) hz6,
    View.ld_unit_zero (S := S32x32) hz6]
  funext y
  obtain ⟨p, q, rfl⟩ : ∃ (p : Fin 5000) (q : Fin 32), y = ix2 p q := ⟨y 0, y 1, eq_ix2 y⟩
  have hp : p.val < 5000 := p.isLt
  have ht : t.val < 20 := hN ▸ t.isLt
  have hemb : ((cfg6.win 5).blk t).view.emb (ix2 p q) = (ix2 (⟨t.val * 5000 + p.val, by omega⟩ : Fin 100000) q : S100000x32.Idx) := by
    funext ax; apply Fin.ext
    match ax with
    | ⟨0, _⟩ => show win6_5.index t (0 : Fin 2) * 5000 + 1 * p.val = t.val * 5000 + p.val; rw [h50]; omega
    | ⟨1, _⟩ => show win6_5.index t (1 : Fin 2) * 32 + 1 * q.val = q.val; rw [h51]; omega
  show k6_pay1 (F := Ideal) (iblk6 V c 0 t) (iblk6 V c 1 t) (iblk6 V c 2 t) (iblk6 V c 3 t) (iblk6 V c 4 t) (ix2 p q)
    = G6 V c (((cfg6.win 5).blk t).view.emb (ix2 p q))
  rw [hemb]
  refine (k6_pay1_apply (iblk6 V c 0 t) (iblk6 V c 1 t) (iblk6 V c 2 t) (iblk6 V c 3 t) (iblk6 V c 4 t) p q).trans ?_
  show _ = Cert.Spec.dense (inRows6 V c) (wOne6 V c) (bOne6 V c) (wTwo6 V c) (bTwo6 V c) (⟨t.val * 5000 + p.val, by omega⟩ : Fin 100000) q
  unfold Cert.Spec.dense
  simp only [iblk6_0_apply V c t p _ (⟨t.val * 5000 + p.val, by omega⟩ : Fin 100000) rfl, iblk6_1_apply V c t, iblk6_2_apply V c t, iblk6_3_apply V c t, iblk6_4_apply V c t]

/-- Every row of the output array is in the block of the point its row number divided by 5000 names. -/
theorem covered6_5 (i : S100000x32.Idx) :
    ∃ t : Fin cfg6.N, (cfg6.win 5).flush t = true ∧ i ∈ ((cfg6.win 5).blk t).view.set := by
  have hN : cfg6.N = 20 := N_6
  have hi0 : (i 0).val < 100000 := (i 0).isLt
  have hi1 : (i 1).val < 32 := (i 1).isLt
  have ht : (i 0).val / 5000 < cfg6.N := by rw [hN]; omega
  obtain ⟨-, -, -, -, -, -, -, -, -, -, h50, h51⟩ := idx6 ⟨(i 0).val / 5000, ht⟩
  have h50' : win6_5.index ⟨(i 0).val / 5000, ht⟩ (0 : Fin 2) = (i 0).val / 5000 := h50
  refine ⟨⟨(i 0).val / 5000, ht⟩, flush6_5 _, ?_⟩
  show i ∈ ((View.whole main_v138).slice (win6_5.rect ⟨(i 0).val / 5000, ht⟩)).set
  rw [View.set_slice_whole, Rect.mem_set_unit]
  intro ax
  match ax with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [h50']; omega
  | ⟨1, _⟩ =>
    show win6_5.index ⟨(i 0).val / 5000, ht⟩ (1 : Fin 2) * 32 ≤ (i 1).val
      ∧ (i 1).val < win6_5.index ⟨(i 0).val / 5000, ht⟩ (1 : Fin 2) * 32 + 32
    rw [h51]; omega

/-- The output array after the region is `G6`. -/
theorem final6_5 (c : Dev nD) : (dat6 (F := Ideal) V c).arrAt 5 cfg6.N = G6 V c :=
  (dat6 V c).arrAt_eq_of_cover 5 (G6 V c) (fun t _ => flushed6_5_eq V c t) (covered6_5)

/-- The output array after the region, entry by entry: the two-layer perceptron of the input array's rows. -/
theorem arrAt6_5 (c : Dev nD) (p : Fin 100000) (q : Fin 32) :
    (dat6 (F := Ideal) V c).arrAt 5 cfg6.N (ValueIdx.ix2 p q)
      = Cert.Spec.dense (fun p j => V c (Pipeline.arrRef spec6 0) (ValueIdx.ix2 p j)) (fun j k => V c (Pipeline.arrRef spec6 1) (ValueIdx.ix2 j k))
          (fun k => V c (Pipeline.arrRef spec6 2) (ValueIdx.ix2 0 k)) (fun k q => V c (Pipeline.arrRef spec6 3) (ValueIdx.ix2 k q))
          (fun q => V c (Pipeline.arrRef spec6 4) (ValueIdx.ix2 0 q)) p q := by
  rw [final6_5]; rfl

end Cert.KernelIdeal.Hand

end
-- ==== Proof.KI.Stats7Value.lean ====
import proofs.«114689_j15281493639468_1_alg».proof.Proof.KI.Stats7
import proofs.«114689_j15281493639468_1_alg».proof.Proof.KI.StatsValueLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! # What the statistics kernel of pipeline 7 leaves in its two result rows, over the extended reals -/

/-! ## The payloads at an index -/

/-- The column sums of a [5000,32] block, as the kernel takes them (a reduction over the row axis from the zero
    pattern), read at a column: the sum over the 5000 rows. -/
theorem colsum7_apply (src : FVec Ideal S5000x32 .f32) (h : S5000x32.Reduces [0] S32) (hφ : FKind.Formats .f32)
    (hacc : (0x00000000#32 : BitVec 32) = 0x00000000#32) (q : Fin 32) :
    multiReduction .add [0] S32 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a
  match a with
  | ⟨0, _⟩ => rfl
  | ⟨1, _⟩ => rfl

theorem k7_pay1_apply (q : Fin 32) : k7_pay1 (F := Ideal) (ix2 (0 : Fin 1) q) = 0 := by
  unfold k7_pay1
  rw [shapeCast_self]
  exact Ideal.ofBits_zero_f32

theorem k7_pay2_apply (q : Fin 32) : k7_pay2 (F := Ideal) (ix2 (0 : Fin 1) q) = 0 := by
  unfold k7_pay2
  rw [shapeCast_self]
  exact Ideal.ofBits_zero_f32

/-- The block shifted by the bias row. -/
theorem k7_pay3_apply (x0 : Vec Ideal S5000x32 .f32) (x1 : Vec Ideal S1x32 .f32) (r : Fin 5000) (q : Fin 32) :
    k7_pay3 x0 x1 (ix2 r q) = x0 (ix2 r q) + x1 (ix2 (0 : Fin 1) q) := by
  unfold k7_pay3
  rw [addf_apply, shapeCast_self, broadcastTo_1b_ab_apply, shapeCast_self]

/-- The sum row after a point: what it held plus the column sums of the shifted block. -/
theorem k7_pay4_apply (x0 : Vec Ideal S5000x32 .f32) (x1 s : Vec Ideal S1x32 .f32) (q : Fin 32) :
    k7_pay4 x0 x1 s (ix2 (0 : Fin 1) q) = s (ix2 (0 : Fin 1) q) + ∑ r : Fin 5000, (x0 (ix2 r q) + x1 (ix2 (0 : Fin 1) q)) := by
  unfold k7_pay4
  rw [shapeCast_self, addf_apply, shapeCast_a_1a_apply]
  refine congrArg (s (ix2 (0 : Fin 1) q) + ·) ?_
  refine (colsum7_apply _ _ _ _ q).trans ?_
  exact Finset.sum_congr rfl fun r _ => k7_pay3_apply x0 x1 r q

/-- The sum-of-squares row after a point: what it held plus the column sums of the square of the shifted block. -/
theorem k7_pay5_apply (x0 : Vec Ideal S5000x32 .f32) (x1 s : Vec Ideal S1x32 .f32) (q : Fin 32) :
    k7_pay5 x0 x1 s (ix2 (0 : Fin 1) q)
      = s (ix2 (0 : Fin 1) q) + ∑ r : Fin 5000, (x0 (ix2 r q) + x1 (ix2 (0 : Fin 1) q)) * (x0 (ix2 r q) + x1 (ix2 (0 : Fin 1) q)) := by
  unfold k7_pay5
  rw [shapeCast_self, addf_apply, shapeCast_a_1a_apply]
  refine congrArg (s (ix2 (0 : Fin 1) q) + ·) ?_
  refine (colsum7_apply _ _ _ _ q).trans ?_
  exact Finset.sum_congr rfl fun r _ => by rw [mulf_apply, k7_pay3_apply]

/-! ## The blocks, read at an index -/

/-- Window 0's block index at point `t` is (t, 0); window 1's is (0, 0). -/
theorem index7_0 : ∀ t : Fin cfg7.N, win7_0.index t 0 = t.val ∧ win7_0.index t 1 = 0 := by decide +kernel
theorem index7_1 : ∀ t : Fin cfg7.N, win7_1.index t 0 = 0 ∧ win7_1.index t 1 = 0 := by decide +kernel

/-- Row `r` of block `t` is row `5000 t + r` of the array. -/
theorem iblk7_0_apply (c : Dev nD) (t : Fin cfg7.N) (r : Fin 5000) (q : Fin 32) (h : 5000 * t.val + r.val < 100000) :
    (iblk7 V c 0 t : Vec Ideal S5000x32 .f32) (ix2 r q) = V c (Pipeline.arrRef spec7 0) (ix2 ⟨5000 * t.val + r.val, h⟩ q) := by
  have hi := index7_0 t
  unfold iblk7
  rw [View.read_apply]
  show V c (Pipeline.arrRef spec7 0) _ = V c (Pipeline.arrRef spec7 0) _
  congr 1
  funext a
  apply Fin.ext
  match a with
  | ⟨0, _⟩ => show win7_0.index t 0 * 5000 + 1 * r.val = 5000 * t.val + r.val; rw [hi.1]; omega
  | ⟨1, _⟩ => show win7_0.index t 1 * 32 + 1 * q.val = q.val; rw [hi.2]; omega

/-- The bias row's block is the bias row at every point. -/
theorem iblk7_1_apply (c : Dev nD) (t : Fin cfg7.N) (q : Fin 32) :
    (iblk7 V c 1 t : Vec Ideal S1x32 .f32) (ix2 (0 : Fin 1) q) = V c (Pipeline.arrRef spec7 1) (ix2 (0 : Fin 1) q) := by
  have hi := index7_1 t
  unfold iblk7
  rw [View.read_apply]
  show V c (Pipeline.arrRef spec7 1) _ = V c (Pipeline.arrRef spec7 1) _
  congr 1
  funext a
  apply Fin.ext
  match a with
  | ⟨0, _⟩ => show win7_1.index t 0 * 1 + 1 * 0 = 0; rw [hi.1]
  | ⟨1, _⟩ => show win7_1.index t 1 * 32 + 1 * q.val = q.val; rw [hi.2]; omega

/-! ## The accumulation, read at a column -/

/-- The aggregated array and the bias row as the region finds them, as functions of their coordinates. -/
abbrev accv7_A (c : Dev nD) : Fin 100000 → Fin 32 → EReal := fun p q => V c (Pipeline.arrRef spec7 0) (ix2 p q)
abbrev accv7_b (c : Dev nD) : Fin 32 → EReal := fun q => V c (Pipeline.arrRef spec7 1) (ix2 (0 : Fin 1) q)

/-- Row `p` of the shifted array at column `q` (zero past the array, where nothing is summed). -/
def accv7_term (c : Dev nD) (q : Fin 32) (p : ℕ) : EReal :=
  if h : p < 100000 then accv7_A V c ⟨p, h⟩ q + accv7_b V c q else 0

/-- After `n` points the sum row holds the column sums of the first `5000 n` rows of the shifted array: by induction on
    the point, each point adding its block's rows. -/
theorem accv7_fst (c : Dev nD) (q : Fin 32) : ∀ n, n ≤ 20 →
    (acc7 V c n).1 (ix2 (0 : Fin 1) q) = ∑ p ∈ Finset.range (5000 * n), accv7_term V c q p
  | 0, _ => by
    rw [acc7_zero]
    exact (k7_pay1_apply q).trans (by simp)
  | n + 1, hn => by
    have hN : cfg7.N = 20 := N_7
    have hlt : n < cfg7.N := by omega
    have hs : acc7 V c (n + 1) = _ := acc7_succ V c ⟨n, hlt⟩
    rw [hs]
    show k7_pay4 _ _ _ _ = _
    rw [k7_pay4_apply, accv7_fst c q n (by omega), stats_sum_range_block]
    refine congrArg _ (Finset.sum_congr rfl fun r _ => ?_)
    have hr := r.isLt
    have h : 5000 * n + r.val < 100000 := by omega
    rw [iblk7_0_apply V c ⟨n, hlt⟩ r q h, iblk7_1_apply V c ⟨n, hlt⟩ q]
    unfold accv7_term; rw [dif_pos h]; try rfl

/-- The same for the sum-of-squares row. -/
theorem accv7_snd (c : Dev nD) (q : Fin 32) : ∀ n, n ≤ 20 →
    (acc7 V c n).2 (ix2 (0 : Fin 1) q) = ∑ p ∈ Finset.range (5000 * n), accv7_term V c q p * accv7_term V c q p
  | 0, _ => by
    rw [acc7_zero]
    exact (k7_pay2_apply q).trans (by simp)
  | n + 1, hn => by
    have hN : cfg7.N = 20 := N_7
    have hlt : n < cfg7.N := by omega
    have hs : acc7 V c (n + 1) = _ := acc7_succ V c ⟨n, hlt⟩
    rw [hs]
    show k7_pay5 _ _ _ _ = _
    rw [k7_pay5_apply, accv7_snd c q n (by omega), stats_sum_range_block (fun p => accv7_term V c q p * accv7_term V c q p)]
    refine congrArg _ (Finset.sum_congr rfl fun r _ => ?_)
    have hr := r.isLt
    have h : 5000 * n + r.val < 100000 := by omega
    rw [iblk7_0_apply V c ⟨n, hlt⟩ r q h, iblk7_1_apply V c ⟨n, hlt⟩ q]
    unfold accv7_term; rw [dif_pos h]; try rfl

/-- After the last point: the column sums of the whole shifted array, and of its square. -/
theorem accv7_fst_final (c : Dev nD) (q : Fin 32) :
    (acc7 V c 20).1 (ix2 (0 : Fin 1) q)
      = Cert.Spec.colSum (fun p q => V c (Pipeline.arrRef spec7 0) (ix2 p q)) (fun q => V c (Pipeline.arrRef spec7 1) (ix2 (0 : Fin 1) q)) q := by
  rw [accv7_fst V c q 20 le_rfl, show (5000 * 20 : ℕ) = 100000 from by norm_num]
  unfold Cert.Spec.colSum Cert.Spec.shift
  rw [stats_sum_fin_eq_range]
  refine Finset.sum_congr rfl fun p _ => ?_
  unfold accv7_term
  by_cases h : p < 100000
  · rw [dif_pos h]
  · rw [dif_neg h]

theorem accv7_snd_final (c : Dev nD) (q : Fin 32) :
    (acc7 V c 20).2 (ix2 (0 : Fin 1) q)
      = Cert.Spec.colSumSq (fun p q => V c (Pipeline.arrRef spec7 0) (ix2 p q)) (fun q => V c (Pipeline.arrRef spec7 1) (ix2 (0 : Fin 1) q)) q := by
  rw [accv7_snd V c q 20 le_rfl, show (5000 * 20 : ℕ) = 100000 from by norm_num]
  unfold Cert.Spec.colSumSq Cert.Spec.shift
  rw [stats_sum_fin_eq_range]
  refine Finset.sum_congr rfl fun p _ => ?_
  unfold accv7_term
  by_cases h : p < 100000
  · rw [dif_pos h, dif_pos h]
  · rw [dif_neg h, dif_neg h, mul_zero]

/-! ## The result rows after the run -/

/-- The last point, the one that writes the result rows back. -/
abbrev t7_last : Fin cfg7.N := ⟨19, by rw [show cfg7.N = 20 from N_7]; omega⟩

/-- The result rows as array contents: the scratch rows after the last point (each row's one block is the array). -/
abbrev result7_2 (c : Dev nD) : Buf (Elt Ideal) ((cfg7.win 2).arr.view.loc (c.tc : Thread nD τ)) := (acc7 V c 20).1
abbrev result7_3 (c : Dev nD) : Buf (Elt Ideal) ((cfg7.win 3).arr.view.loc (c.tc : Thread nD τ)) := (acc7 V c 20).2

/-- The one write-back of window 2, at the last point, writes the sum row: its block, read through zero offsets, is the array. -/
theorem flushed_eq7_2 (c : Dev nD) (t : Fin cfg7.N) (hf : (cfg7.win 2).flush t = true) :
    (dat7 V c).flushed 2 t = ((cfg7.win 2).blk t).view.read (Elt Ideal) (result7_2 V c) := by
  have hN : cfg7.N = 20 := N_7
  have h19 : t.val = 19 := by have := (flush7_2 t).mp hf; have := t.isLt; omega
  obtain rfl : t = t7_last := Fin.ext h19
  show (cfg7.win 2).cut (grid7.coords t7_last) ((dat7 V c).after 2 t7_last) = _
  rw [after7_2]
  have hz' : (fun a => win7_2.index t7_last a * (Pipeline.arrRef spec7 2).ty.shape.size a) = fun _ => 0 :=
    funext fun a => by fin_cases a <;> decide
  exact (Memref.read_access_unit_zero (Elt Ideal) (Pipeline.arrRef spec7 2) hz' (fun a => by rw [congrFun hz' a]; simp) (result7_2 V c)).symm

theorem flushed_eq7_3 (c : Dev nD) (t : Fin cfg7.N) (hf : (cfg7.win 3).flush t = true) :
    (dat7 V c).flushed 3 t = ((cfg7.win 3).blk t).view.read (Elt Ideal) (result7_3 V c) := by
  have hN : cfg7.N = 20 := N_7
  have h19 : t.val = 19 := by have := (flush7_3 t).mp hf; have := t.isLt; omega
  obtain rfl : t = t7_last := Fin.ext h19
  show (cfg7.win 3).cut (grid7.coords t7_last) ((dat7 V c).after 3 t7_last) = _
  rw [after7_3]
  have hz' : (fun a => win7_3.index t7_last a * (Pipeline.arrRef spec7 3).ty.shape.size a) = fun _ => 0 :=
    funext fun a => by fin_cases a <;> decide
  exact (Memref.read_access_unit_zero (Elt Ideal) (Pipeline.arrRef spec7 3) hz' (fun a => by rw [congrFun hz' a]; simp) (result7_3 V c)).symm

/-- So each result array ends holding its scratch row after the last point (that point's block covers it). -/
theorem final7_2 (c : Dev nD) : (dat7 V c).arrAt 2 cfg7.N = result7_2 V c :=
  (dat7 V c).arrAt_eq_of_cover 2 (result7_2 V c) (flushed_eq7_2 V c) fun i =>
    ⟨t7_last, (flush7_2 t7_last).mpr rfl, by
      show i ∈ ((View.whole (Pipeline.arrRef spec7 2)).slice (win7_2.rect t7_last)).set
      rw [View.set_slice_whole, Rect.mem_set_unit]
      intro a
      have h0 : (i 0 : Nat) < 1 := (i 0).isLt
      have h1 : (i 1 : Nat) < 32 := (i 1).isLt
      match a with
      | ⟨0, _⟩ => show win7_2.index t7_last 0 * win7_2.size 0 ≤ (i 0 : Nat) ∧ (i 0 : Nat) < win7_2.index t7_last 0 * win7_2.size 0 + win7_2.xsize (grid7.coords t7_last) 0
                  rw [show win7_2.index t7_last 0 * win7_2.size 0 = 0 from by decide +kernel, show win7_2.xsize (grid7.coords t7_last) 0 = 1 from by decide +kernel]; omega
      | ⟨1, _⟩ => show win7_2.index t7_last 1 * win7_2.size 1 ≤ (i 1 : Nat) ∧ (i 1 : Nat) < win7_2.index t7_last 1 * win7_2.size 1 + win7_2.xsize (grid7.coords t7_last) 1
                  rw [show win7_2.index t7_last 1 * win7_2.size 1 = 0 from by decide +kernel, show win7_2.xsize (grid7.coords t7_last) 1 = 32 from by decide +kernel]; omega⟩

theorem final7_3 (c : Dev nD) : (dat7 V c).arrAt 3 cfg7.N = result7_3 V c :=
  (dat7 V c).arrAt_eq_of_cover 3 (result7_3 V c) (flushed_eq7_3 V c) fun i =>
    ⟨t7_last, (flush7_3 t7_last).mpr rfl, by
      show i ∈ ((View.whole (Pipeline.arrRef spec7 3)).slice (win7_3.rect t7_last)).set
      rw [View.set_slice_whole, Rect.mem_set_unit]
      intro a
      have h0 : (i 0 : Nat) < 1 := (i 0).isLt
      have h1 : (i 1 : Nat) < 32 := (i 1).isLt
      match a with
      | ⟨0, _⟩ => show win7_3.index t7_last 0 * win7_3.size 0 ≤ (i 0 : Nat) ∧ (i 0 : Nat) < win7_3.index t7_last 0 * win7_3.size 0 + win7_3.xsize (grid7.coords t7_last) 0
                  rw [show win7_3.index t7_last 0 * win7_3.size 0 = 0 from by decide +kernel, show win7_3.xsize (grid7.coords t7_last) 0 = 1 from by decide +kernel]; omega
      | ⟨1, _⟩ => show win7_3.index t7_last 1 * win7_3.size 1 ≤ (i 1 : Nat) ∧ (i 1 : Nat) < win7_3.index t7_last 1 * win7_3.size 1 + win7_3.xsize (grid7.coords t7_last) 1
                  rw [show win7_3.index t7_last 1 * win7_3.size 1 = 0 from by decide +kernel, show win7_3.xsize (grid7.coords t7_last) 1 = 32 from by decide +kernel]; omega⟩

/-- THE VALUES: after the run, window 2's array is the column sums of the array shifted by the bias row, and window 3's
    the column sums of its square, over all 100000 rows. -/
theorem arrAt7_2 (c : Dev nD) (q : Fin 32) :
    (dat7 (F := Ideal) V c).arrAt 2 cfg7.N (ix2 (0 : Fin 1) q)
      = Cert.Spec.colSum (fun p q => V c (Pipeline.arrRef spec7 0) (ix2 p q)) (fun q => V c (Pipeline.arrRef spec7 1) (ix2 (0 : Fin 1) q)) q := by
  rw [final7_2]
  exact accv7_fst_final V c q

theorem arrAt7_3 (c : Dev nD) (q : Fin 32) :
    (dat7 (F := Ideal) V c).arrAt 3 cfg7.N (ix2 (0 : Fin 1) q)
      = Cert.Spec.colSumSq (fun p q => V c (Pipeline.arrRef spec7 0) (ix2 p q)) (fun q => V c (Pipeline.arrRef spec7 1) (ix2 (0 : Fin 1) q)) q := by
  rw [final7_3]
  exact accv7_snd_final V c q

end Cert.KernelIdeal.Hand
end
-- ==== Proof.KI.Norm8Value.lean ====
import proofs.«114689_j15281493639468_1_alg».proof.Proof.KI.Norm8
import proofs.«114689_j15281493639468_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«114689_j15281493639468_1_alg».proof.Proof.KI.NormLib
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-!
# What the normalisation region of pipeline 8 leaves in its output array

Every entry `(p, q)` of the output array is written by the grid point `p / 5000`, and what is written there is
`(A p q + bias q − mean q) · rsqrt (var q + ε) · γ q + β q`, clamped at 0, where `A` is the aggregated array and the five rows
are the one-row arrays as the region finds them.
-/

variable (V : (c : Dev nD) → (b : Ref sig .tc) → Buf (Elt Ideal) ((c : Thread nD τ).loc b))

/-- The arrays the seven windows stage, by name. -/
theorem arrRef8_0 : Pipeline.arrRef spec8 0 = main_v151 := rfl
theorem arrRef8_1 : Pipeline.arrRef spec8 1 = main_v168 := rfl
theorem arrRef8_2 : Pipeline.arrRef spec8 2 = main_v157 := rfl
theorem arrRef8_3 : Pipeline.arrRef spec8 3 = main_v161 := rfl
theorem arrRef8_4 : Pipeline.arrRef spec8 4 = main_v169 := rfl
theorem arrRef8_5 : Pipeline.arrRef spec8 5 = main_v170 := rfl
theorem arrRef8_6 : Pipeline.arrRef spec8 6 = main_v171 := rfl

/-- The payload of the body's store, read at row `p` and column `q` of the block: the one-row operands are read
    at their only row. -/
theorem k8_pay1_apply (x0 : Vec Ideal S5000x32 .f32) (x1 x2 x3 x4 x5 : Vec Ideal S1x32 .f32) (p : Fin 5000) (q : Fin 32) :
    k8_pay1 x0 x1 x2 x3 x4 x5 (ix2 p q)
      = max ((x0 (ix2 p q) + x1 (ix2 (0 : Fin 1) q) - x2 (ix2 (0 : Fin 1) q)) * Ideal.rsqrt (x3 (ix2 (0 : Fin 1) q) + Cert.Spec.eps) * x4 (ix2 (0 : Fin 1) q) + x5 (ix2 (0 : Fin 1) q)) 0 := by
  unfold k8_pay1
  simp only [shapeCast_self]
  simp only [maximumf_apply, addf_apply, mulf_apply, subf_apply, broadcast_apply, broadcastTo_1b_ab_apply, rsqrt_vec_apply,
    Ideal.ofBits_def, Ideal.ofBits_zero_f32, Cert.Spec.eps]

/-- The output array the region leaves, as one function of the arrays the region finds. -/
def normArr8 (c : Dev nD) : S100000x32.Idx → EReal := fun i =>
  Cert.Spec.normalize true (fun p q => V c main_v151 (ix2 p q))
      (fun q => V c main_v168 (ix2 (0 : Fin 1) q))
      (fun q => V c main_v157 (ix2 (0 : Fin 1) q))
      (fun q => V c main_v161 (ix2 (0 : Fin 1) q))
      (fun q => V c main_v169 (ix2 (0 : Fin 1) q))
      (fun q => V c main_v170 (ix2 (0 : Fin 1) q)) (i 0) (i 1)

/-- The block index maps, decided over the 20 grid points: the aggregated array's and the output's blocks are
    block row `t`; each one-row array is its own only block. -/
theorem idx_facts8 : ∀ t : Fin cfg8.N, t.val < 20
    ∧ win8_0.index t (0 : Fin 2) = t.val ∧ win8_0.index t (1 : Fin 2) = 0
    ∧ win8_6.index t (0 : Fin 2) = t.val ∧ win8_6.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- Block row `t` of a 100000-row array, read at `(p, q)`, is the array at row `5000 t + p` (window 0). -/
theorem read_blk8_0 (X : S100000x32.Idx → EReal) (t : Fin cfg8.N) (p : Fin 5000) (q : Fin 32) (h : t.val * 5000 + p.val < 100000) :
    ((cfg8.win 0).blk t).view.read (Elt Ideal) X (ix2 p q) = X (ix2 (⟨t.val * 5000 + p.val, h⟩ : Fin 100000) q) := by
  obtain ⟨ht, e00, e01, e60, e61, -⟩ := idx_facts8 t
  refine congrArg X ?_
  funext a; apply Fin.ext
  match a with
  | ⟨0, _⟩ => show win8_0.index t (0 : Fin 2) * 5000 + 1 * p.val = t.val * 5000 + p.val; omega
  | ⟨1, _⟩ => show win8_0.index t (1 : Fin 2) * 32 + 1 * q.val = q.val; omega
/-- Block row `t` of a 100000-row array, read at `(p, q)`, is the array at row `5000 t + p` (window 6). -/
theorem read_blk8_6 (X : S100000x32.Idx → EReal) (t : Fin cfg8.N) (p : Fin 5000) (q : Fin 32) (h : t.val * 5000 + p.val < 100000) :
    ((cfg8.win 6).blk t).view.read (Elt Ideal) X (ix2 p q) = X (ix2 (⟨t.val * 5000 + p.val, h⟩ : Fin 100000) q) := by
  obtain ⟨ht, e00, e01, e60, e61, -⟩ := idx_facts8 t
  refine congrArg X ?_
  funext a; apply Fin.ext
  match a with
  | ⟨0, _⟩ => show win8_6.index t (0 : Fin 2) * 5000 + 1 * p.val = t.val * 5000 + p.val; omega
  | ⟨1, _⟩ => show win8_6.index t (1 : Fin 2) * 32 + 1 * q.val = q.val; omega
/-- The only block of a one-row array, read at column `q`, is the array's row at `q` (window 1). -/
theorem read_blk8_1 (X : S1x32.Idx → EReal) (t : Fin cfg8.N) (q : Fin 32) :
    ((cfg8.win 1).blk t).view.read (Elt Ideal) X (ix2 (0 : Fin 1) q) = X (ix2 (0 : Fin 1) q) := by
  obtain ⟨ht, e00, e01, e60, e61, e10, e11, e20, e21, e30, e31, e40, e41, e50, e51⟩ := idx_facts8 t
  refine congrArg X ?_
  funext a; apply Fin.ext
  match a with
  | ⟨0, _⟩ => show win8_1.index t (0 : Fin 2) * 1 + 1 * 0 = 0; omega
  | ⟨1, _⟩ => show win8_1.index t (1 : Fin 2) * 32 + 1 * q.val = q.val; omega
/-- The only block of a one-row array, read at column `q`, is the array's row at `q` (window 2). -/
theorem read_blk8_2 (X : S1x32.Idx → EReal) (t : Fin cfg8.N) (q : Fin 32) :
    ((cfg8.win 2).blk t).view.read (Elt Ideal) X (ix2 (0 : Fin 1) q) = X (ix2 (0 : Fin 1) q) := by
  obtain ⟨ht, e00, e01, e60, e61, e10, e11, e20, e21, e30, e31, e40, e41, e50, e51⟩ := idx_facts8 t
  refine congrArg X ?_
  funext a; apply Fin.ext
  match a with
  | ⟨0, _⟩ => show win8_2.index t (0 : Fin 2) * 1 + 1 * 0 = 0; omega
  | ⟨1, _⟩ => show win8_2.index t (1 : Fin 2) * 32 + 1 * q.val = q.val; omega
/-- The only block of a one-row array, read at column `q`, is the array's row at `q` (window 3). -/
theorem read_blk8_3 (X : S1x32.Idx → EReal) (t : Fin cfg8.N) (q : Fin 32) :
    ((cfg8.win 3).blk t).view.read (Elt Ideal) X (ix2 (0 : Fin 1) q) = X (ix2 (0 : Fin 1) q) := by
  obtain ⟨ht, e00, e01, e60, e61, e10, e11, e20, e21, e30, e31, e40, e41, e50, e51⟩ := idx_facts8 t
  refine congrArg X ?_
  funext a; apply Fin.ext
  match a with
  | ⟨0, _⟩ => show win8_3.index t (0 : Fin 2) * 1 + 1 * 0 = 0; omega
  | ⟨1, _⟩ => show win8_3.index t (1 : Fin 2) * 32 + 1 * q.val = q.val; omega
/-- The only block of a one-row array, read at column `q`, is the array's row at `q` (window 4). -/
theorem read_blk8_4 (X : S1x32.Idx → EReal) (t : Fin cfg8.N) (q : Fin 32) :
    ((cfg8.win 4).blk t).view.read (Elt Ideal) X (ix2 (0 : Fin 1) q) = X (ix2 (0 : Fin 1) q) := by
  obtain ⟨ht, e00, e01, e60, e61, e10, e11, e20, e21, e30, e31, e40, e41, e50, e51⟩ := idx_facts8 t
  refine congrArg X ?_
  funext a; apply Fin.ext
  match a with
  | ⟨0, _⟩ => show win8_4.index t (0 : Fin 2) * 1 + 1 * 0 = 0; omega
  | ⟨1, _⟩ => show win8_4.index t (1 : Fin 2) * 32 + 1 * q.val = q.val; omega
/-- The only block of a one-row array, read at column `q`, is the array's row at `q` (window 5). -/
theorem read_blk8_5 (X : S1x32.Idx → EReal) (t : Fin cfg8.N) (q : Fin 32) :
    ((cfg8.win 5).blk t).view.read (Elt Ideal) X (ix2 (0 : Fin 1) q) = X (ix2 (0 : Fin 1) q) := by
  obtain ⟨ht, e00, e01, e60, e61, e10, e11, e20, e21, e30, e31, e40, e41, e50, e51⟩ := idx_facts8 t
  refine congrArg X ?_
  funext a; apply Fin.ext
  match a with
  | ⟨0, _⟩ => show win8_5.index t (0 : Fin 2) * 1 + 1 * 0 = 0; omega
  | ⟨1, _⟩ => show win8_5.index t (1 : Fin 2) * 32 + 1 * q.val = q.val; omega

/-- What grid point `t` writes back is block row `t` of `normArr8`. -/
theorem flushed8_6_eq (c : Dev nD) (t : Fin cfg8.N) :
    (dat8 V c).flushed 6 t = ((cfg8.win 6).blk t).view.read (Elt Ideal) (normArr8 V c) := by
  show (cfg8.win 6).cut (grid8.coords t) ((dat8 V c).after 6 t) = _
  rw [after8_6]
  unfold out8_6
  rw [View.canon_unit_zero off_zero2]
  simp only [View.ld_unit_zero (S := S5000x32) off_zero2, View.ld_unit_zero (S := S1x32) off_zero2]
  have ht : t.val < 20 := (idx_facts8 t).1
  funext j
  obtain ⟨p, q, rfl⟩ : ∃ (p : Fin 5000) (q : Fin 32), j = ix2 p q := ⟨j 0, j 1, eq_ix2 j⟩
  have hp : p.val < 5000 := p.isLt
  have hlt : t.val * 5000 + p.val < 100000 := by omega
  refine (k8_pay1_apply (iblk8 V c 0 t) (iblk8 V c 1 t) (iblk8 V c 2 t) (iblk8 V c 3 t) (iblk8 V c 4 t) (iblk8 V c 5 t) p q).trans ?_
  refine Eq.trans ?_ (read_blk8_6 (normArr8 V c) t p q hlt).symm
  have hb0 : (iblk8 V c 0 t (ix2 p q) : EReal) = V c main_v151 (ix2 (⟨t.val * 5000 + p.val, hlt⟩ : Fin 100000) q) :=
    read_blk8_0 (V c main_v151) t p q hlt
  have hb1 : (iblk8 V c 1 t (ix2 (0 : Fin 1) q) : EReal) = V c main_v168 (ix2 (0 : Fin 1) q) :=
    read_blk8_1 (V c main_v168) t q
  have hb2 : (iblk8 V c 2 t (ix2 (0 : Fin 1) q) : EReal) = V c main_v157 (ix2 (0 : Fin 1) q) :=
    read_blk8_2 (V c main_v157) t q
  have hb3 : (iblk8 V c 3 t (ix2 (0 : Fin 1) q) : EReal) = V c main_v161 (ix2 (0 : Fin 1) q) :=
    read_blk8_3 (V c main_v161) t q
  have hb4 : (iblk8 V c 4 t (ix2 (0 : Fin 1) q) : EReal) = V c main_v169 (ix2 (0 : Fin 1) q) :=
    read_blk8_4 (V c main_v169) t q
  have hb5 : (iblk8 V c 5 t (ix2 (0 : Fin 1) q) : EReal) = V c main_v170 (ix2 (0 : Fin 1) q) :=
    read_blk8_5 (V c main_v170) t q
  rw [hb0, hb1, hb2, hb3, hb4, hb5]
  dsimp only [normArr8, Cert.Spec.normalize, Cert.Spec.shift]
  exact (if_pos rfl).symm

/-- An index of the output array is in point `t`'s block iff each coordinate is in the block's range on its axis. -/
theorem mem_blk8_6 (t : Fin cfg8.N) (i : S100000x32.Idx) :
    i ∈ ((cfg8.win 6).blk t).view.set ↔ ∀ a : Fin 2, win8_6.index t a * S5000x32.size a ≤ (i a).val ∧ (i a).val < win8_6.index t a * S5000x32.size a + S5000x32.size a := by
  show i ∈ ((View.whole main_v171).slice (win8_6.rect t)).set ↔ _
  rw [View.set_slice_whole, Rect.mem_set_unit]
  exact Iff.rfl

/-- Every index of the output array is in the block of the grid point `row / 5000`, which writes it back. -/
theorem cover8_arr (i : S100000x32.Idx) :
    ∃ t : Fin cfg8.N, (cfg8.win 6).flush t = true ∧ i ∈ ((cfg8.win 6).blk t).view.set := by
  have hi0 : (i 0).val < 100000 := (i 0).isLt
  have hi1 : (i 1).val < 32 := (i 1).isLt
  have hN : cfg8.N = 20 := N_8
  let t : Fin cfg8.N := ⟨(i 0).val / 5000, by rw [hN]; omega⟩
  obtain ⟨ht, e00, e01, e60, e61, -⟩ := idx_facts8 t
  have htv : t.val = (i 0).val / 5000 := rfl
  refine ⟨t, flush8_6 t, ?_⟩
  rw [mem_blk8_6]
  intro a
  match a with
  | ⟨0, _⟩ => show win8_6.index t (0 : Fin 2) * 5000 ≤ (i 0).val ∧ (i 0).val < win8_6.index t (0 : Fin 2) * 5000 + 5000; omega
  | ⟨1, _⟩ => show win8_6.index t (1 : Fin 2) * 32 ≤ (i 1).val ∧ (i 1).val < win8_6.index t (1 : Fin 2) * 32 + 32; omega

/-- The output array after the region, entry by entry. -/
theorem arrAt8_6 (c : Dev nD) (p : Fin 100000) (q : Fin 32) :
    (dat8 (F := Ideal) V c).arrAt 6 cfg8.N (ix2 p q)
      = Cert.Spec.normalize true (fun p q => V c main_v151 (ix2 p q))
      (fun q => V c main_v168 (ix2 (0 : Fin 1) q))
      (fun q => V c main_v157 (ix2 (0 : Fin 1) q))
      (fun q => V c main_v161 (ix2 (0 : Fin 1) q))
      (fun q => V c main_v169 (ix2 (0 : Fin 1) q))
      (fun q => V c main_v170 (ix2 (0 : Fin 1) q)) p q :=
  congrFun ((dat8 V c).arrAt_eq_of_cover 6 (normArr8 V c) (fun t _ => flushed8_6_eq V c t) (cover8_arr)) (ix2 p q)

end Cert.KernelIdeal.Hand
-- ==== Proof.KI.ChainL2.lean ====
/-
  Layer 2 of the network as the first program's run leaves it: the perceptron on every row of the layer's input,
  the edge aggregation, the two column sums, the mean and variance rows, and the normalisation, each read off the
  contents of the buffers at the boundary where it is produced and carried unchanged to where it is used.
-/
import proofs.«114689_j15281493639468_1_alg».proof.Proof.KI.Fold
import proofs.«114689_j15281493639468_1_alg».proof.Proof.KI.HostWrites
import proofs.«114689_j15281493639468_1_alg».proof.Proof.KI.ChainHost2
import proofs.«114689_j15281493639468_1_alg».proof.Proof.KI.Mlp6Value
import proofs.«114689_j15281493639468_1_alg».proof.Proof.KI.Stats7Value
import proofs.«114689_j15281493639468_1_alg».proof.Proof.KI.Norm8Value
import proofs.«114689_j15281493639468_1_alg».proof.Proof.SpecNet
import proofs.«114689_j15281493639468_1_alg».proof.Proof.SpecRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's operands, named -/

/-- The layer's input rows. -/
abbrev lay2_H (c : Dev nD) : Fin 100000 → Fin 32 → EReal := Cert.Spec.cur (W17 m c (Proc.devRef .tc main_v127))
/-- Its first weight matrix. -/
abbrev lay2_W1 (c : Dev nD) : Fin 32 → Fin 32 → EReal := Cert.Spec.matOf (m ((c : Thread nD τ).loc main_arg3)) (1 : Fin 4)
abbrev lay2_b1 (c : Dev nD) : Fin 32 → EReal := Cert.Spec.rowOf (m ((c : Thread nD τ).loc main_arg4)) (2 : Fin 5)
abbrev lay2_W2 (c : Dev nD) : Fin 32 → Fin 32 → EReal := Cert.Spec.matOf (m ((c : Thread nD τ).loc main_arg5)) (2 : Fin 5)
abbrev lay2_b2 (c : Dev nD) : Fin 32 → EReal := Cert.Spec.rowOf (m ((c : Thread nD τ).loc main_arg6)) (2 : Fin 5)
abbrev lay2_bias (c : Dev nD) : Fin 32 → EReal := Cert.Spec.rowOf (m ((c : Thread nD τ).loc main_arg7)) (2 : Fin 5)
abbrev lay2_gamma (c : Dev nD) : Fin 32 → EReal := Cert.Spec.rowOf (m ((c : Thread nD τ).loc main_arg8)) (2 : Fin 5)
abbrev lay2_beta (c : Dev nD) : Fin 32 → EReal := Cert.Spec.rowOf (m ((c : Thread nD τ).loc main_arg9)) (2 : Fin 5)
/-- The perceptron's rows. -/
abbrev lay2_Z (c : Dev nD) : Fin 100000 → Fin 32 → EReal :=
  Cert.Spec.dense (lay2_H m c) (lay2_W1 m c) (lay2_b1 m c) (lay2_W2 m c) (lay2_b2 m c)
/-- The aggregated rows. -/
abbrev lay2_A (c : Dev nD) : Fin 100000 → Fin 32 → EReal :=
  Cert.Spec.cur (Cert.Spec.aggArr (W5 m c (Proc.devRef .tc main_v3)) (W5 m c (Proc.devRef .tc main_v6)) (W5 m c (Proc.devRef .tc main_v41))
    (Cert.Spec.uncur (lay2_Z m c)))

/-! ## Buffers nothing writes between where they are produced and where they are read -/

theorem k2_arg3 (c : Dev nD) : W16 m c (Proc.devRef .tc main_arg3) = m ((c : Thread nD τ).loc main_arg3) :=
      (W16_of_ne m c main_arg3 (by decide)).trans <|
      (StableHlo.after_of_writes_sub hostOps5 _ Cert.KernelIdeal.GenP.hostOps5_writes (by decide : main_arg3 ∉ Cert.KernelIdeal.GenP.hostOps5_W)).trans <|
      (W14_of_ne m c main_arg3 (by decide)).trans <|
      (StableHlo.after_of_writes_sub hostOps4 _ Cert.KernelIdeal.GenP.hostOps4_writes (by decide : main_arg3 ∉ Cert.KernelIdeal.GenP.hostOps4_W)).trans <|
      (W12_of_ne m c main_arg3 (by decide)).trans <|
      (StableHlo.after_of_writes_sub hostOps3 _ Cert.KernelIdeal.GenP.hostOps3_writes (by decide : main_arg3 ∉ Cert.KernelIdeal.GenP.hostOps3_W)).trans <|
      (W10_of_ne m c main_arg3 (by decide)).trans <|
      (StableHlo.after_of_writes_sub hostOps2 _ Cert.KernelIdeal.GenP.hostOps2_writes (by decide : main_arg3 ∉ Cert.KernelIdeal.GenP.hostOps2_W)).trans <|
      (W8_of_ne m c main_arg3 (by decide)).trans <|
      (StableHlo.after_of_writes_sub hostOps1 _ Cert.KernelIdeal.GenP.hostOps1_writes (by decide : main_arg3 ∉ Cert.KernelIdeal.GenP.hostOps1_W)).trans <|
      (W6_of_ne m c main_arg3 (by decide)).trans <|
      (StableHlo.after_of_writes_sub hostOps0_4 _ Cert.KernelIdeal.GenP.hostOps0_4_writes (by decide : main_arg3 ∉ Cert.KernelIdeal.GenP.hostOps0_4_W)).trans <|
      (StableHlo.after_of_writes_sub hostOps0_3 _ Cert.KernelIdeal.GenP.hostOps0_3_writes (by decide : main_arg3 ∉ Cert.KernelIdeal.GenP.hostOps0_3_W)).trans <|
      (StableHlo.after_of_writes_sub hostOps0_2 _ Cert.KernelIdeal.GenP.hostOps0_2_writes (by decide : main_arg3 ∉ Cert.KernelIdeal.GenP.hostOps0_2_W)).trans <|
      (StableHlo.after_of_writes_sub hostOps0_1 _ Cert.KernelIdeal.GenP.hostOps0_1_writes (by decide : main_arg3 ∉ Cert.KernelIdeal.GenP.hostOps0_1_W)).trans <|
      (StableHlo.after_of_writes_sub hostOps0 _ Cert.KernelIdeal.GenP.hostOps0_writes (by decide : main_arg3 ∉ Cert.KernelIdeal.GenP.hostOps0_W)).trans rfl

theorem k2_arg4 (c : Dev nD) : W16 m c (Proc.devRef .tc main_arg4) = m ((c : Thread nD τ).loc main_arg4) :=
      (W16_of_ne m c main_arg4 (by decide)).trans <|
      (StableHlo.after_of_writes_sub hostOps5 _ Cert.KernelIdeal.GenP.hostOps5_writes (by decide : main_arg4 ∉ Cert.KernelIdeal.GenP.hostOps5_W)).trans <|
      (W14_of_ne m c main_arg4 (by decide)).trans <|
      (StableHlo.after_of_writes_sub hostOps4 _ Cert.KernelIdeal.GenP.hostOps4_writes (by decide : main_arg4 ∉ Cert.KernelIdeal.GenP.hostOps4_W)).trans <|
      (W12_of_ne m c main_arg4 (by decide)).trans <|
      (StableHlo.after_of_writes_sub hostOps3 _ Cert.KernelIdeal.GenP.hostOps3_writes (by decide : main_arg4 ∉ Cert.KernelIdeal.GenP.hostOps3_W)).trans <|
      (W10_of_ne m c main_arg4 (by decide)).trans <|
      (StableHlo.after_of_writes_sub hostOps2 _ Cert.KernelIdeal.GenP.hostOps2_writes (by decide : main_arg4 ∉ Cert.KernelIdeal.GenP.hostOps2_W)).trans <|
      (W8_of_ne m c main_arg4 (by decide)).trans <|
      (StableHlo.after_of_writes_sub hostOps1 _ Cert.KernelIdeal.GenP.hostOps1_writes (by decide : main_arg4 ∉ Cert.KernelIdeal.GenP.hostOps1_W)).trans <|
      (W6_of_ne m c main_arg4 (by decide)).trans <|
      (StableHlo.after_of_writes_sub hostOps0_4 _ Cert.KernelIdeal.GenP.hostOps0_4_writes (by decide : main_arg4 ∉ Cert.KernelIdeal.GenP.hostOps0_4_W)).trans <|
      (StableHlo.after_of_writes_sub hostOps0_3 _ Cert.KernelIdeal.GenP.hostOps0_3_writes (by decide : main_arg4 ∉ Cert.KernelIdeal.GenP.hostOps0_3_W)).trans <|
      (StableHlo.after_of_writes_sub hostOps0_2 _ Cert.KernelIdeal.GenP.hostOps0_2_writes (by decide : main_arg4 ∉ Cert.KernelIdeal.GenP.hostOps0_2_W)).trans <|
      (StableHlo.after_of_writes_sub hostOps0_1 _ Cert.KernelIdeal.GenP.hostOps0_1_writes (by decide : main_arg4 ∉ Cert.KernelIdeal.GenP.hostOps0_1_W)).trans <|
      (StableHlo.after_of_writes_sub hostOps0 _ Cert.KernelIdeal.GenP.hostOps0_writes (by decide : main_arg4 ∉ Cert.KernelIdeal.GenP.hostOps0_W)).trans rfl

theorem k2_arg5 (c : Dev nD) : W16 m c (Proc.devRef .tc main_arg5) = m ((c : Thread nD τ).loc main_arg5) :=
      (W16_of_ne m c main_arg5 (by decide)).trans <|
      (StableHlo.after_of_writes_sub hostOps5 _ Cert.KernelIdeal.GenP.hostOps5_writes (by decide : main_arg5 ∉ Cert.KernelIdeal.GenP.hostOps5_W)).trans <|
      (W14_of_ne m c main_arg5 (by decide)).trans <|
      (StableHlo.after_of_writes_sub hostOps4 _ Cert.KernelIdeal.GenP.hostOps4_writes (by decide : main_arg5 ∉ Cert.KernelIdeal.GenP.hostOps4_W)).trans <|
      (W12_of_ne m c main_arg5 (by decide)).trans <|
      (StableHlo.after_of_writes_sub hostOps3 _ Cert.KernelIdeal.GenP.hostOps3_writes (by decide : main_arg5 ∉ Cert.KernelIdeal.GenP.hostOps3_W)).trans <|
      (W10_of_ne m c main_arg5 (by decide)).trans <|
      (StableHlo.after_of_writes_sub hostOps2 _ Cert.KernelIdeal.GenP.hostOps2_writes (by decide : main_arg5 ∉ Cert.KernelIdeal.GenP.hostOps2_W)).trans <|
      (W8_of_ne m c main_arg5 (by decide)).trans <|
      (StableHlo.after_of_writes_sub hostOps1 _ Cert.KernelIdeal.GenP.hostOps1_writes (by decide : main_arg5 ∉ Cert.KernelIdeal.GenP.hostOps1_W)).trans <|
      (W6_of_ne m c main_arg5 (by decide)).trans <|
      (StableHlo.after_of_writes_sub hostOps0_4 _ Cert.KernelIdeal.GenP.hostOps0_4_writes (by decide : main_arg5 ∉ Cert.KernelIdeal.GenP.hostOps0_4_W)).trans <|
      (StableHlo.after_of_writes_sub hostOps0_3 _ Cert.KernelIdeal.GenP.hostOps0_3_writes (by decide : main_arg5 ∉ Cert.KernelIdeal.GenP.hostOps0_3_W)).trans <|
      (StableHlo.after_of_writes_sub hostOps0_2 _ Cert.KernelIdeal.GenP.hostOps0_2_writes (by decide : main_arg5 ∉ Cert.KernelIdeal.GenP.hostOps0_2_W)).trans <|
      (StableHlo.after_of_writes_sub hostOps0_1 _ Cert.KernelIdeal.GenP.hostOps0_1_writes (by decide : main_arg5 ∉ Cert.KernelIdeal.GenP.hostOps0_1_W)).trans <|
      (StableHlo.after_of_writes_sub hostOps0 _ Cert.KernelIdeal.GenP.hostOps0_writes (by decide : main_arg5 ∉ Cert.KernelIdeal.GenP.hostOps0_W)).trans rfl

theorem k2_arg6 (c : Dev nD) : W16 m c (Proc.devRef .tc main_arg6) = m ((c : Thread nD τ).loc main_arg6) :=
      (W16_of_ne m c main_arg6 (by decide)).trans <|
      (StableHlo.after_of_writes_sub hostOps5 _ Cert.KernelIdeal.GenP.hostOps5_writes (by decide : main_arg6 ∉ Cert.KernelIdeal.GenP.hostOps5_W)).trans <|
      (W14_of_ne m c main_arg6 (by decide)).trans <|
      (StableHlo.after_of_writes_sub hostOps4 _ Cert.KernelIdeal.GenP.hostOps4_writes (by decide : main_arg6 ∉ Cert.KernelIdeal.GenP.hostOps4_W)).trans <|
      (W12_of_ne m c main_arg6 (by decide)).trans <|
      (StableHlo.after_of_writes_sub hostOps3 _ Cert.KernelIdeal.GenP.hostOps3_writes (by decide : main_arg6 ∉ Cert.KernelIdeal.GenP.hostOps3_W)).trans <|
      (W10_of_ne m c main_arg6 (by decide)).trans <|
      (StableHlo.after_of_writes_sub hostOps2 _ Cert.KernelIdeal.GenP.hostOps2_writes (by decide : main_arg6 ∉ Cert.KernelIdeal.GenP.hostOps2_W)).trans <|
      (W8_of_ne m c main_arg6 (by decide)).trans <|
      (StableHlo.after_of_writes_sub hostOps1 _ Cert.KernelIdeal.GenP.hostOps1_writes (by decide : main_arg6 ∉ Cert.KernelIdeal.GenP.hostOps1_W)).trans <|
      (W6_of_ne m c main_arg6 (by decide)).trans <|
      (StableHlo.after_of_writes_sub hostOps0_4 _ Cert.KernelIdeal.GenP.hostOps0_4_writes (by decide : main_arg6 ∉ Cert.KernelIdeal.GenP.hostOps0_4_W)).trans <|
      (StableHlo.after_of_writes_sub hostOps0_3 _ Cert.KernelIdeal.GenP.hostOps0_3_writes (by decide : main_arg6 ∉ Cert.KernelIdeal.GenP.hostOps0_3_W)).trans <|
      (StableHlo.after_of_writes_sub hostOps0_2 _ Cert.KernelIdeal.GenP.hostOps0_2_writes (by decide : main_arg6 ∉ Cert.KernelIdeal.GenP.hostOps0_2_W)).trans <|
      (StableHlo.after_of_writes_sub hostOps0_1 _ Cert.KernelIdeal.GenP.hostOps0_1_writes (by decide : main_arg6 ∉ Cert.KernelIdeal.GenP.hostOps0_1_W)).trans <|
      (StableHlo.after_of_writes_sub hostOps0 _ Cert.KernelIdeal.GenP.hostOps0_writes (by decide : main_arg6 ∉ Cert.KernelIdeal.GenP.hostOps0_W)).trans rfl

theorem k2_arg7a (c : Dev nD) : W18 m c (Proc.devRef .tc main_arg7) = m ((c : Thread nD τ).loc main_arg7) :=
      (W18_of_ne m c main_arg7 (by decide)).trans <|
      (StableHlo.after_of_writes_sub hostOps6 _ Cert.KernelIdeal.GenP.hostOps6_writes (by decide : main_arg7 ∉ Cert.KernelIdeal.GenP.hostOps6_W)).trans <|
      (W16_of_ne m c main_arg7 (by decide)).trans <|
      (StableHlo.after_of_writes_sub hostOps5 _ Cert.KernelIdeal.GenP.hostOps5_writes (by decide : main_arg7 ∉ Cert.KernelIdeal.GenP.hostOps5_W)).trans <|
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k2_arg7b (c : Dev nD) : W20 m c (Proc.devRef .tc main_arg7) = m ((c : Thread nD τ).loc main_arg7) :=
      (W20_of_ne m c main_arg7 (by decide)).trans <|
      (StableHlo.after_of_writes_sub hostOps7 _ Cert.KernelIdeal.GenP.hostOps7_writes (by decide : main_arg7 ∉ Cert.KernelIdeal.GenP.hostOps7_W)).trans <|
      (W18_of_ne m c main_arg7 (by decide)).trans <|
      (StableHlo.after_of_writes_sub hostOps6 _ Cert.KernelIdeal.GenP.hostOps6_writes (by decide : main_arg7 ∉ Cert.KernelIdeal.GenP.hostOps6_W)).trans <|
      (W16_of_ne m c main_arg7 (by decide)).trans <|
      (StableHlo.after_of_writes_sub hostOps5 _ Cert.KernelIdeal.GenP.hostOps5_writes (by decide : main_arg7 ∉ Cert.KernelIdeal.GenP.hostOps5_W)).trans <|
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k2_arg8 (c : Dev nD) : W20 m c (Proc.devRef .tc main_arg8) = m ((c : Thread nD τ).loc main_arg8) :=
      (W20_of_ne m c main_arg8 (by decide)).trans <|
      (StableHlo.after_of_writes_sub hostOps7 _ Cert.KernelIdeal.GenP.hostOps7_writes (by decide : main_arg8 ∉ Cert.KernelIdeal.GenP.hostOps7_W)).trans <|
      (W18_of_ne m c main_arg8 (by decide)).trans <|
      (StableHlo.after_of_writes_sub hostOps6 _ Cert.KernelIdeal.GenP.hostOps6_writes (by decide : main_arg8 ∉ Cert.KernelIdeal.GenP.hostOps6_W)).trans <|
      (W16_of_ne m c main_arg8 (by decide)).trans <|
      (StableHlo.after_of_writes_sub hostOps5 _ Cert.KernelIdeal.GenP.hostOps5_writes (by decide : main_arg8 ∉ Cert.KernelIdeal.GenP.hostOps5_W)).trans <|
      (W14_of_ne m c main_arg8 (by decide)).trans <|
      (StableHlo.after_of_writes_sub hostOps4 _ Cert.KernelIdeal.GenP.hostOps4_writes (by decide : main_arg8 ∉ Cert.KernelIdeal.GenP.hostOps4_W)).trans <|
      (W12_of_ne m c main_arg8 (by decide)).trans <|
      (StableHlo.after_of_writes_sub hostOps3 _ Cert.KernelIdeal.GenP.hostOps3_writes (by decide : main_arg8 ∉ Cert.KernelIdeal.GenP.hostOps3_W)).trans <|
      (W10_of_ne m c main_arg8 (by decide)).trans <|
      (StableHlo.after_of_writes_sub hostOps2 _ Cert.KernelIdeal.GenP.hostOps2_writes (by decide : main_arg8 ∉ Cert.KernelIdeal.GenP.hostOps2_W)).trans <|
      (W8_of_ne m c main_arg8 (by decide)).trans <|
      (StableHlo.after_of_writes_sub hostOps1 _ Cert.KernelIdeal.GenP.hostOps1_writes (by decide : main_arg8 ∉ Cert.KernelIdeal.GenP.hostOps1_W)).trans <|
      (W6_of_ne m c main_arg8 (by decide)).trans <|
      (StableHlo.after_of_writes_sub hostOps0_4 _ Cert.KernelIdeal.GenP.hostOps0_4_writes (by decide : main_arg8 ∉ Cert.KernelIdeal.GenP.hostOps0_4_W)).trans <|
      (StableHlo.after_of_writes_sub hostOps0_3 _ Cert.KernelIdeal.GenP.hostOps0_3_writes (by decide : main_arg8 ∉ Cert.KernelIdeal.GenP.hostOps0_3_W)).trans <|
      (StableHlo.after_of_writes_sub hostOps0_2 _ Cert.KernelIdeal.GenP.hostOps0_2_writes (by decide : main_arg8 ∉ Cert.KernelIdeal.GenP.hostOps0_2_W)).trans <|
      (StableHlo.after_of_writes_sub hostOps0_1 _ Cert.KernelIdeal.GenP.hostOps0_1_writes (by decide : main_arg8 ∉ Cert.KernelIdeal.GenP.hostOps0_1_W)).trans <|
      (StableHlo.after_of_writes_sub hostOps0 _ Cert.KernelIdeal.GenP.hostOps0_writes (by decide : main_arg8 ∉ Cert.KernelIdeal.GenP.hostOps0_W)).trans rfl

theorem k2_arg9 (c : Dev nD) : W20 m c (Proc.devRef .tc main_arg9) = m ((c : Thread nD τ).loc main_arg9) :=
      (W20_of_ne m c main_arg9 (by decide)).trans <|
      (StableHlo.after_of_writes_sub hostOps7 _ Cert.KernelIdeal.GenP.hostOps7_writes (by decide : main_arg9 ∉ Cert.KernelIdeal.GenP.hostOps7_W)).trans <|
      (W18_of_ne m c main_arg9 (by decide)).trans <|
      (StableHlo.after_of_writes_sub hostOps6 _ Cert.KernelIdeal.GenP.hostOps6_writes (by decide : main_arg9 ∉ Cert.KernelIdeal.GenP.hostOps6_W)).trans <|
      (W16_of_ne m c main_arg9 (by decide)).trans <|
      (StableHlo.after_of_writes_sub hostOps5 _ Cert.KernelIdeal.GenP.hostOps5_writes (by decide : main_arg9 ∉ Cert.KernelIdeal.GenP.hostOps5_W)).trans <|
      (W14_of_ne m c main_arg9 (by decide)).trans <|
      (StableHlo.after_of_writes_sub hostOps4 _ Cert.KernelIdeal.GenP.hostOps4_writes (by decide : main_arg9 ∉ Cert.KernelIdeal.GenP.hostOps4_W)).trans <|
      (W12_of_ne m c main_arg9 (by decide)).trans <|
      (StableHlo.after_of_writes_sub hostOps3 _ Cert.KernelIdeal.GenP.hostOps3_writes (by decide : main_arg9 ∉ Cert.KernelIdeal.GenP.hostOps3_W)).trans <|
      (W10_of_ne m c main_arg9 (by decide)).trans <|
      (StableHlo.after_of_writes_sub hostOps2 _ Cert.KernelIdeal.GenP.hostOps2_writes (by decide : main_arg9 ∉ Cert.KernelIdeal.GenP.hostOps2_W)).trans <|
      (W8_of_ne m c main_arg9 (by decide)).trans <|
      (StableHlo.after_of_writes_sub hostOps1 _ Cert.KernelIdeal.GenP.hostOps1_writes (by decide : main_arg9 ∉ Cert.KernelIdeal.GenP.hostOps1_W)).trans <|
      (W6_of_ne m c main_arg9 (by decide)).trans <|
      (StableHlo.after_of_writes_sub hostOps0_4 _ Cert.KernelIdeal.GenP.hostOps0_4_writes (by decide : main_arg9 ∉ Cert.KernelIdeal.GenP.hostOps0_4_W)).trans <|
      (StableHlo.after_of_writes_sub hostOps0_3 _ Cert.KernelIdeal.GenP.hostOps0_3_writes (by decide : main_arg9 ∉ Cert.KernelIdeal.GenP.hostOps0_3_W)).trans <|
      (StableHlo.after_of_writes_sub hostOps0_2 _ Cert.KernelIdeal.GenP.hostOps0_2_writes (by decide : main_arg9 ∉ Cert.KernelIdeal.GenP.hostOps0_2_W)).trans <|
      (StableHlo.after_of_writes_sub hostOps0_1 _ Cert.KernelIdeal.GenP.hostOps0_1_writes (by decide : main_arg9 ∉ Cert.KernelIdeal.GenP.hostOps0_1_W)).trans <|
      (StableHlo.after_of_writes_sub hostOps0 _ Cert.KernelIdeal.GenP.hostOps0_writes (by decide : main_arg9 ∉ Cert.KernelIdeal.GenP.hostOps0_W)).trans rfl

theorem k2_v3 (c : Dev nD) : W18 m c (Proc.devRef .tc main_v3) = W5 m c (Proc.devRef .tc main_v3) :=
      (W18_of_ne m c main_v3 (by decide)).trans <|
      (StableHlo.after_of_writes_sub hostOps6 _ Cert.KernelIdeal.GenP.hostOps6_writes (by decide : main_v3 ∉ Cert.KernelIdeal.GenP.hostOps6_W)).trans <|
      (W16_of_ne m c main_v3 (by decide)).trans <|
      (StableHlo.after_of_writes_sub hostOps5 _ Cert.KernelIdeal.GenP.hostOps5_writes (by decide : main_v3 ∉ Cert.KernelIdeal.GenP.hostOps5_W)).trans <|
      (W14_of_ne m c main_v3 (by decide)).trans <|
      (StableHlo.after_of_writes_sub hostOps4 _ Cert.KernelIdeal.GenP.hostOps4_writes (by decide : main_v3 ∉ Cert.KernelIdeal.GenP.hostOps4_W)).trans <|
      (W12_of_ne m c main_v3 (by decide)).trans <|
      (StableHlo.after_of_writes_sub hostOps3 _ Cert.KernelIdeal.GenP.hostOps3_writes (by decide : main_v3 ∉ Cert.KernelIdeal.GenP.hostOps3_W)).trans <|
      (W10_of_ne m c main_v3 (by decide)).trans <|
      (StableHlo.after_of_writes_sub hostOps2 _ Cert.KernelIdeal.GenP.hostOps2_writes (by decide : main_v3 ∉ Cert.KernelIdeal.GenP.hostOps2_W)).trans <|
      (W8_of_ne m c main_v3 (by decide)).trans <|
      (StableHlo.after_of_writes_sub hostOps1 _ Cert.KernelIdeal.GenP.hostOps1_writes (by decide : main_v3 ∉ Cert.KernelIdeal.GenP.hostOps1_W)).trans <|
      (W6_of_ne m c main_v3 (by decide))

theorem k2_v6 (c : Dev nD) : W18 m c (Proc.devRef .tc main_v6) = W5 m c (Proc.devRef .tc main_v6) :=
      (W18_of_ne m c main_v6 (by decide)).trans <|
      (StableHlo.after_of_writes_sub hostOps6 _ Cert.KernelIdeal.GenP.hostOps6_writes (by decide : main_v6 ∉ Cert.KernelIdeal.GenP.hostOps6_W)).trans <|
      (W16_of_ne m c main_v6 (by decide)).trans <|
      (StableHlo.after_of_writes_sub hostOps5 _ Cert.KernelIdeal.GenP.hostOps5_writes (by decide : main_v6 ∉ Cert.KernelIdeal.GenP.hostOps5_W)).trans <|
      (W14_of_ne m c main_v6 (by decide)).trans <|
      (StableHlo.after_of_writes_sub hostOps4 _ Cert.KernelIdeal.GenP.hostOps4_writes (by decide : main_v6 ∉ Cert.KernelIdeal.GenP.hostOps4_W)).trans <|
      (W12_of_ne m c main_v6 (by decide)).trans <|
      (StableHlo.after_of_writes_sub hostOps3 _ Cert.KernelIdeal.GenP.hostOps3_writes (by decide : main_v6 ∉ Cert.KernelIdeal.GenP.hostOps3_W)).trans <|
      (W10_of_ne m c main_v6 (by decide)).trans <|
      (StableHlo.after_of_writes_sub hostOps2 _ Cert.KernelIdeal.GenP.hostOps2_writes (by decide : main_v6 ∉ Cert.KernelIdeal.GenP.hostOps2_W)).trans <|
      (W8_of_ne m c main_v6 (by decide)).trans <|
      (StableHlo.after_of_writes_sub hostOps1 _ Cert.KernelIdeal.GenP.hostOps1_writes (by decide : main_v6 ∉ Cert.KernelIdeal.GenP.hostOps1_W)).trans <|
      (W6_of_ne m c main_v6 (by decide))

theorem k2_v41 (c : Dev nD) : W18 m c (Proc.devRef .tc main_v41) = W5 m c (Proc.devRef .tc main_v41) :=
      (W18_of_ne m c main_v41 (by decide)).trans <|
      (StableHlo.after_of_writes_sub hostOps6 _ Cert.KernelIdeal.GenP.hostOps6_writes (by decide : main_v41 ∉ Cert.KernelIdeal.GenP.hostOps6_W)).trans <|
      (W16_of_ne m c main_v41 (by decide)).trans <|
      (StableHlo.after_of_writes_sub hostOps5 _ Cert.KernelIdeal.GenP.hostOps5_writes (by decide : main_v41 ∉ Cert.KernelIdeal.GenP.hostOps5_W)).trans <|
      (W14_of_ne m c main_v41 (by decide)).trans <|
      (StableHlo.after_of_writes_sub hostOps4 _ Cert.KernelIdeal.GenP.hostOps4_writes (by decide : main_v41 ∉ Cert.KernelIdeal.GenP.hostOps4_W)).trans <|
      (W12_of_ne m c main_v41 (by decide)).trans <|
      (StableHlo.after_of_writes_sub hostOps3 _ Cert.KernelIdeal.GenP.hostOps3_writes (by decide : main_v41 ∉ Cert.KernelIdeal.GenP.hostOps3_W)).trans <|
      (W10_of_ne m c main_v41 (by decide)).trans <|
      (StableHlo.after_of_writes_sub hostOps2 _ Cert.KernelIdeal.GenP.hostOps2_writes (by decide : main_v41 ∉ Cert.KernelIdeal.GenP.hostOps2_W)).trans <|
      (W8_of_ne m c main_v41 (by decide)).trans <|
      (StableHlo.after_of_writes_sub hostOps1 _ Cert.KernelIdeal.GenP.hostOps1_writes (by decide : main_v41 ∉ Cert.KernelIdeal.GenP.hostOps1_W)).trans <|
      (W6_of_ne m c main_v41 (by decide))

theorem k2_agg (c : Dev nD) : W21 m c (Proc.devRef .tc main_v151) = W19 m c (Proc.devRef .tc main_v151) :=
      (StableHlo.after_of_writes_sub hostOps8 _ Cert.KernelIdeal.GenP.hostOps8_writes (by decide : main_v151 ∉ Cert.KernelIdeal.GenP.hostOps8_W)).trans <|
      ((W20_arr m c 0).trans (((dat7 (V19 m) c).arrAt_in 0 rfl _).trans (A_eq7 (V19 m) c 0)))

/-! ## The perceptron -/

theorem lay2_in0 (c : Dev nD) : inRows6 (V17 m) c = lay2_H m c := rfl
theorem lay2_in1 (c : Dev nD) : wOne6 (V17 m) c = lay2_W1 m c :=
  funext fun j => funext fun k => (hmlp2_w1 (W16 m c) j k).trans (congrFun (k2_arg3 m c) (ix3 (1 : Fin 4) j k))
theorem lay2_in2 (c : Dev nD) : bOne6 (V17 m) c = lay2_b1 m c :=
  funext fun k => (hmlp2_b1 (W16 m c) k).trans (congrFun (k2_arg4 m c) (ix2 (2 : Fin 5) k))
theorem lay2_in3 (c : Dev nD) : wTwo6 (V17 m) c = lay2_W2 m c :=
  funext fun j => funext fun k => (hmlp2_w2 (W16 m c) j k).trans (congrFun (k2_arg5 m c) (ix3 (2 : Fin 5) j k))
theorem lay2_in4 (c : Dev nD) : bTwo6 (V17 m) c = lay2_b2 m c :=
  funext fun k => (hmlp2_b2 (W16 m c) k).trans (congrFun (k2_arg6 m c) (ix2 (2 : Fin 5) k))

/-- After the perceptron's region its output array holds the perceptron's rows. -/
theorem lay2_out (c : Dev nD) : W18 m c (Proc.devRef .tc main_v138) = Cert.Spec.uncur (lay2_Z m c) := by
  refine (W18_arr m c 5).trans ((final6_5 (V17 m) c).trans ?_)
  unfold G6
  rw [lay2_in0, lay2_in1, lay2_in2, lay2_in3, lay2_in4]
  rfl

/-! ## The aggregation -/

/-- The aggregated array when the statistics are entered. -/
theorem lay2_agg (c : Dev nD) : Cert.Spec.cur (W19 m c (Proc.devRef .tc main_v151)) = lay2_A m c := by
  refine congrArg Cert.Spec.cur ((hagg2 (W18 m c)).trans ?_)
  rw [k2_v3 m c, k2_v6 m c, k2_v41 m c, lay2_out m c]

/-- The bias row when the statistics are entered. -/
theorem lay2_sbias (c : Dev nD) : (fun q => W19 m c (Proc.devRef .tc main_v154) (ix2 (0 : Fin 1) q)) = lay2_bias m c :=
  funext fun q => (hagg2_bias (W18 m c) q).trans (congrFun (k2_arg7a m c) (ix2 (2 : Fin 5) q))

/-! ## The column sums -/

theorem lay2_s1 (c : Dev nD) : (fun q => W20 m c (Proc.devRef .tc main_v155_0) (ix2 (0 : Fin 1) q))
    = Cert.Spec.colSum (lay2_A m c) (lay2_bias m c) := by
  funext q
  refine (congrFun (W20_arr m c 2) (ix2 (0 : Fin 1) q)).trans ((arrAt7_2 (V19 m) c q).trans ?_)
  have hA : (fun p q => V19 m c (Pipeline.arrRef spec7 0) (ix2 p q)) = lay2_A m c := lay2_agg m c
  have hb : (fun q => V19 m c (Pipeline.arrRef spec7 1) (ix2 (0 : Fin 1) q)) = lay2_bias m c := lay2_sbias m c
  rw [hA, hb]

theorem lay2_s2 (c : Dev nD) : (fun q => W20 m c (Proc.devRef .tc main_v155_1) (ix2 (0 : Fin 1) q))
    = Cert.Spec.colSumSq (lay2_A m c) (lay2_bias m c) := by
  funext q
  refine (congrFun (W20_arr m c 3) (ix2 (0 : Fin 1) q)).trans ((arrAt7_3 (V19 m) c q).trans ?_)
  have hA : (fun p q => V19 m c (Pipeline.arrRef spec7 0) (ix2 p q)) = lay2_A m c := lay2_agg m c
  have hb : (fun q => V19 m c (Pipeline.arrRef spec7 1) (ix2 (0 : Fin 1) q)) = lay2_bias m c := lay2_sbias m c
  rw [hA, hb]

/-! ## What the normalisation is entered with -/

theorem lay2_nagg (c : Dev nD) : Cert.Spec.cur (W21 m c (Proc.devRef .tc main_v151)) = lay2_A m c :=
  (congrArg Cert.Spec.cur (k2_agg m c)).trans (lay2_agg m c)
theorem lay2_nbias (c : Dev nD) : (fun q => W21 m c (Proc.devRef .tc main_v168) (ix2 (0 : Fin 1) q)) = lay2_bias m c :=
  funext fun q => (hnorm2_bias (W20 m c) q).trans (congrFun (k2_arg7b m c) (ix2 (2 : Fin 5) q))
theorem lay2_ngamma (c : Dev nD) : (fun q => W21 m c (Proc.devRef .tc main_v169) (ix2 (0 : Fin 1) q)) = lay2_gamma m c :=
  funext fun q => (hnorm2_gamma (W20 m c) q).trans (congrFun (k2_arg8 m c) (ix2 (2 : Fin 5) q))
theorem lay2_nbeta (c : Dev nD) : (fun q => W21 m c (Proc.devRef .tc main_v170) (ix2 (0 : Fin 1) q)) = lay2_beta m c :=
  funext fun q => (hnorm2_beta (W20 m c) q).trans (congrFun (k2_arg9 m c) (ix2 (2 : Fin 5) q))
theorem lay2_nmean (c : Dev nD) : (fun q => W21 m c (Proc.devRef .tc main_v157) (ix2 (0 : Fin 1) q))
    = Cert.Spec.meanOf (Cert.Spec.colSum (lay2_A m c) (lay2_bias m c)) :=
  funext fun q => (hnorm2_mean (W20 m c) q).trans (by rw [lay2_s1 m c])
theorem lay2_nvar (c : Dev nD) : (fun q => W21 m c (Proc.devRef .tc main_v161) (ix2 (0 : Fin 1) q))
    = Cert.Spec.varOf (Cert.Spec.colSum (lay2_A m c) (lay2_bias m c)) (Cert.Spec.colSumSq (lay2_A m c) (lay2_bias m c)) :=
  funext fun q => (hnorm2_var (W20 m c) q).trans (by rw [lay2_s1 m c, lay2_s2 m c])

/-! ## The layer -/

/-- After the normalisation's region its output array holds the layer. -/
theorem layer_2 (c : Dev nD) : Cert.Spec.cur (W22 m c (Proc.devRef .tc main_v171))
    = Cert.Spec.layerK true (W5 m c (Proc.devRef .tc main_v3)) (W5 m c (Proc.devRef .tc main_v6)) (W5 m c (Proc.devRef .tc main_v41))
        (lay2_H m c) (lay2_W1 m c) (lay2_b1 m c) (lay2_W2 m c) (lay2_b2 m c) (lay2_bias m c) (lay2_gamma m c) (lay2_beta m c) := by
  funext p q
  refine (congrFun (W22_arr m c 6) (ix2 p q)).trans ((arrAt8_6 (V21 m) c p q).trans ?_)
  have hA : (fun p q => V21 m c main_v151 (ix2 p q)) = lay2_A m c := lay2_nagg m c
  have hb : (fun q => V21 m c main_v168 (ix2 (0 : Fin 1) q)) = lay2_bias m c := lay2_nbias m c
  have hm : (fun q => V21 m c main_v157 (ix2 (0 : Fin 1) q)) = _ := lay2_nmean m c
  have hv : (fun q => V21 m c main_v161 (ix2 (0 : Fin 1) q)) = _ := lay2_nvar m c
  have hg : (fun q => V21 m c main_v169 (ix2 (0 : Fin 1) q)) = lay2_gamma m c := lay2_ngamma m c
  have hbe : (fun q => V21 m c main_v170 (ix2 (0 : Fin 1) q)) = lay2_beta m c := lay2_nbeta m c
  rw [hA, hb, hm, hv, hg, hbe]
  rfl

end Cert.KernelIdeal.Hand

end
-- ==== Proof.KI.ChainHost3.lean ====
/-
  What the host operations around layer 3 compute, read for an arbitrary valuation of the buffers: the rows and
  blocks of the stacked parameters they cut out, the edge aggregation of the perceptron's result, and the mean and
  variance rows from the two column sums.
-/
import proofs.«114689_j15281493639468_1_alg».proof.Proof.Gen.KernelIdeal.Launch
import proofs.«114689_j15281493639468_1_alg».proof.Proof.Spec
import proofs.«114689_j15281493639468_1_alg».proof.Proof.SpecHost
import proofs.«114689_j15281493639468_1_alg».proof.Proof.SpecRows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (W : Valuation τ sig (Elt Ideal))

/-! ## Before the perceptron: its weights and bias rows -/

set_option maxHeartbeats 4000000 in
/-- The first weight matrix of layer 3 is block 2 of its stack. -/
theorem hmlp3_w1 (j k : Fin 32) : StableHlo.after (hostOps9 (F := Ideal)) W (Proc.devRef .tc main_v173) (ix2 j k)
      = W (Proc.devRef .tc main_arg3) (ix3 (2 : Fin 4) j k) := by
  after_results_simp
  exact Cert.Spec.matSlice_apply 2 _ _ _ (2 : Fin 4) rfl j k

set_option maxHeartbeats 4000000 in
/-- The first bias row of layer 3 is row 3 of its stack. -/
theorem hmlp3_b1 (q : Fin 32) : StableHlo.after (hostOps9 (F := Ideal)) W (Proc.devRef .tc main_v180) (ix2 (0 : Fin 1) q)
      = W (Proc.devRef .tc main_arg4) (ix2 (3 : Fin 5) q) := by
  after_results_simp
  exact Cert.Spec.rowSlice_apply 3 _ _ _ _ (3 : Fin 5) rfl (0 : Fin 1) q

set_option maxHeartbeats 4000000 in
/-- The second weight matrix of layer 3 is block 3 of its stack. -/
theorem hmlp3_w2 (j k : Fin 32) : StableHlo.after (hostOps9 (F := Ideal)) W (Proc.devRef .tc main_v177) (ix2 j k)
      = W (Proc.devRef .tc main_arg5) (ix3 (3 : Fin 5) j k) := by
  after_results_simp
  exact Cert.Spec.matSlice_apply 3 _ _ _ (3 : Fin 5) rfl j k

set_option maxHeartbeats 4000000 in
/-- The second bias row of layer 3 is row 3 of its stack. -/
theorem hmlp3_b2 (q : Fin 32) : StableHlo.after (hostOps9 (F := Ideal)) W (Proc.devRef .tc main_v181) (ix2 (0 : Fin 1) q)
      = W (Proc.devRef .tc main_arg6) (ix2 (3 : Fin 5) q) := by
  after_results_simp
  exact Cert.Spec.rowSlice_apply 3 _ _ _ _ (3 : Fin 5) rfl (0 : Fin 1) q

/-! ## Between the perceptron and the statistics: the edge aggregation -/

set_option maxHeartbeats 4000000 in
/-- The aggregated array is the edge aggregation of the perceptron's result. -/
theorem hagg3 : StableHlo.after (hostOps10 (F := Ideal)) W (Proc.devRef .tc main_v195)
      = Cert.Spec.aggArr (W (Proc.devRef .tc main_v3)) (W (Proc.devRef .tc main_v6)) (W (Proc.devRef .tc main_v41)) (W (Proc.devRef .tc main_v182)) := by
  after_results_simp; rfl

set_option maxHeartbeats 4000000 in
/-- The bias row the statistics add is row 3 of its stack. -/
theorem hagg3_bias (q : Fin 32) : StableHlo.after (hostOps10 (F := Ideal)) W (Proc.devRef .tc main_v198) (ix2 (0 : Fin 1) q)
      = W (Proc.devRef .tc main_arg7) (ix2 (3 : Fin 5) q) := by
  after_results_simp
  exact Cert.Spec.rowSlice_apply 3 _ _ _ _ (3 : Fin 5) rfl (0 : Fin 1) q

/-! ## Between the statistics and the normalisation: mean, variance and the three parameter rows -/

set_option maxHeartbeats 4000000 in
/-- The mean row is the first column sum divided by the number of rows. -/
theorem hnorm3_mean (q : Fin 32) : StableHlo.after (hostOps11 (F := Ideal)) W (Proc.devRef .tc main_v201) (ix2 (0 : Fin 1) q)
      = Cert.Spec.meanOf (fun q => W (Proc.devRef .tc main_v199_0) (ix2 (0 : Fin 1) q)) q := by
  after_results_simp; rfl

set_option maxHeartbeats 4000000 in
/-- The variance row is the mean of the squares less the square of the mean. -/
theorem hnorm3_var (q : Fin 32) : StableHlo.after (hostOps11 (F := Ideal)) W (Proc.devRef .tc main_v205) (ix2 (0 : Fin 1) q)
      = Cert.Spec.varOf (fun q => W (Proc.devRef .tc main_v199_0) (ix2 (0 : Fin 1) q)) (fun q => W (Proc.devRef .tc main_v199_1) (ix2 (0 : Fin 1) q)) q := by
  after_results_simp; rfl

set_option maxHeartbeats 4000000 in
/-- The bias row the normalisation adds is row 3 of its stack. -/
theorem hnorm3_bias (q : Fin 32) : StableHlo.after (hostOps11 (F := Ideal)) W (Proc.devRef .tc main_v212) (ix2 (0 : Fin 1) q)
      = W (Proc.devRef .tc main_arg7) (ix2 (3 : Fin 5) q) := by
  after_results_simp
  exact Cert.Spec.rowSlice_apply 3 _ _ _ _ (3 : Fin 5) rfl (0 : Fin 1) q

set_option maxHeartbeats 4000000 in
/-- The scale row is row 3 of its stack. -/
theorem hnorm3_gamma (q : Fin 32) : StableHlo.after (hostOps11 (F := Ideal)) W (Proc.devRef .tc main_v213) (ix2 (0 : Fin 1) q)
      = W (Proc.devRef .tc main_arg8) (ix2 (3 : Fin 5) q) := by
  after_results_simp
  exact Cert.Spec.rowSlice_apply 3 _ _ _ _ (3 : Fin 5) rfl (0 : Fin 1) q

set_option maxHeartbeats 4000000 in
/-- The offset row is row 3 of its stack. -/
theorem hnorm3_beta (q : Fin 32) : StableHlo.after (hostOps11 (F := Ideal)) W (Proc.devRef .tc main_v214) (ix2 (0 : Fin 1) q)
      = W (Proc.devRef .tc main_arg9) (ix2 (3 : Fin 5) q) := by
  after_results_simp
  exact Cert.Spec.rowSlice_apply 3 _ _ _ _ (3 : Fin 5) rfl (0 : Fin 1) q

end Cert.KernelIdeal.Hand

end
-- ==== Proof.KI.Mlp9Value.lean ====
/-
  The value the multilayer-perceptron region of pipeline 9 leaves in its output array, over the extended reals:
  every row p of the output is  max(x_p · W₁ + b₁, 0) · W₂ + b₂  of row p of the input, the two products read as
  sums over the contracted index.  Grid point t handles rows 5000·t … 5000·t + 4999, and the twenty points cover
  the 100000 rows.
-/
import proofs.«114689_j15281493639468_1_alg».proof.Proof.KI.Mlp9
import proofs.«114689_j15281493639468_1_alg».proof.Proof.Spec
import proofs.«114689_j15281493639468_1_alg».proof.Proof.Lib.LibDenseRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payload at an index -/

/-- At row p and column q of a block the stored value is the two-layer perceptron of row p: rounding to a
    narrower format is the identity on the extended reals, each product into a zero accumulator is the sum over
    the contracted index, and the clamp is against the extended real 0. -/
theorem k9_pay1_apply (x0 : Vec Ideal S5000x32 .f32) (x1 : Vec Ideal S32x32 .f32) (x2 : Vec Ideal S1x32 .f32)
    (x3 : Vec Ideal S32x32 .f32) (x4 : Vec Ideal S1x32 .f32) (p : Fin 5000) (q : Fin 32) :
    k9_pay1 (F := Ideal) x0 x1 x2 x3 x4 (ix2 p q)
      = (∑ k : Fin 32, max ((∑ j : Fin 32, x0 (ix2 p j) * x1 (ix2 j k)) + x2 (ix2 (0 : Fin 1) k)) 0 * x3 (ix2 k q))
          + x4 (ix2 (0 : Fin 1) q) := by
  unfold k9_pay1
  simp only [shapeCast_self]
  refine (DenseRows.matmul_bias_apply (m := 5000) (k := 32) (n := 32) none _ _ x4 _ p q).trans ?_
  show (∑ c : Fin 32, _ * x3 (ix2 c q)) + x4 (ix2 (0 : Fin 1) q) = _
  refine congrArg (· + x4 (ix2 (0 : Fin 1) q)) (Finset.sum_congr rfl fun k _ => ?_)
  refine congrArg (· * x3 (ix2 k q)) ?_
  refine (DenseRows.clamped_matmul_bias_apply (m := 5000) (k := 32) (n := 32) none _ _ x2 _ p k).trans ?_
  show max ((∑ c : Fin 32, x0 (ix2 p c) * x1 (ix2 c k)) + x2 (ix2 (0 : Fin 1) k)) (Ideal.ofBits .f32 0x00000000#32) = _
  rw [Ideal.ofBits_zero_f32]

/-! ## From blocks to the array -/

variable (V : (c : Dev nD) → (b : Ref sig .tc) → Buf (Elt Ideal) ((c : Thread nD τ).loc b))

theorem hz9 : (![0, 0] : Fin 2 → Nat) = fun _ => 0 := funext fun a => by fin_cases a <;> rfl

/-- The block index maps over the twenty grid points: the input and output row blocks move with the point,
    the weights and biases stay at their one block. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The five arrays the region reads, as the region finds them, entry by entry. -/
def inRows9 (c : Dev nD) : Fin 100000 → Fin 32 → EReal := fun p j => V c (Pipeline.arrRef spec9 0) (ix2 p j)
def wOne9 (c : Dev nD) : Fin 32 → Fin 32 → EReal := fun j k => V c (Pipeline.arrRef spec9 1) (ix2 j k)
def bOne9 (c : Dev nD) : Fin 32 → EReal := fun k => V c (Pipeline.arrRef spec9 2) (ix2 0 k)
def wTwo9 (c : Dev nD) : Fin 32 → Fin 32 → EReal := fun k q => V c (Pipeline.arrRef spec9 3) (ix2 k q)
def bTwo9 (c : Dev nD) : Fin 32 → EReal := fun q => V c (Pipeline.arrRef spec9 4) (ix2 0 q)

/-- The whole output array as one function of those five. -/
def G9 (c : Dev nD) : S100000x32.Idx → EReal := fun i =>
  Cert.Spec.dense (inRows9 V c) (wOne9 V c) (bOne9 V c) (wTwo9 V c) (bTwo9 V c) (i 0) (i 1)

/-- The input block at point t is rows 5000·t … 5000·t + 4999 of the input array. -/
theorem iblk9_0_apply (c : Dev nD) (t : Fin cfg9.N) (p : Fin 5000) (j : Fin 32) (r : Fin 100000)
    (hr : r.val = t.val * 5000 + p.val) :
    (iblk9 V c 0 t : Vec Ideal S5000x32 .f32) (ix2 p j) = inRows9 V c r j := by
  obtain ⟨h00, h01, -⟩ := idx9 t
  unfold iblk9 inRows9
  rw [View.read_apply]
  show V c (Pipeline.arrRef spec9 0) _ = V c (Pipeline.arrRef spec9 0) _
  refine congrArg (V c (Pipeline.arrRef spec9 0)) ?_
  funext ax; apply Fin.ext
  match ax with
  | ⟨0, _⟩ => show win9_0.index t (0 : Fin 2) * 5000 + 1 * p.val = r.val; rw [h00, hr]; omega
  | ⟨1, _⟩ => show win9_0.index t (1 : Fin 2) * 32 + 1 * j.val = j.val; rw [h01]; omega

/-- Window 1's block is its whole array at every point. -/
theorem iblk9_1_apply (c : Dev nD) (t : Fin cfg9.N) (j : Fin 32) (k : Fin 32) :
    (iblk9 V c 1 t : Vec Ideal S32x32 .f32) (ix2 j k) = wOne9 V c j k := by
  obtain ⟨-, -, h10, h11, h20, h21, h30, h31, h40, h41, -, -⟩ := idx9 t
  unfold iblk9 wOne9
  rw [View.read_apply]
  show V c (Pipeline.arrRef spec9 1) _ = V c (Pipeline.arrRef spec9 1) _
  refine congrArg (V c (Pipeline.arrRef spec9 1)) ?_
  funext ax; apply Fin.ext
  match ax with
  | ⟨0, _⟩ => show win9_1.index t (0 : Fin 2) * 32 + 1 * (ix2 j k 0).val = (ix2 j k 0).val; rw [h10]; omega
  | ⟨1, _⟩ => show win9_1.index t (1 : Fin 2) * 32 + 1 * (ix2 j k 1).val = (ix2 j k 1).val; rw [h11]; omega

/-- Window 2's block is its whole array at every point. -/
theorem iblk9_2_apply (c : Dev nD) (t : Fin cfg9.N) (k : Fin 32) :
    (iblk9 V c 2 t : Vec Ideal S1x32 .f32) (ix2 (0 : Fin 1) k) = bOne9 V c k := by
  obtain ⟨-, -, h10, h11, h20, h21, h30, h31, h40, h41, -, -⟩ := idx9 t
  unfold iblk9 bOne9
  rw [View.read_apply]
  show V c (Pipeline.arrRef spec9 2) _ = V c (Pipeline.arrRef spec9 2) _
  refine congrArg (V c (Pipeline.arrRef spec9 2)) ?_
  funext ax; apply Fin.ext
  match ax with
  | ⟨0, _⟩ => show win9_2.index t (0 : Fin 2) * 1 + 1 * (ix2 (0 : Fin 1) k 0).val = (ix2 (0 : Fin 1) k 0).val; rw [h20]; omega
  | ⟨1, _⟩ => show win9_2.index t (1 : Fin 2) * 32 + 1 * (ix2 (0 : Fin 1) k 1).val = (ix2 (0 : Fin 1) k 1).val; rw [h21]; omega

/-- Window 3's block is its whole array at every point. -/
theorem iblk9_3_apply (c : Dev nD) (t : Fin cfg9.N) (k : Fin 32) (q : Fin 32) :
    (iblk9 V c 3 t : Vec Ideal S32x32 .f32) (ix2 k q) = wTwo9 V c k q := by
  obtain ⟨-, -, h10, h11, h20, h21, h30, h31, h40, h41, -, -⟩ := idx9 t
  unfold iblk9 wTwo9
  rw [View.read_apply]
  show V c (Pipeline.arrRef spec9 3) _ = V c (Pipeline.arrRef spec9 3) _
  refine congrArg (V c (Pipeline.arrRef spec9 3)) ?_
  funext ax; apply Fin.ext
  match ax with
  | ⟨0, _⟩ => show win9_3.index t (0 : Fin 2) * 32 + 1 * (ix2 k q 0).val = (ix2 k q 0).val; rw [h30]; omega
  | ⟨1, _⟩ => show win9_3.index t (1 : Fin 2) * 32 + 1 * (ix2 k q 1).val = (ix2 k q 1).val; rw [h31]; omega

/-- Window 4's block is its whole array at every point. -/
theorem iblk9_4_apply (c : Dev nD) (t : Fin cfg9.N) (q : Fin 32) :
    (iblk9 V c 4 t : Vec Ideal S1x32 .f32) (ix2 (0 : Fin 1) q) = bTwo9 V c q := by
  obtain ⟨-, -, h10, h11, h20, h21, h30, h31, h40, h41, -, -⟩ := idx9 t
  unfold iblk9 bTwo9
  rw [View.read_apply]
  show V c (Pipeline.arrRef spec9 4) _ = V c (Pipeline.arrRef spec9 4) _
  refine congrArg (V c (Pipeline.arrRef spec9 4)) ?_
  funext ax; apply Fin.ext
  match ax with
  | ⟨0, _⟩ => show win9_4.index t (0 : Fin 2) * 1 + 1 * (ix2 (0 : Fin 1) q 0).val = (ix2 (0 : Fin 1) q 0).val; rw [h40]; omega
  | ⟨1, _⟩ => show win9_4.index t (1 : Fin 2) * 32 + 1 * (ix2 (0 : Fin 1) q 1).val = (ix2 (0 : Fin 1) q 1).val; rw [h41]; omega

set_option maxHeartbeats 1000000 in
/-- What point t writes back is block t of `G9`. -/
theorem flushed9_5_eq (c : Dev nD) (t : Fin cfg9.N) :
    (dat9 V c).flushed 5 t = ((cfg9.win 5).blk t).view.read (Elt Ideal) (G9 V c) := by
  have hN : cfg9.N = 20 := N_9
  obtain ⟨-, -, -, -, -, -, -, -, -, -, h50, h51⟩ := idx9 t
  show (cfg9.win 5).cut (grid9.coords t) ((dat9 V c).after 5 t) = _
  rw [after9_5]
  unfold out9_5
  rw [View.canon_unit_zero hz9]
  simp only [View.ld_unit_zero (S := S5000x32) hz9, View.ld_unit_zero (S := S32x32) hz9, View.ld_unit_zero (S := S1x32) hz9,
    View.ld_unit_zero (S := S32x32) hz9]
  funext y
  obtain ⟨p, q, rfl⟩ : ∃ (p : Fin 5000) (q : Fin 32), y = ix2 p q := ⟨y 0, y 1, eq_ix2 y⟩
  have hp : p.val < 5000 := p.isLt
  have ht : t.val < 20 := hN ▸ t.isLt
  have hemb : ((cfg9.win 5).blk t).view.emb (ix2 p q) = (ix2 (⟨t.val * 5000 + p.val, by omega⟩ : Fin 100000) q : S100000x32.Idx) := by
    funext ax; apply Fin.ext
    match ax with
    | ⟨0, _⟩ => show win9_5.index t (0 : Fin 2) * 5000 + 1 * p.val = t.val * 5000 + p.val; rw [h50]; omega
    | ⟨1, _⟩ => show win9_5.index t (1 : Fin 2) * 32 + 1 * q.val = q.val; rw [h51]; omega
  show k9_pay1 (F := Ideal) (iblk9 V c 0 t) (iblk9 V c 1 t) (iblk9 V c 2 t) (iblk9 V c 3 t) (iblk9 V c 4 t) (ix2 p q)
    = G9 V c (((cfg9.win 5).blk t).view.emb (ix2 p q))
  rw [hemb]
  refine (k9_pay1_apply (iblk9 V c 0 t) (iblk9 V c 1 t) (iblk9 V c 2 t) (iblk9 V c 3 t) (iblk9 V c 4 t) p q).trans ?_
  show _ = Cert.Spec.dense (inRows9 V c) (wOne9 V c) (bOne9 V c) (wTwo9 V c) (bTwo9 V c) (⟨t.val * 5000 + p.val, by omega⟩ : Fin 100000) q
  unfold Cert.Spec.dense
  simp only [iblk9_0_apply V c t p _ (⟨t.val * 5000 + p.val, by omega⟩ : Fin 100000) rfl, iblk9_1_apply V c t, iblk9_2_apply V c t, iblk9_3_apply V c t, iblk9_4_apply V c t]

/-- Every row of the output array is in the block of the point its row number divided by 5000 names. -/
theorem covered9_5 (i : S100000x32.Idx) :
    ∃ t : Fin cfg9.N, (cfg9.win 5).flush t = true ∧ i ∈ ((cfg9.win 5).blk t).view.set := by
  have hN : cfg9.N = 20 := N_9
  have hi0 : (i 0).val < 100000 := (i 0).isLt
  have hi1 : (i 1).val < 32 := (i 1).isLt
  have ht : (i 0).val / 5000 < cfg9.N := by rw [hN]; omega
  obtain ⟨-, -, -, -, -, -, -, -, -, -, h50, h51⟩ := idx9 ⟨(i 0).val / 5000, ht⟩
  have h50' : win9_5.index ⟨(i 0).val / 5000, ht⟩ (0 : Fin 2) = (i 0).val / 5000 := h50
  refine ⟨⟨(i 0).val / 5000, ht⟩, flush9_5 _, ?_⟩
  show i ∈ ((View.whole main_v182).slice (win9_5.rect ⟨(i 0).val / 5000, ht⟩)).set
  rw [View.set_slice_whole, Rect.mem_set_unit]
  intro ax
  match ax with
  | ⟨0, _⟩ =>
    show win9_5.index ⟨(i 0).val / 5000, ht⟩ (0 : Fin 2) * 5000 ≤ (i 0).val
      ∧ (i 0).val < win9_5.index ⟨(i 0).val / 5000, ht⟩ (0 : Fin 2) * 5000 + 5000
    rw [h50']; omega
  | ⟨1, _⟩ =>
    show win9_5.index ⟨(i 0).val / 5000, ht⟩ (1 : Fin 2) * 32 ≤ (i 1).val
      ∧ (i 1).val < win9_5.index ⟨(i 0).val / 5000, ht⟩ (1 : Fin 2) * 32 + 32
    rw [h51]; omega

/-- The output array after the region is `G9`. -/
theorem final9_5 (c : Dev nD) : (dat9 (F := Ideal) V c).arrAt 5 cfg9.N = G9 V c :=
  (dat9 V c).arrAt_eq_of_cover 5 (G9 V c) (fun t _ => flushed9_5_eq V c t) (covered9_5)

/-- The output array after the region, entry by entry: the two-layer perceptron of the input array's rows. -/
theorem arrAt9_5 (c : Dev nD) (p : Fin 100000) (q : Fin 32) :
    (dat9 (F := Ideal) V c).arrAt 5 cfg9.N (ValueIdx.ix2 p q)
      = Cert.Spec.dense (fun p j => V c (Pipeline.arrRef spec9 0) (ValueIdx.ix2 p j)) (fun j k => V c (Pipeline.arrRef spec9 1) (ValueIdx.ix2 j k))
          (fun k => V c (Pipeline.arrRef spec9 2) (ValueIdx.ix2 0 k)) (fun k q => V c (Pipeline.arrRef spec9 3) (ValueIdx.ix2 k q))
          (fun q => V c (Pipeline.arrRef spec9 4) (ValueIdx.ix2 0 q)) p q := by
  rw [final9_5]; rfl

end Cert.KernelIdeal.Hand

end
-- ==== Proof.KI.Stats10Value.lean ====
import proofs.«114689_j15281493639468_1_alg».proof.Proof.KI.Stats10
import proofs.«114689_j15281493639468_1_alg».proof.Proof.KI.StatsValueLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! # What the statistics kernel of pipeline 10 leaves in its two result rows, over the extended reals -/

/-! ## The payloads at an index -/

/-- The column sums of a [5000,32] block, as the kernel takes them (a reduction over the row axis from the zero
    pattern), read at a column: the sum over the 5000 rows. -/
theorem colsum10_apply (src : FVec Ideal S5000x32 .f32) (h : S5000x32.Reduces [0] S32) (hφ : FKind.Formats .f32)
    (hacc : (0x00000000#32 : BitVec 32) = 0x00000000#32) (q : Fin 32) :
    multiReduction .add [0] S32 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a
  match a with
  | ⟨0, _⟩ => rfl
  | ⟨1, _⟩ => rfl

theorem k10_pay1_apply (q : Fin 32) : k10_pay1 (F := Ideal) (ix2 (0 : Fin 1) q) = 0 := by
  unfold k10_pay1
  rw [shapeCast_self]
  exact Ideal.ofBits_zero_f32

theorem k10_pay2_apply (q : Fin 32) : k10_pay2 (F := Ideal) (ix2 (0 : Fin 1) q) = 0 := by
  unfold k10_pay2
  rw [shapeCast_self]
  exact Ideal.ofBits_zero_f32

/-- The block shifted by the bias row. -/
theorem k10_pay3_apply (x0 : Vec Ideal S5000x32 .f32) (x1 : Vec Ideal S1x32 .f32) (r : Fin 5000) (q : Fin 32) :
    k10_pay3 x0 x1 (ix2 r q) = x0 (ix2 r q) + x1 (ix2 (0 : Fin 1) q) := by
  unfold k10_pay3
  rw [addf_apply, shapeCast_self, broadcastTo_1b_ab_apply, shapeCast_self]

/-- The sum row after a point: what it held plus the column sums of the shifted block. -/
theorem k10_pay4_apply (x0 : Vec Ideal S5000x32 .f32) (x1 s : Vec Ideal S1x32 .f32) (q : Fin 32) :
    k10_pay4 x0 x1 s (ix2 (0 : Fin 1) q) = s (ix2 (0 : Fin 1) q) + ∑ r : Fin 5000, (x0 (ix2 r q) + x1 (ix2 (0 : Fin 1) q)) := by
  unfold k10_pay4
  rw [shapeCast_self, addf_apply, shapeCast_a_1a_apply]
  refine congrArg (s (ix2 (0 : Fin 1) q) + ·) ?_
  refine (colsum10_apply _ _ _ _ q).trans ?_
  exact Finset.sum_congr rfl fun r _ => k10_pay3_apply x0 x1 r q

/-- The sum-of-squares row after a point: what it held plus the column sums of the square of the shifted block. -/
theorem k10_pay5_apply (x0 : Vec Ideal S5000x32 .f32) (x1 s : Vec Ideal S1x32 .f32) (q : Fin 32) :
    k10_pay5 x0 x1 s (ix2 (0 : Fin 1) q)
      = s (ix2 (0 : Fin 1) q) + ∑ r : Fin 5000, (x0 (ix2 r q) + x1 (ix2 (0 : Fin 1) q)) * (x0 (ix2 r q) + x1 (ix2 (0 : Fin 1) q)) := by
  unfold k10_pay5
  rw [shapeCast_self, addf_apply, shapeCast_a_1a_apply]
  refine congrArg (s (ix2 (0 : Fin 1) q) + ·) ?_
  refine (colsum10_apply _ _ _ _ q).trans ?_
  exact Finset.sum_congr rfl fun r _ => by rw [mulf_apply, k10_pay3_apply]

/-! ## The blocks, read at an index -/

/-- Window 0's block index at point `t` is (t, 0); window 1's is (0, 0). -/
theorem index10_0 : ∀ t : Fin cfg10.N, win10_0.index t 0 = t.val ∧ win10_0.index t 1 = 0 := by decide +kernel
theorem index10_1 : ∀ t : Fin cfg10.N, win10_1.index t 0 = 0 ∧ win10_1.index t 1 = 0 := by decide +kernel

/-- Row `r` of block `t` is row `5000 t + r` of the array. -/
theorem iblk10_0_apply (c : Dev nD) (t : Fin cfg10.N) (r : Fin 5000) (q : Fin 32) (h : 5000 * t.val + r.val < 100000) :
    (iblk10 V c 0 t : Vec Ideal S5000x32 .f32) (ix2 r q) = V c (Pipeline.arrRef spec10 0) (ix2 ⟨5000 * t.val + r.val, h⟩ q) := by
  have hi := index10_0 t
  unfold iblk10
  rw [View.read_apply]
  show V c (Pipeline.arrRef spec10 0) _ = V c (Pipeline.arrRef spec10 0) _
  congr 1
  funext a
  apply Fin.ext
  match a with
  | ⟨0, _⟩ => show win10_0.index t 0 * 5000 + 1 * r.val = 5000 * t.val + r.val; rw [hi.1]; omega
  | ⟨1, _⟩ => show win10_0.index t 1 * 32 + 1 * q.val = q.val; rw [hi.2]; omega

/-- The bias row's block is the bias row at every point. -/
theorem iblk10_1_apply (c : Dev nD) (t : Fin cfg10.N) (q : Fin 32) :
    (iblk10 V c 1 t : Vec Ideal S1x32 .f32) (ix2 (0 : Fin 1) q) = V c (Pipeline.arrRef spec10 1) (ix2 (0 : Fin 1) q) := by
  have hi := index10_1 t
  unfold iblk10
  rw [View.read_apply]
  show V c (Pipeline.arrRef spec10 1) _ = V c (Pipeline.arrRef spec10 1) _
  congr 1
  funext a
  apply Fin.ext
  match a with
  | ⟨0, _⟩ => show win10_1.index t 0 * 1 + 1 * 0 = 0; rw [hi.1]
  | ⟨1, _⟩ => show win10_1.index t 1 * 32 + 1 * q.val = q.val; rw [hi.2]; omega

/-! ## The accumulation, read at a column -/

/-- The aggregated array and the bias row as the region finds them, as functions of their coordinates. -/
abbrev accv10_A (c : Dev nD) : Fin 100000 → Fin 32 → EReal := fun p q => V c (Pipeline.arrRef spec10 0) (ix2 p q)
abbrev accv10_b (c : Dev nD) : Fin 32 → EReal := fun q => V c (Pipeline.arrRef spec10 1) (ix2 (0 : Fin 1) q)

/-- Row `p` of the shifted array at column `q` (zero past the array, where nothing is summed). -/
def accv10_term (c : Dev nD) (q : Fin 32) (p : ℕ) : EReal :=
  if h : p < 100000 then accv10_A V c ⟨p, h⟩ q + accv10_b V c q else 0

/-- After `n` points the sum row holds the column sums of the first `5000 n` rows of the shifted array: by induction on
    the point, each point adding its block's rows. -/
theorem accv10_fst (c : Dev nD) (q : Fin 32) : ∀ n, n ≤ 20 →
    (acc10 V c n).1 (ix2 (0 : Fin 1) q) = ∑ p ∈ Finset.range (5000 * n), accv10_term V c q p
  | 0, _ => by
    rw [acc10_zero]
    exact (k10_pay1_apply q).trans (by simp)
  | n + 1, hn => by
    have hN : cfg10.N = 20 := N_10
    have hlt : n < cfg10.N := by omega
    have hs : acc10 V c (n + 1) = _ := acc10_succ V c ⟨n, hlt⟩
    rw [hs]
    show k10_pay4 _ _ _ _ = _
    rw [k10_pay4_apply, accv10_fst c q n (by omega), stats_sum_range_block]
    refine congrArg _ (Finset.sum_congr rfl fun r _ => ?_)
    have hr := r.isLt
    have h : 5000 * n + r.val < 100000 := by omega
    rw [iblk10_0_apply V c ⟨n, hlt⟩ r q h, iblk10_1_apply V c ⟨n, hlt⟩ q]
    unfold accv10_term; rw [dif_pos h]; try rfl

/-- The same for the sum-of-squares row. -/
theorem accv10_snd (c : Dev nD) (q : Fin 32) : ∀ n, n ≤ 20 →
    (acc10 V c n).2 (ix2 (0 : Fin 1) q) = ∑ p ∈ Finset.range (5000 * n), accv10_term V c q p * accv10_term V c q p
  | 0, _ => by
    rw [acc10_zero]
    exact (k10_pay2_apply q).trans (by simp)
  | n + 1, hn => by
    have hN : cfg10.N = 20 := N_10
    have hlt : n < cfg10.N := by omega
    have hs : acc10 V c (n + 1) = _ := acc10_succ V c ⟨n, hlt⟩
    rw [hs]
    show k10_pay5 _ _ _ _ = _
    rw [k10_pay5_apply, accv10_snd c q n (by omega), stats_sum_range_block (fun p => accv10_term V c q p * accv10_term V c q p)]
    refine congrArg _ (Finset.sum_congr rfl fun r _ => ?_)
    have hr := r.isLt
    have h : 5000 * n + r.val < 100000 := by omega
    rw [iblk10_0_apply V c ⟨n, hlt⟩ r q h, iblk10_1_apply V c ⟨n, hlt⟩ q]
    unfold accv10_term; rw [dif_pos h]; try rfl

/-- After the last point: the column sums of the whole shifted array, and of its square. -/
theorem accv10_fst_final (c : Dev nD) (q : Fin 32) :
    (acc10 V c 20).1 (ix2 (0 : Fin 1) q)
      = Cert.Spec.colSum (fun p q => V c (Pipeline.arrRef spec10 0) (ix2 p q)) (fun q => V c (Pipeline.arrRef spec10 1) (ix2 (0 : Fin 1) q)) q := by
  rw [accv10_fst V c q 20 le_rfl, show (5000 * 20 : ℕ) = 100000 from by norm_num]
  unfold Cert.Spec.colSum Cert.Spec.shift
  rw [stats_sum_fin_eq_range]
  refine Finset.sum_congr rfl fun p _ => ?_
  unfold accv10_term
  by_cases h : p < 100000
  · rw [dif_pos h]
  · rw [dif_neg h]

theorem accv10_snd_final (c : Dev nD) (q : Fin 32) :
    (acc10 V c 20).2 (ix2 (0 : Fin 1) q)
      = Cert.Spec.colSumSq (fun p q => V c (Pipeline.arrRef spec10 0) (ix2 p q)) (fun q => V c (Pipeline.arrRef spec10 1) (ix2 (0 : Fin 1) q)) q := by
  rw [accv10_snd V c q 20 le_rfl, show (5000 * 20 : ℕ) = 100000 from by norm_num]
  unfold Cert.Spec.colSumSq Cert.Spec.shift
  rw [stats_sum_fin_eq_range]
  refine Finset.sum_congr rfl fun p _ => ?_
  unfold accv10_term
  by_cases h : p < 100000
  · rw [dif_pos h, dif_pos h]
  · rw [dif_neg h, dif_neg h, mul_zero]

/-! ## The result rows after the run -/

/-- The last point, the one that writes the result rows back. -/
abbrev t10_last : Fin cfg10.N := ⟨19, by rw [show cfg10.N = 20 from N_10]; omega⟩

/-- The result rows as array contents: the scratch rows after the last point (each row's one block is the array). -/
abbrev result10_2 (c : Dev nD) : Buf (Elt Ideal) ((cfg10.win 2).arr.view.loc (c.tc : Thread nD τ)) := (acc10 V c 20).1
abbrev result10_3 (c : Dev nD) : Buf (Elt Ideal) ((cfg10.win 3).arr.view.loc (c.tc : Thread nD τ)) := (acc10 V c 20).2

/-- The one write-back of window 2, at the last point, writes the sum row: its block, read through zero offsets, is the array. -/
theorem flushed_eq10_2 (c : Dev nD) (t : Fin cfg10.N) (hf : (cfg10.win 2).flush t = true) :
    (dat10 V c).flushed 2 t = ((cfg10.win 2).blk t).view.read (Elt Ideal) (result10_2 V c) := by
  have hN : cfg10.N = 20 := N_10
  have h19 : t.val = 19 := by have := (flush10_2 t).mp hf; have := t.isLt; omega
  obtain rfl : t = t10_last := Fin.ext h19
  show (cfg10.win 2).cut (grid10.coords t10_last) ((dat10 V c).after 2 t10_last) = _
  rw [after10_2]
  have hz' : (fun a => win10_2.index t10_last a * (Pipeline.arrRef spec10 2).ty.shape.size a) = fun _ => 0 :=
    funext fun a => by fin_cases a <;> decide
  exact (Memref.read_access_unit_zero (Elt Ideal) (Pipeline.arrRef spec10 2) hz' (fun a => by rw [congrFun hz' a]; simp) (result10_2 V c)).symm

theorem flushed_eq10_3 (c : Dev nD) (t : Fin cfg10.N) (hf : (cfg10.win 3).flush t = true) :
    (dat10 V c).flushed 3 t = ((cfg10.win 3).blk t).view.read (Elt Ideal) (result10_3 V c) := by
  have hN : cfg10.N = 20 := N_10
  have h19 : t.val = 19 := by have := (flush10_3 t).mp hf; have := t.isLt; omega
  obtain rfl : t = t10_last := Fin.ext h19
  show (cfg10.win 3).cut (grid10.coords t10_last) ((dat10 V c).after 3 t10_last) = _
  rw [after10_3]
  have hz' : (fun a => win10_3.index t10_last a * (Pipeline.arrRef spec10 3).ty.shape.size a) = fun _ => 0 :=
    funext fun a => by fin_cases a <;> decide
  exact (Memref.read_access_unit_zero (Elt Ideal) (Pipeline.arrRef spec10 3) hz' (fun a => by rw [congrFun hz' a]; simp) (result10_3 V c)).symm

/-- So each result array ends holding its scratch row after the last point (that point's block covers it). -/
theorem final10_2 (c : Dev nD) : (dat10 V c).arrAt 2 cfg10.N = result10_2 V c :=
  (dat10 V c).arrAt_eq_of_cover 2 (result10_2 V c) (flushed_eq10_2 V c) fun i =>
    ⟨t10_last, (flush10_2 t10_last).mpr rfl, by
      show i ∈ ((View.whole (Pipeline.arrRef spec10 2)).slice (win10_2.rect t10_last)).set
      rw [View.set_slice_whole, Rect.mem_set_unit]
      intro a
      have h0 : (i 0 : Nat) < 1 := (i 0).isLt
      have h1 : (i 1 : Nat) < 32 := (i 1).isLt
      match a with
      | ⟨0, _⟩ => show win10_2.index t10_last 0 * win10_2.size 0 ≤ (i 0 : Nat) ∧ (i 0 : Nat) < win10_2.index t10_last 0 * win10_2.size 0 + win10_2.xsize (grid10.coords t10_last) 0
                  rw [show win10_2.index t10_last 0 * win10_2.size 0 = 0 from by decide +kernel, show win10_2.xsize (grid10.coords t10_last) 0 = 1 from by decide +kernel]; omega
      | ⟨1, _⟩ => show win10_2.index t10_last 1 * win10_2.size 1 ≤ (i 1 : Nat) ∧ (i 1 : Nat) < win10_2.index t10_last 1 * win10_2.size 1 + win10_2.xsize (grid10.coords t10_last) 1
                  rw [show win10_2.index t10_last 1 * win10_2.size 1 = 0 from by decide +kernel, show win10_2.xsize (grid10.coords t10_last) 1 = 32 from by decide +kernel]; omega⟩

theorem final10_3 (c : Dev nD) : (dat10 V c).arrAt 3 cfg10.N = result10_3 V c :=
  (dat10 V c).arrAt_eq_of_cover 3 (result10_3 V c) (flushed_eq10_3 V c) fun i =>
    ⟨t10_last, (flush10_3 t10_last).mpr rfl, by
      show i ∈ ((View.whole (Pipeline.arrRef spec10 3)).slice (win10_3.rect t10_last)).set
      rw [View.set_slice_whole, Rect.mem_set_unit]
      intro a
      have h0 : (i 0 : Nat) < 1 := (i 0).isLt
      have h1 : (i 1 : Nat) < 32 := (i 1).isLt
      match a with
      | ⟨0, _⟩ => show win10_3.index t10_last 0 * win10_3.size 0 ≤ (i 0 : Nat) ∧ (i 0 : Nat) < win10_3.index t10_last 0 * win10_3.size 0 + win10_3.xsize (grid10.coords t10_last) 0
                  rw [show win10_3.index t10_last 0 * win10_3.size 0 = 0 from by decide +kernel, show win10_3.xsize (grid10.coords t10_last) 0 = 1 from by decide +kernel]; omega
      | ⟨1, _⟩ => show win10_3.index t10_last 1 * win10_3.size 1 ≤ (i 1 : Nat) ∧ (i 1 : Nat) < win10_3.index t10_last 1 * win10_3.size 1 + win10_3.xsize (grid10.coords t10_last) 1
                  rw [show win10_3.index t10_last 1 * win10_3.size 1 = 0 from by decide +kernel, show win10_3.xsize (grid10.coords t10_last) 1 = 32 from by decide +kernel]; omega⟩

/-- THE VALUES: after the run, window 2's array is the column sums of the array shifted by the bias row, and window 3's
    the column sums of its square, over all 100000 rows. -/
theorem arrAt10_2 (c : Dev nD) (q : Fin 32) :
    (dat10 (F := Ideal) V c).arrAt 2 cfg10.N (ix2 (0 : Fin 1) q)
      = Cert.Spec.colSum (fun p q => V c (Pipeline.arrRef spec10 0) (ix2 p q)) (fun q => V c (Pipeline.arrRef spec10 1) (ix2 (0 : Fin 1) q)) q := by
  rw [final10_2]
  exact accv10_fst_final V c q

theorem arrAt10_3 (c : Dev nD) (q : Fin 32) :
    (dat10 (F := Ideal) V c).arrAt 3 cfg10.N (ix2 (0 : Fin 1) q)
      = Cert.Spec.colSumSq (fun p q => V c (Pipeline.arrRef spec10 0) (ix2 p q)) (fun q => V c (Pipeline.arrRef spec10 1) (ix2 (0 : Fin 1) q)) q := by
  rw [final10_3]
  exact accv10_snd_final V c q

end Cert.KernelIdeal.Hand
end
-- ==== Proof.KI.Norm11Value.lean ====
import proofs.«114689_j15281493639468_1_alg».proof.Proof.KI.Norm11
import proofs.«114689_j15281493639468_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«114689_j15281493639468_1_alg».proof.Proof.KI.NormLib
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-!
# What the normalisation region of pipeline 11 leaves in its output array

Every entry `(p, q)` of the output array is written by the grid point `p / 5000`, and what is written there is
`(A p q + bias q − mean q) · rsqrt (var q + ε) · γ q + β q`, clamped at 0, where `A` is the aggregated array and the five rows
are the one-row arrays as the region finds them.
-/

variable (V : (c : Dev nD) → (b : Ref sig .tc) → Buf (Elt Ideal) ((c : Thread nD τ).loc b))

/-- The arrays the seven windows stage, by name. -/
theorem arrRef11_0 : Pipeline.arrRef spec11 0 = main_v195 := rfl
theorem arrRef11_1 : Pipeline.arrRef spec11 1 = main_v212 := rfl
theorem arrRef11_2 : Pipeline.arrRef spec11 2 = main_v201 := rfl
theorem arrRef11_3 : Pipeline.arrRef spec11 3 = main_v205 := rfl
theorem arrRef11_4 : Pipeline.arrRef spec11 4 = main_v213 := rfl
theorem arrRef11_5 : Pipeline.arrRef spec11 5 = main_v214 := rfl
theorem arrRef11_6 : Pipeline.arrRef spec11 6 = main_v215 := rfl

/-- The payload of the body's store, read at row `p` and column `q` of the block: the one-row operands are read
    at their only row. -/
theorem k11_pay1_apply (x0 : Vec Ideal S5000x32 .f32) (x1 x2 x3 x4 x5 : Vec Ideal S1x32 .f32) (p : Fin 5000) (q : Fin 32) :
    k11_pay1 x0 x1 x2 x3 x4 x5 (ix2 p q)
      = max ((x0 (ix2 p q) + x1 (ix2 (0 : Fin 1) q) - x2 (ix2 (0 : Fin 1) q)) * Ideal.rsqrt (x3 (ix2 (0 : Fin 1) q) + Cert.Spec.eps) * x4 (ix2 (0 : Fin 1) q) + x5 (ix2 (0 : Fin 1) q)) 0 := by
  unfold k11_pay1
  simp only [shapeCast_self]
  simp only [maximumf_apply, addf_apply, mulf_apply, subf_apply, broadcast_apply, broadcastTo_1b_ab_apply, rsqrt_vec_apply,
    Ideal.ofBits_def, Ideal.ofBits_zero_f32, Cert.Spec.eps]

/-- The output array the region leaves, as one function of the arrays the region finds. -/
def normArr11 (c : Dev nD) : S100000x32.Idx → EReal := fun i =>
  Cert.Spec.normalize true (fun p q => V c main_v195 (ix2 p q))
      (fun q => V c main_v212 (ix2 (0 : Fin 1) q))
      (fun q => V c main_v201 (ix2 (0 : Fin 1) q))
      (fun q => V c main_v205 (ix2 (0 : Fin 1) q))
      (fun q => V c main_v213 (ix2 (0 : Fin 1) q))
      (fun q => V c main_v214 (ix2 (0 : Fin 1) q)) (i 0) (i 1)

/-- The block index maps, decided over the 20 grid points: the aggregated array's and the output's blocks are
    block row `t`; each one-row array is its own only block. -/
theorem idx_facts11 : ∀ t : Fin cfg11.N, t.val < 20
    ∧ win11_0.index t (0 : Fin 2) = t.val ∧ win11_0.index t (1 : Fin 2) = 0
    ∧ win11_6.index t (0 : Fin 2) = t.val ∧ win11_6.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0 :=
  (by decide +kernel : ∀ t : Fin grid11.N, _)

/-- Block row `t` of a 100000-row array, read at `(p, q)`, is the array at row `5000 t + p` (window 0). -/
theorem read_blk11_0 (X : S100000x32.Idx → EReal) (t : Fin cfg11.N) (p : Fin 5000) (q : Fin 32) (h : t.val * 5000 + p.val < 100000) :
    ((cfg11.win 0).blk t).view.read (Elt Ideal) X (ix2 p q) = X (ix2 (⟨t.val * 5000 + p.val, h⟩ : Fin 100000) q) := by
  obtain ⟨ht, e00, e01, e60, e61, -⟩ := idx_facts11 t
  refine congrArg X ?_
  funext a; apply Fin.ext
  match a with
  | ⟨0, _⟩ => show win11_0.index t (0 : Fin 2) * 5000 + 1 * p.val = t.val * 5000 + p.val; omega
  | ⟨1, _⟩ => show win11_0.index t (1 : Fin 2) * 32 + 1 * q.val = q.val; omega
/-- Block row `t` of a 100000-row array, read at `(p, q)`, is the array at row `5000 t + p` (window 6). -/
theorem read_blk11_6 (X : S100000x32.Idx → EReal) (t : Fin cfg11.N) (p : Fin 5000) (q : Fin 32) (h : t.val * 5000 + p.val < 100000) :
    ((cfg11.win 6).blk t).view.read (Elt Ideal) X (ix2 p q) = X (ix2 (⟨t.val * 5000 + p.val, h⟩ : Fin 100000) q) := by
  obtain ⟨ht, e00, e01, e60, e61, -⟩ := idx_facts11 t
  refine congrArg X ?_
  funext a; apply Fin.ext
  match a with
  | ⟨0, _⟩ => show win11_6.index t (0 : Fin 2) * 5000 + 1 * p.val = t.val * 5000 + p.val; omega
  | ⟨1, _⟩ => show win11_6.index t (1 : Fin 2) * 32 + 1 * q.val = q.val; omega
/-- The only block of a one-row array, read at column `q`, is the array's row at `q` (window 1). -/
theorem read_blk11_1 (X : S1x32.Idx → EReal) (t : Fin cfg11.N) (q : Fin 32) :
    ((cfg11.win 1).blk t).view.read (Elt Ideal) X (ix2 (0 : Fin 1) q) = X (ix2 (0 : Fin 1) q) := by
  obtain ⟨ht, e00, e01, e60, e61, e10, e11, e20, e21, e30, e31, e40, e41, e50, e51⟩ := idx_facts11 t
  refine congrArg X ?_
  funext a; apply Fin.ext
  match a with
  | ⟨0, _⟩ => show win11_1.index t (0 : Fin 2) * 1 + 1 * 0 = 0; omega
  | ⟨1, _⟩ => show win11_1.index t (1 : Fin 2) * 32 + 1 * q.val = q.val; omega
/-- The only block of a one-row array, read at column `q`, is the array's row at `q` (window 2). -/
theorem read_blk11_2 (X : S1x32.Idx → EReal) (t : Fin cfg11.N) (q : Fin 32) :
    ((cfg11.win 2).blk t).view.read (Elt Ideal) X (ix2 (0 : Fin 1) q) = X (ix2 (0 : Fin 1) q) := by
  obtain ⟨ht, e00, e01, e60, e61, e10, e11, e20, e21, e30, e31, e40, e41, e50, e51⟩ := idx_facts11 t
  refine congrArg X ?_
  funext a; apply Fin.ext
  match a with
  | ⟨0, _⟩ => show win11_2.index t (0 : Fin 2) * 1 + 1 * 0 = 0; omega
  | ⟨1, _⟩ => show win11_2.index t (1 : Fin 2) * 32 + 1 * q.val = q.val; omega
/-- The only block of a one-row array, read at column `q`, is the array's row at `q` (window 3). -/
theorem read_blk11_3 (X : S1x32.Idx → EReal) (t : Fin cfg11.N) (q : Fin 32) :
    ((cfg11.win 3).blk t).view.read (Elt Ideal) X (ix2 (0 : Fin 1) q) = X (ix2 (0 : Fin 1) q) := by
  obtain ⟨ht, e00, e01, e60, e61, e10, e11, e20, e21, e30, e31, e40, e41, e50, e51⟩ := idx_facts11 t
  refine congrArg X ?_
  funext a; apply Fin.ext
  match a with
  | ⟨0, _⟩ => show win11_3.index t (0 : Fin 2) * 1 + 1 * 0 = 0; omega
  | ⟨1, _⟩ => show win11_3.index t (1 : Fin 2) * 32 + 1 * q.val = q.val; omega
/-- The only block of a one-row array, read at column `q`, is the array's row at `q` (window 4). -/
theorem read_blk11_4 (X : S1x32.Idx → EReal) (t : Fin cfg11.N) (q : Fin 32) :
    ((cfg11.win 4).blk t).view.read (Elt Ideal) X (ix2 (0 : Fin 1) q) = X (ix2 (0 : Fin 1) q) := by
  obtain ⟨ht, e00, e01, e60, e61, e10, e11, e20, e21, e30, e31, e40, e41, e50, e51⟩ := idx_facts11 t
  refine congrArg X ?_
  funext a; apply Fin.ext
  match a with
  | ⟨0, _⟩ => show win11_4.index t (0 : Fin 2) * 1 + 1 * 0 = 0; omega
  | ⟨1, _⟩ => show win11_4.index t (1 : Fin 2) * 32 + 1 * q.val = q.val; omega
/-- The only block of a one-row array, read at column `q`, is the array's row at `q` (window 5). -/
theorem read_blk11_5 (X : S1x32.Idx → EReal) (t : Fin cfg11.N) (q : Fin 32) :
    ((cfg11.win 5).blk t).view.read (Elt Ideal) X (ix2 (0 : Fin 1) q) = X (ix2 (0 : Fin 1) q) := by
  obtain ⟨ht, e00, e01, e60, e61, e10, e11, e20, e21, e30, e31, e40, e41, e50, e51⟩ := idx_facts11 t
  refine congrArg X ?_
  funext a; apply Fin.ext
  match a with
  | ⟨0, _⟩ => show win11_5.index t (0 : Fin 2) * 1 + 1 * 0 = 0; omega
  | ⟨1, _⟩ => show win11_5.index t (1 : Fin 2) * 32 + 1 * q.val = q.val; omega

/-- What grid point `t` writes back is block row `t` of `normArr11`. -/
theorem flushed11_6_eq (c : Dev nD) (t : Fin cfg11.N) :
    (dat11 V c).flushed 6 t = ((cfg11.win 6).blk t).view.read (Elt Ideal) (normArr11 V c) := by
  show (cfg11.win 6).cut (grid11.coords t) ((dat11 V c).after 6 t) = _
  rw [after11_6]
  unfold out11_6
  rw [View.canon_unit_zero off_zero2]
  simp only [View.ld_unit_zero (S := S5000x32) off_zero2, View.ld_unit_zero (S := S1x32) off_zero2]
  have ht : t.val < 20 := (idx_facts11 t).1
  funext j
  obtain ⟨p, q, rfl⟩ : ∃ (p : Fin 5000) (q : Fin 32), j = ix2 p q := ⟨j 0, j 1, eq_ix2 j⟩
  have hp : p.val < 5000 := p.isLt
  have hlt : t.val * 5000 + p.val < 100000 := by omega
  refine (k11_pay1_apply (iblk11 V c 0 t) (iblk11 V c 1 t) (iblk11 V c 2 t) (iblk11 V c 3 t) (iblk11 V c 4 t) (iblk11 V c 5 t) p q).trans ?_
  refine Eq.trans ?_ (read_blk11_6 (normArr11 V c) t p q hlt).symm
  have hb0 : (iblk11 V c 0 t (ix2 p q) : EReal) = V c main_v195 (ix2 (⟨t.val * 5000 + p.val, hlt⟩ : Fin 100000) q) :=
    read_blk11_0 (V c main_v195) t p q hlt
  have hb1 : (iblk11 V c 1 t (ix2 (0 : Fin 1) q) : EReal) = V c main_v212 (ix2 (0 : Fin 1) q) :=
    read_blk11_1 (V c main_v212) t q
  have hb2 : (iblk11 V c 2 t (ix2 (0 : Fin 1) q) : EReal) = V c main_v201 (ix2 (0 : Fin 1) q) :=
    read_blk11_2 (V c main_v201) t q
  have hb3 : (iblk11 V c 3 t (ix2 (0 : Fin 1) q) : EReal) = V c main_v205 (ix2 (0 : Fin 1) q) :=
    read_blk11_3 (V c main_v205) t q
  have hb4 : (iblk11 V c 4 t (ix2 (0 : Fin 1) q) : EReal) = V c main_v213 (ix2 (0 : Fin 1) q) :=
    read_blk11_4 (V c main_v213) t q
  have hb5 : (iblk11 V c 5 t (ix2 (0 : Fin 1) q) : EReal) = V c main_v214 (ix2 (0 : Fin 1) q) :=
    read_blk11_5 (V c main_v214) t q
  rw [hb0, hb1, hb2, hb3, hb4, hb5]
  dsimp only [normArr11, Cert.Spec.normalize, Cert.Spec.shift]
  exact (if_pos rfl).symm

/-- An index of the output array is in point `t`'s block iff each coordinate is in the block's range on its axis. -/
theorem mem_blk11_6 (t : Fin cfg11.N) (i : S100000x32.Idx) :
    i ∈ ((cfg11.win 6).blk t).view.set ↔ ∀ a : Fin 2, win11_6.index t a * S5000x32.size a ≤ (i a).val ∧ (i a).val < win11_6.index t a * S5000x32.size a + S5000x32.size a := by
  show i ∈ ((View.whole main_v215).slice (win11_6.rect t)).set ↔ _
  rw [View.set_slice_whole, Rect.mem_set_unit]
  exact Iff.rfl

/-- Every index of the output array is in the block of the grid point `row / 5000`, which writes it back. -/
theorem cover11_arr (i : S100000x32.Idx) :
    ∃ t : Fin cfg11.N, (cfg11.win 6).flush t = true ∧ i ∈ ((cfg11.win 6).blk t).view.set := by
  have hi0 : (i 0).val < 100000 := (i 0).isLt
  have hi1 : (i 1).val < 32 := (i 1).isLt
  have hN : cfg11.N = 20 := N_11
  let t : Fin cfg11.N := ⟨(i 0).val / 5000, by rw [hN]; omega⟩
  obtain ⟨ht, e00, e01, e60, e61, -⟩ := idx_facts11 t
  have htv : t.val = (i 0).val / 5000 := rfl
  refine ⟨t, flush11_6 t, ?_⟩
  rw [mem_blk11_6]
  intro a
  match a with
  | ⟨0, _⟩ => show win11_6.index t (0 : Fin 2) * 5000 ≤ (i 0).val ∧ (i 0).val < win11_6.index t (0 : Fin 2) * 5000 + 5000; omega
  | ⟨1, _⟩ => show win11_6.index t (1 : Fin 2) * 32 ≤ (i 1).val ∧ (i 1).val < win11_6.index t (1 : Fin 2) * 32 + 32; omega

/-- The output array after the region, entry by entry. -/
theorem arrAt11_6 (c : Dev nD) (p : Fin 100000) (q : Fin 32) :
    (dat11 (F := Ideal) V c).arrAt 6 cfg11.N (ix2 p q)
      = Cert.Spec.normalize true (fun p q => V c main_v195 (ix2 p q))
      (fun q => V c main_v212 (ix2 (0 : Fin 1) q))
      (fun q => V c main_v201 (ix2 (0 : Fin 1) q))
      (fun q => V c main_v205 (ix2 (0 : Fin 1) q))
      (fun q => V c main_v213 (ix2 (0 : Fin 1) q))
      (fun q => V c main_v214 (ix2 (0 : Fin 1) q)) p q :=
  congrFun ((dat11 V c).arrAt_eq_of_cover 6 (normArr11 V c) (fun t _ => flushed11_6_eq V c t) (cover11_arr)) (ix2 p q)

end Cert.KernelIdeal.Hand
-- ==== Proof.KI.ChainL3.lean ====
/-
  Layer 3 of the network as the first program's run leaves it: the perceptron on every row of the layer's input,
  the edge aggregation, the two column sums, the mean and variance rows, and the normalisation, each read off the
  contents of the buffers at the boundary where it is produced and carried unchanged to where it is used.
-/
import proofs.«114689_j15281493639468_1_alg».proof.Proof.KI.Fold
import proofs.«114689_j15281493639468_1_alg».proof.Proof.KI.HostWrites
import proofs.«114689_j15281493639468_1_alg».proof.Proof.KI.ChainHost3
import proofs.«114689_j15281493639468_1_alg».proof.Proof.KI.Mlp9Value
import proofs.«114689_j15281493639468_1_alg».proof.Proof.KI.Stats10Value
import proofs.«114689_j15281493639468_1_alg».proof.Proof.KI.Norm11Value
import proofs.«114689_j15281493639468_1_alg».proof.Proof.SpecNet
import proofs.«114689_j15281493639468_1_alg».proof.Proof.SpecRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's operands, named -/

/-- The layer's input rows. -/
abbrev lay3_H (c : Dev nD) : Fin 100000 → Fin 32 → EReal := Cert.Spec.cur (W23 m c (Proc.devRef .tc main_v171))
/-- Its first weight matrix. -/
abbrev lay3_W1 (c : Dev nD) : Fin 32 → Fin 32 → EReal := Cert.Spec.matOf (m ((c : Thread nD τ).loc main_arg3)) (2 : Fin 4)
abbrev lay3_b1 (c : Dev nD) : Fin 32 → EReal := Cert.Spec.rowOf (m ((c : Thread nD τ).loc main_arg4)) (3 : Fin 5)
abbrev lay3_W2 (c : Dev nD) : Fin 32 → Fin 32 → EReal := Cert.Spec.matOf (m ((c : Thread nD τ).loc main_arg5)) (3 : Fin 5)
abbrev lay3_b2 (c : Dev nD) : Fin 32 → EReal := Cert.Spec.rowOf (m ((c : Thread nD τ).loc main_arg6)) (3 : Fin 5)
abbrev lay3_bias (c : Dev nD) : Fin 32 → EReal := Cert.Spec.rowOf (m ((c : Thread nD τ).loc main_arg7)) (3 : Fin 5)
abbrev lay3_gamma (c : Dev nD) : Fin 32 → EReal := Cert.Spec.rowOf (m ((c : Thread nD τ).loc main_arg8)) (3 : Fin 5)
abbrev lay3_beta (c : Dev nD) : Fin 32 → EReal := Cert.Spec.rowOf (m ((c : Thread nD τ).loc main_arg9)) (3 : Fin 5)
/-- The perceptron's rows. -/
abbrev lay3_Z (c : Dev nD) : Fin 100000 → Fin 32 → EReal :=
  Cert.Spec.dense (lay3_H m c) (lay3_W1 m c) (lay3_b1 m c) (lay3_W2 m c) (lay3_b2 m c)
/-- The aggregated rows. -/
abbrev lay3_A (c : Dev nD) : Fin 100000 → Fin 32 → EReal :=
  Cert.Spec.cur (Cert.Spec.aggArr (W5 m c (Proc.devRef .tc main_v3)) (W5 m c (Proc.devRef .tc main_v6)) (W5 m c (Proc.devRef .tc main_v41))
    (Cert.Spec.uncur (lay3_Z m c)))

/-! ## Buffers nothing writes between where they are produced and where they are read -/

theorem k3_arg3 (c : Dev nD) : W22 m c (Proc.devRef .tc main_arg3) = m ((c : Thread nD τ).loc main_arg3) :=
      (W22_of_ne m c main_arg3 (by decide)).trans <|
      (StableHlo.after_of_writes_sub hostOps8 _ Cert.KernelIdeal.GenP.hostOps8_writes (by decide : main_arg3 ∉ Cert.KernelIdeal.GenP.hostOps8_W)).trans <|
      (W20_of_ne m c main_arg3 (by decide)).trans <|
      (StableHlo.after_of_writes_sub hostOps7 _ Cert.KernelIdeal.GenP.hostOps7_writes (by decide : main_arg3 ∉ Cert.KernelIdeal.GenP.hostOps7_W)).trans <|
      (W18_of_ne m c main_arg3 (by decide)).trans <|
      (StableHlo.after_of_writes_sub hostOps6 _ Cert.KernelIdeal.GenP.hostOps6_writes (by decide : main_arg3 ∉ Cert.KernelIdeal.GenP.hostOps6_W)).trans <|
      (W16_of_ne m c main_arg3 (by decide)).trans <|
      (StableHlo.after_of_writes_sub hostOps5 _ Cert.KernelIdeal.GenP.hostOps5_writes (by decide : main_arg3 ∉ Cert.KernelIdeal.GenP.hostOps5_W)).trans <|
      (W14_of_ne m c main_arg3 (by decide)).trans <|
      (StableHlo.after_of_writes_sub hostOps4 _ Cert.KernelIdeal.GenP.hostOps4_writes (by decide : main_arg3 ∉ Cert.KernelIdeal.GenP.hostOps4_W)).trans <|
      (W12_of_ne m c main_arg3 (by decide)).trans <|
      (StableHlo.after_of_writes_sub hostOps3 _ Cert.KernelIdeal.GenP.hostOps3_writes (by decide : main_arg3 ∉ Cert.KernelIdeal.GenP.hostOps3_W)).trans <|
      (W10_of_ne m c main_arg3 (by decide)).trans <|
      (StableHlo.after_of_writes_sub hostOps2 _ Cert.KernelIdeal.GenP.hostOps2_writes (by decide : main_arg3 ∉ Cert.KernelIdeal.GenP.hostOps2_W)).trans <|
      (W8_of_ne m c main_arg3 (by decide)).trans <|
      (StableHlo.after_of_writes_sub hostOps1 _ Cert.KernelIdeal.GenP.hostOps1_writes (by decide : main_arg3 ∉ Cert.KernelIdeal.GenP.hostOps1_W)).trans <|
      (W6_of_ne m c main_arg3 (by decide)).trans <|
      (StableHlo.after_of_writes_sub hostOps0_4 _ Cert.KernelIdeal.GenP.hostOps0_4_writes (by decide : main_arg3 ∉ Cert.KernelIdeal.GenP.hostOps0_4_W)).trans <|
      (StableHlo.after_of_writes_sub hostOps0_3 _ Cert.KernelIdeal.GenP.hostOps0_3_writes (by decide : main_arg3 ∉ Cert.KernelIdeal.GenP.hostOps0_3_W)).trans <|
      (StableHlo.after_of_writes_sub hostOps0_2 _ Cert.KernelIdeal.GenP.hostOps0_2_writes (by decide : main_arg3 ∉ Cert.KernelIdeal.GenP.hostOps0_2_W)).trans <|
      (StableHlo.after_of_writes_sub hostOps0_1 _ Cert.KernelIdeal.GenP.hostOps0_1_writes (by decide : main_arg3 ∉ Cert.KernelIdeal.GenP.hostOps0_1_W)).trans <|
      (StableHlo.after_of_writes_sub hostOps0 _ Cert.KernelIdeal.GenP.hostOps0_writes (by decide : main_arg3 ∉ Cert.KernelIdeal.GenP.hostOps0_W)).trans rfl

theorem k3_arg4 (c : Dev nD) : W22 m c (Proc.devRef .tc main_arg4) = m ((c : Thread nD τ).loc main_arg4) :=
      (W22_of_ne m c main_arg4 (by decide)).trans <|
      (StableHlo.after_of_writes_sub hostOps8 _ Cert.KernelIdeal.GenP.hostOps8_writes (by decide : main_arg4 ∉ Cert.KernelIdeal.GenP.hostOps8_W)).trans <|
      (W20_of_ne m c main_arg4 (by decide)).trans <|
      (StableHlo.after_of_writes_sub hostOps7 _ Cert.KernelIdeal.GenP.hostOps7_writes (by decide : main_arg4 ∉ Cert.KernelIdeal.GenP.hostOps7_W)).trans <|
      (W18_of_ne m c main_arg4 (by decide)).trans <|
      (StableHlo.after_of_writes_sub hostOps6 _ Cert.KernelIdeal.GenP.hostOps6_writes (by decide : main_arg4 ∉ Cert.KernelIdeal.GenP.hostOps6_W)).trans <|
      (W16_of_ne m c main_arg4 (by decide)).trans <|
      (StableHlo.after_of_writes_sub hostOps5 _ Cert.KernelIdeal.GenP.hostOps5_writes (by decide : main_arg4 ∉ Cert.KernelIdeal.GenP.hostOps5_W)).trans <|
      (W14_of_ne m c main_arg4 (by decide)).trans <|
      (StableHlo.after_of_writes_sub hostOps4 _ Cert.KernelIdeal.GenP.hostOps4_writes (by decide : main_arg4 ∉ Cert.KernelIdeal.GenP.hostOps4_W)).trans <|
      (W12_of_ne m c main_arg4 (by decide)).trans <|
      (StableHlo.after_of_writes_sub hostOps3 _ Cert.KernelIdeal.GenP.hostOps3_writes (by decide : main_arg4 ∉ Cert.KernelIdeal.GenP.hostOps3_W)).trans <|
      (W10_of_ne m c main_arg4 (by decide)).trans <|
      (StableHlo.after_of_writes_sub hostOps2 _ Cert.KernelIdeal.GenP.hostOps2_writes (by decide : main_arg4 ∉ Cert.KernelIdeal.GenP.hostOps2_W)).trans <|
      (W8_of_ne m c main_arg4 (by decide)).trans <|
      (StableHlo.after_of_writes_sub hostOps1 _ Cert.KernelIdeal.GenP.hostOps1_writes (by decide : main_arg4 ∉ Cert.KernelIdeal.GenP.hostOps1_W)).trans <|
      (W6_of_ne m c main_arg4 (by decide)).trans <|
      (StableHlo.after_of_writes_sub hostOps0_4 _ Cert.KernelIdeal.GenP.hostOps0_4_writes (by decide : main_arg4 ∉ Cert.KernelIdeal.GenP.hostOps0_4_W)).trans <|
      (StableHlo.after_of_writes_sub hostOps0_3 _ Cert.KernelIdeal.GenP.hostOps0_3_writes (by decide : main_arg4 ∉ Cert.KernelIdeal.GenP.hostOps0_3_W)).trans <|
      (StableHlo.after_of_writes_sub hostOps0_2 _ Cert.KernelIdeal.GenP.hostOps0_2_writes (by decide : main_arg4 ∉ Cert.KernelIdeal.GenP.hostOps0_2_W)).trans <|
      (StableHlo.after_of_writes_sub hostOps0_1 _ Cert.KernelIdeal.GenP.hostOps0_1_writes (by decide : main_arg4 ∉ Cert.KernelIdeal.GenP.hostOps0_1_W)).trans <|
      (StableHlo.after_of_writes_sub hostOps0 _ Cert.KernelIdeal.GenP.hostOps0_writes (by decide : main_arg4 ∉ Cert.KernelIdeal.GenP.hostOps0_W)).trans rfl

theorem k3_arg5 (c : Dev nD) : W22 m c (Proc.devRef .tc main_arg5) = m ((c : Thread nD τ).loc main_arg5) :=
      (W22_of_ne m c main_arg5 (by decide)).trans <|
      (StableHlo.after_of_writes_sub hostOps8 _ Cert.KernelIdeal.GenP.hostOps8_writes (by decide : main_arg5 ∉ Cert.KernelIdeal.GenP.hostOps8_W)).trans <|
      (W20_of_ne m c main_arg5 (by decide)).trans <|
      (StableHlo.after_of_writes_sub hostOps7 _ Cert.KernelIdeal.GenP.hostOps7_writes (by decide : main_arg5 ∉ Cert.KernelIdeal.GenP.hostOps7_W)).trans <|
      (W18_of_ne m c main_arg5 (by decide)).trans <|
      (StableHlo.after_of_writes_sub hostOps6 _ Cert.KernelIdeal.GenP.hostOps6_writes (by decide : main_arg5 ∉ Cert.KernelIdeal.GenP.hostOps6_W)).trans <|
      (W16_of_ne m c main_arg5 (by decide)).trans <|
      (StableHlo.after_of_writes_sub hostOps5 _ Cert.KernelIdeal.GenP.hostOps5_writes (by decide : main_arg5 ∉ Cert.KernelIdeal.GenP.hostOps5_W)).trans <|
      (W14_of_ne m c main_arg5 (by decide)).trans <|
      (StableHlo.after_of_writes_sub hostOps4 _ Cert.KernelIdeal.GenP.hostOps4_writes (by decide : main_arg5 ∉ Cert.KernelIdeal.GenP.hostOps4_W)).trans <|
      (W12_of_ne m c main_arg5 (by decide)).trans <|
      (StableHlo.after_of_writes_sub hostOps3 _ Cert.KernelIdeal.GenP.hostOps3_writes (by decide : main_arg5 ∉ Cert.KernelIdeal.GenP.hostOps3_W)).trans <|
      (W10_of_ne m c main_arg5 (by decide)).trans <|
      (StableHlo.after_of_writes_sub hostOps2 _ Cert.KernelIdeal.GenP.hostOps2_writes (by decide : main_arg5 ∉ Cert.KernelIdeal.GenP.hostOps2_W)).trans <|
      (W8_of_ne m c main_arg5 (by decide)).trans <|
      (StableHlo.after_of_writes_sub hostOps1 _ Cert.KernelIdeal.GenP.hostOps1_writes (by decide : main_arg5 ∉ Cert.KernelIdeal.GenP.hostOps1_W)).trans <|
      (W6_of_ne m c main_arg5 (by decide)).trans <|
      (StableHlo.after_of_writes_sub hostOps0_4 _ Cert.KernelIdeal.GenP.hostOps0_4_writes (by decide : main_arg5 ∉ Cert.KernelIdeal.GenP.hostOps0_4_W)).trans <|
      (StableHlo.after_of_writes_sub hostOps0_3 _ Cert.KernelIdeal.GenP.hostOps0_3_writes (by decide : main_arg5 ∉ Cert.KernelIdeal.GenP.hostOps0_3_W)).trans <|
      (StableHlo.after_of_writes_sub hostOps0_2 _ Cert.KernelIdeal.GenP.hostOps0_2_writes (by decide : main_arg5 ∉ Cert.KernelIdeal.GenP.hostOps0_2_W)).trans <|
      (StableHlo.after_of_writes_sub hostOps0_1 _ Cert.KernelIdeal.GenP.hostOps0_1_writes (by decide : main_arg5 ∉ Cert.KernelIdeal.GenP.hostOps0_1_W)).trans <|
      (StableHlo.after_of_writes_sub hostOps0 _ Cert.KernelIdeal.GenP.hostOps0_writes (by decide : main_arg5 ∉ Cert.KernelIdeal.GenP.hostOps0_W)).trans rfl

theorem k3_arg6 (c : Dev nD) : W22 m c (Proc.devRef .tc main_arg6) = m ((c : Thread nD τ).loc main_arg6) :=
      (W22_of_ne m c main_arg6 (by decide)).trans <|
      (StableHlo.after_of_writes_sub hostOps8 _ Cert.KernelIdeal.GenP.hostOps8_writes (by decide : main_arg6 ∉ Cert.KernelIdeal.GenP.hostOps8_W)).trans <|
      (W20_of_ne m c main_arg6 (by decide)).trans <|
      (StableHlo.after_of_writes_sub hostOps7 _ Cert.KernelIdeal.GenP.hostOps7_writes (by decide : main_arg6 ∉ Cert.KernelIdeal.GenP.hostOps7_W)).trans <|
      (W18_of_ne m c main_arg6 (by decide)).trans <|
      (StableHlo.after_of_writes_sub hostOps6 _ Cert.KernelIdeal.GenP.hostOps6_writes (by decide : main_arg6 ∉ Cert.KernelIdeal.GenP.hostOps6_W)).trans <|
      (W16_of_ne m c main_arg6 (by decide)).trans <|
      (StableHlo.after_of_writes_sub hostOps5 _ Cert.KernelIdeal.GenP.hostOps5_writes (by decide : main_arg6 ∉ Cert.KernelIdeal.GenP.hostOps5_W)).trans <|
      (W14_of_ne m c main_arg6 (by decide)).trans <|
      (StableHlo.after_of_writes_sub hostOps4 _ Cert.KernelIdeal.GenP.hostOps4_writes (by decide : main_arg6 ∉ Cert.KernelIdeal.GenP.hostOps4_W)).trans <|
      (W12_of_ne m c main_arg6 (by decide)).trans <|
      (StableHlo.after_of_writes_sub hostOps3 _ Cert.KernelIdeal.GenP.hostOps3_writes (by decide : main_arg6 ∉ Cert.KernelIdeal.GenP.hostOps3_W)).trans <|
      (W10_of_ne m c main_arg6 (by decide)).trans <|
      (StableHlo.after_of_writes_sub hostOps2 _ Cert.KernelIdeal.GenP.hostOps2_writes (by decide : main_arg6 ∉ Cert.KernelIdeal.GenP.hostOps2_W)).trans <|
      (W8_of_ne m c main_arg6 (by decide)).trans <|
      (StableHlo.after_of_writes_sub hostOps1 _ Cert.KernelIdeal.GenP.hostOps1_writes (by decide : main_arg6 ∉ Cert.KernelIdeal.GenP.hostOps1_W)).trans <|
      (W6_of_ne m c main_arg6 (by decide)).trans <|
      (StableHlo.after_of_writes_sub hostOps0_4 _ Cert.KernelIdeal.GenP.hostOps0_4_writes (by decide : main_arg6 ∉ Cert.KernelIdeal.GenP.hostOps0_4_W)).trans <|
      (StableHlo.after_of_writes_sub hostOps0_3 _ Cert.KernelIdeal.GenP.hostOps0_3_writes (by decide : main_arg6 ∉ Cert.KernelIdeal.GenP.hostOps0_3_W)).trans <|
      (StableHlo.after_of_writes_sub hostOps0_2 _ Cert.KernelIdeal.GenP.hostOps0_2_writes (by decide : main_arg6 ∉ Cert.KernelIdeal.GenP.hostOps0_2_W)).trans <|
      (StableHlo.after_of_writes_sub hostOps0_1 _ Cert.KernelIdeal.GenP.hostOps0_1_writes (by decide : main_arg6 ∉ Cert.KernelIdeal.GenP.hostOps0_1_W)).trans <|
      (StableHlo.after_of_writes_sub hostOps0 _ Cert.KernelIdeal.GenP.hostOps0_writes (by decide : main_arg6 ∉ Cert.KernelIdeal.GenP.hostOps0_W)).trans rfl

theorem k3_arg7a (c : Dev nD) : W24 m c (Proc.devRef .tc main_arg7) = m ((c : Thread nD τ).loc main_arg7) :=
      (W24_of_ne m c main_arg7 (by decide)).trans <|
      (StableHlo.after_of_writes_sub hostOps9 _ Cert.KernelIdeal.GenP.hostOps9_writes (by decide : main_arg7 ∉ Cert.KernelIdeal.GenP.hostOps9_W)).trans <|
      (W22_of_ne m c main_arg7 (by decide)).trans <|
      (StableHlo.after_of_writes_sub hostOps8 _ Cert.KernelIdeal.GenP.hostOps8_writes (by decide : main_arg7 ∉ Cert.KernelIdeal.GenP.hostOps8_W)).trans <|
      (W20_of_ne m c main_arg7 (by decide)).trans <|
      (StableHlo.after_of_writes_sub hostOps7 _ Cert.KernelIdeal.GenP.hostOps7_writes (by decide : main_arg7 ∉ Cert.KernelIdeal.GenP.hostOps7_W)).trans <|
      (W18_of_ne m c main_arg7 (by decide)).trans <|
      (StableHlo.after_of_writes_sub hostOps6 _ Cert.KernelIdeal.GenP.hostOps6_writes (by decide : main_arg7 ∉ Cert.KernelIdeal.GenP.hostOps6_W)).trans <|
      (W16_of_ne m c main_arg7 (by decide)).trans <|
      (StableHlo.after_of_writes_sub hostOps5 _ Cert.KernelIdeal.GenP.hostOps5_writes (by decide : main_arg7 ∉ Cert.KernelIdeal.GenP.hostOps5_W)).trans <|
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k3_arg7b (c : Dev nD) : W26 m c (Proc.devRef .tc main_arg7) = m ((c : Thread nD τ).loc main_arg7) :=
      (W26_of_ne m c main_arg7 (by decide)).trans <|
      (StableHlo.after_of_writes_sub hostOps10 _ Cert.KernelIdeal.GenP.hostOps10_writes (by decide : main_arg7 ∉ Cert.KernelIdeal.GenP.hostOps10_W)).trans <|
      (W24_of_ne m c main_arg7 (by decide)).trans <|
      (StableHlo.after_of_writes_sub hostOps9 _ Cert.KernelIdeal.GenP.hostOps9_writes (by decide : main_arg7 ∉ Cert.KernelIdeal.GenP.hostOps9_W)).trans <|
      (W22_of_ne m c main_arg7 (by decide)).trans <|
      (StableHlo.after_of_writes_sub hostOps8 _ Cert.KernelIdeal.GenP.hostOps8_writes (by decide : main_arg7 ∉ Cert.KernelIdeal.GenP.hostOps8_W)).trans <|
      (W20_of_ne m c main_arg7 (by decide)).trans <|
      (StableHlo.after_of_writes_sub hostOps7 _ Cert.KernelIdeal.GenP.hostOps7_writes (by decide : main_arg7 ∉ Cert.KernelIdeal.GenP.hostOps7_W)).trans <|
      (W18_of_ne m c main_arg7 (by decide)).trans <|
      (StableHlo.after_of_writes_sub hostOps6 _ Cert.KernelIdeal.GenP.hostOps6_writes (by decide : main_arg7 ∉ Cert.KernelIdeal.GenP.hostOps6_W)).trans <|
      (W16_of_ne m c main_arg7 (by decide)).trans <|
      (StableHlo.after_of_writes_sub hostOps5 _ Cert.KernelIdeal.GenP.hostOps5_writes (by decide : main_arg7 ∉ Cert.KernelIdeal.GenP.hostOps5_W)).trans <|
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k3_arg8 (c : Dev nD) : W26 m c (Proc.devRef .tc main_arg8) = m ((c : Thread nD τ).loc main_arg8) :=
      (W26_of_ne m c main_arg8 (by decide)).trans <|
      (StableHlo.after_of_writes_sub hostOps10 _ Cert.KernelIdeal.GenP.hostOps10_writes (by decide : main_arg8 ∉ Cert.KernelIdeal.GenP.hostOps10_W)).trans <|
      (W24_of_ne m c main_arg8 (by decide)).trans <|
      (StableHlo.after_of_writes_sub hostOps9 _ Cert.KernelIdeal.GenP.hostOps9_writes (by decide : main_arg8 ∉ Cert.KernelIdeal.GenP.hostOps9_W)).trans <|
      (W22_of_ne m c main_arg8 (by decide)).trans <|
      (StableHlo.after_of_writes_sub hostOps8 _ Cert.KernelIdeal.GenP.hostOps8_writes (by decide : main_arg8 ∉ Cert.KernelIdeal.GenP.hostOps8_W)).trans <|
      (W20_of_ne m c main_arg8 (by decide)).trans <|
      (StableHlo.after_of_writes_sub hostOps7 _ Cert.KernelIdeal.GenP.hostOps7_writes (by decide : main_arg8 ∉ Cert.KernelIdeal.GenP.hostOps7_W)).trans <|
      (W18_of_ne m c main_arg8 (by decide)).trans <|
      (StableHlo.after_of_writes_sub hostOps6 _ Cert.KernelIdeal.GenP.hostOps6_writes (by decide : main_arg8 ∉ Cert.KernelIdeal.GenP.hostOps6_W)).trans <|
      (W16_of_ne m c main_arg8 (by decide)).trans <|
      (StableHlo.after_of_writes_sub hostOps5 _ Cert.KernelIdeal.GenP.hostOps5_writes (by decide : main_arg8 ∉ Cert.KernelIdeal.GenP.hostOps5_W)).trans <|
      (W14_of_ne m c main_arg8 (by decide)).trans <|
      (StableHlo.after_of_writes_sub hostOps4 _ Cert.KernelIdeal.GenP.hostOps4_writes (by decide : main_arg8 ∉ Cert.KernelIdeal.GenP.hostOps4_W)).trans <|
      (W12_of_ne m c main_arg8 (by decide)).trans <|
      (StableHlo.after_of_writes_sub hostOps3 _ Cert.KernelIdeal.GenP.hostOps3_writes (by decide : main_arg8 ∉ Cert.KernelIdeal.GenP.hostOps3_W)).trans <|
      (W10_of_ne m c main_arg8 (by decide)).trans <|
      (StableHlo.after_of_writes_sub hostOps2 _ Cert.KernelIdeal.GenP.hostOps2_writes (by decide : main_arg8 ∉ Cert.KernelIdeal.GenP.hostOps2_W)).trans <|
      (W8_of_ne m c main_arg8 (by decide)).trans <|
      (StableHlo.after_of_writes_sub hostOps1 _ Cert.KernelIdeal.GenP.hostOps1_writes (by decide : main_arg8 ∉ Cert.KernelIdeal.GenP.hostOps1_W)).trans <|
      (W6_of_ne m c main_arg8 (by decide)).trans <|
      (StableHlo.after_of_writes_sub hostOps0_4 _ Cert.KernelIdeal.GenP.hostOps0_4_writes (by decide : main_arg8 ∉ Cert.KernelIdeal.GenP.hostOps0_4_W)).trans <|
      (StableHlo.after_of_writes_sub hostOps0_3 _ Cert.KernelIdeal.GenP.hostOps0_3_writes (by decide : main_arg8 ∉ Cert.KernelIdeal.GenP.hostOps0_3_W)).trans <|
      (StableHlo.after_of_writes_sub hostOps0_2 _ Cert.KernelIdeal.GenP.hostOps0_2_writes (by decide : main_arg8 ∉ Cert.KernelIdeal.GenP.hostOps0_2_W)).trans <|
      (StableHlo.after_of_writes_sub hostOps0_1 _ Cert.KernelIdeal.GenP.hostOps0_1_writes (by decide : main_arg8 ∉ Cert.KernelIdeal.GenP.hostOps0_1_W)).trans <|
      (StableHlo.after_of_writes_sub hostOps0 _ Cert.KernelIdeal.GenP.hostOps0_writes (by decide : main_arg8 ∉ Cert.KernelIdeal.GenP.hostOps0_W)).trans rfl

theorem k3_arg9 (c : Dev nD) : W26 m c (Proc.devRef .tc main_arg9) = m ((c : Thread nD τ).loc main_arg9) :=
      (W26_of_ne m c main_arg9 (by decide)).trans <|
      (StableHlo.after_of_writes_sub hostOps10 _ Cert.KernelIdeal.GenP.hostOps10_writes (by decide : main_arg9 ∉ Cert.KernelIdeal.GenP.hostOps10_W)).trans <|
      (W24_of_ne m c main_arg9 (by decide)).trans <|
      (StableHlo.after_of_writes_sub hostOps9 _ Cert.KernelIdeal.GenP.hostOps9_writes (by decide : main_arg9 ∉ Cert.KernelIdeal.GenP.hostOps9_W)).trans <|
      (W22_of_ne m c main_arg9 (by decide)).trans <|
      (StableHlo.after_of_writes_sub hostOps8 _ Cert.KernelIdeal.GenP.hostOps8_writes (by decide : main_arg9 ∉ Cert.KernelIdeal.GenP.hostOps8_W)).trans <|
      (W20_of_ne m c main_arg9 (by decide)).trans <|
      (StableHlo.after_of_writes_sub hostOps7 _ Cert.KernelIdeal.GenP.hostOps7_writes (by decide : main_arg9 ∉ Cert.KernelIdeal.GenP.hostOps7_W)).trans <|
      (W18_of_ne m c main_arg9 (by decide)).trans <|
      (StableHlo.after_of_writes_sub hostOps6 _ Cert.KernelIdeal.GenP.hostOps6_writes (by decide : main_arg9 ∉ Cert.KernelIdeal.GenP.hostOps6_W)).trans <|
      (W16_of_ne m c main_arg9 (by decide)).trans <|
      (StableHlo.after_of_writes_sub hostOps5 _ Cert.KernelIdeal.GenP.hostOps5_writes (by decide : main_arg9 ∉ Cert.KernelIdeal.GenP.hostOps5_W)).trans <|
      (W14_of_ne m c main_arg9 (by decide)).trans <|
      (StableHlo.after_of_writes_sub hostOps4 _ Cert.KernelIdeal.GenP.hostOps4_writes (by decide : main_arg9 ∉ Cert.KernelIdeal.GenP.hostOps4_W)).trans <|
      (W12_of_ne m c main_arg9 (by decide)).trans <|
      (StableHlo.after_of_writes_sub hostOps3 _ Cert.KernelIdeal.GenP.hostOps3_writes (by decide : main_arg9 ∉ Cert.KernelIdeal.GenP.hostOps3_W)).trans <|
      (W10_of_ne m c main_arg9 (by decide)).trans <|
      (StableHlo.after_of_writes_sub hostOps2 _ Cert.KernelIdeal.GenP.hostOps2_writes (by decide : main_arg9 ∉ Cert.KernelIdeal.GenP.hostOps2_W)).trans <|
      (W8_of_ne m c main_arg9 (by decide)).trans <|
      (StableHlo.after_of_writes_sub hostOps1 _ Cert.KernelIdeal.GenP.hostOps1_writes (by decide : main_arg9 ∉ Cert.KernelIdeal.GenP.hostOps1_W)).trans <|
      (W6_of_ne m c main_arg9 (by decide)).trans <|
      (StableHlo.after_of_writes_sub hostOps0_4 _ Cert.KernelIdeal.GenP.hostOps0_4_writes (by decide : main_arg9 ∉ Cert.KernelIdeal.GenP.hostOps0_4_W)).trans <|
      (StableHlo.after_of_writes_sub hostOps0_3 _ Cert.KernelIdeal.GenP.hostOps0_3_writes (by decide : main_arg9 ∉ Cert.KernelIdeal.GenP.hostOps0_3_W)).trans <|
      (StableHlo.after_of_writes_sub hostOps0_2 _ Cert.KernelIdeal.GenP.hostOps0_2_writes (by decide : main_arg9 ∉ Cert.KernelIdeal.GenP.hostOps0_2_W)).trans <|
      (StableHlo.after_of_writes_sub hostOps0_1 _ Cert.KernelIdeal.GenP.hostOps0_1_writes (by decide : main_arg9 ∉ Cert.KernelIdeal.GenP.hostOps0_1_W)).trans <|
      (StableHlo.after_of_writes_sub hostOps0 _ Cert.KernelIdeal.GenP.hostOps0_writes (by decide : main_arg9 ∉ Cert.KernelIdeal.GenP.hostOps0_W)).trans rfl

theorem k3_v3 (c : Dev nD) : W24 m c (Proc.devRef .tc main_v3) = W5 m c (Proc.devRef .tc main_v3) :=
      (W24_of_ne m c main_v3 (by decide)).trans <|
      (StableHlo.after_of_writes_sub hostOps9 _ Cert.KernelIdeal.GenP.hostOps9_writes (by decide : main_v3 ∉ Cert.KernelIdeal.GenP.hostOps9_W)).trans <|
      (W22_of_ne m c main_v3 (by decide)).trans <|
      (StableHlo.after_of_writes_sub hostOps8 _ Cert.KernelIdeal.GenP.hostOps8_writes (by decide : main_v3 ∉ Cert.KernelIdeal.GenP.hostOps8_W)).trans <|
      (W20_of_ne m c main_v3 (by decide)).trans <|
      (StableHlo.after_of_writes_sub hostOps7 _ Cert.KernelIdeal.GenP.hostOps7_writes (by decide : main_v3 ∉ Cert.KernelIdeal.GenP.hostOps7_W)).trans <|
      (W18_of_ne m c main_v3 (by decide)).trans <|
      (StableHlo.after_of_writes_sub hostOps6 _ Cert.KernelIdeal.GenP.hostOps6_writes (by decide : main_v3 ∉ Cert.KernelIdeal.GenP.hostOps6_W)).trans <|
      (W16_of_ne m c main_v3 (by decide)).trans <|
      (StableHlo.after_of_writes_sub hostOps5 _ Cert.KernelIdeal.GenP.hostOps5_writes (by decide : main_v3 ∉ Cert.KernelIdeal.GenP.hostOps5_W)).trans <|
      (W14_of_ne m c main_v3 (by decide)).trans <|
      (StableHlo.after_of_writes_sub hostOps4 _ Cert.KernelIdeal.GenP.hostOps4_writes (by decide : main_v3 ∉ Cert.KernelIdeal.GenP.hostOps4_W)).trans <|
      (W12_of_ne m c main_v3 (by decide)).trans <|
      (StableHlo.after_of_writes_sub hostOps3 _ Cert.KernelIdeal.GenP.hostOps3_writes (by decide : main_v3 ∉ Cert.KernelIdeal.GenP.hostOps3_W)).trans <|
      (W10_of_ne m c main_v3 (by decide)).trans <|
      (StableHlo.after_of_writes_sub hostOps2 _ Cert.KernelIdeal.GenP.hostOps2_writes (by decide : main_v3 ∉ Cert.KernelIdeal.GenP.hostOps2_W)).trans <|
      (W8_of_ne m c main_v3 (by decide)).trans <|
      (StableHlo.after_of_writes_sub hostOps1 _ Cert.KernelIdeal.GenP.hostOps1_writes (by decide : main_v3 ∉ Cert.KernelIdeal.GenP.hostOps1_W)).trans <|
      (W6_of_ne m c main_v3 (by decide))

theorem k3_v6 (c : Dev nD) : W24 m c (Proc.devRef .tc main_v6) = W5 m c (Proc.devRef .tc main_v6) :=
      (W24_of_ne m c main_v6 (by decide)).trans <|
      (StableHlo.after_of_writes_sub hostOps9 _ Cert.KernelIdeal.GenP.hostOps9_writes (by decide : main_v6 ∉ Cert.KernelIdeal.GenP.hostOps9_W)).trans <|
      (W22_of_ne m c main_v6 (by decide)).trans <|
      (StableHlo.after_of_writes_sub hostOps8 _ Cert.KernelIdeal.GenP.hostOps8_writes (by decide : main_v6 ∉ Cert.KernelIdeal.GenP.hostOps8_W)).trans <|
      (W20_of_ne m c main_v6 (by decide)).trans <|
      (StableHlo.after_of_writes_sub hostOps7 _ Cert.KernelIdeal.GenP.hostOps7_writes (by decide : main_v6 ∉ Cert.KernelIdeal.GenP.hostOps7_W)).trans <|
      (W18_of_ne m c main_v6 (by decide)).trans <|
      (StableHlo.after_of_writes_sub hostOps6 _ Cert.KernelIdeal.GenP.hostOps6_writes (by decide : main_v6 ∉ Cert.KernelIdeal.GenP.hostOps6_W)).trans <|
      (W16_of_ne m c main_v6 (by decide)).trans <|
      (StableHlo.after_of_writes_sub hostOps5 _ Cert.KernelIdeal.GenP.hostOps5_writes (by decide : main_v6 ∉ Cert.KernelIdeal.GenP.hostOps5_W)).trans <|
      (W14_of_ne m c main_v6 (by decide)).trans <|
      (StableHlo.after_of_writes_sub hostOps4 _ Cert.KernelIdeal.GenP.hostOps4_writes (by decide : main_v6 ∉ Cert.KernelIdeal.GenP.hostOps4_W)).trans <|
      (W12_of_ne m c main_v6 (by decide)).trans <|
      (StableHlo.after_of_writes_sub hostOps3 _ Cert.KernelIdeal.GenP.hostOps3_writes (by decide : main_v6 ∉ Cert.KernelIdeal.GenP.hostOps3_W)).trans <|
      (W10_of_ne m c main_v6 (by decide)).trans <|
      (StableHlo.after_of_writes_sub hostOps2 _ Cert.KernelIdeal.GenP.hostOps2_writes (by decide : main_v6 ∉ Cert.KernelIdeal.GenP.hostOps2_W)).trans <|
      (W8_of_ne m c main_v6 (by decide)).trans <|
      (StableHlo.after_of_writes_sub hostOps1 _ Cert.KernelIdeal.GenP.hostOps1_writes (by decide : main_v6 ∉ Cert.KernelIdeal.GenP.hostOps1_W)).trans <|
      (W6_of_ne m c main_v6 (by decide))

theorem k3_v41 (c : Dev nD) : W24 m c (Proc.devRef .tc main_v41) = W5 m c (Proc.devRef .tc main_v41) :=
      (W24_of_ne m c main_v41 (by decide)).trans <|
      (StableHlo.after_of_writes_sub hostOps9 _ Cert.KernelIdeal.GenP.hostOps9_writes (by decide : main_v41 ∉ Cert.KernelIdeal.GenP.hostOps9_W)).trans <|
      (W22_of_ne m c main_v41 (by decide)).trans <|
      (StableHlo.after_of_writes_sub hostOps8 _ Cert.KernelIdeal.GenP.hostOps8_writes (by decide : main_v41 ∉ Cert.KernelIdeal.GenP.hostOps8_W)).trans <|
      (W20_of_ne m c main_v41 (by decide)).trans <|
      (StableHlo.after_of_writes_sub hostOps7 _ Cert.KernelIdeal.GenP.hostOps7_writes (by decide : main_v41 ∉ Cert.KernelIdeal.GenP.hostOps7_W)).trans <|
      (W18_of_ne m c main_v41 (by decide)).trans <|
      (StableHlo.after_of_writes_sub hostOps6 _ Cert.KernelIdeal.GenP.hostOps6_writes (by decide : main_v41 ∉ Cert.KernelIdeal.GenP.hostOps6_W)).trans <|
      (W16_of_ne m c main_v41 (by decide)).trans <|
      (StableHlo.after_of_writes_sub hostOps5 _ Cert.KernelIdeal.GenP.hostOps5_writes (by decide : main_v41 ∉ Cert.KernelIdeal.GenP.hostOps5_W)).trans <|
      (W14_of_ne m c main_v41 (by decide)).trans <|
      (StableHlo.after_of_writes_sub hostOps4 _ Cert.KernelIdeal.GenP.hostOps4_writes (by decide : main_v41 ∉ Cert.KernelIdeal.GenP.hostOps4_W)).trans <|
      (W12_of_ne m c main_v41 (by decide)).trans <|
      (StableHlo.after_of_writes_sub hostOps3 _ Cert.KernelIdeal.GenP.hostOps3_writes (by decide : main_v41 ∉ Cert.KernelIdeal.GenP.hostOps3_W)).trans <|
      (W10_of_ne m c main_v41 (by decide)).trans <|
      (StableHlo.after_of_writes_sub hostOps2 _ Cert.KernelIdeal.GenP.hostOps2_writes (by decide : main_v41 ∉ Cert.KernelIdeal.GenP.hostOps2_W)).trans <|
      (W8_of_ne m c main_v41 (by decide)).trans <|
      (StableHlo.after_of_writes_sub hostOps1 _ Cert.KernelIdeal.GenP.hostOps1_writes (by decide : main_v41 ∉ Cert.KernelIdeal.GenP.hostOps1_W)).trans <|
      (W6_of_ne m c main_v41 (by decide))

theorem k3_agg (c : Dev nD) : W27 m c (Proc.devRef .tc main_v195) = W25 m c (Proc.devRef .tc main_v195) :=
      (StableHlo.after_of_writes_sub hostOps11 _ Cert.KernelIdeal.GenP.hostOps11_writes (by decide : main_v195 ∉ Cert.KernelIdeal.GenP.hostOps11_W)).trans <|
      ((W26_arr m c 0).trans (((dat10 (V25 m) c).arrAt_in 0 rfl _).trans (A_eq10 (V25 m) c 0)))

/-! ## The perceptron -/

theorem lay3_in0 (c : Dev nD) : inRows9 (V23 m) c = lay3_H m c := rfl
theorem lay3_in1 (c : Dev nD) : wOne9 (V23 m) c = lay3_W1 m c :=
  funext fun j => funext fun k => (hmlp3_w1 (W22 m c) j k).trans (congrFun (k3_arg3 m c) (ix3 (2 : Fin 4) j k))
theorem lay3_in2 (c : Dev nD) : bOne9 (V23 m) c = lay3_b1 m c :=
  funext fun k => (hmlp3_b1 (W22 m c) k).trans (congrFun (k3_arg4 m c) (ix2 (3 : Fin 5) k))
theorem lay3_in3 (c : Dev nD) : wTwo9 (V23 m) c = lay3_W2 m c :=
  funext fun j => funext fun k => (hmlp3_w2 (W22 m c) j k).trans (congrFun (k3_arg5 m c) (ix3 (3 : Fin 5) j k))
theorem lay3_in4 (c : Dev nD) : bTwo9 (V23 m) c = lay3_b2 m c :=
  funext fun k => (hmlp3_b2 (W22 m c) k).trans (congrFun (k3_arg6 m c) (ix2 (3 : Fin 5) k))

/-- After the perceptron's region its output array holds the perceptron's rows. -/
theorem lay3_out (c : Dev nD) : W24 m c (Proc.devRef .tc main_v182) = Cert.Spec.uncur (lay3_Z m c) := by
  refine (W24_arr m c 5).trans ((final9_5 (V23 m) c).trans ?_)
  unfold G9
  rw [lay3_in0, lay3_in1, lay3_in2, lay3_in3, lay3_in4]
  rfl

/-! ## The aggregation -/

/-- The aggregated array when the statistics are entered. -/
theorem lay3_agg (c : Dev nD) : Cert.Spec.cur (W25 m c (Proc.devRef .tc main_v195)) = lay3_A m c := by
  refine congrArg Cert.Spec.cur ((hagg3 (W24 m c)).trans ?_)
  rw [k3_v3 m c, k3_v6 m c, k3_v41 m c, lay3_out m c]

/-- The bias row when the statistics are entered. -/
theorem lay3_sbias (c : Dev nD) : (fun q => W25 m c (Proc.devRef .tc main_v198) (ix2 (0 : Fin 1) q)) = lay3_bias m c :=
  funext fun q => (hagg3_bias (W24 m c) q).trans (congrFun (k3_arg7a m c) (ix2 (3 : Fin 5) q))

/-! ## The column sums -/

theorem lay3_s1 (c : Dev nD) : (fun q => W26 m c (Proc.devRef .tc main_v199_0) (ix2 (0 : Fin 1) q))
    = Cert.Spec.colSum (lay3_A m c) (lay3_bias m c) := by
  funext q
  refine (congrFun (W26_arr m c 2) (ix2 (0 : Fin 1) q)).trans ((arrAt10_2 (V25 m) c q).trans ?_)
  have hA : (fun p q => V25 m c (Pipeline.arrRef spec10 0) (ix2 p q)) = lay3_A m c := lay3_agg m c
  have hb : (fun q => V25 m c (Pipeline.arrRef spec10 1) (ix2 (0 : Fin 1) q)) = lay3_bias m c := lay3_sbias m c
  rw [hA, hb]

theorem lay3_s2 (c : Dev nD) : (fun q => W26 m c (Proc.devRef .tc main_v199_1) (ix2 (0 : Fin 1) q))
    = Cert.Spec.colSumSq (lay3_A m c) (lay3_bias m c) := by
  funext q
  refine (congrFun (W26_arr m c 3) (ix2 (0 : Fin 1) q)).trans ((arrAt10_3 (V25 m) c q).trans ?_)
  have hA : (fun p q => V25 m c (Pipeline.arrRef spec10 0) (ix2 p q)) = lay3_A m c := lay3_agg m c
  have hb : (fun q => V25 m c (Pipeline.arrRef spec10 1) (ix2 (0 : Fin 1) q)) = lay3_bias m c := lay3_sbias m c
  rw [hA, hb]

/-! ## What the normalisation is entered with -/

theorem lay3_nagg (c : Dev nD) : Cert.Spec.cur (W27 m c (Proc.devRef .tc main_v195)) = lay3_A m c :=
  (congrArg Cert.Spec.cur (k3_agg m c)).trans (lay3_agg m c)
theorem lay3_nbias (c : Dev nD) : (fun q => W27 m c (Proc.devRef .tc main_v212) (ix2 (0 : Fin 1) q)) = lay3_bias m c :=
  funext fun q => (hnorm3_bias (W26 m c) q).trans (congrFun (k3_arg7b m c) (ix2 (3 : Fin 5) q))
theorem lay3_ngamma (c : Dev nD) : (fun q => W27 m c (Proc.devRef .tc main_v213) (ix2 (0 : Fin 1) q)) = lay3_gamma m c :=
  funext fun q => (hnorm3_gamma (W26 m c) q).trans (congrFun (k3_arg8 m c) (ix2 (3 : Fin 5) q))
theorem lay3_nbeta (c : Dev nD) : (fun q => W27 m c (Proc.devRef .tc main_v214) (ix2 (0 : Fin 1) q)) = lay3_beta m c :=
  funext fun q => (hnorm3_beta (W26 m c) q).trans (congrFun (k3_arg9 m c) (ix2 (3 : Fin 5) q))
theorem lay3_nmean (c : Dev nD) : (fun q => W27 m c (Proc.devRef .tc main_v201) (ix2 (0 : Fin 1) q))
    = Cert.Spec.meanOf (Cert.Spec.colSum (lay3_A m c) (lay3_bias m c)) :=
  funext fun q => (hnorm3_mean (W26 m c) q).trans (by rw [lay3_s1 m c])
theorem lay3_nvar (c : Dev nD) : (fun q => W27 m c (Proc.devRef .tc main_v205) (ix2 (0 : Fin 1) q))
    = Cert.Spec.varOf (Cert.Spec.colSum (lay3_A m c) (lay3_bias m c)) (Cert.Spec.colSumSq (lay3_A m c) (lay3_bias m c)) :=
  funext fun q => (hnorm3_var (W26 m c) q).trans (by rw [lay3_s1 m c, lay3_s2 m c])

/-! ## The layer -/

/-- After the normalisation's region its output array holds the layer. -/
theorem layer_3 (c : Dev nD) : Cert.Spec.cur (W28 m c (Proc.devRef .tc main_v215))
    = Cert.Spec.layerK true (W5 m c (Proc.devRef .tc main_v3)) (W5 m c (Proc.devRef .tc main_v6)) (W5 m c (Proc.devRef .tc main_v41))
        (lay3_H m c) (lay3_W1 m c) (lay3_b1 m c) (lay3_W2 m c) (lay3_b2 m c) (lay3_bias m c) (lay3_gamma m c) (lay3_beta m c) := by
  funext p q
  refine (congrFun (W28_arr m c 6) (ix2 p q)).trans ((arrAt11_6 (V27 m) c p q).trans ?_)
  have hA : (fun p q => V27 m c main_v195 (ix2 p q)) = lay3_A m c := lay3_nagg m c
  have hb : (fun q => V27 m c main_v212 (ix2 (0 : Fin 1) q)) = lay3_bias m c := lay3_nbias m c
  have hm : (fun q => V27 m c main_v201 (ix2 (0 : Fin 1) q)) = _ := lay3_nmean m c
  have hv : (fun q => V27 m c main_v205 (ix2 (0 : Fin 1) q)) = _ := lay3_nvar m c
  have hg : (fun q => V27 m c main_v213 (ix2 (0 : Fin 1) q)) = lay3_gamma m c := lay3_ngamma m c
  have hbe : (fun q => V27 m c main_v214 (ix2 (0 : Fin 1) q)) = lay3_beta m c := lay3_nbeta m c
  rw [hA, hb, hm, hv, hg, hbe]
  rfl

end Cert.KernelIdeal.Hand

end
-- ==== Proof.KI.ChainHost4.lean ====
/-
  What the host operations around layer 4 compute, read for an arbitrary valuation of the buffers: the rows and
  blocks of the stacked parameters they cut out, the edge aggregation of the perceptron's result, and the mean and
  variance rows from the two column sums.
-/
import proofs.«114689_j15281493639468_1_alg».proof.Proof.Gen.KernelIdeal.Launch
import proofs.«114689_j15281493639468_1_alg».proof.Proof.Spec
import proofs.«114689_j15281493639468_1_alg».proof.Proof.SpecHost
import proofs.«114689_j15281493639468_1_alg».proof.Proof.SpecRows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (W : Valuation τ sig (Elt Ideal))

/-! ## Before the perceptron: its weights and bias rows -/

set_option maxHeartbeats 4000000 in
/-- The first weight matrix of layer 4 is block 3 of its stack. -/
theorem hmlp4_w1 (j k : Fin 32) : StableHlo.after (hostOps12 (F := Ideal)) W (Proc.devRef .tc main_v217) (ix2 j k)
      = W (Proc.devRef .tc main_arg3) (ix3 (3 : Fin 4) j k) := by
  after_results_simp
  exact Cert.Spec.matSlice_apply 3 _ _ _ (3 : Fin 4) rfl j k

set_option maxHeartbeats 4000000 in
/-- The first bias row of layer 4 is row 4 of its stack. -/
theorem hmlp4_b1 (q : Fin 32) : StableHlo.after (hostOps12 (F := Ideal)) W (Proc.devRef .tc main_v224) (ix2 (0 : Fin 1) q)
      = W (Proc.devRef .tc main_arg4) (ix2 (4 : Fin 5) q) := by
  after_results_simp
  exact Cert.Spec.rowSlice_apply 4 _ _ _ _ (4 : Fin 5) rfl (0 : Fin 1) q

set_option maxHeartbeats 4000000 in
/-- The second weight matrix of layer 4 is block 4 of its stack. -/
theorem hmlp4_w2 (j k : Fin 32) : StableHlo.after (hostOps12 (F := Ideal)) W (Proc.devRef .tc main_v221) (ix2 j k)
      = W (Proc.devRef .tc main_arg5) (ix3 (4 : Fin 5) j k) := by
  after_results_simp
  exact Cert.Spec.matSlice_apply 4 _ _ _ (4 : Fin 5) rfl j k

set_option maxHeartbeats 4000000 in
/-- The second bias row of layer 4 is row 4 of its stack. -/
theorem hmlp4_b2 (q : Fin 32) : StableHlo.after (hostOps12 (F := Ideal)) W (Proc.devRef .tc main_v225) (ix2 (0 : Fin 1) q)
      = W (Proc.devRef .tc main_arg6) (ix2 (4 : Fin 5) q) := by
  after_results_simp
  exact Cert.Spec.rowSlice_apply 4 _ _ _ _ (4 : Fin 5) rfl (0 : Fin 1) q

/-! ## Between the perceptron and the statistics: the edge aggregation -/

set_option maxHeartbeats 4000000 in
/-- The aggregated array is the edge aggregation of the perceptron's result. -/
theorem hagg4 : StableHlo.after (hostOps13 (F := Ideal)) W (Proc.devRef .tc main_v239)
      = Cert.Spec.aggArr (W (Proc.devRef .tc main_v3)) (W (Proc.devRef .tc main_v6)) (W (Proc.devRef .tc main_v41)) (W (Proc.devRef .tc main_v226)) := by
  after_results_simp; rfl

set_option maxHeartbeats 4000000 in
/-- The bias row the statistics add is row 4 of its stack. -/
theorem hagg4_bias (q : Fin 32) : StableHlo.after (hostOps13 (F := Ideal)) W (Proc.devRef .tc main_v242) (ix2 (0 : Fin 1) q)
      = W (Proc.devRef .tc main_arg7) (ix2 (4 : Fin 5) q) := by
  after_results_simp
  exact Cert.Spec.rowSlice_apply 4 _ _ _ _ (4 : Fin 5) rfl (0 : Fin 1) q

/-! ## Between the statistics and the normalisation: mean, variance and the three parameter rows -/

set_option maxHeartbeats 4000000 in
/-- The mean row is the first column sum divided by the number of rows. -/
theorem hnorm4_mean (q : Fin 32) : StableHlo.after (hostOps14 (F := Ideal)) W (Proc.devRef .tc main_v245) (ix2 (0 : Fin 1) q)
      = Cert.Spec.meanOf (fun q => W (Proc.devRef .tc main_v243_0) (ix2 (0 : Fin 1) q)) q := by
  after_results_simp; rfl

set_option maxHeartbeats 4000000 in
/-- The variance row is the mean of the squares less the square of the mean. -/
theorem hnorm4_var (q : Fin 32) : StableHlo.after (hostOps14 (F := Ideal)) W (Proc.devRef .tc main_v249) (ix2 (0 : Fin 1) q)
      = Cert.Spec.varOf (fun q => W (Proc.devRef .tc main_v243_0) (ix2 (0 : Fin 1) q)) (fun q => W (Proc.devRef .tc main_v243_1) (ix2 (0 : Fin 1) q)) q := by
  after_results_simp; rfl

set_option maxHeartbeats 4000000 in
/-- The bias row the normalisation adds is row 4 of its stack. -/
theorem hnorm4_bias (q : Fin 32) : StableHlo.after (hostOps14 (F := Ideal)) W (Proc.devRef .tc main_v256) (ix2 (0 : Fin 1) q)
      = W (Proc.devRef .tc main_arg7) (ix2 (4 : Fin 5) q) := by
  after_results_simp
  exact Cert.Spec.rowSlice_apply 4 _ _ _ _ (4 : Fin 5) rfl (0 : Fin 1) q

set_option maxHeartbeats 4000000 in
/-- The scale row is row 4 of its stack. -/
theorem hnorm4_gamma (q : Fin 32) : StableHlo.after (hostOps14 (F := Ideal)) W (Proc.devRef .tc main_v257) (ix2 (0 : Fin 1) q)
      = W (Proc.devRef .tc main_arg8) (ix2 (4 : Fin 5) q) := by
  after_results_simp
  exact Cert.Spec.rowSlice_apply 4 _ _ _ _ (4 : Fin 5) rfl (0 : Fin 1) q

set_option maxHeartbeats 4000000 in
/-- The offset row is row 4 of its stack. -/
theorem hnorm4_beta (q : Fin 32) : StableHlo.after (hostOps14 (F := Ideal)) W (Proc.devRef .tc main_v258) (ix2 (0 : Fin 1) q)
      = W (Proc.devRef .tc main_arg9) (ix2 (4 : Fin 5) q) := by
  after_results_simp
  exact Cert.Spec.rowSlice_apply 4 _ _ _ _ (4 : Fin 5) rfl (0 : Fin 1) q

end Cert.KernelIdeal.Hand

end
-- ==== Proof.KI.Mlp12Value.lean ====
/-
  The value the multilayer-perceptron region of pipeline 12 leaves in its output array, over the extended reals:
  every row p of the output is  max(x_p · W₁ + b₁, 0) · W₂ + b₂  of row p of the input, the two products read as
  sums over the contracted index.  Grid point t handles rows 5000·t … 5000·t + 4999, and the twenty points cover
  the 100000 rows.
-/
import proofs.«114689_j15281493639468_1_alg».proof.Proof.KI.Mlp12
import proofs.«114689_j15281493639468_1_alg».proof.Proof.Spec
import proofs.«114689_j15281493639468_1_alg».proof.Proof.Lib.LibDenseRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payload at an index -/

/-- At row p and column q of a block the stored value is the two-layer perceptron of row p: rounding to a
    narrower format is the identity on the extended reals, each product into a zero accumulator is the sum over
    the contracted index, and the clamp is against the extended real 0. -/
theorem k12_pay1_apply (x0 : Vec Ideal S5000x32 .f32) (x1 : Vec Ideal S32x32 .f32) (x2 : Vec Ideal S1x32 .f32)
    (x3 : Vec Ideal S32x32 .f32) (x4 : Vec Ideal S1x32 .f32) (p : Fin 5000) (q : Fin 32) :
    k12_pay1 (F := Ideal) x0 x1 x2 x3 x4 (ix2 p q)
      = (∑ k : Fin 32, max ((∑ j : Fin 32, x0 (ix2 p j) * x1 (ix2 j k)) + x2 (ix2 (0 : Fin 1) k)) 0 * x3 (ix2 k q))
          + x4 (ix2 (0 : Fin 1) q) := by
  unfold k12_pay1
  simp only [shapeCast_self]
  refine (DenseRows.matmul_bias_apply (m := 5000) (k := 32) (n := 32) none _ _ x4 _ p q).trans ?_
  show (∑ c : Fin 32, _ * x3 (ix2 c q)) + x4 (ix2 (0 : Fin 1) q) = _
  refine congrArg (· + x4 (ix2 (0 : Fin 1) q)) (Finset.sum_congr rfl fun k _ => ?_)
  refine congrArg (· * x3 (ix2 k q)) ?_
  refine (DenseRows.clamped_matmul_bias_apply (m := 5000) (k := 32) (n := 32) none _ _ x2 _ p k).trans ?_
  show max ((∑ c : Fin 32, x0 (ix2 p c) * x1 (ix2 c k)) + x2 (ix2 (0 : Fin 1) k)) (Ideal.ofBits .f32 0x00000000#32) = _
  rw [Ideal.ofBits_zero_f32]

/-! ## From blocks to the array -/

variable (V : (c : Dev nD) → (b : Ref sig .tc) → Buf (Elt Ideal) ((c : Thread nD τ).loc b))

theorem hz12 : (![0, 0] : Fin 2 → Nat) = fun _ => 0 := funext fun a => by fin_cases a <;> rfl

/-- The block index maps over the twenty grid points: the input and output row blocks move with the point,
    the weights and biases stay at their one block. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- The five arrays the region reads, as the region finds them, entry by entry. -/
def inRows12 (c : Dev nD) : Fin 100000 → Fin 32 → EReal := fun p j => V c (Pipeline.arrRef spec12 0) (ix2 p j)
def wOne12 (c : Dev nD) : Fin 32 → Fin 32 → EReal := fun j k => V c (Pipeline.arrRef spec12 1) (ix2 j k)
def bOne12 (c : Dev nD) : Fin 32 → EReal := fun k => V c (Pipeline.arrRef spec12 2) (ix2 0 k)
def wTwo12 (c : Dev nD) : Fin 32 → Fin 32 → EReal := fun k q => V c (Pipeline.arrRef spec12 3) (ix2 k q)
def bTwo12 (c : Dev nD) : Fin 32 → EReal := fun q => V c (Pipeline.arrRef spec12 4) (ix2 0 q)

/-- The whole output array as one function of those five. -/
def G12 (c : Dev nD) : S100000x32.Idx → EReal := fun i =>
  Cert.Spec.dense (inRows12 V c) (wOne12 V c) (bOne12 V c) (wTwo12 V c) (bTwo12 V c) (i 0) (i 1)

/-- The input block at point t is rows 5000·t … 5000·t + 4999 of the input array. -/
theorem iblk12_0_apply (c : Dev nD) (t : Fin cfg12.N) (p : Fin 5000) (j : Fin 32) (r : Fin 100000)
    (hr : r.val = t.val * 5000 + p.val) :
    (iblk12 V c 0 t : Vec Ideal S5000x32 .f32) (ix2 p j) = inRows12 V c r j := by
  obtain ⟨h00, h01, -⟩ := idx12 t
  unfold iblk12 inRows12
  rw [View.read_apply]
  show V c (Pipeline.arrRef spec12 0) _ = V c (Pipeline.arrRef spec12 0) _
  refine congrArg (V c (Pipeline.arrRef spec12 0)) ?_
  funext ax; apply Fin.ext
  match ax with
  | ⟨0, _⟩ => show win12_0.index t (0 : Fin 2) * 5000 + 1 * p.val = r.val; rw [h00, hr]; omega
  | ⟨1, _⟩ => show win12_0.index t (1 : Fin 2) * 32 + 1 * j.val = j.val; rw [h01]; omega

/-- Window 1's block is its whole array at every point. -/
theorem iblk12_1_apply (c : Dev nD) (t : Fin cfg12.N) (j : Fin 32) (k : Fin 32) :
    (iblk12 V c 1 t : Vec Ideal S32x32 .f32) (ix2 j k) = wOne12 V c j k := by
  obtain ⟨-, -, h10, h11, h20, h21, h30, h31, h40, h41, -, -⟩ := idx12 t
  unfold iblk12 wOne12
  rw [View.read_apply]
  show V c (Pipeline.arrRef spec12 1) _ = V c (Pipeline.arrRef spec12 1) _
  refine congrArg (V c (Pipeline.arrRef spec12 1)) ?_
  funext ax; apply Fin.ext
  match ax with
  | ⟨0, _⟩ => show win12_1.index t (0 : Fin 2) * 32 + 1 * (ix2 j k 0).val = (ix2 j k 0).val; rw [h10]; omega
  | ⟨1, _⟩ => show win12_1.index t (1 : Fin 2) * 32 + 1 * (ix2 j k 1).val = (ix2 j k 1).val; rw [h11]; omega

/-- Window 2's block is its whole array at every point. -/
theorem iblk12_2_apply (c : Dev nD) (t : Fin cfg12.N) (k : Fin 32) :
    (iblk12 V c 2 t : Vec Ideal S1x32 .f32) (ix2 (0 : Fin 1) k) = bOne12 V c k := by
  obtain ⟨-, -, h10, h11, h20, h21, h30, h31, h40, h41, -, -⟩ := idx12 t
  unfold iblk12 bOne12
  rw [View.read_apply]
  show V c (Pipeline.arrRef spec12 2) _ = V c (Pipeline.arrRef spec12 2) _
  refine congrArg (V c (Pipeline.arrRef spec12 2)) ?_
  funext ax; apply Fin.ext
  match ax with
  | ⟨0, _⟩ => show win12_2.index t (0 : Fin 2) * 1 + 1 * (ix2 (0 : Fin 1) k 0).val = (ix2 (0 : Fin 1) k 0).val; rw [h20]; omega
  | ⟨1, _⟩ => show win12_2.index t (1 : Fin 2) * 32 + 1 * (ix2 (0 : Fin 1) k 1).val = (ix2 (0 : Fin 1) k 1).val; rw [h21]; omega

/-- Window 3's block is its whole array at every point. -/
theorem iblk12_3_apply (c : Dev nD) (t : Fin cfg12.N) (k : Fin 32) (q : Fin 32) :
    (iblk12 V c 3 t : Vec Ideal S32x32 .f32) (ix2 k q) = wTwo12 V c k q := by
  obtain ⟨-, -, h10, h11, h20, h21, h30, h31, h40, h41, -, -⟩ := idx12 t
  unfold iblk12 wTwo12
  rw [View.read_apply]
  show V c (Pipeline.arrRef spec12 3) _ = V c (Pipeline.arrRef spec12 3) _
  refine congrArg (V c (Pipeline.arrRef spec12 3)) ?_
  funext ax; apply Fin.ext
  match ax with
  | ⟨0, _⟩ => show win12_3.index t (0 : Fin 2) * 32 + 1 * (ix2 k q 0).val = (ix2 k q 0).val; rw [h30]; omega
  | ⟨1, _⟩ => show win12_3.index t (1 : Fin 2) * 32 + 1 * (ix2 k q 1).val = (ix2 k q 1).val; rw [h31]; omega

/-- Window 4's block is its whole array at every point. -/
theorem iblk12_4_apply (c : Dev nD) (t : Fin cfg12.N) (q : Fin 32) :
    (iblk12 V c 4 t : Vec Ideal S1x32 .f32) (ix2 (0 : Fin 1) q) = bTwo12 V c q := by
  obtain ⟨-, -, h10, h11, h20, h21, h30, h31, h40, h41, -, -⟩ := idx12 t
  unfold iblk12 bTwo12
  rw [View.read_apply]
  show V c (Pipeline.arrRef spec12 4) _ = V c (Pipeline.arrRef spec12 4) _
  refine congrArg (V c (Pipeline.arrRef spec12 4)) ?_
  funext ax; apply Fin.ext
  match ax with
  | ⟨0, _⟩ => show win12_4.index t (0 : Fin 2) * 1 + 1 * (ix2 (0 : Fin 1) q 0).val = (ix2 (0 : Fin 1) q 0).val; rw [h40]; omega
  | ⟨1, _⟩ => show win12_4.index t (1 : Fin 2) * 32 + 1 * (ix2 (0 : Fin 1) q 1).val = (ix2 (0 : Fin 1) q 1).val; rw [h41]; omega

set_option maxHeartbeats 1000000 in
/-- What point t writes back is block t of `G12`. -/
theorem flushed12_5_eq (c : Dev nD) (t : Fin cfg12.N) :
    (dat12 V c).flushed 5 t = ((cfg12.win 5).blk t).view.read (Elt Ideal) (G12 V c) := by
  have hN : cfg12.N = 20 := N_12
  obtain ⟨-, -, -, -, -, -, -, -, -, -, h50, h51⟩ := idx12 t
  show (cfg12.win 5).cut (grid12.coords t) ((dat12 V c).after 5 t) = _
  rw [after12_5]
  unfold out12_5
  rw [View.canon_unit_zero hz12]
  simp only [View.ld_unit_zero (S := S5000x32) hz12, View.ld_unit_zero (S := S32x32) hz12, View.ld_unit_zero (S := S1x32) hz12,
    View.ld_unit_zero (S := S32x32) hz12]
  funext y
  obtain ⟨p, q, rfl⟩ : ∃ (p : Fin 5000) (q : Fin 32), y = ix2 p q := ⟨y 0, y 1, eq_ix2 y⟩
  have hp : p.val < 5000 := p.isLt
  have ht : t.val < 20 := hN ▸ t.isLt
  have hemb : ((cfg12.win 5).blk t).view.emb (ix2 p q) = (ix2 (⟨t.val * 5000 + p.val, by omega⟩ : Fin 100000) q : S100000x32.Idx) := by
    funext ax; apply Fin.ext
    match ax with
    | ⟨0, _⟩ => show win12_5.index t (0 : Fin 2) * 5000 + 1 * p.val = t.val * 5000 + p.val; rw [h50]; omega
    | ⟨1, _⟩ => show win12_5.index t (1 : Fin 2) * 32 + 1 * q.val = q.val; rw [h51]; omega
  show k12_pay1 (F := Ideal) (iblk12 V c 0 t) (iblk12 V c 1 t) (iblk12 V c 2 t) (iblk12 V c 3 t) (iblk12 V c 4 t) (ix2 p q)
    = G12 V c (((cfg12.win 5).blk t).view.emb (ix2 p q))
  rw [hemb]
  refine (k12_pay1_apply (iblk12 V c 0 t) (iblk12 V c 1 t) (iblk12 V c 2 t) (iblk12 V c 3 t) (iblk12 V c 4 t) p q).trans ?_
  show _ = Cert.Spec.dense (inRows12 V c) (wOne12 V c) (bOne12 V c) (wTwo12 V c) (bTwo12 V c) (⟨t.val * 5000 + p.val, by omega⟩ : Fin 100000) q
  unfold Cert.Spec.dense
  simp only [iblk12_0_apply V c t p _ (⟨t.val * 5000 + p.val, by omega⟩ : Fin 100000) rfl, iblk12_1_apply V c t, iblk12_2_apply V c t, iblk12_3_apply V c t, iblk12_4_apply V c t]

/-- Every row of the output array is in the block of the point its row number divided by 5000 names. -/
theorem covered12_5 (i : S100000x32.Idx) :
    ∃ t : Fin cfg12.N, (cfg12.win 5).flush t = true ∧ i ∈ ((cfg12.win 5).blk t).view.set := by
  have hN : cfg12.N = 20 := N_12
  have hi0 : (i 0).val < 100000 := (i 0).isLt
  have hi1 : (i 1).val < 32 := (i 1).isLt
  have ht : (i 0).val / 5000 < cfg12.N := by rw [hN]; omega
  obtain ⟨-, -, -, -, -, -, -, -, -, -, h50, h51⟩ := idx12 ⟨(i 0).val / 5000, ht⟩
  have h50' : win12_5.index ⟨(i 0).val / 5000, ht⟩ (0 : Fin 2) = (i 0).val / 5000 := h50
  refine ⟨⟨(i 0).val / 5000, ht⟩, flush12_5 _, ?_⟩
  show i ∈ ((View.whole main_v226).slice (win12_5.rect ⟨(i 0).val / 5000, ht⟩)).set
  rw [View.set_slice_whole, Rect.mem_set_unit]
  intro ax
  match ax with
  | ⟨0, _⟩ =>
    show win12_5.index ⟨(i 0).val / 5000, ht⟩ (0 : Fin 2) * 5000 ≤ (i 0).val
      ∧ (i 0).val < win12_5.index ⟨(i 0).val / 5000, ht⟩ (0 : Fin 2) * 5000 + 5000
    rw [h50']; omega
  | ⟨1, _⟩ =>
    show win12_5.index ⟨(i 0).val / 5000, ht⟩ (1 : Fin 2) * 32 ≤ (i 1).val
      ∧ (i 1).val < win12_5.index ⟨(i 0).val / 5000, ht⟩ (1 : Fin 2) * 32 + 32
    rw [h51]; omega

/-- The output array after the region is `G12`. -/
theorem final12_5 (c : Dev nD) : (dat12 (F := Ideal) V c).arrAt 5 cfg12.N = G12 V c :=
  (dat12 V c).arrAt_eq_of_cover 5 (G12 V c) (fun t _ => flushed12_5_eq V c t) (covered12_5)

/-- The output array after the region, entry by entry: the two-layer perceptron of the input array's rows. -/
theorem arrAt12_5 (c : Dev nD) (p : Fin 100000) (q : Fin 32) :
    (dat12 (F := Ideal) V c).arrAt 5 cfg12.N (ValueIdx.ix2 p q)
      = Cert.Spec.dense (fun p j => V c (Pipeline.arrRef spec12 0) (ValueIdx.ix2 p j)) (fun j k => V c (Pipeline.arrRef spec12 1) (ValueIdx.ix2 j k))
          (fun k => V c (Pipeline.arrRef spec12 2) (ValueIdx.ix2 0 k)) (fun k q => V c (Pipeline.arrRef spec12 3) (ValueIdx.ix2 k q))
          (fun q => V c (Pipeline.arrRef spec12 4) (ValueIdx.ix2 0 q)) p q := by
  rw [final12_5]; rfl

end Cert.KernelIdeal.Hand

end
-- ==== Proof.KI.Stats13Value.lean ====
import proofs.«114689_j15281493639468_1_alg».proof.Proof.KI.Stats13
import proofs.«114689_j15281493639468_1_alg».proof.Proof.KI.StatsValueLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! # What the statistics kernel of pipeline 13 leaves in its two result rows, over the extended reals -/

/-! ## The payloads at an index -/

/-- The column sums of a [5000,32] block, as the kernel takes them (a reduction over the row axis from the zero
    pattern), read at a column: the sum over the 5000 rows. -/
theorem colsum13_apply (src : FVec Ideal S5000x32 .f32) (h : S5000x32.Reduces [0] S32) (hφ : FKind.Formats .f32)
    (hacc : (0x00000000#32 : BitVec 32) = 0x00000000#32) (q : Fin 32) :
    multiReduction .add [0] S32 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a
  match a with
  | ⟨0, _⟩ => rfl
  | ⟨1, _⟩ => rfl

theorem k13_pay1_apply (q : Fin 32) : k13_pay1 (F := Ideal) (ix2 (0 : Fin 1) q) = 0 := by
  unfold k13_pay1
  rw [shapeCast_self]
  exact Ideal.ofBits_zero_f32

theorem k13_pay2_apply (q : Fin 32) : k13_pay2 (F := Ideal) (ix2 (0 : Fin 1) q) = 0 := by
  unfold k13_pay2
  rw [shapeCast_self]
  exact Ideal.ofBits_zero_f32

/-- The block shifted by the bias row. -/
theorem k13_pay3_apply (x0 : Vec Ideal S5000x32 .f32) (x1 : Vec Ideal S1x32 .f32) (r : Fin 5000) (q : Fin 32) :
    k13_pay3 x0 x1 (ix2 r q) = x0 (ix2 r q) + x1 (ix2 (0 : Fin 1) q) := by
  unfold k13_pay3
  rw [addf_apply, shapeCast_self, broadcastTo_1b_ab_apply, shapeCast_self]

/-- The sum row after a point: what it held plus the column sums of the shifted block. -/
theorem k13_pay4_apply (x0 : Vec Ideal S5000x32 .f32) (x1 s : Vec Ideal S1x32 .f32) (q : Fin 32) :
    k13_pay4 x0 x1 s (ix2 (0 : Fin 1) q) = s (ix2 (0 : Fin 1) q) + ∑ r : Fin 5000, (x0 (ix2 r q) + x1 (ix2 (0 : Fin 1) q)) := by
  unfold k13_pay4
  rw [shapeCast_self, addf_apply, shapeCast_a_1a_apply]
  refine congrArg (s (ix2 (0 : Fin 1) q) + ·) ?_
  refine (colsum13_apply _ _ _ _ q).trans ?_
  exact Finset.sum_congr rfl fun r _ => k13_pay3_apply x0 x1 r q

/-- The sum-of-squares row after a point: what it held plus the column sums of the square of the shifted block. -/
theorem k13_pay5_apply (x0 : Vec Ideal S5000x32 .f32) (x1 s : Vec Ideal S1x32 .f32) (q : Fin 32) :
    k13_pay5 x0 x1 s (ix2 (0 : Fin 1) q)
      = s (ix2 (0 : Fin 1) q) + ∑ r : Fin 5000, (x0 (ix2 r q) + x1 (ix2 (0 : Fin 1) q)) * (x0 (ix2 r q) + x1 (ix2 (0 : Fin 1) q)) := by
  unfold k13_pay5
  rw [shapeCast_self, addf_apply, shapeCast_a_1a_apply]
  refine congrArg (s (ix2 (0 : Fin 1) q) + ·) ?_
  refine (colsum13_apply _ _ _ _ q).trans ?_
  exact Finset.sum_congr rfl fun r _ => by rw [mulf_apply, k13_pay3_apply]

/-! ## The blocks, read at an index -/

/-- Window 0's block index at point `t` is (t, 0); window 1's is (0, 0). -/
theorem index13_0 : ∀ t : Fin cfg13.N, win13_0.index t 0 = t.val ∧ win13_0.index t 1 = 0 := by decide +kernel
theorem index13_1 : ∀ t : Fin cfg13.N, win13_1.index t 0 = 0 ∧ win13_1.index t 1 = 0 := by decide +kernel

/-- Row `r` of block `t` is row `5000 t + r` of the array. -/
theorem iblk13_0_apply (c : Dev nD) (t : Fin cfg13.N) (r : Fin 5000) (q : Fin 32) (h : 5000 * t.val + r.val < 100000) :
    (iblk13 V c 0 t : Vec Ideal S5000x32 .f32) (ix2 r q) = V c (Pipeline.arrRef spec13 0) (ix2 ⟨5000 * t.val + r.val, h⟩ q) := by
  have hi := index13_0 t
  unfold iblk13
  rw [View.read_apply]
  show V c (Pipeline.arrRef spec13 0) _ = V c (Pipeline.arrRef spec13 0) _
  congr 1
  funext a
  apply Fin.ext
  match a with
  | ⟨0, _⟩ => show win13_0.index t 0 * 5000 + 1 * r.val = 5000 * t.val + r.val; rw [hi.1]; omega
  | ⟨1, _⟩ => show win13_0.index t 1 * 32 + 1 * q.val = q.val; rw [hi.2]; omega

/-- The bias row's block is the bias row at every point. -/
theorem iblk13_1_apply (c : Dev nD) (t : Fin cfg13.N) (q : Fin 32) :
    (iblk13 V c 1 t : Vec Ideal S1x32 .f32) (ix2 (0 : Fin 1) q) = V c (Pipeline.arrRef spec13 1) (ix2 (0 : Fin 1) q) := by
  have hi := index13_1 t
  unfold iblk13
  rw [View.read_apply]
  show V c (Pipeline.arrRef spec13 1) _ = V c (Pipeline.arrRef spec13 1) _
  congr 1
  funext a
  apply Fin.ext
  match a with
  | ⟨0, _⟩ => show win13_1.index t 0 * 1 + 1 * 0 = 0; rw [hi.1]
  | ⟨1, _⟩ => show win13_1.index t 1 * 32 + 1 * q.val = q.val; rw [hi.2]; omega

/-! ## The accumulation, read at a column -/

/-- The aggregated array and the bias row as the region finds them, as functions of their coordinates. -/
abbrev accv13_A (c : Dev nD) : Fin 100000 → Fin 32 → EReal := fun p q => V c (Pipeline.arrRef spec13 0) (ix2 p q)
abbrev accv13_b (c : Dev nD) : Fin 32 → EReal := fun q => V c (Pipeline.arrRef spec13 1) (ix2 (0 : Fin 1) q)

/-- Row `p` of the shifted array at column `q` (zero past the array, where nothing is summed). -/
def accv13_term (c : Dev nD) (q : Fin 32) (p : ℕ) : EReal :=
  if h : p < 100000 then accv13_A V c ⟨p, h⟩ q + accv13_b V c q else 0

/-- After `n` points the sum row holds the column sums of the first `5000 n` rows of the shifted array: by induction on
    the point, each point adding its block's rows. -/
theorem accv13_fst (c : Dev nD) (q : Fin 32) : ∀ n, n ≤ 20 →
    (acc13 V c n).1 (ix2 (0 : Fin 1) q) = ∑ p ∈ Finset.range (5000 * n), accv13_term V c q p
  | 0, _ => by
    rw [acc13_zero]
    exact (k13_pay1_apply q).trans (by simp)
  | n + 1, hn => by
    have hN : cfg13.N = 20 := N_13
    have hlt : n < cfg13.N := by omega
    have hs : acc13 V c (n + 1) = _ := acc13_succ V c ⟨n, hlt⟩
    rw [hs]
    show k13_pay4 _ _ _ _ = _
    rw [k13_pay4_apply, accv13_fst c q n (by omega), stats_sum_range_block]
    refine congrArg _ (Finset.sum_congr rfl fun r _ => ?_)
    have hr := r.isLt
    have h : 5000 * n + r.val < 100000 := by omega
    rw [iblk13_0_apply V c ⟨n, hlt⟩ r q h, iblk13_1_apply V c ⟨n, hlt⟩ q]
    unfold accv13_term; rw [dif_pos h]; try rfl

/-- The same for the sum-of-squares row. -/
theorem accv13_snd (c : Dev nD) (q : Fin 32) : ∀ n, n ≤ 20 →
    (acc13 V c n).2 (ix2 (0 : Fin 1) q) = ∑ p ∈ Finset.range (5000 * n), accv13_term V c q p * accv13_term V c q p
  | 0, _ => by
    rw [acc13_zero]
    exact (k13_pay2_apply q).trans (by simp)
  | n + 1, hn => by
    have hN : cfg13.N = 20 := N_13
    have hlt : n < cfg13.N := by omega
    have hs : acc13 V c (n + 1) = _ := acc13_succ V c ⟨n, hlt⟩
    rw [hs]
    show k13_pay5 _ _ _ _ = _
    rw [k13_pay5_apply, accv13_snd c q n (by omega), stats_sum_range_block (fun p => accv13_term V c q p * accv13_term V c q p)]
    refine congrArg _ (Finset.sum_congr rfl fun r _ => ?_)
    have hr := r.isLt
    have h : 5000 * n + r.val < 100000 := by omega
    rw [iblk13_0_apply V c ⟨n, hlt⟩ r q h, iblk13_1_apply V c ⟨n, hlt⟩ q]
    unfold accv13_term; rw [dif_pos h]; try rfl

/-- After the last point: the column sums of the whole shifted array, and of its square. -/
theorem accv13_fst_final (c : Dev nD) (q : Fin 32) :
    (acc13 V c 20).1 (ix2 (0 : Fin 1) q)
      = Cert.Spec.colSum (fun p q => V c (Pipeline.arrRef spec13 0) (ix2 p q)) (fun q => V c (Pipeline.arrRef spec13 1) (ix2 (0 : Fin 1) q)) q := by
  rw [accv13_fst V c q 20 le_rfl, show (5000 * 20 : ℕ) = 100000 from by norm_num]
  unfold Cert.Spec.colSum Cert.Spec.shift
  rw [stats_sum_fin_eq_range]
  refine Finset.sum_congr rfl fun p _ => ?_
  unfold accv13_term
  by_cases h : p < 100000
  · rw [dif_pos h]
  · rw [dif_neg h]

theorem accv13_snd_final (c : Dev nD) (q : Fin 32) :
    (acc13 V c 20).2 (ix2 (0 : Fin 1) q)
      = Cert.Spec.colSumSq (fun p q => V c (Pipeline.arrRef spec13 0) (ix2 p q)) (fun q => V c (Pipeline.arrRef spec13 1) (ix2 (0 : Fin 1) q)) q := by
  rw [accv13_snd V c q 20 le_rfl, show (5000 * 20 : ℕ) = 100000 from by norm_num]
  unfold Cert.Spec.colSumSq Cert.Spec.shift
  rw [stats_sum_fin_eq_range]
  refine Finset.sum_congr rfl fun p _ => ?_
  unfold accv13_term
  by_cases h : p < 100000
  · rw [dif_pos h, dif_pos h]
  · rw [dif_neg h, dif_neg h, mul_zero]

/-! ## The result rows after the run -/

/-- The last point, the one that writes the result rows back. -/
abbrev t13_last : Fin cfg13.N := ⟨19, by rw [show cfg13.N = 20 from N_13]; omega⟩

/-- The result rows as array contents: the scratch rows after the last point (each row's one block is the array). -/
abbrev result13_2 (c : Dev nD) : Buf (Elt Ideal) ((cfg13.win 2).arr.view.loc (c.tc : Thread nD τ)) := (acc13 V c 20).1
abbrev result13_3 (c : Dev nD) : Buf (Elt Ideal) ((cfg13.win 3).arr.view.loc (c.tc : Thread nD τ)) := (acc13 V c 20).2

/-- The one write-back of window 2, at the last point, writes the sum row: its block, read through zero offsets, is the array. -/
theorem flushed_eq13_2 (c : Dev nD) (t : Fin cfg13.N) (hf : (cfg13.win 2).flush t = true) :
    (dat13 V c).flushed 2 t = ((cfg13.win 2).blk t).view.read (Elt Ideal) (result13_2 V c) := by
  have hN : cfg13.N = 20 := N_13
  have h19 : t.val = 19 := by have := (flush13_2 t).mp hf; have := t.isLt; omega
  obtain rfl : t = t13_last := Fin.ext h19
  show (cfg13.win 2).cut (grid13.coords t13_last) ((dat13 V c).after 2 t13_last) = _
  rw [after13_2]
  have hz' : (fun a => win13_2.index t13_last a * (Pipeline.arrRef spec13 2).ty.shape.size a) = fun _ => 0 :=
    funext fun a => by fin_cases a <;> decide
  exact (Memref.read_access_unit_zero (Elt Ideal) (Pipeline.arrRef spec13 2) hz' (fun a => by rw [congrFun hz' a]; simp) (result13_2 V c)).symm

theorem flushed_eq13_3 (c : Dev nD) (t : Fin cfg13.N) (hf : (cfg13.win 3).flush t = true) :
    (dat13 V c).flushed 3 t = ((cfg13.win 3).blk t).view.read (Elt Ideal) (result13_3 V c) := by
  have hN : cfg13.N = 20 := N_13
  have h19 : t.val = 19 := by have := (flush13_3 t).mp hf; have := t.isLt; omega
  obtain rfl : t = t13_last := Fin.ext h19
  show (cfg13.win 3).cut (grid13.coords t13_last) ((dat13 V c).after 3 t13_last) = _
  rw [after13_3]
  have hz' : (fun a => win13_3.index t13_last a * (Pipeline.arrRef spec13 3).ty.shape.size a) = fun _ => 0 :=
    funext fun a => by fin_cases a <;> decide
  exact (Memref.read_access_unit_zero (Elt Ideal) (Pipeline.arrRef spec13 3) hz' (fun a => by rw [congrFun hz' a]; simp) (result13_3 V c)).symm

/-- So each result array ends holding its scratch row after the last point (that point's block covers it). -/
theorem final13_2 (c : Dev nD) : (dat13 V c).arrAt 2 cfg13.N = result13_2 V c :=
  (dat13 V c).arrAt_eq_of_cover 2 (result13_2 V c) (flushed_eq13_2 V c) fun i =>
    ⟨t13_last, (flush13_2 t13_last).mpr rfl, by
      show i ∈ ((View.whole (Pipeline.arrRef spec13 2)).slice (win13_2.rect t13_last)).set
      rw [View.set_slice_whole, Rect.mem_set_unit]
      intro a
      have h0 : (i 0 : Nat) < 1 := (i 0).isLt
      have h1 : (i 1 : Nat) < 32 := (i 1).isLt
      match a with
      | ⟨0, _⟩ => show win13_2.index t13_last 0 * win13_2.size 0 ≤ (i 0 : Nat) ∧ (i 0 : Nat) < win13_2.index t13_last 0 * win13_2.size 0 + win13_2.xsize (grid13.coords t13_last) 0
                  rw [show win13_2.index t13_last 0 * win13_2.size 0 = 0 from by decide +kernel, show win13_2.xsize (grid13.coords t13_last) 0 = 1 from by decide +kernel]; omega
      | ⟨1, _⟩ => show win13_2.index t13_last 1 * win13_2.size 1 ≤ (i 1 : Nat) ∧ (i 1 : Nat) < win13_2.index t13_last 1 * win13_2.size 1 + win13_2.xsize (grid13.coords t13_last) 1
                  rw [show win13_2.index t13_last 1 * win13_2.size 1 = 0 from by decide +kernel, show win13_2.xsize (grid13.coords t13_last) 1 = 32 from by decide +kernel]; omega⟩

theorem final13_3 (c : Dev nD) : (dat13 V c).arrAt 3 cfg13.N = result13_3 V c :=
  (dat13 V c).arrAt_eq_of_cover 3 (result13_3 V c) (flushed_eq13_3 V c) fun i =>
    ⟨t13_last, (flush13_3 t13_last).mpr rfl, by
      show i ∈ ((View.whole (Pipeline.arrRef spec13 3)).slice (win13_3.rect t13_last)).set
      rw [View.set_slice_whole, Rect.mem_set_unit]
      intro a
      have h0 : (i 0 : Nat) < 1 := (i 0).isLt
      have h1 : (i 1 : Nat) < 32 := (i 1).isLt
      match a with
      | ⟨0, _⟩ => show win13_3.index t13_last 0 * win13_3.size 0 ≤ (i 0 : Nat) ∧ (i 0 : Nat) < win13_3.index t13_last 0 * win13_3.size 0 + win13_3.xsize (grid13.coords t13_last) 0
                  rw [show win13_3.index t13_last 0 * win13_3.size 0 = 0 from by decide +kernel, show win13_3.xsize (grid13.coords t13_last) 0 = 1 from by decide +kernel]; omega
      | ⟨1, _⟩ => show win13_3.index t13_last 1 * win13_3.size 1 ≤ (i 1 : Nat) ∧ (i 1 : Nat) < win13_3.index t13_last 1 * win13_3.size 1 + win13_3.xsize (grid13.coords t13_last) 1
                  rw [show win13_3.index t13_last 1 * win13_3.size 1 = 0 from by decide +kernel, show win13_3.xsize (grid13.coords t13_last) 1 = 32 from by decide +kernel]; omega⟩

/-- THE VALUES: after the run, window 2's array is the column sums of the array shifted by the bias row, and window 3's
    the column sums of its square, over all 100000 rows. -/
theorem arrAt13_2 (c : Dev nD) (q : Fin 32) :
    (dat13 (F := Ideal) V c).arrAt 2 cfg13.N (ix2 (0 : Fin 1) q)
      = Cert.Spec.colSum (fun p q => V c (Pipeline.arrRef spec13 0) (ix2 p q)) (fun q => V c (Pipeline.arrRef spec13 1) (ix2 (0 : Fin 1) q)) q := by
  rw [final13_2]
  exact accv13_fst_final V c q

theorem arrAt13_3 (c : Dev nD) (q : Fin 32) :
    (dat13 (F := Ideal) V c).arrAt 3 cfg13.N (ix2 (0 : Fin 1) q)
      = Cert.Spec.colSumSq (fun p q => V c (Pipeline.arrRef spec13 0) (ix2 p q)) (fun q => V c (Pipeline.arrRef spec13 1) (ix2 (0 : Fin 1) q)) q := by
  rw [final13_3]
  exact accv13_snd_final V c q

end Cert.KernelIdeal.Hand
end
-- ==== Proof.KI.Norm14Value.lean ====
import proofs.«114689_j15281493639468_1_alg».proof.Proof.KI.Norm14
import proofs.«114689_j15281493639468_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«114689_j15281493639468_1_alg».proof.Proof.KI.NormLib
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-!
# What the normalisation region of pipeline 14 leaves in its output array

Every entry `(p, q)` of the output array is written by the grid point `p / 5000`, and what is written there is
`(A p q + bias q − mean q) · rsqrt (var q + ε) · γ q + β q`, where `A` is the aggregated array and the five rows
are the one-row arrays as the region finds them.
-/

variable (V : (c : Dev nD) → (b : Ref sig .tc) → Buf (Elt Ideal) ((c : Thread nD τ).loc b))

/-- The arrays the seven windows stage, by name. -/
theorem arrRef14_0 : Pipeline.arrRef spec14 0 = main_v239 := rfl
theorem arrRef14_1 : Pipeline.arrRef spec14 1 = main_v256 := rfl
theorem arrRef14_2 : Pipeline.arrRef spec14 2 = main_v245 := rfl
theorem arrRef14_3 : Pipeline.arrRef spec14 3 = main_v249 := rfl
theorem arrRef14_4 : Pipeline.arrRef spec14 4 = main_v257 := rfl
theorem arrRef14_5 : Pipeline.arrRef spec14 5 = main_v258 := rfl
theorem arrRef14_6 : Pipeline.arrRef spec14 6 = main_v259 := rfl

/-- The payload of the body's store, read at row `p` and column `q` of the block: the one-row operands are read
    at their only row. -/
theorem k14_pay1_apply (x0 : Vec Ideal S5000x32 .f32) (x1 x2 x3 x4 x5 : Vec Ideal S1x32 .f32) (p : Fin 5000) (q : Fin 32) :
    k14_pay1 x0 x1 x2 x3 x4 x5 (ix2 p q)
      = (x0 (ix2 p q) + x1 (ix2 (0 : Fin 1) q) - x2 (ix2 (0 : Fin 1) q)) * Ideal.rsqrt (x3 (ix2 (0 : Fin 1) q) + Cert.Spec.eps) * x4 (ix2 (0 : Fin 1) q) + x5 (ix2 (0 : Fin 1) q) := by
  unfold k14_pay1
  simp only [shapeCast_self]
  simp only [maximumf_apply, addf_apply, mulf_apply, subf_apply, broadcast_apply, broadcastTo_1b_ab_apply, rsqrt_vec_apply,
    Ideal.ofBits_def, Ideal.ofBits_zero_f32, Cert.Spec.eps]

/-- The output array the region leaves, as one function of the arrays the region finds. -/
def normArr14 (c : Dev nD) : S100000x32.Idx → EReal := fun i =>
  Cert.Spec.normalize false (fun p q => V c main_v239 (ix2 p q))
      (fun q => V c main_v256 (ix2 (0 : Fin 1) q))
      (fun q => V c main_v245 (ix2 (0 : Fin 1) q))
      (fun q => V c main_v249 (ix2 (0 : Fin 1) q))
      (fun q => V c main_v257 (ix2 (0 : Fin 1) q))
      (fun q => V c main_v258 (ix2 (0 : Fin 1) q)) (i 0) (i 1)

/-- The block index maps, decided over the 20 grid points: the aggregated array's and the output's blocks are
    block row `t`; each one-row array is its own only block. -/
theorem idx_facts14 : ∀ t : Fin cfg14.N, t.val < 20
    ∧ win14_0.index t (0 : Fin 2) = t.val ∧ win14_0.index t (1 : Fin 2) = 0
    ∧ win14_6.index t (0 : Fin 2) = t.val ∧ win14_6.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0 :=
  (by decide +kernel : ∀ t : Fin grid14.N, _)

/-- Block row `t` of a 100000-row array, read at `(p, q)`, is the array at row `5000 t + p` (window 0). -/
theorem read_blk14_0 (X : S100000x32.Idx → EReal) (t : Fin cfg14.N) (p : Fin 5000) (q : Fin 32) (h : t.val * 5000 + p.val < 100000) :
    ((cfg14.win 0).blk t).view.read (Elt Ideal) X (ix2 p q) = X (ix2 (⟨t.val * 5000 + p.val, h⟩ : Fin 100000) q) := by
  obtain ⟨ht, e00, e01, e60, e61, -⟩ := idx_facts14 t
  refine congrArg X ?_
  funext a; apply Fin.ext
  match a with
  | ⟨0, _⟩ => show win14_0.index t (0 : Fin 2) * 5000 + 1 * p.val = t.val * 5000 + p.val; omega
  | ⟨1, _⟩ => show win14_0.index t (1 : Fin 2) * 32 + 1 * q.val = q.val; omega
/-- Block row `t` of a 100000-row array, read at `(p, q)`, is the array at row `5000 t + p` (window 6). -/
theorem read_blk14_6 (X : S100000x32.Idx → EReal) (t : Fin cfg14.N) (p : Fin 5000) (q : Fin 32) (h : t.val * 5000 + p.val < 100000) :
    ((cfg14.win 6).blk t).view.read (Elt Ideal) X (ix2 p q) = X (ix2 (⟨t.val * 5000 + p.val, h⟩ : Fin 100000) q) := by
  obtain ⟨ht, e00, e01, e60, e61, -⟩ := idx_facts14 t
  refine congrArg X ?_
  funext a; apply Fin.ext
  match a with
  | ⟨0, _⟩ => show win14_6.index t (0 : Fin 2) * 5000 + 1 * p.val = t.val * 5000 + p.val; omega
  | ⟨1, _⟩ => show win14_6.index t (1 : Fin 2) * 32 + 1 * q.val = q.val; omega
/-- The only block of a one-row array, read at column `q`, is the array's row at `q` (window 1). -/
theorem read_blk14_1 (X : S1x32.Idx → EReal) (t : Fin cfg14.N) (q : Fin 32) :
    ((cfg14.win 1).blk t).view.read (Elt Ideal) X (ix2 (0 : Fin 1) q) = X (ix2 (0 : Fin 1) q) := by
  obtain ⟨ht, e00, e01, e60, e61, e10, e11, e20, e21, e30, e31, e40, e41, e50, e51⟩ := idx_facts14 t
  refine congrArg X ?_
  funext a; apply Fin.ext
  match a with
  | ⟨0, _⟩ => show win14_1.index t (0 : Fin 2) * 1 + 1 * 0 = 0; omega
  | ⟨1, _⟩ => show win14_1.index t (1 : Fin 2) * 32 + 1 * q.val = q.val; omega
/-- The only block of a one-row array, read at column `q`, is the array's row at `q` (window 2). -/
theorem read_blk14_2 (X : S1x32.Idx → EReal) (t : Fin cfg14.N) (q : Fin 32) :
    ((cfg14.win 2).blk t).view.read (Elt Ideal) X (ix2 (0 : Fin 1) q) = X (ix2 (0 : Fin 1) q) := by
  obtain ⟨ht, e00, e01, e60, e61, e10, e11, e20, e21, e30, e31, e40, e41, e50, e51⟩ := idx_facts14 t
  refine congrArg X ?_
  funext a; apply Fin.ext
  match a with
  | ⟨0, _⟩ => show win14_2.index t (0 : Fin 2) * 1 + 1 * 0 = 0; omega
  | ⟨1, _⟩ => show win14_2.index t (1 : Fin 2) * 32 + 1 * q.val = q.val; omega
/-- The only block of a one-row array, read at column `q`, is the array's row at `q` (window 3). -/
theorem read_blk14_3 (X : S1x32.Idx → EReal) (t : Fin cfg14.N) (q : Fin 32) :
    ((cfg14.win 3).blk t).view.read (Elt Ideal) X (ix2 (0 : Fin 1) q) = X (ix2 (0 : Fin 1) q) := by
  obtain ⟨ht, e00, e01, e60, e61, e10, e11, e20, e21, e30, e31, e40, e41, e50, e51⟩ := idx_facts14 t
  refine congrArg X ?_
  funext a; apply Fin.ext
  match a with
  | ⟨0, _⟩ => show win14_3.index t (0 : Fin 2) * 1 + 1 * 0 = 0; omega
  | ⟨1, _⟩ => show win14_3.index t (1 : Fin 2) * 32 + 1 * q.val = q.val; omega
/-- The only block of a one-row array, read at column `q`, is the array's row at `q` (window 4). -/
theorem read_blk14_4 (X : S1x32.Idx → EReal) (t : Fin cfg14.N) (q : Fin 32) :
    ((cfg14.win 4).blk t).view.read (Elt Ideal) X (ix2 (0 : Fin 1) q) = X (ix2 (0 : Fin 1) q) := by
  obtain ⟨ht, e00, e01, e60, e61, e10, e11, e20, e21, e30, e31, e40, e41, e50, e51⟩ := idx_facts14 t
  refine congrArg X ?_
  funext a; apply Fin.ext
  match a with
  | ⟨0, _⟩ => show win14_4.index t (0 : Fin 2) * 1 + 1 * 0 = 0; omega
  | ⟨1, _⟩ => show win14_4.index t (1 : Fin 2) * 32 + 1 * q.val = q.val; omega
/-- The only block of a one-row array, read at column `q`, is the array's row at `q` (window 5). -/
theorem read_blk14_5 (X : S1x32.Idx → EReal) (t : Fin cfg14.N) (q : Fin 32) :
    ((cfg14.win 5).blk t).view.read (Elt Ideal) X (ix2 (0 : Fin 1) q) = X (ix2 (0 : Fin 1) q) := by
  obtain ⟨ht, e00, e01, e60, e61, e10, e11, e20, e21, e30, e31, e40, e41, e50, e51⟩ := idx_facts14 t
  refine congrArg X ?_
  funext a; apply Fin.ext
  match a with
  | ⟨0, _⟩ => show win14_5.index t (0 : Fin 2) * 1 + 1 * 0 = 0; omega
  | ⟨1, _⟩ => show win14_5.index t (1 : Fin 2) * 32 + 1 * q.val = q.val; omega

/-- What grid point `t` writes back is block row `t` of `normArr14`. -/
theorem flushed14_6_eq (c : Dev nD) (t : Fin cfg14.N) :
    (dat14 V c).flushed 6 t = ((cfg14.win 6).blk t).view.read (Elt Ideal) (normArr14 V c) := by
  show (cfg14.win 6).cut (grid14.coords t) ((dat14 V c).after 6 t) = _
  rw [after14_6]
  unfold out14_6
  rw [View.canon_unit_zero off_zero2]
  simp only [View.ld_unit_zero (S := S5000x32) off_zero2, View.ld_unit_zero (S := S1x32) off_zero2]
  have ht : t.val < 20 := (idx_facts14 t).1
  funext j
  obtain ⟨p, q, rfl⟩ : ∃ (p : Fin 5000) (q : Fin 32), j = ix2 p q := ⟨j 0, j 1, eq_ix2 j⟩
  have hp : p.val < 5000 := p.isLt
  have hlt : t.val * 5000 + p.val < 100000 := by omega
  refine (k14_pay1_apply (iblk14 V c 0 t) (iblk14 V c 1 t) (iblk14 V c 2 t) (iblk14 V c 3 t) (iblk14 V c 4 t) (iblk14 V c 5 t) p q).trans ?_
  refine Eq.trans ?_ (read_blk14_6 (normArr14 V c) t p q hlt).symm
  have hb0 : (iblk14 V c 0 t (ix2 p q) : EReal) = V c main_v239 (ix2 (⟨t.val * 5000 + p.val, hlt⟩ : Fin 100000) q) :=
    read_blk14_0 (V c main_v239) t p q hlt
  have hb1 : (iblk14 V c 1 t (ix2 (0 : Fin 1) q) : EReal) = V c main_v256 (ix2 (0 : Fin 1) q) :=
    read_blk14_1 (V c main_v256) t q
  have hb2 : (iblk14 V c 2 t (ix2 (0 : Fin 1) q) : EReal) = V c main_v245 (ix2 (0 : Fin 1) q) :=
    read_blk14_2 (V c main_v245) t q
  have hb3 : (iblk14 V c 3 t (ix2 (0 : Fin 1) q) : EReal) = V c main_v249 (ix2 (0 : Fin 1) q) :=
    read_blk14_3 (V c main_v249) t q
  have hb4 : (iblk14 V c 4 t (ix2 (0 : Fin 1) q) : EReal) = V c main_v257 (ix2 (0 : Fin 1) q) :=
    read_blk14_4 (V c main_v257) t q
  have hb5 : (iblk14 V c 5 t (ix2 (0 : Fin 1) q) : EReal) = V c main_v258 (ix2 (0 : Fin 1) q) :=
    read_blk14_5 (V c main_v258) t q
  rw [hb0, hb1, hb2, hb3, hb4, hb5]
  dsimp only [normArr14, Cert.Spec.normalize, Cert.Spec.shift]
  exact (if_neg Bool.false_ne_true).symm

/-- An index of the output array is in point `t`'s block iff each coordinate is in the block's range on its axis. -/
theorem mem_blk14_6 (t : Fin cfg14.N) (i : S100000x32.Idx) :
    i ∈ ((cfg14.win 6).blk t).view.set ↔ ∀ a : Fin 2, win14_6.index t a * S5000x32.size a ≤ (i a).val ∧ (i a).val < win14_6.index t a * S5000x32.size a + S5000x32.size a := by
  show i ∈ ((View.whole main_v259).slice (win14_6.rect t)).set ↔ _
  rw [View.set_slice_whole, Rect.mem_set_unit]
  exact Iff.rfl

/-- Every index of the output array is in the block of the grid point `row / 5000`, which writes it back. -/
theorem cover14_arr (i : S100000x32.Idx) :
    ∃ t : Fin cfg14.N, (cfg14.win 6).flush t = true ∧ i ∈ ((cfg14.win 6).blk t).view.set := by
  have hi0 : (i 0).val < 100000 := (i 0).isLt
  have hi1 : (i 1).val < 32 := (i 1).isLt
  have hN : cfg14.N = 20 := N_14
  let t : Fin cfg14.N := ⟨(i 0).val / 5000, by rw [hN]; omega⟩
  obtain ⟨ht, e00, e01, e60, e61, -⟩ := idx_facts14 t
  have htv : t.val = (i 0).val / 5000 := rfl
  refine ⟨t, flush14_6 t, ?_⟩
  rw [mem_blk14_6]
  intro a
  match a with
  | ⟨0, _⟩ => show win14_6.index t (0 : Fin 2) * 5000 ≤ (i 0).val ∧ (i 0).val < win14_6.index t (0 : Fin 2) * 5000 + 5000; omega
  | ⟨1, _⟩ => show win14_6.index t (1 : Fin 2) * 32 ≤ (i 1).val ∧ (i 1).val < win14_6.index t (1 : Fin 2) * 32 + 32; omega

/-- The output array after the region, entry by entry. -/
theorem arrAt14_6 (c : Dev nD) (p : Fin 100000) (q : Fin 32) :
    (dat14 (F := Ideal) V c).arrAt 6 cfg14.N (ix2 p q)
      = Cert.Spec.normalize false (fun p q => V c main_v239 (ix2 p q))
      (fun q => V c main_v256 (ix2 (0 : Fin 1) q))
      (fun q => V c main_v245 (ix2 (0 : Fin 1) q))
      (fun q => V c main_v249 (ix2 (0 : Fin 1) q))
      (fun q => V c main_v257 (ix2 (0 : Fin 1) q))
      (fun q => V c main_v258 (ix2 (0 : Fin 1) q)) p q :=
  congrFun ((dat14 V c).arrAt_eq_of_cover 6 (normArr14 V c) (fun t _ => flushed14_6_eq V c t) (cover14_arr)) (ix2 p q)

end Cert.KernelIdeal.Hand
-- ==== Proof.KI.ChainL4.lean ====
/-
  Layer 4 of the network as the first program's run leaves it: the perceptron on every row of the layer's input,
  the edge aggregation, the two column sums, the mean and variance rows, and the normalisation, each read off the
  contents of the buffers at the boundary where it is produced and carried unchanged to where it is used.
-/
import proofs.«114689_j15281493639468_1_alg».proof.Proof.KI.Fold
import proofs.«114689_j15281493639468_1_alg».proof.Proof.KI.HostWrites
import proofs.«114689_j15281493639468_1_alg».proof.Proof.KI.ChainHost4
import proofs.«114689_j15281493639468_1_alg».proof.Proof.KI.Mlp12Value
import proofs.«114689_j15281493639468_1_alg».proof.Proof.KI.Stats13Value
import proofs.«114689_j15281493639468_1_alg».proof.Proof.KI.Norm14Value
import proofs.«114689_j15281493639468_1_alg».proof.Proof.SpecNet
import proofs.«114689_j15281493639468_1_alg».proof.Proof.SpecRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's operands, named -/

/-- The layer's input rows. -/
abbrev lay4_H (c : Dev nD) : Fin 100000 → Fin 32 → EReal := Cert.Spec.cur (W29 m c (Proc.devRef .tc main_v215))
/-- Its first weight matrix. -/
abbrev lay4_W1 (c : Dev nD) : Fin 32 → Fin 32 → EReal := Cert.Spec.matOf (m ((c : Thread nD τ).loc main_arg3)) (3 : Fin 4)
abbrev lay4_b1 (c : Dev nD) : Fin 32 → EReal := Cert.Spec.rowOf (m ((c : Thread nD τ).loc main_arg4)) (4 : Fin 5)
abbrev lay4_W2 (c : Dev nD) : Fin 32 → Fin 32 → EReal := Cert.Spec.matOf (m ((c : Thread nD τ).loc main_arg5)) (4 : Fin 5)
abbrev lay4_b2 (c : Dev nD) : Fin 32 → EReal := Cert.Spec.rowOf (m ((c : Thread nD τ).loc main_arg6)) (4 : Fin 5)
abbrev lay4_bias (c : Dev nD) : Fin 32 → EReal := Cert.Spec.rowOf (m ((c : Thread nD τ).loc main_arg7)) (4 : Fin 5)
abbrev lay4_gamma (c : Dev nD) : Fin 32 → EReal := Cert.Spec.rowOf (m ((c : Thread nD τ).loc main_arg8)) (4 : Fin 5)
abbrev lay4_beta (c : Dev nD) : Fin 32 → EReal := Cert.Spec.rowOf (m ((c : Thread nD τ).loc main_arg9)) (4 : Fin 5)
/-- The perceptron's rows. -/
abbrev lay4_Z (c : Dev nD) : Fin 100000 → Fin 32 → EReal :=
  Cert.Spec.dense (lay4_H m c) (lay4_W1 m c) (lay4_b1 m c) (lay4_W2 m c) (lay4_b2 m c)
/-- The aggregated rows. -/
abbrev lay4_A (c : Dev nD) : Fin 100000 → Fin 32 → EReal :=
  Cert.Spec.cur (Cert.Spec.aggArr (W5 m c (Proc.devRef .tc main_v3)) (W5 m c (Proc.devRef .tc main_v6)) (W5 m c (Proc.devRef .tc main_v41))
    (Cert.Spec.uncur (lay4_Z m c)))

/-! ## Buffers nothing writes between where they are produced and where they are read -/

theorem k4_arg3 (c : Dev nD) : W28 m c (Proc.devRef .tc main_arg3) = m ((c : Thread nD τ).loc main_arg3) :=
      (W28_of_ne m c main_arg3 (by decide)).trans <|
      (StableHlo.after_of_writes_sub hostOps11 _ Cert.KernelIdeal.GenP.hostOps11_writes (by decide : main_arg3 ∉ Cert.KernelIdeal.GenP.hostOps11_W)).trans <|
      (W26_of_ne m c main_arg3 (by decide)).trans <|
      (StableHlo.after_of_writes_sub hostOps10 _ Cert.KernelIdeal.GenP.hostOps10_writes (by decide : main_arg3 ∉ Cert.KernelIdeal.GenP.hostOps10_W)).trans <|
      (W24_of_ne m c main_arg3 (by decide)).trans <|
      (StableHlo.after_of_writes_sub hostOps9 _ Cert.KernelIdeal.GenP.hostOps9_writes (by decide : main_arg3 ∉ Cert.KernelIdeal.GenP.hostOps9_W)).trans <|
      (W22_of_ne m c main_arg3 (by decide)).trans <|
      (StableHlo.after_of_writes_sub hostOps8 _ Cert.KernelIdeal.GenP.hostOps8_writes (by decide : main_arg3 ∉ Cert.KernelIdeal.GenP.hostOps8_W)).trans <|
      (W20_of_ne m c main_arg3 (by decide)).trans <|
      (StableHlo.after_of_writes_sub hostOps7 _ Cert.KernelIdeal.GenP.hostOps7_writes (by decide : main_arg3 ∉ Cert.KernelIdeal.GenP.hostOps7_W)).trans <|
      (W18_of_ne m c main_arg3 (by decide)).trans <|
      (StableHlo.after_of_writes_sub hostOps6 _ Cert.KernelIdeal.GenP.hostOps6_writes (by decide : main_arg3 ∉ Cert.KernelIdeal.GenP.hostOps6_W)).trans <|
      (W16_of_ne m c main_arg3 (by decide)).trans <|
      (StableHlo.after_of_writes_sub hostOps5 _ Cert.KernelIdeal.GenP.hostOps5_writes (by decide : main_arg3 ∉ Cert.KernelIdeal.GenP.hostOps5_W)).trans <|
      (W14_of_ne m c main_arg3 (by decide)).trans <|
      (StableHlo.after_of_writes_sub hostOps4 _ Cert.KernelIdeal.GenP.hostOps4_writes (by decide : main_arg3 ∉ Cert.KernelIdeal.GenP.hostOps4_W)).trans <|
      (W12_of_ne m c main_arg3 (by decide)).trans <|
      (StableHlo.after_of_writes_sub hostOps3 _ Cert.KernelIdeal.GenP.hostOps3_writes (by decide : main_arg3 ∉ Cert.KernelIdeal.GenP.hostOps3_W)).trans <|
      (W10_of_ne m c main_arg3 (by decide)).trans <|
      (StableHlo.after_of_writes_sub hostOps2 _ Cert.KernelIdeal.GenP.hostOps2_writes (by decide : main_arg3 ∉ Cert.KernelIdeal.GenP.hostOps2_W)).trans <|
      (W8_of_ne m c main_arg3 (by decide)).trans <|
      (StableHlo.after_of_writes_sub hostOps1 _ Cert.KernelIdeal.GenP.hostOps1_writes (by decide : main_arg3 ∉ Cert.KernelIdeal.GenP.hostOps1_W)).trans <|
      (W6_of_ne m c main_arg3 (by decide)).trans <|
      (StableHlo.after_of_writes_sub hostOps0_4 _ Cert.KernelIdeal.GenP.hostOps0_4_writes (by decide : main_arg3 ∉ Cert.KernelIdeal.GenP.hostOps0_4_W)).trans <|
      (StableHlo.after_of_writes_sub hostOps0_3 _ Cert.KernelIdeal.GenP.hostOps0_3_writes (by decide : main_arg3 ∉ Cert.KernelIdeal.GenP.hostOps0_3_W)).trans <|
      (StableHlo.after_of_writes_sub hostOps0_2 _ Cert.KernelIdeal.GenP.hostOps0_2_writes (by decide : main_arg3 ∉ Cert.KernelIdeal.GenP.hostOps0_2_W)).trans <|
      (StableHlo.after_of_writes_sub hostOps0_1 _ Cert.KernelIdeal.GenP.hostOps0_1_writes (by decide : main_arg3 ∉ Cert.KernelIdeal.GenP.hostOps0_1_W)).trans <|
      (StableHlo.after_of_writes_sub hostOps0 _ Cert.KernelIdeal.GenP.hostOps0_writes (by decide : main_arg3 ∉ Cert.KernelIdeal.GenP.hostOps0_W)).trans rfl

theorem k4_arg4 (c : Dev nD) : W28 m c (Proc.devRef .tc main_arg4) = m ((c : Thread nD τ).loc main_arg4) :=
      (W28_of_ne m c main_arg4 (by decide)).trans <|
      (StableHlo.after_of_writes_sub hostOps11 _ Cert.KernelIdeal.GenP.hostOps11_writes (by decide : main_arg4 ∉ Cert.KernelIdeal.GenP.hostOps11_W)).trans <|
      (W26_of_ne m c main_arg4 (by decide)).trans <|
      (StableHlo.after_of_writes_sub hostOps10 _ Cert.KernelIdeal.GenP.hostOps10_writes (by decide : main_arg4 ∉ Cert.KernelIdeal.GenP.hostOps10_W)).trans <|
      (W24_of_ne m c main_arg4 (by decide)).trans <|
      (StableHlo.after_of_writes_sub hostOps9 _ Cert.KernelIdeal.GenP.hostOps9_writes (by decide : main_arg4 ∉ Cert.KernelIdeal.GenP.hostOps9_W)).trans <|
      (W22_of_ne m c main_arg4 (by decide)).trans <|
      (StableHlo.after_of_writes_sub hostOps8 _ Cert.KernelIdeal.GenP.hostOps8_writes (by decide : main_arg4 ∉ Cert.KernelIdeal.GenP.hostOps8_W)).trans <|
      (W20_of_ne m c main_arg4 (by decide)).trans <|
      (StableHlo.after_of_writes_sub hostOps7 _ Cert.KernelIdeal.GenP.hostOps7_writes (by decide : main_arg4 ∉ Cert.KernelIdeal.GenP.hostOps7_W)).trans <|
      (W18_of_ne m c main_arg4 (by decide)).trans <|
      (StableHlo.after_of_writes_sub hostOps6 _ Cert.KernelIdeal.GenP.hostOps6_writes (by decide : main_arg4 ∉ Cert.KernelIdeal.GenP.hostOps6_W)).trans <|
      (W16_of_ne m c main_arg4 (by decide)).trans <|
      (StableHlo.after_of_writes_sub hostOps5 _ Cert.KernelIdeal.GenP.hostOps5_writes (by decide : main_arg4 ∉ Cert.KernelIdeal.GenP.hostOps5_W)).trans <|
      (W14_of_ne m c main_arg4 (by decide)).trans <|
      (StableHlo.after_of_writes_sub hostOps4 _ Cert.KernelIdeal.GenP.hostOps4_writes (by decide : main_arg4 ∉ Cert.KernelIdeal.GenP.hostOps4_W)).trans <|
      (W12_of_ne m c main_arg4 (by decide)).trans <|
      (StableHlo.after_of_writes_sub hostOps3 _ Cert.KernelIdeal.GenP.hostOps3_writes (by decide : main_arg4 ∉ Cert.KernelIdeal.GenP.hostOps3_W)).trans <|
      (W10_of_ne m c main_arg4 (by decide)).trans <|
      (StableHlo.after_of_writes_sub hostOps2 _ Cert.KernelIdeal.GenP.hostOps2_writes (by decide : main_arg4 ∉ Cert.KernelIdeal.GenP.hostOps2_W)).trans <|
      (W8_of_ne m c main_arg4 (by decide)).trans <|
      (StableHlo.after_of_writes_sub hostOps1 _ Cert.KernelIdeal.GenP.hostOps1_writes (by decide : main_arg4 ∉ Cert.KernelIdeal.GenP.hostOps1_W)).trans <|
      (W6_of_ne m c main_arg4 (by decide)).trans <|
      (StableHlo.after_of_writes_sub hostOps0_4 _ Cert.KernelIdeal.GenP.hostOps0_4_writes (by decide : main_arg4 ∉ Cert.KernelIdeal.GenP.hostOps0_4_W)).trans <|
      (StableHlo.after_of_writes_sub hostOps0_3 _ Cert.KernelIdeal.GenP.hostOps0_3_writes (by decide : main_arg4 ∉ Cert.KernelIdeal.GenP.hostOps0_3_W)).trans <|
      (StableHlo.after_of_writes_sub hostOps0_2 _ Cert.KernelIdeal.GenP.hostOps0_2_writes (by decide : main_arg4 ∉ Cert.KernelIdeal.GenP.hostOps0_2_W)).trans <|
      (StableHlo.after_of_writes_sub hostOps0_1 _ Cert.KernelIdeal.GenP.hostOps0_1_writes (by decide : main_arg4 ∉ Cert.KernelIdeal.GenP.hostOps0_1_W)).trans <|
      (StableHlo.after_of_writes_sub hostOps0 _ Cert.KernelIdeal.GenP.hostOps0_writes (by decide : main_arg4 ∉ Cert.KernelIdeal.GenP.hostOps0_W)).trans rfl

theorem k4_arg5 (c : Dev nD) : W28 m c (Proc.devRef .tc main_arg5) = m ((c : Thread nD τ).loc main_arg5) :=
      (W28_of_ne m c main_arg5 (by decide)).trans <|
      (StableHlo.after_of_writes_sub hostOps11 _ Cert.KernelIdeal.GenP.hostOps11_writes (by decide : main_arg5 ∉ Cert.KernelIdeal.GenP.hostOps11_W)).trans <|
      (W26_of_ne m c main_arg5 (by decide)).trans <|
      (StableHlo.after_of_writes_sub hostOps10 _ Cert.KernelIdeal.GenP.hostOps10_writes (by decide : main_arg5 ∉ Cert.KernelIdeal.GenP.hostOps10_W)).trans <|
      (W24_of_ne m c main_arg5 (by decide)).trans <|
      (StableHlo.after_of_writes_sub hostOps9 _ Cert.KernelIdeal.GenP.hostOps9_writes (by decide : main_arg5 ∉ Cert.KernelIdeal.GenP.hostOps9_W)).trans <|
      (W22_of_ne m c main_arg5 (by decide)).trans <|
      (StableHlo.after_of_writes_sub hostOps8 _ Cert.KernelIdeal.GenP.hostOps8_writes (by decide : main_arg5 ∉ Cert.KernelIdeal.GenP.hostOps8_W)).trans <|
      (W20_of_ne m c main_arg5 (by decide)).trans <|
      (StableHlo.after_of_writes_sub hostOps7 _ Cert.KernelIdeal.GenP.hostOps7_writes (by decide : main_arg5 ∉ Cert.KernelIdeal.GenP.hostOps7_W)).trans <|
      (W18_of_ne m c main_arg5 (by decide)).trans <|
      (StableHlo.after_of_writes_sub hostOps6 _ Cert.KernelIdeal.GenP.hostOps6_writes (by decide : main_arg5 ∉ Cert.KernelIdeal.GenP.hostOps6_W)).trans <|
      (W16_of_ne m c main_arg5 (by decide)).trans <|
      (StableHlo.after_of_writes_sub hostOps5 _ Cert.KernelIdeal.GenP.hostOps5_writes (by decide : main_arg5 ∉ Cert.KernelIdeal.GenP.hostOps5_W)).trans <|
      (W14_of_ne m c main_arg5 (by decide)).trans <|
      (StableHlo.after_of_writes_sub hostOps4 _ Cert.KernelIdeal.GenP.hostOps4_writes (by decide : main_arg5 ∉ Cert.KernelIdeal.GenP.hostOps4_W)).trans <|
      (W12_of_ne m c main_arg5 (by decide)).trans <|
      (StableHlo.after_of_writes_sub hostOps3 _ Cert.KernelIdeal.GenP.hostOps3_writes (by decide : main_arg5 ∉ Cert.KernelIdeal.GenP.hostOps3_W)).trans <|
      (W10_of_ne m c main_arg5 (by decide)).trans <|
      (StableHlo.after_of_writes_sub hostOps2 _ Cert.KernelIdeal.GenP.hostOps2_writes (by decide : main_arg5 ∉ Cert.KernelIdeal.GenP.hostOps2_W)).trans <|
      (W8_of_ne m c main_arg5 (by decide)).trans <|
      (StableHlo.after_of_writes_sub hostOps1 _ Cert.KernelIdeal.GenP.hostOps1_writes (by decide : main_arg5 ∉ Cert.KernelIdeal.GenP.hostOps1_W)).trans <|
      (W6_of_ne m c main_arg5 (by decide)).trans <|
      (StableHlo.after_of_writes_sub hostOps0_4 _ Cert.KernelIdeal.GenP.hostOps0_4_writes (by decide : main_arg5 ∉ Cert.KernelIdeal.GenP.hostOps0_4_W)).trans <|
      (StableHlo.after_of_writes_sub hostOps0_3 _ Cert.KernelIdeal.GenP.hostOps0_3_writes (by decide : main_arg5 ∉ Cert.KernelIdeal.GenP.hostOps0_3_W)).trans <|
      (StableHlo.after_of_writes_sub hostOps0_2 _ Cert.KernelIdeal.GenP.hostOps0_2_writes (by decide : main_arg5 ∉ Cert.KernelIdeal.GenP.hostOps0_2_W)).trans <|
      (StableHlo.after_of_writes_sub hostOps0_1 _ Cert.KernelIdeal.GenP.hostOps0_1_writes (by decide : main_arg5 ∉ Cert.KernelIdeal.GenP.hostOps0_1_W)).trans <|
      (StableHlo.after_of_writes_sub hostOps0 _ Cert.KernelIdeal.GenP.hostOps0_writes (by decide : main_arg5 ∉ Cert.KernelIdeal.GenP.hostOps0_W)).trans rfl

theorem k4_arg6 (c : Dev nD) : W28 m c (Proc.devRef .tc main_arg6) = m ((c : Thread nD τ).loc main_arg6) :=
      (W28_of_ne m c main_arg6 (by decide)).trans <|
      (StableHlo.after_of_writes_sub hostOps11 _ Cert.KernelIdeal.GenP.hostOps11_writes (by decide : main_arg6 ∉ Cert.KernelIdeal.GenP.hostOps11_W)).trans <|
      (W26_of_ne m c main_arg6 (by decide)).trans <|
      (StableHlo.after_of_writes_sub hostOps10 _ Cert.KernelIdeal.GenP.hostOps10_writes (by decide : main_arg6 ∉ Cert.KernelIdeal.GenP.hostOps10_W)).trans <|
      (W24_of_ne m c main_arg6 (by decide)).trans <|
      (StableHlo.after_of_writes_sub hostOps9 _ Cert.KernelIdeal.GenP.hostOps9_writes (by decide : main_arg6 ∉ Cert.KernelIdeal.GenP.hostOps9_W)).trans <|
      (W22_of_ne m c main_arg6 (by decide)).trans <|
      (StableHlo.after_of_writes_sub hostOps8 _ Cert.KernelIdeal.GenP.hostOps8_writes (by decide : main_arg6 ∉ Cert.KernelIdeal.GenP.hostOps8_W)).trans <|
      (W20_of_ne m c main_arg6 (by decide)).trans <|
      (StableHlo.after_of_writes_sub hostOps7 _ Cert.KernelIdeal.GenP.hostOps7_writes (by decide : main_arg6 ∉ Cert.KernelIdeal.GenP.hostOps7_W)).trans <|
      (W18_of_ne m c main_arg6 (by decide)).trans <|
      (StableHlo.after_of_writes_sub hostOps6 _ Cert.KernelIdeal.GenP.hostOps6_writes (by decide : main_arg6 ∉ Cert.KernelIdeal.GenP.hostOps6_W)).trans <|
      (W16_of_ne m c main_arg6 (by decide)).trans <|
      (StableHlo.after_of_writes_sub hostOps5 _ Cert.KernelIdeal.GenP.hostOps5_writes (by decide : main_arg6 ∉ Cert.KernelIdeal.GenP.hostOps5_W)).trans <|
      (W14_of_ne m c main_arg6 (by decide)).trans <|
      (StableHlo.after_of_writes_sub hostOps4 _ Cert.KernelIdeal.GenP.hostOps4_writes (by decide : main_arg6 ∉ Cert.KernelIdeal.GenP.hostOps4_W)).trans <|
      (W12_of_ne m c main_arg6 (by decide)).trans <|
      (StableHlo.after_of_writes_sub hostOps3 _ Cert.KernelIdeal.GenP.hostOps3_writes (by decide : main_arg6 ∉ Cert.KernelIdeal.GenP.hostOps3_W)).trans <|
      (W10_of_ne m c main_arg6 (by decide)).trans <|
      (StableHlo.after_of_writes_sub hostOps2 _ Cert.KernelIdeal.GenP.hostOps2_writes (by decide : main_arg6 ∉ Cert.KernelIdeal.GenP.hostOps2_W)).trans <|
      (W8_of_ne m c main_arg6 (by decide)).trans <|
      (StableHlo.after_of_writes_sub hostOps1 _ Cert.KernelIdeal.GenP.hostOps1_writes (by decide : main_arg6 ∉ Cert.KernelIdeal.GenP.hostOps1_W)).trans <|
      (W6_of_ne m c main_arg6 (by decide)).trans <|
      (StableHlo.after_of_writes_sub hostOps0_4 _ Cert.KernelIdeal.GenP.hostOps0_4_writes (by decide : main_arg6 ∉ Cert.KernelIdeal.GenP.hostOps0_4_W)).trans <|
      (StableHlo.after_of_writes_sub hostOps0_3 _ Cert.KernelIdeal.GenP.hostOps0_3_writes (by decide : main_arg6 ∉ Cert.KernelIdeal.GenP.hostOps0_3_W)).trans <|
      (StableHlo.after_of_writes_sub hostOps0_2 _ Cert.KernelIdeal.GenP.hostOps0_2_writes (by decide : main_arg6 ∉ Cert.KernelIdeal.GenP.hostOps0_2_W)).trans <|
      (StableHlo.after_of_writes_sub hostOps0_1 _ Cert.KernelIdeal.GenP.hostOps0_1_writes (by decide : main_arg6 ∉ Cert.KernelIdeal.GenP.hostOps0_1_W)).trans <|
      (StableHlo.after_of_writes_sub hostOps0 _ Cert.KernelIdeal.GenP.hostOps0_writes (by decide : main_arg6 ∉ Cert.KernelIdeal.GenP.hostOps0_W)).trans rfl

theorem k4_arg7a (c : Dev nD) : W30 m c (Proc.devRef .tc main_arg7) = m ((c : Thread nD τ).loc main_arg7) :=
      (W30_of_ne m c main_arg7 (by decide)).trans <|
      (StableHlo.after_of_writes_sub hostOps12 _ Cert.KernelIdeal.GenP.hostOps12_writes (by decide : main_arg7 ∉ Cert.KernelIdeal.GenP.hostOps12_W)).trans <|
      (W28_of_ne m c main_arg7 (by decide)).trans <|
      (StableHlo.after_of_writes_sub hostOps11 _ Cert.KernelIdeal.GenP.hostOps11_writes (by decide : main_arg7 ∉ Cert.KernelIdeal.GenP.hostOps11_W)).trans <|
      (W26_of_ne m c main_arg7 (by decide)).trans <|
      (StableHlo.after_of_writes_sub hostOps10 _ Cert.KernelIdeal.GenP.hostOps10_writes (by decide : main_arg7 ∉ Cert.KernelIdeal.GenP.hostOps10_W)).trans <|
      (W24_of_ne m c main_arg7 (by decide)).trans <|
      (StableHlo.after_of_writes_sub hostOps9 _ Cert.KernelIdeal.GenP.hostOps9_writes (by decide : main_arg7 ∉ Cert.KernelIdeal.GenP.hostOps9_W)).trans <|
      (W22_of_ne m c main_arg7 (by decide)).trans <|
      (StableHlo.after_of_writes_sub hostOps8 _ Cert.KernelIdeal.GenP.hostOps8_writes (by decide : main_arg7 ∉ Cert.KernelIdeal.GenP.hostOps8_W)).trans <|
      (W20_of_ne m c main_arg7 (by decide)).trans <|
      (StableHlo.after_of_writes_sub hostOps7 _ Cert.KernelIdeal.GenP.hostOps7_writes (by decide : main_arg7 ∉ Cert.KernelIdeal.GenP.hostOps7_W)).trans <|
      (W18_of_ne m c main_arg7 (by decide)).trans <|
      (StableHlo.after_of_writes_sub hostOps6 _ Cert.KernelIdeal.GenP.hostOps6_writes (by decide : main_arg7 ∉ Cert.KernelIdeal.GenP.hostOps6_W)).trans <|
      (W16_of_ne m c main_arg7 (by decide)).trans <|
      (StableHlo.after_of_writes_sub hostOps5 _ Cert.KernelIdeal.GenP.hostOps5_writes (by decide : main_arg7 ∉ Cert.KernelIdeal.GenP.hostOps5_W)).trans <|
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k4_arg7b (c : Dev nD) : W32 m c (Proc.devRef .tc main_arg7) = m ((c : Thread nD τ).loc main_arg7) :=
      (W32_of_ne m c main_arg7 (by decide)).trans <|
      (StableHlo.after_of_writes_sub hostOps13 _ Cert.KernelIdeal.GenP.hostOps13_writes (by decide : main_arg7 ∉ Cert.KernelIdeal.GenP.hostOps13_W)).trans <|
      (W30_of_ne m c main_arg7 (by decide)).trans <|
      (StableHlo.after_of_writes_sub hostOps12 _ Cert.KernelIdeal.GenP.hostOps12_writes (by decide : main_arg7 ∉ Cert.KernelIdeal.GenP.hostOps12_W)).trans <|
      (W28_of_ne m c main_arg7 (by decide)).trans <|
      (StableHlo.after_of_writes_sub hostOps11 _ Cert.KernelIdeal.GenP.hostOps11_writes (by decide : main_arg7 ∉ Cert.KernelIdeal.GenP.hostOps11_W)).trans <|
      (W26_of_ne m c main_arg7 (by decide)).trans <|
      (StableHlo.after_of_writes_sub hostOps10 _ Cert.KernelIdeal.GenP.hostOps10_writes (by decide : main_arg7 ∉ Cert.KernelIdeal.GenP.hostOps10_W)).trans <|
      (W24_of_ne m c main_arg7 (by decide)).trans <|
      (StableHlo.after_of_writes_sub hostOps9 _ Cert.KernelIdeal.GenP.hostOps9_writes (by decide : main_arg7 ∉ Cert.KernelIdeal.GenP.hostOps9_W)).trans <|
      (W22_of_ne m c main_arg7 (by decide)).trans <|
      (StableHlo.after_of_writes_sub hostOps8 _ Cert.KernelIdeal.GenP.hostOps8_writes (by decide : main_arg7 ∉ Cert.KernelIdeal.GenP.hostOps8_W)).trans <|
      (W20_of_ne m c main_arg7 (by decide)).trans <|
      (StableHlo.after_of_writes_sub hostOps7 _ Cert.KernelIdeal.GenP.hostOps7_writes (by decide : main_arg7 ∉ Cert.KernelIdeal.GenP.hostOps7_W)).trans <|
      (W18_of_ne m c main_arg7 (by decide)).trans <|
      (StableHlo.after_of_writes_sub hostOps6 _ Cert.KernelIdeal.GenP.hostOps6_writes (by decide : main_arg7 ∉ Cert.KernelIdeal.GenP.hostOps6_W)).trans <|
      (W16_of_ne m c main_arg7 (by decide)).trans <|
      (StableHlo.after_of_writes_sub hostOps5 _ Cert.KernelIdeal.GenP.hostOps5_writes (by decide : main_arg7 ∉ Cert.KernelIdeal.GenP.hostOps5_W)).trans <|
      (W14_of_ne m c main_arg7 (by decide)).trans <|
      (StableHlo.after_of_writes_sub hostOps4 _ Cert.KernelIdeal.GenP.hostOps4_writes (by decide : main_arg7 ∉ Cert.KernelIdeal.GenP.hostOps4_W)).trans <|
      (W12_of_ne m c main_arg7 (by decide)).trans <|
      (StableHlo.after_of_writes_sub hostOps3 _ Cert.KernelIdeal.GenP.hostOps3_writes (by decide : main_arg7 ∉ Cert.KernelIdeal.GenP.hostOps3_W)).trans <|
      (W10_of_ne m c main_arg7 (by decide)).trans <|
      (StableHlo.after_of_writes_sub hostOps2 _ Cert.KernelIdeal.GenP.hostOps2_writes (by decide : main_arg7 ∉ Cert.KernelIdeal.GenP.hostOps2_W)).trans <|
      (W8_of_ne m c main_arg7 (by decide)).trans <|
      (StableHlo.after_of_writes_sub hostOps1 _ Cert.KernelIdeal.GenP.hostOps1_writes (by decide : main_arg7 ∉ Cert.KernelIdeal.GenP.hostOps1_W)).trans <|
      (W6_of_ne m c main_arg7 (by decide)).trans <|
      (StableHlo.after_of_writes_sub hostOps0_4 _ Cert.KernelIdeal.GenP.hostOps0_4_writes (by decide : main_arg7 ∉ Cert.KernelIdeal.GenP.hostOps0_4_W)).trans <|
      (StableHlo.after_of_writes_sub hostOps0_3 _ Cert.KernelIdeal.GenP.hostOps0_3_writes (by decide : main_arg7 ∉ Cert.KernelIdeal.GenP.hostOps0_3_W)).trans <|
      (StableHlo.after_of_writes_sub hostOps0_2 _ Cert.KernelIdeal.GenP.hostOps0_2_writes (by decide : main_arg7 ∉ Cert.KernelIdeal.GenP.hostOps0_2_W)).trans <|
      (StableHlo.after_of_writes_sub hostOps0_1 _ Cert.KernelIdeal.GenP.hostOps0_1_writes (by decide : main_arg7 ∉ Cert.KernelIdeal.GenP.hostOps0_1_W)).trans <|
      (StableHlo.after_of_writes_sub hostOps0 _ Cert.KernelIdeal.GenP.hostOps0_writes (by decide : main_arg7 ∉ Cert.KernelIdeal.GenP.hostOps0_W)).trans rfl

theorem k4_arg8 (c : Dev nD) : W32 m c (Proc.devRef .tc main_arg8) = m ((c : Thread nD τ).loc main_arg8) :=
      (W32_of_ne m c main_arg8 (by decide)).trans <|
      (StableHlo.after_of_writes_sub hostOps13 _ Cert.KernelIdeal.GenP.hostOps13_writes (by decide : main_arg8 ∉ Cert.KernelIdeal.GenP.hostOps13_W)).trans <|
      (W30_of_ne m c main_arg8 (by decide)).trans <|
      (StableHlo.after_of_writes_sub hostOps12 _ Cert.KernelIdeal.GenP.hostOps12_writes (by decide : main_arg8 ∉ Cert.KernelIdeal.GenP.hostOps12_W)).trans <|
      (W28_of_ne m c main_arg8 (by decide)).trans <|
      (StableHlo.after_of_writes_sub hostOps11 _ Cert.KernelIdeal.GenP.hostOps11_writes (by decide : main_arg8 ∉ Cert.KernelIdeal.GenP.hostOps11_W)).trans <|
      (W26_of_ne m c main_arg8 (by decide)).trans <|
      (StableHlo.after_of_writes_sub hostOps10 _ Cert.KernelIdeal.GenP.hostOps10_writes (by decide : main_arg8 ∉ Cert.KernelIdeal.GenP.hostOps10_W)).trans <|
      (W24_of_ne m c main_arg8 (by decide)).trans <|
      (StableHlo.after_of_writes_sub hostOps9 _ Cert.KernelIdeal.GenP.hostOps9_writes (by decide : main_arg8 ∉ Cert.KernelIdeal.GenP.hostOps9_W)).trans <|
      (W22_of_ne m c main_arg8 (by decide)).trans <|
      (StableHlo.after_of_writes_sub hostOps8 _ Cert.KernelIdeal.GenP.hostOps8_writes (by decide : main_arg8 ∉ Cert.KernelIdeal.GenP.hostOps8_W)).trans <|
      (W20_of_ne m c main_arg8 (by decide)).trans <|
      (StableHlo.after_of_writes_sub hostOps7 _ Cert.KernelIdeal.GenP.hostOps7_writes (by decide : main_arg8 ∉ Cert.KernelIdeal.GenP.hostOps7_W)).trans <|
      (W18_of_ne m c main_arg8 (by decide)).trans <|
      (StableHlo.after_of_writes_sub hostOps6 _ Cert.KernelIdeal.GenP.hostOps6_writes (by decide : main_arg8 ∉ Cert.KernelIdeal.GenP.hostOps6_W)).trans <|
      (W16_of_ne m c main_arg8 (by decide)).trans <|
      (StableHlo.after_of_writes_sub hostOps5 _ Cert.KernelIdeal.GenP.hostOps5_writes (by decide : main_arg8 ∉ Cert.KernelIdeal.GenP.hostOps5_W)).trans <|
      (W14_of_ne m c main_arg8 (by decide)).trans <|
      (StableHlo.after_of_writes_sub hostOps4 _ Cert.KernelIdeal.GenP.hostOps4_writes (by decide : main_arg8 ∉ Cert.KernelIdeal.GenP.hostOps4_W)).trans <|
      (W12_of_ne m c main_arg8 (by decide)).trans <|
      (StableHlo.after_of_writes_sub hostOps3 _ Cert.KernelIdeal.GenP.hostOps3_writes (by decide : main_arg8 ∉ Cert.KernelIdeal.GenP.hostOps3_W)).trans <|
      (W10_of_ne m c main_arg8 (by decide)).trans <|
      (StableHlo.after_of_writes_sub hostOps2 _ Cert.KernelIdeal.GenP.hostOps2_writes (by decide : main_arg8 ∉ Cert.KernelIdeal.GenP.hostOps2_W)).trans <|
      (W8_of_ne m c main_arg8 (by decide)).trans <|
      (StableHlo.after_of_writes_sub hostOps1 _ Cert.KernelIdeal.GenP.hostOps1_writes (by decide : main_arg8 ∉ Cert.KernelIdeal.GenP.hostOps1_W)).trans <|
      (W6_of_ne m c main_arg8 (by decide)).trans <|
      (StableHlo.after_of_writes_sub hostOps0_4 _ Cert.KernelIdeal.GenP.hostOps0_4_writes (by decide : main_arg8 ∉ Cert.KernelIdeal.GenP.hostOps0_4_W)).trans <|
      (StableHlo.after_of_writes_sub hostOps0_3 _ Cert.KernelIdeal.GenP.hostOps0_3_writes (by decide : main_arg8 ∉ Cert.KernelIdeal.GenP.hostOps0_3_W)).trans <|
      (StableHlo.after_of_writes_sub hostOps0_2 _ Cert.KernelIdeal.GenP.hostOps0_2_writes (by decide : main_arg8 ∉ Cert.KernelIdeal.GenP.hostOps0_2_W)).trans <|
      (StableHlo.after_of_writes_sub hostOps0_1 _ Cert.KernelIdeal.GenP.hostOps0_1_writes (by decide : main_arg8 ∉ Cert.KernelIdeal.GenP.hostOps0_1_W)).trans <|
      (StableHlo.after_of_writes_sub hostOps0 _ Cert.KernelIdeal.GenP.hostOps0_writes (by decide : main_arg8 ∉ Cert.KernelIdeal.GenP.hostOps0_W)).trans rfl

theorem k4_arg9 (c : Dev nD) : W32 m c (Proc.devRef .tc main_arg9) = m ((c : Thread nD τ).loc main_arg9) :=
      (W32_of_ne m c main_arg9 (by decide)).trans <|
      (StableHlo.after_of_writes_sub hostOps13 _ Cert.KernelIdeal.GenP.hostOps13_writes (by decide : main_arg9 ∉ Cert.KernelIdeal.GenP.hostOps13_W)).trans <|
      (W30_of_ne m c main_arg9 (by decide)).trans <|
      (StableHlo.after_of_writes_sub hostOps12 _ Cert.KernelIdeal.GenP.hostOps12_writes (by decide : main_arg9 ∉ Cert.KernelIdeal.GenP.hostOps12_W)).trans <|
      (W28_of_ne m c main_arg9 (by decide)).trans <|
      (StableHlo.after_of_writes_sub hostOps11 _ Cert.KernelIdeal.GenP.hostOps11_writes (by decide : main_arg9 ∉ Cert.KernelIdeal.GenP.hostOps11_W)).trans <|
      (W26_of_ne m c main_arg9 (by decide)).trans <|
      (StableHlo.after_of_writes_sub hostOps10 _ Cert.KernelIdeal.GenP.hostOps10_writes (by decide : main_arg9 ∉ Cert.KernelIdeal.GenP.hostOps10_W)).trans <|
      (W24_of_ne m c main_arg9 (by decide)).trans <|
      (StableHlo.after_of_writes_sub hostOps9 _ Cert.KernelIdeal.GenP.hostOps9_writes (by decide : main_arg9 ∉ Cert.KernelIdeal.GenP.hostOps9_W)).trans <|
      (W22_of_ne m c main_arg9 (by decide)).trans <|
      (StableHlo.after_of_writes_sub hostOps8 _ Cert.KernelIdeal.GenP.hostOps8_writes (by decide : main_arg9 ∉ Cert.KernelIdeal.GenP.hostOps8_W)).trans <|
      (W20_of_ne m c main_arg9 (by decide)).trans <|
      (StableHlo.after_of_writes_sub hostOps7 _ Cert.KernelIdeal.GenP.hostOps7_writes (by decide : main_arg9 ∉ Cert.KernelIdeal.GenP.hostOps7_W)).trans <|
      (W18_of_ne m c main_arg9 (by decide)).trans <|
      (StableHlo.after_of_writes_sub hostOps6 _ Cert.KernelIdeal.GenP.hostOps6_writes (by decide : main_arg9 ∉ Cert.KernelIdeal.GenP.hostOps6_W)).trans <|
      (W16_of_ne m c main_arg9 (by decide)).trans <|
      (StableHlo.after_of_writes_sub hostOps5 _ Cert.KernelIdeal.GenP.hostOps5_writes (by decide : main_arg9 ∉ Cert.KernelIdeal.GenP.hostOps5_W)).trans <|
      (W14_of_ne m c main_arg9 (by decide)).trans <|
      (StableHlo.after_of_writes_sub hostOps4 _ Cert.KernelIdeal.GenP.hostOps4_writes (by decide : main_arg9 ∉ Cert.KernelIdeal.GenP.hostOps4_W)).trans <|
      (W12_of_ne m c main_arg9 (by decide)).trans <|
      (StableHlo.after_of_writes_sub hostOps3 _ Cert.KernelIdeal.GenP.hostOps3_writes (by decide : main_arg9 ∉ Cert.KernelIdeal.GenP.hostOps3_W)).trans <|
      (W10_of_ne m c main_arg9 (by decide)).trans <|
      (StableHlo.after_of_writes_sub hostOps2 _ Cert.KernelIdeal.GenP.hostOps2_writes (by decide : main_arg9 ∉ Cert.KernelIdeal.GenP.hostOps2_W)).trans <|
      (W8_of_ne m c main_arg9 (by decide)).trans <|
      (StableHlo.after_of_writes_sub hostOps1 _ Cert.KernelIdeal.GenP.hostOps1_writes (by decide : main_arg9 ∉ Cert.KernelIdeal.GenP.hostOps1_W)).trans <|
      (W6_of_ne m c main_arg9 (by decide)).trans <|
      (StableHlo.after_of_writes_sub hostOps0_4 _ Cert.KernelIdeal.GenP.hostOps0_4_writes (by decide : main_arg9 ∉ Cert.KernelIdeal.GenP.hostOps0_4_W)).trans <|
      (StableHlo.after_of_writes_sub hostOps0_3 _ Cert.KernelIdeal.GenP.hostOps0_3_writes (by decide : main_arg9 ∉ Cert.KernelIdeal.GenP.hostOps0_3_W)).trans <|
      (StableHlo.after_of_writes_sub hostOps0_2 _ Cert.KernelIdeal.GenP.hostOps0_2_writes (by decide : main_arg9 ∉ Cert.KernelIdeal.GenP.hostOps0_2_W)).trans <|
      (StableHlo.after_of_writes_sub hostOps0_1 _ Cert.KernelIdeal.GenP.hostOps0_1_writes (by decide : main_arg9 ∉ Cert.KernelIdeal.GenP.hostOps0_1_W)).trans <|
      (StableHlo.after_of_writes_sub hostOps0 _ Cert.KernelIdeal.GenP.hostOps0_writes (by decide : main_arg9 ∉ Cert.KernelIdeal.GenP.hostOps0_W)).trans rfl

theorem k4_v3 (c : Dev nD) : W30 m c (Proc.devRef .tc main_v3) = W5 m c (Proc.devRef .tc main_v3) :=
      (W30_of_ne m c main_v3 (by decide)).trans <|
      (StableHlo.after_of_writes_sub hostOps12 _ Cert.KernelIdeal.GenP.hostOps12_writes (by decide : main_v3 ∉ Cert.KernelIdeal.GenP.hostOps12_W)).trans <|
      (W28_of_ne m c main_v3 (by decide)).trans <|
      (StableHlo.after_of_writes_sub hostOps11 _ Cert.KernelIdeal.GenP.hostOps11_writes (by decide : main_v3 ∉ Cert.KernelIdeal.GenP.hostOps11_W)).trans <|
      (W26_of_ne m c main_v3 (by decide)).trans <|
      (StableHlo.after_of_writes_sub hostOps10 _ Cert.KernelIdeal.GenP.hostOps10_writes (by decide : main_v3 ∉ Cert.KernelIdeal.GenP.hostOps10_W)).trans <|
      (W24_of_ne m c main_v3 (by decide)).trans <|
      (StableHlo.after_of_writes_sub hostOps9 _ Cert.KernelIdeal.GenP.hostOps9_writes (by decide : main_v3 ∉ Cert.KernelIdeal.GenP.hostOps9_W)).trans <|
      (W22_of_ne m c main_v3 (by decide)).trans <|
      (StableHlo.after_of_writes_sub hostOps8 _ Cert.KernelIdeal.GenP.hostOps8_writes (by decide : main_v3 ∉ Cert.KernelIdeal.GenP.hostOps8_W)).trans <|
      (W20_of_ne m c main_v3 (by decide)).trans <|
      (StableHlo.after_of_writes_sub hostOps7 _ Cert.KernelIdeal.GenP.hostOps7_writes (by decide : main_v3 ∉ Cert.KernelIdeal.GenP.hostOps7_W)).trans <|
      (W18_of_ne m c main_v3 (by decide)).trans <|
      (StableHlo.after_of_writes_sub hostOps6 _ Cert.KernelIdeal.GenP.hostOps6_writes (by decide : main_v3 ∉ Cert.KernelIdeal.GenP.hostOps6_W)).trans <|
      (W16_of_ne m c main_v3 (by decide)).trans <|
      (StableHlo.after_of_writes_sub hostOps5 _ Cert.KernelIdeal.GenP.hostOps5_writes (by decide : main_v3 ∉ Cert.KernelIdeal.GenP.hostOps5_W)).trans <|
      (W14_of_ne m c main_v3 (by decide)).trans <|
      (StableHlo.after_of_writes_sub hostOps4 _ Cert.KernelIdeal.GenP.hostOps4_writes (by decide : main_v3 ∉ Cert.KernelIdeal.GenP.hostOps4_W)).trans <|
      (W12_of_ne m c main_v3 (by decide)).trans <|
      (StableHlo.after_of_writes_sub hostOps3 _ Cert.KernelIdeal.GenP.hostOps3_writes (by decide : main_v3 ∉ Cert.KernelIdeal.GenP.hostOps3_W)).trans <|
      (W10_of_ne m c main_v3 (by decide)).trans <|
      (StableHlo.after_of_writes_sub hostOps2 _ Cert.KernelIdeal.GenP.hostOps2_writes (by decide : main_v3 ∉ Cert.KernelIdeal.GenP.hostOps2_W)).trans <|
      (W8_of_ne m c main_v3 (by decide)).trans <|
      (StableHlo.after_of_writes_sub hostOps1 _ Cert.KernelIdeal.GenP.hostOps1_writes (by decide : main_v3 ∉ Cert.KernelIdeal.GenP.hostOps1_W)).trans <|
      (W6_of_ne m c main_v3 (by decide))

theorem k4_v6 (c : Dev nD) : W30 m c (Proc.devRef .tc main_v6) = W5 m c (Proc.devRef .tc main_v6) :=
      (W30_of_ne m c main_v6 (by decide)).trans <|
      (StableHlo.after_of_writes_sub hostOps12 _ Cert.KernelIdeal.GenP.hostOps12_writes (by decide : main_v6 ∉ Cert.KernelIdeal.GenP.hostOps12_W)).trans <|
      (W28_of_ne m c main_v6 (by decide)).trans <|
      (StableHlo.after_of_writes_sub hostOps11 _ Cert.KernelIdeal.GenP.hostOps11_writes (by decide : main_v6 ∉ Cert.KernelIdeal.GenP.hostOps11_W)).trans <|
      (W26_of_ne m c main_v6 (by decide)).trans <|
      (StableHlo.after_of_writes_sub hostOps10 _ Cert.KernelIdeal.GenP.hostOps10_writes (by decide : main_v6 ∉ Cert.KernelIdeal.GenP.hostOps10_W)).trans <|
      (W24_of_ne m c main_v6 (by decide)).trans <|
      (StableHlo.after_of_writes_sub hostOps9 _ Cert.KernelIdeal.GenP.hostOps9_writes (by decide : main_v6 ∉ Cert.KernelIdeal.GenP.hostOps9_W)).trans <|
      (W22_of_ne m c main_v6 (by decide)).trans <|
      (StableHlo.after_of_writes_sub hostOps8 _ Cert.KernelIdeal.GenP.hostOps8_writes (by decide : main_v6 ∉ Cert.KernelIdeal.GenP.hostOps8_W)).trans <|
      (W20_of_ne m c main_v6 (by decide)).trans <|
      (StableHlo.after_of_writes_sub hostOps7 _ Cert.KernelIdeal.GenP.hostOps7_writes (by decide : main_v6 ∉ Cert.KernelIdeal.GenP.hostOps7_W)).trans <|
      (W18_of_ne m c main_v6 (by decide)).trans <|
      (StableHlo.after_of_writes_sub hostOps6 _ Cert.KernelIdeal.GenP.hostOps6_writes (by decide : main_v6 ∉ Cert.KernelIdeal.GenP.hostOps6_W)).trans <|
      (W16_of_ne m c main_v6 (by decide)).trans <|
      (StableHlo.after_of_writes_sub hostOps5 _ Cert.KernelIdeal.GenP.hostOps5_writes (by decide : main_v6 ∉ Cert.KernelIdeal.GenP.hostOps5_W)).trans <|
      (W14_of_ne m c main_v6 (by decide)).trans <|
      (StableHlo.after_of_writes_sub hostOps4 _ Cert.KernelIdeal.GenP.hostOps4_writes (by decide : main_v6 ∉ Cert.KernelIdeal.GenP.hostOps4_W)).trans <|
      (W12_of_ne m c main_v6 (by decide)).trans <|
      (StableHlo.after_of_writes_sub hostOps3 _ Cert.KernelIdeal.GenP.hostOps3_writes (by decide : main_v6 ∉ Cert.KernelIdeal.GenP.hostOps3_W)).trans <|
      (W10_of_ne m c main_v6 (by decide)).trans <|
      (StableHlo.after_of_writes_sub hostOps2 _ Cert.KernelIdeal.GenP.hostOps2_writes (by decide : main_v6 ∉ Cert.KernelIdeal.GenP.hostOps2_W)).trans <|
      (W8_of_ne m c main_v6 (by decide)).trans <|
      (StableHlo.after_of_writes_sub hostOps1 _ Cert.KernelIdeal.GenP.hostOps1_writes (by decide : main_v6 ∉ Cert.KernelIdeal.GenP.hostOps1_W)).trans <|
      (W6_of_ne m c main_v6 (by decide))

theorem k4_v41 (c : Dev nD) : W30 m c (Proc.devRef .tc main_v41) = W5 m c (Proc.devRef .tc main_v41) :=
      (W30_of_ne m c main_v41 (by decide)).trans <|
      (StableHlo.after_of_writes_sub hostOps12 _ Cert.KernelIdeal.GenP.hostOps12_writes (by decide : main_v41 ∉ Cert.KernelIdeal.GenP.hostOps12_W)).trans <|
      (W28_of_ne m c main_v41 (by decide)).trans <|
      (StableHlo.after_of_writes_sub hostOps11 _ Cert.KernelIdeal.GenP.hostOps11_writes (by decide : main_v41 ∉ Cert.KernelIdeal.GenP.hostOps11_W)).trans <|
      (W26_of_ne m c main_v41 (by decide)).trans <|
      (StableHlo.after_of_writes_sub hostOps10 _ Cert.KernelIdeal.GenP.hostOps10_writes (by decide : main_v41 ∉ Cert.KernelIdeal.GenP.hostOps10_W)).trans <|
      (W24_of_ne m c main_v41 (by decide)).trans <|
      (StableHlo.after_of_writes_sub hostOps9 _ Cert.KernelIdeal.GenP.hostOps9_writes (by decide : main_v41 ∉ Cert.KernelIdeal.GenP.hostOps9_W)).trans <|
      (W22_of_ne m c main_v41 (by decide)).trans <|
      (StableHlo.after_of_writes_sub hostOps8 _ Cert.KernelIdeal.GenP.hostOps8_writes (by decide : main_v41 ∉ Cert.KernelIdeal.GenP.hostOps8_W)).trans <|
      (W20_of_ne m c main_v41 (by decide)).trans <|
      (StableHlo.after_of_writes_sub hostOps7 _ Cert.KernelIdeal.GenP.hostOps7_writes (by decide : main_v41 ∉ Cert.KernelIdeal.GenP.hostOps7_W)).trans <|
      (W18_of_ne m c main_v41 (by decide)).trans <|
      (StableHlo.after_of_writes_sub hostOps6 _ Cert.KernelIdeal.GenP.hostOps6_writes (by decide : main_v41 ∉ Cert.KernelIdeal.GenP.hostOps6_W)).trans <|
      (W16_of_ne m c main_v41 (by decide)).trans <|
      (StableHlo.after_of_writes_sub hostOps5 _ Cert.KernelIdeal.GenP.hostOps5_writes (by decide : main_v41 ∉ Cert.KernelIdeal.GenP.hostOps5_W)).trans <|
      (W14_of_ne m c main_v41 (by decide)).trans <|
      (StableHlo.after_of_writes_sub hostOps4 _ Cert.KernelIdeal.GenP.hostOps4_writes (by decide : main_v41 ∉ Cert.KernelIdeal.GenP.hostOps4_W)).trans <|
      (W12_of_ne m c main_v41 (by decide)).trans <|
      (StableHlo.after_of_writes_sub hostOps3 _ Cert.KernelIdeal.GenP.hostOps3_writes (by decide : main_v41 ∉ Cert.KernelIdeal.GenP.hostOps3_W)).trans <|
      (W10_of_ne m c main_v41 (by decide)).trans <|
      (StableHlo.after_of_writes_sub hostOps2 _ Cert.KernelIdeal.GenP.hostOps2_writes (by decide : main_v41 ∉ Cert.KernelIdeal.GenP.hostOps2_W)).trans <|
      (W8_of_ne m c main_v41 (by decide)).trans <|
      (StableHlo.after_of_writes_sub hostOps1 _ Cert.KernelIdeal.GenP.hostOps1_writes (by decide : main_v41 ∉ Cert.KernelIdeal.GenP.hostOps1_W)).trans <|
      (W6_of_ne m c main_v41 (by decide))

theorem k4_agg (c : Dev nD) : W33 m c (Proc.devRef .tc main_v239) = W31 m c (Proc.devRef .tc main_v239) :=
      (StableHlo.after_of_writes_sub hostOps14 _ Cert.KernelIdeal.GenP.hostOps14_writes (by decide : main_v239 ∉ Cert.KernelIdeal.GenP.hostOps14_W)).trans <|
      ((W32_arr m c 0).trans (((dat13 (V31 m) c).arrAt_in 0 rfl _).trans (A_eq13 (V31 m) c 0)))

/-! ## The perceptron -/

theorem lay4_in0 (c : Dev nD) : inRows12 (V29 m) c = lay4_H m c := rfl
theorem lay4_in1 (c : Dev nD) : wOne12 (V29 m) c = lay4_W1 m c :=
  funext fun j => funext fun k => (hmlp4_w1 (W28 m c) j k).trans (congrFun (k4_arg3 m c) (ix3 (3 : Fin 4) j k))
theorem lay4_in2 (c : Dev nD) : bOne12 (V29 m) c = lay4_b1 m c :=
  funext fun k => (hmlp4_b1 (W28 m c) k).trans (congrFun (k4_arg4 m c) (ix2 (4 : Fin 5) k))
theorem lay4_in3 (c : Dev nD) : wTwo12 (V29 m) c = lay4_W2 m c :=
  funext fun j => funext fun k => (hmlp4_w2 (W28 m c) j k).trans (congrFun (k4_arg5 m c) (ix3 (4 : Fin 5) j k))
theorem lay4_in4 (c : Dev nD) : bTwo12 (V29 m) c = lay4_b2 m c :=
  funext fun k => (hmlp4_b2 (W28 m c) k).trans (congrFun (k4_arg6 m c) (ix2 (4 : Fin 5) k))

/-- After the perceptron's region its output array holds the perceptron's rows. -/
theorem lay4_out (c : Dev nD) : W30 m c (Proc.devRef .tc main_v226) = Cert.Spec.uncur (lay4_Z m c) := by
  refine (W30_arr m c 5).trans ((final12_5 (V29 m) c).trans ?_)
  unfold G12
  rw [lay4_in0, lay4_in1, lay4_in2, lay4_in3, lay4_in4]
  rfl

/-! ## The aggregation -/

/-- The aggregated array when the statistics are entered. -/
theorem lay4_agg (c : Dev nD) : Cert.Spec.cur (W31 m c (Proc.devRef .tc main_v239)) = lay4_A m c := by
  refine congrArg Cert.Spec.cur ((hagg4 (W30 m c)).trans ?_)
  rw [k4_v3 m c, k4_v6 m c, k4_v41 m c, lay4_out m c]

/-- The bias row when the statistics are entered. -/
theorem lay4_sbias (c : Dev nD) : (fun q => W31 m c (Proc.devRef .tc main_v242) (ix2 (0 : Fin 1) q)) = lay4_bias m c :=
  funext fun q => (hagg4_bias (W30 m c) q).trans (congrFun (k4_arg7a m c) (ix2 (4 : Fin 5) q))

/-! ## The column sums -/

theorem lay4_s1 (c : Dev nD) : (fun q => W32 m c (Proc.devRef .tc main_v243_0) (ix2 (0 : Fin 1) q))
    = Cert.Spec.colSum (lay4_A m c) (lay4_bias m c) := by
  funext q
  refine (congrFun (W32_arr m c 2) (ix2 (0 : Fin 1) q)).trans ((arrAt13_2 (V31 m) c q).trans ?_)
  have hA : (fun p q => V31 m c (Pipeline.arrRef spec13 0) (ix2 p q)) = lay4_A m c := lay4_agg m c
  have hb : (fun q => V31 m c (Pipeline.arrRef spec13 1) (ix2 (0 : Fin 1) q)) = lay4_bias m c := lay4_sbias m c
  rw [hA, hb]

theorem lay4_s2 (c : Dev nD) : (fun q => W32 m c (Proc.devRef .tc main_v243_1) (ix2 (0 : Fin 1) q))
    = Cert.Spec.colSumSq (lay4_A m c) (lay4_bias m c) := by
  funext q
  refine (congrFun (W32_arr m c 3) (ix2 (0 : Fin 1) q)).trans ((arrAt13_3 (V31 m) c q).trans ?_)
  have hA : (fun p q => V31 m c (Pipeline.arrRef spec13 0) (ix2 p q)) = lay4_A m c := lay4_agg m c
  have hb : (fun q => V31 m c (Pipeline.arrRef spec13 1) (ix2 (0 : Fin 1) q)) = lay4_bias m c := lay4_sbias m c
  rw [hA, hb]

/-! ## What the normalisation is entered with -/

theorem lay4_nagg (c : Dev nD) : Cert.Spec.cur (W33 m c (Proc.devRef .tc main_v239)) = lay4_A m c :=
  (congrArg Cert.Spec.cur (k4_agg m c)).trans (lay4_agg m c)
theorem lay4_nbias (c : Dev nD) : (fun q => W33 m c (Proc.devRef .tc main_v256) (ix2 (0 : Fin 1) q)) = lay4_bias m c :=
  funext fun q => (hnorm4_bias (W32 m c) q).trans (congrFun (k4_arg7b m c) (ix2 (4 : Fin 5) q))
theorem lay4_ngamma (c : Dev nD) : (fun q => W33 m c (Proc.devRef .tc main_v257) (ix2 (0 : Fin 1) q)) = lay4_gamma m c :=
  funext fun q => (hnorm4_gamma (W32 m c) q).trans (congrFun (k4_arg8 m c) (ix2 (4 : Fin 5) q))
theorem lay4_nbeta (c : Dev nD) : (fun q => W33 m c (Proc.devRef .tc main_v258) (ix2 (0 : Fin 1) q)) = lay4_beta m c :=
  funext fun q => (hnorm4_beta (W32 m c) q).trans (congrFun (k4_arg9 m c) (ix2 (4 : Fin 5) q))
theorem lay4_nmean (c : Dev nD) : (fun q => W33 m c (Proc.devRef .tc main_v245) (ix2 (0 : Fin 1) q))
    = Cert.Spec.meanOf (Cert.Spec.colSum (lay4_A m c) (lay4_bias m c)) :=
  funext fun q => (hnorm4_mean (W32 m c) q).trans (by rw [lay4_s1 m c])
theorem lay4_nvar (c : Dev nD) : (fun q => W33 m c (Proc.devRef .tc main_v249) (ix2 (0 : Fin 1) q))
    = Cert.Spec.varOf (Cert.Spec.colSum (lay4_A m c) (lay4_bias m c)) (Cert.Spec.colSumSq (lay4_A m c) (lay4_bias m c)) :=
  funext fun q => (hnorm4_var (W32 m c) q).trans (by rw [lay4_s1 m c, lay4_s2 m c])

/-! ## The layer -/

/-- After the normalisation's region its output array holds the layer. -/
theorem layer_4 (c : Dev nD) : Cert.Spec.cur (W34 m c (Proc.devRef .tc main_v259))
    = Cert.Spec.layerK false (W5 m c (Proc.devRef .tc main_v3)) (W5 m c (Proc.devRef .tc main_v6)) (W5 m c (Proc.devRef .tc main_v41))
        (lay4_H m c) (lay4_W1 m c) (lay4_b1 m c) (lay4_W2 m c) (lay4_b2 m c) (lay4_bias m c) (lay4_gamma m c) (lay4_beta m c) := by
  funext p q
  refine (congrFun (W34_arr m c 6) (ix2 p q)).trans ((arrAt14_6 (V33 m) c p q).trans ?_)
  have hA : (fun p q => V33 m c main_v239 (ix2 p q)) = lay4_A m c := lay4_nagg m c
  have hb : (fun q => V33 m c main_v256 (ix2 (0 : Fin 1) q)) = lay4_bias m c := lay4_nbias m c
  have hm : (fun q => V33 m c main_v245 (ix2 (0 : Fin 1) q)) = _ := lay4_nmean m c
  have hv : (fun q => V33 m c main_v249 (ix2 (0 : Fin 1) q)) = _ := lay4_nvar m c
  have hg : (fun q => V33 m c main_v257 (ix2 (0 : Fin 1) q)) = lay4_gamma m c := lay4_ngamma m c
  have hbe : (fun q => V33 m c main_v258 (ix2 (0 : Fin 1) q)) = lay4_beta m c := lay4_nbeta m c
  rw [hA, hb, hm, hv, hg, hbe]
  rfl

end Cert.KernelIdeal.Hand

end
-- ==== Proof.KI.ChainPre.lean ====
/-
  Before the first layer: the host operations that build the edge endpoints (the two rows of the edge array with one
  loop per node appended) and the edge weights (the degree normalisation at both ends), read stretch by stretch for
  an arbitrary valuation of the buffers and then along the five stretches the program runs before its first region.
-/
import proofs.«114689_j15281493639468_1_alg».proof.Proof.KI.Fold
import proofs.«114689_j15281493639468_1_alg».proof.Proof.KI.HostWrites
import proofs.«114689_j15281493639468_1_alg».proof.Proof.SpecHost
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Cert.Spec (srcArr dstArr ewArr aggArr cntArr degArr dinvArr normIdx onesE onesN zerosN mhalfN gatherN SN SE SEx1 S0 bcast_S0_SN bcast_SE_SEx1)

section Stretches
set_option maxHeartbeats 4000000

variable (W : Valuation τ sig (Elt Ideal))

/-! ## The first stretch: endpoints, ones, the edge count's comparison and quotient -/
theorem pre_s0_v3 : StableHlo.after (hostOps0 (F := Ideal)) W (Proc.devRef .tc main_v3) = srcArr (W (Proc.devRef .tc main_arg1)) := by
  after_results_simp; rfl
theorem pre_s0_v6 : StableHlo.after (hostOps0 (F := Ideal)) W (Proc.devRef .tc main_v6) = dstArr (W (Proc.devRef .tc main_arg1)) := by
  after_results_simp; rfl
theorem pre_s0_v7 : StableHlo.after (hostOps0 (F := Ideal)) W (Proc.devRef .tc main_v7) = onesE := by
  after_results_simp; rfl
theorem pre_s0_v16 : StableHlo.after (hostOps0 (F := Ideal)) W (Proc.devRef .tc main_v16)
    = cmpf (F := Ideal) .ogt (cntArr (dstArr (W (Proc.devRef .tc main_arg1)))) zerosN := by
  after_results_simp; rfl
theorem pre_s0_v19 : StableHlo.after (hostOps0 (F := Ideal)) W (Proc.devRef .tc main_v19)
    = Host.divf (F := Ideal) (cntArr (dstArr (W (Proc.devRef .tc main_arg1)))) (maximumf (F := Ideal) (cntArr (dstArr (W (Proc.devRef .tc main_arg1)))) onesN) := by
  after_results_simp; rfl
theorem pre_s0_cst_5 : StableHlo.after (hostOps0 (F := Ideal)) W (Proc.devRef .tc main_cst_5)
    = constant (F := Ideal) S0 .f32 0x00000000#32 := by
  after_results_simp

/-! ## The second stretch: the first selection -/
theorem pre_s1_v20 : StableHlo.after (hostOps0_1 (F := Ideal)) W (Proc.devRef .tc main_v20)
    = select (W (Proc.devRef .tc main_v16)) (W (Proc.devRef .tc main_v19))
        (broadcastInDim SN ![] bcast_S0_SN (W (Proc.devRef .tc main_cst_5))) := by
  after_results_simp; rfl
theorem pre_s1_v3 : StableHlo.after (hostOps0_1 (F := Ideal)) W (Proc.devRef .tc main_v3) = W (Proc.devRef .tc main_v3) := by
  after_results_simp
theorem pre_s1_v6 : StableHlo.after (hostOps0_1 (F := Ideal)) W (Proc.devRef .tc main_v6) = W (Proc.devRef .tc main_v6) := by
  after_results_simp
theorem pre_s1_v7 : StableHlo.after (hostOps0_1 (F := Ideal)) W (Proc.devRef .tc main_v7) = W (Proc.devRef .tc main_v7) := by
  after_results_simp

/-! ## The third stretch: the comparison and the power -/
theorem pre_s2_v22 : StableHlo.after (hostOps0_2 (F := Ideal)) W (Proc.devRef .tc main_v22)
    = cmpf (F := Ideal) .ogt (W (Proc.devRef .tc main_v20)) zerosN := by
  after_results_simp; rfl
theorem pre_s2_v24 : StableHlo.after (hostOps0_2 (F := Ideal)) W (Proc.devRef .tc main_v24)
    = Host.powf (F := Ideal) (W (Proc.devRef .tc main_v20)) mhalfN := by
  after_results_simp; rfl
theorem pre_s2_cst_8 : StableHlo.after (hostOps0_2 (F := Ideal)) W (Proc.devRef .tc main_cst_8)
    = constant (F := Ideal) S0 .f32 0x00000000#32 := by
  after_results_simp
theorem pre_s2_v3 : StableHlo.after (hostOps0_2 (F := Ideal)) W (Proc.devRef .tc main_v3) = W (Proc.devRef .tc main_v3) := by
  after_results_simp
theorem pre_s2_v6 : StableHlo.after (hostOps0_2 (F := Ideal)) W (Proc.devRef .tc main_v6) = W (Proc.devRef .tc main_v6) := by
  after_results_simp
theorem pre_s2_v7 : StableHlo.after (hostOps0_2 (F := Ideal)) W (Proc.devRef .tc main_v7) = W (Proc.devRef .tc main_v7) := by
  after_results_simp

/-! ## The fourth stretch: the second selection -/
theorem pre_s3_v25 : StableHlo.after (hostOps0_3 (F := Ideal)) W (Proc.devRef .tc main_v25)
    = select (W (Proc.devRef .tc main_v22)) (W (Proc.devRef .tc main_v24))
        (broadcastInDim SN ![] bcast_S0_SN (W (Proc.devRef .tc main_cst_8))) := by
  after_results_simp; rfl
theorem pre_s3_v3 : StableHlo.after (hostOps0_3 (F := Ideal)) W (Proc.devRef .tc main_v3) = W (Proc.devRef .tc main_v3) := by
  after_results_simp
theorem pre_s3_v6 : StableHlo.after (hostOps0_3 (F := Ideal)) W (Proc.devRef .tc main_v6) = W (Proc.devRef .tc main_v6) := by
  after_results_simp
theorem pre_s3_v7 : StableHlo.after (hostOps0_3 (F := Ideal)) W (Proc.devRef .tc main_v7) = W (Proc.devRef .tc main_v7) := by
  after_results_simp

/-! ## The fifth stretch: the weight of each edge -/
theorem pre_s4_v41 : StableHlo.after (hostOps0_4 (F := Ideal)) W (Proc.devRef .tc main_v41)
    = mulf (F := Ideal) (φ := .f32) (mulf (F := Ideal) (φ := .f32)
        (Host.gather gatherN (W (Proc.devRef .tc main_v25)) (broadcastInDim SEx1 ![0] bcast_SE_SEx1 (normIdx (W (Proc.devRef .tc main_v3)))))
        (W (Proc.devRef .tc main_v7)))
        (Host.gather gatherN (W (Proc.devRef .tc main_v25)) (broadcastInDim SEx1 ![0] bcast_SE_SEx1 (normIdx (W (Proc.devRef .tc main_v6))))) := by
  after_results_simp; rfl
theorem pre_s4_v3 : StableHlo.after (hostOps0_4 (F := Ideal)) W (Proc.devRef .tc main_v3) = W (Proc.devRef .tc main_v3) := by
  after_results_simp
theorem pre_s4_v6 : StableHlo.after (hostOps0_4 (F := Ideal)) W (Proc.devRef .tc main_v6) = W (Proc.devRef .tc main_v6) := by
  after_results_simp

end Stretches

/-! ## Along the program's five stretches -/

variable (m : (ℓ : Loc nD τ sig) → Buf (Elt Ideal) ℓ)

/-- When the first region is entered the source endpoints are the edge array's first row and the loops. -/
theorem pre_v3 (c : Dev nD) : W5 m c (Proc.devRef .tc main_v3) = srcArr (m ((c : Thread nD τ).loc main_arg1)) := by
  show StableHlo.after hostOps0_4 (StableHlo.after hostOps0_3 (StableHlo.after hostOps0_2 (StableHlo.after hostOps0_1
    (StableHlo.after hostOps0 (W0 m c))))) (Proc.devRef .tc main_v3) = _
  rw [pre_s4_v3, pre_s3_v3, pre_s2_v3, pre_s1_v3, pre_s0_v3]

/-- The target endpoints are its second row and the loops. -/
theorem pre_v6 (c : Dev nD) : W5 m c (Proc.devRef .tc main_v6) = dstArr (m ((c : Thread nD τ).loc main_arg1)) := by
  show StableHlo.after hostOps0_4 (StableHlo.after hostOps0_3 (StableHlo.after hostOps0_2 (StableHlo.after hostOps0_1
    (StableHlo.after hostOps0 (W0 m c))))) (Proc.devRef .tc main_v6) = _
  rw [pre_s4_v6, pre_s3_v6, pre_s2_v6, pre_s1_v6, pre_s0_v6]

set_option maxHeartbeats 4000000 in
/-- The edge weights are the degree normalisation at both ends. -/
theorem pre_v41 (c : Dev nD) : W5 m c (Proc.devRef .tc main_v41)
    = ewArr (srcArr (m ((c : Thread nD τ).loc main_arg1))) (dstArr (m ((c : Thread nD τ).loc main_arg1))) := by
  show StableHlo.after hostOps0_4 (StableHlo.after hostOps0_3 (StableHlo.after hostOps0_2 (StableHlo.after hostOps0_1
    (StableHlo.after hostOps0 (W0 m c))))) (Proc.devRef .tc main_v41) = _
  rw [pre_s4_v41, pre_s3_v25, pre_s3_v3, pre_s3_v6, pre_s3_v7, pre_s2_v22, pre_s2_v24, pre_s2_cst_8, pre_s2_v3, pre_s2_v6, pre_s2_v7,
    pre_s1_v20, pre_s1_v3, pre_s1_v6, pre_s1_v7, pre_s0_v16, pre_s0_v19, pre_s0_cst_5, pre_s0_v3, pre_s0_v6, pre_s0_v7]
  rfl

end Cert.KernelIdeal.Hand

end
-- ==== Proof.KI.ChainNet.lean ====
/-
  The whole run of the first program, read: each layer's input is the previous layer's result, carried unchanged
  across the stretch of host operations between them, and the edge endpoints and weights are what the stretches
  before the first region leave.  So the result array holds the five-layer network of the launch arguments.
-/
import proofs.«114689_j15281493639468_1_alg».proof.Proof.KI.ChainL0
import proofs.«114689_j15281493639468_1_alg».proof.Proof.KI.ChainL1
import proofs.«114689_j15281493639468_1_alg».proof.Proof.KI.ChainL2
import proofs.«114689_j15281493639468_1_alg».proof.Proof.KI.ChainL3
import proofs.«114689_j15281493639468_1_alg».proof.Proof.KI.ChainL4
import proofs.«114689_j15281493639468_1_alg».proof.Proof.KI.ChainPre
import proofs.«114689_j15281493639468_1_alg».proof.Proof.SpecFull

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## A layer's result reaches the next layer's region unchanged -/

theorem entry1 (c : Dev nD) : W11 m c (Proc.devRef .tc main_v83) = W10 m c (Proc.devRef .tc main_v83) :=
      (StableHlo.after_of_writes_sub hostOps3 _ Cert.KernelIdeal.GenP.hostOps3_writes (by decide : main_v83 ∉ Cert.KernelIdeal.GenP.hostOps3_W))

theorem entry2 (c : Dev nD) : W17 m c (Proc.devRef .tc main_v127) = W16 m c (Proc.devRef .tc main_v127) :=
      (StableHlo.after_of_writes_sub hostOps6 _ Cert.KernelIdeal.GenP.hostOps6_writes (by decide : main_v127 ∉ Cert.KernelIdeal.GenP.hostOps6_W))

theorem entry3 (c : Dev nD) : W23 m c (Proc.devRef .tc main_v171) = W22 m c (Proc.devRef .tc main_v171) :=
      (StableHlo.after_of_writes_sub hostOps9 _ Cert.KernelIdeal.GenP.hostOps9_writes (by decide : main_v171 ∉ Cert.KernelIdeal.GenP.hostOps9_W))

theorem entry4 (c : Dev nD) : W29 m c (Proc.devRef .tc main_v215) = W28 m c (Proc.devRef .tc main_v215) :=
      (StableHlo.after_of_writes_sub hostOps12 _ Cert.KernelIdeal.GenP.hostOps12_writes (by decide : main_v215 ∉ Cert.KernelIdeal.GenP.hostOps12_W))

set_option maxHeartbeats 2000000 in
/-- The result array after the run holds the network of the launch arguments. -/
theorem kernel_net (c : Dev nD) : Cert.Spec.cur (W34 (F := Ideal) m c (Proc.devRef .tc main_v259))
    = Cert.Spec.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h0 := layer_0 m c
  have h1 := layer_1 m c
  have h2 := layer_2 m c
  have h3 := layer_3 m c
  have h4 := layer_4 m c
  rw [show lay1_H m c = _ from (congrArg Cert.Spec.cur (entry1 m c)).trans h0] at h1
  rw [show lay2_H m c = _ from (congrArg Cert.Spec.cur (entry2 m c)).trans h1] at h2
  rw [show lay3_H m c = _ from (congrArg Cert.Spec.cur (entry3 m c)).trans h2] at h3
  rw [show lay4_H m c = _ from (congrArg Cert.Spec.cur (entry4 m c)).trans h3] at h4
  rw [h4, pre_v41 m c, pre_v3 m c, pre_v6 m c]
  unfold Cert.Spec.netK
  rfl

end Cert.KernelIdeal.Hand

end
-- ==== Proof.FiniteFn.lean ====
import proofs.«114689_j15281493639468_1_alg».proof.Pre_finite_inputs
import proofs.«114689_j15281493639468_1_alg».proof.Proof.SpecLaws
import Idealize.ShloMosaic.Lib.ReduceAll
import Idealize.ShloMosaic.Lib.ValueIdx
import Idealize.ShloMosaic.PureOps.Ideal.Laws

/-!
# The precondition, read: every float argument's entries are real numbers

The printed predicate is the conjunction, over the nine float arguments, of "every entry's absolute value is
below +∞". An extended real whose absolute value is below +∞ is neither +∞ nor −∞, so it is a real number.
-/

noncomputable section

namespace Cert.Pre_finite_inputs.Hand

open Idealize.ShloMosaic Idealize.ShloMosaic.ValueIdx Cert.Pre_finite_inputs Cert.Spec

/-- The scalar shape has one index. -/
instance : Subsingleton S_.Idx := ⟨fun a b => funext fun d => d.elim0⟩

/-- A conjunction of two one-bit vectors, read at an index. -/
theorem andi_vec_apply {s : Shape} {w : Nat} (x y : IVec s w) (i : s.Idx) : andi x y i = IntOp.andi (x i) (y i) := rfl

/-- An extended real whose absolute value is below +∞ is a real number. -/
theorem isR_of_abs_lt_top (x : EReal) (h : max x (-x) < ⊤) : IsR x := by
  induction x using EReal.rec with
  | bot => simp at h
  | top => simp at h
  | coe r => exact ⟨r, rfl⟩

/-- An entry that passes the comparison "absolute value below the pattern of +∞" is a real number. -/
theorem isR_of_cmp {S : Shape} (hb : S_.BroadcastsInDim S (![] : Fin 0 → Fin S.rank)) (X : FVec Ideal S .f32) (i : S.Idx)
    (h : cmpf .olt (Host.absf X) (broadcastInDim S ![] hb (constant (F := Ideal) S_ .f32 0x7F800000#32)) i = 1#1) : IsR (X i) := by
  have h' : Ideal.cmp .olt (max (X i) (-(X i))) (Ideal.ofBits .f32 0x7F800000#32) = 1#1 := h
  have hinf : Ideal.ofBits .f32 0x7F800000#32 = ⊤ := by simp [Ideal.ofBits, Ideal.ieee]
  rw [hinf] at h'
  have h2 : BitVec.ofBool (decide (max (X i) (-(X i)) < ⊤)) = 1#1 := h'
  refine isR_of_abs_lt_top _ ?_
  cases hd : decide (max (X i) (-(X i)) < ⊤) with
  | true => exact of_decide_eq_true hd
  | false => rw [hd] at h2; exact absurd h2 (by decide)

set_option maxHeartbeats 1000000 in
/-- The printed predicate, read argument by argument. -/
theorem fn_real [Facts] (a0 : FVec Ideal S100000x256 .f32) (a1 : IVec S2x3200000 32) (a2 : FVec Ideal S256x32 .f32)
    (a3 : FVec Ideal S4x32x32 .f32) (a4 : FVec Ideal S5x32 .f32) (a5 : FVec Ideal S5x32x32 .f32) (a6 a7 a8 a9 : FVec Ideal S5x32 .f32)
    (h : fn (F := Ideal) a0 a1 a2 a3 a4 a5 a6 a7 a8 a9 = fun _ => 1#1) :
    (∀ i, IsR (a0 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) := by
  have h0 := congrFun h ix0
  simp only [fn, fn_part1, fn_part2, andi_vec_apply, IntOp.andi_eq_one] at h0
  obtain ⟨⟨⟨⟨⟨⟨⟨⟨e0, e2⟩, e3⟩, e4⟩, e5⟩, e6⟩, e7⟩, e8⟩, e9⟩ := h0
  exact ⟨fun i => isR_of_cmp _ a0 i (Host.reduce_andi_all _ _ _ _ ix0 e0 i),
    fun i => isR_of_cmp _ a2 i (Host.reduce_andi_all _ _ _ _ ix0 e2 i),
    fun i => isR_of_cmp _ a3 i (Host.reduce_andi_all _ _ _ _ ix0 e3 i),
    fun i => isR_of_cmp _ a4 i (Host.reduce_andi_all _ _ _ _ ix0 e4 i),
    fun i => isR_of_cmp _ a5 i (Host.reduce_andi_all _ _ _ _ ix0 e5 i),
    fun i => isR_of_cmp _ a6 i (Host.reduce_andi_all _ _ _ _ ix0 e6 i),
    fun i => isR_of_cmp _ a7 i (Host.reduce_andi_all _ _ _ _ ix0 e7 i),
    fun i => isR_of_cmp _ a8 i (Host.reduce_andi_all _ _ _ _ ix0 e8 i),
    fun i => isR_of_cmp _ a9 i (Host.reduce_andi_all _ _ _ _ ix0 e9 i)⟩

end Cert.Pre_finite_inputs.Hand
-- ==== Proof.KI.Finite.lean ====
import proofs.«114689_j15281493639468_1_alg».proof.Defs
import proofs.«114689_j15281493639468_1_alg».proof.Proof.Gen.Pre_finite_inputs
import proofs.«114689_j15281493639468_1_alg».proof.Proof.FiniteFn

/-!
# Under the precondition every float argument of the program holds real numbers

The precondition is the printed predicate evaluated at the program's ten argument arrays; read argument by
argument it says that every entry of the nine float arrays is a real number (the second argument is an
integer array and the predicate does not mention it).
-/

noncomputable section

namespace Cert.KernelIdeal.Hand

open Idealize.ShloMosaic Idealize.ShloMosaic.TcCoe Idealize.SL.Sem Cert.KernelIdeal

/-- Every entry of every float argument array is a real number. -/
theorem args_real [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.IsR (m ((c.tc : Thread nD τ).loc main_arg0) i))
      ∧ (∀ i, Cert.Spec.IsR (m ((c.tc : Thread nD τ).loc main_arg2) i))
      ∧ (∀ i, Cert.Spec.IsR (m ((c.tc : Thread nD τ).loc main_arg3) i))
      ∧ (∀ i, Cert.Spec.IsR (m ((c.tc : Thread nD τ).loc main_arg4) i))
      ∧ (∀ i, Cert.Spec.IsR (m ((c.tc : Thread nD τ).loc main_arg5) i))
      ∧ (∀ i, Cert.Spec.IsR (m ((c.tc : Thread nD τ).loc main_arg6) i))
      ∧ (∀ i, Cert.Spec.IsR (m ((c.tc : Thread nD τ).loc main_arg7) i))
      ∧ (∀ i, Cert.Spec.IsR (m ((c.tc : Thread nD τ).loc main_arg8) i))
      ∧ (∀ i, Cert.Spec.IsR (m ((c.tc : Thread nD τ).loc main_arg9) i)) :=
  Cert.Pre_finite_inputs.Hand.fn_real _ _ _ _ _ _ _ _ _ _ (h c)

end Cert.KernelIdeal.Hand
-- ==== Proof.Ref.Terms.lean ====
import proofs.«114689_j15281493639468_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference network as pure functions of arrays, written with the program's own host operations: the index vectors
    and edge weights of the shared prelude, one layer's stages, and the five layers composed. Each definition is the
    composition of the operations between the named arrays, in the order and spelling the program applies them. -/

/-- An array of the program: its shape and element type, read at the float values `F`. -/
abbrev Arr (F : FTy → Type) (S : Shape) (e : EltTy) : Type := (⟨S, e⟩ : BufTy).Contents (Elt F)

/-- The source index of every edge, followed by one self loop a node: row 0 of the edge table, then 0 … 99999. -/
def idxSrc (a1 : Arr F S2x3200000 .i32) : Arr F S3300000 .i32 :=
  (concatenate S3300000 0 [⟨S3200000, (shapeCast S3200000 (extractStridedSlice S1x3200000 ![0, 0] a1 slices_S2x3200000_S1x3200000_0_0 : Arr F S1x3200000 .i32) shapeCasts_S1x3200000_S3200000 : Arr F S3200000 .i32)⟩, ⟨S100000, (iotaInDim S100000 32 0 : Arr F S100000 .i32)⟩] concatenates_S3200000_S100000_S3300000_d0 : Arr F S3300000 .i32)

/-- The target index of every edge, followed by one self loop a node: row 1 of the edge table, then 0 … 99999. -/
def idxDst (a1 : Arr F S2x3200000 .i32) : Arr F S3300000 .i32 :=
  (concatenate S3300000 0 [⟨S3200000, (shapeCast S3200000 (extractStridedSlice S1x3200000 ![1, 0] a1 slices_S2x3200000_S1x3200000_1_0 : Arr F S1x3200000 .i32) shapeCasts_S1x3200000_S3200000 : Arr F S3200000 .i32)⟩, ⟨S100000, (iotaInDim S100000 32 0 : Arr F S100000 .i32)⟩] concatenates_S3200000_S100000_S3300000_d0 : Arr F S3300000 .i32)

/-- The weight of every edge: with the degree of a node the number of edges into it (a scatter of ones over the targets),
    each edge's weight is the product of its two ends' degrees to the power −1/2 (0 where the degree is 0). -/
def edgeWeight (i3 i6 : Arr F S3300000 .i32) : Arr F S3300000 .f32 :=
  (mulf (mulf (Host.gather gather_S100000_S3300000x1_S3300000_n_0_n_n_0_1_1 (select (cmpf .ogt (select (cmpf .ogt (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x00000000#32 : Arr F S_ .f32) : Arr F S100000 .f32) : Arr F S100000 .i1) (Host.divf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (maximumf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x3F800000#32 : Arr F S_ .f32) : Arr F S100000 .f32) : Arr F S100000 .f32) : Arr F S100000 .f32) (broadcastInDim S100000 ![] bcast_S_S100000 ((constant (F := F) S_ .f32 0x00000000#32 : Arr F S_ .f32) : Arr F S_ .f32) : Arr F S100000 .f32) : Arr F S100000 .f32) (broadcastInDim S100000 ![] bcast_S_S100000 (constant (F := F) S_ .f32 0x00000000#32 : Arr F S_ .f32) : Arr F S100000 .f32) : Arr F S100000 .i1) (Host.powf (select (cmpf .ogt (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x00000000#32 : Arr F S_ .f32) : Arr F S100000 .f32) : Arr F S100000 .i1) (Host.divf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (maximumf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x3F800000#32 : Arr F S_ .f32) : Arr F S100000 .f32) : Arr F S100000 .f32) : Arr F S100000 .f32) (broadcastInDim S100000 ![] bcast_S_S100000 ((constant (F := F) S_ .f32 0x00000000#32 : Arr F S_ .f32) : Arr F S_ .f32) : Arr F S100000 .f32) : Arr F S100000 .f32) (broadcastInDim S100000 ![] bcast_S_S100000 (constant (F := F) S_ .f32 0xBF000000#32 : Arr F S_ .f32) : Arr F S100000 .f32) : Arr F S100000 .f32) (broadcastInDim S100000 ![] bcast_S_S100000 ((constant (F := F) S_ .f32 0x00000000#32 : Arr F S_ .f32) : Arr F S_ .f32) : Arr F S100000 .f32) : Arr F S100000 .f32) (broadcastInDim S3300000x1 ![0] bcast_S3300000_S3300000x1_0 (select (cmpi .slt i3 (broadcastInDim S3300000 ![] bcast_S_S3300000 (constantI S_ 32 0#32 : Arr F S_ .i32) : Arr F S3300000 .i32) : Arr F S3300000 .i1) (addi i3 (broadcastInDim S3300000 ![] bcast_S_S3300000 (constantI S_ 32 100000#32 : Arr F S_ .i32) : Arr F S3300000 .i32) : Arr F S3300000 .i32) i3 : Arr F S3300000 .i32) : Arr F S3300000x1 .i32) : Arr F S3300000 .f32) (broadcastInDim S3300000 ![] bcast_S_S3300000 (constant (F := F) S_ .f32 0x3F800000#32 : Arr F S_ .f32) : Arr F S3300000 .f32) : Arr F S3300000 .f32) (Host.gather gather_S100000_S3300000x1_S3300000_n_0_n_n_0_1_1 (select (cmpf .ogt (select (cmpf .ogt (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x00000000#32 : Arr F S_ .f32) : Arr F S100000 .f32) : Arr F S100000 .i1) (Host.divf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (maximumf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x3F800000#32 : Arr F S_ .f32) : Arr F S100000 .f32) : Arr F S100000 .f32) : Arr F S100000 .f32) (broadcastInDim S100000 ![] bcast_S_S100000 ((constant (F := F) S_ .f32 0x00000000#32 : Arr F S_ .f32) : Arr F S_ .f32) : Arr F S100000 .f32) : Arr F S100000 .f32) (broadcastInDim S100000 ![] bcast_S_S100000 (constant (F := F) S_ .f32 0x00000000#32 : Arr F S_ .f32) : Arr F S100000 .f32) : Arr F S100000 .i1) (Host.powf (select (cmpf .ogt (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x00000000#32 : Arr F S_ .f32) : Arr F S100000 .f32) : Arr F S100000 .i1) (Host.divf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (maximumf (Host.scatterAdd scatter_S100000_S3300000x1_S3300000_n_0_0_1 (broadcastInDim S100000 ![] bcast_S_S100000 (constant (F := F) S_ .f32 0x00000000#32 : Arr F S_ .f32) : Arr F S100000 .f32) (broadcastInDim S3300000x1 ![0] bcast_S3300000_S3300000x1_0 i6 : Arr F S3300000x1 .i32) (broadcastInDim S3300000 ![] bcast_S_S3300000 (constant (F := F) S_ .f32 0x3F800000#32 : Arr F S_ .f32) : Arr F S3300000 .f32) : Arr F S100000 .f32) (broadcastInDim S100000 ![] bcast_S_S100000 (constant (F := F) S_ .f32 0x3F800000#32 : Arr F S_ .f32) : Arr F S100000 .f32) : Arr F S100000 .f32) : Arr F S100000 .f32) (broadcastInDim S100000 ![] bcast_S_S100000 ((constant (F := F) S_ .f32 0x00000000#32 : Arr F S_ .f32) : Arr F S_ .f32) : Arr F S100000 .f32) : Arr F S100000 .f32) (broadcastInDim S100000 ![] bcast_S_S100000 (constant (F := F) S_ .f32 0xBF000000#32 : Arr F S_ .f32) : Arr F S100000 .f32) : Arr F S100000 .f32) (broadcastInDim S100000 ![] bcast_S_S100000 ((constant (F := F) S_ .f32 0x00000000#32 : Arr F S_ .f32) : Arr F S_ .f32) : Arr F S100000 .f32) : Arr F S100000 .f32) (broadcastInDim S3300000x1 ![0] bcast_S3300000_S3300000x1_0 (select (cmpi .slt i6 (broadcastInDim S3300000 ![] bcast_S_S3300000 (constantI S_ 32 0#32 : Arr F S_ .i32) : Arr F S3300000 .i32) : Arr F S3300000 .i1) (addi i6 (broadcastInDim S3300000 ![] bcast_S_S3300000 (constantI S_ 32 100000#32 : Arr F S_ .i32) : Arr F S3300000 .i32) : Arr F S3300000 .i32) i6 : Arr F S3300000 .i32) : Arr F S3300000x1 .i32) : Arr F S3300000 .f32) : Arr F S3300000 .f32)

/-- The edge aggregation of a node array: every edge gathers its source's row, scales it by the edge's weight, and adds
    it into its target's row of a zero array. -/
def agg (i3 i6 : Arr F S3300000 .i32) (w : Arr F S3300000 .f32) (z : Arr F S100000x32 .f32) : Arr F S100000x32 .f32 :=
  (Host.scatterAdd scatter_S100000x32_S3300000x1_S3300000x32_1_0_0_1 (broadcastInDim S100000x32 ![] bcast_S_S100000x32 (constant (F := F) S_ .f32 0x00000000#32 : Arr F S_ .f32) : Arr F S100000x32 .f32) (broadcastInDim S3300000x1 ![0] bcast_S3300000_S3300000x1_0 i6 : Arr F S3300000x1 .i32) (mulf (broadcastInDim S3300000x32 ![0, 1] bcast_S3300000x1_S3300000x32_0_1 (broadcastInDim S3300000x1 ![0] bcast_S3300000_S3300000x1_0 w : Arr F S3300000x1 .f32) : Arr F S3300000x32 .f32) (Host.gather gather_S100000x32_S3300000x1_S3300000x32_1_0_n_n_0_1_132 z (broadcastInDim S3300000x1 ![0] bcast_S3300000_S3300000x1_0 (select (cmpi .slt i3 (broadcastInDim S3300000 ![] bcast_S_S3300000 (constantI S_ 32 0#32 : Arr F S_ .i32) : Arr F S3300000 .i32) : Arr F S3300000 .i1) (addi i3 (broadcastInDim S3300000 ![] bcast_S_S3300000 (constantI S_ 32 100000#32 : Arr F S_ .i32) : Arr F S3300000 .i32) : Arr F S3300000 .i32) i3 : Arr F S3300000 .i32) : Arr F S3300000x1 .i32) : Arr F S3300000x32 .f32) : Arr F S3300000x32 .f32) : Arr F S100000x32 .f32)

/-- The two-layer perceptron on every row, from the first product `P = h · W₁`: `max (P + b₁) 0 · W₂ + b₂`. -/
def denseZ (P : Arr F S100000x32 .f32) (b1 : Arr F S32 .f32) (W2 : Arr F S32x32 .f32) (b2 : Arr F S32 .f32) : Arr F S100000x32 .f32 :=
  (addf (Host.dotGeneral dot_S100000x32_S32x32_S100000x32_1_0_0_1_n_n none (maximumf (addf P (broadcastInDim S100000x32 ![0, 1] bcast_S1x32_S100000x32_0_1 (broadcastInDim S1x32 ![1] bcast_S32_S1x32_1 b1 : Arr F S1x32 .f32) : Arr F S100000x32 .f32) : Arr F S100000x32 .f32) (broadcastInDim S100000x32 ![] bcast_S_S100000x32 (constant (F := F) S_ .f32 0x00000000#32 : Arr F S_ .f32) : Arr F S100000x32 .f32) : Arr F S100000x32 .f32) W2 : Arr F S100000x32 .f32) (broadcastInDim S100000x32 ![0, 1] bcast_S1x32_S100000x32_0_1 (broadcastInDim S1x32 ![1] bcast_S32_S1x32_1 b2 : Arr F S1x32 .f32) : Arr F S100000x32 .f32) : Arr F S100000x32 .f32)

/-- A row vector added to every row. -/
def shifted (a : Arr F S100000x32 .f32) (bias : Arr F S32 .f32) : Arr F S100000x32 .f32 :=
  (addf a (broadcastInDim S100000x32 ![0, 1] bcast_S1x32_S100000x32_0_1 (broadcastInDim S1x32 ![1] bcast_S32_S1x32_1 bias : Arr F S1x32 .f32) : Arr F S100000x32 .f32) : Arr F S100000x32 .f32)

/-- The mean of every column: the column sum divided by the float 100000. -/
def meanRow (v : Arr F S100000x32 .f32) : Arr F S32 .f32 :=
  (Host.divf (Host.reduceAdd v (constant (F := F) S_ .f32 0x00000000#32 : Arr F S_ .f32) reducesTo_S100000x32_S32_d0 h_S_ : Arr F S32 .f32) (broadcastInDim S32 ![] bcast_S_S32 (constant (F := F) S_ .f32 0x47C35000#32 : Arr F S_ .f32) : Arr F S32 .f32) : Arr F S32 .f32)

/-- The variance of every column as the outlined `_var` takes it with zero degrees of freedom removed: the column sum of
    the squared deviations from the column mean, divided by `100000 − 0`, where that divisor is positive (a quiet NaN
    otherwise). -/
def varRow (v : Arr F S100000x32 .f32) : Arr F S32 .f32 :=
  (select (broadcastInDim S32 ![] bcast_S_S32 (cmpf .ogt (subf (constant (F := F) S_ .f32 0x47C35000#32 : Arr F S_ .f32) (sitofp .f32 (constantI S_ 32 0#32 : Arr F S_ .i32) : Arr F S_ .f32) : Arr F S_ .f32) (constant (F := F) S_ .f32 0x00000000#32 : Arr F S_ .f32) : Arr F S_ .i1)) (Host.divf (Host.reduceAdd (mulf (subf v (broadcastInDim S100000x32 ![0, 1] bcast_S1x32_S100000x32_0_1 (Host.divf (broadcastInDim S1x32 ![1] bcast_S32_S1x32_1 (Host.reduceAdd v (constant (F := F) S_ .f32 0x00000000#32 : Arr F S_ .f32) reducesTo_S100000x32_S32_d0 h_S_ : Arr F S32 .f32) : Arr F S1x32 .f32) (broadcastInDim S1x32 ![] bcast_S_S1x32 (constant (F := F) S_ .f32 0x47C35000#32 : Arr F S_ .f32) : Arr F S1x32 .f32) : Arr F S1x32 .f32) : Arr F S100000x32 .f32) : Arr F S100000x32 .f32) (subf v (broadcastInDim S100000x32 ![0, 1] bcast_S1x32_S100000x32_0_1 (Host.divf (broadcastInDim S1x32 ![1] bcast_S32_S1x32_1 (Host.reduceAdd v (constant (F := F) S_ .f32 0x00000000#32 : Arr F S_ .f32) reducesTo_S100000x32_S32_d0 h_S_ : Arr F S32 .f32) : Arr F S1x32 .f32) (broadcastInDim S1x32 ![] bcast_S_S1x32 (constant (F := F) S_ .f32 0x47C35000#32 : Arr F S_ .f32) : Arr F S1x32 .f32) : Arr F S1x32 .f32) : Arr F S100000x32 .f32) : Arr F S100000x32 .f32) : Arr F S100000x32 .f32) (constant (F := F) S_ .f32 0x00000000#32 : Arr F S_ .f32) reducesTo_S100000x32_S32_d0 h_S_ : Arr F S32 .f32) (broadcastInDim S32 ![] bcast_S_S32 (subf (constant (F := F) S_ .f32 0x47C35000#32 : Arr F S_ .f32) (sitofp .f32 (constantI S_ 32 0#32 : Arr F S_ .i32) : Arr F S_ .f32) : Arr F S_ .f32) : Arr F S32 .f32) : Arr F S32 .f32) (broadcastInDim S32 ![] bcast_S_S32 ((constant (F := F) S_ .f32 0x7FC00000#32 : Arr F S_ .f32) : Arr F S_ .f32) : Arr F S32 .f32) : Arr F S32 .f32)

/-- The normalisation from a given mean and variance row: `(v − mean) / sqrt (var + ε) · γ + β`. -/
def normRows (v : Arr F S100000x32 .f32) (mu var g b : Arr F S32 .f32) : Arr F S100000x32 .f32 :=
  (addf (mulf (Host.divf (subf v (broadcastInDim S100000x32 ![0, 1] bcast_S1x32_S100000x32_0_1 (broadcastInDim S1x32 ![1] bcast_S32_S1x32_1 mu : Arr F S1x32 .f32) : Arr F S100000x32 .f32) : Arr F S100000x32 .f32) (broadcastInDim S100000x32 ![0, 1] bcast_S1x32_S100000x32_0_1 (broadcastInDim S1x32 ![1] bcast_S32_S1x32_1 (Host.sqrt (addf var (broadcastInDim S32 ![] bcast_S_S32 (constant (F := F) S_ .f32 0x3727C5AC#32 : Arr F S_ .f32) : Arr F S32 .f32) : Arr F S32 .f32) : Arr F S32 .f32) : Arr F S1x32 .f32) : Arr F S100000x32 .f32) : Arr F S100000x32 .f32) (broadcastInDim S100000x32 ![0, 1] bcast_S1x32_S100000x32_0_1 (broadcastInDim S1x32 ![1] bcast_S32_S1x32_1 g : Arr F S1x32 .f32) : Arr F S100000x32 .f32) : Arr F S100000x32 .f32) (broadcastInDim S100000x32 ![0, 1] bcast_S1x32_S100000x32_0_1 (broadcastInDim S1x32 ![1] bcast_S32_S1x32_1 b : Arr F S1x32 .f32) : Arr F S100000x32 .f32) : Arr F S100000x32 .f32)

/-- An array clamped below at zero. -/
def relu (y : Arr F S100000x32 .f32) : Arr F S100000x32 .f32 :=
  (maximumf y (broadcastInDim S100000x32 ![] bcast_S_S100000x32 (constant (F := F) S_ .f32 0x00000000#32 : Arr F S_ .f32) : Arr F S100000x32 .f32) : Arr F S100000x32 .f32)

/-- One layer before its activation, from the first product of its perceptron: perceptron, aggregation, shift,
    normalisation by the shifted array's own column mean and variance. -/
def core (P : Arr F S100000x32 .f32) (b1 : Arr F S32 .f32) (W2 : Arr F S32x32 .f32) (b2 bias g b : Arr F S32 .f32)
    (i3 i6 : Arr F S3300000 .i32) (w : Arr F S3300000 .f32) : Arr F S100000x32 .f32 :=
  normRows (shifted (agg i3 i6 w (denseZ P b1 W2 b2)) bias) (meanRow (shifted (agg i3 i6 w (denseZ P b1 W2 b2)) bias))
    (varRow (shifted (agg i3 i6 w (denseZ P b1 W2 b2)) bias)) g b

/-- The input product of layer 0: the node features times the 256 × 32 weight. -/
def dot256 (x : Arr F S100000x256 .f32) (wm : Arr F S256x32 .f32) : Arr F S100000x32 .f32 :=
  (Host.dotGeneral dot_S100000x256_S256x32_S100000x32_1_0_0_1_n_n none x wm : Arr F S100000x32 .f32)

/-- The input product of a later layer: the previous layer's output times a 32 × 32 weight. -/
def dot32 (x : Arr F S100000x32 .f32) (wm : Arr F S32x32 .f32) : Arr F S100000x32 .f32 :=
  (Host.dotGeneral dot_S100000x32_S32x32_S100000x32_1_0_0_1_n_n none x wm : Arr F S100000x32 .f32)

/-- Row 0 of a 5 × 32 parameter table, as a vector. -/
def row0 (t : Arr F S5x32 .f32) : Arr F S32 .f32 :=
  (shapeCast S32 (extractStridedSlice S1x32 ![0, 0] t slices_S5x32_S1x32_0_0 : Arr F S1x32 .f32) shapeCasts_S1x32_S32 : Arr F S32 .f32)

/-- Matrix 0 of the 5 × 32 × 32 weight table. -/
def mat5_0 (t : Arr F S5x32x32 .f32) : Arr F S32x32 .f32 :=
  (shapeCast S32x32 (extractStridedSlice S1x32x32 ![0, 0, 0] t slices_S5x32x32_S1x32x32_0_0_0 : Arr F S1x32x32 .f32) shapeCasts_S1x32x32_S32x32 : Arr F S32x32 .f32)

/-- Row 1 of a 5 × 32 parameter table, as a vector. -/
def row1 (t : Arr F S5x32 .f32) : Arr F S32 .f32 :=
  (shapeCast S32 (extractStridedSlice S1x32 ![1, 0] t slices_S5x32_S1x32_1_0 : Arr F S1x32 .f32) shapeCasts_S1x32_S32 : Arr F S32 .f32)

/-- Matrix 1 of the 5 × 32 × 32 weight table. -/
def mat5_1 (t : Arr F S5x32x32 .f32) : Arr F S32x32 .f32 :=
  (shapeCast S32x32 (extractStridedSlice S1x32x32 ![1, 0, 0] t slices_S5x32x32_S1x32x32_1_0_0 : Arr F S1x32x32 .f32) shapeCasts_S1x32x32_S32x32 : Arr F S32x32 .f32)

/-- Matrix 0 of the 4 × 32 × 32 weight table. -/
def mat4_0 (t : Arr F S4x32x32 .f32) : Arr F S32x32 .f32 :=
  (shapeCast S32x32 (extractStridedSlice S1x32x32 ![0, 0, 0] t slices_S4x32x32_S1x32x32_0_0_0 : Arr F S1x32x32 .f32) shapeCasts_S1x32x32_S32x32 : Arr F S32x32 .f32)

/-- Row 2 of a 5 × 32 parameter table, as a vector. -/
def row2 (t : Arr F S5x32 .f32) : Arr F S32 .f32 :=
  (shapeCast S32 (extractStridedSlice S1x32 ![2, 0] t slices_S5x32_S1x32_2_0 : Arr F S1x32 .f32) shapeCasts_S1x32_S32 : Arr F S32 .f32)

/-- Matrix 2 of the 5 × 32 × 32 weight table. -/
def mat5_2 (t : Arr F S5x32x32 .f32) : Arr F S32x32 .f32 :=
  (shapeCast S32x32 (extractStridedSlice S1x32x32 ![2, 0, 0] t slices_S5x32x32_S1x32x32_2_0_0 : Arr F S1x32x32 .f32) shapeCasts_S1x32x32_S32x32 : Arr F S32x32 .f32)

/-- Matrix 1 of the 4 × 32 × 32 weight table. -/
def mat4_1 (t : Arr F S4x32x32 .f32) : Arr F S32x32 .f32 :=
  (shapeCast S32x32 (extractStridedSlice S1x32x32 ![1, 0, 0] t slices_S4x32x32_S1x32x32_1_0_0 : Arr F S1x32x32 .f32) shapeCasts_S1x32x32_S32x32 : Arr F S32x32 .f32)

/-- Row 3 of a 5 × 32 parameter table, as a vector. -/
def row3 (t : Arr F S5x32 .f32) : Arr F S32 .f32 :=
  (shapeCast S32 (extractStridedSlice S1x32 ![3, 0] t slices_S5x32_S1x32_3_0 : Arr F S1x32 .f32) shapeCasts_S1x32_S32 : Arr F S32 .f32)

/-- Matrix 3 of the 5 × 32 × 32 weight table. -/
def mat5_3 (t : Arr F S5x32x32 .f32) : Arr F S32x32 .f32 :=
  (shapeCast S32x32 (extractStridedSlice S1x32x32 ![3, 0, 0] t slices_S5x32x32_S1x32x32_3_0_0 : Arr F S1x32x32 .f32) shapeCasts_S1x32x32_S32x32 : Arr F S32x32 .f32)

/-- Matrix 2 of the 4 × 32 × 32 weight table. -/
def mat4_2 (t : Arr F S4x32x32 .f32) : Arr F S32x32 .f32 :=
  (shapeCast S32x32 (extractStridedSlice S1x32x32 ![2, 0, 0] t slices_S4x32x32_S1x32x32_2_0_0 : Arr F S1x32x32 .f32) shapeCasts_S1x32x32_S32x32 : Arr F S32x32 .f32)

/-- Row 4 of a 5 × 32 parameter table, as a vector. -/
def row4 (t : Arr F S5x32 .f32) : Arr F S32 .f32 :=
  (shapeCast S32 (extractStridedSlice S1x32 ![4, 0] t slices_S5x32_S1x32_4_0 : Arr F S1x32 .f32) shapeCasts_S1x32_S32 : Arr F S32 .f32)

/-- Matrix 4 of the 5 × 32 × 32 weight table. -/
def mat5_4 (t : Arr F S5x32x32 .f32) : Arr F S32x32 .f32 :=
  (shapeCast S32x32 (extractStridedSlice S1x32x32 ![4, 0, 0] t slices_S5x32x32_S1x32x32_4_0_0 : Arr F S1x32x32 .f32) shapeCasts_S1x32x32_S32x32 : Arr F S32x32 .f32)

/-- Matrix 3 of the 4 × 32 × 32 weight table. -/
def mat4_3 (t : Arr F S4x32x32 .f32) : Arr F S32x32 .f32 :=
  (shapeCast S32x32 (extractStridedSlice S1x32x32 ![3, 0, 0] t slices_S4x32x32_S1x32x32_3_0_0 : Arr F S1x32x32 .f32) shapeCasts_S1x32x32_S32x32 : Arr F S32x32 .f32)

/-- Layer 0: from the node features, clamped at zero. -/
def layer0 (a0 : Arr F S100000x256 .f32) (a2 : Arr F S256x32 .f32) (a4 : Arr F S5x32 .f32) (a5 : Arr F S5x32x32 .f32) (a6 a7 a8 a9 : Arr F S5x32 .f32) (i3 i6 : Arr F S3300000 .i32) (w : Arr F S3300000 .f32) : Arr F S100000x32 .f32 :=
  relu (core (dot256 a0 a2) (row0 a4) (mat5_0 a5) (row0 a6) (row0 a7) (row0 a8) (row0 a9) i3 i6 w)

/-- Layer 1: from the previous layer's output, clamped at zero. -/
def layer1 (h : Arr F S100000x32 .f32) (a3 : Arr F S4x32x32 .f32) (a4 : Arr F S5x32 .f32) (a5 : Arr F S5x32x32 .f32) (a6 a7 a8 a9 : Arr F S5x32 .f32) (i3 i6 : Arr F S3300000 .i32) (w : Arr F S3300000 .f32) : Arr F S100000x32 .f32 :=
  relu (core (dot32 h (mat4_0 a3)) (row1 a4) (mat5_1 a5) (row1 a6) (row1 a7) (row1 a8) (row1 a9) i3 i6 w)

/-- Layer 2: from the previous layer's output, clamped at zero. -/
def layer2 (h : Arr F S100000x32 .f32) (a3 : Arr F S4x32x32 .f32) (a4 : Arr F S5x32 .f32) (a5 : Arr F S5x32x32 .f32) (a6 a7 a8 a9 : Arr F S5x32 .f32) (i3 i6 : Arr F S3300000 .i32) (w : Arr F S3300000 .f32) : Arr F S100000x32 .f32 :=
  relu (core (dot32 h (mat4_1 a3)) (row2 a4) (mat5_2 a5) (row2 a6) (row2 a7) (row2 a8) (row2 a9) i3 i6 w)

/-- Layer 3: from the previous layer's output, clamped at zero. -/
def layer3 (h : Arr F S100000x32 .f32) (a3 : Arr F S4x32x32 .f32) (a4 : Arr F S5x32 .f32) (a5 : Arr F S5x32x32 .f32) (a6 a7 a8 a9 : Arr F S5x32 .f32) (i3 i6 : Arr F S3300000 .i32) (w : Arr F S3300000 .f32) : Arr F S100000x32 .f32 :=
  relu (core (dot32 h (mat4_2 a3)) (row3 a4) (mat5_3 a5) (row3 a6) (row3 a7) (row3 a8) (row3 a9) i3 i6 w)

/-- Layer 4: from the previous layer's output, not clamped. -/
def layer4 (h : Arr F S100000x32 .f32) (a3 : Arr F S4x32x32 .f32) (a4 : Arr F S5x32 .f32) (a5 : Arr F S5x32x32 .f32) (a6 a7 a8 a9 : Arr F S5x32 .f32) (i3 i6 : Arr F S3300000 .i32) (w : Arr F S3300000 .f32) : Arr F S100000x32 .f32 :=
  core (dot32 h (mat4_3 a3)) (row4 a4) (mat5_4 a5) (row4 a6) (row4 a7) (row4 a8) (row4 a9) i3 i6 w

/-- The whole network from the ten arguments. -/
def net (a0 : Arr F S100000x256 .f32) (a1 : Arr F S2x3200000 .i32) (a2 : Arr F S256x32 .f32) (a3 : Arr F S4x32x32 .f32) (a4 : Arr F S5x32 .f32)
    (a5 : Arr F S5x32x32 .f32) (a6 a7 a8 a9 : Arr F S5x32 .f32) : Arr F S100000x32 .f32 :=
  layer4 (layer3 (layer2 (layer1 (layer0 a0 a2 a4 a5 a6 a7 a8 a9 (idxSrc a1) (idxDst a1) (edgeWeight (idxSrc a1) (idxDst a1)))
    a3 a4 a5 a6 a7 a8 a9 (idxSrc a1) (idxDst a1) (edgeWeight (idxSrc a1) (idxDst a1)))
    a3 a4 a5 a6 a7 a8 a9 (idxSrc a1) (idxDst a1) (edgeWeight (idxSrc a1) (idxDst a1)))
    a3 a4 a5 a6 a7 a8 a9 (idxSrc a1) (idxDst a1) (edgeWeight (idxSrc a1) (idxDst a1)))
    a3 a4 a5 a6 a7 a8 a9 (idxSrc a1) (idxDst a1) (edgeWeight (idxSrc a1) (idxDst a1))

end Cert.ReferenceIdeal.Hand

end
-- ==== Proof.Ref.ReadPre.lean ====
import proofs.«114689_j15281493639468_1_alg».proof.Proof.Ref.Ops
import proofs.«114689_j15281493639468_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The shared prelude read back: after its sixty operations, from any contents, the two index vectors and the edge weights
    are the named functions of the edge table. -/

set_option maxRecDepth 8192 in
set_option maxHeartbeats 4000000 in
theorem pre_v3 (W : Valuation τ sig (Elt F)) :
    after q0 W (Proc.devRef .tc main_v3) = idxSrc (W (Proc.devRef .tc main_arg1)) := by
  simp only [q0]
  after_results_simp
  rfl

set_option maxRecDepth 8192 in
set_option maxHeartbeats 4000000 in
theorem pre_v6 (W : Valuation τ sig (Elt F)) :
    after q0 W (Proc.devRef .tc main_v6) = idxDst (W (Proc.devRef .tc main_arg1)) := by
  simp only [q0]
  after_results_simp
  rfl

set_option maxRecDepth 8192 in
set_option maxHeartbeats 4000000 in
theorem pre_v41 (W : Valuation τ sig (Elt F)) :
    after q0 W (Proc.devRef .tc main_v41) = edgeWeight (idxSrc (W (Proc.devRef .tc main_arg1))) (idxDst (W (Proc.devRef .tc main_arg1))) := by
  simp only [q0]
  after_results_simp
  rfl

end Cert.ReferenceIdeal.Hand

end
-- ==== Proof.Ref.Read0.lean ====
import proofs.«114689_j15281493639468_1_alg».proof.Proof.Ref.Ops
import proofs.«114689_j15281493639468_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 0 read back: after its operations, from any contents, its output buffer holds the layer function of the
    buffers it reads. -/

set_option maxRecDepth 8192 in
set_option maxHeartbeats 4000000 in
theorem layer0_read (W : Valuation τ sig (Elt F)) :
    after q3 (after q2 (after q1 (W))) (Proc.devRef .tc main_v100)
      = layer0 (W (Proc.devRef .tc main_arg0)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_v3)) (W (Proc.devRef .tc main_v6)) (W (Proc.devRef .tc main_v41)) := by
  simp only [q1, q2, q3]
  after_results_simp
  rfl

end Cert.ReferenceIdeal.Hand

end
-- ==== Proof.Ref.Read1.lean ====
import proofs.«114689_j15281493639468_1_alg».proof.Proof.Ref.Ops
import proofs.«114689_j15281493639468_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 1 read back: after its operations, from any contents, its output buffer holds the layer function of the
    buffers it reads. -/

set_option maxRecDepth 8192 in
set_option maxHeartbeats 4000000 in
theorem layer1_read (W : Valuation τ sig (Elt F)) :
    after q5 (after q4 (W)) (Proc.devRef .tc main_v161)
      = layer1 (W (Proc.devRef .tc main_v100)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_v3)) (W (Proc.devRef .tc main_v6)) (W (Proc.devRef .tc main_v41)) := by
  simp only [q4, q5]
  after_results_simp
  rfl

end Cert.ReferenceIdeal.Hand

end
-- ==== Proof.Ref.Read2.lean ====
import proofs.«114689_j15281493639468_1_alg».proof.Proof.Ref.Ops
import proofs.«114689_j15281493639468_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 2 read back: after its operations, from any contents, its output buffer holds the layer function of the
    buffers it reads. -/

set_option maxRecDepth 8192 in
set_option maxHeartbeats 4000000 in
theorem layer2_read (W : Valuation τ sig (Elt F)) :
    after q7 (after q6 (W)) (Proc.devRef .tc main_v222)
      = layer2 (W (Proc.devRef .tc main_v161)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_v3)) (W (Proc.devRef .tc main_v6)) (W (Proc.devRef .tc main_v41)) := by
  simp only [q6, q7]
  after_results_simp
  rfl

end Cert.ReferenceIdeal.Hand

end
-- ==== Proof.Ref.Read3.lean ====
import proofs.«114689_j15281493639468_1_alg».proof.Proof.Ref.Ops
import proofs.«114689_j15281493639468_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 3 read back: after its operations, from any contents, its output buffer holds the layer function of the
    buffers it reads. -/

set_option maxRecDepth 8192 in
set_option maxHeartbeats 4000000 in
theorem layer3_read (W : Valuation τ sig (Elt F)) :
    after q9 (after q8 (W)) (Proc.devRef .tc main_v283)
      = layer3 (W (Proc.devRef .tc main_v222)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_v3)) (W (Proc.devRef .tc main_v6)) (W (Proc.devRef .tc main_v41)) := by
  simp only [q8, q9]
  after_results_simp
  rfl

end Cert.ReferenceIdeal.Hand

end
-- ==== Proof.Ref.Read4.lean ====
import proofs.«114689_j15281493639468_1_alg».proof.Proof.Ref.Ops
import proofs.«114689_j15281493639468_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Layer 4 read back: after its operations, from any contents, its output buffer holds the layer function of the
    buffers it reads. -/

set_option maxRecDepth 8192 in
set_option maxHeartbeats 4000000 in
theorem layer4_read (W : Valuation τ sig (Elt F)) :
    after q11 (after q10 (W)) (Proc.devRef .tc main_v342)
      = layer4 (W (Proc.devRef .tc main_v283)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_v3)) (W (Proc.devRef .tc main_v6)) (W (Proc.devRef .tc main_v41)) := by
  simp only [q10, q11]
  after_results_simp
  rfl

end Cert.ReferenceIdeal.Hand

end
-- ==== Proof.Ref.Net.lean ====
import proofs.«114689_j15281493639468_1_alg».proof.Proof.Ref.Run
import proofs.«114689_j15281493639468_1_alg».proof.Proof.Ref.ReadPre
import proofs.«114689_j15281493639468_1_alg».proof.Proof.Ref.Read0
import proofs.«114689_j15281493639468_1_alg».proof.Proof.Ref.Read1
import proofs.«114689_j15281493639468_1_alg».proof.Proof.Ref.Read2
import proofs.«114689_j15281493639468_1_alg».proof.Proof.Ref.Read3
import proofs.«114689_j15281493639468_1_alg».proof.Proof.Ref.Read4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The whole line read back as the network of the ten arguments. The layers read, besides the previous layer's output, only
    the arguments and the prelude's three arrays, and no operation after the prelude writes any of those; so through every
    later piece the contents keep agreeing with the launch contents on them, and the layers' read-backs compose. -/

/-- Contents `W` that agree with the launch contents `V` on the arguments the layers read, and hold the prelude's index
    vectors and edge weights of `V`'s edge table. -/
structure Good (W V : Valuation τ sig (Elt F)) : Prop where
  a0 : W (Proc.devRef .tc main_arg0) = V (Proc.devRef .tc main_arg0)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  i3 : W (Proc.devRef .tc main_v3) = idxSrc (V (Proc.devRef .tc main_arg1))
  i6 : W (Proc.devRef .tc main_v6) = idxDst (V (Proc.devRef .tc main_arg1))
  w : W (Proc.devRef .tc main_v41) = edgeWeight (idxSrc (V (Proc.devRef .tc main_arg1))) (idxDst (V (Proc.devRef .tc main_arg1)))

/-- The contents after the prelude are good. -/
theorem good_pre (V : Valuation τ sig (Elt F)) : Good (after q0 V) V :=
  ⟨q0_keep V main_arg0 (by decide),
    q0_keep V main_arg2 (by decide),
    q0_keep V main_arg3 (by decide),
    q0_keep V main_arg4 (by decide),
    q0_keep V main_arg5 (by decide),
    q0_keep V main_arg6 (by decide),
    q0_keep V main_arg7 (by decide),
    q0_keep V main_arg8 (by decide),
    q0_keep V main_arg9 (by decide),
    pre_v3 V, pre_v6 V, pre_v41 V⟩

/-- Piece 1 writes none of them. -/
theorem Good.q1 {W V : Valuation τ sig (Elt F)} (h : Good W V) : Good (after q1 W) V :=
  ⟨(q1_keep W main_arg0 (by decide)).trans h.a0,
    (q1_keep W main_arg2 (by decide)).trans h.a2,
    (q1_keep W main_arg3 (by decide)).trans h.a3,
    (q1_keep W main_arg4 (by decide)).trans h.a4,
    (q1_keep W main_arg5 (by decide)).trans h.a5,
    (q1_keep W main_arg6 (by decide)).trans h.a6,
    (q1_keep W main_arg7 (by decide)).trans h.a7,
    (q1_keep W main_arg8 (by decide)).trans h.a8,
    (q1_keep W main_arg9 (by decide)).trans h.a9,
    (q1_keep W main_v3 (by decide)).trans h.i3, (q1_keep W main_v6 (by decide)).trans h.i6,
    (q1_keep W main_v41 (by decide)).trans h.w⟩

/-- Piece 2 writes none of them. -/
theorem Good.q2 {W V : Valuation τ sig (Elt F)} (h : Good W V) : Good (after q2 W) V :=
  ⟨(q2_keep W main_arg0 (by decide)).trans h.a0,
    (q2_keep W main_arg2 (by decide)).trans h.a2,
    (q2_keep W main_arg3 (by decide)).trans h.a3,
    (q2_keep W main_arg4 (by decide)).trans h.a4,
    (q2_keep W main_arg5 (by decide)).trans h.a5,
    (q2_keep W main_arg6 (by decide)).trans h.a6,
    (q2_keep W main_arg7 (by decide)).trans h.a7,
    (q2_keep W main_arg8 (by decide)).trans h.a8,
    (q2_keep W main_arg9 (by decide)).trans h.a9,
    (q2_keep W main_v3 (by decide)).trans h.i3, (q2_keep W main_v6 (by decide)).trans h.i6,
    (q2_keep W main_v41 (by decide)).trans h.w⟩

/-- Piece 3 writes none of them. -/
theorem Good.q3 {W V : Valuation τ sig (Elt F)} (h : Good W V) : Good (after q3 W) V :=
  ⟨(q3_keep W main_arg0 (by decide)).trans h.a0,
    (q3_keep W main_arg2 (by decide)).trans h.a2,
    (q3_keep W main_arg3 (by decide)).trans h.a3,
    (q3_keep W main_arg4 (by decide)).trans h.a4,
    (q3_keep W main_arg5 (by decide)).trans h.a5,
    (q3_keep W main_arg6 (by decide)).trans h.a6,
    (q3_keep W main_arg7 (by decide)).trans h.a7,
    (q3_keep W main_arg8 (by decide)).trans h.a8,
    (q3_keep W main_arg9 (by decide)).trans h.a9,
    (q3_keep W main_v3 (by decide)).trans h.i3, (q3_keep W main_v6 (by decide)).trans h.i6,
    (q3_keep W main_v41 (by decide)).trans h.w⟩

/-- Piece 4 writes none of them. -/
theorem Good.q4 {W V : Valuation τ sig (Elt F)} (h : Good W V) : Good (after q4 W) V :=
  ⟨(q4_keep W main_arg0 (by decide)).trans h.a0,
    (q4_keep W main_arg2 (by decide)).trans h.a2,
    (q4_keep W main_arg3 (by decide)).trans h.a3,
    (q4_keep W main_arg4 (by decide)).trans h.a4,
    (q4_keep W main_arg5 (by decide)).trans h.a5,
    (q4_keep W main_arg6 (by decide)).trans h.a6,
    (q4_keep W main_arg7 (by decide)).trans h.a7,
    (q4_keep W main_arg8 (by decide)).trans h.a8,
    (q4_keep W main_arg9 (by decide)).trans h.a9,
    (q4_keep W main_v3 (by decide)).trans h.i3, (q4_keep W main_v6 (by decide)).trans h.i6,
    (q4_keep W main_v41 (by decide)).trans h.w⟩

/-- Piece 5 writes none of them. -/
theorem Good.q5 {W V : Valuation τ sig (Elt F)} (h : Good W V) : Good (after q5 W) V :=
  ⟨(q5_keep W main_arg0 (by decide)).trans h.a0,
    (q5_keep W main_arg2 (by decide)).trans h.a2,
    (q5_keep W main_arg3 (by decide)).trans h.a3,
    (q5_keep W main_arg4 (by decide)).trans h.a4,
    (q5_keep W main_arg5 (by decide)).trans h.a5,
    (q5_keep W main_arg6 (by decide)).trans h.a6,
    (q5_keep W main_arg7 (by decide)).trans h.a7,
    (q5_keep W main_arg8 (by decide)).trans h.a8,
    (q5_keep W main_arg9 (by decide)).trans h.a9,
    (q5_keep W main_v3 (by decide)).trans h.i3, (q5_keep W main_v6 (by decide)).trans h.i6,
    (q5_keep W main_v41 (by decide)).trans h.w⟩

/-- Piece 6 writes none of them. -/
theorem Good.q6 {W V : Valuation τ sig (Elt F)} (h : Good W V) : Good (after q6 W) V :=
  ⟨(q6_keep W main_arg0 (by decide)).trans h.a0,
    (q6_keep W main_arg2 (by decide)).trans h.a2,
    (q6_keep W main_arg3 (by decide)).trans h.a3,
    (q6_keep W main_arg4 (by decide)).trans h.a4,
    (q6_keep W main_arg5 (by decide)).trans h.a5,
    (q6_keep W main_arg6 (by decide)).trans h.a6,
    (q6_keep W main_arg7 (by decide)).trans h.a7,
    (q6_keep W main_arg8 (by decide)).trans h.a8,
    (q6_keep W main_arg9 (by decide)).trans h.a9,
    (q6_keep W main_v3 (by decide)).trans h.i3, (q6_keep W main_v6 (by decide)).trans h.i6,
    (q6_keep W main_v41 (by decide)).trans h.w⟩

/-- Piece 7 writes none of them. -/
theorem Good.q7 {W V : Valuation τ sig (Elt F)} (h : Good W V) : Good (after q7 W) V :=
  ⟨(q7_keep W main_arg0 (by decide)).trans h.a0,
    (q7_keep W main_arg2 (by decide)).trans h.a2,
    (q7_keep W main_arg3 (by decide)).trans h.a3,
    (q7_keep W main_arg4 (by decide)).trans h.a4,
    (q7_keep W main_arg5 (by decide)).trans h.a5,
    (q7_keep W main_arg6 (by decide)).trans h.a6,
    (q7_keep W main_arg7 (by decide)).trans h.a7,
    (q7_keep W main_arg8 (by decide)).trans h.a8,
    (q7_keep W main_arg9 (by decide)).trans h.a9,
    (q7_keep W main_v3 (by decide)).trans h.i3, (q7_keep W main_v6 (by decide)).trans h.i6,
    (q7_keep W main_v41 (by decide)).trans h.w⟩

/-- Piece 8 writes none of them. -/
theorem Good.q8 {W V : Valuation τ sig (Elt F)} (h : Good W V) : Good (after q8 W) V :=
  ⟨(q8_keep W main_arg0 (by decide)).trans h.a0,
    (q8_keep W main_arg2 (by decide)).trans h.a2,
    (q8_keep W main_arg3 (by decide)).trans h.a3,
    (q8_keep W main_arg4 (by decide)).trans h.a4,
    (q8_keep W main_arg5 (by decide)).trans h.a5,
    (q8_keep W main_arg6 (by decide)).trans h.a6,
    (q8_keep W main_arg7 (by decide)).trans h.a7,
    (q8_keep W main_arg8 (by decide)).trans h.a8,
    (q8_keep W main_arg9 (by decide)).trans h.a9,
    (q8_keep W main_v3 (by decide)).trans h.i3, (q8_keep W main_v6 (by decide)).trans h.i6,
    (q8_keep W main_v41 (by decide)).trans h.w⟩

/-- Piece 9 writes none of them. -/
theorem Good.q9 {W V : Valuation τ sig (Elt F)} (h : Good W V) : Good (after q9 W) V :=
  ⟨(q9_keep W main_arg0 (by decide)).trans h.a0,
    (q9_keep W main_arg2 (by decide)).trans h.a2,
    (q9_keep W main_arg3 (by decide)).trans h.a3,
    (q9_keep W main_arg4 (by decide)).trans h.a4,
    (q9_keep W main_arg5 (by decide)).trans h.a5,
    (q9_keep W main_arg6 (by decide)).trans h.a6,
    (q9_keep W main_arg7 (by decide)).trans h.a7,
    (q9_keep W main_arg8 (by decide)).trans h.a8,
    (q9_keep W main_arg9 (by decide)).trans h.a9,
    (q9_keep W main_v3 (by decide)).trans h.i3, (q9_keep W main_v6 (by decide)).trans h.i6,
    (q9_keep W main_v41 (by decide)).trans h.w⟩

/-- Layer 0 from good contents: its output is the layer function of the launch arguments. -/
theorem layer0_good {W V : Valuation τ sig (Elt F)} (h : Good W V) :
    after q3 (after q2 (after q1 (W))) (Proc.devRef .tc main_v100)
      = layer0 (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [layer0_read, h.a0, h.a2, h.a4, h.a5, h.a6, h.a7, h.a8, h.a9, h.i3, h.i6, h.w]

/-- Layer 1 from good contents: its output is the layer function of the previous layer's output and the launch arguments. -/
theorem layer1_good {W V : Valuation τ sig (Elt F)} (h : Good W V) :
    after q5 (after q4 (W)) (Proc.devRef .tc main_v161)
      = layer1 (W (Proc.devRef .tc main_v100)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [layer1_read, h.a3, h.a4, h.a5, h.a6, h.a7, h.a8, h.a9, h.i3, h.i6, h.w]

/-- Layer 2 from good contents: its output is the layer function of the previous layer's output and the launch arguments. -/
theorem layer2_good {W V : Valuation τ sig (Elt F)} (h : Good W V) :
    after q7 (after q6 (W)) (Proc.devRef .tc main_v222)
      = layer2 (W (Proc.devRef .tc main_v161)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [layer2_read, h.a3, h.a4, h.a5, h.a6, h.a7, h.a8, h.a9, h.i3, h.i6, h.w]

/-- Layer 3 from good contents: its output is the layer function of the previous layer's output and the launch arguments. -/
theorem layer3_good {W V : Valuation τ sig (Elt F)} (h : Good W V) :
    after q9 (after q8 (W)) (Proc.devRef .tc main_v283)
      = layer3 (W (Proc.devRef .tc main_v222)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [layer3_read, h.a3, h.a4, h.a5, h.a6, h.a7, h.a8, h.a9, h.i3, h.i6, h.w]

/-- Layer 4 from good contents: its output is the layer function of the previous layer's output and the launch arguments. -/
theorem layer4_good {W V : Valuation τ sig (Elt F)} (h : Good W V) :
    after q11 (after q10 (W)) (Proc.devRef .tc main_v342)
      = layer4 (W (Proc.devRef .tc main_v283)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [layer4_read, h.a3, h.a4, h.a5, h.a6, h.a7, h.a8, h.a9, h.i3, h.i6, h.w]

/-- After the whole line, from any contents, the result buffer holds the network of the ten arguments' contents. -/
theorem net_eq (V : Valuation τ sig (Elt F)) :
    after ops V (Proc.devRef .tc main_v342) = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  have g1 := good_pre V
  have g4 := g1.q1.q2.q3
  have g6 := g4.q4.q5
  have g8 := g6.q6.q7
  have g10 := g8.q8.q9
  rw [after_ops, layer4_good g10, layer3_good g8, layer2_good g6, layer1_good g4, layer0_good g1]
  rfl

/-- The run's result on device `c` is the network of the ten arguments' launch contents. -/
theorem result_eq (m : (ℓ : Loc nD τ sig) → Buf (Elt F) ℓ) (c : Dev nD) :
    result m c = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  net_eq (launchContents m c)

end Cert.ReferenceIdeal.Hand

end
-- ==== Proof.Ref.Outs.lean ====
import proofs.«114689_j15281493639468_1_alg».proof.Proof.Ref.Net

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Each layer's output buffer after the whole line: no later piece writes it, so it holds what its own layer left, which is
    the layer function of the previous layer's output buffer after the whole line and of the arguments. -/

theorem out0_at (V : Valuation τ sig (Elt F)) :
    after ops V (Proc.devRef .tc main_v100) = after q3 (after q2 (after q1 (after q0 (V)))) (Proc.devRef .tc main_v100) := by
  rw [after_ops, q11_keep _ main_v100 (by decide), q10_keep _ main_v100 (by decide), q9_keep _ main_v100 (by decide), q8_keep _ main_v100 (by decide), q7_keep _ main_v100 (by decide), q6_keep _ main_v100 (by decide), q5_keep _ main_v100 (by decide), q4_keep _ main_v100 (by decide)]

theorem out1_at (V : Valuation τ sig (Elt F)) :
    after ops V (Proc.devRef .tc main_v161) = after q5 (after q4 (after q3 (after q2 (after q1 (after q0 (V)))))) (Proc.devRef .tc main_v161) := by
  rw [after_ops, q11_keep _ main_v161 (by decide), q10_keep _ main_v161 (by decide), q9_keep _ main_v161 (by decide), q8_keep _ main_v161 (by decide), q7_keep _ main_v161 (by decide), q6_keep _ main_v161 (by decide)]

theorem out2_at (V : Valuation τ sig (Elt F)) :
    after ops V (Proc.devRef .tc main_v222) = after q7 (after q6 (after q5 (after q4 (after q3 (after q2 (after q1 (after q0 (V)))))))) (Proc.devRef .tc main_v222) := by
  rw [after_ops, q11_keep _ main_v222 (by decide), q10_keep _ main_v222 (by decide), q9_keep _ main_v222 (by decide), q8_keep _ main_v222 (by decide)]

theorem out3_at (V : Valuation τ sig (Elt F)) :
    after ops V (Proc.devRef .tc main_v283) = after q9 (after q8 (after q7 (after q6 (after q5 (after q4 (after q3 (after q2 (after q1 (after q0 (V)))))))))) (Proc.devRef .tc main_v283) := by
  rw [after_ops, q11_keep _ main_v283 (by decide), q10_keep _ main_v283 (by decide)]

theorem out4_at (V : Valuation τ sig (Elt F)) :
    after ops V (Proc.devRef .tc main_v342) = after q11 (after q10 (after q9 (after q8 (after q7 (after q6 (after q5 (after q4 (after q3 (after q2 (after q1 (after q0 (V)))))))))))) (Proc.devRef .tc main_v342) := by
  rw [after_ops]

/-- Layer 0's output after the whole line. -/
theorem out0_eq (V : Valuation τ sig (Elt F)) :
    after ops V (Proc.devRef .tc main_v100) = layer0 (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [out0_at, layer0_good (good_pre V)]

/-- Layer 1's output after the whole line. -/
theorem out1_eq (V : Valuation τ sig (Elt F)) :
    after ops V (Proc.devRef .tc main_v161) = layer1 (after ops V (Proc.devRef .tc main_v100)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [out1_at, out0_at, layer1_good (good_pre V).q1.q2.q3]

/-- Layer 2's output after the whole line. -/
theorem out2_eq (V : Valuation τ sig (Elt F)) :
    after ops V (Proc.devRef .tc main_v222) = layer2 (after ops V (Proc.devRef .tc main_v161)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [out2_at, out1_at, layer2_good (good_pre V).q1.q2.q3.q4.q5]

/-- Layer 3's output after the whole line. -/
theorem out3_eq (V : Valuation τ sig (Elt F)) :
    after ops V (Proc.devRef .tc main_v283) = layer3 (after ops V (Proc.devRef .tc main_v222)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [out3_at, out2_at, layer3_good (good_pre V).q1.q2.q3.q4.q5.q6.q7]

/-- Layer 4's output after the whole line. -/
theorem out4_eq (V : Valuation τ sig (Elt F)) :
    after ops V (Proc.devRef .tc main_v342) = layer4 (after ops V (Proc.devRef .tc main_v283)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (idxSrc (V (Proc.devRef .tc main_arg1))) (idxDst (V (Proc.devRef .tc main_arg1))) (edgeWeight (idxSrc (V (Proc.devRef .tc main_arg1))) (idxDst (V (Proc.devRef .tc main_arg1)))) := by
  rw [out4_at, out3_at, layer4_good (good_pre V).q1.q2.q3.q4.q5.q6.q7.q8.q9]

end Cert.ReferenceIdeal.Hand

end
-- ==== Proof.Ref.Layers.lean ====
import proofs.«114689_j15281493639468_1_alg».proof.Proof.Ref.Terms
import proofs.«114689_j15281493639468_1_alg».proof.Proof.SpecFull
import Idealize.ShloMosaic.Lib.IdealHost
import Idealize.ShloMosaic.Lib.KernelVsHost
import Idealize.ShloMosaic.Lib.ValueLayout
import Idealize.ShloMosaic.Lib.StackMember
import Idealize.ShloMosaic.Lib.Pipeline.Value

noncomputable section

namespace Cert.ReferenceIdeal.Hand

open Cert.ReferenceIdeal Cert.ReferenceIdeal.Gen Idealize.ShloMosaic Idealize.ShloMosaic.ValueIdx Idealize.ShloMosaic.StackMember

/-! The reference network at the extended reals, against the shared specification. First every stage of one layer is read at
    an index: the perceptron from its first product, the shift, the column mean, the outlined variance (whose divisor
    `100000 − 0` is the float 100000 and positive, so its guard holds and the select takes the quotient), the quotient by
    the square root with γ and β, the clamp, the products as sums, and the rows and blocks of the parameter tables. Then one
    layer by rows and columns is the specification's `layerR`, and the five composed are its `netR`. -/

/-- A vector laid as a row and copied down the 100000 rows reads, at (p, q), its entry q. -/
theorem rows_apply (b : Arr Ideal S32 .f32) (p : Fin 100000) (q : Fin 32) :
    broadcastInDim S100000x32 ![0, 1] bcast_S1x32_S100000x32_0_1 (broadcastInDim S1x32 ![1] bcast_S32_S1x32_1 b) (ix2 p q)
      = b (ix1 q) := by
  refine (broadcastInDim_oneRow_apply (m := 100000) (n := 32) bcast_S1x32_S100000x32_0_1 _ p q).trans ?_
  refine broadcastInDim_apply ![1] bcast_S32_S1x32_1 b (ix2 (0 : Fin 1) q) (ix1 q) fun a => ?_
  match a with
  | ⟨0, _⟩ =>
    show q.val = if (32 : ℕ) = 1 then 0 else q.val
    rw [if_neg (by decide)]

/-- The zero scalar copied over the whole array reads 0. -/
theorem zeros_apply (i : S100000x32.Idx) :
    broadcastInDim S100000x32 ![] bcast_S_S100000x32 (constant (F := Ideal) S_ .f32 0x00000000#32) i = 0 := by
  rw [broadcastInDim_scalar_apply]
  exact Ideal.ofBits_zero_f32

/-- The perceptron at (p, q), from the first product. -/
theorem denseZ_apply (P : Arr Ideal S100000x32 .f32) (b1 : Arr Ideal S32 .f32) (W2 : Arr Ideal S32x32 .f32) (b2 : Arr Ideal S32 .f32)
    (p : Fin 100000) (q : Fin 32) :
    denseZ P b1 W2 b2 (ix2 p q) = (∑ k : Fin 32, max (P (ix2 p k) + b1 (ix1 k)) 0 * W2 (ix2 k q)) + b2 (ix1 q) := by
  unfold denseZ
  rw [addf_apply, rows_apply]
  refine congrArg (· + b2 (ix1 q)) ?_
  refine (dotGeneral_plain_apply (m := 100000) (k := 32) (n := 32) none _ W2 p q).trans ?_
  refine Finset.sum_congr rfl fun k _ => ?_
  rw [maximumf_apply, addf_apply, rows_apply, zeros_apply]

/-- A row vector added to every row, at (p, q). -/
theorem shifted_apply (a : Arr Ideal S100000x32 .f32) (bias : Arr Ideal S32 .f32) (p : Fin 100000) (q : Fin 32) :
    shifted a bias (ix2 p q) = a (ix2 p q) + bias (ix1 q) := by
  unfold shifted
  rw [addf_apply, rows_apply]

/-- A vector laid as a one-row matrix reads, at (0, q), its entry q. -/
theorem oneRow_apply (b : Arr Ideal S32 .f32) (q : Fin 32) :
    broadcastInDim S1x32 ![1] bcast_S32_S1x32_1 b (ix2 (0 : Fin 1) q) = b (ix1 q) := by
  refine broadcastInDim_apply ![1] bcast_S32_S1x32_1 b (ix2 (0 : Fin 1) q) (ix1 q) fun a => ?_
  match a with
  | ⟨0, _⟩ =>
    show q.val = if (32 : ℕ) = 1 then 0 else q.val
    rw [if_neg (by decide)]

/-- The column index q with the row p put back is (p, q). -/
theorem lift_ix2 (h : S100000x32.Reduces [0] S32) (q : Fin 32) (k : Fin (S100000x32.size 0)) :
    h.lift (ix1 q) k = ix2 (⟨k.val, k.isLt⟩ : Fin 100000) q := by
  funext c; apply Fin.ext
  fin_cases c <;> rfl

/-- The host's sum over the rows from a zero start, at column q, is the sum of the column. -/
theorem colSum_apply (x : Arr Ideal S100000x32 .f32) (q : Fin 32) :
    Host.reduceAdd x (constant (F := Ideal) S_ .f32 0x00000000#32) reducesTo_S100000x32_S32_d0 h_S_ (ix1 q)
      = ∑ p : Fin 100000, x (ix2 p q) := by
  have h : S100000x32.Reduces [0] S32 := by decide
  rw [hostReduceAdd_apply, Ideal.hostReduceAdd_single reducesTo_S100000x32_S32_d0 h, constant_apply, Ideal.ofBits_zero_f32, zero_add]
  exact Finset.sum_congr rfl fun k _ => congrArg x (lift_ix2 h q k)

/-- The column mean at q: the column sum divided by the float 100000. -/
theorem meanRow_apply (v : Arr Ideal S100000x32 .f32) (q : Fin 32) :
    meanRow v (ix1 q) = Ideal.div (∑ p : Fin 100000, v (ix2 p q)) Spec.nF := by
  unfold meanRow
  rw [hostDivf_apply, colSum_apply, broadcastInDim_scalar_apply, constant_apply]
  rfl

/-- The divisor `100000 − 0` of the outlined variance is the float 100000. -/
theorem nMinus (j : S_.Idx) :
    (subf (constant (F := Ideal) S_ .f32 0x47C35000#32) (sitofp .f32 (constantI S_ 32 0#32)) : Arr Ideal S_ .f32) j = Spec.nF := by
  rw [subf_apply, constant_apply, sitofp_apply, constantI_apply]
  show Spec.nF - ((((0#32 : BitVec 32).toInt : ℤ) : ℝ) : EReal) = Spec.nF
  simp

/-- It is positive: the comparison that guards the variance holds. -/
theorem nF_gt : FloatOps.cmpf (F := Ideal) (φ := .f32) .ogt Spec.nF (0 : EReal) = 1#1 := by
  have h : (0 : EReal) < Spec.nF := by
    rw [Spec.nF_eq]
    exact_mod_cast (by norm_num : (0 : ℝ) < 100000)
  rw [Ideal.cmpf_def]
  unfold Ideal.cmp
  simp [h]

/-- The outlined variance at column q: the mean of the squared deviations from the column mean. -/
theorem varRow_apply (v : Arr Ideal S100000x32 .f32) (q : Fin 32) :
    varRow v (ix1 q) = Ideal.div (∑ p : Fin 100000,
        (v (ix2 p q) - Ideal.div (∑ r : Fin 100000, v (ix2 r q)) Spec.nF)
          * (v (ix2 p q) - Ideal.div (∑ r : Fin 100000, v (ix2 r q)) Spec.nF)) Spec.nF := by
  unfold varRow
  rw [select_apply, broadcastInDim_scalar_apply, cmpf_apply, nMinus, constant_apply, Ideal.ofBits_zero_f32, nF_gt, select_one,
    hostDivf_apply, colSum_apply, broadcastInDim_scalar_apply, nMinus]
  refine congrArg (Ideal.div · Spec.nF) (Finset.sum_congr rfl fun p _ => ?_)
  rw [mulf_apply, subf_apply, broadcastInDim_oneRow_apply, hostDivf_apply, oneRow_apply, colSum_apply, broadcastInDim_scalar_apply,
    constant_apply]
  rfl

/-- The host's square root at an index. -/
theorem hostSqrt_apply {s : Shape} (x : FVec Ideal s .f32) (i : s.Idx) : Host.sqrt x i = Ideal.sqrt (x i) := rfl

/-- The normalisation at (p, q), from a given mean and variance row. -/
theorem normRows_apply (v : Arr Ideal S100000x32 .f32) (mu var g b : Arr Ideal S32 .f32) (p : Fin 100000) (q : Fin 32) :
    normRows v mu var g b (ix2 p q)
      = Ideal.div (v (ix2 p q) - mu (ix1 q)) (Ideal.sqrt (var (ix1 q) + Spec.eps)) * g (ix1 q) + b (ix1 q) := by
  unfold normRows
  rw [addf_apply, mulf_apply, hostDivf_apply, subf_apply, rows_apply, rows_apply, rows_apply, rows_apply,
    hostSqrt_apply,
    addf_apply, broadcastInDim_scalar_apply, constant_apply]
  rfl

/-- The clamp at (p, q). -/
theorem relu_apply (y : Arr Ideal S100000x32 .f32) (p : Fin 100000) (q : Fin 32) :
    relu y (ix2 p q) = max (y (ix2 p q)) 0 := by
  unfold relu
  rw [maximumf_apply, zeros_apply]

/-- The products as sums over the contracted coordinate. -/
theorem dot32_apply (x : Arr Ideal S100000x32 .f32) (wm : Arr Ideal S32x32 .f32) (p : Fin 100000) (k : Fin 32) :
    dot32 x wm (ix2 p k) = ∑ j : Fin 32, x (ix2 p j) * wm (ix2 j k) :=
  dotGeneral_plain_apply (m := 100000) (k := 32) (n := 32) none x wm p k

theorem dot256_apply (x : Arr Ideal S100000x256 .f32) (wm : Arr Ideal S256x32 .f32) (p : Fin 100000) (k : Fin 32) :
    dot256 x wm (ix2 p k) = ∑ j : Fin 256, x (ix2 p j) * wm (ix2 j k) :=
  dotGeneral_plain_apply (m := 100000) (k := 256) (n := 32) none x wm p k

/-- Row 0 of a parameter table, entry q. -/
theorem row0_apply (t : Arr Ideal S5x32 .f32) (q : Fin 32) : row0 t (ix1 q) = t (ix2 (0 : Fin 5) q) := by
  unfold row0
  rw [shapeCast_1a_a_apply]
  exact slice2_axis0_apply 0 t slices_S5x32_S1x32_0_0 (0 : Fin 1) q (0 : Fin 5) rfl

/-- Matrix 0 of the 5 × 32 × 32 table, entry (j, k). -/
theorem mat5_0_apply (t : Arr Ideal S5x32x32 .f32) (j k : Fin 32) : mat5_0 t (ix2 j k) = t (ix3 (0 : Fin 5) j k) := by
  unfold mat5_0
  rw [shapeCast_1ab_ab_apply]
  refine extractStridedSlice_apply _ t slices_S5x32x32_S1x32x32_0_0_0 (ix3 (0 : Fin 1) j k) (ix3 (0 : Fin 5) j k) fun a => ?_
  match a with
  | ⟨0, _⟩ => rfl
  | ⟨1, _⟩ => exact (Nat.zero_add _).symm
  | ⟨2, _⟩ => exact (Nat.zero_add _).symm

/-- Matrix 0 of the 4 × 32 × 32 table, entry (j, k). -/
theorem mat4_0_apply (t : Arr Ideal S4x32x32 .f32) (j k : Fin 32) : mat4_0 t (ix2 j k) = t (ix3 (0 : Fin 4) j k) := by
  unfold mat4_0
  rw [shapeCast_1ab_ab_apply]
  refine extractStridedSlice_apply _ t slices_S4x32x32_S1x32x32_0_0_0 (ix3 (0 : Fin 1) j k) (ix3 (0 : Fin 4) j k) fun a => ?_
  match a with
  | ⟨0, _⟩ => rfl
  | ⟨1, _⟩ => exact (Nat.zero_add _).symm
  | ⟨2, _⟩ => exact (Nat.zero_add _).symm

/-- Row 1 of a parameter table, entry q. -/
theorem row1_apply (t : Arr Ideal S5x32 .f32) (q : Fin 32) : row1 t (ix1 q) = t (ix2 (1 : Fin 5) q) := by
  unfold row1
  rw [shapeCast_1a_a_apply]
  exact slice2_axis0_apply 1 t slices_S5x32_S1x32_1_0 (0 : Fin 1) q (1 : Fin 5) rfl

/-- Matrix 1 of the 5 × 32 × 32 table, entry (j, k). -/
theorem mat5_1_apply (t : Arr Ideal S5x32x32 .f32) (j k : Fin 32) : mat5_1 t (ix2 j k) = t (ix3 (1 : Fin 5) j k) := by
  unfold mat5_1
  rw [shapeCast_1ab_ab_apply]
  refine extractStridedSlice_apply _ t slices_S5x32x32_S1x32x32_1_0_0 (ix3 (0 : Fin 1) j k) (ix3 (1 : Fin 5) j k) fun a => ?_
  match a with
  | ⟨0, _⟩ => rfl
  | ⟨1, _⟩ => exact (Nat.zero_add _).symm
  | ⟨2, _⟩ => exact (Nat.zero_add _).symm

/-- Matrix 1 of the 4 × 32 × 32 table, entry (j, k). -/
theorem mat4_1_apply (t : Arr Ideal S4x32x32 .f32) (j k : Fin 32) : mat4_1 t (ix2 j k) = t (ix3 (1 : Fin 4) j k) := by
  unfold mat4_1
  rw [shapeCast_1ab_ab_apply]
  refine extractStridedSlice_apply _ t slices_S4x32x32_S1x32x32_1_0_0 (ix3 (0 : Fin 1) j k) (ix3 (1 : Fin 4) j k) fun a => ?_
  match a with
  | ⟨0, _⟩ => rfl
  | ⟨1, _⟩ => exact (Nat.zero_add _).symm
  | ⟨2, _⟩ => exact (Nat.zero_add _).symm

/-- Row 2 of a parameter table, entry q. -/
theorem row2_apply (t : Arr Ideal S5x32 .f32) (q : Fin 32) : row2 t (ix1 q) = t (ix2 (2 : Fin 5) q) := by
  unfold row2
  rw [shapeCast_1a_a_apply]
  exact slice2_axis0_apply 2 t slices_S5x32_S1x32_2_0 (0 : Fin 1) q (2 : Fin 5) rfl

/-- Matrix 2 of the 5 × 32 × 32 table, entry (j, k). -/
theorem mat5_2_apply (t : Arr Ideal S5x32x32 .f32) (j k : Fin 32) : mat5_2 t (ix2 j k) = t (ix3 (2 : Fin 5) j k) := by
  unfold mat5_2
  rw [shapeCast_1ab_ab_apply]
  refine extractStridedSlice_apply _ t slices_S5x32x32_S1x32x32_2_0_0 (ix3 (0 : Fin 1) j k) (ix3 (2 : Fin 5) j k) fun a => ?_
  match a with
  | ⟨0, _⟩ => rfl
  | ⟨1, _⟩ => exact (Nat.zero_add _).symm
  | ⟨2, _⟩ => exact (Nat.zero_add _).symm

/-- Matrix 2 of the 4 × 32 × 32 table, entry (j, k). -/
theorem mat4_2_apply (t : Arr Ideal S4x32x32 .f32) (j k : Fin 32) : mat4_2 t (ix2 j k) = t (ix3 (2 : Fin 4) j k) := by
  unfold mat4_2
  rw [shapeCast_1ab_ab_apply]
  refine extractStridedSlice_apply _ t slices_S4x32x32_S1x32x32_2_0_0 (ix3 (0 : Fin 1) j k) (ix3 (2 : Fin 4) j k) fun a => ?_
  match a with
  | ⟨0, _⟩ => rfl
  | ⟨1, _⟩ => exact (Nat.zero_add _).symm
  | ⟨2, _⟩ => exact (Nat.zero_add _).symm

/-- Row 3 of a parameter table, entry q. -/
theorem row3_apply (t : Arr Ideal S5x32 .f32) (q : Fin 32) : row3 t (ix1 q) = t (ix2 (3 : Fin 5) q) := by
  unfold row3
  rw [shapeCast_1a_a_apply]
  exact slice2_axis0_apply 3 t slices_S5x32_S1x32_3_0 (0 : Fin 1) q (3 : Fin 5) rfl

/-- Matrix 3 of the 5 × 32 × 32 table, entry (j, k). -/
theorem mat5_3_apply (t : Arr Ideal S5x32x32 .f32) (j k : Fin 32) : mat5_3 t (ix2 j k) = t (ix3 (3 : Fin 5) j k) := by
  unfold mat5_3
  rw [shapeCast_1ab_ab_apply]
  refine extractStridedSlice_apply _ t slices_S5x32x32_S1x32x32_3_0_0 (ix3 (0 : Fin 1) j k) (ix3 (3 : Fin 5) j k) fun a => ?_
  match a with
  | ⟨0, _⟩ => rfl
  | ⟨1, _⟩ => exact (Nat.zero_add _).symm
  | ⟨2, _⟩ => exact (Nat.zero_add _).symm

/-- Matrix 3 of the 4 × 32 × 32 table, entry (j, k). -/
theorem mat4_3_apply (t : Arr Ideal S4x32x32 .f32) (j k : Fin 32) : mat4_3 t (ix2 j k) = t (ix3 (3 : Fin 4) j k) := by
  unfold mat4_3
  rw [shapeCast_1ab_ab_apply]
  refine extractStridedSlice_apply _ t slices_S4x32x32_S1x32x32_3_0_0 (ix3 (0 : Fin 1) j k) (ix3 (3 : Fin 4) j k) fun a => ?_
  match a with
  | ⟨0, _⟩ => rfl
  | ⟨1, _⟩ => exact (Nat.zero_add _).symm
  | ⟨2, _⟩ => exact (Nat.zero_add _).symm

/-- Row 4 of a parameter table, entry q. -/
theorem row4_apply (t : Arr Ideal S5x32 .f32) (q : Fin 32) : row4 t (ix1 q) = t (ix2 (4 : Fin 5) q) := by
  unfold row4
  rw [shapeCast_1a_a_apply]
  exact slice2_axis0_apply 4 t slices_S5x32_S1x32_4_0 (0 : Fin 1) q (4 : Fin 5) rfl

/-- Matrix 4 of the 5 × 32 × 32 table, entry (j, k). -/
theorem mat5_4_apply (t : Arr Ideal S5x32x32 .f32) (j k : Fin 32) : mat5_4 t (ix2 j k) = t (ix3 (4 : Fin 5) j k) := by
  unfold mat5_4
  rw [shapeCast_1ab_ab_apply]
  refine extractStridedSlice_apply _ t slices_S5x32x32_S1x32x32_4_0_0 (ix3 (0 : Fin 1) j k) (ix3 (4 : Fin 5) j k) fun a => ?_
  match a with
  | ⟨0, _⟩ => rfl
  | ⟨1, _⟩ => exact (Nat.zero_add _).symm
  | ⟨2, _⟩ => exact (Nat.zero_add _).symm

/-! ## Against the shared specification -/

/-- The prelude's arrays and the aggregation are the shared ones: the same host operations over the same shapes. -/
theorem idxSrc_eq (a1 : Arr Ideal S2x3200000 .i32) : idxSrc (F := Ideal) a1 = Spec.srcArr a1 := rfl
theorem idxDst_eq (a1 : Arr Ideal S2x3200000 .i32) : idxDst (F := Ideal) a1 = Spec.dstArr a1 := rfl
theorem edgeWeight_eq (i3 i6 : Arr Ideal S3300000 .i32) : edgeWeight (F := Ideal) i3 i6 = Spec.ewArr i3 i6 := rfl
theorem agg_eq (i3 i6 : Arr Ideal S3300000 .i32) (w : Arr Ideal S3300000 .f32) (z : Arr Ideal S100000x32 .f32) :
    agg (F := Ideal) i3 i6 w z = Spec.aggArr i3 i6 w z := rfl

/-- A vector and a square matrix of the program by their entries. -/
def vec (b : Arr Ideal S32 .f32) : Fin 32 → EReal := fun q => b (ix1 q)
def mat (W : Arr Ideal S32x32 .f32) : Fin 32 → Fin 32 → EReal := fun j k => W (ix2 j k)

/-- The perceptron as an array is the specification's, when the first product is the sum of products. -/
theorem denseZ_eq (P : Arr Ideal S100000x32 .f32) (b1 : Arr Ideal S32 .f32) (W2 : Arr Ideal S32x32 .f32) (b2 : Arr Ideal S32 .f32)
    {C : ℕ} (H : Fin 100000 → Fin C → EReal) (W1 : Fin C → Fin 32 → EReal)
    (hP : ∀ p k, P (ix2 p k) = ∑ j : Fin C, H p j * W1 j k) :
    denseZ P b1 W2 b2 = Spec.uncur (Spec.dense H W1 (vec b1) (mat W2) (vec b2)) := by
  funext i
  obtain ⟨p, q, rfl⟩ : ∃ (p : Fin 100000) (q : Fin 32), i = ix2 p q := ⟨i 0, i 1, eq_ix2 i⟩
  rw [denseZ_apply, Spec.uncur_apply]
  simp only [hP]
  rfl

/-- One layer before its activation is the specification's layer without the clamp. -/
theorem core_cur (P : Arr Ideal S100000x32 .f32) (b1 : Arr Ideal S32 .f32) (W2 : Arr Ideal S32x32 .f32) (b2 bias g b : Arr Ideal S32 .f32)
    (i3 i6 : Arr Ideal S3300000 .i32) (w : Arr Ideal S3300000 .f32)
    {C : ℕ} (H : Fin 100000 → Fin C → EReal) (W1 : Fin C → Fin 32 → EReal)
    (hP : ∀ p k, P (ix2 p k) = ∑ j : Fin C, H p j * W1 j k) :
    Spec.cur (core P b1 W2 b2 bias g b i3 i6 w)
      = Spec.layerR false i3 i6 w H W1 (vec b1) (mat W2) (vec b2) (vec bias) (vec g) (vec b) := by
  funext p q
  have hA : agg i3 i6 w (denseZ P b1 W2 b2)
      = Spec.aggArr i3 i6 w (Spec.uncur (Spec.dense H W1 (vec b1) (mat W2) (vec b2))) := by
    rw [denseZ_eq P b1 W2 b2 H W1 hP]; rfl
  unfold core
  rw [hA, Spec.cur_apply, normRows_apply, meanRow_apply, varRow_apply]
  simp only [shifted_apply]
  rfl

/-- … and clamped, the specification's layer with the clamp. -/
theorem relu_core_cur (P : Arr Ideal S100000x32 .f32) (b1 : Arr Ideal S32 .f32) (W2 : Arr Ideal S32x32 .f32) (b2 bias g b : Arr Ideal S32 .f32)
    (i3 i6 : Arr Ideal S3300000 .i32) (w : Arr Ideal S3300000 .f32)
    {C : ℕ} (H : Fin 100000 → Fin C → EReal) (W1 : Fin C → Fin 32 → EReal)
    (hP : ∀ p k, P (ix2 p k) = ∑ j : Fin C, H p j * W1 j k) :
    Spec.cur (relu (core P b1 W2 b2 bias g b i3 i6 w))
      = Spec.layerR true i3 i6 w H W1 (vec b1) (mat W2) (vec b2) (vec bias) (vec g) (vec b) := by
  funext p q
  have h := congrFun (congrFun (core_cur P b1 W2 b2 bias g b i3 i6 w H W1 hP) p) q
  rw [Spec.cur_apply] at h
  rw [Spec.cur_apply, relu_apply, h]
  rfl

/-! ## The five layers against the specification -/

theorem vec_row0 (t : Arr Ideal S5x32 .f32) : vec (row0 t) = Spec.rowOf t (0 : Fin 5) := funext fun q => row0_apply t q
theorem mat_mat5_0 (t : Arr Ideal S5x32x32 .f32) : mat (mat5_0 t) = Spec.matOf t (0 : Fin 5) :=
  funext fun j => funext fun k => mat5_0_apply t j k

theorem vec_row1 (t : Arr Ideal S5x32 .f32) : vec (row1 t) = Spec.rowOf t (1 : Fin 5) := funext fun q => row1_apply t q
theorem mat_mat5_1 (t : Arr Ideal S5x32x32 .f32) : mat (mat5_1 t) = Spec.matOf t (1 : Fin 5) :=
  funext fun j => funext fun k => mat5_1_apply t j k

theorem vec_row2 (t : Arr Ideal S5x32 .f32) : vec (row2 t) = Spec.rowOf t (2 : Fin 5) := funext fun q => row2_apply t q
theorem mat_mat5_2 (t : Arr Ideal S5x32x32 .f32) : mat (mat5_2 t) = Spec.matOf t (2 : Fin 5) :=
  funext fun j => funext fun k => mat5_2_apply t j k

theorem vec_row3 (t : Arr Ideal S5x32 .f32) : vec (row3 t) = Spec.rowOf t (3 : Fin 5) := funext fun q => row3_apply t q
theorem mat_mat5_3 (t : Arr Ideal S5x32x32 .f32) : mat (mat5_3 t) = Spec.matOf t (3 : Fin 5) :=
  funext fun j => funext fun k => mat5_3_apply t j k

theorem vec_row4 (t : Arr Ideal S5x32 .f32) : vec (row4 t) = Spec.rowOf t (4 : Fin 5) := funext fun q => row4_apply t q
theorem mat_mat5_4 (t : Arr Ideal S5x32x32 .f32) : mat (mat5_4 t) = Spec.matOf t (4 : Fin 5) :=
  funext fun j => funext fun k => mat5_4_apply t j k

/-- Layer 0 by rows and columns is the specification's layer of the node features and row 0 of every parameter
    table, clamped. -/
theorem layer0_cur (a0 : Arr Ideal S100000x256 .f32) (a2 : Arr Ideal S256x32 .f32) (a4 : Arr Ideal S5x32 .f32) (a5 : Arr Ideal S5x32x32 .f32) (a6 a7 a8 a9 : Arr Ideal S5x32 .f32)
    (i3 i6 : Arr Ideal S3300000 .i32) (w : Arr Ideal S3300000 .f32) :
    Spec.cur (layer0 a0 a2 a4 a5 a6 a7 a8 a9 i3 i6 w)
      = Spec.layerR true i3 i6 w (fun p j => a0 (ix2 p j)) (fun j k => a2 (ix2 j k)) (Spec.rowOf a4 (0 : Fin 5)) (Spec.matOf a5 (0 : Fin 5))
          (Spec.rowOf a6 (0 : Fin 5)) (Spec.rowOf a7 (0 : Fin 5)) (Spec.rowOf a8 (0 : Fin 5)) (Spec.rowOf a9 (0 : Fin 5)) := by
  unfold layer0
  rw [relu_core_cur _ _ _ _ _ _ _ _ _ _ (fun p j => a0 (ix2 p j)) (fun j k => a2 (ix2 j k)) (fun p k => dot256_apply _ _ p k),
    vec_row0, vec_row0, vec_row0, vec_row0, vec_row0, mat_mat5_0]

/-- Layer 1 by rows and columns is the specification's layer of its input array and row 1 of every parameter
    table, clamped. -/
theorem layer1_cur (h : Arr Ideal S100000x32 .f32) (a3 : Arr Ideal S4x32x32 .f32) (a4 : Arr Ideal S5x32 .f32) (a5 : Arr Ideal S5x32x32 .f32) (a6 a7 a8 a9 : Arr Ideal S5x32 .f32)
    (i3 i6 : Arr Ideal S3300000 .i32) (w : Arr Ideal S3300000 .f32) :
    Spec.cur (layer1 h a3 a4 a5 a6 a7 a8 a9 i3 i6 w)
      = Spec.layerR true i3 i6 w (Spec.cur h) (Spec.matOf a3 (0 : Fin 4)) (Spec.rowOf a4 (1 : Fin 5)) (Spec.matOf a5 (1 : Fin 5))
          (Spec.rowOf a6 (1 : Fin 5)) (Spec.rowOf a7 (1 : Fin 5)) (Spec.rowOf a8 (1 : Fin 5)) (Spec.rowOf a9 (1 : Fin 5)) := by
  unfold layer1
  rw [relu_core_cur _ _ _ _ _ _ _ _ _ _ (Spec.cur h) (Spec.matOf a3 (0 : Fin 4)) (fun p k => (dot32_apply _ _ p k).trans (Finset.sum_congr rfl fun j _ => congrArg (_ * ·) (mat4_0_apply _ j k))),
    vec_row1, vec_row1, vec_row1, vec_row1, vec_row1, mat_mat5_1]

/-- Layer 2 by rows and columns is the specification's layer of its input array and row 2 of every parameter
    table, clamped. -/
theorem layer2_cur (h : Arr Ideal S100000x32 .f32) (a3 : Arr Ideal S4x32x32 .f32) (a4 : Arr Ideal S5x32 .f32) (a5 : Arr Ideal S5x32x32 .f32) (a6 a7 a8 a9 : Arr Ideal S5x32 .f32)
    (i3 i6 : Arr Ideal S3300000 .i32) (w : Arr Ideal S3300000 .f32) :
    Spec.cur (layer2 h a3 a4 a5 a6 a7 a8 a9 i3 i6 w)
      = Spec.layerR true i3 i6 w (Spec.cur h) (Spec.matOf a3 (1 : Fin 4)) (Spec.rowOf a4 (2 : Fin 5)) (Spec.matOf a5 (2 : Fin 5))
          (Spec.rowOf a6 (2 : Fin 5)) (Spec.rowOf a7 (2 : Fin 5)) (Spec.rowOf a8 (2 : Fin 5)) (Spec.rowOf a9 (2 : Fin 5)) := by
  unfold layer2
  rw [relu_core_cur _ _ _ _ _ _ _ _ _ _ (Spec.cur h) (Spec.matOf a3 (1 : Fin 4)) (fun p k => (dot32_apply _ _ p k).trans (Finset.sum_congr rfl fun j _ => congrArg (_ * ·) (mat4_1_apply _ j k))),
    vec_row2, vec_row2, vec_row2, vec_row2, vec_row2, mat_mat5_2]

/-- Layer 3 by rows and columns is the specification's layer of its input array and row 3 of every parameter
    table, clamped. -/
theorem layer3_cur (h : Arr Ideal S100000x32 .f32) (a3 : Arr Ideal S4x32x32 .f32) (a4 : Arr Ideal S5x32 .f32) (a5 : Arr Ideal S5x32x32 .f32) (a6 a7 a8 a9 : Arr Ideal S5x32 .f32)
    (i3 i6 : Arr Ideal S3300000 .i32) (w : Arr Ideal S3300000 .f32) :
    Spec.cur (layer3 h a3 a4 a5 a6 a7 a8 a9 i3 i6 w)
      = Spec.layerR true i3 i6 w (Spec.cur h) (Spec.matOf a3 (2 : Fin 4)) (Spec.rowOf a4 (3 : Fin 5)) (Spec.matOf a5 (3 : Fin 5))
          (Spec.rowOf a6 (3 : Fin 5)) (Spec.rowOf a7 (3 : Fin 5)) (Spec.rowOf a8 (3 : Fin 5)) (Spec.rowOf a9 (3 : Fin 5)) := by
  unfold layer3
  rw [relu_core_cur _ _ _ _ _ _ _ _ _ _ (Spec.cur h) (Spec.matOf a3 (2 : Fin 4)) (fun p k => (dot32_apply _ _ p k).trans (Finset.sum_congr rfl fun j _ => congrArg (_ * ·) (mat4_2_apply _ j k))),
    vec_row3, vec_row3, vec_row3, vec_row3, vec_row3, mat_mat5_3]

/-- Layer 4 by rows and columns is the specification's layer of its input array and row 4 of every parameter
    table, not clamped. -/
theorem layer4_cur (h : Arr Ideal S100000x32 .f32) (a3 : Arr Ideal S4x32x32 .f32) (a4 : Arr Ideal S5x32 .f32) (a5 : Arr Ideal S5x32x32 .f32) (a6 a7 a8 a9 : Arr Ideal S5x32 .f32)
    (i3 i6 : Arr Ideal S3300000 .i32) (w : Arr Ideal S3300000 .f32) :
    Spec.cur (layer4 h a3 a4 a5 a6 a7 a8 a9 i3 i6 w)
      = Spec.layerR false i3 i6 w (Spec.cur h) (Spec.matOf a3 (3 : Fin 4)) (Spec.rowOf a4 (4 : Fin 5)) (Spec.matOf a5 (4 : Fin 5))
          (Spec.rowOf a6 (4 : Fin 5)) (Spec.rowOf a7 (4 : Fin 5)) (Spec.rowOf a8 (4 : Fin 5)) (Spec.rowOf a9 (4 : Fin 5)) := by
  unfold layer4
  rw [core_cur _ _ _ _ _ _ _ _ _ _ (Spec.cur h) (Spec.matOf a3 (3 : Fin 4)) (fun p k => (dot32_apply _ _ p k).trans (Finset.sum_congr rfl fun j _ => congrArg (_ * ·) (mat4_3_apply _ j k))),
    vec_row4, vec_row4, vec_row4, vec_row4, vec_row4, mat_mat5_4]

/-- The whole network by rows and columns is the specification's network with the quotient normalisation. -/
theorem net_R (a0 : Arr Ideal S100000x256 .f32) (a1 : Arr Ideal S2x3200000 .i32) (a2 : Arr Ideal S256x32 .f32)
    (a3 : Arr Ideal S4x32x32 .f32) (a4 : Arr Ideal S5x32 .f32) (a5 : Arr Ideal S5x32x32 .f32) (a6 a7 a8 a9 : Arr Ideal S5x32 .f32) :
    Spec.cur (net a0 a1 a2 a3 a4 a5 a6 a7 a8 a9) = Spec.netR a0 a1 a2 a3 a4 a5 a6 a7 a8 a9 := by
  unfold net
  rw [layer4_cur, layer3_cur, layer2_cur, layer1_cur, layer0_cur]
  rfl

end Cert.ReferenceIdeal.Hand

end
-- ==== Proof.Ref.RefNet.lean ====
import proofs.«114689_j15281493639468_1_alg».proof.Proof.Ref.Outs
import proofs.«114689_j15281493639468_1_alg».proof.Proof.Ref.Layers

noncomputable section

namespace Cert.ReferenceIdeal.Hand

open Cert.ReferenceIdeal Cert.ReferenceIdeal.Gen Idealize.ShloMosaic Idealize.ShloMosaic.ValueIdx

/-! The run's result is the specification's network of the launch arguments; and, for any contents the line starts from,
    each layer's output buffer after the line is the specification's layer of the previous layer's output buffer. -/

open Idealize.ShloMosaic.TcCoe Idealize.SL.Sem Idealize.ShloMosaic.StableHlo

/-- Layer 0's output array after the whole line, from any contents `V`. -/
theorem layer0_R (V : Valuation τ sig (Elt Ideal)) :
    Spec.cur (after ops V (Proc.devRef .tc main_v100))
      = Spec.layerR true (Spec.srcArr (V (Proc.devRef .tc main_arg1))) (Spec.dstArr (V (Proc.devRef .tc main_arg1))) (Spec.ewArr (Spec.srcArr (V (Proc.devRef .tc main_arg1))) (Spec.dstArr (V (Proc.devRef .tc main_arg1))))
          (fun p j => (V (Proc.devRef .tc main_arg0)) (ix2 p j)) (fun j k => (V (Proc.devRef .tc main_arg2)) (ix2 j k))
          (Spec.rowOf (V (Proc.devRef .tc main_arg4)) (0 : Fin 5)) (Spec.matOf (V (Proc.devRef .tc main_arg5)) (0 : Fin 5)) (Spec.rowOf (V (Proc.devRef .tc main_arg6)) (0 : Fin 5))
          (Spec.rowOf (V (Proc.devRef .tc main_arg7)) (0 : Fin 5)) (Spec.rowOf (V (Proc.devRef .tc main_arg8)) (0 : Fin 5)) (Spec.rowOf (V (Proc.devRef .tc main_arg9)) (0 : Fin 5)) := by
  rw [out0_eq, layer0_cur]
  rfl

/-- Layer 1's output array after the whole line, from any contents `V`. -/
theorem layer1_R (V : Valuation τ sig (Elt Ideal)) :
    Spec.cur (after ops V (Proc.devRef .tc main_v161))
      = Spec.layerR true (Spec.srcArr (V (Proc.devRef .tc main_arg1))) (Spec.dstArr (V (Proc.devRef .tc main_arg1))) (Spec.ewArr (Spec.srcArr (V (Proc.devRef .tc main_arg1))) (Spec.dstArr (V (Proc.devRef .tc main_arg1))))
          (Spec.cur (after ops V (Proc.devRef .tc main_v100))) (Spec.matOf (V (Proc.devRef .tc main_arg3)) (0 : Fin 4))
          (Spec.rowOf (V (Proc.devRef .tc main_arg4)) (1 : Fin 5)) (Spec.matOf (V (Proc.devRef .tc main_arg5)) (1 : Fin 5)) (Spec.rowOf (V (Proc.devRef .tc main_arg6)) (1 : Fin 5))
          (Spec.rowOf (V (Proc.devRef .tc main_arg7)) (1 : Fin 5)) (Spec.rowOf (V (Proc.devRef .tc main_arg8)) (1 : Fin 5)) (Spec.rowOf (V (Proc.devRef .tc main_arg9)) (1 : Fin 5)) := by
  rw [out1_eq, layer1_cur]
  rfl

/-- Layer 2's output array after the whole line, from any contents `V`. -/
theorem layer2_R (V : Valuation τ sig (Elt Ideal)) :
    Spec.cur (after ops V (Proc.devRef .tc main_v222))
      = Spec.layerR true (Spec.srcArr (V (Proc.devRef .tc main_arg1))) (Spec.dstArr (V (Proc.devRef .tc main_arg1))) (Spec.ewArr (Spec.srcArr (V (Proc.devRef .tc main_arg1))) (Spec.dstArr (V (Proc.devRef .tc main_arg1))))
          (Spec.cur (after ops V (Proc.devRef .tc main_v161))) (Spec.matOf (V (Proc.devRef .tc main_arg3)) (1 : Fin 4))
          (Spec.rowOf (V (Proc.devRef .tc main_arg4)) (2 : Fin 5)) (Spec.matOf (V (Proc.devRef .tc main_arg5)) (2 : Fin 5)) (Spec.rowOf (V (Proc.devRef .tc main_arg6)) (2 : Fin 5))
          (Spec.rowOf (V (Proc.devRef .tc main_arg7)) (2 : Fin 5)) (Spec.rowOf (V (Proc.devRef .tc main_arg8)) (2 : Fin 5)) (Spec.rowOf (V (Proc.devRef .tc main_arg9)) (2 : Fin 5)) := by
  rw [out2_eq, layer2_cur]
  rfl

/-- Layer 3's output array after the whole line, from any contents `V`. -/
theorem layer3_R (V : Valuation τ sig (Elt Ideal)) :
    Spec.cur (after ops V (Proc.devRef .tc main_v283))
      = Spec.layerR true (Spec.srcArr (V (Proc.devRef .tc main_arg1))) (Spec.dstArr (V (Proc.devRef .tc main_arg1))) (Spec.ewArr (Spec.srcArr (V (Proc.devRef .tc main_arg1))) (Spec.dstArr (V (Proc.devRef .tc main_arg1))))
          (Spec.cur (after ops V (Proc.devRef .tc main_v222))) (Spec.matOf (V (Proc.devRef .tc main_arg3)) (2 : Fin 4))
          (Spec.rowOf (V (Proc.devRef .tc main_arg4)) (3 : Fin 5)) (Spec.matOf (V (Proc.devRef .tc main_arg5)) (3 : Fin 5)) (Spec.rowOf (V (Proc.devRef .tc main_arg6)) (3 : Fin 5))
          (Spec.rowOf (V (Proc.devRef .tc main_arg7)) (3 : Fin 5)) (Spec.rowOf (V (Proc.devRef .tc main_arg8)) (3 : Fin 5)) (Spec.rowOf (V (Proc.devRef .tc main_arg9)) (3 : Fin 5)) := by
  rw [out3_eq, layer3_cur]
  rfl

/-- Layer 4's output array after the whole line, from any contents `V`. -/
theorem layer4_R (V : Valuation τ sig (Elt Ideal)) :
    Spec.cur (after ops V (Proc.devRef .tc main_v342))
      = Spec.layerR false (Spec.srcArr (V (Proc.devRef .tc main_arg1))) (Spec.dstArr (V (Proc.devRef .tc main_arg1))) (Spec.ewArr (Spec.srcArr (V (Proc.devRef .tc main_arg1))) (Spec.dstArr (V (Proc.devRef .tc main_arg1))))
          (Spec.cur (after ops V (Proc.devRef .tc main_v283))) (Spec.matOf (V (Proc.devRef .tc main_arg3)) (3 : Fin 4))
          (Spec.rowOf (V (Proc.devRef .tc main_arg4)) (4 : Fin 5)) (Spec.matOf (V (Proc.devRef .tc main_arg5)) (4 : Fin 5)) (Spec.rowOf (V (Proc.devRef .tc main_arg6)) (4 : Fin 5))
          (Spec.rowOf (V (Proc.devRef .tc main_arg7)) (4 : Fin 5)) (Spec.rowOf (V (Proc.devRef .tc main_arg8)) (4 : Fin 5)) (Spec.rowOf (V (Proc.devRef .tc main_arg9)) (4 : Fin 5)) := by
  rw [out4_eq, layer4_cur]
  rfl

/-- The run's result on device `c`, by rows and columns, is the specification's network of the ten launch arguments. -/
theorem ref_net (m : (ℓ : Loc nD τ sig) → Buf (Elt Ideal) ℓ) (c : Dev nD) :
    Spec.cur (result (F := Ideal) m c)
      = Spec.netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [result_eq]
  exact net_R _ _ _ _ _ _ _ _ _ _

/-- The same as an array: the result is the specification's network laid out as a node array. -/
theorem result_uncur (m : (ℓ : Loc nD τ sig) → Buf (Elt Ideal) ℓ) (c : Dev nD) :
    result (F := Ideal) m c
      = Spec.uncur (Spec.netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (Spec.uncur_cur (result (F := Ideal) m c)).symm.trans (congrArg Spec.uncur (ref_net m c))

end Cert.ReferenceIdeal.Hand

end
-- ==== Proof.lean ====
/-
  The proof of this certificate's claim (Defs.lean): a five-layer graph network — per layer a two-layer perceptron on
  every node, a normalised sum over the incoming edges, a batch normalisation over the nodes — computed once by a
  program of fifteen kernel calls among stretches of host operations and once by plain host operations, ends at the
  same array of extended reals when its inputs are finite.

  The frames.  Each kernel program is @main's 34 items run in order (K/Run.lean, KI/Run.lean): a stretch of host
  operations applies its operations to the buffers, a kernel call replaces its windows' arrays by what its grid of
  twenty row blocks writes back; at the end every buffer holds the last boundary's contents, and an argument's buffer
  is never written (K/Args.lean, KI/Args.lean).  The reference is one line of host operations (Ref/Run.lean).

  The values.  Over the extended reals a change of float format is the identity and a matrix product is the sum it
  abbreviates, so the perceptron kernel and the reference's two products are one function (Spec.dense); the
  aggregation over edges is the same host operations in both programs (Spec.aggArr), never opened.  The two programs
  differ in the normalisation: one takes the variance as the mean of the squares less the square of the mean and
  multiplies by the reciprocal square root, the other takes the mean of the squared deviations and divides by the
  square root.  On real entries these agree (SpecLaws.lean: var_eq, normalize_eq), and every layer keeps the entries
  real (isReal_dense, isR_aggArr, isReal_normalizeDiv) — which is where the precondition is used.
-/
import proofs.«114689_j15281493639468_1_alg».proof.Defs
import proofs.«114689_j15281493639468_1_alg».proof.Proof.Gen.Kernel
import proofs.«114689_j15281493639468_1_alg».proof.Proof.Gen.KernelIdeal
import proofs.«114689_j15281493639468_1_alg».proof.Proof.Gen.ReferenceIdeal
import proofs.«114689_j15281493639468_1_alg».proof.Proof.Gen.Pre_finite_inputs
import proofs.«114689_j15281493639468_1_alg».proof.Proof.K.Run
import proofs.«114689_j15281493639468_1_alg».proof.Proof.K.Args
import proofs.«114689_j15281493639468_1_alg».proof.Proof.KI.Run
import proofs.«114689_j15281493639468_1_alg».proof.Proof.KI.Args
import proofs.«114689_j15281493639468_1_alg».proof.Proof.Ref.Run
import proofs.«114689_j15281493639468_1_alg».proof.Proof.SpecFull
import proofs.«114689_j15281493639468_1_alg».proof.Proof.KI.ChainNet
import proofs.«114689_j15281493639468_1_alg».proof.Proof.KI.Finite
import proofs.«114689_j15281493639468_1_alg».proof.Proof.Ref.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments as launched. -/
theorem frame_k : Cert.frame_Kernel := fun m ρ _ =>
  (θ_run Cert.Kernel.defs _ _).mono
    (fun _ h c => ⟨(h c _ (Cert.Kernel.Hand.mem_uc Cert.Kernel.main_arg0 (by decide))).trans (Cert.Kernel.Hand.W34_main_arg0 m c),
      (h c _ (Cert.Kernel.Hand.mem_uc Cert.Kernel.main_arg1 (by decide))).trans (Cert.Kernel.Hand.W34_main_arg1 m c),
      (h c _ (Cert.Kernel.Hand.mem_uc Cert.Kernel.main_arg2 (by decide))).trans (Cert.Kernel.Hand.W34_main_arg2 m c),
      (h c _ (Cert.Kernel.Hand.mem_uc Cert.Kernel.main_arg3 (by decide))).trans (Cert.Kernel.Hand.W34_main_arg3 m c),
      (h c _ (Cert.Kernel.Hand.mem_uc Cert.Kernel.main_arg4 (by decide))).trans (Cert.Kernel.Hand.W34_main_arg4 m c),
      (h c _ (Cert.Kernel.Hand.mem_uc Cert.Kernel.main_arg5 (by decide))).trans (Cert.Kernel.Hand.W34_main_arg5 m c),
      (h c _ (Cert.Kernel.Hand.mem_uc Cert.Kernel.main_arg6 (by decide))).trans (Cert.Kernel.Hand.W34_main_arg6 m c),
      (h c _ (Cert.Kernel.Hand.mem_uc Cert.Kernel.main_arg7 (by decide))).trans (Cert.Kernel.Hand.W34_main_arg7 m c),
      (h c _ (Cert.Kernel.Hand.mem_uc Cert.Kernel.main_arg8 (by decide))).trans (Cert.Kernel.Hand.W34_main_arg8 m c),
      (h c _ (Cert.Kernel.Hand.mem_uc Cert.Kernel.main_arg9 (by decide))).trans (Cert.Kernel.Hand.W34_main_arg9 m c)⟩)
    (Cert.Kernel.Hand.run (F := Bits) m ρ)

/-- So does the program read over the extended reals. -/
theorem frame_ki : Cert.frame_KernelIdeal := fun m ρ _ =>
  (θ_run Cert.KernelIdeal.defs _ _).mono
    (fun _ h c => ⟨(h c _ (Cert.KernelIdeal.Hand.mem_uc Cert.KernelIdeal.main_arg0 (by decide))).trans (Cert.KernelIdeal.Hand.W34_main_arg0 m c),
      (h c _ (Cert.KernelIdeal.Hand.mem_uc Cert.KernelIdeal.main_arg1 (by decide))).trans (Cert.KernelIdeal.Hand.W34_main_arg1 m c),
      (h c _ (Cert.KernelIdeal.Hand.mem_uc Cert.KernelIdeal.main_arg2 (by decide))).trans (Cert.KernelIdeal.Hand.W34_main_arg2 m c),
      (h c _ (Cert.KernelIdeal.Hand.mem_uc Cert.KernelIdeal.main_arg3 (by decide))).trans (Cert.KernelIdeal.Hand.W34_main_arg3 m c),
      (h c _ (Cert.KernelIdeal.Hand.mem_uc Cert.KernelIdeal.main_arg4 (by decide))).trans (Cert.KernelIdeal.Hand.W34_main_arg4 m c),
      (h c _ (Cert.KernelIdeal.Hand.mem_uc Cert.KernelIdeal.main_arg5 (by decide))).trans (Cert.KernelIdeal.Hand.W34_main_arg5 m c),
      (h c _ (Cert.KernelIdeal.Hand.mem_uc Cert.KernelIdeal.main_arg6 (by decide))).trans (Cert.KernelIdeal.Hand.W34_main_arg6 m c),
      (h c _ (Cert.KernelIdeal.Hand.mem_uc Cert.KernelIdeal.main_arg7 (by decide))).trans (Cert.KernelIdeal.Hand.W34_main_arg7 m c),
      (h c _ (Cert.KernelIdeal.Hand.mem_uc Cert.KernelIdeal.main_arg8 (by decide))).trans (Cert.KernelIdeal.Hand.W34_main_arg8 m c),
      (h c _ (Cert.KernelIdeal.Hand.mem_uc Cert.KernelIdeal.main_arg9 (by decide))).trans (Cert.KernelIdeal.Hand.W34_main_arg9 m c)⟩)
    (Cert.KernelIdeal.Hand.run (F := Ideal) m ρ)

/-- The reference is one line of host operations: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealisation rewrote nothing: the idealised program is the program's own text read over the extended reals. -/
theorem preserves : Cert.preserves_Kernel_KernelIdeal := trivial

/-- Over the extended reals both programs end at the network's value: the kernel program at the network with its
    own normalisation (the chain of its fifteen regions and the host stretches between them), the reference at the
    network with the other; on the real inputs the precondition gives, the two networks are one function. -/
theorem algebraic : Cert.algebraic_KernelIdeal_ReferenceIdeal := by
  intro m ρ m' ρ' hpre hagree
  refine ⟨fun c => Cert.KernelIdeal.Hand.W34 (F := Ideal) m c (Proc.devRef .tc Cert.KernelIdeal.main_v259), ?_, ?_⟩
  · exact (θ_run Cert.KernelIdeal.defs _ _).mono
      (fun _ h c => ⟨h c _ (Cert.KernelIdeal.Hand.mem_uc Cert.KernelIdeal.main_v259 (by decide)),
        (h c _ (Cert.KernelIdeal.Hand.mem_uc Cert.KernelIdeal.main_arg0 (by decide))).trans (Cert.KernelIdeal.Hand.W34_main_arg0 m c),
        (h c _ (Cert.KernelIdeal.Hand.mem_uc Cert.KernelIdeal.main_arg1 (by decide))).trans (Cert.KernelIdeal.Hand.W34_main_arg1 m c),
        (h c _ (Cert.KernelIdeal.Hand.mem_uc Cert.KernelIdeal.main_arg2 (by decide))).trans (Cert.KernelIdeal.Hand.W34_main_arg2 m c),
        (h c _ (Cert.KernelIdeal.Hand.mem_uc Cert.KernelIdeal.main_arg3 (by decide))).trans (Cert.KernelIdeal.Hand.W34_main_arg3 m c),
        (h c _ (Cert.KernelIdeal.Hand.mem_uc Cert.KernelIdeal.main_arg4 (by decide))).trans (Cert.KernelIdeal.Hand.W34_main_arg4 m c),
        (h c _ (Cert.KernelIdeal.Hand.mem_uc Cert.KernelIdeal.main_arg5 (by decide))).trans (Cert.KernelIdeal.Hand.W34_main_arg5 m c),
        (h c _ (Cert.KernelIdeal.Hand.mem_uc Cert.KernelIdeal.main_arg6 (by decide))).trans (Cert.KernelIdeal.Hand.W34_main_arg6 m c),
        (h c _ (Cert.KernelIdeal.Hand.mem_uc Cert.KernelIdeal.main_arg7 (by decide))).trans (Cert.KernelIdeal.Hand.W34_main_arg7 m c),
        (h c _ (Cert.KernelIdeal.Hand.mem_uc Cert.KernelIdeal.main_arg8 (by decide))).trans (Cert.KernelIdeal.Hand.W34_main_arg8 m c),
        (h c _ (Cert.KernelIdeal.Hand.mem_uc Cert.KernelIdeal.main_arg9 (by decide))).trans (Cert.KernelIdeal.Hand.W34_main_arg9 m c)⟩)
      (Cert.KernelIdeal.Hand.run (F := Ideal) m ρ)
  · refine (θ_run Cert.ReferenceIdeal.defs _ _).mono (fun _ h c => ⟨(h c).1.trans ?_, (h c).2⟩) (Cert.ReferenceIdeal.Hand.run (F := Ideal) m' ρ')
    have hk := Cert.KernelIdeal.Hand.kernel_net m c
    have hr := Cert.ReferenceIdeal.Hand.ref_net m' c
    obtain ⟨h0, h2, h3, h4, h5, h6, h7, h8, h9⟩ := Cert.KernelIdeal.Hand.args_real m hpre c
    obtain ⟨g0, g1, g2, g3, g4, g5, g6, g7, g8, g9⟩ := hagree c
    rw [g0, g1, g2, g3, g4, g5, g6, g7, g8, g9] at hr
    have hcur : Cert.Spec.cur (Cert.ReferenceIdeal.Hand.result (F := Ideal) m' c)
        = Cert.Spec.cur (Cert.KernelIdeal.Hand.W34 (F := Ideal) m c (Proc.devRef .tc Cert.KernelIdeal.main_v259)) :=
      hr.trans ((Cert.Spec.net_eq h0 h2 h3 h4 h5 h6 h7 h8 h9).symm.trans hk.symm)
    exact (Cert.Spec.uncur_cur _).symm.trans ((congrArg Cert.Spec.uncur hcur).trans (Cert.Spec.uncur_cur _))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
